-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v188)) (v1 : (c : Dev Cert.KernelIdeal.nD) → Buf (Elt Ideal) ((c.tc : Thread Cert.KernelIdeal.nD Cert.KernelIdeal.τ).loc Cert.KernelIdeal.main_v194)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v188) = v0 c
          ∧ r.2.mem ((c.tc : Thread Cert.KernelIdeal.nD Cert.KernelIdeal.τ).loc Cert.KernelIdeal.main_v194) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v303) = v0 c
          ∧ r.2.mem ((c.tc : Thread Cert.ReferenceIdeal.nD Cert.ReferenceIdeal.τ).loc Cert.ReferenceIdeal.main_v309) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S5x128x128 : Shape := ⟨3, ![5, 128, 128]⟩
abbrev S5x128 : Shape := ⟨2, ![5, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_

variable [Facts]

def fn_part1 {F : FTy → Type} [FloatOps F] (main_arg6 : FVec F S5x128 .f32) (main_arg7 : FVec F S5x128 .f32) (main_arg8 : FVec F S5x128 .f32) (main_v13 : IVec S_ 1) (main_v16 : IVec S5x128x128 1) : IVec S_ 1 :=
  let main_c_5 : IVec S_ 1 := constantI S_ 1 1#1
  let main_v17 : IVec S_ 1 := (fun x v => Host.reduce IntOp.andi x v reducesTo_S5x128x128_S_d0_1_2 h_S_) main_v16 main_c_5
  let main_v18 : IVec S_ 1 := andi main_v13 main_v17
  let main_v19 : FVec F S5x128 .f32 := Host.absf main_arg6
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S5x128 .f32 := Host.absf main_arg7
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : FVec F S5x128 .f32 := Host.absf main_arg8
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S5x128x128 .f32) (main_arg4 : FVec F S5x128 .f32) (main_arg5 : FVec F S5x128x128 .f32) (main_arg6 : FVec F S5x128 .f32) (main_arg7 : FVec F S5x128 .f32) (main_arg8 : FVec F S5x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S5x128x128 .f32 := Host.absf main_arg3
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x128 .f32 := Host.absf main_arg4
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S5x128x128 .f32 := Host.absf main_arg5
  let main_cst_4 : FVec F S_ .f32 := constant S_ .f32 0x7F800000#32
  let main_v15 : FVec F S5x128x128 .f32 := broadcastInDim S5x128x128 ![] bcast_S_S5x128x128 main_cst_4
  let main_v16 : IVec S5x128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S5x128x128 : Shape := ⟨3, ![5, 128, 128]⟩
abbrev S5x128 : Shape := ⟨2, ![5, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S1x50000x128 : Shape := ⟨3, ![1, 50000, 128]⟩
abbrev S5x50000x128 : Shape := ⟨3, ![5, 50000, 128]⟩

abbrev nBuf : Space → Nat
  | .hbm => 244
  | .vmem => 110
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S5x128x128, .f32⟩
  | 4 => ⟨S5x128, .f32⟩
  | 5 => ⟨S5x128x128, .f32⟩
  | 6 => ⟨S5x128, .f32⟩
  | 7 => ⟨S5x128, .f32⟩
  | 8 => ⟨S5x128, .f32⟩
  | 9 => ⟨S1x800000, .i32⟩
  | 10 => ⟨S800000, .i32⟩
  | 11 => ⟨S1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S1x128x128, .f32⟩
  | 27 => ⟨S128x128, .f32⟩
  | 28 => ⟨S1x128, .f32⟩
  | 29 => ⟨S128, .f32⟩
  | 30 => ⟨S1x128, .f32⟩
  | 31 => ⟨S1x128x128, .f32⟩
  | 32 => ⟨S128x128, .f32⟩
  | 33 => ⟨S1x128, .f32⟩
  | 34 => ⟨S128, .f32⟩
  | 35 => ⟨S1x128, .f32⟩
  | 36 => ⟨S1x128, .f32⟩
  | 37 => ⟨S128, .f32⟩
  | 38 => ⟨S1x128, .f32⟩
  | 39 => ⟨S1x128, .f32⟩
  | 40 => ⟨S128, .f32⟩
  | 41 => ⟨S1x128, .f32⟩
  | 42 => ⟨S50000x128, .f32⟩
  | 43 => ⟨S1x128, .f32⟩
  | 44 => ⟨S1x128, .f32⟩
  | 45 => ⟨S_, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S1x128, .f32⟩
  | 52 => ⟨S1x128, .f32⟩
  | 53 => ⟨S_, .f32⟩
  | 54 => ⟨S1x128, .f32⟩
  | 55 => ⟨S1x128, .f32⟩
  | 56 => ⟨S1x128, .f32⟩
  | 57 => ⟨S50000x128, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S1x128x128, .f32⟩
  | 72 => ⟨S128x128, .f32⟩
  | 73 => ⟨S1x128, .f32⟩
  | 74 => ⟨S128, .f32⟩
  | 75 => ⟨S1x128, .f32⟩
  | 76 => ⟨S1x128x128, .f32⟩
  | 77 => ⟨S128x128, .f32⟩
  | 78 => ⟨S1x128, .f32⟩
  | 79 => ⟨S128, .f32⟩
  | 80 => ⟨S1x128, .f32⟩
  | 81 => ⟨S1x128, .f32⟩
  | 82 => ⟨S128, .f32⟩
  | 83 => ⟨S1x128, .f32⟩
  | 84 => ⟨S1x128, .f32⟩
  | 85 => ⟨S128, .f32⟩
  | 86 => ⟨S1x128, .f32⟩
  | 87 => ⟨S50000x128, .f32⟩
  | 88 => ⟨S1x128, .f32⟩
  | 89 => ⟨S1x128, .f32⟩
  | 90 => ⟨S_, .f32⟩
  | 91 => ⟨S1x128, .f32⟩
  | 92 => ⟨S1x128, .f32⟩
  | 93 => ⟨S_, .f32⟩
  | 94 => ⟨S1x128, .f32⟩
  | 95 => ⟨S1x128, .f32⟩
  | 96 => ⟨S1x128, .f32⟩
  | 97 => ⟨S1x128, .f32⟩
  | 98 => ⟨S_, .f32⟩
  | 99 => ⟨S1x128, .f32⟩
  | 100 => ⟨S1x128, .f32⟩
  | 101 => ⟨S1x128, .f32⟩
  | 102 => ⟨S50000x128, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S_, .f32⟩
  | 113 => ⟨S50000x128, .f32⟩
  | 114 => ⟨S800000x1, .i32⟩
  | 115 => ⟨S50000x128, .f32⟩
  | 116 => ⟨S1x128x128, .f32⟩
  | 117 => ⟨S128x128, .f32⟩
  | 118 => ⟨S1x128, .f32⟩
  | 119 => ⟨S128, .f32⟩
  | 120 => ⟨S1x128, .f32⟩
  | 121 => ⟨S1x128x128, .f32⟩
  | 122 => ⟨S128x128, .f32⟩
  | 123 => ⟨S1x128, .f32⟩
  | 124 => ⟨S128, .f32⟩
  | 125 => ⟨S1x128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S1x128, .f32⟩
  | 2 => ⟨S128, .f32⟩
  | 3 => ⟨S1x128, .f32⟩
  | 4 => ⟨S50000x128, .f32⟩
  | 5 => ⟨S1x128, .f32⟩
  | 6 => ⟨S1x128, .f32⟩
  | 7 => ⟨S_, .f32⟩
  | 8 => ⟨S1x128, .f32⟩
  | 9 => ⟨S1x128, .f32⟩
  | 10 => ⟨S_, .f32⟩
  | 11 => ⟨S1x128, .f32⟩
  | 12 => ⟨S1x128, .f32⟩
  | 13 => ⟨S1x128, .f32⟩
  | 14 => ⟨S1x128, .f32⟩
  | 15 => ⟨S_, .f32⟩
  | 16 => ⟨S1x128, .f32⟩
  | 17 => ⟨S1x128, .f32⟩
  | 18 => ⟨S1x128, .f32⟩
  | 19 => ⟨S50000x128, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S1x128x128, .f32⟩
  | 34 => ⟨S128x128, .f32⟩
  | 35 => ⟨S1x128, .f32⟩
  | 36 => ⟨S128, .f32⟩
  | 37 => ⟨S1x128, .f32⟩
  | 38 => ⟨S1x128x128, .f32⟩
  | 39 => ⟨S128x128, .f32⟩
  | 40 => ⟨S1x128, .f32⟩
  | 41 => ⟨S128, .f32⟩
  | 42 => ⟨S1x128, .f32⟩
  | 43 => ⟨S1x128, .f32⟩
  | 44 => ⟨S128, .f32⟩
  | 45 => ⟨S1x128, .f32⟩
  | 46 => ⟨S1x128, .f32⟩
  | 47 => ⟨S128, .f32⟩
  | 48 => ⟨S1x128, .f32⟩
  | 49 => ⟨S50000x128, .f32⟩
  | 50 => ⟨S1x128, .f32⟩
  | 51 => ⟨S1x128, .f32⟩
  | 52 => ⟨S_, .f32⟩
  | 53 => ⟨S1x128, .f32⟩
  | 54 => ⟨S1x128, .f32⟩
  | 55 => ⟨S_, .f32⟩
  | 56 => ⟨S1x128, .f32⟩
  | 57 => ⟨S1x128, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S1x128, .f32⟩
  | 64 => ⟨S50000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S1x128x128, .f32⟩
  | 79 => ⟨S128x128, .f32⟩
  | 80 => ⟨S1x128, .f32⟩
  | 81 => ⟨S128, .f32⟩
  | 82 => ⟨S1x128, .f32⟩
  | 83 => ⟨S1x128x128, .f32⟩
  | 84 => ⟨S128x128, .f32⟩
  | 85 => ⟨S1x128, .f32⟩
  | 86 => ⟨S128, .f32⟩
  | 87 => ⟨S1x128, .f32⟩
  | 88 => ⟨S1x128, .f32⟩
  | 89 => ⟨S128, .f32⟩
  | 90 => ⟨S1x128, .f32⟩
  | 91 => ⟨S1x128, .f32⟩
  | 92 => ⟨S128, .f32⟩
  | 93 => ⟨S1x128, .f32⟩
  | 94 => ⟨S50000x128, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S1x128, .f32⟩
  | 105 => ⟨S_, .f32⟩
  | 106 => ⟨S1x128, .f32⟩
  | 107 => ⟨S1x128, .f32⟩
  | 108 => ⟨S1x128, .f32⟩
  | 109 => ⟨S50000x128, .f32⟩
  | 110 => ⟨S1x50000x128, .f32⟩
  | 111 => ⟨S1x50000x128, .f32⟩
  | 112 => ⟨S1x50000x128, .f32⟩
  | 113 => ⟨S1x50000x128, .f32⟩
  | 114 => ⟨S1x50000x128, .f32⟩
  | 115 => ⟨S5x50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S128x128, .f32⟩
  | .local _ .vmem, ⟨71, _⟩ => ⟨S1x128, .f32⟩
  | .local _ .vmem, ⟨72, _⟩ => ⟨S128x128, .f32⟩
  | .local _ .vmem, ⟨73, _⟩ => ⟨S1x128, .f32⟩
  | .local _ .vmem, ⟨74, _⟩ => ⟨S5000x128, .f32⟩
  | .local _ .vmem, ⟨75, _⟩ => ⟨S5000x128, .f32⟩
  | .local _ .vmem, ⟨76, _⟩ => ⟨S1x128, .f32⟩
  | .local _ .vmem, ⟨77, _⟩ => ⟨S1x128, .f32⟩
  | .local _ .vmem, ⟨78, _⟩ => ⟨S1x128, .f32⟩
  | .local _ .vmem, ⟨79, _⟩ => ⟨S1x128, .f32⟩
  | .local _ .vmem, ⟨80, _⟩ => ⟨S5000x128, .f32⟩
  | .local _ .vmem, ⟨81, _⟩ => ⟨S5000x128, .f32⟩
  | .local _ .vmem, ⟨82, _⟩ => ⟨S1x128, .f32⟩
  | .local _ .vmem, ⟨83, _⟩ => ⟨S1x128, .f32⟩
  | .local _ .vmem, ⟨84, _⟩ => ⟨S1x128, .f32⟩
  | .local _ .vmem, ⟨85, _⟩ => ⟨S1x128, .f32⟩
  | .local _ .vmem, ⟨86, _⟩ => ⟨S5000x128, .f32⟩
  | .local _ .vmem, ⟨87, _⟩ => ⟨S5000x128, .f32⟩
  | .local _ .vmem, ⟨88, _⟩ => ⟨S5000x128, .f32⟩
  | .local _ .vmem, ⟨89, _⟩ => ⟨S5000x128, .f32⟩
  | .local _ .vmem, ⟨90, _⟩ => ⟨S5000x128, .f32⟩
  | .local _ .vmem, ⟨91, _⟩ => ⟨S5000x128, .f32⟩
  | .local _ .vmem, ⟨92, _⟩ => ⟨S128x128, .f32⟩
  | .local _ .vmem, ⟨93, _⟩ => ⟨S1x128, .f32⟩
  | .local _ .vmem, ⟨94, _⟩ => ⟨S128x128, .f32⟩
  | .local _ .vmem, ⟨95, _⟩ => ⟨S1x128, .f32⟩
  | .local _ .vmem, ⟨96, _⟩ => ⟨S5000x128, .f32⟩
  | .local _ .vmem, ⟨97, _⟩ => ⟨S5000x128, .f32⟩
  | .local _ .vmem, ⟨98, _⟩ => ⟨S1x128, .f32⟩
  | .local _ .vmem, ⟨99, _⟩ => ⟨S1x128, .f32⟩
  | .local _ .vmem, ⟨100, _⟩ => ⟨S1x128, .f32⟩
  | .local _ .vmem, ⟨101, _⟩ => ⟨S1x128, .f32⟩
  | .local _ .vmem, ⟨102, _⟩ => ⟨S5000x128, .f32⟩
  | .local _ .vmem, ⟨103, _⟩ => ⟨S5000x128, .f32⟩
  | .local _ .vmem, ⟨104, _⟩ => ⟨S1x128, .f32⟩
  | .local _ .vmem, ⟨105, _⟩ => ⟨S1x128, .f32⟩
  | .local _ .vmem, ⟨106, _⟩ => ⟨S1x128, .f32⟩
  | .local _ .vmem, ⟨107, _⟩ => ⟨S1x128, .f32⟩
  | .local _ .vmem, ⟨108, _⟩ => ⟨S5000x128, .f32⟩
  | .local _ .vmem, ⟨109, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | _, _ => false

abbrev semScoped : Fin 0 → Bool
  | ⟨_, h⟩ => absurd h (Nat.not_lt_zero _)

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  ofTc nBuf bufTy 0 100 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev main_cst_1 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_4 : Ref sig .tc := ⟨.hbm, 58, rfl⟩
abbrev main_v41 : Ref sig .tc := ⟨.hbm, 59, rfl⟩
abbrev main_v42 : Ref sig .tc := ⟨.hbm, 60, rfl⟩
abbrev main_c_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67_0 : Ref sig .tc := ⟨.hbm, 87, rfl⟩
abbrev main_v67_1 : Ref sig .tc := ⟨.hbm, 88, rfl⟩
abbrev main_v67_2 : Ref sig .tc := ⟨.hbm, 89, rfl⟩
abbrev main_cst_7 : Ref sig .tc := ⟨.hbm, 90, rfl⟩
abbrev main_v68 : Ref sig .tc := ⟨.hbm, 91, rfl⟩
abbrev main_v69 : Ref sig .tc := ⟨.hbm, 92, rfl⟩
abbrev main_cst_8 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_9 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_10 : Ref sig .tc := ⟨.hbm, 103, rfl⟩
abbrev main_v78 : Ref sig .tc := ⟨.hbm, 104, rfl⟩
abbrev main_v79 : Ref sig .tc := ⟨.hbm, 105, rfl⟩
abbrev main_c_11 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_12 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104_0 : Ref sig .tc := ⟨.hbm, 132, rfl⟩
abbrev main_v104_1 : Ref sig .tc := ⟨.hbm, 133, rfl⟩
abbrev main_v104_2 : Ref sig .tc := ⟨.hbm, 134, rfl⟩
abbrev main_cst_13 : Ref sig .tc := ⟨.hbm, 135, rfl⟩
abbrev main_v105 : Ref sig .tc := ⟨.hbm, 136, rfl⟩
abbrev main_v106 : Ref sig .tc := ⟨.hbm, 137, rfl⟩
abbrev main_cst_14 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_15 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_c_16 : Ref sig .tc := ⟨.hbm, 148, rfl⟩
abbrev main_v115 : Ref sig .tc := ⟨.hbm, 149, rfl⟩
abbrev main_v116 : Ref sig .tc := ⟨.hbm, 150, rfl⟩
abbrev main_c_17 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_18 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141_0 : Ref sig .tc := ⟨.hbm, 177, rfl⟩
abbrev main_v141_1 : Ref sig .tc := ⟨.hbm, 178, rfl⟩
abbrev main_v141_2 : Ref sig .tc := ⟨.hbm, 179, rfl⟩
abbrev main_cst_19 : Ref sig .tc := ⟨.hbm, 180, rfl⟩
abbrev main_v142 : Ref sig .tc := ⟨.hbm, 181, rfl⟩
abbrev main_v143 : Ref sig .tc := ⟨.hbm, 182, rfl⟩
abbrev main_cst_20 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_cst_21 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_c_22 : Ref sig .tc := ⟨.hbm, 193, rfl⟩
abbrev main_v152 : Ref sig .tc := ⟨.hbm, 194, rfl⟩
abbrev main_v153 : Ref sig .tc := ⟨.hbm, 195, rfl⟩
abbrev main_c_23 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_cst_24 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178_0 : Ref sig .tc := ⟨.hbm, 222, rfl⟩
abbrev main_v178_1 : Ref sig .tc := ⟨.hbm, 223, rfl⟩
abbrev main_v178_2 : Ref sig .tc := ⟨.hbm, 224, rfl⟩
abbrev main_cst_25 : Ref sig .tc := ⟨.hbm, 225, rfl⟩
abbrev main_v179 : Ref sig .tc := ⟨.hbm, 226, rfl⟩
abbrev main_v180 : Ref sig .tc := ⟨.hbm, 227, rfl⟩
abbrev main_cst_26 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_cst_27 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg8_0 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg6_1 : Ref sig .tc := ⟨.vmem, 53, rfl⟩
abbrev cc4_stg7_0 : Ref sig .tc := ⟨.vmem, 54, rfl⟩
abbrev cc4_stg8_0 : Ref sig .tc := ⟨.vmem, 55, rfl⟩
abbrev cc4_scratch0 : Ref sig .tc := ⟨.vmem, 56, rfl⟩
abbrev cc4_scratch1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg5_0 : Ref sig .tc := ⟨.vmem, 73, rfl⟩
abbrev cc6_stg6_0 : Ref sig .tc := ⟨.vmem, 74, rfl⟩
abbrev cc6_stg6_1 : Ref sig .tc := ⟨.vmem, 75, rfl⟩
abbrev cc6_stg7_0 : Ref sig .tc := ⟨.vmem, 76, rfl⟩
abbrev cc6_stg8_0 : Ref sig .tc := ⟨.vmem, 77, rfl⟩
abbrev cc6_scratch0 : Ref sig .tc := ⟨.vmem, 78, rfl⟩
abbrev cc6_scratch1 : Ref sig .tc := ⟨.vmem, 79, rfl⟩
abbrev cc7_stg0_0 : Ref sig .tc := ⟨.vmem, 80, rfl⟩
abbrev cc7_stg0_1 : Ref sig .tc := ⟨.vmem, 81, rfl⟩
abbrev cc7_stg1_0 : Ref sig .tc := ⟨.vmem, 82, rfl⟩
abbrev cc7_stg2_0 : Ref sig .tc := ⟨.vmem, 83, rfl⟩
abbrev cc7_stg3_0 : Ref sig .tc := ⟨.vmem, 84, rfl⟩
abbrev cc7_stg4_0 : Ref sig .tc := ⟨.vmem, 85, rfl⟩
abbrev cc7_stg5_0 : Ref sig .tc := ⟨.vmem, 86, rfl⟩
abbrev cc7_stg5_1 : Ref sig .tc := ⟨.vmem, 87, rfl⟩
abbrev cc8_stg0_0 : Ref sig .tc := ⟨.vmem, 88, rfl⟩
abbrev cc8_stg0_1 : Ref sig .tc := ⟨.vmem, 89, rfl⟩
abbrev cc8_stg1_0 : Ref sig .tc := ⟨.vmem, 90, rfl⟩
abbrev cc8_stg1_1 : Ref sig .tc := ⟨.vmem, 91, rfl⟩
abbrev cc8_stg2_0 : Ref sig .tc := ⟨.vmem, 92, rfl⟩
abbrev cc8_stg3_0 : Ref sig .tc := ⟨.vmem, 93, rfl⟩
abbrev cc8_stg4_0 : Ref sig .tc := ⟨.vmem, 94, rfl⟩
abbrev cc8_stg5_0 : Ref sig .tc := ⟨.vmem, 95, rfl⟩
abbrev cc8_stg6_0 : Ref sig .tc := ⟨.vmem, 96, rfl⟩
abbrev cc8_stg6_1 : Ref sig .tc := ⟨.vmem, 97, rfl⟩
abbrev cc8_stg7_0 : Ref sig .tc := ⟨.vmem, 98, rfl⟩
abbrev cc8_stg8_0 : Ref sig .tc := ⟨.vmem, 99, rfl⟩
abbrev cc8_scratch0 : Ref sig .tc := ⟨.vmem, 100, rfl⟩
abbrev cc8_scratch1 : Ref sig .tc := ⟨.vmem, 101, rfl⟩
abbrev cc9_stg0_0 : Ref sig .tc := ⟨.vmem, 102, rfl⟩
abbrev cc9_stg0_1 : Ref sig .tc := ⟨.vmem, 103, rfl⟩
abbrev cc9_stg1_0 : Ref sig .tc := ⟨.vmem, 104, rfl⟩
abbrev cc9_stg2_0 : Ref sig .tc := ⟨.vmem, 105, rfl⟩
abbrev cc9_stg3_0 : Ref sig .tc := ⟨.vmem, 106, rfl⟩
abbrev cc9_stg4_0 : Ref sig .tc := ⟨.vmem, 107, rfl⟩
abbrev cc9_stg5_0 : Ref sig .tc := ⟨.vmem, 108, rfl⟩
abbrev cc9_stg5_1 : Ref sig .tc := ⟨.vmem, 109, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem5_0 : DmaSem sig := 67
abbrev cc6_sem6_0 : DmaSem sig := 68
abbrev cc6_sem6_1 : DmaSem sig := 69
abbrev cc6_sem7_0 : DmaSem sig := 70
abbrev cc6_sem8_0 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem3_0 : DmaSem sig := 76
abbrev cc7_sem4_0 : DmaSem sig := 77
abbrev cc7_sem5_0 : DmaSem sig := 78
abbrev cc7_sem5_1 : DmaSem sig := 79
abbrev cc8_sem0_0 : DmaSem sig := 80
abbrev cc8_sem0_1 : DmaSem sig := 81
abbrev cc8_sem1_0 : DmaSem sig := 82
abbrev cc8_sem1_1 : DmaSem sig := 83
abbrev cc8_sem2_0 : DmaSem sig := 84
abbrev cc8_sem3_0 : DmaSem sig := 85
abbrev cc8_sem4_0 : DmaSem sig := 86
abbrev cc8_sem5_0 : DmaSem sig := 87
abbrev cc8_sem6_0 : DmaSem sig := 88
abbrev cc8_sem6_1 : DmaSem sig := 89
abbrev cc8_sem7_0 : DmaSem sig := 90
abbrev cc8_sem8_0 : DmaSem sig := 91
abbrev cc9_sem0_0 : DmaSem sig := 92
abbrev cc9_sem0_1 : DmaSem sig := 93
abbrev cc9_sem1_0 : DmaSem sig := 94
abbrev cc9_sem2_0 : DmaSem sig := 95
abbrev cc9_sem3_0 : DmaSem sig := 96
abbrev cc9_sem4_0 : DmaSem sig := 97
abbrev cc9_sem5_0 : DmaSem sig := 98
abbrev cc9_sem5_1 : DmaSem sig := 99

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v45 : BitVec 1 := Scalar.cmpi .eq arg0 c9_i32
  let v46 : BitVec 32 := Scalar.extui v45
  let c0_i32_27 : BitVec 32 := 0#32
  let v47 : BitVec 1 := Scalar.cmpi .ne v46 c0_i32_27
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v46 : BitVec 1 := Scalar.cmpi .eq arg0 c9_i32
  let v47 : BitVec 32 := Scalar.extui v46
  let c0_i32_27 : BitVec 32 := 0#32
  let v48 : BitVec 1 := Scalar.cmpi .ne v47 c0_i32_27
  v48

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v46 : BitVec 1 := Scalar.cmpi .eq arg0 c9_i32
  let v47 : BitVec 32 := Scalar.extui v46
  let c0_i32_27 : BitVec 32 := 0#32
  let v48 : BitVec 1 := Scalar.cmpi .ne v47 c0_i32_27
  v48

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v46 : BitVec 1 := Scalar.cmpi .eq arg0 c9_i32
  let v47 : BitVec 32 := Scalar.extui v46
  let c0_i32_27 : BitVec 32 := 0#32
  let v48 : BitVec 1 := Scalar.cmpi .ne v47 c0_i32_27
  v48

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def k8_cond2 (i : grid8.Coords) : BitVec 1 :=
  let arg0 : BitVec 32 := BitVec.ofNat 32 (i 0).val
  let c9_i32 : BitVec 32 := 9#32
  let v46 : BitVec 1 := Scalar.cmpi .eq arg0 c9_i32
  let v47 : BitVec 32 := Scalar.extui v46
  let c0_i32_27 : BitVec 32 := 0#32
  let v48 : BitVec 1 := Scalar.cmpi .ne v47 c0_i32_27
  v48

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 1 → Memref sig .tc .vmem S1x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S50000x128_S1x50000x128_1_2 : S50000x128.BroadcastsInDim S1x50000x128 (![1, 2] : Fin 2 → Fin S1x50000x128.rank)
  concatenates_S1x50000x128_S1x50000x128_S1x50000x128_S1x50000x128_S1x50000x128_S5x50000x128_d0 : Shape.Concatenates [S1x50000x128, S1x50000x128, S1x50000x128, S1x50000x128, S1x50000x128] S5x50000x128 0
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S50000x128.size a
  hwx6_6 : ∀ i : grid6.Coords, EltTy.bits .f32 = 32 ∨ (Rect.block (s := S50000x128) S5000x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .f32 = 32 ∨ (Rect.block (s := S128x128) S128x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S50000x128.size a
  hwx8_6 : ∀ i : grid8.Coords, EltTy.bits .f32 = 32 ∨ (Rect.block (s := S50000x128) S5000x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x128.size a ≤ S1x128.size a
  hwx8_7 : ∀ i : grid8.Coords, EltTy.bits .f32 = 32 ∨ (Rect.block (s := S1x128) S1x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S50000x128.size a
  hwx9_5 : ∀ i : grid9.Coords, EltTy.bits .f32 = 32 ∨ (Rect.block (s := S50000x128) S5000x128.size (cc9_transform_5 i) (hinb9_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v30_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v30_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v67_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v67_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v67_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v67_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v77) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v87) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v89) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v92) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v94) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v97) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v104_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v104_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v104_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun i => !(k4_cond2 i == 1#1) | 8 => fun i => !(k4_cond2 i == 1#1) | ⟨_ + 9, h⟩ => absurd h (Nat.not_lt.2 (Nat.le_add_left _ _))

abbrev win5_0 : Pipeline.Window sig grid5 :=
  Pipeline.Window.ofSpec (Memref.whole main_v104_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v106) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v113) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v103) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v114) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v114) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v124) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v126) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v129) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v131) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v134) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v141_0) S5000x128.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v141_1) S1x128.size cc6_transform_7 reads6_7 true true 1 stage6_7 sem6_7
    hrank6 hreads6_7 hinb6_7 nbuf6_7 (Memref.isWhole_whole _) hwx6_7 hstage6_7

abbrev win6_8 : Pipeline.Window sig grid6 :=
  Pipeline.Window.ofSpec (Memref.whole main_v141_2) S1x128.size cc6_transform_8 reads6_8 true true 1 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev idle6 : Fin 9 → grid6.Coords → Bool := fun | 0 => fun _ => false | 1 => fun _ => false | 2 => fun _ => false | 3 => fun _ => false | 4 => fun _ => false | 5 => fun _ => false | 6 => fun _ => false | 7 => fun i => !(k6_cond2 i == 1#1) | 8 => fun i => !(k6_cond2 i == 1#1) | ⟨_ + 9, h⟩ => absurd h (Nat.not_lt.2 (Nat.le_add_left _ _))

abbrev win7_0 : Pipeline.Window sig grid7 :=
  Pipeline.Window.ofSpec (Memref.whole main_v141_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v143) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v150) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v137) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v140) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v151) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v151) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v161) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v163) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v166) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v168) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v171) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v178_0) S5000x128.size cc8_transform_6 reads8_6 true false 2 stage8_6 sem8_6
    hrank8 hreads8_6 hinb8_6 nbuf8_6 (Memref.isWhole_whole _) hwx8_6 hstage8_6

abbrev win8_7 : Pipeline.Window sig grid8 :=
  Pipeline.Window.ofSpec (Memref.whole main_v178_1) S1x128.size cc8_transform_7 reads8_7 true true 1 stage8_7 sem8_7
    hrank8 hreads8_7 hinb8_7 nbuf8_7 (Memref.isWhole_whole _) hwx8_7 hstage8_7

abbrev win8_8 : Pipeline.Window sig grid8 :=
  Pipeline.Window.ofSpec (Memref.whole main_v178_2) S1x128.size cc8_transform_8 reads8_8 true true 1 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

abbrev idle8 : Fin 9 → grid8.Coords → Bool := fun | 0 => fun _ => false | 1 => fun _ => false | 2 => fun _ => false | 3 => fun _ => false | 4 => fun _ => false | 5 => fun _ => false | 6 => fun _ => false | 7 => fun i => !(k8_cond2 i == 1#1) | 8 => fun i => !(k8_cond2 i == 1#1) | ⟨_ + 9, h⟩ => absurd h (Nat.not_lt.2 (Nat.le_add_left _ _))

abbrev win9_0 : Pipeline.Window sig grid9 :=
  Pipeline.Window.ofSpec (Memref.whole main_v178_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v180) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v187) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v174) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v177) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v188) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S5x128x128 : Shape := ⟨3, ![5, 128, 128]⟩
abbrev S5x128 : Shape := ⟨2, ![5, 128]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x50000x128 : Shape := ⟨3, ![1, 50000, 128]⟩
abbrev S5x50000x128 : Shape := ⟨3, ![5, 50000, 128]⟩

abbrev nBuf : Space → Nat
  | .hbm => 369
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S5x128x128, .f32⟩
  | 4 => ⟨S5x128, .f32⟩
  | 5 => ⟨S5x128x128, .f32⟩
  | 6 => ⟨S5x128, .f32⟩
  | 7 => ⟨S5x128, .f32⟩
  | 8 => ⟨S5x128, .f32⟩
  | 9 => ⟨S1x800000, .i32⟩
  | 10 => ⟨S800000, .i32⟩
  | 11 => ⟨S1x800000, .i32⟩
  | 12 => ⟨S800000, .i32⟩
  | 13 => ⟨S1x128x128, .f32⟩
  | 14 => ⟨S128x128, .f32⟩
  | 15 => ⟨S1x128, .f32⟩
  | 16 => ⟨S128, .f32⟩
  | 17 => ⟨S1x128x128, .f32⟩
  | 18 => ⟨S128x128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S_, .f32⟩
  | 54 => ⟨S128, .f32⟩
  | 55 => ⟨S_, .f32⟩
  | 56 => ⟨S128, .f32⟩
  | 57 => ⟨S128, .f32⟩
  | 58 => ⟨S1x128, .f32⟩
  | 59 => ⟨S50000x128, .f32⟩
  | 60 => ⟨S50000x128, .f32⟩
  | 61 => ⟨S50000x128, .f32⟩
  | 62 => ⟨S_, .f32⟩
  | 63 => ⟨S128, .f32⟩
  | 64 => ⟨S_, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S_, .f32⟩
  | 71 => ⟨S128, .f32⟩
  | 72 => ⟨S128, .f32⟩
  | 73 => ⟨S128, .f32⟩
  | 74 => ⟨S1x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S1x128x128, .f32⟩
  | 84 => ⟨S128x128, .f32⟩
  | 85 => ⟨S1x128, .f32⟩
  | 86 => ⟨S128, .f32⟩
  | 87 => ⟨S1x128x128, .f32⟩
  | 88 => ⟨S128x128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S_, .f32⟩
  | 124 => ⟨S128, .f32⟩
  | 125 => ⟨S_, .f32⟩
  | 126 => ⟨S128, .f32⟩
  | 127 => ⟨S128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S50000x128, .f32⟩
  | 4 => ⟨S_, .f32⟩
  | 5 => ⟨S128, .f32⟩
  | 6 => ⟨S_, .f32⟩
  | 7 => ⟨S128, .f32⟩
  | 8 => ⟨S128, .f32⟩
  | 9 => ⟨S1x128, .f32⟩
  | 10 => ⟨S50000x128, .f32⟩
  | 11 => ⟨S50000x128, .f32⟩
  | 12 => ⟨S_, .f32⟩
  | 13 => ⟨S128, .f32⟩
  | 14 => ⟨S128, .f32⟩
  | 15 => ⟨S128, .f32⟩
  | 16 => ⟨S1x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S1x128x128, .f32⟩
  | 26 => ⟨S128x128, .f32⟩
  | 27 => ⟨S1x128, .f32⟩
  | 28 => ⟨S128, .f32⟩
  | 29 => ⟨S1x128x128, .f32⟩
  | 30 => ⟨S128x128, .f32⟩
  | 31 => ⟨S1x128, .f32⟩
  | 32 => ⟨S128, .f32⟩
  | 33 => ⟨S1x128, .f32⟩
  | 34 => ⟨S128, .f32⟩
  | 35 => ⟨S1x128, .f32⟩
  | 36 => ⟨S128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S_, .f32⟩
  | 66 => ⟨S128, .f32⟩
  | 67 => ⟨S_, .f32⟩
  | 68 => ⟨S128, .f32⟩
  | 69 => ⟨S128, .f32⟩
  | 70 => ⟨S1x128, .f32⟩
  | 71 => ⟨S50000x128, .f32⟩
  | 72 => ⟨S50000x128, .f32⟩
  | 73 => ⟨S50000x128, .f32⟩
  | 74 => ⟨S_, .f32⟩
  | 75 => ⟨S128, .f32⟩
  | 76 => ⟨S_, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S_, .f32⟩
  | 83 => ⟨S128, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S1x128x128, .f32⟩
  | 96 => ⟨S128x128, .f32⟩
  | 97 => ⟨S1x128, .f32⟩
  | 98 => ⟨S128, .f32⟩
  | 99 => ⟨S1x128x128, .f32⟩
  | 100 => ⟨S128x128, .f32⟩
  | 101 => ⟨S1x128, .f32⟩
  | 102 => ⟨S128, .f32⟩
  | 103 => ⟨S1x128, .f32⟩
  | 104 => ⟨S128, .f32⟩
  | 105 => ⟨S1x128, .f32⟩
  | 106 => ⟨S128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_2 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S_, .f32⟩
  | 8 => ⟨S128, .f32⟩
  | 9 => ⟨S_, .f32⟩
  | 10 => ⟨S128, .f32⟩
  | 11 => ⟨S128, .f32⟩
  | 12 => ⟨S1x128, .f32⟩
  | 13 => ⟨S50000x128, .f32⟩
  | 14 => ⟨S50000x128, .f32⟩
  | 15 => ⟨S50000x128, .f32⟩
  | 16 => ⟨S_, .f32⟩
  | 17 => ⟨S128, .f32⟩
  | 18 => ⟨S_, .f32⟩
  | 19 => ⟨S128, .f32⟩
  | 20 => ⟨S128, .f32⟩
  | 21 => ⟨S1x128, .f32⟩
  | 22 => ⟨S50000x128, .f32⟩
  | 23 => ⟨S50000x128, .f32⟩
  | 24 => ⟨S_, .f32⟩
  | 25 => ⟨S128, .f32⟩
  | 26 => ⟨S128, .f32⟩
  | 27 => ⟨S128, .f32⟩
  | 28 => ⟨S1x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S1x128x128, .f32⟩
  | 38 => ⟨S128x128, .f32⟩
  | 39 => ⟨S1x128, .f32⟩
  | 40 => ⟨S128, .f32⟩
  | 41 => ⟨S1x128x128, .f32⟩
  | 42 => ⟨S128x128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S_, .f32⟩
  | 78 => ⟨S128, .f32⟩
  | 79 => ⟨S_, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S50000x128, .f32⟩
  | 86 => ⟨S_, .f32⟩
  | 87 => ⟨S128, .f32⟩
  | 88 => ⟨S_, .f32⟩
  | 89 => ⟨S128, .f32⟩
  | 90 => ⟨S128, .f32⟩
  | 91 => ⟨S1x128, .f32⟩
  | 92 => ⟨S50000x128, .f32⟩
  | 93 => ⟨S50000x128, .f32⟩
  | 94 => ⟨S_, .f32⟩
  | 95 => ⟨S128, .f32⟩
  | 96 => ⟨S128, .f32⟩
  | 97 => ⟨S128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S1x50000x128, .f32⟩
  | 108 => ⟨S1x50000x128, .f32⟩
  | 109 => ⟨S1x50000x128, .f32⟩
  | 110 => ⟨S1x50000x128, .f32⟩
  | 111 => ⟨S1x50000x128, .f32⟩
  | 112 => ⟨S5x50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_c_8 : Ref sig .tc := ⟨.hbm, 95, rfl⟩
abbrev main_v76 : Ref sig .tc := ⟨.hbm, 96, rfl⟩
abbrev main_v77 : Ref sig .tc := ⟨.hbm, 97, rfl⟩
abbrev main_c_9 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_10 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_11 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_12 : Ref sig .tc := ⟨.hbm, 120, rfl⟩
abbrev main_v97 : Ref sig .tc := ⟨.hbm, 121, rfl⟩
abbrev main_v98 : Ref sig .tc := ⟨.hbm, 122, rfl⟩
abbrev main_cst_13 : Ref sig .tc := ⟨.hbm, 123, rfl⟩
abbrev main_v99 : Ref sig .tc := ⟨.hbm, 124, rfl⟩
abbrev main_cst_14 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_15 : Ref sig .tc := ⟨.hbm, 132, rfl⟩
abbrev main_v106 : Ref sig .tc := ⟨.hbm, 133, rfl⟩
abbrev main_cst_16 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_17 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_c_18 : Ref sig .tc := ⟨.hbm, 165, rfl⟩
abbrev main_v136 : Ref sig .tc := ⟨.hbm, 166, rfl⟩
abbrev main_v137 : Ref sig .tc := ⟨.hbm, 167, rfl⟩
abbrev main_c_19 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_cst_20 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_cst_21 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_cst_22 : Ref sig .tc := ⟨.hbm, 190, rfl⟩
abbrev main_v157 : Ref sig .tc := ⟨.hbm, 191, rfl⟩
abbrev main_v158 : Ref sig .tc := ⟨.hbm, 192, rfl⟩
abbrev main_cst_23 : Ref sig .tc := ⟨.hbm, 193, rfl⟩
abbrev main_v159 : Ref sig .tc := ⟨.hbm, 194, rfl⟩
abbrev main_cst_24 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_cst_25 : Ref sig .tc := ⟨.hbm, 202, rfl⟩
abbrev main_v166 : Ref sig .tc := ⟨.hbm, 203, rfl⟩
abbrev main_cst_26 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_cst_27 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_c_28 : Ref sig .tc := ⟨.hbm, 235, rfl⟩
abbrev main_v196 : Ref sig .tc := ⟨.hbm, 236, rfl⟩
abbrev main_v197 : Ref sig .tc := ⟨.hbm, 237, rfl⟩
abbrev main_c_29 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_cst_30 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_cst_31 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_cst_32 : Ref sig .tc := ⟨.hbm, 260, rfl⟩
abbrev main_v217 : Ref sig .tc := ⟨.hbm, 261, rfl⟩
abbrev main_v218 : Ref sig .tc := ⟨.hbm, 262, rfl⟩
abbrev main_cst_33 : Ref sig .tc := ⟨.hbm, 263, rfl⟩
abbrev main_v219 : Ref sig .tc := ⟨.hbm, 264, rfl⟩
abbrev main_cst_34 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_cst_35 : Ref sig .tc := ⟨.hbm, 272, rfl⟩
abbrev main_v226 : Ref sig .tc := ⟨.hbm, 273, rfl⟩
abbrev main_cst_36 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_cst_37 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_c_38 : Ref sig .tc := ⟨.hbm, 305, rfl⟩
abbrev main_v256 : Ref sig .tc := ⟨.hbm, 306, rfl⟩
abbrev main_v257 : Ref sig .tc := ⟨.hbm, 307, rfl⟩
abbrev main_c_39 : Ref sig .tc := ⟨.hbm, 308, rfl⟩
abbrev main_v258 : Ref sig .tc := ⟨.hbm, 309, rfl⟩
abbrev main_v259 : Ref sig .tc := ⟨.hbm, 310, rfl⟩
abbrev main_v260 : Ref sig .tc := ⟨.hbm, 311, rfl⟩
abbrev main_v261 : Ref sig .tc := ⟨.hbm, 312, rfl⟩
abbrev main_v262 : Ref sig .tc := ⟨.hbm, 313, rfl⟩
abbrev main_cst_40 : Ref sig .tc := ⟨.hbm, 314, rfl⟩
abbrev main_v263 : Ref sig .tc := ⟨.hbm, 315, rfl⟩
abbrev main_v264 : Ref sig .tc := ⟨.hbm, 316, rfl⟩
abbrev main_v265 : Ref sig .tc := ⟨.hbm, 317, rfl⟩
abbrev main_v266 : Ref sig .tc := ⟨.hbm, 318, rfl⟩
abbrev main_v267 : Ref sig .tc := ⟨.hbm, 319, rfl⟩
abbrev main_v268 : Ref sig .tc := ⟨.hbm, 320, rfl⟩
abbrev main_v269 : Ref sig .tc := ⟨.hbm, 321, rfl⟩
abbrev main_v270 : Ref sig .tc := ⟨.hbm, 322, rfl⟩
abbrev main_cst_41 : Ref sig .tc := ⟨.hbm, 323, rfl⟩
abbrev main_v271 : Ref sig .tc := ⟨.hbm, 324, rfl⟩
abbrev main_v272 : Ref sig .tc := ⟨.hbm, 325, rfl⟩
abbrev main_v273 : Ref sig .tc := ⟨.hbm, 326, rfl⟩
abbrev main_v274 : Ref sig .tc := ⟨.hbm, 327, rfl⟩
abbrev main_v275 : Ref sig .tc := ⟨.hbm, 328, rfl⟩
abbrev main_v276 : Ref sig .tc := ⟨.hbm, 329, rfl⟩
abbrev main_cst_42 : Ref sig .tc := ⟨.hbm, 330, rfl⟩
abbrev main_v277 : Ref sig .tc := ⟨.hbm, 331, rfl⟩
abbrev main_v278 : Ref sig .tc := ⟨.hbm, 332, rfl⟩
abbrev main_cst_43 : Ref sig .tc := ⟨.hbm, 333, rfl⟩
abbrev main_v279 : Ref sig .tc := ⟨.hbm, 334, rfl⟩
abbrev main_cst_44 : Ref sig .tc := ⟨.hbm, 335, rfl⟩
abbrev main_v280 : Ref sig .tc := ⟨.hbm, 336, rfl⟩
abbrev main_v281 : Ref sig .tc := ⟨.hbm, 337, rfl⟩
abbrev main_v282 : Ref sig .tc := ⟨.hbm, 338, rfl⟩
abbrev main_v283 : Ref sig .tc := ⟨.hbm, 339, rfl⟩
abbrev main_v284 : Ref sig .tc := ⟨.hbm, 340, rfl⟩
abbrev main_v285 : Ref sig .tc := ⟨.hbm, 341, rfl⟩
abbrev main_cst_45 : Ref sig .tc := ⟨.hbm, 342, rfl⟩
abbrev main_v286 : Ref sig .tc := ⟨.hbm, 343, rfl⟩
abbrev main_cst_46 : Ref sig .tc := ⟨.hbm, 344, rfl⟩
abbrev main_v287 : Ref sig .tc := ⟨.hbm, 345, rfl⟩
abbrev main_v288 : Ref sig .tc := ⟨.hbm, 346, rfl⟩
abbrev main_v289 : Ref sig .tc := ⟨.hbm, 347, rfl⟩
abbrev main_v290 : Ref sig .tc := ⟨.hbm, 348, rfl⟩
abbrev main_v291 : Ref sig .tc := ⟨.hbm, 349, rfl⟩
abbrev main_cst_47 : Ref sig .tc := ⟨.hbm, 350, rfl⟩
abbrev main_v292 : Ref sig .tc := ⟨.hbm, 351, rfl⟩
abbrev main_v293 : Ref sig .tc := ⟨.hbm, 352, rfl⟩
abbrev main_v294 : Ref sig .tc := ⟨.hbm, 353, rfl⟩
abbrev main_v295 : Ref sig .tc := ⟨.hbm, 354, rfl⟩
abbrev main_v296 : Ref sig .tc := ⟨.hbm, 355, rfl⟩
abbrev main_v297 : Ref sig .tc := ⟨.hbm, 356, rfl⟩
abbrev main_v298 : Ref sig .tc := ⟨.hbm, 357, rfl⟩
abbrev main_v299 : Ref sig .tc := ⟨.hbm, 358, rfl⟩
abbrev main_v300 : Ref sig .tc := ⟨.hbm, 359, rfl⟩
abbrev main_v301 : Ref sig .tc := ⟨.hbm, 360, rfl⟩
abbrev main_v302 : Ref sig .tc := ⟨.hbm, 361, rfl⟩
abbrev main_v303 : Ref sig .tc := ⟨.hbm, 362, rfl⟩
abbrev main_v304 : Ref sig .tc := ⟨.hbm, 363, rfl⟩
abbrev main_v305 : Ref sig .tc := ⟨.hbm, 364, rfl⟩
abbrev main_v306 : Ref sig .tc := ⟨.hbm, 365, rfl⟩
abbrev main_v307 : Ref sig .tc := ⟨.hbm, 366, rfl⟩
abbrev main_v308 : Ref sig .tc := ⟨.hbm, 367, rfl⟩
abbrev main_v309 : Ref sig .tc := ⟨.hbm, 368, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S50000x128_S1x50000x128_1_2 : S50000x128.BroadcastsInDim S1x50000x128 (![1, 2] : Fin 2 → Fin S1x50000x128.rank)
  concatenates_S1x50000x128_S1x50000x128_S1x50000x128_S1x50000x128_S1x50000x128_S5x50000x128_d0 : Shape.Concatenates [S1x50000x128, S1x50000x128, S1x50000x128, S1x50000x128, S1x50000x128] S5x50000x128 0
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Kernel.Mlp0Base.lean ====
import proofs.«139862_j28269474742473_1_alg».proof.Proof.Gen.Kernel.Launch
import proofs.«139862_j28269474742473_1_alg».proof.Proof.Gen.Kernel.Skeleton
import proofs.«139862_j28269474742473_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! # The first MLP region (custom_call 0): what its runs share

The body of the MLP kernel has two conditionals on the grid coordinate: the first holds at the grid's first
point only (there the two scratch accumulators are zeroed), the second at the last point only (there the
accumulators are copied to the two statistics outputs). Here: the conditions in closed form, where the
statistics windows are idle, the staging memrefs and the scratch memrefs, the class invariant with the two
scratch buffers split off, and the blocks of the input windows at a parameter `V` (the contents the region
is entered at). -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional: the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second conditional: the grid coordinate is 9. -/
abbrev cond0_1 (i : grid0.Coords) : Prop := k0_cond2 i = 1#1
/-- It holds at the last point only. -/
theorem hcond0_1 : ∀ t : Fin cfg0.N, cond0_1 (grid0.coords t) ↔ t.val = 9 :=
  (by decide +kernel : ∀ t : Fin grid0.N, cond0_1 (grid0.coords t) ↔ t.val = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last point the statistics windows are idle and not written back; at the last point live. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

/-! ## The staging memrefs and the scratch -/

abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- The two scratch accumulators (column sums, column sums of squares), whole. -/
abbrev scM0_0 : Memref sig .tc .vmem S1x128 .f32 := Memref.whole cc0_scratch0
abbrev scM0_1 : Memref sig .tc .vmem S1x128 .f32 := Memref.whole cc0_scratch1

/-- The rest of the scoped buffers once the two accumulators are taken out. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The class invariant with the two accumulators owned at some contents, the other scoped buffers unopened. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA; rw [scopedRest0_split]; simp only [scM0_0, scM0_1, owns_whole]; try rfl

/-! ## The windows' blocks, at the contents `V` the region is entered at -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.Kernel.Reg

end
-- ==== Proof.Kernel.Mlp0Run.lean ====
import proofs.«139862_j28269474742473_1_alg».proof.Proof.Kernel.Mlp0Base
import Idealize.ShloMosaic.Lib.Pipeline.Value

/-! # The first MLP region: the body's run in each of its three control cases

The body loads the two row blocks and the four weight arrays, stores the block of the MLP's output (every
store of this kernel covers its whole buffer), and adds the block's column sums and column sums of squares
onto the two scratch accumulators; at the first point it zeroes the accumulators first, at the last point it
copies them to the two statistics outputs. Each case is one triple over whole staging memrefs, its post stated
through the skeleton's payloads. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of the whole-buffer rectangles, however spelt. -/
theorem mlp_hz : (![0, 0] : Fin 2 → Nat) = fun _ => 0 := funext fun a => by fin_cases a <;> rfl

/-- Reading back a buffer whose LAST store covered it whole gives that store's payload. -/
theorem mlp_read_store_whole {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-- The block of the MLP's output from the six input blocks: relu(relu((h + agg)·W1 + b1)·W2 + b2). -/
def h0 (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 := k0_pay5 x0 x1 x2 x3 x4 x5
/-- The first accumulator after a point: the block's column sums added onto what it held. -/
def acc0_0 (x0 : Vec F S5000x128 .f32) (x1 : Vec F S5000x128 .f32) (x2 : Vec F S128x128 .f32) (x3 : Vec F S1x128 .f32) (x4 : Vec F S128x128 .f32) (x5 : Vec F S1x128 .f32) (s0 : Vec F S1x128 .f32) : Vec F S1x128 .f32 := k0_pay1 (k0_pay6 x0 x1 x2 x3 x4 x5 s0)
/-- The second accumulator after a point: the column sums of the block's squares added onto what it held. -/
def acc0_1 (x0 : Vec F S5000x128 .f32) (x1 : Vec F S5000x128 .f32) (x2 : Vec F S128x128 .f32) (x3 : Vec F S1x128 .f32) (x4 : Vec F S128x128 .f32) (x5 : Vec F S1x128 .f32) (s1 : Vec F S1x128 .f32) : Vec F S1x128 .f32 := k0_pay2 (k0_pay5 x0 x1 x2 x3 x4 x5) s1

set_option maxHeartbeats 4000000 in
/-- The first point: the first conditional taken (the accumulators, found at anything, are zeroed), the second not. The
    statistics outputs are handed back untouched; the accumulators end at `acc0_0 … 0`, `acc0_1 … 0`. -/
theorem sound_kernel0_A (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : cond0_0 i) (hc1 : ¬cond0_1 i) (x0 : Vec F S5000x128 .f32) (x1 : Vec F S5000x128 .f32) (x2 : Vec F S128x128 .f32) (x3 : Vec F S1x128 .f32) (x4 : Vec F S128x128 .f32) (x5 : Vec F S1x128 .f32) (xi7 xi8 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xi8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h0 x0 x1 x2 x3 x4 x5) ∗ owns (c : Thread nD τ) arg8 fullShare xi7 ∗ owns (c : Thread nD τ) arg9 fullShare xi8
            ∗ owns (c : Thread nD τ) arg10 fullShare (acc0_0 x0 x1 x2 x3 x4 x5 k0_pay3) ∗ owns (c : Thread nD τ) arg11 fullShare (acc0_1 x0 x1 x2 x3 x4 x5 k0_pay4)) -∗ K ⟨⟩))
      ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K := by
  simp only [cc0__mlp_stats_kernel_eq_skeleton]; unfold cc0__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
  subst hf0; subst hf1; subst hf2; subst hf3; subst hf4; subst hf5; subst hf7; subst hf8
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists f7; isplitr
    · ipureintro; rfl
    iexact H7
  isplitl [H8]
  · iexists f8; isplitr
    · ipureintro; rfl
    iexact H8
  isplitl [HS0]
  · iexists _; isplitr
    swap
    · iexact HS0
    ipureintro; sl_unfold_words
    rw [mlp_read_store_whole _ _ mlp_hz]
    simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]

set_option maxHeartbeats 4000000 in
/-- A middle point: neither conditional taken. The statistics outputs are handed back untouched; the accumulators go from
    `xs0`, `xs1` to `acc0_0 … xs0`, `acc0_1 … xs1`. -/
theorem sound_kernel0_B (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬cond0_0 i) (hc1 : ¬cond0_1 i) (x0 : Vec F S5000x128 .f32) (x1 : Vec F S5000x128 .f32) (x2 : Vec F S128x128 .f32) (x3 : Vec F S1x128 .f32) (x4 : Vec F S128x128 .f32) (x5 : Vec F S1x128 .f32) (xi7 xi8 xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xi8
        ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h0 x0 x1 x2 x3 x4 x5) ∗ owns (c : Thread nD τ) arg8 fullShare xi7 ∗ owns (c : Thread nD τ) arg9 fullShare xi8
            ∗ owns (c : Thread nD τ) arg10 fullShare (acc0_0 x0 x1 x2 x3 x4 x5 xs0) ∗ owns (c : Thread nD τ) arg11 fullShare (acc0_1 x0 x1 x2 x3 x4 x5 xs1)) -∗ K ⟨⟩))
      ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K := by
  simp only [cc0__mlp_stats_kernel_eq_skeleton]; unfold cc0__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
  subst hf0; subst hf1; subst hf2; subst hf3; subst hf4; subst hf5; subst hf7; subst hf8; subst hfs0; subst hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists f7; isplitr
    · ipureintro; rfl
    iexact H7
  isplitl [H8]
  · iexists f8; isplitr
    · ipureintro; rfl
    iexact H8
  isplitl [HS0]
  · iexists _; isplitr
    swap
    · iexact HS0
    ipureintro; sl_unfold_words
    rw [mlp_read_store_whole _ _ mlp_hz]
    simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]

set_option maxHeartbeats 4000000 in
/-- The last point: the first conditional not taken, the second taken. The accumulators go from `xs0`, `xs1` to
    `acc0_0 … xs0`, `acc0_1 … xs1`, and the two statistics outputs, found at anything, end holding the same. -/
theorem sound_kernel0_C (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬cond0_0 i) (hc1 : cond0_1 i) (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h0 x0 x1 x2 x3 x4 x5) ∗ owns (c : Thread nD τ) arg8 fullShare (acc0_0 x0 x1 x2 x3 x4 x5 xs0) ∗ owns (c : Thread nD τ) arg9 fullShare (acc0_1 x0 x1 x2 x3 x4 x5 xs1)
            ∗ owns (c : Thread nD τ) arg10 fullShare (acc0_0 x0 x1 x2 x3 x4 x5 xs0) ∗ owns (c : Thread nD τ) arg11 fullShare (acc0_1 x0 x1 x2 x3 x4 x5 xs1)) -∗ K ⟨⟩))
      ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K := by
  simp only [cc0__mlp_stats_kernel_eq_skeleton]; unfold cc0__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
  subst hf0; subst hf1; subst hf2; subst hf3; subst hf4; subst hf5; subst hfs0; subst hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists _; isplitr
    swap
    · iexact H7
    ipureintro; sl_unfold_words
    rw [mlp_read_store_whole _ _ mlp_hz]
    simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H8]
  · iexists _; isplitr
    swap
    · iexact H8
    ipureintro; sl_unfold_words
    rw [mlp_read_store_whole _ _ mlp_hz]
    simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [HS0]
  · iexists _; isplitr
    swap
    · iexact HS0
    ipureintro; sl_unfold_words
    rw [mlp_read_store_whole _ _ mlp_hz]
    simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]

end Cert.Kernel.Reg

end
-- ==== Proof.Kernel.Mlp0.lean ====
import proofs.«139862_j28269474742473_1_alg».proof.Proof.Kernel.Mlp0Run

/-! # The first MLP region (custom_call 0) at a parameter `V`: proof data, body obligation, entry and exit

The grid has ten points, one per block of 5000 rows. The two scratch accumulators are carried from point to
point: after point `n` they hold the column sums (and the column sums of squares) of the MLP's output over the
row blocks `0 … n` (`accAt0`, a fold of the body's payloads over the input blocks). The region invariant is the
class's before the first point (both accumulators at anything) and afterwards names the accumulators' contents.
Output window 6 receives the MLP's block at every point; windows 7 and 8 are idle up to the last point, where
they receive the accumulators. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The accumulators, point by point -/

/-- What the two scratch accumulators hold after the body at position `n`: zero plus the column sums (of the
    squares) of the MLP's blocks `0 … n`, as the fold of the body's payloads. -/
def accAt0 (c : Dev nD) : (n : ℕ) → n < cfg0.N → Vec F S1x128 .f32 × Vec F S1x128 .f32
  | 0, hn => (acc0_0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) k0_pay3, acc0_1 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) k0_pay4)
  | n + 1, hn => (acc0_0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (accAt0 c n (Nat.lt_of_succ_lt hn)).1, acc0_1 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (accAt0 c n (Nat.lt_of_succ_lt hn)).2)

/-- At the first point: over the zeroed accumulators. -/
theorem accAt0_zero (c : Dev nD) (t : Fin cfg0.N) (h : t.val = 0) :
    accAt0 V c t.val t.isLt = (acc0_0 (iblk0 V c 0 t) (iblk0 V c 1 t) (iblk0 V c 2 t) (iblk0 V c 3 t) (iblk0 V c 4 t) (iblk0 V c 5 t) k0_pay3, acc0_1 (iblk0 V c 0 t) (iblk0 V c 1 t) (iblk0 V c 2 t) (iblk0 V c 3 t) (iblk0 V c 4 t) (iblk0 V c 5 t) k0_pay4) := by
  obtain ⟨n, hn⟩ := t
  cases n with
  | zero => rfl
  | succ n => exact absurd h (Nat.succ_ne_zero n)

/-- At a later point: over what the point before left. -/
theorem accAt0_pos (c : Dev nD) (t : Fin cfg0.N) (h : t.val ≠ 0) :
    accAt0 V c t.val t.isLt = (acc0_0 (iblk0 V c 0 t) (iblk0 V c 1 t) (iblk0 V c 2 t) (iblk0 V c 3 t) (iblk0 V c 4 t) (iblk0 V c 5 t) (accAt0 V c (t.val - 1) (Nat.lt_of_le_of_lt (Nat.sub_le _ _) t.isLt)).1, acc0_1 (iblk0 V c 0 t) (iblk0 V c 1 t) (iblk0 V c 2 t) (iblk0 V c 3 t) (iblk0 V c 4 t) (iblk0 V c 5 t) (accAt0 V c (t.val - 1) (Nat.lt_of_le_of_lt (Nat.sub_le _ _) t.isLt)).2) := by
  obtain ⟨n, hn⟩ := t
  cases n with
  | zero => exact absurd rfl h
  | succ n => rfl

/-! ## The region invariant -/

/-- Before position `n`: the class's invariant before the first point; afterwards the two accumulators at what the
    point before left, the other scoped buffers unopened, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare (accAt0 V c n hn).1 ∗ owns (c : Thread nD τ) scM0_1 fullShare (accAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (accAt0 V c n hn).1 ∗ owns (c : Thread nD τ) scM0_1 fullShare (accAt0 V c n hn).2) ∗ rest0 c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (accAt0 V c (n - 1) (by omega)).1 ∗ owns (c : Thread nD τ) scM0_1 fullShare (accAt0 V c (n - 1) (by omega)).2) ∗ rest0 c) ∗ (∃ r, prngReg c r)) := by
  cases n with
  | zero => exact absurd rfl hz
  | succ n => rfl

/-! ## The proof data -/

/-- The proof data of the region on core `c`: the arrays as the region finds them (`V`); after the body at point `t` each
    input's buffer at its block, output 6's at the MLP's block, outputs 7 and 8's at the accumulators; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => h0 (iblk0 V c 0 t) (iblk0 V c 1 t) (iblk0 V c 2 t) (iblk0 V c 3 t) (iblk0 V c 4 t) (iblk0 V c 5 t)
    | ⟨7, _⟩ => (accAt0 V c t.val t.isLt).1
    | ⟨8, _⟩ => (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
/-- Output 6 after point `t`: the MLP's block of the six input blocks there. -/
theorem after0_6 (c : Dev nD) (t : Fin cfg0.N) : (dat0 V c).after 6 t = h0 (iblk0 V c 0 t) (iblk0 V c 1 t) (iblk0 V c 2 t) (iblk0 V c 3 t) (iblk0 V c 4 t) (iblk0 V c 5 t) := by dsimp only [dat0]
/-- Outputs 7 and 8 after point `t` (read at the last point only): the two accumulators there. -/
theorem after0_7 (c : Dev nD) (t : Fin cfg0.N) : (dat0 V c).after 7 t = (accAt0 V c t.val t.isLt).1 := by dsimp only [dat0]
theorem after0_8 (c : Dev nD) (t : Fin cfg0.N) : (dat0 V c).after 8 t = (accAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t
    ∗ (dat0 V c).leavesExact 6 t ∗ (dat0 V c).leavesExact 7 t ∗ (dat0 V c).leavesExact 8 t)

set_option maxHeartbeats 4800000 in
/-- The body at any point: the inputs' memrefs hold their blocks; the closed forms of the two conditions say which of
    the three cases the point is in; the invariant hands the body the accumulators (at anything at the first point, at
    what the point before left afterwards) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [PhiS0_castSucc V c t]
  by_cases h9 : t.val = 9
  · have hz : t.val ≠ 0 := by omega
    rw [show (dat0 V c).leavesExact 7 t = owns (c : Thread nD τ) (ms0_7 t) fullShare ((dat0 V c).after 7 t) from by
      unfold Dat.leavesExact; rw [liveAt0_7 t ((hcond0_1 t).mpr h9)], after0_7]
    rw [show (dat0 V c).leavesExact 8 t = owns (c : Thread nD τ) (ms0_8 t) fullShare ((dat0 V c).after 8 t) from by
      unfold Dat.leavesExact; rw [liveAt0_8 t ((hcond0_1 t).mpr h9)], after0_8]
    rw [accAt0_pos V c t hz, PhiS0_pos V c _ _ hz]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel0_C c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => hz ((hcond0_0 t).mp h)) ((hcond0_1 t).mpr h9) (iblk0 V c 0 t) (iblk0 V c 1 t) (iblk0 V c 2 t) (iblk0 V c 3 t) (iblk0 V c 4 t) (iblk0 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dat0 V c) 7 t (idleAt0_7 t (fun h => h9 ((hcond0_1 t).mp h))) (noFlush0_7 t (fun h => h9 ((hcond0_1 t).mp h)))]
    rw [Dat.leavesExact_idle (dat0 V c) 8 t (idleAt0_8 t (fun h => h9 ((hcond0_1 t).mp h))) (noFlush0_8 t (fun h => h9 ((hcond0_1 t).mp h)))]
    by_cases hz : t.val = 0
    · rw [accAt0_zero V c t hz, PhiS0_zero V c _ _ hz, PhiA0_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_A c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr hz) (fun h => h9 ((hcond0_1 t).mp h)) (iblk0 V c 0 t) (iblk0 V c 1 t) (iblk0 V c 2 t) (iblk0 V c 3 t) (iblk0 V c 4 t) (iblk0 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [accAt0_pos V c t hz, PhiS0_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_B c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => hz ((hcond0_0 t).mp h)) (fun h => h9 ((hcond0_1 t).mp h)) (iblk0 V c 0 t) (iblk0 V c 1 t) (iblk0 V c 2 t) (iblk0 V c 3 t) (iblk0 V c 4 t) (iblk0 V c 5 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entry and exit -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 10 := N_0; omega)

end Region

end Cert.Kernel.Reg

end
-- ==== Proof.Kernel.Bn1.lean ====
/- Region 1 of @main: the batch-norm apply kernel `cc1__bn_apply_kernel`, at the contents `V` the region is
   entered at. On a grid of 10 row tiles it writes, tile by tile,
   `out = (h_pre − mean) · inv_std · gamma + beta`: window 0 is the tile of `h_pre`, windows 1–4 the four
   `[1,128]` rows (whole, the same block at every point), window 5 the tile of the output.
   Stated here: each window's block at a point, what the body leaves in the output's buffer (one store of the whole
   tile, a pure function of the five blocks read), the body's triple, the pipeline's proof data `dat1` and its body
   obligation. Everything is generic in the float instance `F`. -/
import proofs.«139862_j28269474742473_1_alg».proof.Proof.Gen.Kernel.Launch
import proofs.«139862_j28269474742473_1_alg».proof.Proof.Gen.Kernel.Skeleton
import proofs.«139862_j28269474742473_1_alg».proof.Proof.Gen.Kernel.Points
import Idealize.ShloMosaic.Lib.Pipeline.FrameBody
import Idealize.ShloMosaic.Lib.Ring
import Idealize.ShloMosaic.Lib.Tactic

-- membership in a rectangle of 5000 rows: the elaborator recurses once per coordinate of the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved
    (the window is uncut and never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved
    (the window is uncut and never idle). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved
    (the window is uncut and never idle). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved
    (the window is uncut and never idle). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved
    (the window is uncut and never idle). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole tile, the whole row -/

abbrev tile1 : Rect S5000x128 := Rect.unit (s := S5000x128) ![0, 0] S5000x128.size inb_S5000x128_S5000x128_0_0
abbrev row1 : Rect S1x128 := Rect.unit (s := S1x128) ![0, 0] S1x128.size inb_S1x128_S1x128_0_0

/-! ## What the body leaves in the output window's buffer -/

/-- Window 5's staging buffer after the body, from the input windows' blocks: its one store, of the whole tile. -/
def out1_5 (x0 : Vec F S5000x128 .f32) (x1 : Vec F S1x128 .f32) (x2 : Vec F S1x128 .f32) (x3 : Vec F S1x128 .f32) (x4 : Vec F S1x128 .f32) : Vec F S5000x128 .f32 :=
  View.canon [⟨tile1, k1_pay1 (View.ld x0 tile1) (View.ld x1 row1) (View.ld x2 row1) (View.ld x3 row1) (View.ld x4 row1)⟩]

/-- The one store covers the buffer. -/
theorem cover1_5 (p0 : Vec F S5000x128 .f32) (y : S5000x128.Idx) :
    ∃ pc ∈ ([⟨tile1, p0⟩] : List (View.Piece (Elt F) S5000x128 .f32)), y ∈ pc.1.set :=
  View.cover_of_tiled [⟨tile1, p0⟩] S5000x128.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_apply_kernel i arg1 harg1 arg2 harg2 arg3 harg3 arg4 harg4 arg5 harg5 arg6 harg6) K := by
  simp only [cc1__bn_apply_kernel_eq_skeleton]; unfold cc1__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point
    `t` each input's buffer at its block and the output's at `out1_5` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant is the same at every point: the scoped rest and the generator register. -/
theorem Φ_eq1 (c : Dev nD) (t : Fin (cfg1.N + 1)) : (dat1 V c).Φ t = Pipeline.ΦA spec1 c := rfl
theorem hin1 (c : Dev nD) : Pipeline.ΦA spec1 c ⊢ (dat1 V c).Φ 0 := .rfl
theorem hout1 (c : Dev nD) : (dat1 V c).Φ (Fin.last cfg1.N) ⊢ Pipeline.ΦA spec1 c := .rfl
theorem q_eq1 (c : Dev nD) (w : Fin cfg1.W) : (dat1 V c).q w = fullShare := rfl
theorem owed_eq1 (c : Dev nD) (t : Fin (cfg1.N + 1)) : (dat1 V c).owed t = 0 := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.Kernel.Mlp2Base.lean ====
import proofs.«139862_j28269474742473_1_alg».proof.Proof.Gen.Kernel.Launch
import proofs.«139862_j28269474742473_1_alg».proof.Proof.Gen.Kernel.Skeleton
import proofs.«139862_j28269474742473_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! # The MLP region of layer 1 (custom_call 2): what its runs share

The body of the MLP kernel has two conditionals on the grid coordinate: the first holds at the grid's first
point only (there the two scratch accumulators are zeroed), the second at the last point only (there the
accumulators are copied to the two statistics outputs). Here: the conditions in closed form, where the
statistics windows are idle, the staging memrefs and the scratch memrefs, the class invariant with the two
scratch buffers split off, and the blocks of the input windows at a parameter `V` (the contents the region
is entered at). -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional: the grid coordinate is 0. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The second conditional: the grid coordinate is 9. -/
abbrev cond2_1 (i : grid2.Coords) : Prop := k2_cond2 i = 1#1
/-- It holds at the last point only. -/
theorem hcond2_1 : ∀ t : Fin cfg2.N, cond2_1 (grid2.coords t) ↔ t.val = 9 :=
  (by decide +kernel : ∀ t : Fin grid2.N, cond2_1 (grid2.coords t) ↔ t.val = 9)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Away from the last point the statistics windows are idle and not written back; at the last point live. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
theorem liveAt2_8 : ∀ t : Fin cfg2.N, cond2_1 (grid2.coords t) → cfg2.idle 8 (grid2.coords t) = false := by decide +kernel

/-! ## The staging memrefs and the scratch -/

abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
/-- The two scratch accumulators (column sums, column sums of squares), whole. -/
abbrev scM2_0 : Memref sig .tc .vmem S1x128 .f32 := Memref.whole cc2_scratch0
abbrev scM2_1 : Memref sig .tc .vmem S1x128 .f32 := Memref.whole cc2_scratch1

/-- The rest of the scoped buffers once the two accumulators are taken out. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- The class invariant with the two accumulators owned at some contents, the other scoped buffers unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

/-! ## The windows' blocks, at the contents `V` the region is entered at -/

section Blocks
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end Blocks

end Cert.Kernel.Reg

end
-- ==== Proof.Kernel.Mlp2Run.lean ====
import proofs.«139862_j28269474742473_1_alg».proof.Proof.Kernel.Mlp2Base
import proofs.«139862_j28269474742473_1_alg».proof.Proof.Kernel.Mlp0Run
import Idealize.ShloMosaic.Lib.Pipeline.Value

/-! # The MLP region of layer 1: the body's run in each of its three control cases

The body loads the two row blocks and the four weight arrays, stores the block of the MLP's output (every
store of this kernel covers its whole buffer), and adds the block's column sums and column sums of squares
onto the two scratch accumulators; at the first point it zeroes the accumulators first, at the last point it
copies them to the two statistics outputs. Each case is one triple over whole staging memrefs, its post stated
through the skeleton's payloads. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of the MLP's output from the six input blocks: relu(relu((h + agg)·W1 + b1)·W2 + b2). -/
def h2 (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 := k2_pay5 x0 x1 x2 x3 x4 x5
/-- The first accumulator after a point: the block's column sums added onto what it held. -/
def acc2_0 (x0 : Vec F S5000x128 .f32) (x1 : Vec F S5000x128 .f32) (x2 : Vec F S128x128 .f32) (x3 : Vec F S1x128 .f32) (x4 : Vec F S128x128 .f32) (x5 : Vec F S1x128 .f32) (s0 : Vec F S1x128 .f32) : Vec F S1x128 .f32 := k2_pay1 s0 (k2_pay6 x0 x1 x2 x3 x4 x5)
/-- The second accumulator after a point: the column sums of the block's squares added onto what it held. -/
def acc2_1 (x0 : Vec F S5000x128 .f32) (x1 : Vec F S5000x128 .f32) (x2 : Vec F S128x128 .f32) (x3 : Vec F S1x128 .f32) (x4 : Vec F S128x128 .f32) (x5 : Vec F S1x128 .f32) (s1 : Vec F S1x128 .f32) : Vec F S1x128 .f32 := k2_pay2 (k2_pay5 x0 x1 x2 x3 x4 x5) s1

set_option maxHeartbeats 4000000 in
/-- The first point: the first conditional taken (the accumulators, found at anything, are zeroed), the second not. The
    statistics outputs are handed back untouched; the accumulators end at `acc2_0 … 0`, `acc2_1 … 0`. -/
theorem sound_kernel2_A (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : cond2_0 i) (hc1 : ¬cond2_1 i) (x0 : Vec F S5000x128 .f32) (x1 : Vec F S5000x128 .f32) (x2 : Vec F S128x128 .f32) (x3 : Vec F S1x128 .f32) (x4 : Vec F S128x128 .f32) (x5 : Vec F S1x128 .f32) (xi7 xi8 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xi8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h2 x0 x1 x2 x3 x4 x5) ∗ owns (c : Thread nD τ) arg8 fullShare xi7 ∗ owns (c : Thread nD τ) arg9 fullShare xi8
            ∗ owns (c : Thread nD τ) arg10 fullShare (acc2_0 x0 x1 x2 x3 x4 x5 k2_pay3) ∗ owns (c : Thread nD τ) arg11 fullShare (acc2_1 x0 x1 x2 x3 x4 x5 k2_pay4)) -∗ K ⟨⟩))
      ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K := by
  simp only [cc2__mlp_stats_kernel_eq_skeleton]; unfold cc2__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
  subst hf0; subst hf1; subst hf2; subst hf3; subst hf4; subst hf5; subst hf7; subst hf8
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists f7; isplitr
    · ipureintro; rfl
    iexact H7
  isplitl [H8]
  · iexists f8; isplitr
    · ipureintro; rfl
    iexact H8
  isplitl [HS0]
  · iexists _; isplitr
    swap
    · iexact HS0
    ipureintro; sl_unfold_words
    rw [mlp_read_store_whole _ _ mlp_hz]
    simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]

set_option maxHeartbeats 4000000 in
/-- A middle point: neither conditional taken. The statistics outputs are handed back untouched; the accumulators go from
    `xs0`, `xs1` to `acc2_0 … xs0`, `acc2_1 … xs1`. -/
theorem sound_kernel2_B (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬cond2_0 i) (hc1 : ¬cond2_1 i) (x0 : Vec F S5000x128 .f32) (x1 : Vec F S5000x128 .f32) (x2 : Vec F S128x128 .f32) (x3 : Vec F S1x128 .f32) (x4 : Vec F S128x128 .f32) (x5 : Vec F S1x128 .f32) (xi7 xi8 xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xi8
        ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h2 x0 x1 x2 x3 x4 x5) ∗ owns (c : Thread nD τ) arg8 fullShare xi7 ∗ owns (c : Thread nD τ) arg9 fullShare xi8
            ∗ owns (c : Thread nD τ) arg10 fullShare (acc2_0 x0 x1 x2 x3 x4 x5 xs0) ∗ owns (c : Thread nD τ) arg11 fullShare (acc2_1 x0 x1 x2 x3 x4 x5 xs1)) -∗ K ⟨⟩))
      ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K := by
  simp only [cc2__mlp_stats_kernel_eq_skeleton]; unfold cc2__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
  subst hf0; subst hf1; subst hf2; subst hf3; subst hf4; subst hf5; subst hf7; subst hf8; subst hfs0; subst hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists f7; isplitr
    · ipureintro; rfl
    iexact H7
  isplitl [H8]
  · iexists f8; isplitr
    · ipureintro; rfl
    iexact H8
  isplitl [HS0]
  · iexists _; isplitr
    swap
    · iexact HS0
    ipureintro; sl_unfold_words
    rw [mlp_read_store_whole _ _ mlp_hz]
    simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]

set_option maxHeartbeats 4000000 in
/-- The last point: the first conditional not taken, the second taken. The accumulators go from `xs0`, `xs1` to
    `acc2_0 … xs0`, `acc2_1 … xs1`, and the two statistics outputs, found at anything, end holding the same. -/
theorem sound_kernel2_C (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬cond2_0 i) (hc1 : cond2_1 i) (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h2 x0 x1 x2 x3 x4 x5) ∗ owns (c : Thread nD τ) arg8 fullShare (acc2_0 x0 x1 x2 x3 x4 x5 xs0) ∗ owns (c : Thread nD τ) arg9 fullShare (acc2_1 x0 x1 x2 x3 x4 x5 xs1)
            ∗ owns (c : Thread nD τ) arg10 fullShare (acc2_0 x0 x1 x2 x3 x4 x5 xs0) ∗ owns (c : Thread nD τ) arg11 fullShare (acc2_1 x0 x1 x2 x3 x4 x5 xs1)) -∗ K ⟨⟩))
      ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K := by
  simp only [cc2__mlp_stats_kernel_eq_skeleton]; unfold cc2__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
  subst hf0; subst hf1; subst hf2; subst hf3; subst hf4; subst hf5; subst hfs0; subst hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists _; isplitr
    swap
    · iexact H7
    ipureintro; sl_unfold_words
    rw [mlp_read_store_whole _ _ mlp_hz]
    simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H8]
  · iexists _; isplitr
    swap
    · iexact H8
    ipureintro; sl_unfold_words
    rw [mlp_read_store_whole _ _ mlp_hz]
    simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [HS0]
  · iexists _; isplitr
    swap
    · iexact HS0
    ipureintro; sl_unfold_words
    rw [mlp_read_store_whole _ _ mlp_hz]
    simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]

end Cert.Kernel.Reg

end
-- ==== Proof.Kernel.Mlp2.lean ====
import proofs.«139862_j28269474742473_1_alg».proof.Proof.Kernel.Mlp2Run

/-! # The MLP region of layer 1 (custom_call 2) at a parameter `V`: proof data, body obligation, entry and exit

The grid has ten points, one per block of 5000 rows. The two scratch accumulators are carried from point to
point: after point `n` they hold the column sums (and the column sums of squares) of the MLP's output over the
row blocks `0 … n` (`accAt2`, a fold of the body's payloads over the input blocks). The region invariant is the
class's before the first point (both accumulators at anything) and afterwards names the accumulators' contents.
Output window 6 receives the MLP's block at every point; windows 7 and 8 are idle up to the last point, where
they receive the accumulators. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The accumulators, point by point -/

/-- What the two scratch accumulators hold after the body at position `n`: zero plus the column sums (of the
    squares) of the MLP's blocks `0 … n`, as the fold of the body's payloads. -/
def accAt2 (c : Dev nD) : (n : ℕ) → n < cfg2.N → Vec F S1x128 .f32 × Vec F S1x128 .f32
  | 0, hn => (acc2_0 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) k2_pay3, acc2_1 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) k2_pay4)
  | n + 1, hn => (acc2_0 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (accAt2 c n (Nat.lt_of_succ_lt hn)).1, acc2_1 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (accAt2 c n (Nat.lt_of_succ_lt hn)).2)

/-- At the first point: over the zeroed accumulators. -/
theorem accAt2_zero (c : Dev nD) (t : Fin cfg2.N) (h : t.val = 0) :
    accAt2 V c t.val t.isLt = (acc2_0 (iblk2 V c 0 t) (iblk2 V c 1 t) (iblk2 V c 2 t) (iblk2 V c 3 t) (iblk2 V c 4 t) (iblk2 V c 5 t) k2_pay3, acc2_1 (iblk2 V c 0 t) (iblk2 V c 1 t) (iblk2 V c 2 t) (iblk2 V c 3 t) (iblk2 V c 4 t) (iblk2 V c 5 t) k2_pay4) := by
  obtain ⟨n, hn⟩ := t
  cases n with
  | zero => rfl
  | succ n => exact absurd h (Nat.succ_ne_zero n)

/-- At a later point: over what the point before left. -/
theorem accAt2_pos (c : Dev nD) (t : Fin cfg2.N) (h : t.val ≠ 0) :
    accAt2 V c t.val t.isLt = (acc2_0 (iblk2 V c 0 t) (iblk2 V c 1 t) (iblk2 V c 2 t) (iblk2 V c 3 t) (iblk2 V c 4 t) (iblk2 V c 5 t) (accAt2 V c (t.val - 1) (Nat.lt_of_le_of_lt (Nat.sub_le _ _) t.isLt)).1, acc2_1 (iblk2 V c 0 t) (iblk2 V c 1 t) (iblk2 V c 2 t) (iblk2 V c 3 t) (iblk2 V c 4 t) (iblk2 V c 5 t) (accAt2 V c (t.val - 1) (Nat.lt_of_le_of_lt (Nat.sub_le _ _) t.isLt)).2) := by
  obtain ⟨n, hn⟩ := t
  cases n with
  | zero => exact absurd rfl h
  | succ n => rfl

/-! ## The region invariant -/

/-- Before position `n`: the class's invariant before the first point; afterwards the two accumulators at what the
    point before left, the other scoped buffers unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (accAt2 V c n hn).1 ∗ owns (c : Thread nD τ) scM2_1 fullShare (accAt2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (accAt2 V c n hn).1 ∗ owns (c : Thread nD τ) scM2_1 fullShare (accAt2 V c n hn).2) ∗ rest2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (accAt2 V c (n - 1) (by omega)).1 ∗ owns (c : Thread nD τ) scM2_1 fullShare (accAt2 V c (n - 1) (by omega)).2) ∗ rest2 c) ∗ (∃ r, prngReg c r)) := by
  cases n with
  | zero => exact absurd rfl hz
  | succ n => rfl

/-! ## The proof data -/

/-- The proof data of the region on core `c`: the arrays as the region finds them (`V`); after the body at point `t` each
    input's buffer at its block, output 6's at the MLP's block, outputs 7 and 8's at the accumulators; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => h2 (iblk2 V c 0 t) (iblk2 V c 1 t) (iblk2 V c 2 t) (iblk2 V c 3 t) (iblk2 V c 4 t) (iblk2 V c 5 t)
    | ⟨7, _⟩ => (accAt2 V c t.val t.isLt).1
    | ⟨8, _⟩ => (accAt2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
/-- Output 6 after point `t`: the MLP's block of the six input blocks there. -/
theorem after2_6 (c : Dev nD) (t : Fin cfg2.N) : (dat2 V c).after 6 t = h2 (iblk2 V c 0 t) (iblk2 V c 1 t) (iblk2 V c 2 t) (iblk2 V c 3 t) (iblk2 V c 4 t) (iblk2 V c 5 t) := by dsimp only [dat2]
/-- Outputs 7 and 8 after point `t` (read at the last point only): the two accumulators there. -/
theorem after2_7 (c : Dev nD) (t : Fin cfg2.N) : (dat2 V c).after 7 t = (accAt2 V c t.val t.isLt).1 := by dsimp only [dat2]
theorem after2_8 (c : Dev nD) (t : Fin cfg2.N) : (dat2 V c).after 8 t = (accAt2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t
    ∗ (dat2 V c).leavesExact 6 t ∗ (dat2 V c).leavesExact 7 t ∗ (dat2 V c).leavesExact 8 t)

set_option maxHeartbeats 4800000 in
/-- The body at any point: the inputs' memrefs hold their blocks; the closed forms of the two conditions say which of
    the three cases the point is in; the invariant hands the body the accumulators (at anything at the first point, at
    what the point before left afterwards) and takes them back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [PhiS2_castSucc V c t]
  by_cases h9 : t.val = 9
  · have hz : t.val ≠ 0 := by omega
    rw [show (dat2 V c).leavesExact 7 t = owns (c : Thread nD τ) (ms2_7 t) fullShare ((dat2 V c).after 7 t) from by
      unfold Dat.leavesExact; rw [liveAt2_7 t ((hcond2_1 t).mpr h9)], after2_7]
    rw [show (dat2 V c).leavesExact 8 t = owns (c : Thread nD τ) (ms2_8 t) fullShare ((dat2 V c).after 8 t) from by
      unfold Dat.leavesExact; rw [liveAt2_8 t ((hcond2_1 t).mpr h9)], after2_8]
    rw [accAt2_pos V c t hz, PhiS2_pos V c _ _ hz]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_C c Set.univ (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => hz ((hcond2_0 t).mp h)) ((hcond2_1 t).mpr h9) (iblk2 V c 0 t) (iblk2 V c 1 t) (iblk2 V c 2 t) (iblk2 V c 3 t) (iblk2 V c 4 t) (iblk2 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dat2 V c) 7 t (idleAt2_7 t (fun h => h9 ((hcond2_1 t).mp h))) (noFlush2_7 t (fun h => h9 ((hcond2_1 t).mp h)))]
    rw [Dat.leavesExact_idle (dat2 V c) 8 t (idleAt2_8 t (fun h => h9 ((hcond2_1 t).mp h))) (noFlush2_8 t (fun h => h9 ((hcond2_1 t).mp h)))]
    by_cases hz : t.val = 0
    · rw [accAt2_zero V c t hz, PhiS2_zero V c _ _ hz, PhiA2_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_A c Set.univ (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr hz) (fun h => h9 ((hcond2_1 t).mp h)) (iblk2 V c 0 t) (iblk2 V c 1 t) (iblk2 V c 2 t) (iblk2 V c 3 t) (iblk2 V c 4 t) (iblk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [accAt2_pos V c t hz, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_B c Set.univ (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => hz ((hcond2_0 t).mp h)) (fun h => h9 ((hcond2_1 t).mp h)) (iblk2 V c 0 t) (iblk2 V c 1 t) (iblk2 V c 2 t) (iblk2 V c 3 t) (iblk2 V c 4 t) (iblk2 V c 5 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Entry and exit -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the class's back: the accumulators' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 10 := N_2; omega)

end Region

end Cert.Kernel.Reg

end
-- ==== Proof.Kernel.Bn3.lean ====
/- Region 3 of @main: the batch-norm apply kernel `cc3__bn_apply_kernel`, at the contents `V` the region is
   entered at. On a grid of 10 row tiles it writes, tile by tile,
   `out = (h_pre − mean) · inv_std · gamma + beta`: window 0 is the tile of `h_pre`, windows 1–4 the four
   `[1,128]` rows (whole, the same block at every point), window 5 the tile of the output.
   Stated here: each window's block at a point, what the body leaves in the output's buffer (one store of the whole
   tile, a pure function of the five blocks read), the body's triple, the pipeline's proof data `dat3` and its body
   obligation. Everything is generic in the float instance `F`. -/
import proofs.«139862_j28269474742473_1_alg».proof.Proof.Gen.Kernel.Launch
import proofs.«139862_j28269474742473_1_alg».proof.Proof.Gen.Kernel.Skeleton
import proofs.«139862_j28269474742473_1_alg».proof.Proof.Gen.Kernel.Points
import Idealize.ShloMosaic.Lib.Pipeline.FrameBody
import Idealize.ShloMosaic.Lib.Ring
import Idealize.ShloMosaic.Lib.Tactic

-- membership in a rectangle of 5000 rows: the elaborator recurses once per coordinate of the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved
    (the window is uncut and never idle). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved
    (the window is uncut and never idle). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved
    (the window is uncut and never idle). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: unfetched, the block index has not moved
    (the window is uncut and never idle). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: unfetched, the block index has not moved
    (the window is uncut and never idle). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: the whole tile, the whole row -/

abbrev tile3 : Rect S5000x128 := Rect.unit (s := S5000x128) ![0, 0] S5000x128.size inb_S5000x128_S5000x128_0_0
abbrev row3 : Rect S1x128 := Rect.unit (s := S1x128) ![0, 0] S1x128.size inb_S1x128_S1x128_0_0

/-! ## What the body leaves in the output window's buffer -/

/-- Window 5's staging buffer after the body, from the input windows' blocks: its one store, of the whole tile. -/
def out3_5 (x0 : Vec F S5000x128 .f32) (x1 : Vec F S1x128 .f32) (x2 : Vec F S1x128 .f32) (x3 : Vec F S1x128 .f32) (x4 : Vec F S1x128 .f32) : Vec F S5000x128 .f32 :=
  View.canon [⟨tile3, k3_pay1 (View.ld x0 tile3) (View.ld x1 row3) (View.ld x2 row3) (View.ld x3 row3) (View.ld x4 row3)⟩]

/-- The one store covers the buffer. -/
theorem cover3_5 (p0 : Vec F S5000x128 .f32) (y : S5000x128.Idx) :
    ∃ pc ∈ ([⟨tile3, p0⟩] : List (View.Piece (Elt F) S5000x128 .f32)), y ∈ pc.1.set :=
  View.cover_of_tiled [⟨tile3, p0⟩] S5000x128.size (by rfl) y

/-! ## The body's triple -/

set_option maxHeartbeats 1000000 in
/-- The kernel body on whole staging memrefs, the inputs' at read contents `xW` and the output's at anything, runs to
    the continuation holding the inputs' as they were and the output's at `out3_5` of the inputs'. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_apply_kernel i arg1 harg1 arg2 harg2 arg3 harg3 arg4 harg4 arg5 harg5 arg6 harg6) K := by
  simp only [cc3__bn_apply_kernel_eq_skeleton]; unfold cc3__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at point
    `t` each input's buffer at its block and the output's at `out3_5` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant is the same at every point: the scoped rest and the generator register. -/
theorem Φ_eq3 (c : Dev nD) (t : Fin (cfg3.N + 1)) : (dat3 V c).Φ t = Pipeline.ΦA spec3 c := rfl
theorem hin3 (c : Dev nD) : Pipeline.ΦA spec3 c ⊢ (dat3 V c).Φ 0 := .rfl
theorem hout3 (c : Dev nD) : (dat3 V c).Φ (Fin.last cfg3.N) ⊢ Pipeline.ΦA spec3 c := .rfl
theorem q_eq3 (c : Dev nD) (w : Fin cfg3.W) : (dat3 V c).q w = fullShare := rfl
theorem owed_eq3 (c : Dev nD) (t : Fin (cfg3.N + 1)) : (dat3 V c).owed t = 0 := rfl

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.Kernel.Mlp4Base.lean ====
import proofs.«139862_j28269474742473_1_alg».proof.Proof.Gen.Kernel.Launch
import proofs.«139862_j28269474742473_1_alg».proof.Proof.Gen.Kernel.Skeleton
import proofs.«139862_j28269474742473_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! # The MLP region of layer 2 (custom_call 4): what its runs share

The body of the MLP kernel has two conditionals on the grid coordinate: the first holds at the grid's first
point only (there the two scratch accumulators are zeroed), the second at the last point only (there the
accumulators are copied to the two statistics outputs). Here: the conditions in closed form, where the
statistics windows are idle, the staging memrefs and the scratch memrefs, the class invariant with the two
scratch buffers split off, and the blocks of the input windows at a parameter `V` (the contents the region
is entered at). -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional: the grid coordinate is 0. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)

/-- The second conditional: the grid coordinate is 9. -/
abbrev cond4_1 (i : grid4.Coords) : Prop := k4_cond2 i = 1#1
/-- It holds at the last point only. -/
theorem hcond4_1 : ∀ t : Fin cfg4.N, cond4_1 (grid4.coords t) ↔ t.val = 9 :=
  (by decide +kernel : ∀ t : Fin grid4.N, cond4_1 (grid4.coords t) ↔ t.val = 9)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
theorem liveAt4_6 : ∀ t : Fin cfg4.N, cfg4.idle 6 (grid4.coords t) = false := by decide +kernel
/-- Away from the last point the statistics windows are idle and not written back; at the last point live. -/
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem liveAt4_7 : ∀ t : Fin cfg4.N, cond4_1 (grid4.coords t) → cfg4.idle 7 (grid4.coords t) = false := by decide +kernel
theorem idleAt4_8 : ∀ t : Fin cfg4.N, ¬cond4_1 (grid4.coords t) → cfg4.idle 8 (grid4.coords t) = true := by decide +kernel
theorem noFlush4_8 : ∀ t : Fin cfg4.N, ¬cond4_1 (grid4.coords t) → (cfg4.win 8).flush t = false := by decide +kernel
theorem liveAt4_8 : ∀ t : Fin cfg4.N, cond4_1 (grid4.coords t) → cfg4.idle 8 (grid4.coords t) = false := by decide +kernel

/-! ## The staging memrefs and the scratch -/

abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S5000x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)
/-- The two scratch accumulators (column sums, column sums of squares), whole. -/
abbrev scM4_0 : Memref sig .tc .vmem S1x128 .f32 := Memref.whole cc4_scratch0
abbrev scM4_1 : Memref sig .tc .vmem S1x128 .f32 := Memref.whole cc4_scratch1

/-- The rest of the scoped buffers once the two accumulators are taken out. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- The class invariant with the two accumulators owned at some contents, the other scoped buffers unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 c) ∗ (∃ r, prngReg c r)) := by
  unfold Pipeline.ΦA; rw [scopedRest4_split]; simp only [scM4_0, scM4_1, owns_whole]; try rfl

/-! ## The windows' blocks, at the contents `V` the region is entered at -/

section Blocks
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof data
    whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

end Blocks

end Cert.Kernel.Reg

end
-- ==== Proof.Kernel.Mlp4Run.lean ====
import proofs.«139862_j28269474742473_1_alg».proof.Proof.Kernel.Mlp4Base
import proofs.«139862_j28269474742473_1_alg».proof.Proof.Kernel.Mlp0Run
import Idealize.ShloMosaic.Lib.Pipeline.Value

/-! # The MLP region of layer 2: the body's run in each of its three control cases

The body loads the two row blocks and the four weight arrays, stores the block of the MLP's output (every
store of this kernel covers its whole buffer), and adds the block's column sums and column sums of squares
onto the two scratch accumulators; at the first point it zeroes the accumulators first, at the last point it
copies them to the two statistics outputs. Each case is one triple over whole staging memrefs, its post stated
through the skeleton's payloads. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of the MLP's output from the six input blocks: relu(relu((h + agg)·W1 + b1)·W2 + b2). -/
def h4 (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 := k4_pay5 x0 x1 x2 x3 x4 x5
/-- The first accumulator after a point: the block's column sums added onto what it held. -/
def acc4_0 (x0 : Vec F S5000x128 .f32) (x1 : Vec F S5000x128 .f32) (x2 : Vec F S128x128 .f32) (x3 : Vec F S1x128 .f32) (x4 : Vec F S128x128 .f32) (x5 : Vec F S1x128 .f32) (s0 : Vec F S1x128 .f32) : Vec F S1x128 .f32 := k4_pay1 s0 (k4_pay6 x0 x1 x2 x3 x4 x5)
/-- The second accumulator after a point: the column sums of the block's squares added onto what it held. -/
def acc4_1 (x0 : Vec F S5000x128 .f32) (x1 : Vec F S5000x128 .f32) (x2 : Vec F S128x128 .f32) (x3 : Vec F S1x128 .f32) (x4 : Vec F S128x128 .f32) (x5 : Vec F S1x128 .f32) (s1 : Vec F S1x128 .f32) : Vec F S1x128 .f32 := k4_pay2 (k4_pay5 x0 x1 x2 x3 x4 x5) s1

set_option maxHeartbeats 4000000 in
/-- The first point: the first conditional taken (the accumulators, found at anything, are zeroed), the second not. The
    statistics outputs are handed back untouched; the accumulators end at `acc4_0 … 0`, `acc4_1 … 0`. -/
theorem sound_kernel4_A (c : Dev nD) (E : Set ℕ) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : cond4_0 i) (hc1 : ¬cond4_1 i) (x0 : Vec F S5000x128 .f32) (x1 : Vec F S5000x128 .f32) (x2 : Vec F S128x128 .f32) (x3 : Vec F S1x128 .f32) (x4 : Vec F S128x128 .f32) (x5 : Vec F S1x128 .f32) (xi7 xi8 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xi8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h4 x0 x1 x2 x3 x4 x5) ∗ owns (c : Thread nD τ) arg8 fullShare xi7 ∗ owns (c : Thread nD τ) arg9 fullShare xi8
            ∗ owns (c : Thread nD τ) arg10 fullShare (acc4_0 x0 x1 x2 x3 x4 x5 k4_pay3) ∗ owns (c : Thread nD τ) arg11 fullShare (acc4_1 x0 x1 x2 x3 x4 x5 k4_pay4)) -∗ K ⟨⟩))
      ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10 arg11 harg11) K := by
  simp only [cc4__mlp_stats_kernel_eq_skeleton]; unfold cc4__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
  subst hf0; subst hf1; subst hf2; subst hf3; subst hf4; subst hf5; subst hf7; subst hf8
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists f7; isplitr
    · ipureintro; rfl
    iexact H7
  isplitl [H8]
  · iexists f8; isplitr
    · ipureintro; rfl
    iexact H8
  isplitl [HS0]
  · iexists _; isplitr
    swap
    · iexact HS0
    ipureintro; sl_unfold_words
    rw [mlp_read_store_whole _ _ mlp_hz]
    simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]

set_option maxHeartbeats 4000000 in
/-- A middle point: neither conditional taken. The statistics outputs are handed back untouched; the accumulators go from
    `xs0`, `xs1` to `acc4_0 … xs0`, `acc4_1 … xs1`. -/
theorem sound_kernel4_B (c : Dev nD) (E : Set ℕ) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬cond4_0 i) (hc1 : ¬cond4_1 i) (x0 : Vec F S5000x128 .f32) (x1 : Vec F S5000x128 .f32) (x2 : Vec F S128x128 .f32) (x3 : Vec F S1x128 .f32) (x4 : Vec F S128x128 .f32) (x5 : Vec F S1x128 .f32) (xi7 xi8 xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xi8
        ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h4 x0 x1 x2 x3 x4 x5) ∗ owns (c : Thread nD τ) arg8 fullShare xi7 ∗ owns (c : Thread nD τ) arg9 fullShare xi8
            ∗ owns (c : Thread nD τ) arg10 fullShare (acc4_0 x0 x1 x2 x3 x4 x5 xs0) ∗ owns (c : Thread nD τ) arg11 fullShare (acc4_1 x0 x1 x2 x3 x4 x5 xs1)) -∗ K ⟨⟩))
      ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10 arg11 harg11) K := by
  simp only [cc4__mlp_stats_kernel_eq_skeleton]; unfold cc4__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
  subst hf0; subst hf1; subst hf2; subst hf3; subst hf4; subst hf5; subst hf7; subst hf8; subst hfs0; subst hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists f7; isplitr
    · ipureintro; rfl
    iexact H7
  isplitl [H8]
  · iexists f8; isplitr
    · ipureintro; rfl
    iexact H8
  isplitl [HS0]
  · iexists _; isplitr
    swap
    · iexact HS0
    ipureintro; sl_unfold_words
    rw [mlp_read_store_whole _ _ mlp_hz]
    simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]

set_option maxHeartbeats 4000000 in
/-- The last point: the first conditional not taken, the second taken. The accumulators go from `xs0`, `xs1` to
    `acc4_0 … xs0`, `acc4_1 … xs1`, and the two statistics outputs, found at anything, end holding the same. -/
theorem sound_kernel4_C (c : Dev nD) (E : Set ℕ) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬cond4_0 i) (hc1 : cond4_1 i) (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h4 x0 x1 x2 x3 x4 x5) ∗ owns (c : Thread nD τ) arg8 fullShare (acc4_0 x0 x1 x2 x3 x4 x5 xs0) ∗ owns (c : Thread nD τ) arg9 fullShare (acc4_1 x0 x1 x2 x3 x4 x5 xs1)
            ∗ owns (c : Thread nD τ) arg10 fullShare (acc4_0 x0 x1 x2 x3 x4 x5 xs0) ∗ owns (c : Thread nD τ) arg11 fullShare (acc4_1 x0 x1 x2 x3 x4 x5 xs1)) -∗ K ⟨⟩))
      ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10 arg11 harg11) K := by
  simp only [cc4__mlp_stats_kernel_eq_skeleton]; unfold cc4__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
  subst hf0; subst hf1; subst hf2; subst hf3; subst hf4; subst hf5; subst hfs0; subst hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists _; isplitr
    swap
    · iexact H7
    ipureintro; sl_unfold_words
    rw [mlp_read_store_whole _ _ mlp_hz]
    simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H8]
  · iexists _; isplitr
    swap
    · iexact H8
    ipureintro; sl_unfold_words
    rw [mlp_read_store_whole _ _ mlp_hz]
    simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [HS0]
  · iexists _; isplitr
    swap
    · iexact HS0
    ipureintro; sl_unfold_words
    rw [mlp_read_store_whole _ _ mlp_hz]
    simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]

end Cert.Kernel.Reg

end
-- ==== Proof.Kernel.Mlp4.lean ====
import proofs.«139862_j28269474742473_1_alg».proof.Proof.Kernel.Mlp4Run

/-! # The MLP region of layer 2 (custom_call 4) at a parameter `V`: proof data, body obligation, entry and exit

The grid has ten points, one per block of 5000 rows. The two scratch accumulators are carried from point to
point: after point `n` they hold the column sums (and the column sums of squares) of the MLP's output over the
row blocks `0 … n` (`accAt4`, a fold of the body's payloads over the input blocks). The region invariant is the
class's before the first point (both accumulators at anything) and afterwards names the accumulators' contents.
Output window 6 receives the MLP's block at every point; windows 7 and 8 are idle up to the last point, where
they receive the accumulators. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The accumulators, point by point -/

/-- What the two scratch accumulators hold after the body at position `n`: zero plus the column sums (of the
    squares) of the MLP's blocks `0 … n`, as the fold of the body's payloads. -/
def accAt4 (c : Dev nD) : (n : ℕ) → n < cfg4.N → Vec F S1x128 .f32 × Vec F S1x128 .f32
  | 0, hn => (acc4_0 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) k4_pay3, acc4_1 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) k4_pay4)
  | n + 1, hn => (acc4_0 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (accAt4 c n (Nat.lt_of_succ_lt hn)).1, acc4_1 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (accAt4 c n (Nat.lt_of_succ_lt hn)).2)

/-- At the first point: over the zeroed accumulators. -/
theorem accAt4_zero (c : Dev nD) (t : Fin cfg4.N) (h : t.val = 0) :
    accAt4 V c t.val t.isLt = (acc4_0 (iblk4 V c 0 t) (iblk4 V c 1 t) (iblk4 V c 2 t) (iblk4 V c 3 t) (iblk4 V c 4 t) (iblk4 V c 5 t) k4_pay3, acc4_1 (iblk4 V c 0 t) (iblk4 V c 1 t) (iblk4 V c 2 t) (iblk4 V c 3 t) (iblk4 V c 4 t) (iblk4 V c 5 t) k4_pay4) := by
  obtain ⟨n, hn⟩ := t
  cases n with
  | zero => rfl
  | succ n => exact absurd h (Nat.succ_ne_zero n)

/-- At a later point: over what the point before left. -/
theorem accAt4_pos (c : Dev nD) (t : Fin cfg4.N) (h : t.val ≠ 0) :
    accAt4 V c t.val t.isLt = (acc4_0 (iblk4 V c 0 t) (iblk4 V c 1 t) (iblk4 V c 2 t) (iblk4 V c 3 t) (iblk4 V c 4 t) (iblk4 V c 5 t) (accAt4 V c (t.val - 1) (Nat.lt_of_le_of_lt (Nat.sub_le _ _) t.isLt)).1, acc4_1 (iblk4 V c 0 t) (iblk4 V c 1 t) (iblk4 V c 2 t) (iblk4 V c 3 t) (iblk4 V c 4 t) (iblk4 V c 5 t) (accAt4 V c (t.val - 1) (Nat.lt_of_le_of_lt (Nat.sub_le _ _) t.isLt)).2) := by
  obtain ⟨n, hn⟩ := t
  cases n with
  | zero => exact absurd rfl h
  | succ n => rfl

/-! ## The region invariant -/

/-- Before position `n`: the class's invariant before the first point; afterwards the two accumulators at what the
    point before left, the other scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (accAt4 V c n hn).1 ∗ owns (c : Thread nD τ) scM4_1 fullShare (accAt4 V c n hn).2) ∗ rest4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (accAt4 V c n hn).1 ∗ owns (c : Thread nD τ) scM4_1 fullShare (accAt4 V c n hn).2) ∗ rest4 c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (accAt4 V c (n - 1) (by omega)).1 ∗ owns (c : Thread nD τ) scM4_1 fullShare (accAt4 V c (n - 1) (by omega)).2) ∗ rest4 c) ∗ (∃ r, prngReg c r)) := by
  cases n with
  | zero => exact absurd rfl hz
  | succ n => rfl

/-! ## The proof data -/

/-- The proof data of the region on core `c`: the arrays as the region finds them (`V`); after the body at point `t` each
    input's buffer at its block, output 6's at the MLP's block, outputs 7 and 8's at the accumulators; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => h4 (iblk4 V c 0 t) (iblk4 V c 1 t) (iblk4 V c 2 t) (iblk4 V c 3 t) (iblk4 V c 4 t) (iblk4 V c 5 t)
    | ⟨7, _⟩ => (accAt4 V c t.val t.isLt).1
    | ⟨8, _⟩ => (accAt4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
/-- Output 6 after point `t`: the MLP's block of the six input blocks there. -/
theorem after4_6 (c : Dev nD) (t : Fin cfg4.N) : (dat4 V c).after 6 t = h4 (iblk4 V c 0 t) (iblk4 V c 1 t) (iblk4 V c 2 t) (iblk4 V c 3 t) (iblk4 V c 4 t) (iblk4 V c 5 t) := by dsimp only [dat4]
/-- Outputs 7 and 8 after point `t` (read at the last point only): the two accumulators there. -/
theorem after4_7 (c : Dev nD) (t : Fin cfg4.N) : (dat4 V c).after 7 t = (accAt4 V c t.val t.isLt).1 := by dsimp only [dat4]
theorem after4_8 (c : Dev nD) (t : Fin cfg4.N) : (dat4 V c).after 8 t = (accAt4 V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t
    ∗ (dat4 V c).leavesExact 3 t ∗ (dat4 V c).leavesExact 4 t ∗ (dat4 V c).leavesExact 5 t
    ∗ (dat4 V c).leavesExact 6 t ∗ (dat4 V c).leavesExact 7 t ∗ (dat4 V c).leavesExact 8 t)

set_option maxHeartbeats 4800000 in
/-- The body at any point: the inputs' memrefs hold their blocks; the closed forms of the two conditions say which of
    the three cases the point is in; the invariant hands the body the accumulators (at anything at the first point, at
    what the point before left afterwards) and takes them back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  rw [show (dat4 V c).leavesExact 6 t = owns (c : Thread nD τ) (ms4_6 t) fullShare ((dat4 V c).after 6 t) from by
    unfold Dat.leavesExact; rw [liveAt4_6 t], after4_6]
  rw [PhiS4_castSucc V c t]
  by_cases h9 : t.val = 9
  · have hz : t.val ≠ 0 := by omega
    rw [show (dat4 V c).leavesExact 7 t = owns (c : Thread nD τ) (ms4_7 t) fullShare ((dat4 V c).after 7 t) from by
      unfold Dat.leavesExact; rw [liveAt4_7 t ((hcond4_1 t).mpr h9)], after4_7]
    rw [show (dat4 V c).leavesExact 8 t = owns (c : Thread nD τ) (ms4_8 t) fullShare ((dat4 V c).after 8 t) from by
      unfold Dat.leavesExact; rw [liveAt4_8 t ((hcond4_1 t).mpr h9)], after4_8]
    rw [accAt4_pos V c t hz, PhiS4_pos V c _ _ hz]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel4_C c Set.univ (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => hz ((hcond4_0 t).mp h)) ((hcond4_1 t).mpr h9) (iblk4 V c 0 t) (iblk4 V c 1 t) (iblk4 V c 2 t) (iblk4 V c 3 t) (iblk4 V c 4 t) (iblk4 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dat4 V c) 7 t (idleAt4_7 t (fun h => h9 ((hcond4_1 t).mp h))) (noFlush4_7 t (fun h => h9 ((hcond4_1 t).mp h)))]
    rw [Dat.leavesExact_idle (dat4 V c) 8 t (idleAt4_8 t (fun h => h9 ((hcond4_1 t).mp h))) (noFlush4_8 t (fun h => h9 ((hcond4_1 t).mp h)))]
    by_cases hz : t.val = 0
    · rw [accAt4_zero V c t hz, PhiS4_zero V c _ _ hz, PhiA4_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel4_A c Set.univ (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr hz) (fun h => h9 ((hcond4_1 t).mp h)) (iblk4 V c 0 t) (iblk4 V c 1 t) (iblk4 V c 2 t) (iblk4 V c 3 t) (iblk4 V c 4 t) (iblk4 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [accAt4_pos V c t hz, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel4_B c Set.univ (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => hz ((hcond4_0 t).mp h)) (fun h => h9 ((hcond4_1 t).mp h)) (iblk4 V c 0 t) (iblk4 V c 1 t) (iblk4 V c 2 t) (iblk4 V c 3 t) (iblk4 V c 4 t) (iblk4 V c 5 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Entry and exit -/

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives the class's back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 10 := N_4; omega)

end Region

end Cert.Kernel.Reg

end
-- ==== Proof.Kernel.Bn5.lean ====
/- Region 5 of @main: the batch-norm apply kernel `cc5__bn_apply_kernel`, at the contents `V` the region is
   entered at. On a grid of 10 row tiles it writes, tile by tile,
   `out = (h_pre − mean) · inv_std · gamma + beta`: window 0 is the tile of `h_pre`, windows 1–4 the four
   `[1,128]` rows (whole, the same block at every point), window 5 the tile of the output.
   Stated here: each window's block at a point, what the body leaves in the output's buffer (one store of the whole
   tile, a pure function of the five blocks read), the body's triple, the pipeline's proof data `dat5` and its body
   obligation. Everything is generic in the float instance `F`. -/
import proofs.«139862_j28269474742473_1_alg».proof.Proof.Gen.Kernel.Launch
import proofs.«139862_j28269474742473_1_alg».proof.Proof.Gen.Kernel.Skeleton
import proofs.«139862_j28269474742473_1_alg».proof.Proof.Gen.Kernel.Points
import Idealize.ShloMosaic.Lib.Pipeline.FrameBody
import Idealize.ShloMosaic.Lib.Ring
import Idealize.ShloMosaic.Lib.Tactic

-- membership in a rectangle of 5000 rows: the elaborator recurses once per coordinate of the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: unfetched, the block index has not moved
    (the window is uncut and never idle). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place: unfetched, the block index has not moved
    (the window is uncut and never idle). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place: unfetched, the block index has not moved
    (the window is uncut and never idle). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s and whose body leaves the block in place: unfetched, the block index has not moved
    (the window is uncut and never idle). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s and whose body leaves the block in place: unfetched, the block index has not moved
    (the window is uncut and never idle). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: the whole tile, the whole row -/

abbrev tile5 : Rect S5000x128 := Rect.unit (s := S5000x128) ![0, 0] S5000x128.size inb_S5000x128_S5000x128_0_0
abbrev row5 : Rect S1x128 := Rect.unit (s := S1x128) ![0, 0] S1x128.size inb_S1x128_S1x128_0_0

/-! ## What the body leaves in the output window's buffer -/

/-- Window 5's staging buffer after the body, from the input windows' blocks: its one store, of the whole tile. -/
def out5_5 (x0 : Vec F S5000x128 .f32) (x1 : Vec F S1x128 .f32) (x2 : Vec F S1x128 .f32) (x3 : Vec F S1x128 .f32) (x4 : Vec F S1x128 .f32) : Vec F S5000x128 .f32 :=
  View.canon [⟨tile5, k5_pay1 (View.ld x0 tile5) (View.ld x1 row5) (View.ld x2 row5) (View.ld x3 row5) (View.ld x4 row5)⟩]

/-- The one store covers the buffer. -/
theorem cover5_5 (p0 : Vec F S5000x128 .f32) (y : S5000x128.Idx) :
    ∃ pc ∈ ([⟨tile5, p0⟩] : List (View.Piece (Elt F) S5000x128 .f32)), y ∈ pc.1.set :=
  View.cover_of_tiled [⟨tile5, p0⟩] S5000x128.size (by rfl) y

/-! ## The body's triple -/

set_option maxHeartbeats 1000000 in
/-- The kernel body on whole staging memrefs, the inputs' at read contents `xW` and the output's at anything, runs to
    the continuation holding the inputs' as they were and the output's at `out5_5` of the inputs'. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_apply_kernel i arg1 harg1 arg2 harg2 arg3 harg3 arg4 harg4 arg5 harg5 arg6 harg6) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at point
    `t` each input's buffer at its block and the output's at `out5_5` of the input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- The invariant is the same at every point: the scoped rest and the generator register. -/
theorem Φ_eq5 (c : Dev nD) (t : Fin (cfg5.N + 1)) : (dat5 V c).Φ t = Pipeline.ΦA spec5 c := rfl
theorem hin5 (c : Dev nD) : Pipeline.ΦA spec5 c ⊢ (dat5 V c).Φ 0 := .rfl
theorem hout5 (c : Dev nD) : (dat5 V c).Φ (Fin.last cfg5.N) ⊢ Pipeline.ΦA spec5 c := .rfl
theorem q_eq5 (c : Dev nD) (w : Fin cfg5.W) : (dat5 V c).q w = fullShare := rfl
theorem owed_eq5 (c : Dev nD) (t : Fin (cfg5.N + 1)) : (dat5 V c).owed t = 0 := rfl

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Reg

end
-- ==== Proof.Kernel.Mlp6Base.lean ====
import proofs.«139862_j28269474742473_1_alg».proof.Proof.Gen.Kernel.Launch
import proofs.«139862_j28269474742473_1_alg».proof.Proof.Gen.Kernel.Skeleton
import proofs.«139862_j28269474742473_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! # The MLP region of layer 3 (custom_call 6): what its runs share

The body of the MLP kernel has two conditionals on the grid coordinate: the first holds at the grid's first
point only (there the two scratch accumulators are zeroed), the second at the last point only (there the
accumulators are copied to the two statistics outputs). Here: the conditions in closed form, where the
statistics windows are idle, the staging memrefs and the scratch memrefs, the class invariant with the two
scratch buffers split off, and the blocks of the input windows at a parameter `V` (the contents the region
is entered at). -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional: the grid coordinate is 0. -/
abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val = 0 :=
  (by decide +kernel : ∀ t : Fin grid6.N, cond6_0 (grid6.coords t) ↔ t.val = 0)

/-- The second conditional: the grid coordinate is 9. -/
abbrev cond6_1 (i : grid6.Coords) : Prop := k6_cond2 i = 1#1
/-- It holds at the last point only. -/
theorem hcond6_1 : ∀ t : Fin cfg6.N, cond6_1 (grid6.coords t) ↔ t.val = 9 :=
  (by decide +kernel : ∀ t : Fin grid6.N, cond6_1 (grid6.coords t) ↔ t.val = 9)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cfg6.idle 4 (grid6.coords t) = false := by decide +kernel
theorem liveAt6_5 : ∀ t : Fin cfg6.N, cfg6.idle 5 (grid6.coords t) = false := by decide +kernel
theorem liveAt6_6 : ∀ t : Fin cfg6.N, cfg6.idle 6 (grid6.coords t) = false := by decide +kernel
/-- Away from the last point the statistics windows are idle and not written back; at the last point live. -/
theorem idleAt6_7 : ∀ t : Fin cfg6.N, ¬cond6_1 (grid6.coords t) → cfg6.idle 7 (grid6.coords t) = true := by decide +kernel
theorem noFlush6_7 : ∀ t : Fin cfg6.N, ¬cond6_1 (grid6.coords t) → (cfg6.win 7).flush t = false := by decide +kernel
theorem liveAt6_7 : ∀ t : Fin cfg6.N, cond6_1 (grid6.coords t) → cfg6.idle 7 (grid6.coords t) = false := by decide +kernel
theorem idleAt6_8 : ∀ t : Fin cfg6.N, ¬cond6_1 (grid6.coords t) → cfg6.idle 8 (grid6.coords t) = true := by decide +kernel
theorem noFlush6_8 : ∀ t : Fin cfg6.N, ¬cond6_1 (grid6.coords t) → (cfg6.win 8).flush t = false := by decide +kernel
theorem liveAt6_8 : ∀ t : Fin cfg6.N, cond6_1 (grid6.coords t) → cfg6.idle 8 (grid6.coords t) = false := by decide +kernel

/-! ## The staging memrefs and the scratch -/

abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S128x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S5000x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x128 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S1x128 .f32 := win6_8.stage (cfg6.slots t 8)
abbrev hs6_8 (t : Fin cfg6.N) : (ms6_8 t).IsWhole := hstage6_8 ((cfg6.slots t 8).cast nbuf6_8)
/-- The two scratch accumulators (column sums, column sums of squares), whole. -/
abbrev scM6_0 : Memref sig .tc .vmem S1x128 .f32 := Memref.whole cc6_scratch0
abbrev scM6_1 : Memref sig .tc .vmem S1x128 .f32 := Memref.whole cc6_scratch1

/-- The rest of the scoped buffers once the two accumulators are taken out. -/
abbrev rest6 (c : Dev nD) : sProp 𝕄 :=
  Pipeline.scopedRestBut (Ix := Unit) (Name := ℕ) (U := UR sig nD τ) (Lvl := ℕ) (Val := Elt F) spec6 c [cc6_scratch0, cc6_scratch1]

/-- The class invariant with the two accumulators owned at some contents, the other scoped buffers unopened. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ rest6 c) ∗ (∃ r, prngReg c r)) := by
  unfold Pipeline.ΦA; rw [scopedRest6_split]; simp only [scM6_0, scM6_1, owns_whole]; try rfl

/-! ## The windows' blocks, at the contents `V` the region is entered at -/

section Blocks
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not, for any proof data
    whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

end Blocks

end Cert.Kernel.Reg

end
-- ==== Proof.Kernel.Mlp6Run.lean ====
import proofs.«139862_j28269474742473_1_alg».proof.Proof.Kernel.Mlp6Base
import proofs.«139862_j28269474742473_1_alg».proof.Proof.Kernel.Mlp0Run
import Idealize.ShloMosaic.Lib.Pipeline.Value

/-! # The MLP region of layer 3: the body's run in each of its three control cases

The body loads the two row blocks and the four weight arrays, stores the block of the MLP's output (every
store of this kernel covers its whole buffer), and adds the block's column sums and column sums of squares
onto the two scratch accumulators; at the first point it zeroes the accumulators first, at the last point it
copies them to the two statistics outputs. Each case is one triple over whole staging memrefs, its post stated
through the skeleton's payloads. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of the MLP's output from the six input blocks: relu(relu((h + agg)·W1 + b1)·W2 + b2). -/
def h6 (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 := k6_pay5 x0 x1 x2 x3 x4 x5
/-- The first accumulator after a point: the block's column sums added onto what it held. -/
def acc6_0 (x0 : Vec F S5000x128 .f32) (x1 : Vec F S5000x128 .f32) (x2 : Vec F S128x128 .f32) (x3 : Vec F S1x128 .f32) (x4 : Vec F S128x128 .f32) (x5 : Vec F S1x128 .f32) (s0 : Vec F S1x128 .f32) : Vec F S1x128 .f32 := k6_pay1 s0 (k6_pay6 x0 x1 x2 x3 x4 x5)
/-- The second accumulator after a point: the column sums of the block's squares added onto what it held. -/
def acc6_1 (x0 : Vec F S5000x128 .f32) (x1 : Vec F S5000x128 .f32) (x2 : Vec F S128x128 .f32) (x3 : Vec F S1x128 .f32) (x4 : Vec F S128x128 .f32) (x5 : Vec F S1x128 .f32) (s1 : Vec F S1x128 .f32) : Vec F S1x128 .f32 := k6_pay2 (k6_pay5 x0 x1 x2 x3 x4 x5) s1

set_option maxHeartbeats 4000000 in
/-- The first point: the first conditional taken (the accumulators, found at anything, are zeroed), the second not. The
    statistics outputs are handed back untouched; the accumulators end at `acc6_0 … 0`, `acc6_1 … 0`. -/
theorem sound_kernel6_A (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : cond6_0 i) (hc1 : ¬cond6_1 i) (x0 : Vec F S5000x128 .f32) (x1 : Vec F S5000x128 .f32) (x2 : Vec F S128x128 .f32) (x3 : Vec F S1x128 .f32) (x4 : Vec F S128x128 .f32) (x5 : Vec F S1x128 .f32) (xi7 xi8 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xi8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h6 x0 x1 x2 x3 x4 x5) ∗ owns (c : Thread nD τ) arg8 fullShare xi7 ∗ owns (c : Thread nD τ) arg9 fullShare xi8
            ∗ owns (c : Thread nD τ) arg10 fullShare (acc6_0 x0 x1 x2 x3 x4 x5 k6_pay3) ∗ owns (c : Thread nD τ) arg11 fullShare (acc6_1 x0 x1 x2 x3 x4 x5 k6_pay4)) -∗ K ⟨⟩))
      ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10 arg11 harg11) K := by
  simp only [cc6__mlp_stats_kernel_eq_skeleton]; unfold cc6__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
  subst hf0; subst hf1; subst hf2; subst hf3; subst hf4; subst hf5; subst hf7; subst hf8
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists f7; isplitr
    · ipureintro; rfl
    iexact H7
  isplitl [H8]
  · iexists f8; isplitr
    · ipureintro; rfl
    iexact H8
  isplitl [HS0]
  · iexists _; isplitr
    swap
    · iexact HS0
    ipureintro; sl_unfold_words
    rw [mlp_read_store_whole _ _ mlp_hz]
    simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]

set_option maxHeartbeats 4000000 in
/-- A middle point: neither conditional taken. The statistics outputs are handed back untouched; the accumulators go from
    `xs0`, `xs1` to `acc6_0 … xs0`, `acc6_1 … xs1`. -/
theorem sound_kernel6_B (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬cond6_0 i) (hc1 : ¬cond6_1 i) (x0 : Vec F S5000x128 .f32) (x1 : Vec F S5000x128 .f32) (x2 : Vec F S128x128 .f32) (x3 : Vec F S1x128 .f32) (x4 : Vec F S128x128 .f32) (x5 : Vec F S1x128 .f32) (xi7 xi8 xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xi8
        ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h6 x0 x1 x2 x3 x4 x5) ∗ owns (c : Thread nD τ) arg8 fullShare xi7 ∗ owns (c : Thread nD τ) arg9 fullShare xi8
            ∗ owns (c : Thread nD τ) arg10 fullShare (acc6_0 x0 x1 x2 x3 x4 x5 xs0) ∗ owns (c : Thread nD τ) arg11 fullShare (acc6_1 x0 x1 x2 x3 x4 x5 xs1)) -∗ K ⟨⟩))
      ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10 arg11 harg11) K := by
  simp only [cc6__mlp_stats_kernel_eq_skeleton]; unfold cc6__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
  subst hf0; subst hf1; subst hf2; subst hf3; subst hf4; subst hf5; subst hf7; subst hf8; subst hfs0; subst hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists f7; isplitr
    · ipureintro; rfl
    iexact H7
  isplitl [H8]
  · iexists f8; isplitr
    · ipureintro; rfl
    iexact H8
  isplitl [HS0]
  · iexists _; isplitr
    swap
    · iexact HS0
    ipureintro; sl_unfold_words
    rw [mlp_read_store_whole _ _ mlp_hz]
    simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]

set_option maxHeartbeats 4000000 in
/-- The last point: the first conditional not taken, the second taken. The accumulators go from `xs0`, `xs1` to
    `acc6_0 … xs0`, `acc6_1 … xs1`, and the two statistics outputs, found at anything, end holding the same. -/
theorem sound_kernel6_C (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬cond6_0 i) (hc1 : cond6_1 i) (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h6 x0 x1 x2 x3 x4 x5) ∗ owns (c : Thread nD τ) arg8 fullShare (acc6_0 x0 x1 x2 x3 x4 x5 xs0) ∗ owns (c : Thread nD τ) arg9 fullShare (acc6_1 x0 x1 x2 x3 x4 x5 xs1)
            ∗ owns (c : Thread nD τ) arg10 fullShare (acc6_0 x0 x1 x2 x3 x4 x5 xs0) ∗ owns (c : Thread nD τ) arg11 fullShare (acc6_1 x0 x1 x2 x3 x4 x5 xs1)) -∗ K ⟨⟩))
      ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10 arg11 harg11) K := by
  simp only [cc6__mlp_stats_kernel_eq_skeleton]; unfold cc6__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
  subst hf0; subst hf1; subst hf2; subst hf3; subst hf4; subst hf5; subst hfs0; subst hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists _; isplitr
    swap
    · iexact H7
    ipureintro; sl_unfold_words
    rw [mlp_read_store_whole _ _ mlp_hz]
    simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H8]
  · iexists _; isplitr
    swap
    · iexact H8
    ipureintro; sl_unfold_words
    rw [mlp_read_store_whole _ _ mlp_hz]
    simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [HS0]
  · iexists _; isplitr
    swap
    · iexact HS0
    ipureintro; sl_unfold_words
    rw [mlp_read_store_whole _ _ mlp_hz]
    simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]

end Cert.Kernel.Reg

end
-- ==== Proof.Kernel.Mlp6.lean ====
import proofs.«139862_j28269474742473_1_alg».proof.Proof.Kernel.Mlp6Run

/-! # The MLP region of layer 3 (custom_call 6) at a parameter `V`: proof data, body obligation, entry and exit

The grid has ten points, one per block of 5000 rows. The two scratch accumulators are carried from point to
point: after point `n` they hold the column sums (and the column sums of squares) of the MLP's output over the
row blocks `0 … n` (`accAt6`, a fold of the body's payloads over the input blocks). The region invariant is the
class's before the first point (both accumulators at anything) and afterwards names the accumulators' contents.
Output window 6 receives the MLP's block at every point; windows 7 and 8 are idle up to the last point, where
they receive the accumulators. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The accumulators, point by point -/

/-- What the two scratch accumulators hold after the body at position `n`: zero plus the column sums (of the
    squares) of the MLP's blocks `0 … n`, as the fold of the body's payloads. -/
def accAt6 (c : Dev nD) : (n : ℕ) → n < cfg6.N → Vec F S1x128 .f32 × Vec F S1x128 .f32
  | 0, hn => (acc6_0 (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) k6_pay3, acc6_1 (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) k6_pay4)
  | n + 1, hn => (acc6_0 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (accAt6 c n (Nat.lt_of_succ_lt hn)).1, acc6_1 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (accAt6 c n (Nat.lt_of_succ_lt hn)).2)

/-- At the first point: over the zeroed accumulators. -/
theorem accAt6_zero (c : Dev nD) (t : Fin cfg6.N) (h : t.val = 0) :
    accAt6 V c t.val t.isLt = (acc6_0 (iblk6 V c 0 t) (iblk6 V c 1 t) (iblk6 V c 2 t) (iblk6 V c 3 t) (iblk6 V c 4 t) (iblk6 V c 5 t) k6_pay3, acc6_1 (iblk6 V c 0 t) (iblk6 V c 1 t) (iblk6 V c 2 t) (iblk6 V c 3 t) (iblk6 V c 4 t) (iblk6 V c 5 t) k6_pay4) := by
  obtain ⟨n, hn⟩ := t
  cases n with
  | zero => rfl
  | succ n => exact absurd h (Nat.succ_ne_zero n)

/-- At a later point: over what the point before left. -/
theorem accAt6_pos (c : Dev nD) (t : Fin cfg6.N) (h : t.val ≠ 0) :
    accAt6 V c t.val t.isLt = (acc6_0 (iblk6 V c 0 t) (iblk6 V c 1 t) (iblk6 V c 2 t) (iblk6 V c 3 t) (iblk6 V c 4 t) (iblk6 V c 5 t) (accAt6 V c (t.val - 1) (Nat.lt_of_le_of_lt (Nat.sub_le _ _) t.isLt)).1, acc6_1 (iblk6 V c 0 t) (iblk6 V c 1 t) (iblk6 V c 2 t) (iblk6 V c 3 t) (iblk6 V c 4 t) (iblk6 V c 5 t) (accAt6 V c (t.val - 1) (Nat.lt_of_le_of_lt (Nat.sub_le _ _) t.isLt)).2) := by
  obtain ⟨n, hn⟩ := t
  cases n with
  | zero => exact absurd rfl h
  | succ n => rfl

/-! ## The region invariant -/

/-- Before position `n`: the class's invariant before the first point; afterwards the two accumulators at what the
    point before left, the other scoped buffers unopened, the generator register at some state. -/
def PhiS6 (c : Dev nD) : (n : ℕ) → n ≤ cfg6.N → sProp 𝕄
  | 0, _ => Pipeline.ΦA spec6 c
  | n + 1, hn => iprop(iprop(iprop(owns (c : Thread nD τ) scM6_0 fullShare (accAt6 V c n hn).1 ∗ owns (c : Thread nD τ) scM6_1 fullShare (accAt6 V c n hn).2) ∗ rest6 c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (accAt6 V c n hn).1 ∗ owns (c : Thread nD τ) scM6_1 fullShare (accAt6 V c n hn).2) ∗ rest6 c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (accAt6 V c (n - 1) (by omega)).1 ∗ owns (c : Thread nD τ) scM6_1 fullShare (accAt6 V c (n - 1) (by omega)).2) ∗ rest6 c) ∗ (∃ r, prngReg c r)) := by
  cases n with
  | zero => exact absurd rfl hz
  | succ n => rfl

/-! ## The proof data -/

/-- The proof data of the region on core `c`: the arrays as the region finds them (`V`); after the body at point `t` each
    input's buffer at its block, output 6's at the MLP's block, outputs 7 and 8's at the accumulators; nothing owed;
    full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => h6 (iblk6 V c 0 t) (iblk6 V c 1 t) (iblk6 V c 2 t) (iblk6 V c 3 t) (iblk6 V c 4 t) (iblk6 V c 5 t)
    | ⟨7, _⟩ => (accAt6 V c t.val t.isLt).1
    | ⟨8, _⟩ => (accAt6 V c t.val t.isLt).2
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
/-- Output 6 after point `t`: the MLP's block of the six input blocks there. -/
theorem after6_6 (c : Dev nD) (t : Fin cfg6.N) : (dat6 V c).after 6 t = h6 (iblk6 V c 0 t) (iblk6 V c 1 t) (iblk6 V c 2 t) (iblk6 V c 3 t) (iblk6 V c 4 t) (iblk6 V c 5 t) := by dsimp only [dat6]
/-- Outputs 7 and 8 after point `t` (read at the last point only): the two accumulators there. -/
theorem after6_7 (c : Dev nD) (t : Fin cfg6.N) : (dat6 V c).after 7 t = (accAt6 V c t.val t.isLt).1 := by dsimp only [dat6]
theorem after6_8 (c : Dev nD) (t : Fin cfg6.N) : (dat6 V c).after 8 t = (accAt6 V c t.val t.isLt).2 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d)))

/-- and what it returns. -/
def bodyPost6 (c : Dev nD) (t : Fin cfg6.N) : sProp 𝕄 :=
  iprop((dat6 V c).Φ t.succ ∗ (dat6 V c).owesAt () t.succ
    ∗ (dat6 V c).leavesExact 0 t ∗ (dat6 V c).leavesExact 1 t ∗ (dat6 V c).leavesExact 2 t
    ∗ (dat6 V c).leavesExact 3 t ∗ (dat6 V c).leavesExact 4 t ∗ (dat6 V c).leavesExact 5 t
    ∗ (dat6 V c).leavesExact 6 t ∗ (dat6 V c).leavesExact 7 t ∗ (dat6 V c).leavesExact 8 t)

set_option maxHeartbeats 4800000 in
/-- The body at any point: the inputs' memrefs hold their blocks; the closed forms of the two conditions say which of
    the three cases the point is in; the invariant hands the body the accumulators (at anything at the first point, at
    what the point before left afterwards) and takes them back at this point's contents. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).owesAt () t.succ = (dat6 V c).owesAt () t.castSucc from rfl]
  rw [show (dat6 V c).Φ t.succ = PhiS6 V c (t.val + 1) t.isLt from rfl, PhiS6_succ]
  have hN : t.val < 10 := lt_of_lt_of_eq t.isLt (show cfg6.N = 10 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  rw [show (dat6 V c).leavesExact 4 t = owns (c : Thread nD τ) (ms6_4 t) fullShare ((dat6 V c).after 4 t) from by
    unfold Dat.leavesExact; rw [liveAt6_4 t], after6_4]
  rw [show (dat6 V c).leavesExact 5 t = owns (c : Thread nD τ) (ms6_5 t) fullShare ((dat6 V c).after 5 t) from by
    unfold Dat.leavesExact; rw [liveAt6_5 t], after6_5]
  rw [show (dat6 V c).leavesExact 6 t = owns (c : Thread nD τ) (ms6_6 t) fullShare ((dat6 V c).after 6 t) from by
    unfold Dat.leavesExact; rw [liveAt6_6 t], after6_6]
  rw [PhiS6_castSucc V c t]
  by_cases h9 : t.val = 9
  · have hz : t.val ≠ 0 := by omega
    rw [show (dat6 V c).leavesExact 7 t = owns (c : Thread nD τ) (ms6_7 t) fullShare ((dat6 V c).after 7 t) from by
      unfold Dat.leavesExact; rw [liveAt6_7 t ((hcond6_1 t).mpr h9)], after6_7]
    rw [show (dat6 V c).leavesExact 8 t = owns (c : Thread nD τ) (ms6_8 t) fullShare ((dat6 V c).after 8 t) from by
      unfold Dat.leavesExact; rw [liveAt6_8 t ((hcond6_1 t).mpr h9)], after6_8]
    rw [accAt6_pos V c t hz, PhiS6_pos V c _ _ hz]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel6_C c Set.univ (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => hz ((hcond6_0 t).mp h)) ((hcond6_1 t).mpr h9) (iblk6 V c 0 t) (iblk6 V c 1 t) (iblk6 V c 2 t) (iblk6 V c 3 t) (iblk6 V c 4 t) (iblk6 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dat6 V c) 7 t (idleAt6_7 t (fun h => h9 ((hcond6_1 t).mp h))) (noFlush6_7 t (fun h => h9 ((hcond6_1 t).mp h)))]
    rw [Dat.leavesExact_idle (dat6 V c) 8 t (idleAt6_8 t (fun h => h9 ((hcond6_1 t).mp h))) (noFlush6_8 t (fun h => h9 ((hcond6_1 t).mp h)))]
    by_cases hz : t.val = 0
    · rw [accAt6_zero V c t hz, PhiS6_zero V c _ _ hz, PhiA6_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel6_A c Set.univ (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr hz) (fun h => h9 ((hcond6_1 t).mp h)) (iblk6 V c 0 t) (iblk6 V c 1 t) (iblk6 V c 2 t) (iblk6 V c 3 t) (iblk6 V c 4 t) (iblk6 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [accAt6_pos V c t hz, PhiS6_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel6_B c Set.univ (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => hz ((hcond6_0 t).mp h)) (fun h => h9 ((hcond6_1 t).mp h)) (iblk6 V c 0 t) (iblk6 V c 1 t) (iblk6 V c 2 t) (iblk6 V c 3 t) (iblk6 V c 4 t) (iblk6 V c 5 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## Entry and exit -/

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point the invariant gives the class's back: the accumulators' named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout6 (c : Dev nD) : (dat6 V c).Φ (Fin.last cfg6.N) ⊢ Pipeline.ΦA spec6 c :=
  Phi_out6 V c _ (by rw [Fin.val_last]; have : cfg6.N = 10 := N_6; omega)

end Region

end Cert.Kernel.Reg

end
-- ==== Proof.Kernel.Bn7.lean ====
/- Region 7 of @main: the batch-norm apply kernel `cc7__bn_apply_kernel`, at the contents `V` the region is
   entered at. On a grid of 10 row tiles it writes, tile by tile,
   `out = (h_pre − mean) · inv_std · gamma + beta`: window 0 is the tile of `h_pre`, windows 1–4 the four
   `[1,128]` rows (whole, the same block at every point), window 5 the tile of the output.
   Stated here: each window's block at a point, what the body leaves in the output's buffer (one store of the whole
   tile, a pure function of the five blocks read), the body's triple, the pipeline's proof data `dat7` and its body
   obligation. Everything is generic in the float instance `F`. -/
import proofs.«139862_j28269474742473_1_alg».proof.Proof.Gen.Kernel.Launch
import proofs.«139862_j28269474742473_1_alg».proof.Proof.Gen.Kernel.Skeleton
import proofs.«139862_j28269474742473_1_alg».proof.Proof.Gen.Kernel.Points
import Idealize.ShloMosaic.Lib.Pipeline.FrameBody
import Idealize.ShloMosaic.Lib.Ring
import Idealize.ShloMosaic.Lib.Tactic

-- membership in a rectangle of 5000 rows: the elaborator recurses once per coordinate of the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s and whose body leaves the block in place: unfetched, the block index has not moved
    (the window is uncut and never idle). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s and whose body leaves the block in place: unfetched, the block index has not moved
    (the window is uncut and never idle). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is `V`'s and whose body leaves the block in place: unfetched, the block index has not moved
    (the window is uncut and never idle). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof
    data whose array is `V`'s and whose body leaves the block in place: unfetched, the block index has not moved
    (the window is uncut and never idle). -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof
    data whose array is `V`'s and whose body leaves the block in place: unfetched, the block index has not moved
    (the window is uncut and never idle). -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: the whole tile, the whole row -/

abbrev tile7 : Rect S5000x128 := Rect.unit (s := S5000x128) ![0, 0] S5000x128.size inb_S5000x128_S5000x128_0_0
abbrev row7 : Rect S1x128 := Rect.unit (s := S1x128) ![0, 0] S1x128.size inb_S1x128_S1x128_0_0

/-! ## What the body leaves in the output window's buffer -/

/-- Window 5's staging buffer after the body, from the input windows' blocks: its one store, of the whole tile. -/
def out7_5 (x0 : Vec F S5000x128 .f32) (x1 : Vec F S1x128 .f32) (x2 : Vec F S1x128 .f32) (x3 : Vec F S1x128 .f32) (x4 : Vec F S1x128 .f32) : Vec F S5000x128 .f32 :=
  View.canon [⟨tile7, k7_pay1 (View.ld x0 tile7) (View.ld x1 row7) (View.ld x2 row7) (View.ld x3 row7) (View.ld x4 row7)⟩]

/-- The one store covers the buffer. -/
theorem cover7_5 (p0 : Vec F S5000x128 .f32) (y : S5000x128.Idx) :
    ∃ pc ∈ ([⟨tile7, p0⟩] : List (View.Piece (Elt F) S5000x128 .f32)), y ∈ pc.1.set :=
  View.cover_of_tiled [⟨tile7, p0⟩] S5000x128.size (by rfl) y

/-! ## The body's triple -/

set_option maxHeartbeats 1000000 in
/-- The kernel body on whole staging memrefs, the inputs' at read contents `xW` and the output's at anything, runs to
    the continuation holding the inputs' as they were and the output's at `out7_5` of the inputs'. -/
theorem sound_kernel7 (c : Dev nD) (E : Set ℕ) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7__bn_apply_kernel i arg1 harg1 arg2 harg2 arg3 harg3 arg4 harg4 arg5 harg5 arg6 harg6) K := by
  simp only [cc7__bn_apply_kernel_eq_skeleton]; unfold cc7__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data of pipeline 7 on core `c`: the arrays as the region finds them (`V`); after the body at point
    `t` each input's buffer at its block and the output's at `out7_5` of the input blocks; the invariant is the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- The invariant is the same at every point: the scoped rest and the generator register. -/
theorem Φ_eq7 (c : Dev nD) (t : Fin (cfg7.N + 1)) : (dat7 V c).Φ t = Pipeline.ΦA spec7 c := rfl
theorem hin7 (c : Dev nD) : Pipeline.ΦA spec7 c ⊢ (dat7 V c).Φ 0 := .rfl
theorem hout7 (c : Dev nD) : (dat7 V c).Φ (Fin.last cfg7.N) ⊢ Pipeline.ΦA spec7 c := .rfl
theorem q_eq7 (c : Dev nD) (w : Fin cfg7.W) : (dat7 V c).q w = fullShare := rfl
theorem owed_eq7 (c : Dev nD) (t : Fin (cfg7.N + 1)) : (dat7 V c).owed t = 0 := rfl

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so the body's triple applies; the invariant and the
    core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Reg

end
-- ==== Proof.Kernel.Mlp8Base.lean ====
import proofs.«139862_j28269474742473_1_alg».proof.Proof.Gen.Kernel.Launch
import proofs.«139862_j28269474742473_1_alg».proof.Proof.Gen.Kernel.Skeleton
import proofs.«139862_j28269474742473_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! # The MLP region of layer 4 (custom_call 8): what its runs share

The body of the MLP kernel has two conditionals on the grid coordinate: the first holds at the grid's first
point only (there the two scratch accumulators are zeroed), the second at the last point only (there the
accumulators are copied to the two statistics outputs). Here: the conditions in closed form, where the
statistics windows are idle, the staging memrefs and the scratch memrefs, the class invariant with the two
scratch buffers split off, and the blocks of the input windows at a parameter `V` (the contents the region
is entered at). -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional: the grid coordinate is 0. -/
abbrev cond8_0 (i : grid8.Coords) : Prop := (Scalar.cmpi .ne (Scalar.extui (Scalar.cmpi .eq (BitVec.ofNat 32 (i 0).val) 0#32)) 0#32) = 1#1
/-- It holds at the first point only. -/
theorem hcond8_0 : ∀ t : Fin cfg8.N, cond8_0 (grid8.coords t) ↔ t.val = 0 :=
  (by decide +kernel : ∀ t : Fin grid8.N, cond8_0 (grid8.coords t) ↔ t.val = 0)

/-- The second conditional: the grid coordinate is 9. -/
abbrev cond8_1 (i : grid8.Coords) : Prop := k8_cond2 i = 1#1
/-- It holds at the last point only. -/
theorem hcond8_1 : ∀ t : Fin cfg8.N, cond8_1 (grid8.coords t) ↔ t.val = 9 :=
  (by decide +kernel : ∀ t : Fin grid8.N, cond8_1 (grid8.coords t) ↔ t.val = 9)

/-! ## Where the windows are idle -/

theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
theorem liveAt8_3 : ∀ t : Fin cfg8.N, cfg8.idle 3 (grid8.coords t) = false := by decide +kernel
theorem liveAt8_4 : ∀ t : Fin cfg8.N, cfg8.idle 4 (grid8.coords t) = false := by decide +kernel
theorem liveAt8_5 : ∀ t : Fin cfg8.N, cfg8.idle 5 (grid8.coords t) = false := by decide +kernel
theorem liveAt8_6 : ∀ t : Fin cfg8.N, cfg8.idle 6 (grid8.coords t) = false := by decide +kernel
/-- Away from the last point the statistics windows are idle and not written back; at the last point live. -/
theorem idleAt8_7 : ∀ t : Fin cfg8.N, ¬cond8_1 (grid8.coords t) → cfg8.idle 7 (grid8.coords t) = true := by decide +kernel
theorem noFlush8_7 : ∀ t : Fin cfg8.N, ¬cond8_1 (grid8.coords t) → (cfg8.win 7).flush t = false := by decide +kernel
theorem liveAt8_7 : ∀ t : Fin cfg8.N, cond8_1 (grid8.coords t) → cfg8.idle 7 (grid8.coords t) = false := by decide +kernel
theorem idleAt8_8 : ∀ t : Fin cfg8.N, ¬cond8_1 (grid8.coords t) → cfg8.idle 8 (grid8.coords t) = true := by decide +kernel
theorem noFlush8_8 : ∀ t : Fin cfg8.N, ¬cond8_1 (grid8.coords t) → (cfg8.win 8).flush t = false := by decide +kernel
theorem liveAt8_8 : ∀ t : Fin cfg8.N, cond8_1 (grid8.coords t) → cfg8.idle 8 (grid8.coords t) = false := by decide +kernel

/-! ## The staging memrefs and the scratch -/

abbrev ms8_0 (t : Fin cfg8.N) : Memref sig .tc .vmem S5000x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S5000x128 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S128x128 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x128 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S128x128 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S1x128 .f32 := win8_5.stage (cfg8.slots t 5)
abbrev hs8_5 (t : Fin cfg8.N) : (ms8_5 t).IsWhole := hstage8_5 ((cfg8.slots t 5).cast nbuf8_5)
abbrev ms8_6 (t : Fin cfg8.N) : Memref sig .tc .vmem S5000x128 .f32 := win8_6.stage (cfg8.slots t 6)
abbrev hs8_6 (t : Fin cfg8.N) : (ms8_6 t).IsWhole := hstage8_6 ((cfg8.slots t 6).cast nbuf8_6)
abbrev ms8_7 (t : Fin cfg8.N) : Memref sig .tc .vmem S1x128 .f32 := win8_7.stage (cfg8.slots t 7)
abbrev hs8_7 (t : Fin cfg8.N) : (ms8_7 t).IsWhole := hstage8_7 ((cfg8.slots t 7).cast nbuf8_7)
abbrev ms8_8 (t : Fin cfg8.N) : Memref sig .tc .vmem S1x128 .f32 := win8_8.stage (cfg8.slots t 8)
abbrev hs8_8 (t : Fin cfg8.N) : (ms8_8 t).IsWhole := hstage8_8 ((cfg8.slots t 8).cast nbuf8_8)
/-- The two scratch accumulators (column sums, column sums of squares), whole. -/
abbrev scM8_0 : Memref sig .tc .vmem S1x128 .f32 := Memref.whole cc8_scratch0
abbrev scM8_1 : Memref sig .tc .vmem S1x128 .f32 := Memref.whole cc8_scratch1

/-- The rest of the scoped buffers once the two accumulators are taken out. -/
abbrev rest8 (c : Dev nD) : sProp 𝕄 :=
  Pipeline.scopedRestBut (Ix := Unit) (Name := ℕ) (U := UR sig nD τ) (Lvl := ℕ) (Val := Elt F) spec8 c [cc8_scratch0, cc8_scratch1]

/-- The class invariant with the two accumulators owned at some contents, the other scoped buffers unopened. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d)) ∗ rest8 c) ∗ (∃ r, prngReg c r)) := by
  unfold Pipeline.ΦA; rw [scopedRest8_split]; simp only [scM8_0, scM8_1, owns_whole]; try rfl

/-! ## The windows' blocks, at the contents `V` the region is entered at -/

section Blocks
variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not, for any proof data
    whose array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

end Blocks

end Cert.Kernel.Reg

end
-- ==== Proof.Kernel.Mlp8Run.lean ====
import proofs.«139862_j28269474742473_1_alg».proof.Proof.Kernel.Mlp8Base
import proofs.«139862_j28269474742473_1_alg».proof.Proof.Kernel.Mlp0Run
import Idealize.ShloMosaic.Lib.Pipeline.Value

/-! # The MLP region of layer 4: the body's run in each of its three control cases

The body loads the two row blocks and the four weight arrays, stores the block of the MLP's output (every
store of this kernel covers its whole buffer), and adds the block's column sums and column sums of squares
onto the two scratch accumulators; at the first point it zeroes the accumulators first, at the last point it
copies them to the two statistics outputs. Each case is one triple over whole staging memrefs, its post stated
through the skeleton's payloads. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of the MLP's output from the six input blocks: relu(relu((h + agg)·W1 + b1)·W2 + b2). -/
def h8 (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 := k8_pay5 x0 x1 x2 x3 x4 x5
/-- The first accumulator after a point: the block's column sums added onto what it held. -/
def acc8_0 (x0 : Vec F S5000x128 .f32) (x1 : Vec F S5000x128 .f32) (x2 : Vec F S128x128 .f32) (x3 : Vec F S1x128 .f32) (x4 : Vec F S128x128 .f32) (x5 : Vec F S1x128 .f32) (s0 : Vec F S1x128 .f32) : Vec F S1x128 .f32 := k8_pay1 s0 (k8_pay6 x0 x1 x2 x3 x4 x5)
/-- The second accumulator after a point: the column sums of the block's squares added onto what it held. -/
def acc8_1 (x0 : Vec F S5000x128 .f32) (x1 : Vec F S5000x128 .f32) (x2 : Vec F S128x128 .f32) (x3 : Vec F S1x128 .f32) (x4 : Vec F S128x128 .f32) (x5 : Vec F S1x128 .f32) (s1 : Vec F S1x128 .f32) : Vec F S1x128 .f32 := k8_pay2 (k8_pay5 x0 x1 x2 x3 x4 x5) s1

set_option maxHeartbeats 4000000 in
/-- The first point: the first conditional taken (the accumulators, found at anything, are zeroed), the second not. The
    statistics outputs are handed back untouched; the accumulators end at `acc8_0 … 0`, `acc8_1 … 0`. -/
theorem sound_kernel8_A (c : Dev nD) (E : Set ℕ) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : cond8_0 i) (hc1 : ¬cond8_1 i) (x0 : Vec F S5000x128 .f32) (x1 : Vec F S5000x128 .f32) (x2 : Vec F S128x128 .f32) (x3 : Vec F S1x128 .f32) (x4 : Vec F S128x128 .f32) (x5 : Vec F S1x128 .f32) (xi7 xi8 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xi8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h8 x0 x1 x2 x3 x4 x5) ∗ owns (c : Thread nD τ) arg8 fullShare xi7 ∗ owns (c : Thread nD τ) arg9 fullShare xi8
            ∗ owns (c : Thread nD τ) arg10 fullShare (acc8_0 x0 x1 x2 x3 x4 x5 k8_pay3) ∗ owns (c : Thread nD τ) arg11 fullShare (acc8_1 x0 x1 x2 x3 x4 x5 k8_pay4)) -∗ K ⟨⟩))
      ⊢ wp frame (wpE (defs₀ (F := F)) Variants.none c none) E (cc8__mlp_stats_kernel i arg1 harg1 arg2 harg2 arg3 harg3 arg4 harg4 arg5 harg5 arg6 harg6 arg7 harg7 arg8 harg8 arg9 harg9 arg10 harg10 arg11 harg11) K := by
  simp only [cc8__mlp_stats_kernel_eq_skeleton]; unfold cc8__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
  subst hf0; subst hf1; subst hf2; subst hf3; subst hf4; subst hf5; subst hf7; subst hf8
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists f7; isplitr
    · ipureintro; rfl
    iexact H7
  isplitl [H8]
  · iexists f8; isplitr
    · ipureintro; rfl
    iexact H8
  isplitl [HS0]
  · iexists _; isplitr
    swap
    · iexact HS0
    ipureintro; sl_unfold_words
    rw [mlp_read_store_whole _ _ mlp_hz]
    simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]

set_option maxHeartbeats 4000000 in
/-- A middle point: neither conditional taken. The statistics outputs are handed back untouched; the accumulators go from
    `xs0`, `xs1` to `acc8_0 … xs0`, `acc8_1 … xs1`. -/
theorem sound_kernel8_B (c : Dev nD) (E : Set ℕ) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬cond8_0 i) (hc1 : ¬cond8_1 i) (x0 : Vec F S5000x128 .f32) (x1 : Vec F S5000x128 .f32) (x2 : Vec F S128x128 .f32) (x3 : Vec F S1x128 .f32) (x4 : Vec F S128x128 .f32) (x5 : Vec F S1x128 .f32) (xi7 xi8 xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xi8
        ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h8 x0 x1 x2 x3 x4 x5) ∗ owns (c : Thread nD τ) arg8 fullShare xi7 ∗ owns (c : Thread nD τ) arg9 fullShare xi8
            ∗ owns (c : Thread nD τ) arg10 fullShare (acc8_0 x0 x1 x2 x3 x4 x5 xs0) ∗ owns (c : Thread nD τ) arg11 fullShare (acc8_1 x0 x1 x2 x3 x4 x5 xs1)) -∗ K ⟨⟩))
      ⊢ wp frame (wpE (defs₀ (F := F)) Variants.none c none) E (cc8__mlp_stats_kernel i arg1 harg1 arg2 harg2 arg3 harg3 arg4 harg4 arg5 harg5 arg6 harg6 arg7 harg7 arg8 harg8 arg9 harg9 arg10 harg10 arg11 harg11) K := by
  simp only [cc8__mlp_stats_kernel_eq_skeleton]; unfold cc8__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
  subst hf0; subst hf1; subst hf2; subst hf3; subst hf4; subst hf5; subst hf7; subst hf8; subst hfs0; subst hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists f7; isplitr
    · ipureintro; rfl
    iexact H7
  isplitl [H8]
  · iexists f8; isplitr
    · ipureintro; rfl
    iexact H8
  isplitl [HS0]
  · iexists _; isplitr
    swap
    · iexact HS0
    ipureintro; sl_unfold_words
    rw [mlp_read_store_whole _ _ mlp_hz]
    simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]

set_option maxHeartbeats 4000000 in
/-- The last point: the first conditional not taken, the second taken. The accumulators go from `xs0`, `xs1` to
    `acc8_0 … xs0`, `acc8_1 … xs1`, and the two statistics outputs, found at anything, end holding the same. -/
theorem sound_kernel8_C (c : Dev nD) (E : Set ℕ) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬cond8_0 i) (hc1 : cond8_1 i) (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h8 x0 x1 x2 x3 x4 x5) ∗ owns (c : Thread nD τ) arg8 fullShare (acc8_0 x0 x1 x2 x3 x4 x5 xs0) ∗ owns (c : Thread nD τ) arg9 fullShare (acc8_1 x0 x1 x2 x3 x4 x5 xs1)
            ∗ owns (c : Thread nD τ) arg10 fullShare (acc8_0 x0 x1 x2 x3 x4 x5 xs0) ∗ owns (c : Thread nD τ) arg11 fullShare (acc8_1 x0 x1 x2 x3 x4 x5 xs1)) -∗ K ⟨⟩))
      ⊢ wp frame (wpE (defs₀ (F := F)) Variants.none c none) E (cc8__mlp_stats_kernel i arg1 harg1 arg2 harg2 arg3 harg3 arg4 harg4 arg5 harg5 arg6 harg6 arg7 harg7 arg8 harg8 arg9 harg9 arg10 harg10 arg11 harg11) K := by
  simp only [cc8__mlp_stats_kernel_eq_skeleton]; unfold cc8__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
  subst hf0; subst hf1; subst hf2; subst hf3; subst hf4; subst hf5; subst hfs0; subst hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists _; isplitr
    swap
    · iexact H7
    ipureintro; sl_unfold_words
    rw [mlp_read_store_whole _ _ mlp_hz]
    simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H8]
  · iexists _; isplitr
    swap
    · iexact H8
    ipureintro; sl_unfold_words
    rw [mlp_read_store_whole _ _ mlp_hz]
    simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [HS0]
  · iexists _; isplitr
    swap
    · iexact HS0
    ipureintro; sl_unfold_words
    rw [mlp_read_store_whole _ _ mlp_hz]
    simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]

end Cert.Kernel.Reg

end
-- ==== Proof.Kernel.Mlp8.lean ====
import proofs.«139862_j28269474742473_1_alg».proof.Proof.Kernel.Mlp8Run

/-! # The MLP region of layer 4 (custom_call 8) at a parameter `V`: proof data, body obligation, entry and exit

The grid has ten points, one per block of 5000 rows. The two scratch accumulators are carried from point to
point: after point `n` they hold the column sums (and the column sums of squares) of the MLP's output over the
row blocks `0 … n` (`accAt8`, a fold of the body's payloads over the input blocks). The region invariant is the
class's before the first point (both accumulators at anything) and afterwards names the accumulators' contents.
Output window 6 receives the MLP's block at every point; windows 7 and 8 are idle up to the last point, where
they receive the accumulators. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The accumulators, point by point -/

/-- What the two scratch accumulators hold after the body at position `n`: zero plus the column sums (of the
    squares) of the MLP's blocks `0 … n`, as the fold of the body's payloads. -/
def accAt8 (c : Dev nD) : (n : ℕ) → n < cfg8.N → Vec F S1x128 .f32 × Vec F S1x128 .f32
  | 0, hn => (acc8_0 (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) k8_pay3, acc8_1 (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) k8_pay4)
  | n + 1, hn => (acc8_0 (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (accAt8 c n (Nat.lt_of_succ_lt hn)).1, acc8_1 (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (accAt8 c n (Nat.lt_of_succ_lt hn)).2)

/-- At the first point: over the zeroed accumulators. -/
theorem accAt8_zero (c : Dev nD) (t : Fin cfg8.N) (h : t.val = 0) :
    accAt8 V c t.val t.isLt = (acc8_0 (iblk8 V c 0 t) (iblk8 V c 1 t) (iblk8 V c 2 t) (iblk8 V c 3 t) (iblk8 V c 4 t) (iblk8 V c 5 t) k8_pay3, acc8_1 (iblk8 V c 0 t) (iblk8 V c 1 t) (iblk8 V c 2 t) (iblk8 V c 3 t) (iblk8 V c 4 t) (iblk8 V c 5 t) k8_pay4) := by
  obtain ⟨n, hn⟩ := t
  cases n with
  | zero => rfl
  | succ n => exact absurd h (Nat.succ_ne_zero n)

/-- At a later point: over what the point before left. -/
theorem accAt8_pos (c : Dev nD) (t : Fin cfg8.N) (h : t.val ≠ 0) :
    accAt8 V c t.val t.isLt = (acc8_0 (iblk8 V c 0 t) (iblk8 V c 1 t) (iblk8 V c 2 t) (iblk8 V c 3 t) (iblk8 V c 4 t) (iblk8 V c 5 t) (accAt8 V c (t.val - 1) (Nat.lt_of_le_of_lt (Nat.sub_le _ _) t.isLt)).1, acc8_1 (iblk8 V c 0 t) (iblk8 V c 1 t) (iblk8 V c 2 t) (iblk8 V c 3 t) (iblk8 V c 4 t) (iblk8 V c 5 t) (accAt8 V c (t.val - 1) (Nat.lt_of_le_of_lt (Nat.sub_le _ _) t.isLt)).2) := by
  obtain ⟨n, hn⟩ := t
  cases n with
  | zero => exact absurd rfl h
  | succ n => rfl

/-! ## The region invariant -/

/-- Before position `n`: the class's invariant before the first point; afterwards the two accumulators at what the
    point before left, the other scoped buffers unopened, the generator register at some state. -/
def PhiS8 (c : Dev nD) : (n : ℕ) → n ≤ cfg8.N → sProp 𝕄
  | 0, _ => Pipeline.ΦA spec8 c
  | n + 1, hn => iprop(iprop(iprop(owns (c : Thread nD τ) scM8_0 fullShare (accAt8 V c n hn).1 ∗ owns (c : Thread nD τ) scM8_1 fullShare (accAt8 V c n hn).2) ∗ rest8 c) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(iprop(owns (c : Thread nD τ) scM8_0 fullShare (accAt8 V c n hn).1 ∗ owns (c : Thread nD τ) scM8_1 fullShare (accAt8 V c n hn).2) ∗ rest8 c) ∗ (∃ r, prngReg c r)) := rfl

theorem PhiS8_pos (c : Dev nD) (n : ℕ) (h : n ≤ cfg8.N) (hz : n ≠ 0) :
    PhiS8 V c n h = iprop(iprop(iprop(owns (c : Thread nD τ) scM8_0 fullShare (accAt8 V c (n - 1) (by omega)).1 ∗ owns (c : Thread nD τ) scM8_1 fullShare (accAt8 V c (n - 1) (by omega)).2) ∗ rest8 c) ∗ (∃ r, prngReg c r)) := by
  cases n with
  | zero => exact absurd rfl hz
  | succ n => rfl

/-! ## The proof data -/

/-- The proof data of the region on core `c`: the arrays as the region finds them (`V`); after the body at point `t` each
    input's buffer at its block, output 6's at the MLP's block, outputs 7 and 8's at the accumulators; nothing owed;
    full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => h8 (iblk8 V c 0 t) (iblk8 V c 1 t) (iblk8 V c 2 t) (iblk8 V c 3 t) (iblk8 V c 4 t) (iblk8 V c 5 t)
    | ⟨7, _⟩ => (accAt8 V c t.val t.isLt).1
    | ⟨8, _⟩ => (accAt8 V c t.val t.isLt).2
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
/-- Output 6 after point `t`: the MLP's block of the six input blocks there. -/
theorem after8_6 (c : Dev nD) (t : Fin cfg8.N) : (dat8 V c).after 6 t = h8 (iblk8 V c 0 t) (iblk8 V c 1 t) (iblk8 V c 2 t) (iblk8 V c 3 t) (iblk8 V c 4 t) (iblk8 V c 5 t) := by dsimp only [dat8]
/-- Outputs 7 and 8 after point `t` (read at the last point only): the two accumulators there. -/
theorem after8_7 (c : Dev nD) (t : Fin cfg8.N) : (dat8 V c).after 7 t = (accAt8 V c t.val t.isLt).1 := by dsimp only [dat8]
theorem after8_8 (c : Dev nD) (t : Fin cfg8.N) : (dat8 V c).after 8 t = (accAt8 V c t.val t.isLt).2 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d))
    ∗ (∃ d, owns (c : Thread nD τ) (ms8_8 t) fullShare ((dat8 V c).before 8 t d)))

/-- and what it returns. -/
def bodyPost8 (c : Dev nD) (t : Fin cfg8.N) : sProp 𝕄 :=
  iprop((dat8 V c).Φ t.succ ∗ (dat8 V c).owesAt () t.succ
    ∗ (dat8 V c).leavesExact 0 t ∗ (dat8 V c).leavesExact 1 t ∗ (dat8 V c).leavesExact 2 t
    ∗ (dat8 V c).leavesExact 3 t ∗ (dat8 V c).leavesExact 4 t ∗ (dat8 V c).leavesExact 5 t
    ∗ (dat8 V c).leavesExact 6 t ∗ (dat8 V c).leavesExact 7 t ∗ (dat8 V c).leavesExact 8 t)

set_option maxHeartbeats 4800000 in
/-- The body at any point: the inputs' memrefs hold their blocks; the closed forms of the two conditions say which of
    the three cases the point is in; the invariant hands the body the accumulators (at anything at the first point, at
    what the point before left afterwards) and takes them back at this point's contents. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).owesAt () t.succ = (dat8 V c).owesAt () t.castSucc from rfl]
  rw [show (dat8 V c).Φ t.succ = PhiS8 V c (t.val + 1) t.isLt from rfl, PhiS8_succ]
  have hN : t.val < 10 := lt_of_lt_of_eq t.isLt (show cfg8.N = 10 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  rw [show (dat8 V c).leavesExact 4 t = owns (c : Thread nD τ) (ms8_4 t) fullShare ((dat8 V c).after 4 t) from by
    unfold Dat.leavesExact; rw [liveAt8_4 t], after8_4]
  rw [show (dat8 V c).leavesExact 5 t = owns (c : Thread nD τ) (ms8_5 t) fullShare ((dat8 V c).after 5 t) from by
    unfold Dat.leavesExact; rw [liveAt8_5 t], after8_5]
  rw [show (dat8 V c).leavesExact 6 t = owns (c : Thread nD τ) (ms8_6 t) fullShare ((dat8 V c).after 6 t) from by
    unfold Dat.leavesExact; rw [liveAt8_6 t], after8_6]
  rw [PhiS8_castSucc V c t]
  by_cases h9 : t.val = 9
  · have hz : t.val ≠ 0 := by omega
    rw [show (dat8 V c).leavesExact 7 t = owns (c : Thread nD τ) (ms8_7 t) fullShare ((dat8 V c).after 7 t) from by
      unfold Dat.leavesExact; rw [liveAt8_7 t ((hcond8_1 t).mpr h9)], after8_7]
    rw [show (dat8 V c).leavesExact 8 t = owns (c : Thread nD τ) (ms8_8 t) fullShare ((dat8 V c).after 8 t) from by
      unfold Dat.leavesExact; rw [liveAt8_8 t ((hcond8_1 t).mpr h9)], after8_8]
    rw [accAt8_pos V c t hz, PhiS8_pos V c _ _ hz]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel8_C c Set.univ (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => hz ((hcond8_0 t).mp h)) ((hcond8_1 t).mpr h9) (iblk8 V c 0 t) (iblk8 V c 1 t) (iblk8 V c 2 t) (iblk8 V c 3 t) (iblk8 V c 4 t) (iblk8 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dat8 V c) 7 t (idleAt8_7 t (fun h => h9 ((hcond8_1 t).mp h))) (noFlush8_7 t (fun h => h9 ((hcond8_1 t).mp h)))]
    rw [Dat.leavesExact_idle (dat8 V c) 8 t (idleAt8_8 t (fun h => h9 ((hcond8_1 t).mp h))) (noFlush8_8 t (fun h => h9 ((hcond8_1 t).mp h)))]
    by_cases hz : t.val = 0
    · rw [accAt8_zero V c t hz, PhiS8_zero V c _ _ hz, PhiA8_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel8_A c Set.univ (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) ((hcond8_0 t).mpr hz) (fun h => h9 ((hcond8_1 t).mp h)) (iblk8 V c 0 t) (iblk8 V c 1 t) (iblk8 V c 2 t) (iblk8 V c 3 t) (iblk8 V c 4 t) (iblk8 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [accAt8_pos V c t hz, PhiS8_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel8_B c Set.univ (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => hz ((hcond8_0 t).mp h)) (fun h => h9 ((hcond8_1 t).mp h)) (iblk8 V c 0 t) (iblk8 V c 1 t) (iblk8 V c 2 t) (iblk8 V c 3 t) (iblk8 V c 4 t) (iblk8 V c 5 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## Entry and exit -/

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point the invariant gives the class's back: the accumulators' named contents are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout8 (c : Dev nD) : (dat8 V c).Φ (Fin.last cfg8.N) ⊢ Pipeline.ΦA spec8 c :=
  Phi_out8 V c _ (by rw [Fin.val_last]; have : cfg8.N = 10 := N_8; omega)

end Region

end Cert.Kernel.Reg

end
-- ==== Proof.Kernel.Bn9.lean ====
/- Region 9 of @main: the batch-norm apply kernel `cc9__bn_apply_kernel`, at the contents `V` the region is
   entered at. On a grid of 10 row tiles it writes, tile by tile,
   `out = (h_pre − mean) · inv_std · gamma + beta`: window 0 is the tile of `h_pre`, windows 1–4 the four
   `[1,128]` rows (whole, the same block at every point), window 5 the tile of the output.
   Stated here: each window's block at a point, what the body leaves in the output's buffer (one store of the whole
   tile, a pure function of the five blocks read), the body's triple, the pipeline's proof data `dat9` and its body
   obligation. Everything is generic in the float instance `F`. -/
import proofs.«139862_j28269474742473_1_alg».proof.Proof.Gen.Kernel.Launch
import proofs.«139862_j28269474742473_1_alg».proof.Proof.Gen.Kernel.Skeleton
import proofs.«139862_j28269474742473_1_alg».proof.Proof.Gen.Kernel.Points
import Idealize.ShloMosaic.Lib.Pipeline.FrameBody
import Idealize.ShloMosaic.Lib.Ring
import Idealize.ShloMosaic.Lib.Tactic

-- membership in a rectangle of 5000 rows: the elaborator recurses once per coordinate of the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s and whose body leaves the block in place: unfetched, the block index has not moved
    (the window is uncut and never idle). -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof
    data whose array is `V`'s and whose body leaves the block in place: unfetched, the block index has not moved
    (the window is uncut and never idle). -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof
    data whose array is `V`'s and whose body leaves the block in place: unfetched, the block index has not moved
    (the window is uncut and never idle). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for any proof
    data whose array is `V`'s and whose body leaves the block in place: unfetched, the block index has not moved
    (the window is uncut and never idle). -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not, for any proof
    data whose array is `V`'s and whose body leaves the block in place: unfetched, the block index has not moved
    (the window is uncut and never idle). -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: the whole tile, the whole row -/

abbrev tile9 : Rect S5000x128 := Rect.unit (s := S5000x128) ![0, 0] S5000x128.size inb_S5000x128_S5000x128_0_0
abbrev row9 : Rect S1x128 := Rect.unit (s := S1x128) ![0, 0] S1x128.size inb_S1x128_S1x128_0_0

/-! ## What the body leaves in the output window's buffer -/

/-- Window 5's staging buffer after the body, from the input windows' blocks: its one store, of the whole tile. -/
def out9_5 (x0 : Vec F S5000x128 .f32) (x1 : Vec F S1x128 .f32) (x2 : Vec F S1x128 .f32) (x3 : Vec F S1x128 .f32) (x4 : Vec F S1x128 .f32) : Vec F S5000x128 .f32 :=
  View.canon [⟨tile9, k9_pay1 (View.ld x0 tile9) (View.ld x1 row9) (View.ld x2 row9) (View.ld x3 row9) (View.ld x4 row9)⟩]

/-- The one store covers the buffer. -/
theorem cover9_5 (p0 : Vec F S5000x128 .f32) (y : S5000x128.Idx) :
    ∃ pc ∈ ([⟨tile9, p0⟩] : List (View.Piece (Elt F) S5000x128 .f32)), y ∈ pc.1.set :=
  View.cover_of_tiled [⟨tile9, p0⟩] S5000x128.size (by rfl) y

/-! ## The body's triple -/

set_option maxHeartbeats 1000000 in
/-- The kernel body on whole staging memrefs, the inputs' at read contents `xW` and the output's at anything, runs to
    the continuation holding the inputs' as they were and the output's at `out9_5` of the inputs'. -/
theorem sound_kernel9 (c : Dev nD) (E : Set ℕ) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out9_5 x0 x1 x2 x3 x4)) -∗ K ⟨⟩))
      ⊢ wp frame (wpE (defs₀ (F := F)) Variants.none c none) E (cc9__bn_apply_kernel i arg1 harg1 arg2 harg2 arg3 harg3 arg4 harg4 arg5 harg5 arg6 harg6) K := by
  simp only [cc9__bn_apply_kernel_eq_skeleton]; unfold cc9__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of pipeline 9 on core `c`: the arrays as the region finds them (`V`); after the body at point
    `t` each input's buffer at its block and the output's at `out9_5` of the input blocks; the invariant is the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- The invariant is the same at every point: the scoped rest and the generator register. -/
theorem Φ_eq9 (c : Dev nD) (t : Fin (cfg9.N + 1)) : (dat9 V c).Φ t = Pipeline.ΦA spec9 c := rfl
theorem hin9 (c : Dev nD) : Pipeline.ΦA spec9 c ⊢ (dat9 V c).Φ 0 := .rfl
theorem hout9 (c : Dev nD) : (dat9 V c).Φ (Fin.last cfg9.N) ⊢ Pipeline.ΦA spec9 c := .rfl
theorem q_eq9 (c : Dev nD) (w : Fin cfg9.W) : (dat9 V c).q w = fullShare := rfl
theorem owed_eq9 (c : Dev nD) (t : Fin (cfg9.N + 1)) : (dat9 V c).owed t = 0 := rfl

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so the body's triple applies; the invariant and the
    core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ (grid9.coords t) _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Reg

end
-- ==== Proof.Kernel.RunData.lean ====
/- The buffer contents at every boundary of @main's items, as a fold from the launch memory: a host stretch applies its
   operations; a kernel region leaves its arrays at what its write-backs leave (the inputs as entered, each output's
   blocks folded in) and every other buffer as entered. Beside it: each region's proof data at its entry contents. -/
import proofs.«139862_j28269474742473_1_alg».proof.Proof.Kernel.Mlp0
import proofs.«139862_j28269474742473_1_alg».proof.Proof.Kernel.Bn1
import proofs.«139862_j28269474742473_1_alg».proof.Proof.Kernel.Mlp2
import proofs.«139862_j28269474742473_1_alg».proof.Proof.Kernel.Bn3
import proofs.«139862_j28269474742473_1_alg».proof.Proof.Kernel.Mlp4
import proofs.«139862_j28269474742473_1_alg».proof.Proof.Kernel.Bn5
import proofs.«139862_j28269474742473_1_alg».proof.Proof.Kernel.Mlp6
import proofs.«139862_j28269474742473_1_alg».proof.Proof.Kernel.Bn7
import proofs.«139862_j28269474742473_1_alg».proof.Proof.Kernel.Mlp8
import proofs.«139862_j28269474742473_1_alg».proof.Proof.Kernel.Bn9
import proofs.«139862_j28269474742473_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## The fold -/

/-- Core `c`'s buffers at launch. -/
abbrev W0 : Dev nD → Valuation τ sig (Elt F) := fun c b => m (c, b)
/-- After host stretch 0: region 0's entry. -/
abbrev W1 : Dev nD → Valuation τ sig (Elt F) := fun c => StableHlo.after hostOps0 (W0 m c)
/-- The same read at the TensorCore's references: what region 0's proof data take. -/
abbrev X0 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (X0 m) c).arrAt w cfg0.N
theorem W2_arr (c : Dev nD) (w : Fin cfg0.W) :
    W2 m c (Proc.devRef .tc (Pipeline.arrRef spec0 w)) = (dat0 (X0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references: region 0's exit contents. -/
abbrev Y0 : (c : Dev nD) → (b : Ref sig .tc) → Buf (Elt F) ((c : Thread nD τ).loc b) := fun c b => W2 m c b
theorem hF0 (c : Dev nD) (w : Fin cfg0.W) : (dat0 (X0 m) c).arrAt w cfg0.N = Y0 m c (Pipeline.arrRef spec0 w) :=
  (W2_arr m c w).symm
theorem hrest0 (c : Dev nD) : ∀ b, b ∉ Finset.univ.image (Pipeline.arrRef spec0) → Y0 m c b = X0 m c b :=
  fun b hb => W2_of_ne m c b fun w e => hb (Finset.mem_image.mpr ⟨w, Finset.mem_univ _, e⟩)
/-- After host stretch 1: region 1's entry. -/
abbrev W3 : Dev nD → Valuation τ sig (Elt F) := fun c => StableHlo.after hostOps1 (W2 m c)
/-- The same read at the TensorCore's references: what region 1's proof data take. -/
abbrev X1 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (dat1 (X1 m) c).arrAt w cfg1.N
theorem W4_arr (c : Dev nD) (w : Fin cfg1.W) :
    W4 m c (Proc.devRef .tc (Pipeline.arrRef spec1 w)) = (dat1 (X1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references: region 1's exit contents. -/
abbrev Y1 : (c : Dev nD) → (b : Ref sig .tc) → Buf (Elt F) ((c : Thread nD τ).loc b) := fun c b => W4 m c b
theorem hF1 (c : Dev nD) (w : Fin cfg1.W) : (dat1 (X1 m) c).arrAt w cfg1.N = Y1 m c (Pipeline.arrRef spec1 w) :=
  (W4_arr m c w).symm
theorem hrest1 (c : Dev nD) : ∀ b, b ∉ Finset.univ.image (Pipeline.arrRef spec1) → Y1 m c b = X1 m c b :=
  fun b hb => W4_of_ne m c b fun w e => hb (Finset.mem_image.mpr ⟨w, Finset.mem_univ _, e⟩)
/-- After host stretch 2: region 2's entry. -/
abbrev W5 : Dev nD → Valuation τ sig (Elt F) := fun c => StableHlo.after hostOps2 (W4 m c)
/-- The same read at the TensorCore's references: what region 2's proof data take. -/
abbrev X2 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (dat2 (X2 m) c).arrAt w cfg2.N
theorem W6_arr (c : Dev nD) (w : Fin cfg2.W) :
    W6 m c (Proc.devRef .tc (Pipeline.arrRef spec2 w)) = (dat2 (X2 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references: region 2's exit contents. -/
abbrev Y2 : (c : Dev nD) → (b : Ref sig .tc) → Buf (Elt F) ((c : Thread nD τ).loc b) := fun c b => W6 m c b
theorem hF2 (c : Dev nD) (w : Fin cfg2.W) : (dat2 (X2 m) c).arrAt w cfg2.N = Y2 m c (Pipeline.arrRef spec2 w) :=
  (W6_arr m c w).symm
theorem hrest2 (c : Dev nD) : ∀ b, b ∉ Finset.univ.image (Pipeline.arrRef spec2) → Y2 m c b = X2 m c b :=
  fun b hb => W6_of_ne m c b fun w e => hb (Finset.mem_image.mpr ⟨w, Finset.mem_univ _, e⟩)
/-- After host stretch 3: region 3's entry. -/
abbrev W7 : Dev nD → Valuation τ sig (Elt F) := fun c => StableHlo.after hostOps3 (W6 m c)
/-- The same read at the TensorCore's references: what region 3's proof data take. -/
abbrev X3 : (c : Dev nD) → (b : Ref sig .tc) → Buf (Elt F) ((c : Thread nD τ).loc b) := fun c b => W7 m c b
/-- At region 3's exit: its arrays at what the pipeline leaves, every other buffer as entered. -/
def W8 (c : Dev nD) : Valuation τ sig (Elt F) :=
  Pipeline.withArrays spec3 c (W7 m c) fun w => (dat3 (X3 m) c).arrAt w cfg3.N
theorem W8_arr (c : Dev nD) (w : Fin cfg3.W) :
    W8 m c (Proc.devRef .tc (Pipeline.arrRef spec3 w)) = (dat3 (X3 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The same read at the TensorCore's references: region 3's exit contents. -/
abbrev Y3 : (c : Dev nD) → (b : Ref sig .tc) → Buf (Elt F) ((c : Thread nD τ).loc b) := fun c b => W8 m c b
theorem hF3 (c : Dev nD) (w : Fin cfg3.W) : (dat3 (X3 m) c).arrAt w cfg3.N = Y3 m c (Pipeline.arrRef spec3 w) :=
  (W8_arr m c w).symm
theorem hrest3 (c : Dev nD) : ∀ b, b ∉ Finset.univ.image (Pipeline.arrRef spec3) → Y3 m c b = X3 m c b :=
  fun b hb => W8_of_ne m c b fun w e => hb (Finset.mem_image.mpr ⟨w, Finset.mem_univ _, e⟩)
/-- After host stretch 4: region 4's entry. -/
abbrev W9 : Dev nD → Valuation τ sig (Elt F) := fun c => StableHlo.after hostOps4 (W8 m c)
/-- The same read at the TensorCore's references: what region 4's proof data take. -/
abbrev X4 : (c : Dev nD) → (b : Ref sig .tc) → Buf (Elt F) ((c : Thread nD τ).loc b) := fun c b => W9 m c b
/-- At region 4's exit: its arrays at what the pipeline leaves, every other buffer as entered. -/
def W10 (c : Dev nD) : Valuation τ sig (Elt F) :=
  Pipeline.withArrays spec4 c (W9 m c) fun w => (dat4 (X4 m) c).arrAt w cfg4.N
theorem W10_arr (c : Dev nD) (w : Fin cfg4.W) :
    W10 m c (Proc.devRef .tc (Pipeline.arrRef spec4 w)) = (dat4 (X4 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
/-- The same read at the TensorCore's references: region 4's exit contents. -/
abbrev Y4 : (c : Dev nD) → (b : Ref sig .tc) → Buf (Elt F) ((c : Thread nD τ).loc b) := fun c b => W10 m c b
theorem hF4 (c : Dev nD) (w : Fin cfg4.W) : (dat4 (X4 m) c).arrAt w cfg4.N = Y4 m c (Pipeline.arrRef spec4 w) :=
  (W10_arr m c w).symm
theorem hrest4 (c : Dev nD) : ∀ b, b ∉ Finset.univ.image (Pipeline.arrRef spec4) → Y4 m c b = X4 m c b :=
  fun b hb => W10_of_ne m c b fun w e => hb (Finset.mem_image.mpr ⟨w, Finset.mem_univ _, e⟩)
/-- After host stretch 5: region 5's entry. -/
abbrev W11 : Dev nD → Valuation τ sig (Elt F) := fun c => StableHlo.after hostOps5 (W10 m c)
/-- The same read at the TensorCore's references: what region 5's proof data take. -/
abbrev X5 : (c : Dev nD) → (b : Ref sig .tc) → Buf (Elt F) ((c : Thread nD τ).loc b) := fun c b => W11 m c b
/-- At region 5's exit: its arrays at what the pipeline leaves, every other buffer as entered. -/
def W12 (c : Dev nD) : Valuation τ sig (Elt F) :=
  Pipeline.withArrays spec5 c (W11 m c) fun w => (dat5 (X5 m) c).arrAt w cfg5.N
theorem W12_arr (c : Dev nD) (w : Fin cfg5.W) :
    W12 m c (Proc.devRef .tc (Pipeline.arrRef spec5 w)) = (dat5 (X5 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
/-- The same read at the TensorCore's references: region 5's exit contents. -/
abbrev Y5 : (c : Dev nD) → (b : Ref sig .tc) → Buf (Elt F) ((c : Thread nD τ).loc b) := fun c b => W12 m c b
theorem hF5 (c : Dev nD) (w : Fin cfg5.W) : (dat5 (X5 m) c).arrAt w cfg5.N = Y5 m c (Pipeline.arrRef spec5 w) :=
  (W12_arr m c w).symm
theorem hrest5 (c : Dev nD) : ∀ b, b ∉ Finset.univ.image (Pipeline.arrRef spec5) → Y5 m c b = X5 m c b :=
  fun b hb => W12_of_ne m c b fun w e => hb (Finset.mem_image.mpr ⟨w, Finset.mem_univ _, e⟩)
/-- After host stretch 6: region 6's entry. -/
abbrev W13 : Dev nD → Valuation τ sig (Elt F) := fun c => StableHlo.after hostOps6 (W12 m c)
/-- The same read at the TensorCore's references: what region 6's proof data take. -/
abbrev X6 : (c : Dev nD) → (b : Ref sig .tc) → Buf (Elt F) ((c : Thread nD τ).loc b) := fun c b => W13 m c b
/-- At region 6's exit: its arrays at what the pipeline leaves, every other buffer as entered. -/
def W14 (c : Dev nD) : Valuation τ sig (Elt F) :=
  Pipeline.withArrays spec6 c (W13 m c) fun w => (dat6 (X6 m) c).arrAt w cfg6.N
theorem W14_arr (c : Dev nD) (w : Fin cfg6.W) :
    W14 m c (Proc.devRef .tc (Pipeline.arrRef spec6 w)) = (dat6 (X6 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
/-- The same read at the TensorCore's references: region 6's exit contents. -/
abbrev Y6 : (c : Dev nD) → (b : Ref sig .tc) → Buf (Elt F) ((c : Thread nD τ).loc b) := fun c b => W14 m c b
theorem hF6 (c : Dev nD) (w : Fin cfg6.W) : (dat6 (X6 m) c).arrAt w cfg6.N = Y6 m c (Pipeline.arrRef spec6 w) :=
  (W14_arr m c w).symm
theorem hrest6 (c : Dev nD) : ∀ b, b ∉ Finset.univ.image (Pipeline.arrRef spec6) → Y6 m c b = X6 m c b :=
  fun b hb => W14_of_ne m c b fun w e => hb (Finset.mem_image.mpr ⟨w, Finset.mem_univ _, e⟩)
/-- After host stretch 7: region 7's entry. -/
abbrev W15 : Dev nD → Valuation τ sig (Elt F) := fun c => StableHlo.after hostOps7 (W14 m c)
/-- The same read at the TensorCore's references: what region 7's proof data take. -/
abbrev X7 : (c : Dev nD) → (b : Ref sig .tc) → Buf (Elt F) ((c : Thread nD τ).loc b) := fun c b => W15 m c b
/-- At region 7's exit: its arrays at what the pipeline leaves, every other buffer as entered. -/
def W16 (c : Dev nD) : Valuation τ sig (Elt F) :=
  Pipeline.withArrays spec7 c (W15 m c) fun w => (dat7 (X7 m) c).arrAt w cfg7.N
theorem W16_arr (c : Dev nD) (w : Fin cfg7.W) :
    W16 m c (Proc.devRef .tc (Pipeline.arrRef spec7 w)) = (dat7 (X7 m) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
/-- The same read at the TensorCore's references: region 7's exit contents. -/
abbrev Y7 : (c : Dev nD) → (b : Ref sig .tc) → Buf (Elt F) ((c : Thread nD τ).loc b) := fun c b => W16 m c b
theorem hF7 (c : Dev nD) (w : Fin cfg7.W) : (dat7 (X7 m) c).arrAt w cfg7.N = Y7 m c (Pipeline.arrRef spec7 w) :=
  (W16_arr m c w).symm
theorem hrest7 (c : Dev nD) : ∀ b, b ∉ Finset.univ.image (Pipeline.arrRef spec7) → Y7 m c b = X7 m c b :=
  fun b hb => W16_of_ne m c b fun w e => hb (Finset.mem_image.mpr ⟨w, Finset.mem_univ _, e⟩)
/-- After host stretch 8: region 8's entry. -/
abbrev W17 : Dev nD → Valuation τ sig (Elt F) := fun c => StableHlo.after hostOps8 (W16 m c)
/-- The same read at the TensorCore's references: what region 8's proof data take. -/
abbrev X8 : (c : Dev nD) → (b : Ref sig .tc) → Buf (Elt F) ((c : Thread nD τ).loc b) := fun c b => W17 m c b
/-- At region 8's exit: its arrays at what the pipeline leaves, every other buffer as entered. -/
def W18 (c : Dev nD) : Valuation τ sig (Elt F) :=
  Pipeline.withArrays spec8 c (W17 m c) fun w => (dat8 (X8 m) c).arrAt w cfg8.N
theorem W18_arr (c : Dev nD) (w : Fin cfg8.W) :
    W18 m c (Proc.devRef .tc (Pipeline.arrRef spec8 w)) = (dat8 (X8 m) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m c (Proc.devRef .tc b) = W17 m c (Proc.devRef .tc b) := by
  unfold W18; exact Pipeline.withArrays_of_ne spec8 c _ _ b hb
/-- The same read at the TensorCore's references: region 8's exit contents. -/
abbrev Y8 : (c : Dev nD) → (b : Ref sig .tc) → Buf (Elt F) ((c : Thread nD τ).loc b) := fun c b => W18 m c b
theorem hF8 (c : Dev nD) (w : Fin cfg8.W) : (dat8 (X8 m) c).arrAt w cfg8.N = Y8 m c (Pipeline.arrRef spec8 w) :=
  (W18_arr m c w).symm
theorem hrest8 (c : Dev nD) : ∀ b, b ∉ Finset.univ.image (Pipeline.arrRef spec8) → Y8 m c b = X8 m c b :=
  fun b hb => W18_of_ne m c b fun w e => hb (Finset.mem_image.mpr ⟨w, Finset.mem_univ _, e⟩)
/-- After host stretch 9: region 9's entry. -/
abbrev W19 : Dev nD → Valuation τ sig (Elt F) := fun c => StableHlo.after hostOps9 (W18 m c)
/-- The same read at the TensorCore's references: what region 9's proof data take. -/
abbrev X9 : (c : Dev nD) → (b : Ref sig .tc) → Buf (Elt F) ((c : Thread nD τ).loc b) := fun c b => W19 m c b
/-- At region 9's exit: its arrays at what the pipeline leaves, every other buffer as entered. -/
def W20 (c : Dev nD) : Valuation τ sig (Elt F) :=
  Pipeline.withArrays spec9 c (W19 m c) fun w => (dat9 (X9 m) c).arrAt w cfg9.N
theorem W20_arr (c : Dev nD) (w : Fin cfg9.W) :
    W20 m c (Proc.devRef .tc (Pipeline.arrRef spec9 w)) = (dat9 (X9 m) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m c (Proc.devRef .tc b) = W19 m c (Proc.devRef .tc b) := by
  unfold W20; exact Pipeline.withArrays_of_ne spec9 c _ _ b hb
/-- The same read at the TensorCore's references: region 9's exit contents. -/
abbrev Y9 : (c : Dev nD) → (b : Ref sig .tc) → Buf (Elt F) ((c : Thread nD τ).loc b) := fun c b => W20 m c b
theorem hF9 (c : Dev nD) (w : Fin cfg9.W) : (dat9 (X9 m) c).arrAt w cfg9.N = Y9 m c (Pipeline.arrRef spec9 w) :=
  (W20_arr m c w).symm
theorem hrest9 (c : Dev nD) : ∀ b, b ∉ Finset.univ.image (Pipeline.arrRef spec9) → Y9 m c b = X9 m c b :=
  fun b hb => W20_of_ne m c b fun w e => hb (Finset.mem_image.mpr ⟨w, Finset.mem_univ _, e⟩)
/-- After host stretch 10: the return. -/
abbrev W21 : Dev nD → Valuation τ sig (Elt F) := fun c => StableHlo.after hostOps10 (W20 m c)

/-! ## The proof data family -/

/-- The prefetched tables' admissible contents: no pipeline has a table. -/
abbrev adm' : (p : Fin 10) → (pcfgs (F := F) p).Adm := fun p => (cfgs p).toPCfg_adm
/-- Every pipeline's proof data, each at its region's entry contents (a literal match, so that the pinned configuration at
    a numeral reduces to the printed one). -/
def pdats : (p : Fin 10) → (c : Dev nD) → Dat τ (Elt F) Unit ℕ (UR sig nD τ) ℕ (Pipeline.pin (pcfgs (F := F)) adm' p) c
  | ⟨0, _⟩ => fun c => dat0 (X0 m) c
  | ⟨1, _⟩ => fun c => dat1 (X1 m) c
  | ⟨2, _⟩ => fun c => dat2 (X2 m) c
  | ⟨3, _⟩ => fun c => dat3 (X3 m) c
  | ⟨4, _⟩ => fun c => dat4 (X4 m) c
  | ⟨5, _⟩ => fun c => dat5 (X5 m) c
  | ⟨6, _⟩ => fun c => dat6 (X6 m) c
  | ⟨7, _⟩ => fun c => dat7 (X7 m) c
  | ⟨8, _⟩ => fun c => dat8 (X8 m) c
  | ⟨9, _⟩ => fun c => dat9 (X9 m) c

/-- A host stretch as a segment: its operations over the unscoped references from the contents `W`, `R` riding along; its
    post is then those references at the operations applied to `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Reg

end
-- ==== Proof.Kernel.RunReg0.lean ====
/- Region 0 of the run as a segment between the valuations before and after it. -/
import proofs.«139862_j28269474742473_1_alg».proof.Proof.Kernel.RunData
import proofs.«139862_j28269474742473_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the pinned configuration of pipeline 0 is the printed one only after unfolding definitions inside types
set_option backward.isDefEq.respectTransparency.types false in
/-- Region 0 over the thread state: entered from every unscoped buffer at the contents before it, left at the contents
    after it. Its arrays are split out of the unscoped buffers and put back at the exit contents; the generator register
    goes into the body's invariant and comes back; nothing is owed; the kernel has no semaphore of its own. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (X0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (X0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec0 c : sProp 𝕄) ⊢ (pdats m 0 c).Φ 0 from hin0 (X0 m) c)
    unfold Pipeline.ΦA
    isplitl [Hr]; · iexact Hr
    iexact Hp
  hout c := by
    rw [Pipeline.ownSems0_none]
    iintro HΦ
    ihave H := (show (pdats m 0 c).Φ (Fin.last _) ⊢ (Pipeline.ΦA spec0 c : sProp 𝕄) from hout0 (X0 m) c) $$ HΦ
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (X0 m c) (Y0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.Kernel.RunReg1.lean ====
/- Region 1 of the run as a segment between the valuations before and after it. -/
import proofs.«139862_j28269474742473_1_alg».proof.Proof.Kernel.RunData
import proofs.«139862_j28269474742473_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the pinned configuration of pipeline 1 is the printed one only after unfolding definitions inside types
set_option backward.isDefEq.respectTransparency.types false in
/-- Region 1 over the thread state: entered from every unscoped buffer at the contents before it, left at the contents
    after it. Its arrays are split out of the unscoped buffers and put back at the exit contents; the generator register
    goes into the body's invariant and comes back; nothing is owed; the kernel has no semaphore of its own. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (X1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (X1 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec1 c : sProp 𝕄) ⊢ (pdats m 1 c).Φ 0 from hin1 (X1 m) c)
    unfold Pipeline.ΦA
    isplitl [Hr]; · iexact Hr
    iexact Hp
  hout c := by
    rw [Pipeline.ownSems0_none]
    iintro HΦ
    ihave H := (show (pdats m 1 c).Φ (Fin.last _) ⊢ (Pipeline.ΦA spec1 c : sProp 𝕄) from hout1 (X1 m) c) $$ HΦ
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (X1 m c) (Y1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.Kernel.RunReg2.lean ====
/- Region 2 of the run as a segment between the valuations before and after it. -/
import proofs.«139862_j28269474742473_1_alg».proof.Proof.Kernel.RunData
import proofs.«139862_j28269474742473_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the pinned configuration of pipeline 2 is the printed one only after unfolding definitions inside types
set_option backward.isDefEq.respectTransparency.types false in
/-- Region 2 over the thread state: entered from every unscoped buffer at the contents before it, left at the contents
    after it. Its arrays are split out of the unscoped buffers and put back at the exit contents; the generator register
    goes into the body's invariant and comes back; nothing is owed; the kernel has no semaphore of its own. -/
def reg2 : Pipeline.RegionSeg (pcfgs (F := F)) adm' (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (X2 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (X2 m c)
  hentry c := by
    rw [Pipeline.ownSems0_none]
    have hsplit := Pipeline.arrays_of_unscopedBufs (p := 2) (pcfgs (F := F)) adm' (pdats m) launch2.win launch2.arr_whole c
      ((pdats m 2 c).share_full fun _ => rfl) (X2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec2 c : sProp 𝕄) ⊢ (pdats m 2 c).Φ 0 from hin2 (X2 m) c)
    unfold Pipeline.ΦA
    isplitl [Hr]; · iexact Hr
    iexact Hp
  hout c := by
    rw [Pipeline.ownSems0_none]
    iintro HΦ
    ihave H := (show (pdats m 2 c).Φ (Fin.last _) ⊢ (Pipeline.ΦA spec2 c : sProp 𝕄) from hout2 (X2 m) c) $$ HΦ
    unfold Pipeline.ΦA
    icases H with ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m) ((pdats m 2 c).share_full fun _ => rfl)
      (X2 m c) (Y2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.Kernel.RunReg3.lean ====
/- Region 3 of the run as a segment between the valuations before and after it. -/
import proofs.«139862_j28269474742473_1_alg».proof.Proof.Kernel.RunData
import proofs.«139862_j28269474742473_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the pinned configuration of pipeline 3 is the printed one only after unfolding definitions inside types
set_option backward.isDefEq.respectTransparency.types false in
/-- Region 3 over the thread state: entered from every unscoped buffer at the contents before it, left at the contents
    after it. Its arrays are split out of the unscoped buffers and put back at the exit contents; the generator register
    goes into the body's invariant and comes back; nothing is owed; the kernel has no semaphore of its own. -/
def reg3 : Pipeline.RegionSeg (pcfgs (F := F)) adm' (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (X3 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (X3 m c)
  hentry c := by
    rw [Pipeline.ownSems0_none]
    have hsplit := Pipeline.arrays_of_unscopedBufs (p := 3) (pcfgs (F := F)) adm' (pdats m) launch3.win launch3.arr_whole c
      ((pdats m 3 c).share_full fun _ => rfl) (X3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec3 c : sProp 𝕄) ⊢ (pdats m 3 c).Φ 0 from hin3 (X3 m) c)
    unfold Pipeline.ΦA
    isplitl [Hr]; · iexact Hr
    iexact Hp
  hout c := by
    rw [Pipeline.ownSems0_none]
    iintro HΦ
    ihave H := (show (pdats m 3 c).Φ (Fin.last _) ⊢ (Pipeline.ΦA spec3 c : sProp 𝕄) from hout3 (X3 m) c) $$ HΦ
    unfold Pipeline.ΦA
    icases H with ⟨Hr, Hp⟩
    isplitl [Hp]; · iexact Hp
    isplitr; · iempintro
    iexact Hr
  hexit c := by
    have hjoin := Pipeline.unscopedBufs_of_arrays (p := 3) (pcfgs (F := F)) adm' (Ix := Unit) (Name := ℕ) (U := UR sig nD τ) (Lvl := ℕ)
      launch3.win launch3.arr_whole c (pdats m) ((pdats m 3 c).share_full fun _ => rfl)
      (X3 m c) (Y3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.Kernel.RunReg4.lean ====
/- Region 4 of the run as a segment between the valuations before and after it. -/
import proofs.«139862_j28269474742473_1_alg».proof.Proof.Kernel.RunData
import proofs.«139862_j28269474742473_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the pinned configuration of pipeline 4 is the printed one only after unfolding definitions inside types
set_option backward.isDefEq.respectTransparency.types false in
/-- Region 4 over the thread state: entered from every unscoped buffer at the contents before it, left at the contents
    after it. Its arrays are split out of the unscoped buffers and put back at the exit contents; the generator register
    goes into the body's invariant and comes back; nothing is owed; the kernel has no semaphore of its own. -/
def reg4 : Pipeline.RegionSeg (pcfgs (F := F)) adm' (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (X4 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (X4 m c)
  hentry c := by
    rw [Pipeline.ownSems0_none]
    have hsplit := Pipeline.arrays_of_unscopedBufs (p := 4) (pcfgs (F := F)) adm' (pdats m) launch4.win launch4.arr_whole c
      ((pdats m 4 c).share_full fun _ => rfl) (X4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec4 c : sProp 𝕄) ⊢ (pdats m 4 c).Φ 0 from hin4 (X4 m) c)
    unfold Pipeline.ΦA
    isplitl [Hr]; · iexact Hr
    iexact Hp
  hout c := by
    rw [Pipeline.ownSems0_none]
    iintro HΦ
    ihave H := (show (pdats m 4 c).Φ (Fin.last _) ⊢ (Pipeline.ΦA spec4 c : sProp 𝕄) from hout4 (X4 m) c) $$ HΦ
    unfold Pipeline.ΦA
    icases H with ⟨Hr, Hp⟩
    isplitl [Hp]; · iexact Hp
    isplitr; · iempintro
    iexact Hr
  hexit c := by
    have hjoin := Pipeline.unscopedBufs_of_arrays (p := 4) (pcfgs (F := F)) adm' (Ix := Unit) (Name := ℕ) (U := UR sig nD τ) (Lvl := ℕ)
      launch4.win launch4.arr_whole c (pdats m) ((pdats m 4 c).share_full fun _ => rfl)
      (X4 m c) (Y4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.Kernel.RunReg5.lean ====
/- Region 5 of the run as a segment between the valuations before and after it. -/
import proofs.«139862_j28269474742473_1_alg».proof.Proof.Kernel.RunData
import proofs.«139862_j28269474742473_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the pinned configuration of pipeline 5 is the printed one only after unfolding definitions inside types
set_option backward.isDefEq.respectTransparency.types false in
/-- Region 5 over the thread state: entered from every unscoped buffer at the contents before it, left at the contents
    after it. Its arrays are split out of the unscoped buffers and put back at the exit contents; the generator register
    goes into the body's invariant and comes back; nothing is owed; the kernel has no semaphore of its own. -/
def reg5 : Pipeline.RegionSeg (pcfgs (F := F)) adm' (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (X5 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (X5 m c)
  hentry c := by
    rw [Pipeline.ownSems0_none]
    have hsplit := Pipeline.arrays_of_unscopedBufs (p := 5) (pcfgs (F := F)) adm' (pdats m) launch5.win launch5.arr_whole c
      ((pdats m 5 c).share_full fun _ => rfl) (X5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec5 c : sProp 𝕄) ⊢ (pdats m 5 c).Φ 0 from hin5 (X5 m) c)
    unfold Pipeline.ΦA
    isplitl [Hr]; · iexact Hr
    iexact Hp
  hout c := by
    rw [Pipeline.ownSems0_none]
    iintro HΦ
    ihave H := (show (pdats m 5 c).Φ (Fin.last _) ⊢ (Pipeline.ΦA spec5 c : sProp 𝕄) from hout5 (X5 m) c) $$ HΦ
    unfold Pipeline.ΦA
    icases H with ⟨Hr, Hp⟩
    isplitl [Hp]; · iexact Hp
    isplitr; · iempintro
    iexact Hr
  hexit c := by
    have hjoin := Pipeline.unscopedBufs_of_arrays (p := 5) (pcfgs (F := F)) adm' (Ix := Unit) (Name := ℕ) (U := UR sig nD τ) (Lvl := ℕ)
      launch5.win launch5.arr_whole c (pdats m) ((pdats m 5 c).share_full fun _ => rfl)
      (X5 m c) (Y5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.Kernel.RunReg6.lean ====
/- Region 6 of the run as a segment between the valuations before and after it. -/
import proofs.«139862_j28269474742473_1_alg».proof.Proof.Kernel.RunData
import proofs.«139862_j28269474742473_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the pinned configuration of pipeline 6 is the printed one only after unfolding definitions inside types
set_option backward.isDefEq.respectTransparency.types false in
/-- Region 6 over the thread state: entered from every unscoped buffer at the contents before it, left at the contents
    after it. Its arrays are split out of the unscoped buffers and put back at the exit contents; the generator register
    goes into the body's invariant and comes back; nothing is owed; the kernel has no semaphore of its own. -/
def reg6 : Pipeline.RegionSeg (pcfgs (F := F)) adm' (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (X6 m) c).loose
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (X6 m c)
  hentry c := by
    rw [Pipeline.ownSems0_none]
    have hsplit := Pipeline.arrays_of_unscopedBufs (p := 6) (pcfgs (F := F)) adm' (pdats m) launch6.win launch6.arr_whole c
      ((pdats m 6 c).share_full fun _ => rfl) (X6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec6 c : sProp 𝕄) ⊢ (pdats m 6 c).Φ 0 from hin6 (X6 m) c)
    unfold Pipeline.ΦA
    isplitl [Hr]; · iexact Hr
    iexact Hp
  hout c := by
    rw [Pipeline.ownSems0_none]
    iintro HΦ
    ihave H := (show (pdats m 6 c).Φ (Fin.last _) ⊢ (Pipeline.ΦA spec6 c : sProp 𝕄) from hout6 (X6 m) c) $$ HΦ
    unfold Pipeline.ΦA
    icases H with ⟨Hr, Hp⟩
    isplitl [Hp]; · iexact Hp
    isplitr; · iempintro
    iexact Hr
  hexit c := by
    have hjoin := Pipeline.unscopedBufs_of_arrays (p := 6) (pcfgs (F := F)) adm' (Ix := Unit) (Name := ℕ) (U := UR sig nD τ) (Lvl := ℕ)
      launch6.win launch6.arr_whole c (pdats m) ((pdats m 6 c).share_full fun _ => rfl)
      (X6 m c) (Y6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.Kernel.RunReg7.lean ====
/- Region 7 of the run as a segment between the valuations before and after it. -/
import proofs.«139862_j28269474742473_1_alg».proof.Proof.Kernel.RunData
import proofs.«139862_j28269474742473_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the pinned configuration of pipeline 7 is the printed one only after unfolding definitions inside types
set_option backward.isDefEq.respectTransparency.types false in
/-- Region 7 over the thread state: entered from every unscoped buffer at the contents before it, left at the contents
    after it. Its arrays are split out of the unscoped buffers and put back at the exit contents; the generator register
    goes into the body's invariant and comes back; nothing is owed; the kernel has no semaphore of its own. -/
def reg7 : Pipeline.RegionSeg (pcfgs (F := F)) adm' (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (X7 m) c).loose
  hwaits := Pipeline.hwaits_of_owed_zero _ _ _ _ L lv 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (X7 m c)
  hentry c := by
    rw [Pipeline.ownSems0_none]
    have hsplit := Pipeline.arrays_of_unscopedBufs (p := 7) (pcfgs (F := F)) adm' (pdats m) launch7.win launch7.arr_whole c
      ((pdats m 7 c).share_full fun _ => rfl) (X7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec7 c : sProp 𝕄) ⊢ (pdats m 7 c).Φ 0 from hin7 (X7 m) c)
    unfold Pipeline.ΦA
    isplitl [Hr]; · iexact Hr
    iexact Hp
  hout c := by
    rw [Pipeline.ownSems0_none]
    iintro HΦ
    ihave H := (show (pdats m 7 c).Φ (Fin.last _) ⊢ (Pipeline.ΦA spec7 c : sProp 𝕄) from hout7 (X7 m) c) $$ HΦ
    unfold Pipeline.ΦA
    icases H with ⟨Hr, Hp⟩
    isplitl [Hp]; · iexact Hp
    isplitr; · iempintro
    iexact Hr
  hexit c := by
    have hjoin := Pipeline.unscopedBufs_of_arrays (p := 7) (pcfgs (F := F)) adm' (Ix := Unit) (Name := ℕ) (U := UR sig nD τ) (Lvl := ℕ)
      launch7.win launch7.arr_whole c (pdats m) ((pdats m 7 c).share_full fun _ => rfl)
      (X7 m c) (Y7 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.Kernel.RunReg8.lean ====
/- Region 8 of the run as a segment between the valuations before and after it. -/
import proofs.«139862_j28269474742473_1_alg».proof.Proof.Kernel.RunData
import proofs.«139862_j28269474742473_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the pinned configuration of pipeline 8 is the printed one only after unfolding definitions inside types
set_option backward.isDefEq.respectTransparency.types false in
/-- Region 8 over the thread state: entered from every unscoped buffer at the contents before it, left at the contents
    after it. Its arrays are split out of the unscoped buffers and put back at the exit contents; the generator register
    goes into the body's invariant and comes back; nothing is owed; the kernel has no semaphore of its own. -/
def reg8 : Pipeline.RegionSeg (pcfgs (F := F)) adm' (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (X8 m) c).loose
  hwaits := Pipeline.hwaits_of_owed_zero _ _ _ _ L lv 8 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec8 c (X8 m c)
  hentry c := by
    rw [Pipeline.ownSems0_none]
    have hsplit := Pipeline.arrays_of_unscopedBufs (p := 8) (pcfgs (F := F)) adm' (pdats m) launch8.win launch8.arr_whole c
      ((pdats m 8 c).share_full fun _ => rfl) (X8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec8 c : sProp 𝕄) ⊢ (pdats m 8 c).Φ 0 from hin8 (X8 m) c)
    unfold Pipeline.ΦA
    isplitl [Hr]; · iexact Hr
    iexact Hp
  hout c := by
    rw [Pipeline.ownSems0_none]
    iintro HΦ
    ihave H := (show (pdats m 8 c).Φ (Fin.last _) ⊢ (Pipeline.ΦA spec8 c : sProp 𝕄) from hout8 (X8 m) c) $$ HΦ
    unfold Pipeline.ΦA
    icases H with ⟨Hr, Hp⟩
    isplitl [Hp]; · iexact Hp
    isplitr; · iempintro
    iexact Hr
  hexit c := by
    have hjoin := Pipeline.unscopedBufs_of_arrays (p := 8) (pcfgs (F := F)) adm' (Ix := Unit) (Name := ℕ) (U := UR sig nD τ) (Lvl := ℕ)
      launch8.win launch8.arr_whole c (pdats m) ((pdats m 8 c).share_full fun _ => rfl)
      (X8 m c) (Y8 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.Kernel.RunReg9.lean ====
/- Region 9 of the run as a segment between the valuations before and after it. -/
import proofs.«139862_j28269474742473_1_alg».proof.Proof.Kernel.RunData
import proofs.«139862_j28269474742473_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the pinned configuration of pipeline 9 is the printed one only after unfolding definitions inside types
set_option backward.isDefEq.respectTransparency.types false in
/-- Region 9 over the thread state: entered from every unscoped buffer at the contents before it, left at the contents
    after it. Its arrays are split out of the unscoped buffers and put back at the exit contents; the generator register
    goes into the body's invariant and comes back; nothing is owed; the kernel has no semaphore of its own. -/
def reg9 : Pipeline.RegionSeg (pcfgs (F := F)) adm' (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (X9 m) c).loose
  hwaits := Pipeline.hwaits_of_owed_zero _ _ _ _ L lv 9 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec9 c (X9 m c)
  hentry c := by
    rw [Pipeline.ownSems0_none]
    have hsplit := Pipeline.arrays_of_unscopedBufs (p := 9) (pcfgs (F := F)) adm' (pdats m) launch9.win launch9.arr_whole c
      ((pdats m 9 c).share_full fun _ => rfl) (X9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec9 c : sProp 𝕄) ⊢ (pdats m 9 c).Φ 0 from hin9 (X9 m) c)
    unfold Pipeline.ΦA
    isplitl [Hr]; · iexact Hr
    iexact Hp
  hout c := by
    rw [Pipeline.ownSems0_none]
    iintro HΦ
    ihave H := (show (pdats m 9 c).Φ (Fin.last _) ⊢ (Pipeline.ΦA spec9 c : sProp 𝕄) from hout9 (X9 m) c) $$ HΦ
    unfold Pipeline.ΦA
    icases H with ⟨Hr, Hp⟩
    isplitl [Hp]; · iexact Hp
    isplitr; · iempintro
    iexact Hr
  hexit c := by
    have hjoin := Pipeline.unscopedBufs_of_arrays (p := 9) (pcfgs (F := F)) adm' (Ix := Unit) (Name := ℕ) (U := UR sig nD τ) (Lvl := ℕ)
      launch9.win launch9.arr_whole c (pdats m) ((pdats m 9 c).share_full fun _ => rfl)
      (X9 m c) (Y9 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.Kernel.Run.lean ====
/- The run of the kernel's program from the launch to the return: every weakly fair execution terminates, nothing faults,
   and each core's unscoped buffers end at the last valuation of the fold through @main. -/
import proofs.«139862_j28269474742473_1_alg».proof.Proof.Kernel.RunReg0
import proofs.«139862_j28269474742473_1_alg».proof.Proof.Kernel.RunReg1
import proofs.«139862_j28269474742473_1_alg».proof.Proof.Kernel.RunReg2
import proofs.«139862_j28269474742473_1_alg».proof.Proof.Kernel.RunReg3
import proofs.«139862_j28269474742473_1_alg».proof.Proof.Kernel.RunReg4
import proofs.«139862_j28269474742473_1_alg».proof.Proof.Kernel.RunReg5
import proofs.«139862_j28269474742473_1_alg».proof.Proof.Kernel.RunReg6
import proofs.«139862_j28269474742473_1_alg».proof.Proof.Kernel.RunReg7
import proofs.«139862_j28269474742473_1_alg».proof.Proof.Kernel.RunReg8
import proofs.«139862_j28269474742473_1_alg».proof.Proof.Kernel.RunReg9
import proofs.«139862_j28269474742473_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 21 items in order: a host segment per stretch from its boundary's contents, a region per kernel call. -/
abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)),
    .region (reg6 m),
    .host (hseg hostOps7 hostOps7_sub hostOps7_fresh (W14 m)),
    .region (reg7 m),
    .host (hseg hostOps8 hostOps8_sub hostOps8_fresh (W16 m)),
    .region (reg8 m),
    .host (hseg hostOps9 hostOps9_sub hostOps9_fresh (W18 m)),
    .region (reg9 m),
    .host (hseg hostOps10 hostOps10_sub hostOps10_fresh (W20 m)) ]

/-- @main is the run of the segments. -/
theorem main_run (c : Dev nD) : main (F := F) c = Pipeline.Seg.run (segs m) := (main_chain c).trans (by chain_rfl)

/-- The last thread state without the dues: every unscoped buffer at the last boundary's contents, the generator register at some state. -/
abbrev Tₙ (c : Dev nD) : sProp 𝕄 := iprop(StableHlo.held (c : Thread nD τ) (Pipeline.ucRefs τ sig) (W21 m c) ∗ ∃ r, prngReg c r)

set_option backward.isDefEq.respectTransparency.types false in
/-- THE RUN: from any memory with zero counters every weakly fair execution of @main on the TensorCores terminates,
    nothing faulting, and in every final state each unscoped buffer of each core holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W21 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m c b)
    (hfin := fun c s' => by
      iintro ⟨⟨Hh, -⟩, HSI⟩
      unfold StableHlo.held
      imodintro
      iapply (pointsTo_read_all (Pipeline.ucRefs τ sig) (fun b => (((c : Thread nD τ)).1, b)) (W21 m c) s')
      isplitl [Hh] <;> iassumption)
    (hQ := fun s h c => h c)

end Cert.Kernel.Reg

end
-- ==== Proof.Kernel.RunArgs.lean ====
/- Every argument array reaches the return as launched: no host stretch writes one, and a region either reads it through
   an input window or leaves it alone. -/
import proofs.«139862_j28269474742473_1_alg».proof.Proof.Kernel.RunData
import proofs.«139862_j28269474742473_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W21_main_arg0 (c : Dev nD) : W21 m c (Proc.devRef .tc main_arg0) = m ((c : Thread nD τ).loc main_arg0) :=
  ((StableHlo.after_of_writes_sub hostOps10 (W20 m c) hostOps10_writes (by decide)).trans <|
    (W20_of_ne m c main_arg0 (by decide)).trans <|
    (StableHlo.after_of_writes_sub hostOps9 (W18 m c) hostOps9_writes (by decide)).trans <|
    (W18_of_ne m c main_arg0 (by decide)).trans <|
    (StableHlo.after_of_writes_sub hostOps8 (W16 m c) hostOps8_writes (by decide)).trans <|
    (W16_of_ne m c main_arg0 (by decide)).trans <|
    (StableHlo.after_of_writes_sub hostOps7 (W14 m c) hostOps7_writes (by decide)).trans <|
    (W14_of_ne m c main_arg0 (by decide)).trans <|
    (StableHlo.after_of_writes_sub hostOps6 (W12 m c) hostOps6_writes (by decide)).trans <|
    (W12_of_ne m c main_arg0 (by decide)).trans <|
    (StableHlo.after_of_writes_sub hostOps5 (W10 m c) hostOps5_writes (by decide)).trans <|
    (W10_of_ne m c main_arg0 (by decide)).trans <|
    (StableHlo.after_of_writes_sub hostOps4 (W8 m c) hostOps4_writes (by decide)).trans <|
    (W8_of_ne m c main_arg0 (by decide)).trans <|
    (StableHlo.after_of_writes_sub hostOps3 (W6 m c) hostOps3_writes (by decide)).trans <|
    (W6_of_ne m c main_arg0 (by decide)).trans <|
    (StableHlo.after_of_writes_sub hostOps2 (W4 m c) hostOps2_writes (by decide)).trans <|
    (W4_of_ne m c main_arg0 (by decide)).trans <|
    (StableHlo.after_of_writes_sub hostOps1 (W2 m c) hostOps1_writes (by decide)).trans <|
    ((W2_arr m c 0).trans (((dat0 (X0 m) c).arrAt_in 0 rfl _).trans (A_eq0 (X0 m) c 0))).trans <|
    (StableHlo.after_of_writes_sub hostOps0 (W0 m c) hostOps0_writes (by decide))).trans rfl
theorem W21_main_arg1 (c : Dev nD) : W21 m c (Proc.devRef .tc main_arg1) = m ((c : Thread nD τ).loc main_arg1) :=
  ((StableHlo.after_of_writes_sub hostOps10 (W20 m c) hostOps10_writes (by decide)).trans <|
    (W20_of_ne m c main_arg1 (by decide)).trans <|
    (StableHlo.after_of_writes_sub hostOps9 (W18 m c) hostOps9_writes (by decide)).trans <|
    (W18_of_ne m c main_arg1 (by decide)).trans <|
    (StableHlo.after_of_writes_sub hostOps8 (W16 m c) hostOps8_writes (by decide)).trans <|
    (W16_of_ne m c main_arg1 (by decide)).trans <|
    (StableHlo.after_of_writes_sub hostOps7 (W14 m c) hostOps7_writes (by decide)).trans <|
    (W14_of_ne m c main_arg1 (by decide)).trans <|
    (StableHlo.after_of_writes_sub hostOps6 (W12 m c) hostOps6_writes (by decide)).trans <|
    (W12_of_ne m c main_arg1 (by decide)).trans <|
    (StableHlo.after_of_writes_sub hostOps5 (W10 m c) hostOps5_writes (by decide)).trans <|
    (W10_of_ne m c main_arg1 (by decide)).trans <|
    (StableHlo.after_of_writes_sub hostOps4 (W8 m c) hostOps4_writes (by decide)).trans <|
    (W8_of_ne m c main_arg1 (by decide)).trans <|
    (StableHlo.after_of_writes_sub hostOps3 (W6 m c) hostOps3_writes (by decide)).trans <|
    (W6_of_ne m c main_arg1 (by decide)).trans <|
    (StableHlo.after_of_writes_sub hostOps2 (W4 m c) hostOps2_writes (by decide)).trans <|
    (W4_of_ne m c main_arg1 (by decide)).trans <|
    (StableHlo.after_of_writes_sub hostOps1 (W2 m c) hostOps1_writes (by decide)).trans <|
    (W2_of_ne m c main_arg1 (by decide)).trans <|
    (StableHlo.after_of_writes_sub hostOps0 (W0 m c) hostOps0_writes (by decide))).trans rfl
theorem W21_main_arg2 (c : Dev nD) : W21 m c (Proc.devRef .tc main_arg2) = m ((c : Thread nD τ).loc main_arg2) :=
  ((StableHlo.after_of_writes_sub hostOps10 (W20 m c) hostOps10_writes (by decide)).trans <|
    (W20_of_ne m c main_arg2 (by decide)).trans <|
    (StableHlo.after_of_writes_sub hostOps9 (W18 m c) hostOps9_writes (by decide)).trans <|
    (W18_of_ne m c main_arg2 (by decide)).trans <|
    (StableHlo.after_of_writes_sub hostOps8 (W16 m c) hostOps8_writes (by decide)).trans <|
    (W16_of_ne m c main_arg2 (by decide)).trans <|
    (StableHlo.after_of_writes_sub hostOps7 (W14 m c) hostOps7_writes (by decide)).trans <|
    (W14_of_ne m c main_arg2 (by decide)).trans <|
    (StableHlo.after_of_writes_sub hostOps6 (W12 m c) hostOps6_writes (by decide)).trans <|
    (W12_of_ne m c main_arg2 (by decide)).trans <|
    (StableHlo.after_of_writes_sub hostOps5 (W10 m c) hostOps5_writes (by decide)).trans <|
    (W10_of_ne m c main_arg2 (by decide)).trans <|
    (StableHlo.after_of_writes_sub hostOps4 (W8 m c) hostOps4_writes (by decide)).trans <|
    (W8_of_ne m c main_arg2 (by decide)).trans <|
    (StableHlo.after_of_writes_sub hostOps3 (W6 m c) hostOps3_writes (by decide)).trans <|
    (W6_of_ne m c main_arg2 (by decide)).trans <|
    (StableHlo.after_of_writes_sub hostOps2 (W4 m c) hostOps2_writes (by decide)).trans <|
    (W4_of_ne m c main_arg2 (by decide)).trans <|
    (StableHlo.after_of_writes_sub hostOps1 (W2 m c) hostOps1_writes (by decide)).trans <|
    (W2_of_ne m c main_arg2 (by decide)).trans <|
    (StableHlo.after_of_writes_sub hostOps0 (W0 m c) hostOps0_writes (by decide))).trans rfl
theorem W21_main_arg3 (c : Dev nD) : W21 m c (Proc.devRef .tc main_arg3) = m ((c : Thread nD τ).loc main_arg3) :=
  ((StableHlo.after_of_writes_sub hostOps10 (W20 m c) hostOps10_writes (by decide)).trans <|
    (W20_of_ne m c main_arg3 (by decide)).trans <|
    (StableHlo.after_of_writes_sub hostOps9 (W18 m c) hostOps9_writes (by decide)).trans <|
    (W18_of_ne m c main_arg3 (by decide)).trans <|
    (StableHlo.after_of_writes_sub hostOps8 (W16 m c) hostOps8_writes (by decide)).trans <|
    (W16_of_ne m c main_arg3 (by decide)).trans <|
    (StableHlo.after_of_writes_sub hostOps7 (W14 m c) hostOps7_writes (by decide)).trans <|
    (W14_of_ne m c main_arg3 (by decide)).trans <|
    (StableHlo.after_of_writes_sub hostOps6 (W12 m c) hostOps6_writes (by decide)).trans <|
    (W12_of_ne m c main_arg3 (by decide)).trans <|
    (StableHlo.after_of_writes_sub hostOps5 (W10 m c) hostOps5_writes (by decide)).trans <|
    (W10_of_ne m c main_arg3 (by decide)).trans <|
    (StableHlo.after_of_writes_sub hostOps4 (W8 m c) hostOps4_writes (by decide)).trans <|
    (W8_of_ne m c main_arg3 (by decide)).trans <|
    (StableHlo.after_of_writes_sub hostOps3 (W6 m c) hostOps3_writes (by decide)).trans <|
    (W6_of_ne m c main_arg3 (by decide)).trans <|
    (StableHlo.after_of_writes_sub hostOps2 (W4 m c) hostOps2_writes (by decide)).trans <|
    (W4_of_ne m c main_arg3 (by decide)).trans <|
    (StableHlo.after_of_writes_sub hostOps1 (W2 m c) hostOps1_writes (by decide)).trans <|
    (W2_of_ne m c main_arg3 (by decide)).trans <|
    (StableHlo.after_of_writes_sub hostOps0 (W0 m c) hostOps0_writes (by decide))).trans rfl
theorem W21_main_arg4 (c : Dev nD) : W21 m c (Proc.devRef .tc main_arg4) = m ((c : Thread nD τ).loc main_arg4) :=
  ((StableHlo.after_of_writes_sub hostOps10 (W20 m c) hostOps10_writes (by decide)).trans <|
    (W20_of_ne m c main_arg4 (by decide)).trans <|
    (StableHlo.after_of_writes_sub hostOps9 (W18 m c) hostOps9_writes (by decide)).trans <|
    (W18_of_ne m c main_arg4 (by decide)).trans <|
    (StableHlo.after_of_writes_sub hostOps8 (W16 m c) hostOps8_writes (by decide)).trans <|
    (W16_of_ne m c main_arg4 (by decide)).trans <|
    (StableHlo.after_of_writes_sub hostOps7 (W14 m c) hostOps7_writes (by decide)).trans <|
    (W14_of_ne m c main_arg4 (by decide)).trans <|
    (StableHlo.after_of_writes_sub hostOps6 (W12 m c) hostOps6_writes (by decide)).trans <|
    (W12_of_ne m c main_arg4 (by decide)).trans <|
    (StableHlo.after_of_writes_sub hostOps5 (W10 m c) hostOps5_writes (by decide)).trans <|
    (W10_of_ne m c main_arg4 (by decide)).trans <|
    (StableHlo.after_of_writes_sub hostOps4 (W8 m c) hostOps4_writes (by decide)).trans <|
    (W8_of_ne m c main_arg4 (by decide)).trans <|
    (StableHlo.after_of_writes_sub hostOps3 (W6 m c) hostOps3_writes (by decide)).trans <|
    (W6_of_ne m c main_arg4 (by decide)).trans <|
    (StableHlo.after_of_writes_sub hostOps2 (W4 m c) hostOps2_writes (by decide)).trans <|
    (W4_of_ne m c main_arg4 (by decide)).trans <|
    (StableHlo.after_of_writes_sub hostOps1 (W2 m c) hostOps1_writes (by decide)).trans <|
    (W2_of_ne m c main_arg4 (by decide)).trans <|
    (StableHlo.after_of_writes_sub hostOps0 (W0 m c) hostOps0_writes (by decide))).trans rfl
theorem W21_main_arg5 (c : Dev nD) : W21 m c (Proc.devRef .tc main_arg5) = m ((c : Thread nD τ).loc main_arg5) :=
  ((StableHlo.after_of_writes_sub hostOps10 (W20 m c) hostOps10_writes (by decide)).trans <|
    (W20_of_ne m c main_arg5 (by decide)).trans <|
    (StableHlo.after_of_writes_sub hostOps9 (W18 m c) hostOps9_writes (by decide)).trans <|
    (W18_of_ne m c main_arg5 (by decide)).trans <|
    (StableHlo.after_of_writes_sub hostOps8 (W16 m c) hostOps8_writes (by decide)).trans <|
    (W16_of_ne m c main_arg5 (by decide)).trans <|
    (StableHlo.after_of_writes_sub hostOps7 (W14 m c) hostOps7_writes (by decide)).trans <|
    (W14_of_ne m c main_arg5 (by decide)).trans <|
    (StableHlo.after_of_writes_sub hostOps6 (W12 m c) hostOps6_writes (by decide)).trans <|
    (W12_of_ne m c main_arg5 (by decide)).trans <|
    (StableHlo.after_of_writes_sub hostOps5 (W10 m c) hostOps5_writes (by decide)).trans <|
    (W10_of_ne m c main_arg5 (by decide)).trans <|
    (StableHlo.after_of_writes_sub hostOps4 (W8 m c) hostOps4_writes (by decide)).trans <|
    (W8_of_ne m c main_arg5 (by decide)).trans <|
    (StableHlo.after_of_writes_sub hostOps3 (W6 m c) hostOps3_writes (by decide)).trans <|
    (W6_of_ne m c main_arg5 (by decide)).trans <|
    (StableHlo.after_of_writes_sub hostOps2 (W4 m c) hostOps2_writes (by decide)).trans <|
    (W4_of_ne m c main_arg5 (by decide)).trans <|
    (StableHlo.after_of_writes_sub hostOps1 (W2 m c) hostOps1_writes (by decide)).trans <|
    (W2_of_ne m c main_arg5 (by decide)).trans <|
    (StableHlo.after_of_writes_sub hostOps0 (W0 m c) hostOps0_writes (by decide))).trans rfl
theorem W21_main_arg6 (c : Dev nD) : W21 m c (Proc.devRef .tc main_arg6) = m ((c : Thread nD τ).loc main_arg6) :=
  ((StableHlo.after_of_writes_sub hostOps10 (W20 m c) hostOps10_writes (by decide)).trans <|
    (W20_of_ne m c main_arg6 (by decide)).trans <|
    (StableHlo.after_of_writes_sub hostOps9 (W18 m c) hostOps9_writes (by decide)).trans <|
    (W18_of_ne m c main_arg6 (by decide)).trans <|
    (StableHlo.after_of_writes_sub hostOps8 (W16 m c) hostOps8_writes (by decide)).trans <|
    (W16_of_ne m c main_arg6 (by decide)).trans <|
    (StableHlo.after_of_writes_sub hostOps7 (W14 m c) hostOps7_writes (by decide)).trans <|
    (W14_of_ne m c main_arg6 (by decide)).trans <|
    (StableHlo.after_of_writes_sub hostOps6 (W12 m c) hostOps6_writes (by decide)).trans <|
    (W12_of_ne m c main_arg6 (by decide)).trans <|
    (StableHlo.after_of_writes_sub hostOps5 (W10 m c) hostOps5_writes (by decide)).trans <|
    (W10_of_ne m c main_arg6 (by decide)).trans <|
    (StableHlo.after_of_writes_sub hostOps4 (W8 m c) hostOps4_writes (by decide)).trans <|
    (W8_of_ne m c main_arg6 (by decide)).trans <|
    (StableHlo.after_of_writes_sub hostOps3 (W6 m c) hostOps3_writes (by decide)).trans <|
    (W6_of_ne m c main_arg6 (by decide)).trans <|
    (StableHlo.after_of_writes_sub hostOps2 (W4 m c) hostOps2_writes (by decide)).trans <|
    (W4_of_ne m c main_arg6 (by decide)).trans <|
    (StableHlo.after_of_writes_sub hostOps1 (W2 m c) hostOps1_writes (by decide)).trans <|
    (W2_of_ne m c main_arg6 (by decide)).trans <|
    (StableHlo.after_of_writes_sub hostOps0 (W0 m c) hostOps0_writes (by decide))).trans rfl
theorem W21_main_arg7 (c : Dev nD) : W21 m c (Proc.devRef .tc main_arg7) = m ((c : Thread nD τ).loc main_arg7) :=
  ((StableHlo.after_of_writes_sub hostOps10 (W20 m c) hostOps10_writes (by decide)).trans <|
    (W20_of_ne m c main_arg7 (by decide)).trans <|
    (StableHlo.after_of_writes_sub hostOps9 (W18 m c) hostOps9_writes (by decide)).trans <|
    (W18_of_ne m c main_arg7 (by decide)).trans <|
    (StableHlo.after_of_writes_sub hostOps8 (W16 m c) hostOps8_writes (by decide)).trans <|
    (W16_of_ne m c main_arg7 (by decide)).trans <|
    (StableHlo.after_of_writes_sub hostOps7 (W14 m c) hostOps7_writes (by decide)).trans <|
    (W14_of_ne m c main_arg7 (by decide)).trans <|
    (StableHlo.after_of_writes_sub hostOps6 (W12 m c) hostOps6_writes (by decide)).trans <|
    (W12_of_ne m c main_arg7 (by decide)).trans <|
    (StableHlo.after_of_writes_sub hostOps5 (W10 m c) hostOps5_writes (by decide)).trans <|
    (W10_of_ne m c main_arg7 (by decide)).trans <|
    (StableHlo.after_of_writes_sub hostOps4 (W8 m c) hostOps4_writes (by decide)).trans <|
    (W8_of_ne m c main_arg7 (by decide)).trans <|
    (StableHlo.after_of_writes_sub hostOps3 (W6 m c) hostOps3_writes (by decide)).trans <|
    (W6_of_ne m c main_arg7 (by decide)).trans <|
    (StableHlo.after_of_writes_sub hostOps2 (W4 m c) hostOps2_writes (by decide)).trans <|
    (W4_of_ne m c main_arg7 (by decide)).trans <|
    (StableHlo.after_of_writes_sub hostOps1 (W2 m c) hostOps1_writes (by decide)).trans <|
    (W2_of_ne m c main_arg7 (by decide)).trans <|
    (StableHlo.after_of_writes_sub hostOps0 (W0 m c) hostOps0_writes (by decide))).trans rfl
theorem W21_main_arg8 (c : Dev nD) : W21 m c (Proc.devRef .tc main_arg8) = m ((c : Thread nD τ).loc main_arg8) :=
  ((StableHlo.after_of_writes_sub hostOps10 (W20 m c) hostOps10_writes (by decide)).trans <|
    (W20_of_ne m c main_arg8 (by decide)).trans <|
    (StableHlo.after_of_writes_sub hostOps9 (W18 m c) hostOps9_writes (by decide)).trans <|
    (W18_of_ne m c main_arg8 (by decide)).trans <|
    (StableHlo.after_of_writes_sub hostOps8 (W16 m c) hostOps8_writes (by decide)).trans <|
    (W16_of_ne m c main_arg8 (by decide)).trans <|
    (StableHlo.after_of_writes_sub hostOps7 (W14 m c) hostOps7_writes (by decide)).trans <|
    (W14_of_ne m c main_arg8 (by decide)).trans <|
    (StableHlo.after_of_writes_sub hostOps6 (W12 m c) hostOps6_writes (by decide)).trans <|
    (W12_of_ne m c main_arg8 (by decide)).trans <|
    (StableHlo.after_of_writes_sub hostOps5 (W10 m c) hostOps5_writes (by decide)).trans <|
    (W10_of_ne m c main_arg8 (by decide)).trans <|
    (StableHlo.after_of_writes_sub hostOps4 (W8 m c) hostOps4_writes (by decide)).trans <|
    (W8_of_ne m c main_arg8 (by decide)).trans <|
    (StableHlo.after_of_writes_sub hostOps3 (W6 m c) hostOps3_writes (by decide)).trans <|
    (W6_of_ne m c main_arg8 (by decide)).trans <|
    (StableHlo.after_of_writes_sub hostOps2 (W4 m c) hostOps2_writes (by decide)).trans <|
    (W4_of_ne m c main_arg8 (by decide)).trans <|
    (StableHlo.after_of_writes_sub hostOps1 (W2 m c) hostOps1_writes (by decide)).trans <|
    (W2_of_ne m c main_arg8 (by decide)).trans <|
    (StableHlo.after_of_writes_sub hostOps0 (W0 m c) hostOps0_writes (by decide))).trans rfl

end Cert.Kernel.Reg

end
-- ==== Proof.KernelIdeal.Mlp0Base.lean ====
import proofs.«139862_j28269474742473_1_alg».proof.Proof.Gen.KernelIdeal.Launch
import proofs.«139862_j28269474742473_1_alg».proof.Proof.Gen.KernelIdeal.Skeleton
import proofs.«139862_j28269474742473_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! # The first MLP region (custom_call 0): what its runs share

The body of the MLP kernel has two conditionals on the grid coordinate: the first holds at the grid's first
point only (there the two scratch accumulators are zeroed), the second at the last point only (there the
accumulators are copied to the two statistics outputs). Here: the conditions in closed form, where the
statistics windows are idle, the staging memrefs and the scratch memrefs, the class invariant with the two
scratch buffers split off, and the blocks of the input windows at a parameter `V` (the contents the region
is entered at). -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional: the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second conditional: the grid coordinate is 9. -/
abbrev cond0_1 (i : grid0.Coords) : Prop := k0_cond2 i = 1#1
/-- It holds at the last point only. -/
theorem hcond0_1 : ∀ t : Fin cfg0.N, cond0_1 (grid0.coords t) ↔ t.val = 9 :=
  (by decide +kernel : ∀ t : Fin grid0.N, cond0_1 (grid0.coords t) ↔ t.val = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last point the statistics windows are idle and not written back; at the last point live. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

/-! ## The staging memrefs and the scratch -/

abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- The two scratch accumulators (column sums, column sums of squares), whole. -/
abbrev scM0_0 : Memref sig .tc .vmem S1x128 .f32 := Memref.whole cc0_scratch0
abbrev scM0_1 : Memref sig .tc .vmem S1x128 .f32 := Memref.whole cc0_scratch1

/-- The rest of the scoped buffers once the two accumulators are taken out. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The class invariant with the two accumulators owned at some contents, the other scoped buffers unopened. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA; rw [scopedRest0_split]; simp only [scM0_0, scM0_1, owns_whole]; try rfl

/-! ## The windows' blocks, at the contents `V` the region is entered at -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.KernelIdeal.Reg

end
-- ==== Proof.KernelIdeal.Mlp0Run.lean ====
import proofs.«139862_j28269474742473_1_alg».proof.Proof.KernelIdeal.Mlp0Base
import Idealize.ShloMosaic.Lib.Pipeline.Value

/-! # The first MLP region: the body's run in each of its three control cases

The body loads the two row blocks and the four weight arrays, stores the block of the MLP's output (every
store of this kernel covers its whole buffer), and adds the block's column sums and column sums of squares
onto the two scratch accumulators; at the first point it zeroes the accumulators first, at the last point it
copies them to the two statistics outputs. Each case is one triple over whole staging memrefs, its post stated
through the skeleton's payloads. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of the whole-buffer rectangles, however spelt. -/
theorem mlp_hz : (![0, 0] : Fin 2 → Nat) = fun _ => 0 := funext fun a => by fin_cases a <;> rfl

/-- Reading back a buffer whose LAST store covered it whole gives that store's payload. -/
theorem mlp_read_store_whole {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-- The block of the MLP's output from the six input blocks: relu(relu((h + agg)·W1 + b1)·W2 + b2). -/
def h0 (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 := k0_pay5 x0 x1 x2 x3 x4 x5
/-- The first accumulator after a point: the block's column sums added onto what it held. -/
def acc0_0 (x0 : Vec F S5000x128 .f32) (x1 : Vec F S5000x128 .f32) (x2 : Vec F S128x128 .f32) (x3 : Vec F S1x128 .f32) (x4 : Vec F S128x128 .f32) (x5 : Vec F S1x128 .f32) (s0 : Vec F S1x128 .f32) : Vec F S1x128 .f32 := k0_pay1 (k0_pay6 x0 x1 x2 x3 x4 x5 s0)
/-- The second accumulator after a point: the column sums of the block's squares added onto what it held. -/
def acc0_1 (x0 : Vec F S5000x128 .f32) (x1 : Vec F S5000x128 .f32) (x2 : Vec F S128x128 .f32) (x3 : Vec F S1x128 .f32) (x4 : Vec F S128x128 .f32) (x5 : Vec F S1x128 .f32) (s1 : Vec F S1x128 .f32) : Vec F S1x128 .f32 := k0_pay2 (k0_pay5 x0 x1 x2 x3 x4 x5) s1

set_option maxHeartbeats 4000000 in
/-- The first point: the first conditional taken (the accumulators, found at anything, are zeroed), the second not. The
    statistics outputs are handed back untouched; the accumulators end at `acc0_0 … 0`, `acc0_1 … 0`. -/
theorem sound_kernel0_A (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : cond0_0 i) (hc1 : ¬cond0_1 i) (x0 : Vec F S5000x128 .f32) (x1 : Vec F S5000x128 .f32) (x2 : Vec F S128x128 .f32) (x3 : Vec F S1x128 .f32) (x4 : Vec F S128x128 .f32) (x5 : Vec F S1x128 .f32) (xi7 xi8 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xi8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h0 x0 x1 x2 x3 x4 x5) ∗ owns (c : Thread nD τ) arg8 fullShare xi7 ∗ owns (c : Thread nD τ) arg9 fullShare xi8
            ∗ owns (c : Thread nD τ) arg10 fullShare (acc0_0 x0 x1 x2 x3 x4 x5 k0_pay3) ∗ owns (c : Thread nD τ) arg11 fullShare (acc0_1 x0 x1 x2 x3 x4 x5 k0_pay4)) -∗ K ⟨⟩))
      ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K := by
  simp only [cc0__mlp_stats_kernel_eq_skeleton]; unfold cc0__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
  subst hf0; subst hf1; subst hf2; subst hf3; subst hf4; subst hf5; subst hf7; subst hf8
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists f7; isplitr
    · ipureintro; rfl
    iexact H7
  isplitl [H8]
  · iexists f8; isplitr
    · ipureintro; rfl
    iexact H8
  isplitl [HS0]
  · iexists _; isplitr
    swap
    · iexact HS0
    ipureintro; sl_unfold_words
    rw [mlp_read_store_whole _ _ mlp_hz]
    simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]

set_option maxHeartbeats 4000000 in
/-- A middle point: neither conditional taken. The statistics outputs are handed back untouched; the accumulators go from
    `xs0`, `xs1` to `acc0_0 … xs0`, `acc0_1 … xs1`. -/
theorem sound_kernel0_B (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬cond0_0 i) (hc1 : ¬cond0_1 i) (x0 : Vec F S5000x128 .f32) (x1 : Vec F S5000x128 .f32) (x2 : Vec F S128x128 .f32) (x3 : Vec F S1x128 .f32) (x4 : Vec F S128x128 .f32) (x5 : Vec F S1x128 .f32) (xi7 xi8 xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xi8
        ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h0 x0 x1 x2 x3 x4 x5) ∗ owns (c : Thread nD τ) arg8 fullShare xi7 ∗ owns (c : Thread nD τ) arg9 fullShare xi8
            ∗ owns (c : Thread nD τ) arg10 fullShare (acc0_0 x0 x1 x2 x3 x4 x5 xs0) ∗ owns (c : Thread nD τ) arg11 fullShare (acc0_1 x0 x1 x2 x3 x4 x5 xs1)) -∗ K ⟨⟩))
      ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K := by
  simp only [cc0__mlp_stats_kernel_eq_skeleton]; unfold cc0__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
  subst hf0; subst hf1; subst hf2; subst hf3; subst hf4; subst hf5; subst hf7; subst hf8; subst hfs0; subst hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists f7; isplitr
    · ipureintro; rfl
    iexact H7
  isplitl [H8]
  · iexists f8; isplitr
    · ipureintro; rfl
    iexact H8
  isplitl [HS0]
  · iexists _; isplitr
    swap
    · iexact HS0
    ipureintro; sl_unfold_words
    rw [mlp_read_store_whole _ _ mlp_hz]
    simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]

set_option maxHeartbeats 4000000 in
/-- The last point: the first conditional not taken, the second taken. The accumulators go from `xs0`, `xs1` to
    `acc0_0 … xs0`, `acc0_1 … xs1`, and the two statistics outputs, found at anything, end holding the same. -/
theorem sound_kernel0_C (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬cond0_0 i) (hc1 : cond0_1 i) (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h0 x0 x1 x2 x3 x4 x5) ∗ owns (c : Thread nD τ) arg8 fullShare (acc0_0 x0 x1 x2 x3 x4 x5 xs0) ∗ owns (c : Thread nD τ) arg9 fullShare (acc0_1 x0 x1 x2 x3 x4 x5 xs1)
            ∗ owns (c : Thread nD τ) arg10 fullShare (acc0_0 x0 x1 x2 x3 x4 x5 xs0) ∗ owns (c : Thread nD τ) arg11 fullShare (acc0_1 x0 x1 x2 x3 x4 x5 xs1)) -∗ K ⟨⟩))
      ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K := by
  simp only [cc0__mlp_stats_kernel_eq_skeleton]; unfold cc0__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
  subst hf0; subst hf1; subst hf2; subst hf3; subst hf4; subst hf5; subst hfs0; subst hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists _; isplitr
    swap
    · iexact H7
    ipureintro; sl_unfold_words
    rw [mlp_read_store_whole _ _ mlp_hz]
    simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H8]
  · iexists _; isplitr
    swap
    · iexact H8
    ipureintro; sl_unfold_words
    rw [mlp_read_store_whole _ _ mlp_hz]
    simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [HS0]
  · iexists _; isplitr
    swap
    · iexact HS0
    ipureintro; sl_unfold_words
    rw [mlp_read_store_whole _ _ mlp_hz]
    simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h0, acc0_0, acc0_1, View.readAt_eq_ld, View.ld_unit_zero (S := S5000x128) mlp_hz, View.ld_unit_zero (S := S128x128) mlp_hz, View.ld_unit_zero (S := S1x128) mlp_hz, View.readCov_unit_zero (S := S1x128) _ mlp_hz]

end Cert.KernelIdeal.Reg

end
-- ==== Proof.KernelIdeal.Mlp0.lean ====
import proofs.«139862_j28269474742473_1_alg».proof.Proof.KernelIdeal.Mlp0Run

/-! # The first MLP region (custom_call 0) at a parameter `V`: proof data, body obligation, entry and exit

The grid has ten points, one per block of 5000 rows. The two scratch accumulators are carried from point to
point: after point `n` they hold the column sums (and the column sums of squares) of the MLP's output over the
row blocks `0 … n` (`accAt0`, a fold of the body's payloads over the input blocks). The region invariant is the
class's before the first point (both accumulators at anything) and afterwards names the accumulators' contents.
Output window 6 receives the MLP's block at every point; windows 7 and 8 are idle up to the last point, where
they receive the accumulators. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The accumulators, point by point -/

/-- What the two scratch accumulators hold after the body at position `n`: zero plus the column sums (of the
    squares) of the MLP's blocks `0 … n`, as the fold of the body's payloads. -/
def accAt0 (c : Dev nD) : (n : ℕ) → n < cfg0.N → Vec F S1x128 .f32 × Vec F S1x128 .f32
  | 0, hn => (acc0_0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) k0_pay3, acc0_1 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) k0_pay4)
  | n + 1, hn => (acc0_0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (accAt0 c n (Nat.lt_of_succ_lt hn)).1, acc0_1 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (accAt0 c n (Nat.lt_of_succ_lt hn)).2)

/-- At the first point: over the zeroed accumulators. -/
theorem accAt0_zero (c : Dev nD) (t : Fin cfg0.N) (h : t.val = 0) :
    accAt0 V c t.val t.isLt = (acc0_0 (iblk0 V c 0 t) (iblk0 V c 1 t) (iblk0 V c 2 t) (iblk0 V c 3 t) (iblk0 V c 4 t) (iblk0 V c 5 t) k0_pay3, acc0_1 (iblk0 V c 0 t) (iblk0 V c 1 t) (iblk0 V c 2 t) (iblk0 V c 3 t) (iblk0 V c 4 t) (iblk0 V c 5 t) k0_pay4) := by
  obtain ⟨n, hn⟩ := t
  cases n with
  | zero => rfl
  | succ n => exact absurd h (Nat.succ_ne_zero n)

/-- At a later point: over what the point before left. -/
theorem accAt0_pos (c : Dev nD) (t : Fin cfg0.N) (h : t.val ≠ 0) :
    accAt0 V c t.val t.isLt = (acc0_0 (iblk0 V c 0 t) (iblk0 V c 1 t) (iblk0 V c 2 t) (iblk0 V c 3 t) (iblk0 V c 4 t) (iblk0 V c 5 t) (accAt0 V c (t.val - 1) (Nat.lt_of_le_of_lt (Nat.sub_le _ _) t.isLt)).1, acc0_1 (iblk0 V c 0 t) (iblk0 V c 1 t) (iblk0 V c 2 t) (iblk0 V c 3 t) (iblk0 V c 4 t) (iblk0 V c 5 t) (accAt0 V c (t.val - 1) (Nat.lt_of_le_of_lt (Nat.sub_le _ _) t.isLt)).2) := by
  obtain ⟨n, hn⟩ := t
  cases n with
  | zero => exact absurd rfl h
  | succ n => rfl

/-! ## The region invariant -/

/-- Before position `n`: the class's invariant before the first point; afterwards the two accumulators at what the
    point before left, the other scoped buffers unopened, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare (accAt0 V c n hn).1 ∗ owns (c : Thread nD τ) scM0_1 fullShare (accAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (accAt0 V c n hn).1 ∗ owns (c : Thread nD τ) scM0_1 fullShare (accAt0 V c n hn).2) ∗ rest0 c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (accAt0 V c (n - 1) (by omega)).1 ∗ owns (c : Thread nD τ) scM0_1 fullShare (accAt0 V c (n - 1) (by omega)).2) ∗ rest0 c) ∗ (∃ r, prngReg c r)) := by
  cases n with
  | zero => exact absurd rfl hz
  | succ n => rfl

/-! ## The proof data -/

/-- The proof data of the region on core `c`: the arrays as the region finds them (`V`); after the body at point `t` each
    input's buffer at its block, output 6's at the MLP's block, outputs 7 and 8's at the accumulators; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => h0 (iblk0 V c 0 t) (iblk0 V c 1 t) (iblk0 V c 2 t) (iblk0 V c 3 t) (iblk0 V c 4 t) (iblk0 V c 5 t)
    | ⟨7, _⟩ => (accAt0 V c t.val t.isLt).1
    | ⟨8, _⟩ => (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
/-- Output 6 after point `t`: the MLP's block of the six input blocks there. -/
theorem after0_6 (c : Dev nD) (t : Fin cfg0.N) : (dat0 V c).after 6 t = h0 (iblk0 V c 0 t) (iblk0 V c 1 t) (iblk0 V c 2 t) (iblk0 V c 3 t) (iblk0 V c 4 t) (iblk0 V c 5 t) := by dsimp only [dat0]
/-- Outputs 7 and 8 after point `t` (read at the last point only): the two accumulators there. -/
theorem after0_7 (c : Dev nD) (t : Fin cfg0.N) : (dat0 V c).after 7 t = (accAt0 V c t.val t.isLt).1 := by dsimp only [dat0]
theorem after0_8 (c : Dev nD) (t : Fin cfg0.N) : (dat0 V c).after 8 t = (accAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t
    ∗ (dat0 V c).leavesExact 6 t ∗ (dat0 V c).leavesExact 7 t ∗ (dat0 V c).leavesExact 8 t)

set_option maxHeartbeats 4800000 in
/-- The body at any point: the inputs' memrefs hold their blocks; the closed forms of the two conditions say which of
    the three cases the point is in; the invariant hands the body the accumulators (at anything at the first point, at
    what the point before left afterwards) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [PhiS0_castSucc V c t]
  by_cases h9 : t.val = 9
  · have hz : t.val ≠ 0 := by omega
    rw [show (dat0 V c).leavesExact 7 t = owns (c : Thread nD τ) (ms0_7 t) fullShare ((dat0 V c).after 7 t) from by
      unfold Dat.leavesExact; rw [liveAt0_7 t ((hcond0_1 t).mpr h9)], after0_7]
    rw [show (dat0 V c).leavesExact 8 t = owns (c : Thread nD τ) (ms0_8 t) fullShare ((dat0 V c).after 8 t) from by
      unfold Dat.leavesExact; rw [liveAt0_8 t ((hcond0_1 t).mpr h9)], after0_8]
    rw [accAt0_pos V c t hz, PhiS0_pos V c _ _ hz]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel0_C c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => hz ((hcond0_0 t).mp h)) ((hcond0_1 t).mpr h9) (iblk0 V c 0 t) (iblk0 V c 1 t) (iblk0 V c 2 t) (iblk0 V c 3 t) (iblk0 V c 4 t) (iblk0 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dat0 V c) 7 t (idleAt0_7 t (fun h => h9 ((hcond0_1 t).mp h))) (noFlush0_7 t (fun h => h9 ((hcond0_1 t).mp h)))]
    rw [Dat.leavesExact_idle (dat0 V c) 8 t (idleAt0_8 t (fun h => h9 ((hcond0_1 t).mp h))) (noFlush0_8 t (fun h => h9 ((hcond0_1 t).mp h)))]
    by_cases hz : t.val = 0
    · rw [accAt0_zero V c t hz, PhiS0_zero V c _ _ hz, PhiA0_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_A c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr hz) (fun h => h9 ((hcond0_1 t).mp h)) (iblk0 V c 0 t) (iblk0 V c 1 t) (iblk0 V c 2 t) (iblk0 V c 3 t) (iblk0 V c 4 t) (iblk0 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [accAt0_pos V c t hz, PhiS0_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_B c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => hz ((hcond0_0 t).mp h)) (fun h => h9 ((hcond0_1 t).mp h)) (iblk0 V c 0 t) (iblk0 V c 1 t) (iblk0 V c 2 t) (iblk0 V c 3 t) (iblk0 V c 4 t) (iblk0 V c 5 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entry and exit -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 10 := N_0; omega)

end Region

end Cert.KernelIdeal.Reg

end
-- ==== Proof.KernelIdeal.Bn1.lean ====
/- Region 1 of @main: the batch-norm apply kernel `cc1__bn_apply_kernel`, at the contents `V` the region is
   entered at. On a grid of 10 row tiles it writes, tile by tile,
   `out = (h_pre − mean) · inv_std · gamma + beta`: window 0 is the tile of `h_pre`, windows 1–4 the four
   `[1,128]` rows (whole, the same block at every point), window 5 the tile of the output.
   Stated here: each window's block at a point, what the body leaves in the output's buffer (one store of the whole
   tile, a pure function of the five blocks read), the body's triple, the pipeline's proof data `dat1` and its body
   obligation. Everything is generic in the float instance `F`. -/
import proofs.«139862_j28269474742473_1_alg».proof.Proof.Gen.KernelIdeal.Launch
import proofs.«139862_j28269474742473_1_alg».proof.Proof.Gen.KernelIdeal.Skeleton
import proofs.«139862_j28269474742473_1_alg».proof.Proof.Gen.KernelIdeal.Points
import Idealize.ShloMosaic.Lib.Pipeline.FrameBody
import Idealize.ShloMosaic.Lib.Ring
import Idealize.ShloMosaic.Lib.Tactic

-- membership in a rectangle of 5000 rows: the elaborator recurses once per coordinate of the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved
    (the window is uncut and never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved
    (the window is uncut and never idle). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved
    (the window is uncut and never idle). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved
    (the window is uncut and never idle). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved
    (the window is uncut and never idle). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole tile, the whole row -/

abbrev tile1 : Rect S5000x128 := Rect.unit (s := S5000x128) ![0, 0] S5000x128.size inb_S5000x128_S5000x128_0_0
abbrev row1 : Rect S1x128 := Rect.unit (s := S1x128) ![0, 0] S1x128.size inb_S1x128_S1x128_0_0

/-! ## What the body leaves in the output window's buffer -/

/-- Window 5's staging buffer after the body, from the input windows' blocks: its one store, of the whole tile. -/
def out1_5 (x0 : Vec F S5000x128 .f32) (x1 : Vec F S1x128 .f32) (x2 : Vec F S1x128 .f32) (x3 : Vec F S1x128 .f32) (x4 : Vec F S1x128 .f32) : Vec F S5000x128 .f32 :=
  View.canon [⟨tile1, k1_pay1 (View.ld x0 tile1) (View.ld x1 row1) (View.ld x2 row1) (View.ld x3 row1) (View.ld x4 row1)⟩]

/-- The one store covers the buffer. -/
theorem cover1_5 (p0 : Vec F S5000x128 .f32) (y : S5000x128.Idx) :
    ∃ pc ∈ ([⟨tile1, p0⟩] : List (View.Piece (Elt F) S5000x128 .f32)), y ∈ pc.1.set :=
  View.cover_of_tiled [⟨tile1, p0⟩] S5000x128.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_apply_kernel i arg1 harg1 arg2 harg2 arg3 harg3 arg4 harg4 arg5 harg5 arg6 harg6) K := by
  simp only [cc1__bn_apply_kernel_eq_skeleton]; unfold cc1__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point
    `t` each input's buffer at its block and the output's at `out1_5` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant is the same at every point: the scoped rest and the generator register. -/
theorem Φ_eq1 (c : Dev nD) (t : Fin (cfg1.N + 1)) : (dat1 V c).Φ t = Pipeline.ΦA spec1 c := rfl
theorem hin1 (c : Dev nD) : Pipeline.ΦA spec1 c ⊢ (dat1 V c).Φ 0 := .rfl
theorem hout1 (c : Dev nD) : (dat1 V c).Φ (Fin.last cfg1.N) ⊢ Pipeline.ΦA spec1 c := .rfl
theorem q_eq1 (c : Dev nD) (w : Fin cfg1.W) : (dat1 V c).q w = fullShare := rfl
theorem owed_eq1 (c : Dev nD) (t : Fin (cfg1.N + 1)) : (dat1 V c).owed t = 0 := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KernelIdeal.Mlp2Base.lean ====
import proofs.«139862_j28269474742473_1_alg».proof.Proof.Gen.KernelIdeal.Launch
import proofs.«139862_j28269474742473_1_alg».proof.Proof.Gen.KernelIdeal.Skeleton
import proofs.«139862_j28269474742473_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! # The MLP region of layer 1 (custom_call 2): what its runs share

The body of the MLP kernel has two conditionals on the grid coordinate: the first holds at the grid's first
point only (there the two scratch accumulators are zeroed), the second at the last point only (there the
accumulators are copied to the two statistics outputs). Here: the conditions in closed form, where the
statistics windows are idle, the staging memrefs and the scratch memrefs, the class invariant with the two
scratch buffers split off, and the blocks of the input windows at a parameter `V` (the contents the region
is entered at). -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional: the grid coordinate is 0. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The second conditional: the grid coordinate is 9. -/
abbrev cond2_1 (i : grid2.Coords) : Prop := k2_cond2 i = 1#1
/-- It holds at the last point only. -/
theorem hcond2_1 : ∀ t : Fin cfg2.N, cond2_1 (grid2.coords t) ↔ t.val = 9 :=
  (by decide +kernel : ∀ t : Fin grid2.N, cond2_1 (grid2.coords t) ↔ t.val = 9)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Away from the last point the statistics windows are idle and not written back; at the last point live. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
theorem liveAt2_8 : ∀ t : Fin cfg2.N, cond2_1 (grid2.coords t) → cfg2.idle 8 (grid2.coords t) = false := by decide +kernel

/-! ## The staging memrefs and the scratch -/

abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
/-- The two scratch accumulators (column sums, column sums of squares), whole. -/
abbrev scM2_0 : Memref sig .tc .vmem S1x128 .f32 := Memref.whole cc2_scratch0
abbrev scM2_1 : Memref sig .tc .vmem S1x128 .f32 := Memref.whole cc2_scratch1

/-- The rest of the scoped buffers once the two accumulators are taken out. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- The class invariant with the two accumulators owned at some contents, the other scoped buffers unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

/-! ## The windows' blocks, at the contents `V` the region is entered at -/

section Blocks
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end Blocks

end Cert.KernelIdeal.Reg

end
-- ==== Proof.KernelIdeal.Mlp2Run.lean ====
import proofs.«139862_j28269474742473_1_alg».proof.Proof.KernelIdeal.Mlp2Base
import proofs.«139862_j28269474742473_1_alg».proof.Proof.KernelIdeal.Mlp0Run
import Idealize.ShloMosaic.Lib.Pipeline.Value

/-! # The MLP region of layer 1: the body's run in each of its three control cases

The body loads the two row blocks and the four weight arrays, stores the block of the MLP's output (every
store of this kernel covers its whole buffer), and adds the block's column sums and column sums of squares
onto the two scratch accumulators; at the first point it zeroes the accumulators first, at the last point it
copies them to the two statistics outputs. Each case is one triple over whole staging memrefs, its post stated
through the skeleton's payloads. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of the MLP's output from the six input blocks: relu(relu((h + agg)·W1 + b1)·W2 + b2). -/
def h2 (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 := k2_pay5 x0 x1 x2 x3 x4 x5
/-- The first accumulator after a point: the block's column sums added onto what it held. -/
def acc2_0 (x0 : Vec F S5000x128 .f32) (x1 : Vec F S5000x128 .f32) (x2 : Vec F S128x128 .f32) (x3 : Vec F S1x128 .f32) (x4 : Vec F S128x128 .f32) (x5 : Vec F S1x128 .f32) (s0 : Vec F S1x128 .f32) : Vec F S1x128 .f32 := k2_pay1 s0 (k2_pay6 x0 x1 x2 x3 x4 x5)
/-- The second accumulator after a point: the column sums of the block's squares added onto what it held. -/
def acc2_1 (x0 : Vec F S5000x128 .f32) (x1 : Vec F S5000x128 .f32) (x2 : Vec F S128x128 .f32) (x3 : Vec F S1x128 .f32) (x4 : Vec F S128x128 .f32) (x5 : Vec F S1x128 .f32) (s1 : Vec F S1x128 .f32) : Vec F S1x128 .f32 := k2_pay2 (k2_pay5 x0 x1 x2 x3 x4 x5) s1

set_option maxHeartbeats 4000000 in
/-- The first point: the first conditional taken (the accumulators, found at anything, are zeroed), the second not. The
    statistics outputs are handed back untouched; the accumulators end at `acc2_0 … 0`, `acc2_1 … 0`. -/
theorem sound_kernel2_A (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : cond2_0 i) (hc1 : ¬cond2_1 i) (x0 : Vec F S5000x128 .f32) (x1 : Vec F S5000x128 .f32) (x2 : Vec F S128x128 .f32) (x3 : Vec F S1x128 .f32) (x4 : Vec F S128x128 .f32) (x5 : Vec F S1x128 .f32) (xi7 xi8 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xi8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h2 x0 x1 x2 x3 x4 x5) ∗ owns (c : Thread nD τ) arg8 fullShare xi7 ∗ owns (c : Thread nD τ) arg9 fullShare xi8
            ∗ owns (c : Thread nD τ) arg10 fullShare (acc2_0 x0 x1 x2 x3 x4 x5 k2_pay3) ∗ owns (c : Thread nD τ) arg11 fullShare (acc2_1 x0 x1 x2 x3 x4 x5 k2_pay4)) -∗ K ⟨⟩))
      ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K := by
  simp only [cc2__mlp_stats_kernel_eq_skeleton]; unfold cc2__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
  subst hf0; subst hf1; subst hf2; subst hf3; subst hf4; subst hf5; subst hf7; subst hf8
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists f7; isplitr
    · ipureintro; rfl
    iexact H7
  isplitl [H8]
  · iexists f8; isplitr
    · ipureintro; rfl
    iexact H8
  isplitl [HS0]
  · iexists _; isplitr
    swap
    · iexact HS0
    ipureintro; sl_unfold_words
    rw [mlp_read_store_whole _ _ mlp_hz]
    simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]

set_option maxHeartbeats 4000000 in
/-- A middle point: neither conditional taken. The statistics outputs are handed back untouched; the accumulators go from
    `xs0`, `xs1` to `acc2_0 … xs0`, `acc2_1 … xs1`. -/
theorem sound_kernel2_B (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬cond2_0 i) (hc1 : ¬cond2_1 i) (x0 : Vec F S5000x128 .f32) (x1 : Vec F S5000x128 .f32) (x2 : Vec F S128x128 .f32) (x3 : Vec F S1x128 .f32) (x4 : Vec F S128x128 .f32) (x5 : Vec F S1x128 .f32) (xi7 xi8 xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xi8
        ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h2 x0 x1 x2 x3 x4 x5) ∗ owns (c : Thread nD τ) arg8 fullShare xi7 ∗ owns (c : Thread nD τ) arg9 fullShare xi8
            ∗ owns (c : Thread nD τ) arg10 fullShare (acc2_0 x0 x1 x2 x3 x4 x5 xs0) ∗ owns (c : Thread nD τ) arg11 fullShare (acc2_1 x0 x1 x2 x3 x4 x5 xs1)) -∗ K ⟨⟩))
      ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K := by
  simp only [cc2__mlp_stats_kernel_eq_skeleton]; unfold cc2__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
  subst hf0; subst hf1; subst hf2; subst hf3; subst hf4; subst hf5; subst hf7; subst hf8; subst hfs0; subst hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists f7; isplitr
    · ipureintro; rfl
    iexact H7
  isplitl [H8]
  · iexists f8; isplitr
    · ipureintro; rfl
    iexact H8
  isplitl [HS0]
  · iexists _; isplitr
    swap
    · iexact HS0
    ipureintro; sl_unfold_words
    rw [mlp_read_store_whole _ _ mlp_hz]
    simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]

set_option maxHeartbeats 4000000 in
/-- The last point: the first conditional not taken, the second taken. The accumulators go from `xs0`, `xs1` to
    `acc2_0 … xs0`, `acc2_1 … xs1`, and the two statistics outputs, found at anything, end holding the same. -/
theorem sound_kernel2_C (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬cond2_0 i) (hc1 : cond2_1 i) (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h2 x0 x1 x2 x3 x4 x5) ∗ owns (c : Thread nD τ) arg8 fullShare (acc2_0 x0 x1 x2 x3 x4 x5 xs0) ∗ owns (c : Thread nD τ) arg9 fullShare (acc2_1 x0 x1 x2 x3 x4 x5 xs1)
            ∗ owns (c : Thread nD τ) arg10 fullShare (acc2_0 x0 x1 x2 x3 x4 x5 xs0) ∗ owns (c : Thread nD τ) arg11 fullShare (acc2_1 x0 x1 x2 x3 x4 x5 xs1)) -∗ K ⟨⟩))
      ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K := by
  simp only [cc2__mlp_stats_kernel_eq_skeleton]; unfold cc2__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
  subst hf0; subst hf1; subst hf2; subst hf3; subst hf4; subst hf5; subst hfs0; subst hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists _; isplitr
    swap
    · iexact H7
    ipureintro; sl_unfold_words
    rw [mlp_read_store_whole _ _ mlp_hz]
    simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H8]
  · iexists _; isplitr
    swap
    · iexact H8
    ipureintro; sl_unfold_words
    rw [mlp_read_store_whole _ _ mlp_hz]
    simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [HS0]
  · iexists _; isplitr
    swap
    · iexact HS0
    ipureintro; sl_unfold_words
    rw [mlp_read_store_whole _ _ mlp_hz]
    simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h2, acc2_0, acc2_1, View.readAt_eq_ld, View.ld_unit_zero (S := S5000x128) mlp_hz, View.ld_unit_zero (S := S128x128) mlp_hz, View.ld_unit_zero (S := S1x128) mlp_hz, View.readCov_unit_zero (S := S1x128) _ mlp_hz]

end Cert.KernelIdeal.Reg

end
-- ==== Proof.KernelIdeal.Mlp2.lean ====
import proofs.«139862_j28269474742473_1_alg».proof.Proof.KernelIdeal.Mlp2Run

/-! # The MLP region of layer 1 (custom_call 2) at a parameter `V`: proof data, body obligation, entry and exit

The grid has ten points, one per block of 5000 rows. The two scratch accumulators are carried from point to
point: after point `n` they hold the column sums (and the column sums of squares) of the MLP's output over the
row blocks `0 … n` (`accAt2`, a fold of the body's payloads over the input blocks). The region invariant is the
class's before the first point (both accumulators at anything) and afterwards names the accumulators' contents.
Output window 6 receives the MLP's block at every point; windows 7 and 8 are idle up to the last point, where
they receive the accumulators. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The accumulators, point by point -/

/-- What the two scratch accumulators hold after the body at position `n`: zero plus the column sums (of the
    squares) of the MLP's blocks `0 … n`, as the fold of the body's payloads. -/
def accAt2 (c : Dev nD) : (n : ℕ) → n < cfg2.N → Vec F S1x128 .f32 × Vec F S1x128 .f32
  | 0, hn => (acc2_0 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) k2_pay3, acc2_1 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) k2_pay4)
  | n + 1, hn => (acc2_0 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (accAt2 c n (Nat.lt_of_succ_lt hn)).1, acc2_1 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (accAt2 c n (Nat.lt_of_succ_lt hn)).2)

/-- At the first point: over the zeroed accumulators. -/
theorem accAt2_zero (c : Dev nD) (t : Fin cfg2.N) (h : t.val = 0) :
    accAt2 V c t.val t.isLt = (acc2_0 (iblk2 V c 0 t) (iblk2 V c 1 t) (iblk2 V c 2 t) (iblk2 V c 3 t) (iblk2 V c 4 t) (iblk2 V c 5 t) k2_pay3, acc2_1 (iblk2 V c 0 t) (iblk2 V c 1 t) (iblk2 V c 2 t) (iblk2 V c 3 t) (iblk2 V c 4 t) (iblk2 V c 5 t) k2_pay4) := by
  obtain ⟨n, hn⟩ := t
  cases n with
  | zero => rfl
  | succ n => exact absurd h (Nat.succ_ne_zero n)

/-- At a later point: over what the point before left. -/
theorem accAt2_pos (c : Dev nD) (t : Fin cfg2.N) (h : t.val ≠ 0) :
    accAt2 V c t.val t.isLt = (acc2_0 (iblk2 V c 0 t) (iblk2 V c 1 t) (iblk2 V c 2 t) (iblk2 V c 3 t) (iblk2 V c 4 t) (iblk2 V c 5 t) (accAt2 V c (t.val - 1) (Nat.lt_of_le_of_lt (Nat.sub_le _ _) t.isLt)).1, acc2_1 (iblk2 V c 0 t) (iblk2 V c 1 t) (iblk2 V c 2 t) (iblk2 V c 3 t) (iblk2 V c 4 t) (iblk2 V c 5 t) (accAt2 V c (t.val - 1) (Nat.lt_of_le_of_lt (Nat.sub_le _ _) t.isLt)).2) := by
  obtain ⟨n, hn⟩ := t
  cases n with
  | zero => exact absurd rfl h
  | succ n => rfl

/-! ## The region invariant -/

/-- Before position `n`: the class's invariant before the first point; afterwards the two accumulators at what the
    point before left, the other scoped buffers unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (accAt2 V c n hn).1 ∗ owns (c : Thread nD τ) scM2_1 fullShare (accAt2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (accAt2 V c n hn).1 ∗ owns (c : Thread nD τ) scM2_1 fullShare (accAt2 V c n hn).2) ∗ rest2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (accAt2 V c (n - 1) (by omega)).1 ∗ owns (c : Thread nD τ) scM2_1 fullShare (accAt2 V c (n - 1) (by omega)).2) ∗ rest2 c) ∗ (∃ r, prngReg c r)) := by
  cases n with
  | zero => exact absurd rfl hz
  | succ n => rfl

/-! ## The proof data -/

/-- The proof data of the region on core `c`: the arrays as the region finds them (`V`); after the body at point `t` each
    input's buffer at its block, output 6's at the MLP's block, outputs 7 and 8's at the accumulators; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => h2 (iblk2 V c 0 t) (iblk2 V c 1 t) (iblk2 V c 2 t) (iblk2 V c 3 t) (iblk2 V c 4 t) (iblk2 V c 5 t)
    | ⟨7, _⟩ => (accAt2 V c t.val t.isLt).1
    | ⟨8, _⟩ => (accAt2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
/-- Output 6 after point `t`: the MLP's block of the six input blocks there. -/
theorem after2_6 (c : Dev nD) (t : Fin cfg2.N) : (dat2 V c).after 6 t = h2 (iblk2 V c 0 t) (iblk2 V c 1 t) (iblk2 V c 2 t) (iblk2 V c 3 t) (iblk2 V c 4 t) (iblk2 V c 5 t) := by dsimp only [dat2]
/-- Outputs 7 and 8 after point `t` (read at the last point only): the two accumulators there. -/
theorem after2_7 (c : Dev nD) (t : Fin cfg2.N) : (dat2 V c).after 7 t = (accAt2 V c t.val t.isLt).1 := by dsimp only [dat2]
theorem after2_8 (c : Dev nD) (t : Fin cfg2.N) : (dat2 V c).after 8 t = (accAt2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t
    ∗ (dat2 V c).leavesExact 6 t ∗ (dat2 V c).leavesExact 7 t ∗ (dat2 V c).leavesExact 8 t)

set_option maxHeartbeats 4800000 in
/-- The body at any point: the inputs' memrefs hold their blocks; the closed forms of the two conditions say which of
    the three cases the point is in; the invariant hands the body the accumulators (at anything at the first point, at
    what the point before left afterwards) and takes them back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [PhiS2_castSucc V c t]
  by_cases h9 : t.val = 9
  · have hz : t.val ≠ 0 := by omega
    rw [show (dat2 V c).leavesExact 7 t = owns (c : Thread nD τ) (ms2_7 t) fullShare ((dat2 V c).after 7 t) from by
      unfold Dat.leavesExact; rw [liveAt2_7 t ((hcond2_1 t).mpr h9)], after2_7]
    rw [show (dat2 V c).leavesExact 8 t = owns (c : Thread nD τ) (ms2_8 t) fullShare ((dat2 V c).after 8 t) from by
      unfold Dat.leavesExact; rw [liveAt2_8 t ((hcond2_1 t).mpr h9)], after2_8]
    rw [accAt2_pos V c t hz, PhiS2_pos V c _ _ hz]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_C c Set.univ (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => hz ((hcond2_0 t).mp h)) ((hcond2_1 t).mpr h9) (iblk2 V c 0 t) (iblk2 V c 1 t) (iblk2 V c 2 t) (iblk2 V c 3 t) (iblk2 V c 4 t) (iblk2 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dat2 V c) 7 t (idleAt2_7 t (fun h => h9 ((hcond2_1 t).mp h))) (noFlush2_7 t (fun h => h9 ((hcond2_1 t).mp h)))]
    rw [Dat.leavesExact_idle (dat2 V c) 8 t (idleAt2_8 t (fun h => h9 ((hcond2_1 t).mp h))) (noFlush2_8 t (fun h => h9 ((hcond2_1 t).mp h)))]
    by_cases hz : t.val = 0
    · rw [accAt2_zero V c t hz, PhiS2_zero V c _ _ hz, PhiA2_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_A c Set.univ (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr hz) (fun h => h9 ((hcond2_1 t).mp h)) (iblk2 V c 0 t) (iblk2 V c 1 t) (iblk2 V c 2 t) (iblk2 V c 3 t) (iblk2 V c 4 t) (iblk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [accAt2_pos V c t hz, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_B c Set.univ (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => hz ((hcond2_0 t).mp h)) (fun h => h9 ((hcond2_1 t).mp h)) (iblk2 V c 0 t) (iblk2 V c 1 t) (iblk2 V c 2 t) (iblk2 V c 3 t) (iblk2 V c 4 t) (iblk2 V c 5 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Entry and exit -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the class's back: the accumulators' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 10 := N_2; omega)

end Region

end Cert.KernelIdeal.Reg

end
-- ==== Proof.KernelIdeal.Bn3.lean ====
/- Region 3 of @main: the batch-norm apply kernel `cc3__bn_apply_kernel`, at the contents `V` the region is
   entered at. On a grid of 10 row tiles it writes, tile by tile,
   `out = (h_pre − mean) · inv_std · gamma + beta`: window 0 is the tile of `h_pre`, windows 1–4 the four
   `[1,128]` rows (whole, the same block at every point), window 5 the tile of the output.
   Stated here: each window's block at a point, what the body leaves in the output's buffer (one store of the whole
   tile, a pure function of the five blocks read), the body's triple, the pipeline's proof data `dat3` and its body
   obligation. Everything is generic in the float instance `F`. -/
import proofs.«139862_j28269474742473_1_alg».proof.Proof.Gen.KernelIdeal.Launch
import proofs.«139862_j28269474742473_1_alg».proof.Proof.Gen.KernelIdeal.Skeleton
import proofs.«139862_j28269474742473_1_alg».proof.Proof.Gen.KernelIdeal.Points
import Idealize.ShloMosaic.Lib.Pipeline.FrameBody
import Idealize.ShloMosaic.Lib.Ring
import Idealize.ShloMosaic.Lib.Tactic

-- membership in a rectangle of 5000 rows: the elaborator recurses once per coordinate of the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved
    (the window is uncut and never idle). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved
    (the window is uncut and never idle). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved
    (the window is uncut and never idle). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: unfetched, the block index has not moved
    (the window is uncut and never idle). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: unfetched, the block index has not moved
    (the window is uncut and never idle). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: the whole tile, the whole row -/

abbrev tile3 : Rect S5000x128 := Rect.unit (s := S5000x128) ![0, 0] S5000x128.size inb_S5000x128_S5000x128_0_0
abbrev row3 : Rect S1x128 := Rect.unit (s := S1x128) ![0, 0] S1x128.size inb_S1x128_S1x128_0_0

/-! ## What the body leaves in the output window's buffer -/

/-- Window 5's staging buffer after the body, from the input windows' blocks: its one store, of the whole tile. -/
def out3_5 (x0 : Vec F S5000x128 .f32) (x1 : Vec F S1x128 .f32) (x2 : Vec F S1x128 .f32) (x3 : Vec F S1x128 .f32) (x4 : Vec F S1x128 .f32) : Vec F S5000x128 .f32 :=
  View.canon [⟨tile3, k3_pay1 (View.ld x0 tile3) (View.ld x1 row3) (View.ld x2 row3) (View.ld x3 row3) (View.ld x4 row3)⟩]

/-- The one store covers the buffer. -/
theorem cover3_5 (p0 : Vec F S5000x128 .f32) (y : S5000x128.Idx) :
    ∃ pc ∈ ([⟨tile3, p0⟩] : List (View.Piece (Elt F) S5000x128 .f32)), y ∈ pc.1.set :=
  View.cover_of_tiled [⟨tile3, p0⟩] S5000x128.size (by rfl) y

/-! ## The body's triple -/

set_option maxHeartbeats 1000000 in
/-- The kernel body on whole staging memrefs, the inputs' at read contents `xW` and the output's at anything, runs to
    the continuation holding the inputs' as they were and the output's at `out3_5` of the inputs'. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_apply_kernel i arg1 harg1 arg2 harg2 arg3 harg3 arg4 harg4 arg5 harg5 arg6 harg6) K := by
  simp only [cc3__bn_apply_kernel_eq_skeleton]; unfold cc3__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at point
    `t` each input's buffer at its block and the output's at `out3_5` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant is the same at every point: the scoped rest and the generator register. -/
theorem Φ_eq3 (c : Dev nD) (t : Fin (cfg3.N + 1)) : (dat3 V c).Φ t = Pipeline.ΦA spec3 c := rfl
theorem hin3 (c : Dev nD) : Pipeline.ΦA spec3 c ⊢ (dat3 V c).Φ 0 := .rfl
theorem hout3 (c : Dev nD) : (dat3 V c).Φ (Fin.last cfg3.N) ⊢ Pipeline.ΦA spec3 c := .rfl
theorem q_eq3 (c : Dev nD) (w : Fin cfg3.W) : (dat3 V c).q w = fullShare := rfl
theorem owed_eq3 (c : Dev nD) (t : Fin (cfg3.N + 1)) : (dat3 V c).owed t = 0 := rfl

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.KernelIdeal.Mlp4Base.lean ====
import proofs.«139862_j28269474742473_1_alg».proof.Proof.Gen.KernelIdeal.Launch
import proofs.«139862_j28269474742473_1_alg».proof.Proof.Gen.KernelIdeal.Skeleton
import proofs.«139862_j28269474742473_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! # The MLP region of layer 2 (custom_call 4): what its runs share

The body of the MLP kernel has two conditionals on the grid coordinate: the first holds at the grid's first
point only (there the two scratch accumulators are zeroed), the second at the last point only (there the
accumulators are copied to the two statistics outputs). Here: the conditions in closed form, where the
statistics windows are idle, the staging memrefs and the scratch memrefs, the class invariant with the two
scratch buffers split off, and the blocks of the input windows at a parameter `V` (the contents the region
is entered at). -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional: the grid coordinate is 0. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)

/-- The second conditional: the grid coordinate is 9. -/
abbrev cond4_1 (i : grid4.Coords) : Prop := k4_cond2 i = 1#1
/-- It holds at the last point only. -/
theorem hcond4_1 : ∀ t : Fin cfg4.N, cond4_1 (grid4.coords t) ↔ t.val = 9 :=
  (by decide +kernel : ∀ t : Fin grid4.N, cond4_1 (grid4.coords t) ↔ t.val = 9)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
theorem liveAt4_6 : ∀ t : Fin cfg4.N, cfg4.idle 6 (grid4.coords t) = false := by decide +kernel
/-- Away from the last point the statistics windows are idle and not written back; at the last point live. -/
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem liveAt4_7 : ∀ t : Fin cfg4.N, cond4_1 (grid4.coords t) → cfg4.idle 7 (grid4.coords t) = false := by decide +kernel
theorem idleAt4_8 : ∀ t : Fin cfg4.N, ¬cond4_1 (grid4.coords t) → cfg4.idle 8 (grid4.coords t) = true := by decide +kernel
theorem noFlush4_8 : ∀ t : Fin cfg4.N, ¬cond4_1 (grid4.coords t) → (cfg4.win 8).flush t = false := by decide +kernel
theorem liveAt4_8 : ∀ t : Fin cfg4.N, cond4_1 (grid4.coords t) → cfg4.idle 8 (grid4.coords t) = false := by decide +kernel

/-! ## The staging memrefs and the scratch -/

abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S5000x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)
/-- The two scratch accumulators (column sums, column sums of squares), whole. -/
abbrev scM4_0 : Memref sig .tc .vmem S1x128 .f32 := Memref.whole cc4_scratch0
abbrev scM4_1 : Memref sig .tc .vmem S1x128 .f32 := Memref.whole cc4_scratch1

/-- The rest of the scoped buffers once the two accumulators are taken out. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- The class invariant with the two accumulators owned at some contents, the other scoped buffers unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 c) ∗ (∃ r, prngReg c r)) := by
  unfold Pipeline.ΦA; rw [scopedRest4_split]; simp only [scM4_0, scM4_1, owns_whole]; try rfl

/-! ## The windows' blocks, at the contents `V` the region is entered at -/

section Blocks
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof data
    whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

end Blocks

end Cert.KernelIdeal.Reg

end
-- ==== Proof.KernelIdeal.Mlp4Run.lean ====
import proofs.«139862_j28269474742473_1_alg».proof.Proof.KernelIdeal.Mlp4Base
import proofs.«139862_j28269474742473_1_alg».proof.Proof.KernelIdeal.Mlp0Run
import Idealize.ShloMosaic.Lib.Pipeline.Value

/-! # The MLP region of layer 2: the body's run in each of its three control cases

The body loads the two row blocks and the four weight arrays, stores the block of the MLP's output (every
store of this kernel covers its whole buffer), and adds the block's column sums and column sums of squares
onto the two scratch accumulators; at the first point it zeroes the accumulators first, at the last point it
copies them to the two statistics outputs. Each case is one triple over whole staging memrefs, its post stated
through the skeleton's payloads. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of the MLP's output from the six input blocks: relu(relu((h + agg)·W1 + b1)·W2 + b2). -/
def h4 (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 := k4_pay5 x0 x1 x2 x3 x4 x5
/-- The first accumulator after a point: the block's column sums added onto what it held. -/
def acc4_0 (x0 : Vec F S5000x128 .f32) (x1 : Vec F S5000x128 .f32) (x2 : Vec F S128x128 .f32) (x3 : Vec F S1x128 .f32) (x4 : Vec F S128x128 .f32) (x5 : Vec F S1x128 .f32) (s0 : Vec F S1x128 .f32) : Vec F S1x128 .f32 := k4_pay1 s0 (k4_pay6 x0 x1 x2 x3 x4 x5)
/-- The second accumulator after a point: the column sums of the block's squares added onto what it held. -/
def acc4_1 (x0 : Vec F S5000x128 .f32) (x1 : Vec F S5000x128 .f32) (x2 : Vec F S128x128 .f32) (x3 : Vec F S1x128 .f32) (x4 : Vec F S128x128 .f32) (x5 : Vec F S1x128 .f32) (s1 : Vec F S1x128 .f32) : Vec F S1x128 .f32 := k4_pay2 (k4_pay5 x0 x1 x2 x3 x4 x5) s1

set_option maxHeartbeats 4000000 in
/-- The first point: the first conditional taken (the accumulators, found at anything, are zeroed), the second not. The
    statistics outputs are handed back untouched; the accumulators end at `acc4_0 … 0`, `acc4_1 … 0`. -/
theorem sound_kernel4_A (c : Dev nD) (E : Set ℕ) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : cond4_0 i) (hc1 : ¬cond4_1 i) (x0 : Vec F S5000x128 .f32) (x1 : Vec F S5000x128 .f32) (x2 : Vec F S128x128 .f32) (x3 : Vec F S1x128 .f32) (x4 : Vec F S128x128 .f32) (x5 : Vec F S1x128 .f32) (xi7 xi8 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xi8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h4 x0 x1 x2 x3 x4 x5) ∗ owns (c : Thread nD τ) arg8 fullShare xi7 ∗ owns (c : Thread nD τ) arg9 fullShare xi8
            ∗ owns (c : Thread nD τ) arg10 fullShare (acc4_0 x0 x1 x2 x3 x4 x5 k4_pay3) ∗ owns (c : Thread nD τ) arg11 fullShare (acc4_1 x0 x1 x2 x3 x4 x5 k4_pay4)) -∗ K ⟨⟩))
      ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10 arg11 harg11) K := by
  simp only [cc4__mlp_stats_kernel_eq_skeleton]; unfold cc4__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
  subst hf0; subst hf1; subst hf2; subst hf3; subst hf4; subst hf5; subst hf7; subst hf8
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists f7; isplitr
    · ipureintro; rfl
    iexact H7
  isplitl [H8]
  · iexists f8; isplitr
    · ipureintro; rfl
    iexact H8
  isplitl [HS0]
  · iexists _; isplitr
    swap
    · iexact HS0
    ipureintro; sl_unfold_words
    rw [mlp_read_store_whole _ _ mlp_hz]
    simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]

set_option maxHeartbeats 4000000 in
/-- A middle point: neither conditional taken. The statistics outputs are handed back untouched; the accumulators go from
    `xs0`, `xs1` to `acc4_0 … xs0`, `acc4_1 … xs1`. -/
theorem sound_kernel4_B (c : Dev nD) (E : Set ℕ) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬cond4_0 i) (hc1 : ¬cond4_1 i) (x0 : Vec F S5000x128 .f32) (x1 : Vec F S5000x128 .f32) (x2 : Vec F S128x128 .f32) (x3 : Vec F S1x128 .f32) (x4 : Vec F S128x128 .f32) (x5 : Vec F S1x128 .f32) (xi7 xi8 xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xi8
        ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h4 x0 x1 x2 x3 x4 x5) ∗ owns (c : Thread nD τ) arg8 fullShare xi7 ∗ owns (c : Thread nD τ) arg9 fullShare xi8
            ∗ owns (c : Thread nD τ) arg10 fullShare (acc4_0 x0 x1 x2 x3 x4 x5 xs0) ∗ owns (c : Thread nD τ) arg11 fullShare (acc4_1 x0 x1 x2 x3 x4 x5 xs1)) -∗ K ⟨⟩))
      ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10 arg11 harg11) K := by
  simp only [cc4__mlp_stats_kernel_eq_skeleton]; unfold cc4__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
  subst hf0; subst hf1; subst hf2; subst hf3; subst hf4; subst hf5; subst hf7; subst hf8; subst hfs0; subst hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists f7; isplitr
    · ipureintro; rfl
    iexact H7
  isplitl [H8]
  · iexists f8; isplitr
    · ipureintro; rfl
    iexact H8
  isplitl [HS0]
  · iexists _; isplitr
    swap
    · iexact HS0
    ipureintro; sl_unfold_words
    rw [mlp_read_store_whole _ _ mlp_hz]
    simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]

set_option maxHeartbeats 4000000 in
/-- The last point: the first conditional not taken, the second taken. The accumulators go from `xs0`, `xs1` to
    `acc4_0 … xs0`, `acc4_1 … xs1`, and the two statistics outputs, found at anything, end holding the same. -/
theorem sound_kernel4_C (c : Dev nD) (E : Set ℕ) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬cond4_0 i) (hc1 : cond4_1 i) (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h4 x0 x1 x2 x3 x4 x5) ∗ owns (c : Thread nD τ) arg8 fullShare (acc4_0 x0 x1 x2 x3 x4 x5 xs0) ∗ owns (c : Thread nD τ) arg9 fullShare (acc4_1 x0 x1 x2 x3 x4 x5 xs1)
            ∗ owns (c : Thread nD τ) arg10 fullShare (acc4_0 x0 x1 x2 x3 x4 x5 xs0) ∗ owns (c : Thread nD τ) arg11 fullShare (acc4_1 x0 x1 x2 x3 x4 x5 xs1)) -∗ K ⟨⟩))
      ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10 arg11 harg11) K := by
  simp only [cc4__mlp_stats_kernel_eq_skeleton]; unfold cc4__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
  subst hf0; subst hf1; subst hf2; subst hf3; subst hf4; subst hf5; subst hfs0; subst hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists _; isplitr
    swap
    · iexact H7
    ipureintro; sl_unfold_words
    rw [mlp_read_store_whole _ _ mlp_hz]
    simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H8]
  · iexists _; isplitr
    swap
    · iexact H8
    ipureintro; sl_unfold_words
    rw [mlp_read_store_whole _ _ mlp_hz]
    simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [HS0]
  · iexists _; isplitr
    swap
    · iexact HS0
    ipureintro; sl_unfold_words
    rw [mlp_read_store_whole _ _ mlp_hz]
    simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h4, acc4_0, acc4_1, View.readAt_eq_ld, View.ld_unit_zero (S := S5000x128) mlp_hz, View.ld_unit_zero (S := S128x128) mlp_hz, View.ld_unit_zero (S := S1x128) mlp_hz, View.readCov_unit_zero (S := S1x128) _ mlp_hz]

end Cert.KernelIdeal.Reg

end
-- ==== Proof.KernelIdeal.Mlp4.lean ====
import proofs.«139862_j28269474742473_1_alg».proof.Proof.KernelIdeal.Mlp4Run

/-! # The MLP region of layer 2 (custom_call 4) at a parameter `V`: proof data, body obligation, entry and exit

The grid has ten points, one per block of 5000 rows. The two scratch accumulators are carried from point to
point: after point `n` they hold the column sums (and the column sums of squares) of the MLP's output over the
row blocks `0 … n` (`accAt4`, a fold of the body's payloads over the input blocks). The region invariant is the
class's before the first point (both accumulators at anything) and afterwards names the accumulators' contents.
Output window 6 receives the MLP's block at every point; windows 7 and 8 are idle up to the last point, where
they receive the accumulators. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The accumulators, point by point -/

/-- What the two scratch accumulators hold after the body at position `n`: zero plus the column sums (of the
    squares) of the MLP's blocks `0 … n`, as the fold of the body's payloads. -/
def accAt4 (c : Dev nD) : (n : ℕ) → n < cfg4.N → Vec F S1x128 .f32 × Vec F S1x128 .f32
  | 0, hn => (acc4_0 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) k4_pay3, acc4_1 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) k4_pay4)
  | n + 1, hn => (acc4_0 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (accAt4 c n (Nat.lt_of_succ_lt hn)).1, acc4_1 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (accAt4 c n (Nat.lt_of_succ_lt hn)).2)

/-- At the first point: over the zeroed accumulators. -/
theorem accAt4_zero (c : Dev nD) (t : Fin cfg4.N) (h : t.val = 0) :
    accAt4 V c t.val t.isLt = (acc4_0 (iblk4 V c 0 t) (iblk4 V c 1 t) (iblk4 V c 2 t) (iblk4 V c 3 t) (iblk4 V c 4 t) (iblk4 V c 5 t) k4_pay3, acc4_1 (iblk4 V c 0 t) (iblk4 V c 1 t) (iblk4 V c 2 t) (iblk4 V c 3 t) (iblk4 V c 4 t) (iblk4 V c 5 t) k4_pay4) := by
  obtain ⟨n, hn⟩ := t
  cases n with
  | zero => rfl
  | succ n => exact absurd h (Nat.succ_ne_zero n)

/-- At a later point: over what the point before left. -/
theorem accAt4_pos (c : Dev nD) (t : Fin cfg4.N) (h : t.val ≠ 0) :
    accAt4 V c t.val t.isLt = (acc4_0 (iblk4 V c 0 t) (iblk4 V c 1 t) (iblk4 V c 2 t) (iblk4 V c 3 t) (iblk4 V c 4 t) (iblk4 V c 5 t) (accAt4 V c (t.val - 1) (Nat.lt_of_le_of_lt (Nat.sub_le _ _) t.isLt)).1, acc4_1 (iblk4 V c 0 t) (iblk4 V c 1 t) (iblk4 V c 2 t) (iblk4 V c 3 t) (iblk4 V c 4 t) (iblk4 V c 5 t) (accAt4 V c (t.val - 1) (Nat.lt_of_le_of_lt (Nat.sub_le _ _) t.isLt)).2) := by
  obtain ⟨n, hn⟩ := t
  cases n with
  | zero => exact absurd rfl h
  | succ n => rfl

/-! ## The region invariant -/

/-- Before position `n`: the class's invariant before the first point; afterwards the two accumulators at what the
    point before left, the other scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (accAt4 V c n hn).1 ∗ owns (c : Thread nD τ) scM4_1 fullShare (accAt4 V c n hn).2) ∗ rest4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (accAt4 V c n hn).1 ∗ owns (c : Thread nD τ) scM4_1 fullShare (accAt4 V c n hn).2) ∗ rest4 c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (accAt4 V c (n - 1) (by omega)).1 ∗ owns (c : Thread nD τ) scM4_1 fullShare (accAt4 V c (n - 1) (by omega)).2) ∗ rest4 c) ∗ (∃ r, prngReg c r)) := by
  cases n with
  | zero => exact absurd rfl hz
  | succ n => rfl

/-! ## The proof data -/

/-- The proof data of the region on core `c`: the arrays as the region finds them (`V`); after the body at point `t` each
    input's buffer at its block, output 6's at the MLP's block, outputs 7 and 8's at the accumulators; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => h4 (iblk4 V c 0 t) (iblk4 V c 1 t) (iblk4 V c 2 t) (iblk4 V c 3 t) (iblk4 V c 4 t) (iblk4 V c 5 t)
    | ⟨7, _⟩ => (accAt4 V c t.val t.isLt).1
    | ⟨8, _⟩ => (accAt4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
/-- Output 6 after point `t`: the MLP's block of the six input blocks there. -/
theorem after4_6 (c : Dev nD) (t : Fin cfg4.N) : (dat4 V c).after 6 t = h4 (iblk4 V c 0 t) (iblk4 V c 1 t) (iblk4 V c 2 t) (iblk4 V c 3 t) (iblk4 V c 4 t) (iblk4 V c 5 t) := by dsimp only [dat4]
/-- Outputs 7 and 8 after point `t` (read at the last point only): the two accumulators there. -/
theorem after4_7 (c : Dev nD) (t : Fin cfg4.N) : (dat4 V c).after 7 t = (accAt4 V c t.val t.isLt).1 := by dsimp only [dat4]
theorem after4_8 (c : Dev nD) (t : Fin cfg4.N) : (dat4 V c).after 8 t = (accAt4 V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t
    ∗ (dat4 V c).leavesExact 3 t ∗ (dat4 V c).leavesExact 4 t ∗ (dat4 V c).leavesExact 5 t
    ∗ (dat4 V c).leavesExact 6 t ∗ (dat4 V c).leavesExact 7 t ∗ (dat4 V c).leavesExact 8 t)

set_option maxHeartbeats 4800000 in
/-- The body at any point: the inputs' memrefs hold their blocks; the closed forms of the two conditions say which of
    the three cases the point is in; the invariant hands the body the accumulators (at anything at the first point, at
    what the point before left afterwards) and takes them back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  rw [show (dat4 V c).leavesExact 6 t = owns (c : Thread nD τ) (ms4_6 t) fullShare ((dat4 V c).after 6 t) from by
    unfold Dat.leavesExact; rw [liveAt4_6 t], after4_6]
  rw [PhiS4_castSucc V c t]
  by_cases h9 : t.val = 9
  · have hz : t.val ≠ 0 := by omega
    rw [show (dat4 V c).leavesExact 7 t = owns (c : Thread nD τ) (ms4_7 t) fullShare ((dat4 V c).after 7 t) from by
      unfold Dat.leavesExact; rw [liveAt4_7 t ((hcond4_1 t).mpr h9)], after4_7]
    rw [show (dat4 V c).leavesExact 8 t = owns (c : Thread nD τ) (ms4_8 t) fullShare ((dat4 V c).after 8 t) from by
      unfold Dat.leavesExact; rw [liveAt4_8 t ((hcond4_1 t).mpr h9)], after4_8]
    rw [accAt4_pos V c t hz, PhiS4_pos V c _ _ hz]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel4_C c Set.univ (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => hz ((hcond4_0 t).mp h)) ((hcond4_1 t).mpr h9) (iblk4 V c 0 t) (iblk4 V c 1 t) (iblk4 V c 2 t) (iblk4 V c 3 t) (iblk4 V c 4 t) (iblk4 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dat4 V c) 7 t (idleAt4_7 t (fun h => h9 ((hcond4_1 t).mp h))) (noFlush4_7 t (fun h => h9 ((hcond4_1 t).mp h)))]
    rw [Dat.leavesExact_idle (dat4 V c) 8 t (idleAt4_8 t (fun h => h9 ((hcond4_1 t).mp h))) (noFlush4_8 t (fun h => h9 ((hcond4_1 t).mp h)))]
    by_cases hz : t.val = 0
    · rw [accAt4_zero V c t hz, PhiS4_zero V c _ _ hz, PhiA4_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel4_A c Set.univ (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr hz) (fun h => h9 ((hcond4_1 t).mp h)) (iblk4 V c 0 t) (iblk4 V c 1 t) (iblk4 V c 2 t) (iblk4 V c 3 t) (iblk4 V c 4 t) (iblk4 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [accAt4_pos V c t hz, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel4_B c Set.univ (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => hz ((hcond4_0 t).mp h)) (fun h => h9 ((hcond4_1 t).mp h)) (iblk4 V c 0 t) (iblk4 V c 1 t) (iblk4 V c 2 t) (iblk4 V c 3 t) (iblk4 V c 4 t) (iblk4 V c 5 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Entry and exit -/

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives the class's back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 10 := N_4; omega)

end Region

end Cert.KernelIdeal.Reg

end
-- ==== Proof.KernelIdeal.Bn5.lean ====
/- Region 5 of @main: the batch-norm apply kernel `cc5__bn_apply_kernel`, at the contents `V` the region is
   entered at. On a grid of 10 row tiles it writes, tile by tile,
   `out = (h_pre − mean) · inv_std · gamma + beta`: window 0 is the tile of `h_pre`, windows 1–4 the four
   `[1,128]` rows (whole, the same block at every point), window 5 the tile of the output.
   Stated here: each window's block at a point, what the body leaves in the output's buffer (one store of the whole
   tile, a pure function of the five blocks read), the body's triple, the pipeline's proof data `dat5` and its body
   obligation. Everything is generic in the float instance `F`. -/
import proofs.«139862_j28269474742473_1_alg».proof.Proof.Gen.KernelIdeal.Launch
import proofs.«139862_j28269474742473_1_alg».proof.Proof.Gen.KernelIdeal.Skeleton
import proofs.«139862_j28269474742473_1_alg».proof.Proof.Gen.KernelIdeal.Points
import Idealize.ShloMosaic.Lib.Pipeline.FrameBody
import Idealize.ShloMosaic.Lib.Ring
import Idealize.ShloMosaic.Lib.Tactic

-- membership in a rectangle of 5000 rows: the elaborator recurses once per coordinate of the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: unfetched, the block index has not moved
    (the window is uncut and never idle). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place: unfetched, the block index has not moved
    (the window is uncut and never idle). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place: unfetched, the block index has not moved
    (the window is uncut and never idle). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s and whose body leaves the block in place: unfetched, the block index has not moved
    (the window is uncut and never idle). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s and whose body leaves the block in place: unfetched, the block index has not moved
    (the window is uncut and never idle). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: the whole tile, the whole row -/

abbrev tile5 : Rect S5000x128 := Rect.unit (s := S5000x128) ![0, 0] S5000x128.size inb_S5000x128_S5000x128_0_0
abbrev row5 : Rect S1x128 := Rect.unit (s := S1x128) ![0, 0] S1x128.size inb_S1x128_S1x128_0_0

/-! ## What the body leaves in the output window's buffer -/

/-- Window 5's staging buffer after the body, from the input windows' blocks: its one store, of the whole tile. -/
def out5_5 (x0 : Vec F S5000x128 .f32) (x1 : Vec F S1x128 .f32) (x2 : Vec F S1x128 .f32) (x3 : Vec F S1x128 .f32) (x4 : Vec F S1x128 .f32) : Vec F S5000x128 .f32 :=
  View.canon [⟨tile5, k5_pay1 (View.ld x0 tile5) (View.ld x1 row5) (View.ld x2 row5) (View.ld x3 row5) (View.ld x4 row5)⟩]

/-- The one store covers the buffer. -/
theorem cover5_5 (p0 : Vec F S5000x128 .f32) (y : S5000x128.Idx) :
    ∃ pc ∈ ([⟨tile5, p0⟩] : List (View.Piece (Elt F) S5000x128 .f32)), y ∈ pc.1.set :=
  View.cover_of_tiled [⟨tile5, p0⟩] S5000x128.size (by rfl) y

/-! ## The body's triple -/

set_option maxHeartbeats 1000000 in
/-- The kernel body on whole staging memrefs, the inputs' at read contents `xW` and the output's at anything, runs to
    the continuation holding the inputs' as they were and the output's at `out5_5` of the inputs'. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_apply_kernel i arg1 harg1 arg2 harg2 arg3 harg3 arg4 harg4 arg5 harg5 arg6 harg6) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at point
    `t` each input's buffer at its block and the output's at `out5_5` of the input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- The invariant is the same at every point: the scoped rest and the generator register. -/
theorem Φ_eq5 (c : Dev nD) (t : Fin (cfg5.N + 1)) : (dat5 V c).Φ t = Pipeline.ΦA spec5 c := rfl
theorem hin5 (c : Dev nD) : Pipeline.ΦA spec5 c ⊢ (dat5 V c).Φ 0 := .rfl
theorem hout5 (c : Dev nD) : (dat5 V c).Φ (Fin.last cfg5.N) ⊢ Pipeline.ΦA spec5 c := .rfl
theorem q_eq5 (c : Dev nD) (w : Fin cfg5.W) : (dat5 V c).q w = fullShare := rfl
theorem owed_eq5 (c : Dev nD) (t : Fin (cfg5.N + 1)) : (dat5 V c).owed t = 0 := rfl

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Reg

end
-- ==== Proof.KernelIdeal.Mlp6Base.lean ====
import proofs.«139862_j28269474742473_1_alg».proof.Proof.Gen.KernelIdeal.Launch
import proofs.«139862_j28269474742473_1_alg».proof.Proof.Gen.KernelIdeal.Skeleton
import proofs.«139862_j28269474742473_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! # The MLP region of layer 3 (custom_call 6): what its runs share

The body of the MLP kernel has two conditionals on the grid coordinate: the first holds at the grid's first
point only (there the two scratch accumulators are zeroed), the second at the last point only (there the
accumulators are copied to the two statistics outputs). Here: the conditions in closed form, where the
statistics windows are idle, the staging memrefs and the scratch memrefs, the class invariant with the two
scratch buffers split off, and the blocks of the input windows at a parameter `V` (the contents the region
is entered at). -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional: the grid coordinate is 0. -/
abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val = 0 :=
  (by decide +kernel : ∀ t : Fin grid6.N, cond6_0 (grid6.coords t) ↔ t.val = 0)

/-- The second conditional: the grid coordinate is 9. -/
abbrev cond6_1 (i : grid6.Coords) : Prop := k6_cond2 i = 1#1
/-- It holds at the last point only. -/
theorem hcond6_1 : ∀ t : Fin cfg6.N, cond6_1 (grid6.coords t) ↔ t.val = 9 :=
  (by decide +kernel : ∀ t : Fin grid6.N, cond6_1 (grid6.coords t) ↔ t.val = 9)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cfg6.idle 4 (grid6.coords t) = false := by decide +kernel
theorem liveAt6_5 : ∀ t : Fin cfg6.N, cfg6.idle 5 (grid6.coords t) = false := by decide +kernel
theorem liveAt6_6 : ∀ t : Fin cfg6.N, cfg6.idle 6 (grid6.coords t) = false := by decide +kernel
/-- Away from the last point the statistics windows are idle and not written back; at the last point live. -/
theorem idleAt6_7 : ∀ t : Fin cfg6.N, ¬cond6_1 (grid6.coords t) → cfg6.idle 7 (grid6.coords t) = true := by decide +kernel
theorem noFlush6_7 : ∀ t : Fin cfg6.N, ¬cond6_1 (grid6.coords t) → (cfg6.win 7).flush t = false := by decide +kernel
theorem liveAt6_7 : ∀ t : Fin cfg6.N, cond6_1 (grid6.coords t) → cfg6.idle 7 (grid6.coords t) = false := by decide +kernel
theorem idleAt6_8 : ∀ t : Fin cfg6.N, ¬cond6_1 (grid6.coords t) → cfg6.idle 8 (grid6.coords t) = true := by decide +kernel
theorem noFlush6_8 : ∀ t : Fin cfg6.N, ¬cond6_1 (grid6.coords t) → (cfg6.win 8).flush t = false := by decide +kernel
theorem liveAt6_8 : ∀ t : Fin cfg6.N, cond6_1 (grid6.coords t) → cfg6.idle 8 (grid6.coords t) = false := by decide +kernel

/-! ## The staging memrefs and the scratch -/

abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S128x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S5000x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x128 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S1x128 .f32 := win6_8.stage (cfg6.slots t 8)
abbrev hs6_8 (t : Fin cfg6.N) : (ms6_8 t).IsWhole := hstage6_8 ((cfg6.slots t 8).cast nbuf6_8)
/-- The two scratch accumulators (column sums, column sums of squares), whole. -/
abbrev scM6_0 : Memref sig .tc .vmem S1x128 .f32 := Memref.whole cc6_scratch0
abbrev scM6_1 : Memref sig .tc .vmem S1x128 .f32 := Memref.whole cc6_scratch1

/-- The rest of the scoped buffers once the two accumulators are taken out. -/
abbrev rest6 (c : Dev nD) : sProp 𝕄 :=
  Pipeline.scopedRestBut (Ix := Unit) (Name := ℕ) (U := UR sig nD τ) (Lvl := ℕ) (Val := Elt F) spec6 c [cc6_scratch0, cc6_scratch1]

/-- The class invariant with the two accumulators owned at some contents, the other scoped buffers unopened. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ rest6 c) ∗ (∃ r, prngReg c r)) := by
  unfold Pipeline.ΦA; rw [scopedRest6_split]; simp only [scM6_0, scM6_1, owns_whole]; try rfl

/-! ## The windows' blocks, at the contents `V` the region is entered at -/

section Blocks
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not, for any proof data
    whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

end Blocks

end Cert.KernelIdeal.Reg

end
-- ==== Proof.KernelIdeal.Mlp6Run.lean ====
import proofs.«139862_j28269474742473_1_alg».proof.Proof.KernelIdeal.Mlp6Base
import proofs.«139862_j28269474742473_1_alg».proof.Proof.KernelIdeal.Mlp0Run
import Idealize.ShloMosaic.Lib.Pipeline.Value

/-! # The MLP region of layer 3: the body's run in each of its three control cases

The body loads the two row blocks and the four weight arrays, stores the block of the MLP's output (every
store of this kernel covers its whole buffer), and adds the block's column sums and column sums of squares
onto the two scratch accumulators; at the first point it zeroes the accumulators first, at the last point it
copies them to the two statistics outputs. Each case is one triple over whole staging memrefs, its post stated
through the skeleton's payloads. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of the MLP's output from the six input blocks: relu(relu((h + agg)·W1 + b1)·W2 + b2). -/
def h6 (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 := k6_pay5 x0 x1 x2 x3 x4 x5
/-- The first accumulator after a point: the block's column sums added onto what it held. -/
def acc6_0 (x0 : Vec F S5000x128 .f32) (x1 : Vec F S5000x128 .f32) (x2 : Vec F S128x128 .f32) (x3 : Vec F S1x128 .f32) (x4 : Vec F S128x128 .f32) (x5 : Vec F S1x128 .f32) (s0 : Vec F S1x128 .f32) : Vec F S1x128 .f32 := k6_pay1 s0 (k6_pay6 x0 x1 x2 x3 x4 x5)
/-- The second accumulator after a point: the column sums of the block's squares added onto what it held. -/
def acc6_1 (x0 : Vec F S5000x128 .f32) (x1 : Vec F S5000x128 .f32) (x2 : Vec F S128x128 .f32) (x3 : Vec F S1x128 .f32) (x4 : Vec F S128x128 .f32) (x5 : Vec F S1x128 .f32) (s1 : Vec F S1x128 .f32) : Vec F S1x128 .f32 := k6_pay2 (k6_pay5 x0 x1 x2 x3 x4 x5) s1

set_option maxHeartbeats 4000000 in
/-- The first point: the first conditional taken (the accumulators, found at anything, are zeroed), the second not. The
    statistics outputs are handed back untouched; the accumulators end at `acc6_0 … 0`, `acc6_1 … 0`. -/
theorem sound_kernel6_A (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : cond6_0 i) (hc1 : ¬cond6_1 i) (x0 : Vec F S5000x128 .f32) (x1 : Vec F S5000x128 .f32) (x2 : Vec F S128x128 .f32) (x3 : Vec F S1x128 .f32) (x4 : Vec F S128x128 .f32) (x5 : Vec F S1x128 .f32) (xi7 xi8 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xi8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h6 x0 x1 x2 x3 x4 x5) ∗ owns (c : Thread nD τ) arg8 fullShare xi7 ∗ owns (c : Thread nD τ) arg9 fullShare xi8
            ∗ owns (c : Thread nD τ) arg10 fullShare (acc6_0 x0 x1 x2 x3 x4 x5 k6_pay3) ∗ owns (c : Thread nD τ) arg11 fullShare (acc6_1 x0 x1 x2 x3 x4 x5 k6_pay4)) -∗ K ⟨⟩))
      ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10 arg11 harg11) K := by
  simp only [cc6__mlp_stats_kernel_eq_skeleton]; unfold cc6__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
  subst hf0; subst hf1; subst hf2; subst hf3; subst hf4; subst hf5; subst hf7; subst hf8
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists f7; isplitr
    · ipureintro; rfl
    iexact H7
  isplitl [H8]
  · iexists f8; isplitr
    · ipureintro; rfl
    iexact H8
  isplitl [HS0]
  · iexists _; isplitr
    swap
    · iexact HS0
    ipureintro; sl_unfold_words
    rw [mlp_read_store_whole _ _ mlp_hz]
    simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]

set_option maxHeartbeats 4000000 in
/-- A middle point: neither conditional taken. The statistics outputs are handed back untouched; the accumulators go from
    `xs0`, `xs1` to `acc6_0 … xs0`, `acc6_1 … xs1`. -/
theorem sound_kernel6_B (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬cond6_0 i) (hc1 : ¬cond6_1 i) (x0 : Vec F S5000x128 .f32) (x1 : Vec F S5000x128 .f32) (x2 : Vec F S128x128 .f32) (x3 : Vec F S1x128 .f32) (x4 : Vec F S128x128 .f32) (x5 : Vec F S1x128 .f32) (xi7 xi8 xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xi8
        ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h6 x0 x1 x2 x3 x4 x5) ∗ owns (c : Thread nD τ) arg8 fullShare xi7 ∗ owns (c : Thread nD τ) arg9 fullShare xi8
            ∗ owns (c : Thread nD τ) arg10 fullShare (acc6_0 x0 x1 x2 x3 x4 x5 xs0) ∗ owns (c : Thread nD τ) arg11 fullShare (acc6_1 x0 x1 x2 x3 x4 x5 xs1)) -∗ K ⟨⟩))
      ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10 arg11 harg11) K := by
  simp only [cc6__mlp_stats_kernel_eq_skeleton]; unfold cc6__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
  subst hf0; subst hf1; subst hf2; subst hf3; subst hf4; subst hf5; subst hf7; subst hf8; subst hfs0; subst hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists f7; isplitr
    · ipureintro; rfl
    iexact H7
  isplitl [H8]
  · iexists f8; isplitr
    · ipureintro; rfl
    iexact H8
  isplitl [HS0]
  · iexists _; isplitr
    swap
    · iexact HS0
    ipureintro; sl_unfold_words
    rw [mlp_read_store_whole _ _ mlp_hz]
    simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]

set_option maxHeartbeats 4000000 in
/-- The last point: the first conditional not taken, the second taken. The accumulators go from `xs0`, `xs1` to
    `acc6_0 … xs0`, `acc6_1 … xs1`, and the two statistics outputs, found at anything, end holding the same. -/
theorem sound_kernel6_C (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬cond6_0 i) (hc1 : cond6_1 i) (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h6 x0 x1 x2 x3 x4 x5) ∗ owns (c : Thread nD τ) arg8 fullShare (acc6_0 x0 x1 x2 x3 x4 x5 xs0) ∗ owns (c : Thread nD τ) arg9 fullShare (acc6_1 x0 x1 x2 x3 x4 x5 xs1)
            ∗ owns (c : Thread nD τ) arg10 fullShare (acc6_0 x0 x1 x2 x3 x4 x5 xs0) ∗ owns (c : Thread nD τ) arg11 fullShare (acc6_1 x0 x1 x2 x3 x4 x5 xs1)) -∗ K ⟨⟩))
      ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10 arg11 harg11) K := by
  simp only [cc6__mlp_stats_kernel_eq_skeleton]; unfold cc6__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
  subst hf0; subst hf1; subst hf2; subst hf3; subst hf4; subst hf5; subst hfs0; subst hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists _; isplitr
    swap
    · iexact H7
    ipureintro; sl_unfold_words
    rw [mlp_read_store_whole _ _ mlp_hz]
    simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H8]
  · iexists _; isplitr
    swap
    · iexact H8
    ipureintro; sl_unfold_words
    rw [mlp_read_store_whole _ _ mlp_hz]
    simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [HS0]
  · iexists _; isplitr
    swap
    · iexact HS0
    ipureintro; sl_unfold_words
    rw [mlp_read_store_whole _ _ mlp_hz]
    simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h6, acc6_0, acc6_1, View.readAt_eq_ld, View.ld_unit_zero (S := S5000x128) mlp_hz, View.ld_unit_zero (S := S128x128) mlp_hz, View.ld_unit_zero (S := S1x128) mlp_hz, View.readCov_unit_zero (S := S1x128) _ mlp_hz]

end Cert.KernelIdeal.Reg

end
-- ==== Proof.KernelIdeal.Mlp6.lean ====
import proofs.«139862_j28269474742473_1_alg».proof.Proof.KernelIdeal.Mlp6Run

/-! # The MLP region of layer 3 (custom_call 6) at a parameter `V`: proof data, body obligation, entry and exit

The grid has ten points, one per block of 5000 rows. The two scratch accumulators are carried from point to
point: after point `n` they hold the column sums (and the column sums of squares) of the MLP's output over the
row blocks `0 … n` (`accAt6`, a fold of the body's payloads over the input blocks). The region invariant is the
class's before the first point (both accumulators at anything) and afterwards names the accumulators' contents.
Output window 6 receives the MLP's block at every point; windows 7 and 8 are idle up to the last point, where
they receive the accumulators. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The accumulators, point by point -/

/-- What the two scratch accumulators hold after the body at position `n`: zero plus the column sums (of the
    squares) of the MLP's blocks `0 … n`, as the fold of the body's payloads. -/
def accAt6 (c : Dev nD) : (n : ℕ) → n < cfg6.N → Vec F S1x128 .f32 × Vec F S1x128 .f32
  | 0, hn => (acc6_0 (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) k6_pay3, acc6_1 (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) k6_pay4)
  | n + 1, hn => (acc6_0 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (accAt6 c n (Nat.lt_of_succ_lt hn)).1, acc6_1 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (accAt6 c n (Nat.lt_of_succ_lt hn)).2)

/-- At the first point: over the zeroed accumulators. -/
theorem accAt6_zero (c : Dev nD) (t : Fin cfg6.N) (h : t.val = 0) :
    accAt6 V c t.val t.isLt = (acc6_0 (iblk6 V c 0 t) (iblk6 V c 1 t) (iblk6 V c 2 t) (iblk6 V c 3 t) (iblk6 V c 4 t) (iblk6 V c 5 t) k6_pay3, acc6_1 (iblk6 V c 0 t) (iblk6 V c 1 t) (iblk6 V c 2 t) (iblk6 V c 3 t) (iblk6 V c 4 t) (iblk6 V c 5 t) k6_pay4) := by
  obtain ⟨n, hn⟩ := t
  cases n with
  | zero => rfl
  | succ n => exact absurd h (Nat.succ_ne_zero n)

/-- At a later point: over what the point before left. -/
theorem accAt6_pos (c : Dev nD) (t : Fin cfg6.N) (h : t.val ≠ 0) :
    accAt6 V c t.val t.isLt = (acc6_0 (iblk6 V c 0 t) (iblk6 V c 1 t) (iblk6 V c 2 t) (iblk6 V c 3 t) (iblk6 V c 4 t) (iblk6 V c 5 t) (accAt6 V c (t.val - 1) (Nat.lt_of_le_of_lt (Nat.sub_le _ _) t.isLt)).1, acc6_1 (iblk6 V c 0 t) (iblk6 V c 1 t) (iblk6 V c 2 t) (iblk6 V c 3 t) (iblk6 V c 4 t) (iblk6 V c 5 t) (accAt6 V c (t.val - 1) (Nat.lt_of_le_of_lt (Nat.sub_le _ _) t.isLt)).2) := by
  obtain ⟨n, hn⟩ := t
  cases n with
  | zero => exact absurd rfl h
  | succ n => rfl

/-! ## The region invariant -/

/-- Before position `n`: the class's invariant before the first point; afterwards the two accumulators at what the
    point before left, the other scoped buffers unopened, the generator register at some state. -/
def PhiS6 (c : Dev nD) : (n : ℕ) → n ≤ cfg6.N → sProp 𝕄
  | 0, _ => Pipeline.ΦA spec6 c
  | n + 1, hn => iprop(iprop(iprop(owns (c : Thread nD τ) scM6_0 fullShare (accAt6 V c n hn).1 ∗ owns (c : Thread nD τ) scM6_1 fullShare (accAt6 V c n hn).2) ∗ rest6 c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (accAt6 V c n hn).1 ∗ owns (c : Thread nD τ) scM6_1 fullShare (accAt6 V c n hn).2) ∗ rest6 c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (accAt6 V c (n - 1) (by omega)).1 ∗ owns (c : Thread nD τ) scM6_1 fullShare (accAt6 V c (n - 1) (by omega)).2) ∗ rest6 c) ∗ (∃ r, prngReg c r)) := by
  cases n with
  | zero => exact absurd rfl hz
  | succ n => rfl

/-! ## The proof data -/

/-- The proof data of the region on core `c`: the arrays as the region finds them (`V`); after the body at point `t` each
    input's buffer at its block, output 6's at the MLP's block, outputs 7 and 8's at the accumulators; nothing owed;
    full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => h6 (iblk6 V c 0 t) (iblk6 V c 1 t) (iblk6 V c 2 t) (iblk6 V c 3 t) (iblk6 V c 4 t) (iblk6 V c 5 t)
    | ⟨7, _⟩ => (accAt6 V c t.val t.isLt).1
    | ⟨8, _⟩ => (accAt6 V c t.val t.isLt).2
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
/-- Output 6 after point `t`: the MLP's block of the six input blocks there. -/
theorem after6_6 (c : Dev nD) (t : Fin cfg6.N) : (dat6 V c).after 6 t = h6 (iblk6 V c 0 t) (iblk6 V c 1 t) (iblk6 V c 2 t) (iblk6 V c 3 t) (iblk6 V c 4 t) (iblk6 V c 5 t) := by dsimp only [dat6]
/-- Outputs 7 and 8 after point `t` (read at the last point only): the two accumulators there. -/
theorem after6_7 (c : Dev nD) (t : Fin cfg6.N) : (dat6 V c).after 7 t = (accAt6 V c t.val t.isLt).1 := by dsimp only [dat6]
theorem after6_8 (c : Dev nD) (t : Fin cfg6.N) : (dat6 V c).after 8 t = (accAt6 V c t.val t.isLt).2 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d)))

/-- and what it returns. -/
def bodyPost6 (c : Dev nD) (t : Fin cfg6.N) : sProp 𝕄 :=
  iprop((dat6 V c).Φ t.succ ∗ (dat6 V c).owesAt () t.succ
    ∗ (dat6 V c).leavesExact 0 t ∗ (dat6 V c).leavesExact 1 t ∗ (dat6 V c).leavesExact 2 t
    ∗ (dat6 V c).leavesExact 3 t ∗ (dat6 V c).leavesExact 4 t ∗ (dat6 V c).leavesExact 5 t
    ∗ (dat6 V c).leavesExact 6 t ∗ (dat6 V c).leavesExact 7 t ∗ (dat6 V c).leavesExact 8 t)

set_option maxHeartbeats 4800000 in
/-- The body at any point: the inputs' memrefs hold their blocks; the closed forms of the two conditions say which of
    the three cases the point is in; the invariant hands the body the accumulators (at anything at the first point, at
    what the point before left afterwards) and takes them back at this point's contents. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).owesAt () t.succ = (dat6 V c).owesAt () t.castSucc from rfl]
  rw [show (dat6 V c).Φ t.succ = PhiS6 V c (t.val + 1) t.isLt from rfl, PhiS6_succ]
  have hN : t.val < 10 := lt_of_lt_of_eq t.isLt (show cfg6.N = 10 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  rw [show (dat6 V c).leavesExact 4 t = owns (c : Thread nD τ) (ms6_4 t) fullShare ((dat6 V c).after 4 t) from by
    unfold Dat.leavesExact; rw [liveAt6_4 t], after6_4]
  rw [show (dat6 V c).leavesExact 5 t = owns (c : Thread nD τ) (ms6_5 t) fullShare ((dat6 V c).after 5 t) from by
    unfold Dat.leavesExact; rw [liveAt6_5 t], after6_5]
  rw [show (dat6 V c).leavesExact 6 t = owns (c : Thread nD τ) (ms6_6 t) fullShare ((dat6 V c).after 6 t) from by
    unfold Dat.leavesExact; rw [liveAt6_6 t], after6_6]
  rw [PhiS6_castSucc V c t]
  by_cases h9 : t.val = 9
  · have hz : t.val ≠ 0 := by omega
    rw [show (dat6 V c).leavesExact 7 t = owns (c : Thread nD τ) (ms6_7 t) fullShare ((dat6 V c).after 7 t) from by
      unfold Dat.leavesExact; rw [liveAt6_7 t ((hcond6_1 t).mpr h9)], after6_7]
    rw [show (dat6 V c).leavesExact 8 t = owns (c : Thread nD τ) (ms6_8 t) fullShare ((dat6 V c).after 8 t) from by
      unfold Dat.leavesExact; rw [liveAt6_8 t ((hcond6_1 t).mpr h9)], after6_8]
    rw [accAt6_pos V c t hz, PhiS6_pos V c _ _ hz]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel6_C c Set.univ (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => hz ((hcond6_0 t).mp h)) ((hcond6_1 t).mpr h9) (iblk6 V c 0 t) (iblk6 V c 1 t) (iblk6 V c 2 t) (iblk6 V c 3 t) (iblk6 V c 4 t) (iblk6 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dat6 V c) 7 t (idleAt6_7 t (fun h => h9 ((hcond6_1 t).mp h))) (noFlush6_7 t (fun h => h9 ((hcond6_1 t).mp h)))]
    rw [Dat.leavesExact_idle (dat6 V c) 8 t (idleAt6_8 t (fun h => h9 ((hcond6_1 t).mp h))) (noFlush6_8 t (fun h => h9 ((hcond6_1 t).mp h)))]
    by_cases hz : t.val = 0
    · rw [accAt6_zero V c t hz, PhiS6_zero V c _ _ hz, PhiA6_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel6_A c Set.univ (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr hz) (fun h => h9 ((hcond6_1 t).mp h)) (iblk6 V c 0 t) (iblk6 V c 1 t) (iblk6 V c 2 t) (iblk6 V c 3 t) (iblk6 V c 4 t) (iblk6 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [accAt6_pos V c t hz, PhiS6_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel6_B c Set.univ (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => hz ((hcond6_0 t).mp h)) (fun h => h9 ((hcond6_1 t).mp h)) (iblk6 V c 0 t) (iblk6 V c 1 t) (iblk6 V c 2 t) (iblk6 V c 3 t) (iblk6 V c 4 t) (iblk6 V c 5 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## Entry and exit -/

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point the invariant gives the class's back: the accumulators' named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout6 (c : Dev nD) : (dat6 V c).Φ (Fin.last cfg6.N) ⊢ Pipeline.ΦA spec6 c :=
  Phi_out6 V c _ (by rw [Fin.val_last]; have : cfg6.N = 10 := N_6; omega)

end Region

end Cert.KernelIdeal.Reg

end
-- ==== Proof.KernelIdeal.Bn7.lean ====
/- Region 7 of @main: the batch-norm apply kernel `cc7__bn_apply_kernel`, at the contents `V` the region is
   entered at. On a grid of 10 row tiles it writes, tile by tile,
   `out = (h_pre − mean) · inv_std · gamma + beta`: window 0 is the tile of `h_pre`, windows 1–4 the four
   `[1,128]` rows (whole, the same block at every point), window 5 the tile of the output.
   Stated here: each window's block at a point, what the body leaves in the output's buffer (one store of the whole
   tile, a pure function of the five blocks read), the body's triple, the pipeline's proof data `dat7` and its body
   obligation. Everything is generic in the float instance `F`. -/
import proofs.«139862_j28269474742473_1_alg».proof.Proof.Gen.KernelIdeal.Launch
import proofs.«139862_j28269474742473_1_alg».proof.Proof.Gen.KernelIdeal.Skeleton
import proofs.«139862_j28269474742473_1_alg».proof.Proof.Gen.KernelIdeal.Points
import Idealize.ShloMosaic.Lib.Pipeline.FrameBody
import Idealize.ShloMosaic.Lib.Ring
import Idealize.ShloMosaic.Lib.Tactic

-- membership in a rectangle of 5000 rows: the elaborator recurses once per coordinate of the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s and whose body leaves the block in place: unfetched, the block index has not moved
    (the window is uncut and never idle). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s and whose body leaves the block in place: unfetched, the block index has not moved
    (the window is uncut and never idle). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is `V`'s and whose body leaves the block in place: unfetched, the block index has not moved
    (the window is uncut and never idle). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof
    data whose array is `V`'s and whose body leaves the block in place: unfetched, the block index has not moved
    (the window is uncut and never idle). -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof
    data whose array is `V`'s and whose body leaves the block in place: unfetched, the block index has not moved
    (the window is uncut and never idle). -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: the whole tile, the whole row -/

abbrev tile7 : Rect S5000x128 := Rect.unit (s := S5000x128) ![0, 0] S5000x128.size inb_S5000x128_S5000x128_0_0
abbrev row7 : Rect S1x128 := Rect.unit (s := S1x128) ![0, 0] S1x128.size inb_S1x128_S1x128_0_0

/-! ## What the body leaves in the output window's buffer -/

/-- Window 5's staging buffer after the body, from the input windows' blocks: its one store, of the whole tile. -/
def out7_5 (x0 : Vec F S5000x128 .f32) (x1 : Vec F S1x128 .f32) (x2 : Vec F S1x128 .f32) (x3 : Vec F S1x128 .f32) (x4 : Vec F S1x128 .f32) : Vec F S5000x128 .f32 :=
  View.canon [⟨tile7, k7_pay1 (View.ld x0 tile7) (View.ld x1 row7) (View.ld x2 row7) (View.ld x3 row7) (View.ld x4 row7)⟩]

/-- The one store covers the buffer. -/
theorem cover7_5 (p0 : Vec F S5000x128 .f32) (y : S5000x128.Idx) :
    ∃ pc ∈ ([⟨tile7, p0⟩] : List (View.Piece (Elt F) S5000x128 .f32)), y ∈ pc.1.set :=
  View.cover_of_tiled [⟨tile7, p0⟩] S5000x128.size (by rfl) y

/-! ## The body's triple -/

set_option maxHeartbeats 1000000 in
/-- The kernel body on whole staging memrefs, the inputs' at read contents `xW` and the output's at anything, runs to
    the continuation holding the inputs' as they were and the output's at `out7_5` of the inputs'. -/
theorem sound_kernel7 (c : Dev nD) (E : Set ℕ) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7__bn_apply_kernel i arg1 harg1 arg2 harg2 arg3 harg3 arg4 harg4 arg5 harg5 arg6 harg6) K := by
  simp only [cc7__bn_apply_kernel_eq_skeleton]; unfold cc7__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data of pipeline 7 on core `c`: the arrays as the region finds them (`V`); after the body at point
    `t` each input's buffer at its block and the output's at `out7_5` of the input blocks; the invariant is the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- The invariant is the same at every point: the scoped rest and the generator register. -/
theorem Φ_eq7 (c : Dev nD) (t : Fin (cfg7.N + 1)) : (dat7 V c).Φ t = Pipeline.ΦA spec7 c := rfl
theorem hin7 (c : Dev nD) : Pipeline.ΦA spec7 c ⊢ (dat7 V c).Φ 0 := .rfl
theorem hout7 (c : Dev nD) : (dat7 V c).Φ (Fin.last cfg7.N) ⊢ Pipeline.ΦA spec7 c := .rfl
theorem q_eq7 (c : Dev nD) (w : Fin cfg7.W) : (dat7 V c).q w = fullShare := rfl
theorem owed_eq7 (c : Dev nD) (t : Fin (cfg7.N + 1)) : (dat7 V c).owed t = 0 := rfl

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so the body's triple applies; the invariant and the
    core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Reg

end
-- ==== Proof.KernelIdeal.Mlp8Base.lean ====
import proofs.«139862_j28269474742473_1_alg».proof.Proof.Gen.KernelIdeal.Launch
import proofs.«139862_j28269474742473_1_alg».proof.Proof.Gen.KernelIdeal.Skeleton
import proofs.«139862_j28269474742473_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! # The MLP region of layer 4 (custom_call 8): what its runs share

The body of the MLP kernel has two conditionals on the grid coordinate: the first holds at the grid's first
point only (there the two scratch accumulators are zeroed), the second at the last point only (there the
accumulators are copied to the two statistics outputs). Here: the conditions in closed form, where the
statistics windows are idle, the staging memrefs and the scratch memrefs, the class invariant with the two
scratch buffers split off, and the blocks of the input windows at a parameter `V` (the contents the region
is entered at). -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional: the grid coordinate is 0. -/
abbrev cond8_0 (i : grid8.Coords) : Prop := (Scalar.cmpi .ne (Scalar.extui (Scalar.cmpi .eq (BitVec.ofNat 32 (i 0).val) 0#32)) 0#32) = 1#1
/-- It holds at the first point only. -/
theorem hcond8_0 : ∀ t : Fin cfg8.N, cond8_0 (grid8.coords t) ↔ t.val = 0 :=
  (by decide +kernel : ∀ t : Fin grid8.N, cond8_0 (grid8.coords t) ↔ t.val = 0)

/-- The second conditional: the grid coordinate is 9. -/
abbrev cond8_1 (i : grid8.Coords) : Prop := k8_cond2 i = 1#1
/-- It holds at the last point only. -/
theorem hcond8_1 : ∀ t : Fin cfg8.N, cond8_1 (grid8.coords t) ↔ t.val = 9 :=
  (by decide +kernel : ∀ t : Fin grid8.N, cond8_1 (grid8.coords t) ↔ t.val = 9)

/-! ## Where the windows are idle -/

theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
theorem liveAt8_3 : ∀ t : Fin cfg8.N, cfg8.idle 3 (grid8.coords t) = false := by decide +kernel
theorem liveAt8_4 : ∀ t : Fin cfg8.N, cfg8.idle 4 (grid8.coords t) = false := by decide +kernel
theorem liveAt8_5 : ∀ t : Fin cfg8.N, cfg8.idle 5 (grid8.coords t) = false := by decide +kernel
theorem liveAt8_6 : ∀ t : Fin cfg8.N, cfg8.idle 6 (grid8.coords t) = false := by decide +kernel
/-- Away from the last point the statistics windows are idle and not written back; at the last point live. -/
theorem idleAt8_7 : ∀ t : Fin cfg8.N, ¬cond8_1 (grid8.coords t) → cfg8.idle 7 (grid8.coords t) = true := by decide +kernel
theorem noFlush8_7 : ∀ t : Fin cfg8.N, ¬cond8_1 (grid8.coords t) → (cfg8.win 7).flush t = false := by decide +kernel
theorem liveAt8_7 : ∀ t : Fin cfg8.N, cond8_1 (grid8.coords t) → cfg8.idle 7 (grid8.coords t) = false := by decide +kernel
theorem idleAt8_8 : ∀ t : Fin cfg8.N, ¬cond8_1 (grid8.coords t) → cfg8.idle 8 (grid8.coords t) = true := by decide +kernel
theorem noFlush8_8 : ∀ t : Fin cfg8.N, ¬cond8_1 (grid8.coords t) → (cfg8.win 8).flush t = false := by decide +kernel
theorem liveAt8_8 : ∀ t : Fin cfg8.N, cond8_1 (grid8.coords t) → cfg8.idle 8 (grid8.coords t) = false := by decide +kernel

/-! ## The staging memrefs and the scratch -/

abbrev ms8_0 (t : Fin cfg8.N) : Memref sig .tc .vmem S5000x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S5000x128 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S128x128 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x128 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S128x128 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S1x128 .f32 := win8_5.stage (cfg8.slots t 5)
abbrev hs8_5 (t : Fin cfg8.N) : (ms8_5 t).IsWhole := hstage8_5 ((cfg8.slots t 5).cast nbuf8_5)
abbrev ms8_6 (t : Fin cfg8.N) : Memref sig .tc .vmem S5000x128 .f32 := win8_6.stage (cfg8.slots t 6)
abbrev hs8_6 (t : Fin cfg8.N) : (ms8_6 t).IsWhole := hstage8_6 ((cfg8.slots t 6).cast nbuf8_6)
abbrev ms8_7 (t : Fin cfg8.N) : Memref sig .tc .vmem S1x128 .f32 := win8_7.stage (cfg8.slots t 7)
abbrev hs8_7 (t : Fin cfg8.N) : (ms8_7 t).IsWhole := hstage8_7 ((cfg8.slots t 7).cast nbuf8_7)
abbrev ms8_8 (t : Fin cfg8.N) : Memref sig .tc .vmem S1x128 .f32 := win8_8.stage (cfg8.slots t 8)
abbrev hs8_8 (t : Fin cfg8.N) : (ms8_8 t).IsWhole := hstage8_8 ((cfg8.slots t 8).cast nbuf8_8)
/-- The two scratch accumulators (column sums, column sums of squares), whole. -/
abbrev scM8_0 : Memref sig .tc .vmem S1x128 .f32 := Memref.whole cc8_scratch0
abbrev scM8_1 : Memref sig .tc .vmem S1x128 .f32 := Memref.whole cc8_scratch1

/-- The rest of the scoped buffers once the two accumulators are taken out. -/
abbrev rest8 (c : Dev nD) : sProp 𝕄 :=
  Pipeline.scopedRestBut (Ix := Unit) (Name := ℕ) (U := UR sig nD τ) (Lvl := ℕ) (Val := Elt F) spec8 c [cc8_scratch0, cc8_scratch1]

/-- The class invariant with the two accumulators owned at some contents, the other scoped buffers unopened. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d)) ∗ rest8 c) ∗ (∃ r, prngReg c r)) := by
  unfold Pipeline.ΦA; rw [scopedRest8_split]; simp only [scM8_0, scM8_1, owns_whole]; try rfl

/-! ## The windows' blocks, at the contents `V` the region is entered at -/

section Blocks
variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not, for any proof data
    whose array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

end Blocks

end Cert.KernelIdeal.Reg

end
-- ==== Proof.KernelIdeal.Mlp8Run.lean ====
import proofs.«139862_j28269474742473_1_alg».proof.Proof.KernelIdeal.Mlp8Base
import proofs.«139862_j28269474742473_1_alg».proof.Proof.KernelIdeal.Mlp0Run
import Idealize.ShloMosaic.Lib.Pipeline.Value

/-! # The MLP region of layer 4: the body's run in each of its three control cases

The body loads the two row blocks and the four weight arrays, stores the block of the MLP's output (every
store of this kernel covers its whole buffer), and adds the block's column sums and column sums of squares
onto the two scratch accumulators; at the first point it zeroes the accumulators first, at the last point it
copies them to the two statistics outputs. Each case is one triple over whole staging memrefs, its post stated
through the skeleton's payloads. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of the MLP's output from the six input blocks: relu(relu((h + agg)·W1 + b1)·W2 + b2). -/
def h8 (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 := k8_pay5 x0 x1 x2 x3 x4 x5
/-- The first accumulator after a point: the block's column sums added onto what it held. -/
def acc8_0 (x0 : Vec F S5000x128 .f32) (x1 : Vec F S5000x128 .f32) (x2 : Vec F S128x128 .f32) (x3 : Vec F S1x128 .f32) (x4 : Vec F S128x128 .f32) (x5 : Vec F S1x128 .f32) (s0 : Vec F S1x128 .f32) : Vec F S1x128 .f32 := k8_pay1 s0 (k8_pay6 x0 x1 x2 x3 x4 x5)
/-- The second accumulator after a point: the column sums of the block's squares added onto what it held. -/
def acc8_1 (x0 : Vec F S5000x128 .f32) (x1 : Vec F S5000x128 .f32) (x2 : Vec F S128x128 .f32) (x3 : Vec F S1x128 .f32) (x4 : Vec F S128x128 .f32) (x5 : Vec F S1x128 .f32) (s1 : Vec F S1x128 .f32) : Vec F S1x128 .f32 := k8_pay2 (k8_pay5 x0 x1 x2 x3 x4 x5) s1

set_option maxHeartbeats 4000000 in
/-- The first point: the first conditional taken (the accumulators, found at anything, are zeroed), the second not. The
    statistics outputs are handed back untouched; the accumulators end at `acc8_0 … 0`, `acc8_1 … 0`. -/
theorem sound_kernel8_A (c : Dev nD) (E : Set ℕ) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : cond8_0 i) (hc1 : ¬cond8_1 i) (x0 : Vec F S5000x128 .f32) (x1 : Vec F S5000x128 .f32) (x2 : Vec F S128x128 .f32) (x3 : Vec F S1x128 .f32) (x4 : Vec F S128x128 .f32) (x5 : Vec F S1x128 .f32) (xi7 xi8 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xi8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h8 x0 x1 x2 x3 x4 x5) ∗ owns (c : Thread nD τ) arg8 fullShare xi7 ∗ owns (c : Thread nD τ) arg9 fullShare xi8
            ∗ owns (c : Thread nD τ) arg10 fullShare (acc8_0 x0 x1 x2 x3 x4 x5 k8_pay3) ∗ owns (c : Thread nD τ) arg11 fullShare (acc8_1 x0 x1 x2 x3 x4 x5 k8_pay4)) -∗ K ⟨⟩))
      ⊢ wp frame (wpE (defs₀ (F := F)) Variants.none c none) E (cc8__mlp_stats_kernel i arg1 harg1 arg2 harg2 arg3 harg3 arg4 harg4 arg5 harg5 arg6 harg6 arg7 harg7 arg8 harg8 arg9 harg9 arg10 harg10 arg11 harg11) K := by
  simp only [cc8__mlp_stats_kernel_eq_skeleton]; unfold cc8__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
  subst hf0; subst hf1; subst hf2; subst hf3; subst hf4; subst hf5; subst hf7; subst hf8
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists f7; isplitr
    · ipureintro; rfl
    iexact H7
  isplitl [H8]
  · iexists f8; isplitr
    · ipureintro; rfl
    iexact H8
  isplitl [HS0]
  · iexists _; isplitr
    swap
    · iexact HS0
    ipureintro; sl_unfold_words
    rw [mlp_read_store_whole _ _ mlp_hz]
    simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]

set_option maxHeartbeats 4000000 in
/-- A middle point: neither conditional taken. The statistics outputs are handed back untouched; the accumulators go from
    `xs0`, `xs1` to `acc8_0 … xs0`, `acc8_1 … xs1`. -/
theorem sound_kernel8_B (c : Dev nD) (E : Set ℕ) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬cond8_0 i) (hc1 : ¬cond8_1 i) (x0 : Vec F S5000x128 .f32) (x1 : Vec F S5000x128 .f32) (x2 : Vec F S128x128 .f32) (x3 : Vec F S1x128 .f32) (x4 : Vec F S128x128 .f32) (x5 : Vec F S1x128 .f32) (xi7 xi8 xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xi8
        ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h8 x0 x1 x2 x3 x4 x5) ∗ owns (c : Thread nD τ) arg8 fullShare xi7 ∗ owns (c : Thread nD τ) arg9 fullShare xi8
            ∗ owns (c : Thread nD τ) arg10 fullShare (acc8_0 x0 x1 x2 x3 x4 x5 xs0) ∗ owns (c : Thread nD τ) arg11 fullShare (acc8_1 x0 x1 x2 x3 x4 x5 xs1)) -∗ K ⟨⟩))
      ⊢ wp frame (wpE (defs₀ (F := F)) Variants.none c none) E (cc8__mlp_stats_kernel i arg1 harg1 arg2 harg2 arg3 harg3 arg4 harg4 arg5 harg5 arg6 harg6 arg7 harg7 arg8 harg8 arg9 harg9 arg10 harg10 arg11 harg11) K := by
  simp only [cc8__mlp_stats_kernel_eq_skeleton]; unfold cc8__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
  subst hf0; subst hf1; subst hf2; subst hf3; subst hf4; subst hf5; subst hf7; subst hf8; subst hfs0; subst hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists f7; isplitr
    · ipureintro; rfl
    iexact H7
  isplitl [H8]
  · iexists f8; isplitr
    · ipureintro; rfl
    iexact H8
  isplitl [HS0]
  · iexists _; isplitr
    swap
    · iexact HS0
    ipureintro; sl_unfold_words
    rw [mlp_read_store_whole _ _ mlp_hz]
    simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]

set_option maxHeartbeats 4000000 in
/-- The last point: the first conditional not taken, the second taken. The accumulators go from `xs0`, `xs1` to
    `acc8_0 … xs0`, `acc8_1 … xs1`, and the two statistics outputs, found at anything, end holding the same. -/
theorem sound_kernel8_C (c : Dev nD) (E : Set ℕ) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬cond8_0 i) (hc1 : cond8_1 i) (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (h8 x0 x1 x2 x3 x4 x5) ∗ owns (c : Thread nD τ) arg8 fullShare (acc8_0 x0 x1 x2 x3 x4 x5 xs0) ∗ owns (c : Thread nD τ) arg9 fullShare (acc8_1 x0 x1 x2 x3 x4 x5 xs1)
            ∗ owns (c : Thread nD τ) arg10 fullShare (acc8_0 x0 x1 x2 x3 x4 x5 xs0) ∗ owns (c : Thread nD τ) arg11 fullShare (acc8_1 x0 x1 x2 x3 x4 x5 xs1)) -∗ K ⟨⟩))
      ⊢ wp frame (wpE (defs₀ (F := F)) Variants.none c none) E (cc8__mlp_stats_kernel i arg1 harg1 arg2 harg2 arg3 harg3 arg4 harg4 arg5 harg5 arg6 harg6 arg7 harg7 arg8 harg8 arg9 harg9 arg10 harg10 arg11 harg11) K := by
  simp only [cc8__mlp_stats_kernel_eq_skeleton]; unfold cc8__mlp_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
  subst hf0; subst hf1; subst hf2; subst hf3; subst hf4; subst hf5; subst hfs0; subst hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap
    · iexact H6
    ipureintro; sl_unfold_words
    rw [mlp_read_store_whole _ _ mlp_hz]
    simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H7]
  · iexists _; isplitr
    swap
    · iexact H7
    ipureintro; sl_unfold_words
    rw [mlp_read_store_whole _ _ mlp_hz]
    simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [H8]
  · iexists _; isplitr
    swap
    · iexact H8
    ipureintro; sl_unfold_words
    rw [mlp_read_store_whole _ _ mlp_hz]
    simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]
  isplitl [HS0]
  · iexists _; isplitr
    swap
    · iexact HS0
    ipureintro; sl_unfold_words
    rw [mlp_read_store_whole _ _ mlp_hz]
    simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]
  iexists _; isplitr
  swap
  · iexact HS1
  ipureintro; sl_unfold_words
  rw [mlp_read_store_whole _ _ mlp_hz]
  simp only [h8, acc8_0, acc8_1, View.readAt_eq_ld, View.ld_unit_zero (S := S5000x128) mlp_hz, View.ld_unit_zero (S := S128x128) mlp_hz, View.ld_unit_zero (S := S1x128) mlp_hz, View.readCov_unit_zero (S := S1x128) _ mlp_hz]

end Cert.KernelIdeal.Reg

end
-- ==== Proof.KernelIdeal.Mlp8.lean ====
import proofs.«139862_j28269474742473_1_alg».proof.Proof.KernelIdeal.Mlp8Run

/-! # The MLP region of layer 4 (custom_call 8) at a parameter `V`: proof data, body obligation, entry and exit

The grid has ten points, one per block of 5000 rows. The two scratch accumulators are carried from point to
point: after point `n` they hold the column sums (and the column sums of squares) of the MLP's output over the
row blocks `0 … n` (`accAt8`, a fold of the body's payloads over the input blocks). The region invariant is the
class's before the first point (both accumulators at anything) and afterwards names the accumulators' contents.
Output window 6 receives the MLP's block at every point; windows 7 and 8 are idle up to the last point, where
they receive the accumulators. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The accumulators, point by point -/

/-- What the two scratch accumulators hold after the body at position `n`: zero plus the column sums (of the
    squares) of the MLP's blocks `0 … n`, as the fold of the body's payloads. -/
def accAt8 (c : Dev nD) : (n : ℕ) → n < cfg8.N → Vec F S1x128 .f32 × Vec F S1x128 .f32
  | 0, hn => (acc8_0 (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) k8_pay3, acc8_1 (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) k8_pay4)
  | n + 1, hn => (acc8_0 (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (accAt8 c n (Nat.lt_of_succ_lt hn)).1, acc8_1 (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (accAt8 c n (Nat.lt_of_succ_lt hn)).2)

/-- At the first point: over the zeroed accumulators. -/
theorem accAt8_zero (c : Dev nD) (t : Fin cfg8.N) (h : t.val = 0) :
    accAt8 V c t.val t.isLt = (acc8_0 (iblk8 V c 0 t) (iblk8 V c 1 t) (iblk8 V c 2 t) (iblk8 V c 3 t) (iblk8 V c 4 t) (iblk8 V c 5 t) k8_pay3, acc8_1 (iblk8 V c 0 t) (iblk8 V c 1 t) (iblk8 V c 2 t) (iblk8 V c 3 t) (iblk8 V c 4 t) (iblk8 V c 5 t) k8_pay4) := by
  obtain ⟨n, hn⟩ := t
  cases n with
  | zero => rfl
  | succ n => exact absurd h (Nat.succ_ne_zero n)

/-- At a later point: over what the point before left. -/
theorem accAt8_pos (c : Dev nD) (t : Fin cfg8.N) (h : t.val ≠ 0) :
    accAt8 V c t.val t.isLt = (acc8_0 (iblk8 V c 0 t) (iblk8 V c 1 t) (iblk8 V c 2 t) (iblk8 V c 3 t) (iblk8 V c 4 t) (iblk8 V c 5 t) (accAt8 V c (t.val - 1) (Nat.lt_of_le_of_lt (Nat.sub_le _ _) t.isLt)).1, acc8_1 (iblk8 V c 0 t) (iblk8 V c 1 t) (iblk8 V c 2 t) (iblk8 V c 3 t) (iblk8 V c 4 t) (iblk8 V c 5 t) (accAt8 V c (t.val - 1) (Nat.lt_of_le_of_lt (Nat.sub_le _ _) t.isLt)).2) := by
  obtain ⟨n, hn⟩ := t
  cases n with
  | zero => exact absurd rfl h
  | succ n => rfl

/-! ## The region invariant -/

/-- Before position `n`: the class's invariant before the first point; afterwards the two accumulators at what the
    point before left, the other scoped buffers unopened, the generator register at some state. -/
def PhiS8 (c : Dev nD) : (n : ℕ) → n ≤ cfg8.N → sProp 𝕄
  | 0, _ => Pipeline.ΦA spec8 c
  | n + 1, hn => iprop(iprop(iprop(owns (c : Thread nD τ) scM8_0 fullShare (accAt8 V c n hn).1 ∗ owns (c : Thread nD τ) scM8_1 fullShare (accAt8 V c n hn).2) ∗ rest8 c) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(iprop(owns (c : Thread nD τ) scM8_0 fullShare (accAt8 V c n hn).1 ∗ owns (c : Thread nD τ) scM8_1 fullShare (accAt8 V c n hn).2) ∗ rest8 c) ∗ (∃ r, prngReg c r)) := rfl

theorem PhiS8_pos (c : Dev nD) (n : ℕ) (h : n ≤ cfg8.N) (hz : n ≠ 0) :
    PhiS8 V c n h = iprop(iprop(iprop(owns (c : Thread nD τ) scM8_0 fullShare (accAt8 V c (n - 1) (by omega)).1 ∗ owns (c : Thread nD τ) scM8_1 fullShare (accAt8 V c (n - 1) (by omega)).2) ∗ rest8 c) ∗ (∃ r, prngReg c r)) := by
  cases n with
  | zero => exact absurd rfl hz
  | succ n => rfl

/-! ## The proof data -/

/-- The proof data of the region on core `c`: the arrays as the region finds them (`V`); after the body at point `t` each
    input's buffer at its block, output 6's at the MLP's block, outputs 7 and 8's at the accumulators; nothing owed;
    full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => h8 (iblk8 V c 0 t) (iblk8 V c 1 t) (iblk8 V c 2 t) (iblk8 V c 3 t) (iblk8 V c 4 t) (iblk8 V c 5 t)
    | ⟨7, _⟩ => (accAt8 V c t.val t.isLt).1
    | ⟨8, _⟩ => (accAt8 V c t.val t.isLt).2
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
/-- Output 6 after point `t`: the MLP's block of the six input blocks there. -/
theorem after8_6 (c : Dev nD) (t : Fin cfg8.N) : (dat8 V c).after 6 t = h8 (iblk8 V c 0 t) (iblk8 V c 1 t) (iblk8 V c 2 t) (iblk8 V c 3 t) (iblk8 V c 4 t) (iblk8 V c 5 t) := by dsimp only [dat8]
/-- Outputs 7 and 8 after point `t` (read at the last point only): the two accumulators there. -/
theorem after8_7 (c : Dev nD) (t : Fin cfg8.N) : (dat8 V c).after 7 t = (accAt8 V c t.val t.isLt).1 := by dsimp only [dat8]
theorem after8_8 (c : Dev nD) (t : Fin cfg8.N) : (dat8 V c).after 8 t = (accAt8 V c t.val t.isLt).2 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d))
    ∗ (∃ d, owns (c : Thread nD τ) (ms8_8 t) fullShare ((dat8 V c).before 8 t d)))

/-- and what it returns. -/
def bodyPost8 (c : Dev nD) (t : Fin cfg8.N) : sProp 𝕄 :=
  iprop((dat8 V c).Φ t.succ ∗ (dat8 V c).owesAt () t.succ
    ∗ (dat8 V c).leavesExact 0 t ∗ (dat8 V c).leavesExact 1 t ∗ (dat8 V c).leavesExact 2 t
    ∗ (dat8 V c).leavesExact 3 t ∗ (dat8 V c).leavesExact 4 t ∗ (dat8 V c).leavesExact 5 t
    ∗ (dat8 V c).leavesExact 6 t ∗ (dat8 V c).leavesExact 7 t ∗ (dat8 V c).leavesExact 8 t)

set_option maxHeartbeats 4800000 in
/-- The body at any point: the inputs' memrefs hold their blocks; the closed forms of the two conditions say which of
    the three cases the point is in; the invariant hands the body the accumulators (at anything at the first point, at
    what the point before left afterwards) and takes them back at this point's contents. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).owesAt () t.succ = (dat8 V c).owesAt () t.castSucc from rfl]
  rw [show (dat8 V c).Φ t.succ = PhiS8 V c (t.val + 1) t.isLt from rfl, PhiS8_succ]
  have hN : t.val < 10 := lt_of_lt_of_eq t.isLt (show cfg8.N = 10 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  rw [show (dat8 V c).leavesExact 4 t = owns (c : Thread nD τ) (ms8_4 t) fullShare ((dat8 V c).after 4 t) from by
    unfold Dat.leavesExact; rw [liveAt8_4 t], after8_4]
  rw [show (dat8 V c).leavesExact 5 t = owns (c : Thread nD τ) (ms8_5 t) fullShare ((dat8 V c).after 5 t) from by
    unfold Dat.leavesExact; rw [liveAt8_5 t], after8_5]
  rw [show (dat8 V c).leavesExact 6 t = owns (c : Thread nD τ) (ms8_6 t) fullShare ((dat8 V c).after 6 t) from by
    unfold Dat.leavesExact; rw [liveAt8_6 t], after8_6]
  rw [PhiS8_castSucc V c t]
  by_cases h9 : t.val = 9
  · have hz : t.val ≠ 0 := by omega
    rw [show (dat8 V c).leavesExact 7 t = owns (c : Thread nD τ) (ms8_7 t) fullShare ((dat8 V c).after 7 t) from by
      unfold Dat.leavesExact; rw [liveAt8_7 t ((hcond8_1 t).mpr h9)], after8_7]
    rw [show (dat8 V c).leavesExact 8 t = owns (c : Thread nD τ) (ms8_8 t) fullShare ((dat8 V c).after 8 t) from by
      unfold Dat.leavesExact; rw [liveAt8_8 t ((hcond8_1 t).mpr h9)], after8_8]
    rw [accAt8_pos V c t hz, PhiS8_pos V c _ _ hz]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel8_C c Set.univ (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => hz ((hcond8_0 t).mp h)) ((hcond8_1 t).mpr h9) (iblk8 V c 0 t) (iblk8 V c 1 t) (iblk8 V c 2 t) (iblk8 V c 3 t) (iblk8 V c 4 t) (iblk8 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dat8 V c) 7 t (idleAt8_7 t (fun h => h9 ((hcond8_1 t).mp h))) (noFlush8_7 t (fun h => h9 ((hcond8_1 t).mp h)))]
    rw [Dat.leavesExact_idle (dat8 V c) 8 t (idleAt8_8 t (fun h => h9 ((hcond8_1 t).mp h))) (noFlush8_8 t (fun h => h9 ((hcond8_1 t).mp h)))]
    by_cases hz : t.val = 0
    · rw [accAt8_zero V c t hz, PhiS8_zero V c _ _ hz, PhiA8_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel8_A c Set.univ (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) ((hcond8_0 t).mpr hz) (fun h => h9 ((hcond8_1 t).mp h)) (iblk8 V c 0 t) (iblk8 V c 1 t) (iblk8 V c 2 t) (iblk8 V c 3 t) (iblk8 V c 4 t) (iblk8 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [accAt8_pos V c t hz, PhiS8_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel8_B c Set.univ (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => hz ((hcond8_0 t).mp h)) (fun h => h9 ((hcond8_1 t).mp h)) (iblk8 V c 0 t) (iblk8 V c 1 t) (iblk8 V c 2 t) (iblk8 V c 3 t) (iblk8 V c 4 t) (iblk8 V c 5 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## Entry and exit -/

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point the invariant gives the class's back: the accumulators' named contents are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout8 (c : Dev nD) : (dat8 V c).Φ (Fin.last cfg8.N) ⊢ Pipeline.ΦA spec8 c :=
  Phi_out8 V c _ (by rw [Fin.val_last]; have : cfg8.N = 10 := N_8; omega)

end Region

end Cert.KernelIdeal.Reg

end
-- ==== Proof.KernelIdeal.Bn9.lean ====
/- Region 9 of @main: the batch-norm apply kernel `cc9__bn_apply_kernel`, at the contents `V` the region is
   entered at. On a grid of 10 row tiles it writes, tile by tile,
   `out = (h_pre − mean) · inv_std · gamma + beta`: window 0 is the tile of `h_pre`, windows 1–4 the four
   `[1,128]` rows (whole, the same block at every point), window 5 the tile of the output.
   Stated here: each window's block at a point, what the body leaves in the output's buffer (one store of the whole
   tile, a pure function of the five blocks read), the body's triple, the pipeline's proof data `dat9` and its body
   obligation. Everything is generic in the float instance `F`. -/
import proofs.«139862_j28269474742473_1_alg».proof.Proof.Gen.KernelIdeal.Launch
import proofs.«139862_j28269474742473_1_alg».proof.Proof.Gen.KernelIdeal.Skeleton
import proofs.«139862_j28269474742473_1_alg».proof.Proof.Gen.KernelIdeal.Points
import Idealize.ShloMosaic.Lib.Pipeline.FrameBody
import Idealize.ShloMosaic.Lib.Ring
import Idealize.ShloMosaic.Lib.Tactic

-- membership in a rectangle of 5000 rows: the elaborator recurses once per coordinate of the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s and whose body leaves the block in place: unfetched, the block index has not moved
    (the window is uncut and never idle). -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof
    data whose array is `V`'s and whose body leaves the block in place: unfetched, the block index has not moved
    (the window is uncut and never idle). -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof
    data whose array is `V`'s and whose body leaves the block in place: unfetched, the block index has not moved
    (the window is uncut and never idle). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for any proof
    data whose array is `V`'s and whose body leaves the block in place: unfetched, the block index has not moved
    (the window is uncut and never idle). -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not, for any proof
    data whose array is `V`'s and whose body leaves the block in place: unfetched, the block index has not moved
    (the window is uncut and never idle). -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: the whole tile, the whole row -/

abbrev tile9 : Rect S5000x128 := Rect.unit (s := S5000x128) ![0, 0] S5000x128.size inb_S5000x128_S5000x128_0_0
abbrev row9 : Rect S1x128 := Rect.unit (s := S1x128) ![0, 0] S1x128.size inb_S1x128_S1x128_0_0

/-! ## What the body leaves in the output window's buffer -/

/-- Window 5's staging buffer after the body, from the input windows' blocks: its one store, of the whole tile. -/
def out9_5 (x0 : Vec F S5000x128 .f32) (x1 : Vec F S1x128 .f32) (x2 : Vec F S1x128 .f32) (x3 : Vec F S1x128 .f32) (x4 : Vec F S1x128 .f32) : Vec F S5000x128 .f32 :=
  View.canon [⟨tile9, k9_pay1 (View.ld x0 tile9) (View.ld x1 row9) (View.ld x2 row9) (View.ld x3 row9) (View.ld x4 row9)⟩]

/-- The one store covers the buffer. -/
theorem cover9_5 (p0 : Vec F S5000x128 .f32) (y : S5000x128.Idx) :
    ∃ pc ∈ ([⟨tile9, p0⟩] : List (View.Piece (Elt F) S5000x128 .f32)), y ∈ pc.1.set :=
  View.cover_of_tiled [⟨tile9, p0⟩] S5000x128.size (by rfl) y

/-! ## The body's triple -/

set_option maxHeartbeats 1000000 in
/-- The kernel body on whole staging memrefs, the inputs' at read contents `xW` and the output's at anything, runs to
    the continuation holding the inputs' as they were and the output's at `out9_5` of the inputs'. -/
theorem sound_kernel9 (c : Dev nD) (E : Set ℕ) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out9_5 x0 x1 x2 x3 x4)) -∗ K ⟨⟩))
      ⊢ wp frame (wpE (defs₀ (F := F)) Variants.none c none) E (cc9__bn_apply_kernel i arg1 harg1 arg2 harg2 arg3 harg3 arg4 harg4 arg5 harg5 arg6 harg6) K := by
  simp only [cc9__bn_apply_kernel_eq_skeleton]; unfold cc9__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of pipeline 9 on core `c`: the arrays as the region finds them (`V`); after the body at point
    `t` each input's buffer at its block and the output's at `out9_5` of the input blocks; the invariant is the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- The invariant is the same at every point: the scoped rest and the generator register. -/
theorem Φ_eq9 (c : Dev nD) (t : Fin (cfg9.N + 1)) : (dat9 V c).Φ t = Pipeline.ΦA spec9 c := rfl
theorem hin9 (c : Dev nD) : Pipeline.ΦA spec9 c ⊢ (dat9 V c).Φ 0 := .rfl
theorem hout9 (c : Dev nD) : (dat9 V c).Φ (Fin.last cfg9.N) ⊢ Pipeline.ΦA spec9 c := .rfl
theorem q_eq9 (c : Dev nD) (w : Fin cfg9.W) : (dat9 V c).q w = fullShare := rfl
theorem owed_eq9 (c : Dev nD) (t : Fin (cfg9.N + 1)) : (dat9 V c).owed t = 0 := rfl

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so the body's triple applies; the invariant and the
    core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ (grid9.coords t) _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Reg

end
-- ==== Proof.KernelIdeal.RunData.lean ====
/- The buffer contents at every boundary of @main's items, as a fold from the launch memory: a host stretch applies its
   operations; a kernel region leaves its arrays at what its write-backs leave (the inputs as entered, each output's
   blocks folded in) and every other buffer as entered. Beside it: each region's proof data at its entry contents. -/
import proofs.«139862_j28269474742473_1_alg».proof.Proof.KernelIdeal.Mlp0
import proofs.«139862_j28269474742473_1_alg».proof.Proof.KernelIdeal.Bn1
import proofs.«139862_j28269474742473_1_alg».proof.Proof.KernelIdeal.Mlp2
import proofs.«139862_j28269474742473_1_alg».proof.Proof.KernelIdeal.Bn3
import proofs.«139862_j28269474742473_1_alg».proof.Proof.KernelIdeal.Mlp4
import proofs.«139862_j28269474742473_1_alg».proof.Proof.KernelIdeal.Bn5
import proofs.«139862_j28269474742473_1_alg».proof.Proof.KernelIdeal.Mlp6
import proofs.«139862_j28269474742473_1_alg».proof.Proof.KernelIdeal.Bn7
import proofs.«139862_j28269474742473_1_alg».proof.Proof.KernelIdeal.Mlp8
import proofs.«139862_j28269474742473_1_alg».proof.Proof.KernelIdeal.Bn9
import proofs.«139862_j28269474742473_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## The fold -/

/-- Core `c`'s buffers at launch. -/
abbrev W0 : Dev nD → Valuation τ sig (Elt F) := fun c b => m (c, b)
/-- After host stretch 0: region 0's entry. -/
abbrev W1 : Dev nD → Valuation τ sig (Elt F) := fun c => StableHlo.after hostOps0 (W0 m c)
/-- The same read at the TensorCore's references: what region 0's proof data take. -/
abbrev X0 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (X0 m) c).arrAt w cfg0.N
theorem W2_arr (c : Dev nD) (w : Fin cfg0.W) :
    W2 m c (Proc.devRef .tc (Pipeline.arrRef spec0 w)) = (dat0 (X0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references: region 0's exit contents. -/
abbrev Y0 : (c : Dev nD) → (b : Ref sig .tc) → Buf (Elt F) ((c : Thread nD τ).loc b) := fun c b => W2 m c b
theorem hF0 (c : Dev nD) (w : Fin cfg0.W) : (dat0 (X0 m) c).arrAt w cfg0.N = Y0 m c (Pipeline.arrRef spec0 w) :=
  (W2_arr m c w).symm
theorem hrest0 (c : Dev nD) : ∀ b, b ∉ Finset.univ.image (Pipeline.arrRef spec0) → Y0 m c b = X0 m c b :=
  fun b hb => W2_of_ne m c b fun w e => hb (Finset.mem_image.mpr ⟨w, Finset.mem_univ _, e⟩)
/-- After host stretch 1: region 1's entry. -/
abbrev W3 : Dev nD → Valuation τ sig (Elt F) := fun c => StableHlo.after hostOps1 (W2 m c)
/-- The same read at the TensorCore's references: what region 1's proof data take. -/
abbrev X1 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (dat1 (X1 m) c).arrAt w cfg1.N
theorem W4_arr (c : Dev nD) (w : Fin cfg1.W) :
    W4 m c (Proc.devRef .tc (Pipeline.arrRef spec1 w)) = (dat1 (X1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references: region 1's exit contents. -/
abbrev Y1 : (c : Dev nD) → (b : Ref sig .tc) → Buf (Elt F) ((c : Thread nD τ).loc b) := fun c b => W4 m c b
theorem hF1 (c : Dev nD) (w : Fin cfg1.W) : (dat1 (X1 m) c).arrAt w cfg1.N = Y1 m c (Pipeline.arrRef spec1 w) :=
  (W4_arr m c w).symm
theorem hrest1 (c : Dev nD) : ∀ b, b ∉ Finset.univ.image (Pipeline.arrRef spec1) → Y1 m c b = X1 m c b :=
  fun b hb => W4_of_ne m c b fun w e => hb (Finset.mem_image.mpr ⟨w, Finset.mem_univ _, e⟩)
/-- After host stretch 2: region 2's entry. -/
abbrev W5 : Dev nD → Valuation τ sig (Elt F) := fun c => StableHlo.after hostOps2 (W4 m c)
/-- The same read at the TensorCore's references: what region 2's proof data take. -/
abbrev X2 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (dat2 (X2 m) c).arrAt w cfg2.N
theorem W6_arr (c : Dev nD) (w : Fin cfg2.W) :
    W6 m c (Proc.devRef .tc (Pipeline.arrRef spec2 w)) = (dat2 (X2 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references: region 2's exit contents. -/
abbrev Y2 : (c : Dev nD) → (b : Ref sig .tc) → Buf (Elt F) ((c : Thread nD τ).loc b) := fun c b => W6 m c b
theorem hF2 (c : Dev nD) (w : Fin cfg2.W) : (dat2 (X2 m) c).arrAt w cfg2.N = Y2 m c (Pipeline.arrRef spec2 w) :=
  (W6_arr m c w).symm
theorem hrest2 (c : Dev nD) : ∀ b, b ∉ Finset.univ.image (Pipeline.arrRef spec2) → Y2 m c b = X2 m c b :=
  fun b hb => W6_of_ne m c b fun w e => hb (Finset.mem_image.mpr ⟨w, Finset.mem_univ _, e⟩)
/-- After host stretch 3: region 3's entry. -/
abbrev W7 : Dev nD → Valuation τ sig (Elt F) := fun c => StableHlo.after hostOps3 (W6 m c)
/-- The same read at the TensorCore's references: what region 3's proof data take. -/
abbrev X3 : (c : Dev nD) → (b : Ref sig .tc) → Buf (Elt F) ((c : Thread nD τ).loc b) := fun c b => W7 m c b
/-- At region 3's exit: its arrays at what the pipeline leaves, every other buffer as entered. -/
def W8 (c : Dev nD) : Valuation τ sig (Elt F) :=
  Pipeline.withArrays spec3 c (W7 m c) fun w => (dat3 (X3 m) c).arrAt w cfg3.N
theorem W8_arr (c : Dev nD) (w : Fin cfg3.W) :
    W8 m c (Proc.devRef .tc (Pipeline.arrRef spec3 w)) = (dat3 (X3 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The same read at the TensorCore's references: region 3's exit contents. -/
abbrev Y3 : (c : Dev nD) → (b : Ref sig .tc) → Buf (Elt F) ((c : Thread nD τ).loc b) := fun c b => W8 m c b
theorem hF3 (c : Dev nD) (w : Fin cfg3.W) : (dat3 (X3 m) c).arrAt w cfg3.N = Y3 m c (Pipeline.arrRef spec3 w) :=
  (W8_arr m c w).symm
theorem hrest3 (c : Dev nD) : ∀ b, b ∉ Finset.univ.image (Pipeline.arrRef spec3) → Y3 m c b = X3 m c b :=
  fun b hb => W8_of_ne m c b fun w e => hb (Finset.mem_image.mpr ⟨w, Finset.mem_univ _, e⟩)
/-- After host stretch 4: region 4's entry. -/
abbrev W9 : Dev nD → Valuation τ sig (Elt F) := fun c => StableHlo.after hostOps4 (W8 m c)
/-- The same read at the TensorCore's references: what region 4's proof data take. -/
abbrev X4 : (c : Dev nD) → (b : Ref sig .tc) → Buf (Elt F) ((c : Thread nD τ).loc b) := fun c b => W9 m c b
/-- At region 4's exit: its arrays at what the pipeline leaves, every other buffer as entered. -/
def W10 (c : Dev nD) : Valuation τ sig (Elt F) :=
  Pipeline.withArrays spec4 c (W9 m c) fun w => (dat4 (X4 m) c).arrAt w cfg4.N
theorem W10_arr (c : Dev nD) (w : Fin cfg4.W) :
    W10 m c (Proc.devRef .tc (Pipeline.arrRef spec4 w)) = (dat4 (X4 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
/-- The same read at the TensorCore's references: region 4's exit contents. -/
abbrev Y4 : (c : Dev nD) → (b : Ref sig .tc) → Buf (Elt F) ((c : Thread nD τ).loc b) := fun c b => W10 m c b
theorem hF4 (c : Dev nD) (w : Fin cfg4.W) : (dat4 (X4 m) c).arrAt w cfg4.N = Y4 m c (Pipeline.arrRef spec4 w) :=
  (W10_arr m c w).symm
theorem hrest4 (c : Dev nD) : ∀ b, b ∉ Finset.univ.image (Pipeline.arrRef spec4) → Y4 m c b = X4 m c b :=
  fun b hb => W10_of_ne m c b fun w e => hb (Finset.mem_image.mpr ⟨w, Finset.mem_univ _, e⟩)
/-- After host stretch 5: region 5's entry. -/
abbrev W11 : Dev nD → Valuation τ sig (Elt F) := fun c => StableHlo.after hostOps5 (W10 m c)
/-- The same read at the TensorCore's references: what region 5's proof data take. -/
abbrev X5 : (c : Dev nD) → (b : Ref sig .tc) → Buf (Elt F) ((c : Thread nD τ).loc b) := fun c b => W11 m c b
/-- At region 5's exit: its arrays at what the pipeline leaves, every other buffer as entered. -/
def W12 (c : Dev nD) : Valuation τ sig (Elt F) :=
  Pipeline.withArrays spec5 c (W11 m c) fun w => (dat5 (X5 m) c).arrAt w cfg5.N
theorem W12_arr (c : Dev nD) (w : Fin cfg5.W) :
    W12 m c (Proc.devRef .tc (Pipeline.arrRef spec5 w)) = (dat5 (X5 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
/-- The same read at the TensorCore's references: region 5's exit contents. -/
abbrev Y5 : (c : Dev nD) → (b : Ref sig .tc) → Buf (Elt F) ((c : Thread nD τ).loc b) := fun c b => W12 m c b
theorem hF5 (c : Dev nD) (w : Fin cfg5.W) : (dat5 (X5 m) c).arrAt w cfg5.N = Y5 m c (Pipeline.arrRef spec5 w) :=
  (W12_arr m c w).symm
theorem hrest5 (c : Dev nD) : ∀ b, b ∉ Finset.univ.image (Pipeline.arrRef spec5) → Y5 m c b = X5 m c b :=
  fun b hb => W12_of_ne m c b fun w e => hb (Finset.mem_image.mpr ⟨w, Finset.mem_univ _, e⟩)
/-- After host stretch 6: region 6's entry. -/
abbrev W13 : Dev nD → Valuation τ sig (Elt F) := fun c => StableHlo.after hostOps6 (W12 m c)
/-- The same read at the TensorCore's references: what region 6's proof data take. -/
abbrev X6 : (c : Dev nD) → (b : Ref sig .tc) → Buf (Elt F) ((c : Thread nD τ).loc b) := fun c b => W13 m c b
/-- At region 6's exit: its arrays at what the pipeline leaves, every other buffer as entered. -/
def W14 (c : Dev nD) : Valuation τ sig (Elt F) :=
  Pipeline.withArrays spec6 c (W13 m c) fun w => (dat6 (X6 m) c).arrAt w cfg6.N
theorem W14_arr (c : Dev nD) (w : Fin cfg6.W) :
    W14 m c (Proc.devRef .tc (Pipeline.arrRef spec6 w)) = (dat6 (X6 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
/-- The same read at the TensorCore's references: region 6's exit contents. -/
abbrev Y6 : (c : Dev nD) → (b : Ref sig .tc) → Buf (Elt F) ((c : Thread nD τ).loc b) := fun c b => W14 m c b
theorem hF6 (c : Dev nD) (w : Fin cfg6.W) : (dat6 (X6 m) c).arrAt w cfg6.N = Y6 m c (Pipeline.arrRef spec6 w) :=
  (W14_arr m c w).symm
theorem hrest6 (c : Dev nD) : ∀ b, b ∉ Finset.univ.image (Pipeline.arrRef spec6) → Y6 m c b = X6 m c b :=
  fun b hb => W14_of_ne m c b fun w e => hb (Finset.mem_image.mpr ⟨w, Finset.mem_univ _, e⟩)
/-- After host stretch 7: region 7's entry. -/
abbrev W15 : Dev nD → Valuation τ sig (Elt F) := fun c => StableHlo.after hostOps7 (W14 m c)
/-- The same read at the TensorCore's references: what region 7's proof data take. -/
abbrev X7 : (c : Dev nD) → (b : Ref sig .tc) → Buf (Elt F) ((c : Thread nD τ).loc b) := fun c b => W15 m c b
/-- At region 7's exit: its arrays at what the pipeline leaves, every other buffer as entered. -/
def W16 (c : Dev nD) : Valuation τ sig (Elt F) :=
  Pipeline.withArrays spec7 c (W15 m c) fun w => (dat7 (X7 m) c).arrAt w cfg7.N
theorem W16_arr (c : Dev nD) (w : Fin cfg7.W) :
    W16 m c (Proc.devRef .tc (Pipeline.arrRef spec7 w)) = (dat7 (X7 m) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
/-- The same read at the TensorCore's references: region 7's exit contents. -/
abbrev Y7 : (c : Dev nD) → (b : Ref sig .tc) → Buf (Elt F) ((c : Thread nD τ).loc b) := fun c b => W16 m c b
theorem hF7 (c : Dev nD) (w : Fin cfg7.W) : (dat7 (X7 m) c).arrAt w cfg7.N = Y7 m c (Pipeline.arrRef spec7 w) :=
  (W16_arr m c w).symm
theorem hrest7 (c : Dev nD) : ∀ b, b ∉ Finset.univ.image (Pipeline.arrRef spec7) → Y7 m c b = X7 m c b :=
  fun b hb => W16_of_ne m c b fun w e => hb (Finset.mem_image.mpr ⟨w, Finset.mem_univ _, e⟩)
/-- After host stretch 8: region 8's entry. -/
abbrev W17 : Dev nD → Valuation τ sig (Elt F) := fun c => StableHlo.after hostOps8 (W16 m c)
/-- The same read at the TensorCore's references: what region 8's proof data take. -/
abbrev X8 : (c : Dev nD) → (b : Ref sig .tc) → Buf (Elt F) ((c : Thread nD τ).loc b) := fun c b => W17 m c b
/-- At region 8's exit: its arrays at what the pipeline leaves, every other buffer as entered. -/
def W18 (c : Dev nD) : Valuation τ sig (Elt F) :=
  Pipeline.withArrays spec8 c (W17 m c) fun w => (dat8 (X8 m) c).arrAt w cfg8.N
theorem W18_arr (c : Dev nD) (w : Fin cfg8.W) :
    W18 m c (Proc.devRef .tc (Pipeline.arrRef spec8 w)) = (dat8 (X8 m) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m c (Proc.devRef .tc b) = W17 m c (Proc.devRef .tc b) := by
  unfold W18; exact Pipeline.withArrays_of_ne spec8 c _ _ b hb
/-- The same read at the TensorCore's references: region 8's exit contents. -/
abbrev Y8 : (c : Dev nD) → (b : Ref sig .tc) → Buf (Elt F) ((c : Thread nD τ).loc b) := fun c b => W18 m c b
theorem hF8 (c : Dev nD) (w : Fin cfg8.W) : (dat8 (X8 m) c).arrAt w cfg8.N = Y8 m c (Pipeline.arrRef spec8 w) :=
  (W18_arr m c w).symm
theorem hrest8 (c : Dev nD) : ∀ b, b ∉ Finset.univ.image (Pipeline.arrRef spec8) → Y8 m c b = X8 m c b :=
  fun b hb => W18_of_ne m c b fun w e => hb (Finset.mem_image.mpr ⟨w, Finset.mem_univ _, e⟩)
/-- After host stretch 9: region 9's entry. -/
abbrev W19 : Dev nD → Valuation τ sig (Elt F) := fun c => StableHlo.after hostOps9 (W18 m c)
/-- The same read at the TensorCore's references: what region 9's proof data take. -/
abbrev X9 : (c : Dev nD) → (b : Ref sig .tc) → Buf (Elt F) ((c : Thread nD τ).loc b) := fun c b => W19 m c b
/-- At region 9's exit: its arrays at what the pipeline leaves, every other buffer as entered. -/
def W20 (c : Dev nD) : Valuation τ sig (Elt F) :=
  Pipeline.withArrays spec9 c (W19 m c) fun w => (dat9 (X9 m) c).arrAt w cfg9.N
theorem W20_arr (c : Dev nD) (w : Fin cfg9.W) :
    W20 m c (Proc.devRef .tc (Pipeline.arrRef spec9 w)) = (dat9 (X9 m) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m c (Proc.devRef .tc b) = W19 m c (Proc.devRef .tc b) := by
  unfold W20; exact Pipeline.withArrays_of_ne spec9 c _ _ b hb
/-- The same read at the TensorCore's references: region 9's exit contents. -/
abbrev Y9 : (c : Dev nD) → (b : Ref sig .tc) → Buf (Elt F) ((c : Thread nD τ).loc b) := fun c b => W20 m c b
theorem hF9 (c : Dev nD) (w : Fin cfg9.W) : (dat9 (X9 m) c).arrAt w cfg9.N = Y9 m c (Pipeline.arrRef spec9 w) :=
  (W20_arr m c w).symm
theorem hrest9 (c : Dev nD) : ∀ b, b ∉ Finset.univ.image (Pipeline.arrRef spec9) → Y9 m c b = X9 m c b :=
  fun b hb => W20_of_ne m c b fun w e => hb (Finset.mem_image.mpr ⟨w, Finset.mem_univ _, e⟩)
/-- After host stretch 10: the return. -/
abbrev W21 : Dev nD → Valuation τ sig (Elt F) := fun c => StableHlo.after hostOps10 (W20 m c)

/-! ## The proof data family -/

/-- The prefetched tables' admissible contents: no pipeline has a table. -/
abbrev adm' : (p : Fin 10) → (pcfgs (F := F) p).Adm := fun p => (cfgs p).toPCfg_adm
/-- Every pipeline's proof data, each at its region's entry contents (a literal match, so that the pinned configuration at
    a numeral reduces to the printed one). -/
def pdats : (p : Fin 10) → (c : Dev nD) → Dat τ (Elt F) Unit ℕ (UR sig nD τ) ℕ (Pipeline.pin (pcfgs (F := F)) adm' p) c
  | ⟨0, _⟩ => fun c => dat0 (X0 m) c
  | ⟨1, _⟩ => fun c => dat1 (X1 m) c
  | ⟨2, _⟩ => fun c => dat2 (X2 m) c
  | ⟨3, _⟩ => fun c => dat3 (X3 m) c
  | ⟨4, _⟩ => fun c => dat4 (X4 m) c
  | ⟨5, _⟩ => fun c => dat5 (X5 m) c
  | ⟨6, _⟩ => fun c => dat6 (X6 m) c
  | ⟨7, _⟩ => fun c => dat7 (X7 m) c
  | ⟨8, _⟩ => fun c => dat8 (X8 m) c
  | ⟨9, _⟩ => fun c => dat9 (X9 m) c

/-- A host stretch as a segment: its operations over the unscoped references from the contents `W`, `R` riding along; its
    post is then those references at the operations applied to `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Reg

end
-- ==== Proof.KernelIdeal.RunReg0.lean ====
/- Region 0 of the run as a segment between the valuations before and after it. -/
import proofs.«139862_j28269474742473_1_alg».proof.Proof.KernelIdeal.RunData
import proofs.«139862_j28269474742473_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the pinned configuration of pipeline 0 is the printed one only after unfolding definitions inside types
set_option backward.isDefEq.respectTransparency.types false in
/-- Region 0 over the thread state: entered from every unscoped buffer at the contents before it, left at the contents
    after it. Its arrays are split out of the unscoped buffers and put back at the exit contents; the generator register
    goes into the body's invariant and comes back; nothing is owed; the kernel has no semaphore of its own. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (X0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (X0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec0 c : sProp 𝕄) ⊢ (pdats m 0 c).Φ 0 from hin0 (X0 m) c)
    unfold Pipeline.ΦA
    isplitl [Hr]; · iexact Hr
    iexact Hp
  hout c := by
    rw [Pipeline.ownSems0_none]
    iintro HΦ
    ihave H := (show (pdats m 0 c).Φ (Fin.last _) ⊢ (Pipeline.ΦA spec0 c : sProp 𝕄) from hout0 (X0 m) c) $$ HΦ
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (X0 m c) (Y0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KernelIdeal.RunReg1.lean ====
/- Region 1 of the run as a segment between the valuations before and after it. -/
import proofs.«139862_j28269474742473_1_alg».proof.Proof.KernelIdeal.RunData
import proofs.«139862_j28269474742473_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the pinned configuration of pipeline 1 is the printed one only after unfolding definitions inside types
set_option backward.isDefEq.respectTransparency.types false in
/-- Region 1 over the thread state: entered from every unscoped buffer at the contents before it, left at the contents
    after it. Its arrays are split out of the unscoped buffers and put back at the exit contents; the generator register
    goes into the body's invariant and comes back; nothing is owed; the kernel has no semaphore of its own. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (X1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (X1 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec1 c : sProp 𝕄) ⊢ (pdats m 1 c).Φ 0 from hin1 (X1 m) c)
    unfold Pipeline.ΦA
    isplitl [Hr]; · iexact Hr
    iexact Hp
  hout c := by
    rw [Pipeline.ownSems0_none]
    iintro HΦ
    ihave H := (show (pdats m 1 c).Φ (Fin.last _) ⊢ (Pipeline.ΦA spec1 c : sProp 𝕄) from hout1 (X1 m) c) $$ HΦ
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (X1 m c) (Y1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KernelIdeal.RunReg2.lean ====
/- Region 2 of the run as a segment between the valuations before and after it. -/
import proofs.«139862_j28269474742473_1_alg».proof.Proof.KernelIdeal.RunData
import proofs.«139862_j28269474742473_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the pinned configuration of pipeline 2 is the printed one only after unfolding definitions inside types
set_option backward.isDefEq.respectTransparency.types false in
/-- Region 2 over the thread state: entered from every unscoped buffer at the contents before it, left at the contents
    after it. Its arrays are split out of the unscoped buffers and put back at the exit contents; the generator register
    goes into the body's invariant and comes back; nothing is owed; the kernel has no semaphore of its own. -/
def reg2 : Pipeline.RegionSeg (pcfgs (F := F)) adm' (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (X2 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (X2 m c)
  hentry c := by
    rw [Pipeline.ownSems0_none]
    have hsplit := Pipeline.arrays_of_unscopedBufs (p := 2) (pcfgs (F := F)) adm' (pdats m) launch2.win launch2.arr_whole c
      ((pdats m 2 c).share_full fun _ => rfl) (X2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec2 c : sProp 𝕄) ⊢ (pdats m 2 c).Φ 0 from hin2 (X2 m) c)
    unfold Pipeline.ΦA
    isplitl [Hr]; · iexact Hr
    iexact Hp
  hout c := by
    rw [Pipeline.ownSems0_none]
    iintro HΦ
    ihave H := (show (pdats m 2 c).Φ (Fin.last _) ⊢ (Pipeline.ΦA spec2 c : sProp 𝕄) from hout2 (X2 m) c) $$ HΦ
    unfold Pipeline.ΦA
    icases H with ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m) ((pdats m 2 c).share_full fun _ => rfl)
      (X2 m c) (Y2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KernelIdeal.RunReg3.lean ====
/- Region 3 of the run as a segment between the valuations before and after it. -/
import proofs.«139862_j28269474742473_1_alg».proof.Proof.KernelIdeal.RunData
import proofs.«139862_j28269474742473_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the pinned configuration of pipeline 3 is the printed one only after unfolding definitions inside types
set_option backward.isDefEq.respectTransparency.types false in
/-- Region 3 over the thread state: entered from every unscoped buffer at the contents before it, left at the contents
    after it. Its arrays are split out of the unscoped buffers and put back at the exit contents; the generator register
    goes into the body's invariant and comes back; nothing is owed; the kernel has no semaphore of its own. -/
def reg3 : Pipeline.RegionSeg (pcfgs (F := F)) adm' (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (X3 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (X3 m c)
  hentry c := by
    rw [Pipeline.ownSems0_none]
    have hsplit := Pipeline.arrays_of_unscopedBufs (p := 3) (pcfgs (F := F)) adm' (pdats m) launch3.win launch3.arr_whole c
      ((pdats m 3 c).share_full fun _ => rfl) (X3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec3 c : sProp 𝕄) ⊢ (pdats m 3 c).Φ 0 from hin3 (X3 m) c)
    unfold Pipeline.ΦA
    isplitl [Hr]; · iexact Hr
    iexact Hp
  hout c := by
    rw [Pipeline.ownSems0_none]
    iintro HΦ
    ihave H := (show (pdats m 3 c).Φ (Fin.last _) ⊢ (Pipeline.ΦA spec3 c : sProp 𝕄) from hout3 (X3 m) c) $$ HΦ
    unfold Pipeline.ΦA
    icases H with ⟨Hr, Hp⟩
    isplitl [Hp]; · iexact Hp
    isplitr; · iempintro
    iexact Hr
  hexit c := by
    have hjoin := Pipeline.unscopedBufs_of_arrays (p := 3) (pcfgs (F := F)) adm' (Ix := Unit) (Name := ℕ) (U := UR sig nD τ) (Lvl := ℕ)
      launch3.win launch3.arr_whole c (pdats m) ((pdats m 3 c).share_full fun _ => rfl)
      (X3 m c) (Y3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KernelIdeal.RunReg4.lean ====
/- Region 4 of the run as a segment between the valuations before and after it. -/
import proofs.«139862_j28269474742473_1_alg».proof.Proof.KernelIdeal.RunData
import proofs.«139862_j28269474742473_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the pinned configuration of pipeline 4 is the printed one only after unfolding definitions inside types
set_option backward.isDefEq.respectTransparency.types false in
/-- Region 4 over the thread state: entered from every unscoped buffer at the contents before it, left at the contents
    after it. Its arrays are split out of the unscoped buffers and put back at the exit contents; the generator register
    goes into the body's invariant and comes back; nothing is owed; the kernel has no semaphore of its own. -/
def reg4 : Pipeline.RegionSeg (pcfgs (F := F)) adm' (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (X4 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (X4 m c)
  hentry c := by
    rw [Pipeline.ownSems0_none]
    have hsplit := Pipeline.arrays_of_unscopedBufs (p := 4) (pcfgs (F := F)) adm' (pdats m) launch4.win launch4.arr_whole c
      ((pdats m 4 c).share_full fun _ => rfl) (X4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec4 c : sProp 𝕄) ⊢ (pdats m 4 c).Φ 0 from hin4 (X4 m) c)
    unfold Pipeline.ΦA
    isplitl [Hr]; · iexact Hr
    iexact Hp
  hout c := by
    rw [Pipeline.ownSems0_none]
    iintro HΦ
    ihave H := (show (pdats m 4 c).Φ (Fin.last _) ⊢ (Pipeline.ΦA spec4 c : sProp 𝕄) from hout4 (X4 m) c) $$ HΦ
    unfold Pipeline.ΦA
    icases H with ⟨Hr, Hp⟩
    isplitl [Hp]; · iexact Hp
    isplitr; · iempintro
    iexact Hr
  hexit c := by
    have hjoin := Pipeline.unscopedBufs_of_arrays (p := 4) (pcfgs (F := F)) adm' (Ix := Unit) (Name := ℕ) (U := UR sig nD τ) (Lvl := ℕ)
      launch4.win launch4.arr_whole c (pdats m) ((pdats m 4 c).share_full fun _ => rfl)
      (X4 m c) (Y4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KernelIdeal.RunReg5.lean ====
/- Region 5 of the run as a segment between the valuations before and after it. -/
import proofs.«139862_j28269474742473_1_alg».proof.Proof.KernelIdeal.RunData
import proofs.«139862_j28269474742473_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the pinned configuration of pipeline 5 is the printed one only after unfolding definitions inside types
set_option backward.isDefEq.respectTransparency.types false in
/-- Region 5 over the thread state: entered from every unscoped buffer at the contents before it, left at the contents
    after it. Its arrays are split out of the unscoped buffers and put back at the exit contents; the generator register
    goes into the body's invariant and comes back; nothing is owed; the kernel has no semaphore of its own. -/
def reg5 : Pipeline.RegionSeg (pcfgs (F := F)) adm' (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (X5 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (X5 m c)
  hentry c := by
    rw [Pipeline.ownSems0_none]
    have hsplit := Pipeline.arrays_of_unscopedBufs (p := 5) (pcfgs (F := F)) adm' (pdats m) launch5.win launch5.arr_whole c
      ((pdats m 5 c).share_full fun _ => rfl) (X5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec5 c : sProp 𝕄) ⊢ (pdats m 5 c).Φ 0 from hin5 (X5 m) c)
    unfold Pipeline.ΦA
    isplitl [Hr]; · iexact Hr
    iexact Hp
  hout c := by
    rw [Pipeline.ownSems0_none]
    iintro HΦ
    ihave H := (show (pdats m 5 c).Φ (Fin.last _) ⊢ (Pipeline.ΦA spec5 c : sProp 𝕄) from hout5 (X5 m) c) $$ HΦ
    unfold Pipeline.ΦA
    icases H with ⟨Hr, Hp⟩
    isplitl [Hp]; · iexact Hp
    isplitr; · iempintro
    iexact Hr
  hexit c := by
    have hjoin := Pipeline.unscopedBufs_of_arrays (p := 5) (pcfgs (F := F)) adm' (Ix := Unit) (Name := ℕ) (U := UR sig nD τ) (Lvl := ℕ)
      launch5.win launch5.arr_whole c (pdats m) ((pdats m 5 c).share_full fun _ => rfl)
      (X5 m c) (Y5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KernelIdeal.RunReg6.lean ====
/- Region 6 of the run as a segment between the valuations before and after it. -/
import proofs.«139862_j28269474742473_1_alg».proof.Proof.KernelIdeal.RunData
import proofs.«139862_j28269474742473_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the pinned configuration of pipeline 6 is the printed one only after unfolding definitions inside types
set_option backward.isDefEq.respectTransparency.types false in
/-- Region 6 over the thread state: entered from every unscoped buffer at the contents before it, left at the contents
    after it. Its arrays are split out of the unscoped buffers and put back at the exit contents; the generator register
    goes into the body's invariant and comes back; nothing is owed; the kernel has no semaphore of its own. -/
def reg6 : Pipeline.RegionSeg (pcfgs (F := F)) adm' (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (X6 m) c).loose
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (X6 m c)
  hentry c := by
    rw [Pipeline.ownSems0_none]
    have hsplit := Pipeline.arrays_of_unscopedBufs (p := 6) (pcfgs (F := F)) adm' (pdats m) launch6.win launch6.arr_whole c
      ((pdats m 6 c).share_full fun _ => rfl) (X6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec6 c : sProp 𝕄) ⊢ (pdats m 6 c).Φ 0 from hin6 (X6 m) c)
    unfold Pipeline.ΦA
    isplitl [Hr]; · iexact Hr
    iexact Hp
  hout c := by
    rw [Pipeline.ownSems0_none]
    iintro HΦ
    ihave H := (show (pdats m 6 c).Φ (Fin.last _) ⊢ (Pipeline.ΦA spec6 c : sProp 𝕄) from hout6 (X6 m) c) $$ HΦ
    unfold Pipeline.ΦA
    icases H with ⟨Hr, Hp⟩
    isplitl [Hp]; · iexact Hp
    isplitr; · iempintro
    iexact Hr
  hexit c := by
    have hjoin := Pipeline.unscopedBufs_of_arrays (p := 6) (pcfgs (F := F)) adm' (Ix := Unit) (Name := ℕ) (U := UR sig nD τ) (Lvl := ℕ)
      launch6.win launch6.arr_whole c (pdats m) ((pdats m 6 c).share_full fun _ => rfl)
      (X6 m c) (Y6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KernelIdeal.RunReg7.lean ====
/- Region 7 of the run as a segment between the valuations before and after it. -/
import proofs.«139862_j28269474742473_1_alg».proof.Proof.KernelIdeal.RunData
import proofs.«139862_j28269474742473_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the pinned configuration of pipeline 7 is the printed one only after unfolding definitions inside types
set_option backward.isDefEq.respectTransparency.types false in
/-- Region 7 over the thread state: entered from every unscoped buffer at the contents before it, left at the contents
    after it. Its arrays are split out of the unscoped buffers and put back at the exit contents; the generator register
    goes into the body's invariant and comes back; nothing is owed; the kernel has no semaphore of its own. -/
def reg7 : Pipeline.RegionSeg (pcfgs (F := F)) adm' (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (X7 m) c).loose
  hwaits := Pipeline.hwaits_of_owed_zero _ _ _ _ L lv 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (X7 m c)
  hentry c := by
    rw [Pipeline.ownSems0_none]
    have hsplit := Pipeline.arrays_of_unscopedBufs (p := 7) (pcfgs (F := F)) adm' (pdats m) launch7.win launch7.arr_whole c
      ((pdats m 7 c).share_full fun _ => rfl) (X7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec7 c : sProp 𝕄) ⊢ (pdats m 7 c).Φ 0 from hin7 (X7 m) c)
    unfold Pipeline.ΦA
    isplitl [Hr]; · iexact Hr
    iexact Hp
  hout c := by
    rw [Pipeline.ownSems0_none]
    iintro HΦ
    ihave H := (show (pdats m 7 c).Φ (Fin.last _) ⊢ (Pipeline.ΦA spec7 c : sProp 𝕄) from hout7 (X7 m) c) $$ HΦ
    unfold Pipeline.ΦA
    icases H with ⟨Hr, Hp⟩
    isplitl [Hp]; · iexact Hp
    isplitr; · iempintro
    iexact Hr
  hexit c := by
    have hjoin := Pipeline.unscopedBufs_of_arrays (p := 7) (pcfgs (F := F)) adm' (Ix := Unit) (Name := ℕ) (U := UR sig nD τ) (Lvl := ℕ)
      launch7.win launch7.arr_whole c (pdats m) ((pdats m 7 c).share_full fun _ => rfl)
      (X7 m c) (Y7 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KernelIdeal.RunReg8.lean ====
/- Region 8 of the run as a segment between the valuations before and after it. -/
import proofs.«139862_j28269474742473_1_alg».proof.Proof.KernelIdeal.RunData
import proofs.«139862_j28269474742473_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the pinned configuration of pipeline 8 is the printed one only after unfolding definitions inside types
set_option backward.isDefEq.respectTransparency.types false in
/-- Region 8 over the thread state: entered from every unscoped buffer at the contents before it, left at the contents
    after it. Its arrays are split out of the unscoped buffers and put back at the exit contents; the generator register
    goes into the body's invariant and comes back; nothing is owed; the kernel has no semaphore of its own. -/
def reg8 : Pipeline.RegionSeg (pcfgs (F := F)) adm' (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (X8 m) c).loose
  hwaits := Pipeline.hwaits_of_owed_zero _ _ _ _ L lv 8 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec8 c (X8 m c)
  hentry c := by
    rw [Pipeline.ownSems0_none]
    have hsplit := Pipeline.arrays_of_unscopedBufs (p := 8) (pcfgs (F := F)) adm' (pdats m) launch8.win launch8.arr_whole c
      ((pdats m 8 c).share_full fun _ => rfl) (X8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec8 c : sProp 𝕄) ⊢ (pdats m 8 c).Φ 0 from hin8 (X8 m) c)
    unfold Pipeline.ΦA
    isplitl [Hr]; · iexact Hr
    iexact Hp
  hout c := by
    rw [Pipeline.ownSems0_none]
    iintro HΦ
    ihave H := (show (pdats m 8 c).Φ (Fin.last _) ⊢ (Pipeline.ΦA spec8 c : sProp 𝕄) from hout8 (X8 m) c) $$ HΦ
    unfold Pipeline.ΦA
    icases H with ⟨Hr, Hp⟩
    isplitl [Hp]; · iexact Hp
    isplitr; · iempintro
    iexact Hr
  hexit c := by
    have hjoin := Pipeline.unscopedBufs_of_arrays (p := 8) (pcfgs (F := F)) adm' (Ix := Unit) (Name := ℕ) (U := UR sig nD τ) (Lvl := ℕ)
      launch8.win launch8.arr_whole c (pdats m) ((pdats m 8 c).share_full fun _ => rfl)
      (X8 m c) (Y8 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KernelIdeal.RunReg9.lean ====
/- Region 9 of the run as a segment between the valuations before and after it. -/
import proofs.«139862_j28269474742473_1_alg».proof.Proof.KernelIdeal.RunData
import proofs.«139862_j28269474742473_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the pinned configuration of pipeline 9 is the printed one only after unfolding definitions inside types
set_option backward.isDefEq.respectTransparency.types false in
/-- Region 9 over the thread state: entered from every unscoped buffer at the contents before it, left at the contents
    after it. Its arrays are split out of the unscoped buffers and put back at the exit contents; the generator register
    goes into the body's invariant and comes back; nothing is owed; the kernel has no semaphore of its own. -/
def reg9 : Pipeline.RegionSeg (pcfgs (F := F)) adm' (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (X9 m) c).loose
  hwaits := Pipeline.hwaits_of_owed_zero _ _ _ _ L lv 9 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec9 c (X9 m c)
  hentry c := by
    rw [Pipeline.ownSems0_none]
    have hsplit := Pipeline.arrays_of_unscopedBufs (p := 9) (pcfgs (F := F)) adm' (pdats m) launch9.win launch9.arr_whole c
      ((pdats m 9 c).share_full fun _ => rfl) (X9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec9 c : sProp 𝕄) ⊢ (pdats m 9 c).Φ 0 from hin9 (X9 m) c)
    unfold Pipeline.ΦA
    isplitl [Hr]; · iexact Hr
    iexact Hp
  hout c := by
    rw [Pipeline.ownSems0_none]
    iintro HΦ
    ihave H := (show (pdats m 9 c).Φ (Fin.last _) ⊢ (Pipeline.ΦA spec9 c : sProp 𝕄) from hout9 (X9 m) c) $$ HΦ
    unfold Pipeline.ΦA
    icases H with ⟨Hr, Hp⟩
    isplitl [Hp]; · iexact Hp
    isplitr; · iempintro
    iexact Hr
  hexit c := by
    have hjoin := Pipeline.unscopedBufs_of_arrays (p := 9) (pcfgs (F := F)) adm' (Ix := Unit) (Name := ℕ) (U := UR sig nD τ) (Lvl := ℕ)
      launch9.win launch9.arr_whole c (pdats m) ((pdats m 9 c).share_full fun _ => rfl)
      (X9 m c) (Y9 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KernelIdeal.Run.lean ====
/- The run of the kernel's program from the launch to the return: every weakly fair execution terminates, nothing faults,
   and each core's unscoped buffers end at the last valuation of the fold through @main. -/
import proofs.«139862_j28269474742473_1_alg».proof.Proof.KernelIdeal.RunReg0
import proofs.«139862_j28269474742473_1_alg».proof.Proof.KernelIdeal.RunReg1
import proofs.«139862_j28269474742473_1_alg».proof.Proof.KernelIdeal.RunReg2
import proofs.«139862_j28269474742473_1_alg».proof.Proof.KernelIdeal.RunReg3
import proofs.«139862_j28269474742473_1_alg».proof.Proof.KernelIdeal.RunReg4
import proofs.«139862_j28269474742473_1_alg».proof.Proof.KernelIdeal.RunReg5
import proofs.«139862_j28269474742473_1_alg».proof.Proof.KernelIdeal.RunReg6
import proofs.«139862_j28269474742473_1_alg».proof.Proof.KernelIdeal.RunReg7
import proofs.«139862_j28269474742473_1_alg».proof.Proof.KernelIdeal.RunReg8
import proofs.«139862_j28269474742473_1_alg».proof.Proof.KernelIdeal.RunReg9
import proofs.«139862_j28269474742473_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 21 items in order: a host segment per stretch from its boundary's contents, a region per kernel call. -/
abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)),
    .region (reg6 m),
    .host (hseg hostOps7 hostOps7_sub hostOps7_fresh (W14 m)),
    .region (reg7 m),
    .host (hseg hostOps8 hostOps8_sub hostOps8_fresh (W16 m)),
    .region (reg8 m),
    .host (hseg hostOps9 hostOps9_sub hostOps9_fresh (W18 m)),
    .region (reg9 m),
    .host (hseg hostOps10 hostOps10_sub hostOps10_fresh (W20 m)) ]

/-- @main is the run of the segments. -/
theorem main_run (c : Dev nD) : main (F := F) c = Pipeline.Seg.run (segs m) := (main_chain c).trans (by chain_rfl)

/-- The last thread state without the dues: every unscoped buffer at the last boundary's contents, the generator register at some state. -/
abbrev Tₙ (c : Dev nD) : sProp 𝕄 := iprop(StableHlo.held (c : Thread nD τ) (Pipeline.ucRefs τ sig) (W21 m c) ∗ ∃ r, prngReg c r)

set_option backward.isDefEq.respectTransparency.types false in
/-- THE RUN: from any memory with zero counters every weakly fair execution of @main on the TensorCores terminates,
    nothing faulting, and in every final state each unscoped buffer of each core holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W21 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m c b)
    (hfin := fun c s' => by
      iintro ⟨⟨Hh, -⟩, HSI⟩
      unfold StableHlo.held
      imodintro
      iapply (pointsTo_read_all (Pipeline.ucRefs τ sig) (fun b => (((c : Thread nD τ)).1, b)) (W21 m c) s')
      isplitl [Hh] <;> iassumption)
    (hQ := fun s h c => h c)

end Cert.KernelIdeal.Reg

end
-- ==== Proof.KernelIdeal.RunArgs.lean ====
/- Every argument array reaches the return as launched: no host stretch writes one, and a region either reads it through
   an input window or leaves it alone. -/
import proofs.«139862_j28269474742473_1_alg».proof.Proof.KernelIdeal.RunData
import proofs.«139862_j28269474742473_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W21_main_arg0 (c : Dev nD) : W21 m c (Proc.devRef .tc main_arg0) = m ((c : Thread nD τ).loc main_arg0) :=
  ((StableHlo.after_of_writes_sub hostOps10 (W20 m c) hostOps10_writes (by decide)).trans <|
    (W20_of_ne m c main_arg0 (by decide)).trans <|
    (StableHlo.after_of_writes_sub hostOps9 (W18 m c) hostOps9_writes (by decide)).trans <|
    (W18_of_ne m c main_arg0 (by decide)).trans <|
    (StableHlo.after_of_writes_sub hostOps8 (W16 m c) hostOps8_writes (by decide)).trans <|
    (W16_of_ne m c main_arg0 (by decide)).trans <|
    (StableHlo.after_of_writes_sub hostOps7 (W14 m c) hostOps7_writes (by decide)).trans <|
    (W14_of_ne m c main_arg0 (by decide)).trans <|
    (StableHlo.after_of_writes_sub hostOps6 (W12 m c) hostOps6_writes (by decide)).trans <|
    (W12_of_ne m c main_arg0 (by decide)).trans <|
    (StableHlo.after_of_writes_sub hostOps5 (W10 m c) hostOps5_writes (by decide)).trans <|
    (W10_of_ne m c main_arg0 (by decide)).trans <|
    (StableHlo.after_of_writes_sub hostOps4 (W8 m c) hostOps4_writes (by decide)).trans <|
    (W8_of_ne m c main_arg0 (by decide)).trans <|
    (StableHlo.after_of_writes_sub hostOps3 (W6 m c) hostOps3_writes (by decide)).trans <|
    (W6_of_ne m c main_arg0 (by decide)).trans <|
    (StableHlo.after_of_writes_sub hostOps2 (W4 m c) hostOps2_writes (by decide)).trans <|
    (W4_of_ne m c main_arg0 (by decide)).trans <|
    (StableHlo.after_of_writes_sub hostOps1 (W2 m c) hostOps1_writes (by decide)).trans <|
    ((W2_arr m c 0).trans (((dat0 (X0 m) c).arrAt_in 0 rfl _).trans (A_eq0 (X0 m) c 0))).trans <|
    (StableHlo.after_of_writes_sub hostOps0 (W0 m c) hostOps0_writes (by decide))).trans rfl
theorem W21_main_arg1 (c : Dev nD) : W21 m c (Proc.devRef .tc main_arg1) = m ((c : Thread nD τ).loc main_arg1) :=
  ((StableHlo.after_of_writes_sub hostOps10 (W20 m c) hostOps10_writes (by decide)).trans <|
    (W20_of_ne m c main_arg1 (by decide)).trans <|
    (StableHlo.after_of_writes_sub hostOps9 (W18 m c) hostOps9_writes (by decide)).trans <|
    (W18_of_ne m c main_arg1 (by decide)).trans <|
    (StableHlo.after_of_writes_sub hostOps8 (W16 m c) hostOps8_writes (by decide)).trans <|
    (W16_of_ne m c main_arg1 (by decide)).trans <|
    (StableHlo.after_of_writes_sub hostOps7 (W14 m c) hostOps7_writes (by decide)).trans <|
    (W14_of_ne m c main_arg1 (by decide)).trans <|
    (StableHlo.after_of_writes_sub hostOps6 (W12 m c) hostOps6_writes (by decide)).trans <|
    (W12_of_ne m c main_arg1 (by decide)).trans <|
    (StableHlo.after_of_writes_sub hostOps5 (W10 m c) hostOps5_writes (by decide)).trans <|
    (W10_of_ne m c main_arg1 (by decide)).trans <|
    (StableHlo.after_of_writes_sub hostOps4 (W8 m c) hostOps4_writes (by decide)).trans <|
    (W8_of_ne m c main_arg1 (by decide)).trans <|
    (StableHlo.after_of_writes_sub hostOps3 (W6 m c) hostOps3_writes (by decide)).trans <|
    (W6_of_ne m c main_arg1 (by decide)).trans <|
    (StableHlo.after_of_writes_sub hostOps2 (W4 m c) hostOps2_writes (by decide)).trans <|
    (W4_of_ne m c main_arg1 (by decide)).trans <|
    (StableHlo.after_of_writes_sub hostOps1 (W2 m c) hostOps1_writes (by decide)).trans <|
    (W2_of_ne m c main_arg1 (by decide)).trans <|
    (StableHlo.after_of_writes_sub hostOps0 (W0 m c) hostOps0_writes (by decide))).trans rfl
theorem W21_main_arg2 (c : Dev nD) : W21 m c (Proc.devRef .tc main_arg2) = m ((c : Thread nD τ).loc main_arg2) :=
  ((StableHlo.after_of_writes_sub hostOps10 (W20 m c) hostOps10_writes (by decide)).trans <|
    (W20_of_ne m c main_arg2 (by decide)).trans <|
    (StableHlo.after_of_writes_sub hostOps9 (W18 m c) hostOps9_writes (by decide)).trans <|
    (W18_of_ne m c main_arg2 (by decide)).trans <|
    (StableHlo.after_of_writes_sub hostOps8 (W16 m c) hostOps8_writes (by decide)).trans <|
    (W16_of_ne m c main_arg2 (by decide)).trans <|
    (StableHlo.after_of_writes_sub hostOps7 (W14 m c) hostOps7_writes (by decide)).trans <|
    (W14_of_ne m c main_arg2 (by decide)).trans <|
    (StableHlo.after_of_writes_sub hostOps6 (W12 m c) hostOps6_writes (by decide)).trans <|
    (W12_of_ne m c main_arg2 (by decide)).trans <|
    (StableHlo.after_of_writes_sub hostOps5 (W10 m c) hostOps5_writes (by decide)).trans <|
    (W10_of_ne m c main_arg2 (by decide)).trans <|
    (StableHlo.after_of_writes_sub hostOps4 (W8 m c) hostOps4_writes (by decide)).trans <|
    (W8_of_ne m c main_arg2 (by decide)).trans <|
    (StableHlo.after_of_writes_sub hostOps3 (W6 m c) hostOps3_writes (by decide)).trans <|
    (W6_of_ne m c main_arg2 (by decide)).trans <|
    (StableHlo.after_of_writes_sub hostOps2 (W4 m c) hostOps2_writes (by decide)).trans <|
    (W4_of_ne m c main_arg2 (by decide)).trans <|
    (StableHlo.after_of_writes_sub hostOps1 (W2 m c) hostOps1_writes (by decide)).trans <|
    (W2_of_ne m c main_arg2 (by decide)).trans <|
    (StableHlo.after_of_writes_sub hostOps0 (W0 m c) hostOps0_writes (by decide))).trans rfl
theorem W21_main_arg3 (c : Dev nD) : W21 m c (Proc.devRef .tc main_arg3) = m ((c : Thread nD τ).loc main_arg3) :=
  ((StableHlo.after_of_writes_sub hostOps10 (W20 m c) hostOps10_writes (by decide)).trans <|
    (W20_of_ne m c main_arg3 (by decide)).trans <|
    (StableHlo.after_of_writes_sub hostOps9 (W18 m c) hostOps9_writes (by decide)).trans <|
    (W18_of_ne m c main_arg3 (by decide)).trans <|
    (StableHlo.after_of_writes_sub hostOps8 (W16 m c) hostOps8_writes (by decide)).trans <|
    (W16_of_ne m c main_arg3 (by decide)).trans <|
    (StableHlo.after_of_writes_sub hostOps7 (W14 m c) hostOps7_writes (by decide)).trans <|
    (W14_of_ne m c main_arg3 (by decide)).trans <|
    (StableHlo.after_of_writes_sub hostOps6 (W12 m c) hostOps6_writes (by decide)).trans <|
    (W12_of_ne m c main_arg3 (by decide)).trans <|
    (StableHlo.after_of_writes_sub hostOps5 (W10 m c) hostOps5_writes (by decide)).trans <|
    (W10_of_ne m c main_arg3 (by decide)).trans <|
    (StableHlo.after_of_writes_sub hostOps4 (W8 m c) hostOps4_writes (by decide)).trans <|
    (W8_of_ne m c main_arg3 (by decide)).trans <|
    (StableHlo.after_of_writes_sub hostOps3 (W6 m c) hostOps3_writes (by decide)).trans <|
    (W6_of_ne m c main_arg3 (by decide)).trans <|
    (StableHlo.after_of_writes_sub hostOps2 (W4 m c) hostOps2_writes (by decide)).trans <|
    (W4_of_ne m c main_arg3 (by decide)).trans <|
    (StableHlo.after_of_writes_sub hostOps1 (W2 m c) hostOps1_writes (by decide)).trans <|
    (W2_of_ne m c main_arg3 (by decide)).trans <|
    (StableHlo.after_of_writes_sub hostOps0 (W0 m c) hostOps0_writes (by decide))).trans rfl
theorem W21_main_arg4 (c : Dev nD) : W21 m c (Proc.devRef .tc main_arg4) = m ((c : Thread nD τ).loc main_arg4) :=
  ((StableHlo.after_of_writes_sub hostOps10 (W20 m c) hostOps10_writes (by decide)).trans <|
    (W20_of_ne m c main_arg4 (by decide)).trans <|
    (StableHlo.after_of_writes_sub hostOps9 (W18 m c) hostOps9_writes (by decide)).trans <|
    (W18_of_ne m c main_arg4 (by decide)).trans <|
    (StableHlo.after_of_writes_sub hostOps8 (W16 m c) hostOps8_writes (by decide)).trans <|
    (W16_of_ne m c main_arg4 (by decide)).trans <|
    (StableHlo.after_of_writes_sub hostOps7 (W14 m c) hostOps7_writes (by decide)).trans <|
    (W14_of_ne m c main_arg4 (by decide)).trans <|
    (StableHlo.after_of_writes_sub hostOps6 (W12 m c) hostOps6_writes (by decide)).trans <|
    (W12_of_ne m c main_arg4 (by decide)).trans <|
    (StableHlo.after_of_writes_sub hostOps5 (W10 m c) hostOps5_writes (by decide)).trans <|
    (W10_of_ne m c main_arg4 (by decide)).trans <|
    (StableHlo.after_of_writes_sub hostOps4 (W8 m c) hostOps4_writes (by decide)).trans <|
    (W8_of_ne m c main_arg4 (by decide)).trans <|
    (StableHlo.after_of_writes_sub hostOps3 (W6 m c) hostOps3_writes (by decide)).trans <|
    (W6_of_ne m c main_arg4 (by decide)).trans <|
    (StableHlo.after_of_writes_sub hostOps2 (W4 m c) hostOps2_writes (by decide)).trans <|
    (W4_of_ne m c main_arg4 (by decide)).trans <|
    (StableHlo.after_of_writes_sub hostOps1 (W2 m c) hostOps1_writes (by decide)).trans <|
    (W2_of_ne m c main_arg4 (by decide)).trans <|
    (StableHlo.after_of_writes_sub hostOps0 (W0 m c) hostOps0_writes (by decide))).trans rfl
theorem W21_main_arg5 (c : Dev nD) : W21 m c (Proc.devRef .tc main_arg5) = m ((c : Thread nD τ).loc main_arg5) :=
  ((StableHlo.after_of_writes_sub hostOps10 (W20 m c) hostOps10_writes (by decide)).trans <|
    (W20_of_ne m c main_arg5 (by decide)).trans <|
    (StableHlo.after_of_writes_sub hostOps9 (W18 m c) hostOps9_writes (by decide)).trans <|
    (W18_of_ne m c main_arg5 (by decide)).trans <|
    (StableHlo.after_of_writes_sub hostOps8 (W16 m c) hostOps8_writes (by decide)).trans <|
    (W16_of_ne m c main_arg5 (by decide)).trans <|
    (StableHlo.after_of_writes_sub hostOps7 (W14 m c) hostOps7_writes (by decide)).trans <|
    (W14_of_ne m c main_arg5 (by decide)).trans <|
    (StableHlo.after_of_writes_sub hostOps6 (W12 m c) hostOps6_writes (by decide)).trans <|
    (W12_of_ne m c main_arg5 (by decide)).trans <|
    (StableHlo.after_of_writes_sub hostOps5 (W10 m c) hostOps5_writes (by decide)).trans <|
    (W10_of_ne m c main_arg5 (by decide)).trans <|
    (StableHlo.after_of_writes_sub hostOps4 (W8 m c) hostOps4_writes (by decide)).trans <|
    (W8_of_ne m c main_arg5 (by decide)).trans <|
    (StableHlo.after_of_writes_sub hostOps3 (W6 m c) hostOps3_writes (by decide)).trans <|
    (W6_of_ne m c main_arg5 (by decide)).trans <|
    (StableHlo.after_of_writes_sub hostOps2 (W4 m c) hostOps2_writes (by decide)).trans <|
    (W4_of_ne m c main_arg5 (by decide)).trans <|
    (StableHlo.after_of_writes_sub hostOps1 (W2 m c) hostOps1_writes (by decide)).trans <|
    (W2_of_ne m c main_arg5 (by decide)).trans <|
    (StableHlo.after_of_writes_sub hostOps0 (W0 m c) hostOps0_writes (by decide))).trans rfl
theorem W21_main_arg6 (c : Dev nD) : W21 m c (Proc.devRef .tc main_arg6) = m ((c : Thread nD τ).loc main_arg6) :=
  ((StableHlo.after_of_writes_sub hostOps10 (W20 m c) hostOps10_writes (by decide)).trans <|
    (W20_of_ne m c main_arg6 (by decide)).trans <|
    (StableHlo.after_of_writes_sub hostOps9 (W18 m c) hostOps9_writes (by decide)).trans <|
    (W18_of_ne m c main_arg6 (by decide)).trans <|
    (StableHlo.after_of_writes_sub hostOps8 (W16 m c) hostOps8_writes (by decide)).trans <|
    (W16_of_ne m c main_arg6 (by decide)).trans <|
    (StableHlo.after_of_writes_sub hostOps7 (W14 m c) hostOps7_writes (by decide)).trans <|
    (W14_of_ne m c main_arg6 (by decide)).trans <|
    (StableHlo.after_of_writes_sub hostOps6 (W12 m c) hostOps6_writes (by decide)).trans <|
    (W12_of_ne m c main_arg6 (by decide)).trans <|
    (StableHlo.after_of_writes_sub hostOps5 (W10 m c) hostOps5_writes (by decide)).trans <|
    (W10_of_ne m c main_arg6 (by decide)).trans <|
    (StableHlo.after_of_writes_sub hostOps4 (W8 m c) hostOps4_writes (by decide)).trans <|
    (W8_of_ne m c main_arg6 (by decide)).trans <|
    (StableHlo.after_of_writes_sub hostOps3 (W6 m c) hostOps3_writes (by decide)).trans <|
    (W6_of_ne m c main_arg6 (by decide)).trans <|
    (StableHlo.after_of_writes_sub hostOps2 (W4 m c) hostOps2_writes (by decide)).trans <|
    (W4_of_ne m c main_arg6 (by decide)).trans <|
    (StableHlo.after_of_writes_sub hostOps1 (W2 m c) hostOps1_writes (by decide)).trans <|
    (W2_of_ne m c main_arg6 (by decide)).trans <|
    (StableHlo.after_of_writes_sub hostOps0 (W0 m c) hostOps0_writes (by decide))).trans rfl
theorem W21_main_arg7 (c : Dev nD) : W21 m c (Proc.devRef .tc main_arg7) = m ((c : Thread nD τ).loc main_arg7) :=
  ((StableHlo.after_of_writes_sub hostOps10 (W20 m c) hostOps10_writes (by decide)).trans <|
    (W20_of_ne m c main_arg7 (by decide)).trans <|
    (StableHlo.after_of_writes_sub hostOps9 (W18 m c) hostOps9_writes (by decide)).trans <|
    (W18_of_ne m c main_arg7 (by decide)).trans <|
    (StableHlo.after_of_writes_sub hostOps8 (W16 m c) hostOps8_writes (by decide)).trans <|
    (W16_of_ne m c main_arg7 (by decide)).trans <|
    (StableHlo.after_of_writes_sub hostOps7 (W14 m c) hostOps7_writes (by decide)).trans <|
    (W14_of_ne m c main_arg7 (by decide)).trans <|
    (StableHlo.after_of_writes_sub hostOps6 (W12 m c) hostOps6_writes (by decide)).trans <|
    (W12_of_ne m c main_arg7 (by decide)).trans <|
    (StableHlo.after_of_writes_sub hostOps5 (W10 m c) hostOps5_writes (by decide)).trans <|
    (W10_of_ne m c main_arg7 (by decide)).trans <|
    (StableHlo.after_of_writes_sub hostOps4 (W8 m c) hostOps4_writes (by decide)).trans <|
    (W8_of_ne m c main_arg7 (by decide)).trans <|
    (StableHlo.after_of_writes_sub hostOps3 (W6 m c) hostOps3_writes (by decide)).trans <|
    (W6_of_ne m c main_arg7 (by decide)).trans <|
    (StableHlo.after_of_writes_sub hostOps2 (W4 m c) hostOps2_writes (by decide)).trans <|
    (W4_of_ne m c main_arg7 (by decide)).trans <|
    (StableHlo.after_of_writes_sub hostOps1 (W2 m c) hostOps1_writes (by decide)).trans <|
    (W2_of_ne m c main_arg7 (by decide)).trans <|
    (StableHlo.after_of_writes_sub hostOps0 (W0 m c) hostOps0_writes (by decide))).trans rfl
theorem W21_main_arg8 (c : Dev nD) : W21 m c (Proc.devRef .tc main_arg8) = m ((c : Thread nD τ).loc main_arg8) :=
  ((StableHlo.after_of_writes_sub hostOps10 (W20 m c) hostOps10_writes (by decide)).trans <|
    (W20_of_ne m c main_arg8 (by decide)).trans <|
    (StableHlo.after_of_writes_sub hostOps9 (W18 m c) hostOps9_writes (by decide)).trans <|
    (W18_of_ne m c main_arg8 (by decide)).trans <|
    (StableHlo.after_of_writes_sub hostOps8 (W16 m c) hostOps8_writes (by decide)).trans <|
    (W16_of_ne m c main_arg8 (by decide)).trans <|
    (StableHlo.after_of_writes_sub hostOps7 (W14 m c) hostOps7_writes (by decide)).trans <|
    (W14_of_ne m c main_arg8 (by decide)).trans <|
    (StableHlo.after_of_writes_sub hostOps6 (W12 m c) hostOps6_writes (by decide)).trans <|
    (W12_of_ne m c main_arg8 (by decide)).trans <|
    (StableHlo.after_of_writes_sub hostOps5 (W10 m c) hostOps5_writes (by decide)).trans <|
    (W10_of_ne m c main_arg8 (by decide)).trans <|
    (StableHlo.after_of_writes_sub hostOps4 (W8 m c) hostOps4_writes (by decide)).trans <|
    (W8_of_ne m c main_arg8 (by decide)).trans <|
    (StableHlo.after_of_writes_sub hostOps3 (W6 m c) hostOps3_writes (by decide)).trans <|
    (W6_of_ne m c main_arg8 (by decide)).trans <|
    (StableHlo.after_of_writes_sub hostOps2 (W4 m c) hostOps2_writes (by decide)).trans <|
    (W4_of_ne m c main_arg8 (by decide)).trans <|
    (StableHlo.after_of_writes_sub hostOps1 (W2 m c) hostOps1_writes (by decide)).trans <|
    (W2_of_ne m c main_arg8 (by decide)).trans <|
    (StableHlo.after_of_writes_sub hostOps0 (W0 m c) hostOps0_writes (by decide))).trans rfl

end Cert.KernelIdeal.Reg

end
-- ==== Proof.KernelIdeal.MlpValue.lean ====
import proofs.«139862_j28269474742473_1_alg».proof.Proof.Gen.KernelIdeal
import Idealize.ShloMosaic.PureOps.Ideal.Laws
import Idealize.ShloMosaic.Lib.Pipeline.Value
import Idealize.ShloMosaic.Lib.ValueIdx
import Idealize.ShloMosaic.Lib.ValueLayout

/-! # The MLP kernel's arithmetic, read at an index over the extended reals

One point of an MLP region works on a block of 5000 rows: it adds the two row blocks, multiplies by the first
weight matrix, adds the first bias row, rectifies, multiplies by the second weight matrix, adds the second bias
row and rectifies again; then it adds the block's column sums (and the column sums of its squares) onto a
`[1,128]` accumulator. Over the extended reals a change of float format is the identity and a matrix product
into a zero accumulator is the plain sum of products, so each of these is a closed formula at an index. -/

set_option maxRecDepth 16384

noncomputable section

namespace Cert.KernelIdeal.Reg

open Cert.KernelIdeal Cert.KernelIdeal.Facts₀ Cert.KernelIdeal.Facts
open Idealize.ShloMosaic Idealize.ShloMosaic.ValueIdx

/-- A product of an `[n,128]` block by a `[128,128]` matrix into the zero accumulator, at `(p, q)`: the sum over the
    contracted coordinate of the products of the entries. -/
theorem mlpDot_apply {φ₁ φ₂ : FTy} (A : FVec Ideal S5000x128 φ₁) (B : FVec Ideal S128x128 φ₂) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul _ none A B _ (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have c2 := contrEquiv1_symm_val dot_S5000x128_S128x128_S5000x128_1_0_0_1_n_n 128 rfl rfl k
  have l2 : dot_S5000x128_S128x128_S5000x128_1_0_0_1_n_n.lhsIdx (ix2 p q) ((contrEquiv1 _ 128 rfl rfl).symm k) = ix2 p k := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact c2
  have r2 : dot_S5000x128_S128x128_S5000x128_1_0_0_1_n_n.rhsIdx (ix2 p q) ((contrEquiv1 _ 128 rfl rfl).symm k) = ix2 k q := by
    funext ax; apply Fin.ext
    match ax with
    | ⟨0, _⟩ => simp [DotDims.rhsIdx, dot_S5000x128_S128x128_S5000x128_1_0_0_1_n_n]; exact c2
    | ⟨1, _⟩ => simp [DotDims.rhsIdx, dot_S5000x128_S128x128_S5000x128_1_0_0_1_n_n]; rfl
  rw [l2, r2]

/-! ## The payloads' shapes, once for the five MLP kernels -/

/-- The hidden stage as the kernels compute it: the two row blocks added, times the first weight matrix, plus the first
    bias row, rectified (the changes of float format are the identity over the extended reals). -/
def mlpHid (x0 x1 : FVec Ideal S5000x128 .f32) (x2 : FVec Ideal S128x128 .f32) (x3 : FVec Ideal S1x128 .f32) : FVec Ideal S5000x128 .bf16 :=
  truncf .bf16 (maximumf (addf (matmul dot_S5000x128_S128x128_S5000x128_1_0_0_1_n_n none
          (truncf .bf16 (addf x0 (shapeCast S5000x128 x1 shapeCasts_S5000x128_S5000x128)) bitsLt_bf16_f32)
          (truncf .bf16 (shapeCast S128x128 x2 shapeCasts_S128x128_S128x128) bitsLt_bf16_f32)
          (constant S5000x128 .f32 0x00000000#32))
        (broadcastTo S5000x128 (shapeCast S1x128 x3 shapeCasts_S1x128_S1x128) broadcasts_S1x128_S5000x128))
        (broadcast S5000x128 (Scalar.ofBits .f32 0x00000000#32))) bitsLt_bf16_f32

/-- The block of the MLP's output from the six input blocks, as the kernels compute it (the operations of their
    payload `pay5`, in order). -/
def mlpPay (x0 x1 : FVec Ideal S5000x128 .f32) (x2 : FVec Ideal S128x128 .f32) (x3 : FVec Ideal S1x128 .f32)
    (x4 : FVec Ideal S128x128 .f32) (x5 : FVec Ideal S1x128 .f32) : FVec Ideal S5000x128 .f32 :=
  maximumf (addf (matmul dot_S5000x128_S128x128_S5000x128_1_0_0_1_n_n none
      (mlpHid x0 x1 x2 x3)
      (truncf .bf16 (shapeCast S128x128 x4 shapeCasts_S128x128_S128x128) bitsLt_bf16_f32)
      (constant S5000x128 .f32 0x00000000#32))
    (broadcastTo S5000x128 (shapeCast S1x128 x5 shapeCasts_S1x128_S1x128) broadcasts_S1x128_S5000x128))
    (broadcast S5000x128 (Scalar.ofBits .f32 0x00000000#32))

/-- The MLP on `n` rows, entry by entry: `max (max ((h + agg)·W1 + b1) 0 · W2 + b2) 0`. -/
def mlpRows {n : ℕ} (h agg : FVec Ideal ⟨2, ![n, 128]⟩ .f32) (W1 : FVec Ideal S128x128 .f32) (b1 : FVec Ideal S1x128 .f32)
    (W2 : FVec Ideal S128x128 .f32) (b2 : FVec Ideal S1x128 .f32) : FVec Ideal ⟨2, ![n, 128]⟩ .f32 :=
  fun i => max ((∑ k : Fin 128, max ((∑ l : Fin 128, (h (ix2 (i 0) l) + agg (ix2 (i 0) l)) * W1 (ix2 l k)) + b1 (ix2 (0 : Fin 1) k)) 0
      * W2 (ix2 k (i 1))) + b2 (ix2 (0 : Fin 1) (i 1))) 0

theorem mlpRows_apply {n : ℕ} (h agg : FVec Ideal ⟨2, ![n, 128]⟩ .f32) (W1 : FVec Ideal S128x128 .f32) (b1 : FVec Ideal S1x128 .f32)
    (W2 : FVec Ideal S128x128 .f32) (b2 : FVec Ideal S1x128 .f32) (r : Fin n) (j : Fin 128) :
    mlpRows h agg W1 b1 W2 b2 (ix2 r j)
      = max ((∑ k : Fin 128, max ((∑ l : Fin 128, (h (ix2 r l) + agg (ix2 r l)) * W1 (ix2 l k)) + b1 (ix2 (0 : Fin 1) k)) 0
          * W2 (ix2 k j)) + b2 (ix2 (0 : Fin 1) j)) 0 := rfl

/-- The zero of the rectifier, read over the extended reals. -/
theorem mlp_zero : (Scalar.ofBits (F := Ideal) .f32 0x00000000#32 : Ideal .f32) = 0 := Ideal.ofBits_zero_f32

/-- The hidden stage at `(p, k)`. -/
theorem mlpHid_apply (x0 x1 : FVec Ideal S5000x128 .f32) (x2 : FVec Ideal S128x128 .f32) (x3 : FVec Ideal S1x128 .f32) (p : Fin 5000) (k : Fin 128) :
    mlpHid x0 x1 x2 x3 (ix2 p k)
      = max ((∑ l : Fin 128, (x0 (ix2 p l) + x1 (ix2 p l)) * x2 (ix2 l k)) + x3 (ix2 (0 : Fin 1) k)) 0 := by
  unfold mlpHid
  rw [truncf_apply, maximumf_apply, addf_apply, mlpDot_apply, broadcast_apply, mlp_zero, shapeCast_self, shapeCast_self, shapeCast_self]
  refine congrArg (fun z => max z 0) (congrArg₂ (· + ·) (Finset.sum_congr rfl fun l _ => ?_) ?_)
  · rw [truncf_apply, truncf_apply, addf_apply]
  · exact broadcastTo_1b_ab_apply x3 broadcasts_S1x128_S5000x128 p k

/-- The kernels' payload IS the MLP on the block's rows. -/
theorem mlpPay_eq (x0 x1 : FVec Ideal S5000x128 .f32) (x2 : FVec Ideal S128x128 .f32) (x3 : FVec Ideal S1x128 .f32)
    (x4 : FVec Ideal S128x128 .f32) (x5 : FVec Ideal S1x128 .f32) : mlpPay x0 x1 x2 x3 x4 x5 = mlpRows x0 x1 x2 x3 x4 x5 := by
  funext j
  obtain ⟨p, q, rfl⟩ : ∃ (p : Fin 5000) (q : Fin 128), j = ix2 p q := ⟨j 0, j 1, eq_ix2 j⟩
  rw [mlpRows_apply]
  unfold mlpPay
  rw [maximumf_apply, addf_apply, mlpDot_apply, broadcast_apply, mlp_zero]
  refine congrArg (fun z => max z 0) (congrArg₂ (· + ·) (Finset.sum_congr rfl fun k _ => ?_) ?_)
  · rw [mlpHid_apply, truncf_apply, shapeCast_self]
  · exact (broadcastTo_1b_ab_apply _ broadcasts_S1x128_S5000x128 p q).trans (by rw [shapeCast_self])

/-! ## The accumulators -/

/-- One point's update of an accumulator: the column sums of a block added onto what it held. -/
def accStep (s : FVec Ideal S1x128 .f32) (X : FVec Ideal S5000x128 .f32) : FVec Ideal S1x128 .f32 :=
  shapeCast S1x128 (addf s (shapeCast S1x128 (multiReduction (F := Ideal) .add [0] S128 X 0x00000000#32 reduces_S5000x128_S128 (.inl rfl) rfl) shapeCasts_S128_S1x128)) shapeCasts_S1x128_S1x128

/-- The accumulators as the first point zeroes them. -/
def zeroRow : FVec Ideal S1x128 .f32 :=
  shapeCast S1x128 (broadcast S1x128 (Scalar.ofBits (F := Ideal) .f32 0x00000000#32)) shapeCasts_S1x128_S1x128

theorem zeroRow_apply (i : S1x128.Idx) : zeroRow i = 0 := by
  unfold zeroRow; rw [shapeCast_self, broadcast_apply, mlp_zero]

/-- The row above column `q` at position `p` of the summed axis. -/
theorem liftRow (q : Fin 128) (p : Fin 5000) : reduces_S5000x128_S128.lift (ix1 q) p = ix2 p q := by
  funext ax; apply Fin.ext
  match ax with
  | ⟨0, _⟩ => rfl
  | ⟨1, _⟩ => rfl

/-- The update at column `q`: what the accumulator held plus the sum of the block's column. -/
theorem accStep_apply (s : FVec Ideal S1x128 .f32) (X : FVec Ideal S5000x128 .f32) (q : Fin 128) :
    accStep s X (ix2 (0 : Fin 1) q) = s (ix2 (0 : Fin 1) q) + ∑ p : Fin 5000, X (ix2 p q) := by
  unfold accStep
  rw [shapeCast_self, addf_apply]
  refine congrArg (s (ix2 (0 : Fin 1) q) + ·) ?_
  refine (shapeCast_a_1a_apply _ shapeCasts_S128_S1x128 (0 : Fin 1) q).trans ?_
  refine (Ideal.multiReduction_add_single X 0x00000000#32 reduces_S5000x128_S128 (.inl rfl) rfl (ix1 q)).trans ?_
  exact Finset.sum_congr rfl fun p _ => congrArg X (liftRow q p)

/-! ## The same payload as the later layers' kernels spell it (both row blocks pass through a shape cast) -/

def mlpHidB (x0 x1 : FVec Ideal S5000x128 .f32) (x2 : FVec Ideal S128x128 .f32) (x3 : FVec Ideal S1x128 .f32) : FVec Ideal S5000x128 .bf16 :=
  truncf .bf16 (maximumf (addf (matmul dot_S5000x128_S128x128_S5000x128_1_0_0_1_n_n none
          (truncf .bf16 (addf (shapeCast S5000x128 x0 shapeCasts_S5000x128_S5000x128) (shapeCast S5000x128 x1 shapeCasts_S5000x128_S5000x128)) bitsLt_bf16_f32)
          (truncf .bf16 (shapeCast S128x128 x2 shapeCasts_S128x128_S128x128) bitsLt_bf16_f32)
          (constant S5000x128 .f32 0x00000000#32))
        (broadcastTo S5000x128 (shapeCast S1x128 x3 shapeCasts_S1x128_S1x128) broadcasts_S1x128_S5000x128))
        (broadcast S5000x128 (Scalar.ofBits .f32 0x00000000#32))) bitsLt_bf16_f32

def mlpPayB (x0 x1 : FVec Ideal S5000x128 .f32) (x2 : FVec Ideal S128x128 .f32) (x3 : FVec Ideal S1x128 .f32)
    (x4 : FVec Ideal S128x128 .f32) (x5 : FVec Ideal S1x128 .f32) : FVec Ideal S5000x128 .f32 :=
  maximumf (addf (matmul dot_S5000x128_S128x128_S5000x128_1_0_0_1_n_n none
      (mlpHidB x0 x1 x2 x3)
      (truncf .bf16 (shapeCast S128x128 x4 shapeCasts_S128x128_S128x128) bitsLt_bf16_f32)
      (constant S5000x128 .f32 0x00000000#32))
    (broadcastTo S5000x128 (shapeCast S1x128 x5 shapeCasts_S1x128_S1x128) broadcasts_S1x128_S5000x128))
    (broadcast S5000x128 (Scalar.ofBits .f32 0x00000000#32))

theorem mlpHidB_apply (x0 x1 : FVec Ideal S5000x128 .f32) (x2 : FVec Ideal S128x128 .f32) (x3 : FVec Ideal S1x128 .f32) (p : Fin 5000) (k : Fin 128) :
    mlpHidB x0 x1 x2 x3 (ix2 p k)
      = max ((∑ l : Fin 128, (x0 (ix2 p l) + x1 (ix2 p l)) * x2 (ix2 l k)) + x3 (ix2 (0 : Fin 1) k)) 0 := by
  unfold mlpHidB
  rw [truncf_apply, maximumf_apply, addf_apply, mlpDot_apply, broadcast_apply, mlp_zero, shapeCast_self, shapeCast_self, shapeCast_self, shapeCast_self]
  refine congrArg (fun z => max z 0) (congrArg₂ (· + ·) (Finset.sum_congr rfl fun l _ => ?_) ?_)
  · rw [truncf_apply, truncf_apply, addf_apply]
  · exact broadcastTo_1b_ab_apply x3 broadcasts_S1x128_S5000x128 p k

theorem mlpPayB_eq (x0 x1 : FVec Ideal S5000x128 .f32) (x2 : FVec Ideal S128x128 .f32) (x3 : FVec Ideal S1x128 .f32)
    (x4 : FVec Ideal S128x128 .f32) (x5 : FVec Ideal S1x128 .f32) : mlpPayB x0 x1 x2 x3 x4 x5 = mlpRows x0 x1 x2 x3 x4 x5 := by
  funext j
  obtain ⟨p, q, rfl⟩ : ∃ (p : Fin 5000) (q : Fin 128), j = ix2 p q := ⟨j 0, j 1, eq_ix2 j⟩
  rw [mlpRows_apply]
  unfold mlpPayB
  rw [maximumf_apply, addf_apply, mlpDot_apply, broadcast_apply, mlp_zero]
  refine congrArg (fun z => max z 0) (congrArg₂ (· + ·) (Finset.sum_congr rfl fun k _ => ?_) ?_)
  · rw [mlpHidB_apply, truncf_apply, shapeCast_self]
  · exact (broadcastTo_1b_ab_apply _ broadcasts_S1x128_S5000x128 p q).trans (by rw [shapeCast_self])

/-! ## Ten blocks of 5000 rows are the 50000 rows -/

/-- A function of the row read at a natural number, zero beyond the array. -/
def atRow (g : Fin 50000 → EReal) (r : ℕ) : EReal := if h : r < 50000 then g ⟨r, h⟩ else 0

theorem atRow_of_lt (g : Fin 50000 → EReal) (r : ℕ) (h : r < 50000) : atRow g r = g ⟨r, h⟩ := dif_pos h

/-- Summing block by block, row by row inside each block, is summing over all rows. -/
theorem sum_blocks_rows (g : Fin 50000 → EReal) :
    ∑ t : Fin 10, ∑ p : Fin 5000, atRow g (t.val * 5000 + p.val) = ∑ r : Fin 50000, g r := by
  have e : Fin 10 × Fin 5000 ≃ Fin 50000 := finProdFinEquiv (m := 10) (n := 5000)
  have he : ∀ x : Fin 10 × Fin 5000, ((finProdFinEquiv (m := 10) (n := 5000) x : Fin (10 * 5000)) : ℕ) = x.2.val + 5000 * x.1.val := fun x => rfl
  rw [← Equiv.sum_comp (finProdFinEquiv (m := 10) (n := 5000)) (fun r : Fin (10 * 5000) => g r), Fintype.sum_prod_type]
  refine Finset.sum_congr rfl fun t _ => Finset.sum_congr rfl fun p _ => ?_
  have hlt : t.val * 5000 + p.val < 50000 := by have := t.isLt; have := p.isLt; omega
  rw [atRow_of_lt g _ hlt]
  exact congrArg g (Fin.ext (by show t.val * 5000 + p.val = p.val + 5000 * t.val; omega))

end Cert.KernelIdeal.Reg

end
-- ==== Proof.KernelIdeal.Mlp0Value.lean ====
import proofs.«139862_j28269474742473_1_alg».proof.Proof.KernelIdeal.Mlp0
import proofs.«139862_j28269474742473_1_alg».proof.Proof.KernelIdeal.MlpValue

/-! # The first MLP region (custom_call 0): its three output arrays as functions of its six input arrays

Over the extended reals, with the arrays the region is entered at: output 6 ends holding the MLP of the rows of
the first two arrays with the four weight arrays (row block by row block: the ten blocks tile the 50000 rows);
output 7 the column sums of that array over all rows (the accumulator after the last point: zero plus the ten
blocks' column sums, in block order); output 8 the column sums of its squares. -/

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

-- the TensorCore's buffer contents when the region is entered, at the ideal instance
variable (V : (c : Dev nD) → (b : Ref sig .tc) → Buf (Elt Ideal) ((c : Thread nD τ).loc b))

/-! ## The payloads are the shared formulas -/

theorem h0_eq (x0 x1 : FVec Ideal S5000x128 .f32) (x2 : FVec Ideal S128x128 .f32) (x3 : FVec Ideal S1x128 .f32) (x4 : FVec Ideal S128x128 .f32) (x5 : FVec Ideal S1x128 .f32) :
    h0 (F := Ideal) x0 x1 x2 x3 x4 x5 = mlpRows x0 x1 x2 x3 x4 x5 :=
  (show h0 (F := Ideal) x0 x1 x2 x3 x4 x5 = mlpPay x0 x1 x2 x3 x4 x5 from rfl).trans (mlpPay_eq x0 x1 x2 x3 x4 x5)

theorem acc0_0_eq (x0 x1 : FVec Ideal S5000x128 .f32) (x2 : FVec Ideal S128x128 .f32) (x3 : FVec Ideal S1x128 .f32) (x4 : FVec Ideal S128x128 .f32) (x5 : FVec Ideal S1x128 .f32) (s : FVec Ideal S1x128 .f32) :
    acc0_0 (F := Ideal) x0 x1 x2 x3 x4 x5 s = accStep s (h0 (F := Ideal) x0 x1 x2 x3 x4 x5) := rfl

theorem acc0_1_eq (x0 x1 : FVec Ideal S5000x128 .f32) (x2 : FVec Ideal S128x128 .f32) (x3 : FVec Ideal S1x128 .f32) (x4 : FVec Ideal S128x128 .f32) (x5 : FVec Ideal S1x128 .f32) (s : FVec Ideal S1x128 .f32) :
    acc0_1 (F := Ideal) x0 x1 x2 x3 x4 x5 s = accStep s (mulf (h0 (F := Ideal) x0 x1 x2 x3 x4 x5) (h0 (F := Ideal) x0 x1 x2 x3 x4 x5)) := rfl

theorem zero0_0 : (k0_pay3 (F := Ideal)) = zeroRow := rfl
theorem zero0_1 : (k0_pay4 (F := Ideal)) = zeroRow := rfl

/-! ## The printed index maps, decided over the grid -/

/-- The two row windows and output 6 sit at block (point, 0); the four weight windows and the two statistics outputs
    at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row `p` of point `t`'s block, as a row of the array. -/
def rowOf0 (t : Fin cfg0.N) (p : Fin 5000) : Fin 50000 :=
  ⟨t.val * 5000 + p.val, by have := lt_of_lt_of_eq t.isLt (show cfg0.N = 10 from N_0); have := p.isLt; omega⟩

/-! ## Each input block, read at an index, is its array there -/

theorem tileAt0_0 (c : Dev nD) (t : Fin cfg0.N) (p : Fin 5000) (l : Fin 128) :
    iblk0 V c 0 t (ix2 p l) = (V c (Pipeline.arrRef spec0 0)) (ix2 (rowOf0 t p) l) := by
  obtain ⟨e00, e01, e10, e11, e20, e21, e30, e31, e40, e41, e50, e51, e60, e61, e70, e71, e80, e81⟩ := idx_facts0 t
  refine (show iblk0 V c 0 t (ix2 p l) = (V c (Pipeline.arrRef spec0 0)) (((cfg0.win 0).blk t).view.emb (ix2 p l)) from rfl).trans (congrArg (V c (Pipeline.arrRef spec0 0)) ?_)
  funext ax; apply Fin.ext
  match ax with
  | ⟨0, _⟩ => show win0_0.index t (0 : Fin 2) * 5000 + 1 * p.val = t.val * 5000 + p.val; omega
  | ⟨1, _⟩ => show win0_0.index t (1 : Fin 2) * 128 + 1 * l.val = l.val; omega

theorem tileAt0_1 (c : Dev nD) (t : Fin cfg0.N) (p : Fin 5000) (l : Fin 128) :
    iblk0 V c 1 t (ix2 p l) = (V c (Pipeline.arrRef spec0 1)) (ix2 (rowOf0 t p) l) := by
  obtain ⟨e00, e01, e10, e11, e20, e21, e30, e31, e40, e41, e50, e51, e60, e61, e70, e71, e80, e81⟩ := idx_facts0 t
  refine (show iblk0 V c 1 t (ix2 p l) = (V c (Pipeline.arrRef spec0 1)) (((cfg0.win 1).blk t).view.emb (ix2 p l)) from rfl).trans (congrArg (V c (Pipeline.arrRef spec0 1)) ?_)
  funext ax; apply Fin.ext
  match ax with
  | ⟨0, _⟩ => show win0_1.index t (0 : Fin 2) * 5000 + 1 * p.val = t.val * 5000 + p.val; omega
  | ⟨1, _⟩ => show win0_1.index t (1 : Fin 2) * 128 + 1 * l.val = l.val; omega

theorem wholeAt0_2 (c : Dev nD) (t : Fin cfg0.N) (a : Fin 128) (b : Fin 128) :
    iblk0 V c 2 t (ix2 a b) = (V c (Pipeline.arrRef spec0 2)) (ix2 a b) := by
  obtain ⟨e00, e01, e10, e11, e20, e21, e30, e31, e40, e41, e50, e51, e60, e61, e70, e71, e80, e81⟩ := idx_facts0 t
  refine (show iblk0 V c 2 t (ix2 a b) = (V c (Pipeline.arrRef spec0 2)) (((cfg0.win 2).blk t).view.emb (ix2 a b)) from rfl).trans (congrArg (V c (Pipeline.arrRef spec0 2)) ?_)
  funext ax; apply Fin.ext
  match ax with
  | ⟨0, _⟩ => show win0_2.index t (0 : Fin 2) * 128 + 1 * a.val = a.val; omega
  | ⟨1, _⟩ => show win0_2.index t (1 : Fin 2) * 128 + 1 * b.val = b.val; omega

theorem wholeAt0_3 (c : Dev nD) (t : Fin cfg0.N) (a : Fin 1) (b : Fin 128) :
    iblk0 V c 3 t (ix2 a b) = (V c (Pipeline.arrRef spec0 3)) (ix2 a b) := by
  obtain ⟨e00, e01, e10, e11, e20, e21, e30, e31, e40, e41, e50, e51, e60, e61, e70, e71, e80, e81⟩ := idx_facts0 t
  refine (show iblk0 V c 3 t (ix2 a b) = (V c (Pipeline.arrRef spec0 3)) (((cfg0.win 3).blk t).view.emb (ix2 a b)) from rfl).trans (congrArg (V c (Pipeline.arrRef spec0 3)) ?_)
  funext ax; apply Fin.ext
  match ax with
  | ⟨0, _⟩ => show win0_3.index t (0 : Fin 2) * 1 + 1 * a.val = a.val; omega
  | ⟨1, _⟩ => show win0_3.index t (1 : Fin 2) * 128 + 1 * b.val = b.val; omega

theorem wholeAt0_4 (c : Dev nD) (t : Fin cfg0.N) (a : Fin 128) (b : Fin 128) :
    iblk0 V c 4 t (ix2 a b) = (V c (Pipeline.arrRef spec0 4)) (ix2 a b) := by
  obtain ⟨e00, e01, e10, e11, e20, e21, e30, e31, e40, e41, e50, e51, e60, e61, e70, e71, e80, e81⟩ := idx_facts0 t
  refine (show iblk0 V c 4 t (ix2 a b) = (V c (Pipeline.arrRef spec0 4)) (((cfg0.win 4).blk t).view.emb (ix2 a b)) from rfl).trans (congrArg (V c (Pipeline.arrRef spec0 4)) ?_)
  funext ax; apply Fin.ext
  match ax with
  | ⟨0, _⟩ => show win0_4.index t (0 : Fin 2) * 128 + 1 * a.val = a.val; omega
  | ⟨1, _⟩ => show win0_4.index t (1 : Fin 2) * 128 + 1 * b.val = b.val; omega

theorem wholeAt0_5 (c : Dev nD) (t : Fin cfg0.N) (a : Fin 1) (b : Fin 128) :
    iblk0 V c 5 t (ix2 a b) = (V c (Pipeline.arrRef spec0 5)) (ix2 a b) := by
  obtain ⟨e00, e01, e10, e11, e20, e21, e30, e31, e40, e41, e50, e51, e60, e61, e70, e71, e80, e81⟩ := idx_facts0 t
  refine (show iblk0 V c 5 t (ix2 a b) = (V c (Pipeline.arrRef spec0 5)) (((cfg0.win 5).blk t).view.emb (ix2 a b)) from rfl).trans (congrArg (V c (Pipeline.arrRef spec0 5)) ?_)
  funext ax; apply Fin.ext
  match ax with
  | ⟨0, _⟩ => show win0_5.index t (0 : Fin 2) * 1 + 1 * a.val = a.val; omega
  | ⟨1, _⟩ => show win0_5.index t (1 : Fin 2) * 128 + 1 * b.val = b.val; omega

/-- The MLP of the whole arrays the region is entered at. -/
abbrev pre0 (c : Dev nD) : FVec Ideal S50000x128 .f32 := mlpRows (n := 50000) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))

/-- The MLP's block at point `t`, at `(p, q)`: the MLP of the whole arrays at the block's row. -/
theorem blockAt0 (c : Dev nD) (t : Fin cfg0.N) (p : Fin 5000) (q : Fin 128) :
    h0 (F := Ideal) (iblk0 V c 0 t) (iblk0 V c 1 t) (iblk0 V c 2 t) (iblk0 V c 3 t) (iblk0 V c 4 t) (iblk0 V c 5 t) (ix2 p q) = pre0 V c (ix2 (rowOf0 t p) q) := by
  rw [h0_eq]
  show mlpRows (n := 5000) (iblk0 V c 0 t) (iblk0 V c 1 t) (iblk0 V c 2 t) (iblk0 V c 3 t) (iblk0 V c 4 t) (iblk0 V c 5 t) (ix2 p q) = mlpRows (n := 50000) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (ix2 (rowOf0 t p) q)
  rw [mlpRows_apply, mlpRows_apply]
  simp only [tileAt0_0 V c t, tileAt0_1 V c t, wholeAt0_2 V c t, wholeAt0_3 V c t, wholeAt0_4 V c t, wholeAt0_5 V c t]

/-! ## Output 6: from blocks to the array -/

/-- Output 6's block at point `t` sits at rows `5000 t …`. -/
theorem emb0_6 (t : Fin cfg0.N) (p : Fin 5000) (q : Fin 128) :
    ((cfg0.win 6).blk t).view.emb (ix2 p q) = ix2 (rowOf0 t p) q := by
  obtain ⟨e00, e01, e10, e11, e20, e21, e30, e31, e40, e41, e50, e51, e60, e61, e70, e71, e80, e81⟩ := idx_facts0 t
  funext ax; apply Fin.ext
  match ax with
  | ⟨0, _⟩ => show win0_6.index t (0 : Fin 2) * 5000 + 1 * p.val = t.val * 5000 + p.val; omega
  | ⟨1, _⟩ => show win0_6.index t (1 : Fin 2) * 128 + 1 * q.val = q.val; omega

set_option maxHeartbeats 400000 in
/-- What point `t` writes back is block `t` of the MLP of the whole arrays. -/
theorem flushed0_6_eq (c : Dev nD) (t : Fin cfg0.N) :
    (dat0 V c).flushed 6 t = ((cfg0.win 6).blk t).view.read (Elt Ideal) (pre0 V c) := by
  show (cfg0.win 6).cut (grid0.coords t) ((dat0 V c).after 6 t) = _
  rw [after0_6]
  funext j
  obtain ⟨p, q, rfl⟩ : ∃ (p : Fin 5000) (q : Fin 128), j = ix2 p q := ⟨j 0, j 1, eq_ix2 j⟩
  show h0 (F := Ideal) (iblk0 V c 0 t) (iblk0 V c 1 t) (iblk0 V c 2 t) (iblk0 V c 3 t) (iblk0 V c 4 t) (iblk0 V c 5 t) (ix2 p q) = pre0 V c (((cfg0.win 6).blk t).view.emb (ix2 p q))
  rw [emb0_6, blockAt0]

theorem mem_blk0_6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole (Pipeline.arrRef spec0 6)).slice (win0_6.rect t)).set ↔ _
  rw [View.set_slice_whole, Rect.mem_set_unit]
  exact Iff.rfl

/-- The ten blocks cover the array: row `r` is in the block of point `r / 5000`. -/
theorem covered0_6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e00, e01, e10, e11, e20, e21, e30, e31, e40, e41, e50, e51, e60, e61, e70, e71, e80, e81⟩ := idx_facts0 t
  have q0 : win0_6.index t (0 : Fin 2) = (i 0).val / 5000 := e60
  refine ⟨t, flush0_6 t, ?_⟩
  rw [mem_blk0_6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- OUTPUT 6 after the region: the MLP of the arrays the region was entered with. -/
theorem final0_6 (c : Dev nD) : (dat0 V c).arrAt 6 cfg0.N = pre0 V c :=
  (dat0 V c).arrAt_eq_of_cover 6 (pre0 V c) (fun t _ => flushed0_6_eq V c t) covered0_6

/-! ## The accumulators after each point -/

/-- A block's column sum is the sum of the array's column over the block's rows. -/
theorem blockSum0 (c : Dev nD) (t : Fin cfg0.N) (q : Fin 128) :
    ∑ p : Fin 5000, h0 (F := Ideal) (iblk0 V c 0 t) (iblk0 V c 1 t) (iblk0 V c 2 t) (iblk0 V c 3 t) (iblk0 V c 4 t) (iblk0 V c 5 t) (ix2 p q)
      = ∑ p : Fin 5000, atRow (fun r : Fin 50000 => pre0 V c (ix2 r q)) (t.val * 5000 + p.val) :=
  Finset.sum_congr rfl fun p _ => (blockAt0 V c t p q).trans (atRow_of_lt (fun r : Fin 50000 => pre0 V c (ix2 r q)) _ (rowOf0 t p).isLt).symm

/-- The same for the squares. -/
theorem blockSumSq0 (c : Dev nD) (t : Fin cfg0.N) (q : Fin 128) :
    ∑ p : Fin 5000, (mulf (h0 (F := Ideal) (iblk0 V c 0 t) (iblk0 V c 1 t) (iblk0 V c 2 t) (iblk0 V c 3 t) (iblk0 V c 4 t) (iblk0 V c 5 t)) (h0 (F := Ideal) (iblk0 V c 0 t) (iblk0 V c 1 t) (iblk0 V c 2 t) (iblk0 V c 3 t) (iblk0 V c 4 t) (iblk0 V c 5 t)) : FVec Ideal S5000x128 .f32) (ix2 p q)
      = ∑ p : Fin 5000, atRow (fun r : Fin 50000 => pre0 V c (ix2 r q) * pre0 V c (ix2 r q)) (t.val * 5000 + p.val) :=
  Finset.sum_congr rfl fun p _ => by
    rw [mulf_apply, blockAt0 V c t p q]
    exact (atRow_of_lt (fun r : Fin 50000 => pre0 V c (ix2 r q) * pre0 V c (ix2 r q)) _ (rowOf0 t p).isLt).symm

/-- The first accumulator after point `n`, at column `q`: the array's column summed over the rows of blocks `0 … n`. -/
theorem accAt0_fst (c : Dev nD) (q : Fin 128) : ∀ (n : ℕ) (hn : n < cfg0.N),
    (accAt0 V c n hn).1 (ix2 (0 : Fin 1) q) = ∑ i : Fin (n + 1), ∑ p : Fin 5000, atRow (fun r : Fin 50000 => pre0 V c (ix2 r q)) (i.val * 5000 + p.val)
  | 0, hn => by
    show acc0_0 (F := Ideal) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (k0_pay3 (F := Ideal)) (ix2 (0 : Fin 1) q) = _
    rw [acc0_0_eq, accStep_apply, zero0_0, zeroRow_apply, blockSum0 V c ⟨0, hn⟩ q]
    exact ((Fin.sum_univ_castSucc (fun i : Fin (0 + 1) => ∑ p : Fin 5000, atRow (fun r : Fin 50000 => pre0 V c (ix2 r q)) (i.val * 5000 + p.val))).trans
      (congrArg (· + _) Finset.sum_empty)).symm
  | n + 1, hn => by
    show acc0_0 (F := Ideal) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (accAt0 V c n (Nat.lt_of_succ_lt hn)).1 (ix2 (0 : Fin 1) q) = _
    rw [acc0_0_eq, accStep_apply, accAt0_fst c q n (Nat.lt_of_succ_lt hn), blockSum0 V c ⟨n + 1, hn⟩ q]
    exact (Fin.sum_univ_castSucc (fun i : Fin (n + 1 + 1) => ∑ p : Fin 5000, atRow (fun r : Fin 50000 => pre0 V c (ix2 r q)) (i.val * 5000 + p.val))).symm

/-- The second accumulator after point `n`, at column `q`: the squares of the array's column summed over those rows. -/
theorem accAt0_snd (c : Dev nD) (q : Fin 128) : ∀ (n : ℕ) (hn : n < cfg0.N),
    (accAt0 V c n hn).2 (ix2 (0 : Fin 1) q) = ∑ i : Fin (n + 1), ∑ p : Fin 5000, atRow (fun r : Fin 50000 => pre0 V c (ix2 r q) * pre0 V c (ix2 r q)) (i.val * 5000 + p.val)
  | 0, hn => by
    show acc0_1 (F := Ideal) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (k0_pay4 (F := Ideal)) (ix2 (0 : Fin 1) q) = _
    rw [acc0_1_eq, accStep_apply, zero0_1, zeroRow_apply, blockSumSq0 V c ⟨0, hn⟩ q]
    exact ((Fin.sum_univ_castSucc (fun i : Fin (0 + 1) => ∑ p : Fin 5000, atRow (fun r : Fin 50000 => pre0 V c (ix2 r q) * pre0 V c (ix2 r q)) (i.val * 5000 + p.val))).trans
      (congrArg (· + _) Finset.sum_empty)).symm
  | n + 1, hn => by
    show acc0_1 (F := Ideal) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (accAt0 V c n (Nat.lt_of_succ_lt hn)).2 (ix2 (0 : Fin 1) q) = _
    rw [acc0_1_eq, accStep_apply, accAt0_snd c q n (Nat.lt_of_succ_lt hn), blockSumSq0 V c ⟨n + 1, hn⟩ q]
    exact (Fin.sum_univ_castSucc (fun i : Fin (n + 1 + 1) => ∑ p : Fin 5000, atRow (fun r : Fin 50000 => pre0 V c (ix2 r q) * pre0 V c (ix2 r q)) (i.val * 5000 + p.val))).symm

/-- The column sums of the MLP of the whole arrays, as a `[1,128]` row. -/
def colSum0 (c : Dev nD) : FVec Ideal S1x128 .f32 := fun i => ∑ r : Fin 50000, pre0 V c (ix2 r (i 1))
/-- The column sums of its squares. -/
def colSumSq0 (c : Dev nD) : FVec Ideal S1x128 .f32 := fun i => ∑ r : Fin 50000, pre0 V c (ix2 r (i 1)) * pre0 V c (ix2 r (i 1))

theorem colSum0_apply (c : Dev nD) (q : Fin 128) : colSum0 V c (ix2 (0 : Fin 1) q) = ∑ r : Fin 50000, pre0 V c (ix2 r q) := rfl
theorem colSumSq0_apply (c : Dev nD) (q : Fin 128) : colSumSq0 V c (ix2 (0 : Fin 1) q) = ∑ r : Fin 50000, pre0 V c (ix2 r q) * pre0 V c (ix2 r q) := rfl

/-- After the last point the accumulators hold the sums over all rows. -/
theorem accLast0_fst (c : Dev nD) (hn : 9 < cfg0.N) (q : Fin 128) : (accAt0 V c 9 hn).1 (ix2 (0 : Fin 1) q) = colSum0 V c (ix2 (0 : Fin 1) q) :=
  (accAt0_fst V c q 9 hn).trans (sum_blocks_rows (fun r : Fin 50000 => pre0 V c (ix2 r q)))
theorem accLast0_snd (c : Dev nD) (hn : 9 < cfg0.N) (q : Fin 128) : (accAt0 V c 9 hn).2 (ix2 (0 : Fin 1) q) = colSumSq0 V c (ix2 (0 : Fin 1) q) :=
  (accAt0_snd V c q 9 hn).trans (sum_blocks_rows (fun r : Fin 50000 => pre0 V c (ix2 r q) * pre0 V c (ix2 r q)))

/-! ## Outputs 7 and 8: written once, at the last point -/

theorem emb0_7 (t : Fin cfg0.N) (q : Fin 128) :
    ((cfg0.win 7).blk t).view.emb (ix2 (0 : Fin 1) q) = ix2 (0 : Fin 1) q := by
  obtain ⟨e00, e01, e10, e11, e20, e21, e30, e31, e40, e41, e50, e51, e60, e61, e70, e71, e80, e81⟩ := idx_facts0 t
  funext ax; apply Fin.ext
  match ax with
  | ⟨0, _⟩ => show win0_7.index t (0 : Fin 2) * 1 + 1 * 0 = 0; omega
  | ⟨1, _⟩ => show win0_7.index t (1 : Fin 2) * 128 + 1 * q.val = q.val; omega

/-- A `[1,128]` row handed to window 7's write-back agrees with a `[1,128]` array read through the window's one block as
    soon as the two agree column by column. -/
theorem flushedRow0_7 (t : Fin cfg0.N) (X G : FVec Ideal S1x128 .f32) (h : ∀ q : Fin 128, X (ix2 (0 : Fin 1) q) = G (ix2 (0 : Fin 1) q)) :
    (cfg0.win 7).cut (grid0.coords t) X = ((cfg0.win 7).blk t).view.read (Elt Ideal) G := by
  funext j
  obtain ⟨u, q, rfl⟩ : ∃ (u : Fin 1) (q : Fin 128), j = ix2 u q := ⟨j 0, j 1, eq_ix2 j⟩
  obtain rfl : u = 0 := Subsingleton.elim _ _
  show X (ix2 (0 : Fin 1) q) = G (((cfg0.win 7).blk t).view.emb (ix2 (0 : Fin 1) q))
  rw [emb0_7 t q]; exact h q

theorem flushed0_7_eq (c : Dev nD) (t : Fin cfg0.N) (hf : (cfg0.win 7).flush t = true) :
    (dat0 V c).flushed 7 t = ((cfg0.win 7).blk t).view.read (Elt Ideal) (colSum0 V c) := by
  have h9 : t.val = 9 := by
    have h1 := (flush0_7 t).mp hf
    have h2 := lt_of_lt_of_eq t.isLt (show cfg0.N = 10 from N_0)
    omega
  show (cfg0.win 7).cut (grid0.coords t) ((dat0 V c).after 7 t) = _
  rw [after0_7]
  refine flushedRow0_7 t _ _ fun q => ?_
  obtain ⟨n, hn⟩ := t
  obtain rfl : n = 9 := h9
  exact accLast0_fst V c hn q

theorem covered0_7 (i : S1x128.Idx) :
    ∃ t : Fin cfg0.N, (cfg0.win 7).flush t = true ∧ i ∈ ((cfg0.win 7).blk t).view.set := by
  have hi0 : (i 0).val < 1 := (i 0).isLt
  have hi1 : (i 1).val < 128 := (i 1).isLt
  have hN : cfg0.N = 10 := N_0
  let t : Fin cfg0.N := ⟨9, by rw [hN]; omega⟩
  obtain ⟨e00, e01, e10, e11, e20, e21, e30, e31, e40, e41, e50, e51, e60, e61, e70, e71, e80, e81⟩ := idx_facts0 t
  refine ⟨t, (flush0_7 t).mpr rfl, ?_⟩
  show i ∈ ((View.whole (Pipeline.arrRef spec0 7)).slice (win0_7.rect t)).set
  rw [View.set_slice_whole, Rect.mem_set_unit]
  intro a
  match a with
  | ⟨0, _⟩ => show win0_7.index t (0 : Fin 2) * 1 ≤ (i 0).val ∧ (i 0).val < win0_7.index t (0 : Fin 2) * 1 + 1; omega
  | ⟨1, _⟩ => show win0_7.index t (1 : Fin 2) * 128 ≤ (i 1).val ∧ (i 1).val < win0_7.index t (1 : Fin 2) * 128 + 128; omega

/-- OUTPUT 7 after the region: the column sums of the MLP of the arrays the region was entered with. -/
theorem final0_7 (c : Dev nD) : (dat0 V c).arrAt 7 cfg0.N = colSum0 V c :=
  (dat0 V c).arrAt_eq_of_cover 7 (colSum0 V c) (fun t hf => flushed0_7_eq V c t hf) covered0_7

theorem emb0_8 (t : Fin cfg0.N) (q : Fin 128) :
    ((cfg0.win 8).blk t).view.emb (ix2 (0 : Fin 1) q) = ix2 (0 : Fin 1) q := by
  obtain ⟨e00, e01, e10, e11, e20, e21, e30, e31, e40, e41, e50, e51, e60, e61, e70, e71, e80, e81⟩ := idx_facts0 t
  funext ax; apply Fin.ext
  match ax with
  | ⟨0, _⟩ => show win0_8.index t (0 : Fin 2) * 1 + 1 * 0 = 0; omega
  | ⟨1, _⟩ => show win0_8.index t (1 : Fin 2) * 128 + 1 * q.val = q.val; omega

/-- A `[1,128]` row handed to window 8's write-back agrees with a `[1,128]` array read through the window's one block as
    soon as the two agree column by column. -/
theorem flushedRow0_8 (t : Fin cfg0.N) (X G : FVec Ideal S1x128 .f32) (h : ∀ q : Fin 128, X (ix2 (0 : Fin 1) q) = G (ix2 (0 : Fin 1) q)) :
    (cfg0.win 8).cut (grid0.coords t) X = ((cfg0.win 8).blk t).view.read (Elt Ideal) G := by
  funext j
  obtain ⟨u, q, rfl⟩ : ∃ (u : Fin 1) (q : Fin 128), j = ix2 u q := ⟨j 0, j 1, eq_ix2 j⟩
  obtain rfl : u = 0 := Subsingleton.elim _ _
  show X (ix2 (0 : Fin 1) q) = G (((cfg0.win 8).blk t).view.emb (ix2 (0 : Fin 1) q))
  rw [emb0_8 t q]; exact h q

theorem flushed0_8_eq (c : Dev nD) (t : Fin cfg0.N) (hf : (cfg0.win 8).flush t = true) :
    (dat0 V c).flushed 8 t = ((cfg0.win 8).blk t).view.read (Elt Ideal) (colSumSq0 V c) := by
  have h9 : t.val = 9 := by
    have h1 := (flush0_8 t).mp hf
    have h2 := lt_of_lt_of_eq t.isLt (show cfg0.N = 10 from N_0)
    omega
  show (cfg0.win 8).cut (grid0.coords t) ((dat0 V c).after 8 t) = _
  rw [after0_8]
  refine flushedRow0_8 t _ _ fun q => ?_
  obtain ⟨n, hn⟩ := t
  obtain rfl : n = 9 := h9
  exact accLast0_snd V c hn q

theorem covered0_8 (i : S1x128.Idx) :
    ∃ t : Fin cfg0.N, (cfg0.win 8).flush t = true ∧ i ∈ ((cfg0.win 8).blk t).view.set := by
  have hi0 : (i 0).val < 1 := (i 0).isLt
  have hi1 : (i 1).val < 128 := (i 1).isLt
  have hN : cfg0.N = 10 := N_0
  let t : Fin cfg0.N := ⟨9, by rw [hN]; omega⟩
  obtain ⟨e00, e01, e10, e11, e20, e21, e30, e31, e40, e41, e50, e51, e60, e61, e70, e71, e80, e81⟩ := idx_facts0 t
  refine ⟨t, (flush0_8 t).mpr rfl, ?_⟩
  show i ∈ ((View.whole (Pipeline.arrRef spec0 8)).slice (win0_8.rect t)).set
  rw [View.set_slice_whole, Rect.mem_set_unit]
  intro a
  match a with
  | ⟨0, _⟩ => show win0_8.index t (0 : Fin 2) * 1 ≤ (i 0).val ∧ (i 0).val < win0_8.index t (0 : Fin 2) * 1 + 1; omega
  | ⟨1, _⟩ => show win0_8.index t (1 : Fin 2) * 128 ≤ (i 1).val ∧ (i 1).val < win0_8.index t (1 : Fin 2) * 128 + 128; omega

/-- OUTPUT 8 after the region: the column sums of the squares of the MLP of the arrays the region was entered with. -/
theorem final0_8 (c : Dev nD) : (dat0 V c).arrAt 8 cfg0.N = colSumSq0 V c :=
  (dat0 V c).arrAt_eq_of_cover 8 (colSumSq0 V c) (fun t hf => flushed0_8_eq V c t hf) covered0_8

end Cert.KernelIdeal.Reg

end
-- ==== Proof.KernelIdeal.BnApply.lean ====
/- The batch-norm apply step as one function of whole arrays, at the ideal instance (extended reals):
   `out[r, l] = (h_pre[r, l] − mean[0, l]) · inv_std[0, l] · gamma[0, l] + beta[0, l]` over 50000 rows and 128 lanes;
   and the two layout facts every bn region's stored value is read through: the offset of a whole-buffer access is
   zero, and a `[1,128]` row broadcast to a `[5000,128]` tile reads, at `(p, q)`, the row at `(0, q)`. -/
import proofs.«139862_j28269474742473_1_alg».proof.Proof.Gen.KernelIdeal
import Idealize.ShloMosaic.Lib.Pipeline.Value
import Idealize.ShloMosaic.Lib.ValueIdx

noncomputable section

namespace Cert.KernelIdeal.Reg

open Cert.KernelIdeal Cert.KernelIdeal.Gen
open Idealize.ShloMosaic Idealize.ShloMosaic.ValueIdx

/-- A whole-buffer access of a rank-2 buffer starts at the origin. -/
theorem origin2 : (![0, 0] : Fin 2 → Nat) = fun _ => 0 := funext fun a => by fin_cases a <;> rfl

/-- The batch-norm apply step on whole arrays: row `r`, lane `l` of the result is
    `(h r l − mean 0 l) · istd 0 l · gamma 0 l + beta 0 l`. -/
def bnApply (h : FVec Ideal S50000x128 .f32) (mean istd gamma beta : FVec Ideal S1x128 .f32) : FVec Ideal S50000x128 .f32 :=
  fun i => (h i - mean (ix2 (0 : Fin 1) (i 1))) * istd (ix2 (0 : Fin 1) (i 1)) * gamma (ix2 (0 : Fin 1) (i 1)) + beta (ix2 (0 : Fin 1) (i 1))

theorem bnApply_apply (h : FVec Ideal S50000x128 .f32) (mean istd gamma beta : FVec Ideal S1x128 .f32) (r : Fin 50000) (l : Fin 128) :
    bnApply h mean istd gamma beta (ix2 r l)
      = (h (ix2 r l) - mean (ix2 (0 : Fin 1) l)) * istd (ix2 (0 : Fin 1) l) * gamma (ix2 (0 : Fin 1) l) + beta (ix2 (0 : Fin 1) l) := rfl

/-- A `[1,128]` row broadcast along the rows of a `[5000,128]` tile, read at `(p, q)`, is the row at `(0, q)`. -/
theorem bcastRow_apply (x : FVec Ideal S1x128 .f32) (hb : S1x128.Broadcasts S5000x128) (p : Fin 5000) (q : Fin 128) :
    broadcastTo S5000x128 x hb (ix2 p q) = x (ix2 (0 : Fin 1) q) :=
  broadcastTo_apply x hb _ _ (fun a => by match a with | ⟨0, _⟩ => rfl | ⟨1, _⟩ => rfl)

end Cert.KernelIdeal.Reg

end
-- ==== Proof.KernelIdeal.Bn1Value.lean ====
/- Region 1 of @main (the batch-norm apply kernel), read as a value at the ideal instance: after the region the
   output array is, index by index, `(h_pre − mean) · inv_std · gamma + beta` of the five arrays the region was
   entered with. The stored tile at an index; each input block read at an index as the array at the index the
   output's tile has there; each point's write-back as a block of that one whole-array function; the ten tiles cover
   the 50000 rows; hence the array. -/
import proofs.«139862_j28269474742473_1_alg».proof.Proof.KernelIdeal.Bn1
import proofs.«139862_j28269474742473_1_alg».proof.Proof.KernelIdeal.BnApply
import Idealize.ShloMosaic.Lib.Pipeline.Value
import Idealize.ShloMosaic.Lib.ValueIdx
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

-- the TensorCore's buffer contents when the region is entered, at the ideal instance
variable (V : (c : Dev nD) → (b : Ref sig .tc) → Buf (Elt Ideal) ((c : Thread nD τ).loc b))

/-- The stored tile at `(p, q)`: the tile of `h_pre` there, less the mean row, times the two scale rows, plus the
    shift row, each row read at lane `q`. -/
theorem bnPay1_apply (x0 : FVec Ideal S5000x128 .f32) (x1 x2 x3 x4 : FVec Ideal S1x128 .f32) (p : Fin 5000) (q : Fin 128) :
    k1_pay1 x0 x1 x2 x3 x4 (ix2 p q)
      = (x0 (ix2 p q) - x1 (ix2 (0 : Fin 1) q)) * x2 (ix2 (0 : Fin 1) q) * x3 (ix2 (0 : Fin 1) q) + x4 (ix2 (0 : Fin 1) q) := by
  unfold k1_pay1
  simp only [shapeCast_self]
  rw [addf_apply, mulf_apply, mulf_apply, subf_apply, bcastRow_apply, bcastRow_apply, bcastRow_apply, bcastRow_apply]

/-- The printed index maps, decided over the grid: the tile of `h_pre` moves with the output's tile; the four rows
    stay at block (0,0); the output's tile index is (row tile, 0). -/
theorem idx_facts1 : ∀ t : Fin cfg1.N, win1_0.index t (0 : Fin 2) = win1_5.index t (0 : Fin 2)
    ∧ win1_0.index t (1 : Fin 2) = win1_5.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every row tile is some point's. -/
theorem idx_onto1 : ∀ (q0 : Fin 10), ∃ t : Fin cfg1.N, win1_5.index t = ![q0.val, 0] :=
  (by decide +kernel : ∀ (q0 : Fin 10), ∃ t : Fin grid1.N, win1_5.index t = ![q0.val, 0])

/-! ## Each input block, read at an index, is its array at the index the output's tile has there -/

/-- The tile of `h_pre` sits where the output's tile sits. -/
theorem embTile1 (t : Fin cfg1.N) (p : Fin 5000) (q : Fin 128) :
    ((cfg1.win 0).blk t).view.emb (ix2 p q) = (((cfg1.win 5).blk t).view.emb (ix2 p q)) := by
  obtain ⟨e0, e1, e2, e3, e4, e5, e6, e7, e8, e9, e10, e11⟩ := idx_facts1 t
  funext a; apply Fin.ext
  match a with
  | ⟨0, _⟩ => show win1_0.index t (0 : Fin 2) * 5000 + 1 * p.val = win1_5.index t (0 : Fin 2) * 5000 + 1 * p.val; omega
  | ⟨1, _⟩ => show win1_0.index t (1 : Fin 2) * 128 + 1 * q.val = win1_5.index t (1 : Fin 2) * 128 + 1 * q.val; omega

theorem tileAt1 (c : Dev nD) (t : Fin cfg1.N) (p : Fin 5000) (q : Fin 128) :
    iblk1 V c 0 t (ix2 p q) = V c (Pipeline.arrRef spec1 0) (((cfg1.win 5).blk t).view.emb (ix2 p q)) :=
  (show iblk1 V c 0 t (ix2 p q) = V c (Pipeline.arrRef spec1 0) (((cfg1.win 0).blk t).view.emb (ix2 p q)) from rfl).trans
    (congrArg (V c (Pipeline.arrRef spec1 0)) (embTile1 t p q))

/-- Row window 1's block is the whole row: lane `q` of the block is lane `q` of the array, the lane the output's tile has there. -/
theorem embRow1_1 (t : Fin cfg1.N) (p : Fin 5000) (q : Fin 128) :
    ((cfg1.win 1).blk t).view.emb (ix2 (0 : Fin 1) q) = ix2 (0 : Fin 1) ((((cfg1.win 5).blk t).view.emb (ix2 p q)) 1) := by
  obtain ⟨e0, e1, e2, e3, e4, e5, e6, e7, e8, e9, e10, e11⟩ := idx_facts1 t
  funext a; apply Fin.ext
  match a with
  | ⟨0, _⟩ => show win1_1.index t (0 : Fin 2) * 1 + 1 * 0 = 0; omega
  | ⟨1, _⟩ => show win1_1.index t (1 : Fin 2) * 128 + 1 * q.val = win1_5.index t (1 : Fin 2) * 128 + 1 * q.val; omega

theorem rowAt1_1 (c : Dev nD) (t : Fin cfg1.N) (p : Fin 5000) (q : Fin 128) :
    iblk1 V c 1 t (ix2 (0 : Fin 1) q) = V c (Pipeline.arrRef spec1 1) (ix2 (0 : Fin 1) ((((cfg1.win 5).blk t).view.emb (ix2 p q)) 1)) :=
  (show iblk1 V c 1 t (ix2 (0 : Fin 1) q) = V c (Pipeline.arrRef spec1 1) (((cfg1.win 1).blk t).view.emb (ix2 (0 : Fin 1) q)) from rfl).trans
    (congrArg (V c (Pipeline.arrRef spec1 1)) (embRow1_1 t p q))

/-- Row window 2's block is the whole row: lane `q` of the block is lane `q` of the array, the lane the output's tile has there. -/
theorem embRow1_2 (t : Fin cfg1.N) (p : Fin 5000) (q : Fin 128) :
    ((cfg1.win 2).blk t).view.emb (ix2 (0 : Fin 1) q) = ix2 (0 : Fin 1) ((((cfg1.win 5).blk t).view.emb (ix2 p q)) 1) := by
  obtain ⟨e0, e1, e2, e3, e4, e5, e6, e7, e8, e9, e10, e11⟩ := idx_facts1 t
  funext a; apply Fin.ext
  match a with
  | ⟨0, _⟩ => show win1_2.index t (0 : Fin 2) * 1 + 1 * 0 = 0; omega
  | ⟨1, _⟩ => show win1_2.index t (1 : Fin 2) * 128 + 1 * q.val = win1_5.index t (1 : Fin 2) * 128 + 1 * q.val; omega

theorem rowAt1_2 (c : Dev nD) (t : Fin cfg1.N) (p : Fin 5000) (q : Fin 128) :
    iblk1 V c 2 t (ix2 (0 : Fin 1) q) = V c (Pipeline.arrRef spec1 2) (ix2 (0 : Fin 1) ((((cfg1.win 5).blk t).view.emb (ix2 p q)) 1)) :=
  (show iblk1 V c 2 t (ix2 (0 : Fin 1) q) = V c (Pipeline.arrRef spec1 2) (((cfg1.win 2).blk t).view.emb (ix2 (0 : Fin 1) q)) from rfl).trans
    (congrArg (V c (Pipeline.arrRef spec1 2)) (embRow1_2 t p q))

/-- Row window 3's block is the whole row: lane `q` of the block is lane `q` of the array, the lane the output's tile has there. -/
theorem embRow1_3 (t : Fin cfg1.N) (p : Fin 5000) (q : Fin 128) :
    ((cfg1.win 3).blk t).view.emb (ix2 (0 : Fin 1) q) = ix2 (0 : Fin 1) ((((cfg1.win 5).blk t).view.emb (ix2 p q)) 1) := by
  obtain ⟨e0, e1, e2, e3, e4, e5, e6, e7, e8, e9, e10, e11⟩ := idx_facts1 t
  funext a; apply Fin.ext
  match a with
  | ⟨0, _⟩ => show win1_3.index t (0 : Fin 2) * 1 + 1 * 0 = 0; omega
  | ⟨1, _⟩ => show win1_3.index t (1 : Fin 2) * 128 + 1 * q.val = win1_5.index t (1 : Fin 2) * 128 + 1 * q.val; omega

theorem rowAt1_3 (c : Dev nD) (t : Fin cfg1.N) (p : Fin 5000) (q : Fin 128) :
    iblk1 V c 3 t (ix2 (0 : Fin 1) q) = V c (Pipeline.arrRef spec1 3) (ix2 (0 : Fin 1) ((((cfg1.win 5).blk t).view.emb (ix2 p q)) 1)) :=
  (show iblk1 V c 3 t (ix2 (0 : Fin 1) q) = V c (Pipeline.arrRef spec1 3) (((cfg1.win 3).blk t).view.emb (ix2 (0 : Fin 1) q)) from rfl).trans
    (congrArg (V c (Pipeline.arrRef spec1 3)) (embRow1_3 t p q))

/-- Row window 4's block is the whole row: lane `q` of the block is lane `q` of the array, the lane the output's tile has there. -/
theorem embRow1_4 (t : Fin cfg1.N) (p : Fin 5000) (q : Fin 128) :
    ((cfg1.win 4).blk t).view.emb (ix2 (0 : Fin 1) q) = ix2 (0 : Fin 1) ((((cfg1.win 5).blk t).view.emb (ix2 p q)) 1) := by
  obtain ⟨e0, e1, e2, e3, e4, e5, e6, e7, e8, e9, e10, e11⟩ := idx_facts1 t
  funext a; apply Fin.ext
  match a with
  | ⟨0, _⟩ => show win1_4.index t (0 : Fin 2) * 1 + 1 * 0 = 0; omega
  | ⟨1, _⟩ => show win1_4.index t (1 : Fin 2) * 128 + 1 * q.val = win1_5.index t (1 : Fin 2) * 128 + 1 * q.val; omega

theorem rowAt1_4 (c : Dev nD) (t : Fin cfg1.N) (p : Fin 5000) (q : Fin 128) :
    iblk1 V c 4 t (ix2 (0 : Fin 1) q) = V c (Pipeline.arrRef spec1 4) (ix2 (0 : Fin 1) ((((cfg1.win 5).blk t).view.emb (ix2 p q)) 1)) :=
  (show iblk1 V c 4 t (ix2 (0 : Fin 1) q) = V c (Pipeline.arrRef spec1 4) (((cfg1.win 4).blk t).view.emb (ix2 (0 : Fin 1) q)) from rfl).trans
    (congrArg (V c (Pipeline.arrRef spec1 4)) (embRow1_4 t p q))

/-! ## From blocks to the array -/

set_option maxHeartbeats 400000 in
/-- What point `t` writes back is block `t` of `bnApply` of the five arrays as the region finds them. -/
theorem flushed1_5_eq (c : Dev nD) (t : Fin cfg1.N) :
    (dat1 V c).flushed 5 t = ((cfg1.win 5).blk t).view.read (Elt Ideal) (bnApply (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero origin2]
  simp only [View.ld_unit_zero (S := S5000x128) origin2, View.ld_unit_zero (S := S1x128) origin2]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (iblk1 V c 4 t) (ix2 p q)
    = bnApply (V c (Pipeline.arrRef spec1 0)) (V c (Pipeline.arrRef spec1 1)) (V c (Pipeline.arrRef spec1 2)) (V c (Pipeline.arrRef spec1 3)) (V c (Pipeline.arrRef spec1 4)) (((cfg1.win 5).blk t).view.emb (ix2 p q))
  rw [bnPay1_apply, tileAt1 V c t p q, rowAt1_1 V c t p q, rowAt1_2 V c t p q, rowAt1_3 V c t p q, rowAt1_4 V c t p q]
  rfl

/-- An index of the array is in point `t`'s block iff each coordinate is in the block's range on its axis. -/
theorem mem_blk1_5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

/-- The ten tiles cover the array: row `r` is in the block of the point whose tile index is `r / 5000`. -/
theorem covered1_5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE ARRAY after the region: `bnApply` of the five arrays the region was entered with. -/
theorem final1_5 (c : Dev nD) : (dat1 V c).arrAt 5 cfg1.N = bnApply (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 (bnApply (V c (Pipeline.arrRef spec1 0)) (V c (Pipeline.arrRef spec1 1)) (V c (Pipeline.arrRef spec1 2)) (V c (Pipeline.arrRef spec1 3)) (V c (Pipeline.arrRef spec1 4))) (fun t _ => flushed1_5_eq V c t) (covered1_5)

end Cert.KernelIdeal.Reg

end
-- ==== Proof.LibColumnMoments.lean ====
/-
  Column moments of a finite family of real numbers: the mean and the mean of squares of a family shifted by a
  constant, and the mean of squares of a family shifted by a multiple of its own mean (a variance when the multiple
  is one), each in closed form over the family's own mean and mean of squares. These are the identities by which a
  normalisation that accumulates sums and sums of squares in one pass, and adds a bias afterwards, agrees with one
  that adds the bias first and computes the centred second moment directly. The last part carries the sums into the
  extended reals, where the arithmetic of finite values is the arithmetic of the reals.
-/
import Idealize.ShloMosaic.PureOps.Ideal

noncomputable section

namespace ColumnMoments

open Finset

variable {ι : Type*} [Fintype ι]

/-- The mean of a family over a divisor `n` (the family's size, in the uses). -/
def mean (n : ℝ) (h : ι → ℝ) : ℝ := (∑ r, h r) / n

/-- The mean of the squares. -/
def meanSq (n : ℝ) (h : ι → ℝ) : ℝ := (∑ r, h r * h r) / n

/-- The sum is the divisor times the mean. -/
theorem sum_eq_mul_mean (n : ℝ) (hn0 : n ≠ 0) (h : ι → ℝ) : ∑ r, h r = n * mean n h := by
  unfold mean; field_simp

/-- Shifting every value by `b` shifts the mean by `b`, when the divisor is the number of values. -/
theorem mean_shift (n : ℝ) (hn : (Fintype.card ι : ℝ) = n) (hn0 : n ≠ 0) (a : ι → ℝ) (b : ℝ) :
    mean n (fun r => a r + b) = mean n a + b := by
  unfold mean
  rw [Finset.sum_add_distrib, Finset.sum_const, Finset.card_univ, nsmul_eq_mul, hn]
  field_simp

/-- The mean of squares of the shifted values: the binomial, term by term. -/
theorem meanSq_shift (n : ℝ) (hn : (Fintype.card ι : ℝ) = n) (hn0 : n ≠ 0) (a : ι → ℝ) (b : ℝ) :
    meanSq n (fun r => a r + b) = meanSq n a + 2 * b * mean n a + b * b := by
  unfold meanSq mean
  have e : ∀ r, (a r + b) * (a r + b) = a r * a r + 2 * b * a r + b * b := fun r => by ring
  simp only [e]
  rw [Finset.sum_add_distrib, Finset.sum_add_distrib, ← Finset.mul_sum, Finset.sum_const, Finset.card_univ, nsmul_eq_mul, hn]
  field_simp

/-- THE ONE-PASS SECOND MOMENT. The mean of squares of the values less `α` times their mean is the mean of squares less
    `(2α - α²)` times the squared mean. -/
theorem meanSq_centred (n : ℝ) (hn : (Fintype.card ι : ℝ) = n) (hn0 : n ≠ 0) (h : ι → ℝ) (α : ℝ) :
    meanSq n (fun r => h r - α * mean n h) = meanSq n h - (2 * α - α * α) * mean n h * mean n h := by
  have hs : ∑ r, h r = n * mean n h := sum_eq_mul_mean n hn0 h
  unfold meanSq
  have e : ∀ r, (h r - α * mean n h) * (h r - α * mean n h)
      = h r * h r - 2 * α * mean n h * h r + α * α * mean n h * mean n h := fun r => by ring
  simp only [e]
  rw [Finset.sum_add_distrib, Finset.sum_sub_distrib, ← Finset.mul_sum, Finset.sum_const, Finset.card_univ, nsmul_eq_mul, hn, hs]
  field_simp
  ring

/-- It is a mean of squares, so it is not negative when the divisor is positive: clamping it at zero changes nothing. -/
theorem meanSq_nonneg (n : ℝ) (hn0 : 0 < n) (h : ι → ℝ) : 0 ≤ meanSq n h := by
  unfold meanSq
  exact div_nonneg (Finset.sum_nonneg fun r _ => mul_self_nonneg (h r)) hn0.le

theorem max_meanSq_centred (n : ℝ) (hn : (Fintype.card ι : ℝ) = n) (hn0 : 0 < n) (h : ι → ℝ) (α : ℝ) :
    max (meanSq n h - (2 * α - α * α) * mean n h * mean n h) 0 = meanSq n (fun r => h r - α * mean n h) := by
  rw [← meanSq_centred n hn hn0.ne' h α]
  exact max_eq_left (meanSq_nonneg n hn0 _)

/-! ## In the extended reals -/

/-- A finite sum of reals, read in the extended reals, is the sum of the readings. -/
theorem coe_sum (s : Finset ι) (f : ι → ℝ) : ((∑ r ∈ s, f r : ℝ) : EReal) = ∑ r ∈ s, (f r : EReal) := by
  classical
  induction s using Finset.induction_on with
  | empty => simp
  | insert a s ha ih => rw [Finset.sum_insert ha, Finset.sum_insert ha, EReal.coe_add, ih]

/-- The mean read in the extended reals: the sum of the readings times the reading of the reciprocal. -/
theorem coe_mean (n : ℝ) (h : ι → ℝ) :
    ((mean n h : ℝ) : EReal) = (∑ r, (h r : EReal)) * ((1 / n : ℝ) : EReal) := by
  unfold mean
  rw [← coe_sum, ← EReal.coe_mul]; congr 1; ring

theorem coe_meanSq (n : ℝ) (h : ι → ℝ) :
    ((meanSq n h : ℝ) : EReal) = (∑ r, ((h r : EReal) * (h r : EReal))) * ((1 / n : ℝ) : EReal) := by
  unfold meanSq
  have e : ∀ r, ((h r : EReal) * (h r : EReal)) = ((h r * h r : ℝ) : EReal) := fun r => (EReal.coe_mul _ _).symm
  simp only [e]
  rw [← coe_sum, ← EReal.coe_mul]; congr 1; ring

/-! ### The identities above, read in the extended reals

  On readings of reals the extended reals' sum, difference, product and maximum are the reals': each statement below is
  its real counterpart with the readings pushed through. -/

/-- The shifted mean: the mean of the readings plus the shift's reading. -/
theorem coe_mean_shift (n : ℝ) (hn : (Fintype.card ι : ℝ) = n) (hn0 : n ≠ 0) (a : ι → ℝ) (b : ℝ) :
    ((mean n a : ℝ) : EReal) + (b : EReal) = ((mean n (fun r => a r + b) : ℝ) : EReal) := by
  rw [mean_shift n hn hn0 a b, EReal.coe_add]

/-- The shifted mean of squares, spelled as a sum, twice a product, and a square. -/
theorem coe_meanSq_shift (n : ℝ) (hn : (Fintype.card ι : ℝ) = n) (hn0 : n ≠ 0) (a : ι → ℝ) (b : ℝ) :
    ((meanSq n a : ℝ) : EReal) + (((2 : ℝ) : EReal) * (b : EReal)) * ((mean n a : ℝ) : EReal) + (b : EReal) * (b : EReal)
      = ((meanSq n (fun r => a r + b) : ℝ) : EReal) := by
  rw [meanSq_shift n hn hn0 a b, EReal.coe_add, EReal.coe_add, EReal.coe_mul, EReal.coe_mul, EReal.coe_mul]

/-- The coefficient of the squared mean: twice alpha less alpha squared. -/
theorem coe_two_alpha (α : ℝ) :
    ((2 : ℝ) : EReal) * (α : EReal) - (α : EReal) * (α : EReal) = ((2 * α - α * α : ℝ) : EReal) := by
  rw [EReal.coe_sub, EReal.coe_mul, EReal.coe_mul]

/-- THE ONE-PASS SECOND MOMENT IN THE EXTENDED REALS, CLAMPED. The mean of squares less `(2α - α²)` times the mean times the
    mean, clamped at zero, is the mean of squares of the values less `α` times their mean. -/
theorem coe_max_meanSq_centred (n : ℝ) (hn : (Fintype.card ι : ℝ) = n) (hn0 : 0 < n) (h : ι → ℝ) (α : ℝ) :
    max (((meanSq n h : ℝ) : EReal)
          - ((((2 : ℝ) : EReal) * (α : EReal) - (α : EReal) * (α : EReal)) * ((mean n h : ℝ) : EReal)) * ((mean n h : ℝ) : EReal)) 0
      = ((meanSq n (fun r => h r - α * mean n h) : ℝ) : EReal) := by
  have e : ((meanSq n h : ℝ) : EReal)
        - ((((2 : ℝ) : EReal) * (α : EReal) - (α : EReal) * (α : EReal)) * ((mean n h : ℝ) : EReal)) * ((mean n h : ℝ) : EReal)
      = ((meanSq n (fun r => h r - α * mean n h) : ℝ) : EReal) := by
    rw [coe_two_alpha, ← EReal.coe_mul, ← EReal.coe_mul, ← EReal.coe_sub, meanSq_centred n hn hn0.ne' h α]
  rw [e]
  exact max_eq_left (EReal.coe_nonneg.mpr (meanSq_nonneg n hn0 _))

/-- A value less alpha times the mean, read in the extended reals. -/
theorem coe_centred (n : ℝ) (h : ι → ℝ) (α : ℝ) (r : ι) :
    (h r : EReal) - (α : EReal) * ((mean n h : ℝ) : EReal) = ((h r - α * mean n h : ℝ) : EReal) := by
  rw [EReal.coe_sub, EReal.coe_mul]

end ColumnMoments

end
-- ==== Proof.LibFiniteReals.lean ====
/-
  Finite values in the extended reals. An extended real is finite when it is the reading of a real number; the finite
  values are closed under sum, difference, product, negation, maximum, minimum and finite sums, and on them the
  product distributes over sums, finite sums included — the laws that fail at the infinities (where a product with zero
  or a sum of opposite infinities takes a conventional value) and that an argument moving a factor across a sum, or
  folding a bias through a matrix product, has to invoke.
-/
import Idealize.ShloMosaic.PureOps.Ideal

namespace FiniteReals

open Finset

/-- `x` is the reading of a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

/-- Finite is: neither infinity. -/
theorem isReal_iff {x : EReal} : IsReal x ↔ x ≠ ⊤ ∧ x ≠ ⊥ :=
  ⟨fun ⟨r, h⟩ => h ▸ ⟨EReal.coe_ne_top r, EReal.coe_ne_bot r⟩,
   fun ⟨h1, h2⟩ => ⟨x.toReal, (EReal.coe_toReal h1 h2).symm⟩⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

theorem IsReal.min {x y : EReal} (hx : IsReal x) (hy : IsReal y) : IsReal (min x y) := by
  obtain ⟨a, rfl⟩ := hx; obtain ⟨b, rfl⟩ := hy
  exact ⟨Min.min a b, (EReal.coe_strictMono.monotone.map_min (a := a) (b := b)).symm⟩

/-- A finite sum of finite values is finite. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-! ## Distributivity on finite values -/

theorem mul_add_of_isReal {x y z : EReal} (hx : IsReal x) (hy : IsReal y) (hz : IsReal z) : x * (y + z) = x * y + x * z := by
  obtain ⟨a, rfl⟩ := hx; obtain ⟨b, rfl⟩ := hy; obtain ⟨c, rfl⟩ := hz
  rw [← EReal.coe_add, ← EReal.coe_mul, ← EReal.coe_mul, ← EReal.coe_mul, ← EReal.coe_add, mul_add]

theorem add_mul_of_isReal {x y z : EReal} (hx : IsReal x) (hy : IsReal y) (hz : IsReal z) : (x + y) * z = x * z + y * z := by
  rw [mul_comm, mul_add_of_isReal hz hx hy, mul_comm z x, mul_comm z y]

/-- A finite factor moves across a finite sum of finite values. -/
theorem sum_mul_of_isReal {ι : Type*} (s : Finset ι) (f : ι → EReal) (x : EReal) (hf : ∀ i ∈ s, IsReal (f i)) (hx : IsReal x) :
    (∑ i ∈ s, f i) * x = ∑ i ∈ s, f i * x := by
  classical
  induction s using Finset.induction_on with
  | empty => simp
  | insert a s ha ih =>
    rw [Finset.sum_insert ha, Finset.sum_insert ha,
      add_mul_of_isReal (hf a (Finset.mem_insert_self a s)) (IsReal.sum s f fun i hi => hf i (Finset.mem_insert_of_mem hi)) hx,
      ih fun i hi => hf i (Finset.mem_insert_of_mem hi)]

end FiniteReals
-- ==== Proof.Spec.lean ====
/-
  The specification of one graph-isomorphism layer over the extended reals, on literal index types.

  A layer takes node features `h` (50000 nodes, 128 features) and their neighbourhood sums `agg`, applies a two-layer
  perceptron with a rectifier after each stage to `h + agg`, and normalises each feature column by its batch statistics:
  the column mean, the (biased) column variance, the reciprocal square root of variance plus a small constant, a scale
  and a shift. The variance is written in two ways. The TWO-PASS form centres every entry by the mean and averages the
  squares. The ONE-PASS form accumulates the column sums of the entries and of their squares and takes the mean of
  squares less the squared mean. Over the reals they are one number (the binomial expansion of the centred square);
  over the extended reals they are one number when every entry is finite, which is what `varOnePass_eq_varTwoPass`
  states. Finiteness is inherited from layer to layer: finite inputs give finite perceptron outputs (sums, products and
  maxima of finite values), a finite non-negative variance, a positive finite argument of the reciprocal square root, and
  so a finite normalised output.
-/
import Idealize.ShloMosaic.PureOps.Ideal
import Idealize.ShloMosaic.PureOps.Ideal.Laws
import Idealize.ShloMosaic.Lib.ValueIdx
import proofs.«139862_j28269474742473_1_alg».proof.Proof.LibColumnMoments
import proofs.«139862_j28269474742473_1_alg».proof.Proof.LibFiniteReals

noncomputable section

namespace Cert.Spec

open Idealize.ShloMosaic FiniteReals

/-- Node features: one extended real per node and feature. -/
abbrev Feat := Fin 50000 → Fin 128 → EReal
/-- A weight matrix of one perceptron stage: input feature, output feature. -/
abbrev Wt := Fin 128 → Fin 128 → EReal
/-- One value per feature: a bias, a column statistic, a scale, a shift. -/
abbrev Vc := Fin 128 → EReal

/-- The number of nodes as the programs write it: the single-precision word of 50000. -/
def count : EReal := Ideal.ofBits .f32 0x47435000#32
/-- The constant added to the variance: the single-precision word nearest to 1e-5. -/
def eps : EReal := Ideal.ofBits .f32 0x3727C5AC#32

/-! ## The perceptron -/

/-- The hidden stage: `max ((h + agg) · W1 + b1) 0`. -/
def hidden (h agg : Feat) (W1 : Wt) (b1 : Vc) : Feat :=
  fun r k => max ((∑ l : Fin 128, (h r l + agg r l) * W1 l k) + b1 k) 0

/-- The layer before normalisation: `max (hidden · W2 + b2) 0`. -/
def pre (h agg : Feat) (W1 : Wt) (b1 : Vc) (W2 : Wt) (b2 : Vc) : Feat :=
  fun r j => max ((∑ k : Fin 128, hidden h agg W1 b1 r k * W2 k j) + b2 j) 0

/-! ## Column statistics and the normalisation -/

/-- The column sums. -/
def colSum (P : Feat) : Vc := fun j => ∑ r : Fin 50000, P r j
/-- The column sums of squares. -/
def colSumSq (P : Feat) : Vc := fun j => ∑ r : Fin 50000, P r j * P r j
/-- The column means. -/
def mean (P : Feat) : Vc := fun j => Ideal.div (colSum P j) count
/-- The variance, two-pass: the mean of the squares of the centred entries. -/
def varTwoPass (P : Feat) : Vc :=
  fun j => Ideal.div (∑ r : Fin 50000, (P r j - mean P j) * (P r j - mean P j)) count
/-- The variance, one-pass: the mean of squares less the squared mean. -/
def varOnePass (P : Feat) : Vc :=
  fun j => Ideal.div (colSumSq P j) count - mean P j * mean P j
/-- The reciprocal standard deviation of a variance. -/
def invStd (var : Vc) : Vc := fun j => Ideal.rsqrt (var j + eps)
/-- Centre, scale by a given reciprocal standard deviation, scale by `g`, shift by `b`. -/
def affine (P : Feat) (mu istd g b : Vc) : Feat := fun r j => (P r j - mu j) * istd j * g j + b j

/-- The normalisation with the two-pass variance. -/
def bnTwoPass (P : Feat) (g b : Vc) : Feat := affine P (mean P) (invStd (varTwoPass P)) g b
/-- The normalisation with the one-pass variance. -/
def bnOnePass (P : Feat) (g b : Vc) : Feat := affine P (mean P) (invStd (varOnePass P)) g b

/-- One layer, two-pass. -/
def layerTwoPass (h agg : Feat) (W1 : Wt) (b1 : Vc) (W2 : Wt) (b2 g b : Vc) : Feat :=
  bnTwoPass (pre h agg W1 b1 W2 b2) g b
/-- One layer, one-pass. -/
def layerOnePass (h agg : Feat) (W1 : Wt) (b1 : Vc) (W2 : Wt) (b2 g b : Vc) : Feat :=
  bnOnePass (pre h agg W1 b1 W2 b2) g b

/-! ## The two literals -/

theorem count_eq : count = ((50000 : ℝ) : EReal) := by
  unfold count
  simp [Ideal.ofBits, Ideal.ieee, -EReal.coe_mul]; norm_num

theorem eps_eq : eps = ((10995116 * (2 : ℝ) ^ (-40 : Int) : ℝ) : EReal) := by
  unfold eps
  simp [Ideal.ofBits, Ideal.ieee, -EReal.coe_mul]

theorem eps_pos : (0 : ℝ) < 10995116 * (2 : ℝ) ^ (-40 : Int) := by positivity

/-- Division by the node count is the product with the reading of its reciprocal. -/
theorem div_count (x : EReal) : Ideal.div x count = x * ((1 / 50000 : ℝ) : EReal) := by
  rw [count_eq]; exact Ideal.div_coe (by norm_num) x

/-! ## The two variances agree on finite columns -/

theorem card_nodes : (Fintype.card (Fin 50000) : ℝ) = 50000 := by simp

/-- Over one column of real numbers read in the extended reals: the mean of squares less the squared mean is the mean
    of the squares of the centred entries. Both sides are the reading of one real number, by the one-pass second-moment identity. -/
theorem var_column (a : Fin 50000 → ℝ) :
    (∑ r : Fin 50000, (a r : EReal) * (a r : EReal)) * ((1 / 50000 : ℝ) : EReal)
        - ((∑ r : Fin 50000, (a r : EReal)) * ((1 / 50000 : ℝ) : EReal)) * ((∑ r : Fin 50000, (a r : EReal)) * ((1 / 50000 : ℝ) : EReal))
      = (∑ r : Fin 50000, ((a r : EReal) - (∑ r : Fin 50000, (a r : EReal)) * ((1 / 50000 : ℝ) : EReal))
            * ((a r : EReal) - (∑ r : Fin 50000, (a r : EReal)) * ((1 / 50000 : ℝ) : EReal))) * ((1 / 50000 : ℝ) : EReal) := by
  rw [← ColumnMoments.coe_mean 50000 a, ← ColumnMoments.coe_meanSq 50000 a]
  have e : ∀ r : Fin 50000, ((a r : EReal) - ((ColumnMoments.mean 50000 a : ℝ) : EReal)) * ((a r : EReal) - ((ColumnMoments.mean 50000 a : ℝ) : EReal))
      = (((a r - 1 * ColumnMoments.mean 50000 a : ℝ)) : EReal) * (((a r - 1 * ColumnMoments.mean 50000 a : ℝ)) : EReal) := fun r => by
    rw [one_mul, EReal.coe_sub]
  rw [Finset.sum_congr rfl fun r _ => e r, ← ColumnMoments.coe_meanSq 50000 (fun r => a r - 1 * ColumnMoments.mean 50000 a),
    ColumnMoments.meanSq_centred 50000 card_nodes (by norm_num) a 1, ← EReal.coe_mul, ← EReal.coe_sub]
  exact congrArg Real.toEReal (by ring)

/-- The column mean of a finite column is the reading of the real mean. -/
theorem mean_coe (P : Feat) (p : Fin 50000 → Fin 128 → ℝ) (hp : ∀ r j, P r j = (p r j : EReal)) (j : Fin 128) :
    mean P j = ((ColumnMoments.mean 50000 (fun r => p r j) : ℝ) : EReal) := by
  unfold mean colSum
  rw [div_count, Finset.sum_congr rfl fun r _ => hp r j, ← ColumnMoments.coe_mean]

/-- THE TWO FORMS OF THE VARIANCE AGREE when every entry is finite. -/
theorem varOnePass_eq_varTwoPass (P : Feat) (hP : ∀ r j, IsReal (P r j)) : varOnePass P = varTwoPass P := by
  choose p hp using hP
  funext j
  unfold varOnePass varTwoPass mean colSumSq colSum
  simp only [div_count, hp]
  exact var_column fun r => p r j

theorem bnOnePass_eq_bnTwoPass (P : Feat) (hP : ∀ r j, IsReal (P r j)) (g b : Vc) : bnOnePass P g b = bnTwoPass P g b := by
  unfold bnOnePass bnTwoPass; rw [varOnePass_eq_varTwoPass P hP]

theorem layerOnePass_eq_layerTwoPass (h agg : Feat) (W1 : Wt) (b1 : Vc) (W2 : Wt) (b2 g b : Vc)
    (hP : ∀ r j, IsReal (pre h agg W1 b1 W2 b2 r j)) :
    layerOnePass h agg W1 b1 W2 b2 g b = layerTwoPass h agg W1 b1 W2 b2 g b :=
  bnOnePass_eq_bnTwoPass _ hP g b

/-! ## Finiteness through a layer -/

theorem hidden_isReal (h agg : Feat) (W1 : Wt) (b1 : Vc) (hh : ∀ r j, IsReal (h r j)) (ha : ∀ r j, IsReal (agg r j))
    (hW : ∀ l k, IsReal (W1 l k)) (hb : ∀ k, IsReal (b1 k)) (r : Fin 50000) (k : Fin 128) : IsReal (hidden h agg W1 b1 r k) :=
  ((IsReal.sum _ _ fun l _ => ((hh r l).add (ha r l)).mul (hW l k)).add (hb k)).max isReal_zero

theorem pre_isReal (h agg : Feat) (W1 : Wt) (b1 : Vc) (W2 : Wt) (b2 : Vc) (hh : ∀ r j, IsReal (h r j)) (ha : ∀ r j, IsReal (agg r j))
    (hW1 : ∀ l k, IsReal (W1 l k)) (hb1 : ∀ k, IsReal (b1 k)) (hW2 : ∀ l k, IsReal (W2 l k)) (hb2 : ∀ k, IsReal (b2 k))
    (r : Fin 50000) (j : Fin 128) : IsReal (pre h agg W1 b1 W2 b2 r j) :=
  ((IsReal.sum _ _ fun k _ => (hidden_isReal h agg W1 b1 hh ha hW1 hb1 r k).mul (hW2 k j)).add (hb2 j)).max isReal_zero

/-- The two-pass variance of a finite column is the reading of a non-negative real. -/
theorem varTwoPass_coe (P : Feat) (hP : ∀ r j, IsReal (P r j)) (j : Fin 128) :
    ∃ v : ℝ, 0 ≤ v ∧ varTwoPass P j = (v : EReal) := by
  choose p hp using hP
  refine ⟨ColumnMoments.meanSq 50000 (fun r => p r j - ColumnMoments.mean 50000 (fun r => p r j)),
    ColumnMoments.meanSq_nonneg 50000 (by norm_num) _, ?_⟩
  have e : ∀ r : Fin 50000, (P r j - ((ColumnMoments.mean 50000 (fun r => p r j) : ℝ) : EReal)) * (P r j - ((ColumnMoments.mean 50000 (fun r => p r j) : ℝ) : EReal))
      = ((p r j - ColumnMoments.mean 50000 (fun r => p r j) : ℝ) : EReal) * ((p r j - ColumnMoments.mean 50000 (fun r => p r j) : ℝ) : EReal) := fun r => by
    rw [hp r j, ← EReal.coe_sub]
  unfold varTwoPass
  rw [div_count, mean_coe P p hp j, Finset.sum_congr rfl fun r _ => e r,
    ← ColumnMoments.coe_meanSq 50000 (fun r => p r j - ColumnMoments.mean 50000 (fun r => p r j))]

/-- The reciprocal standard deviation of a non-negative real variance is finite: the argument of the reciprocal
    square root is a positive real. -/
theorem invStd_isReal (var : Vc) (j : Fin 128) (hv : ∃ v : ℝ, 0 ≤ v ∧ var j = (v : EReal)) : IsReal (invStd var j) := by
  obtain ⟨v, hv0, hv⟩ := hv
  unfold invStd
  rw [hv, eps_eq, ← EReal.coe_add, Ideal.rsqrt_coe, if_neg (by have := eps_pos; linarith), if_neg (by have := eps_pos; linarith)]
  exact isReal_coe _

theorem affine_isReal (P : Feat) (mu istd g b : Vc) (hP : ∀ r j, IsReal (P r j)) (hmu : ∀ j, IsReal (mu j)) (hi : ∀ j, IsReal (istd j))
    (hg : ∀ j, IsReal (g j)) (hb : ∀ j, IsReal (b j)) (r : Fin 50000) (j : Fin 128) : IsReal (affine P mu istd g b r j) :=
  ((((hP r j).sub (hmu j)).mul (hi j)).mul (hg j)).add (hb j)

theorem mean_isReal (P : Feat) (hP : ∀ r j, IsReal (P r j)) (j : Fin 128) : IsReal (mean P j) := by
  choose p hp using hP
  rw [mean_coe P p hp j]; exact isReal_coe _

theorem bnTwoPass_isReal (P : Feat) (g b : Vc) (hP : ∀ r j, IsReal (P r j)) (hg : ∀ j, IsReal (g j)) (hb : ∀ j, IsReal (b j))
    (r : Fin 50000) (j : Fin 128) : IsReal (bnTwoPass P g b r j) :=
  affine_isReal P _ _ g b hP (mean_isReal P hP) (fun j => invStd_isReal _ j (varTwoPass_coe P hP j)) hg hb r j

/-- Finite features, neighbourhood sums and parameters give a finite layer output. -/
theorem layerTwoPass_isReal (h agg : Feat) (W1 : Wt) (b1 : Vc) (W2 : Wt) (b2 g b : Vc) (hh : ∀ r j, IsReal (h r j)) (ha : ∀ r j, IsReal (agg r j))
    (hW1 : ∀ l k, IsReal (W1 l k)) (hb1 : ∀ k, IsReal (b1 k)) (hW2 : ∀ l k, IsReal (W2 l k)) (hb2 : ∀ k, IsReal (b2 k))
    (hg : ∀ j, IsReal (g j)) (hb : ∀ j, IsReal (b j)) (r : Fin 50000) (j : Fin 128) :
    IsReal (layerTwoPass h agg W1 b1 W2 b2 g b r j) :=
  bnTwoPass_isReal _ g b (pre_isReal h agg W1 b1 W2 b2 hh ha hW1 hb1 hW2 hb2) hg hb r j

end Cert.Spec

end
-- ==== Proof.SpecNet.lean ====
/-
  The five-layer network over the argument arrays.

  The arrays are functions on the index types of literal shapes. `feat` and `unfeat` pass between an array of node
  features and its curried form; `wt` and `vc` cut one layer's weight matrix or per-feature vector out of the stacked
  parameters. The neighbourhood aggregation — wrap the source node of every edge into range, gather the source rows, and
  add them into the rows of the destination nodes, starting from zero — is one function `Agg` of the features and the edge list,
  defined by the host operations that compute it and never opened: all that is used of it is that it maps finite
  features to finite sums (each entry is zero plus a finite sum of entries of the features).

  `outTwo n` and `outOne n` are the features after `n` layers with the two-pass and the one-pass variance. Finite
  arguments keep every layer finite, so the two agree at every depth (`outOne_eq_outTwo`).
-/
import proofs.«139862_j28269474742473_1_alg».proof.Proof.Spec

noncomputable section

namespace Cert.Spec

open Idealize.ShloMosaic FiniteReals

abbrev S50000x128 : Shape := ⟨2, ![50000, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S5x128x128 : Shape := ⟨3, ![5, 128, 128]⟩
abbrev S5x128 : Shape := ⟨2, ![5, 128]⟩
abbrev S5x50000x128 : Shape := ⟨3, ![5, 50000, 128]⟩

/-! ## Arrays and their curried forms -/

def feat (x : S50000x128.Idx → EReal) : Feat := fun r j => x (ValueIdx.ix2 r j)
def unfeat (P : Feat) : S50000x128.Idx → EReal := fun i => P (i 0) (i 1)
def wt (W : S5x128x128.Idx → EReal) (L : Fin 5) : Wt := fun l k => W (ValueIdx.ix3 L l k)
def vc (b : S5x128.Idx → EReal) (L : Fin 5) : Vc := fun k => b (ValueIdx.ix2 L k)

theorem feat_unfeat (P : Feat) : feat (unfeat P) = P := rfl
theorem unfeat_feat (x : S50000x128.Idx → EReal) : unfeat (feat x) = x :=
  funext fun i => congrArg x (ValueIdx.eq_ix2 i).symm
theorem unfeat_apply (P : Feat) (r : Fin 50000) (j : Fin 128) : unfeat P (ValueIdx.ix2 r j) = P r j := rfl

/-! ## The aggregation -/

/-- The shape relations the aggregation's host operations cite. -/
structure AggFacts : Prop where
  slices0 : S2x800000.Slices ![0, 0] S1x800000
  slices1 : S2x800000.Slices ![1, 0] S1x800000
  casts : S1x800000.ShapeCasts S800000
  bcastI : S_.BroadcastsInDim S800000 (![] : Fin 0 → Fin S800000.rank)
  bcastCol : S800000.BroadcastsInDim S800000x1 (![0] : Fin 1 → Fin S800000x1.rank)
  bcastZ : S_.BroadcastsInDim S50000x128 (![] : Fin 0 → Fin S50000x128.rank)
  gatherWf : GatherDims.WF S50000x128 S800000x1 S800000x128 [1] [0] [] [0] [] 1 ![1, 128]
  scatterWf : ScatterDims.WF S50000x128 S800000x1 S800000x128 [1] [0] [0] 1

def gatherDims (f : AggFacts) : GatherDims S50000x128 S800000x1 S800000x128 where
  offsetDims := [1]
  collapsedSliceDims := [0]
  operandBatchingDims := []
  startIndicesBatchingDims := []
  startIndexMap := [0]
  indexVectorDim := 1
  sliceSizes := ![1, 128]
  wf := f.gatherWf

def scatterDims (f : AggFacts) : ScatterDims S50000x128 S800000x1 S800000x128 where
  updateWindowDims := [1]
  insertedWindowDims := [0]
  scatterDimsToOperandDims := [0]
  indexVectorDim := 1
  wf := f.scatterWf

/-- The source node of every edge (row 0 of the edge list), wrapped into range: a negative index counts from the end. -/
def srcIdx (f : AggFacts) (e : IVec S2x800000 32) : IVec S800000x1 32 :=
  broadcastInDim S800000x1 ![0] f.bcastCol
    (select
      (cmpi .slt (shapeCast S800000 (extractStridedSlice S1x800000 ![0, 0] e f.slices0) f.casts)
        (broadcastInDim S800000 ![] f.bcastI (constantI S_ 32 0#32)))
      (addi (shapeCast S800000 (extractStridedSlice S1x800000 ![0, 0] e f.slices0) f.casts)
        (broadcastInDim S800000 ![] f.bcastI (constantI S_ 32 50000#32)))
      (shapeCast S800000 (extractStridedSlice S1x800000 ![0, 0] e f.slices0) f.casts))

/-- The destination node of every edge (row 1 of the edge list). -/
def dstIdx (f : AggFacts) (e : IVec S2x800000 32) : IVec S800000x1 32 :=
  broadcastInDim S800000x1 ![0] f.bcastCol (shapeCast S800000 (extractStridedSlice S1x800000 ![1, 0] e f.slices1) f.casts)

/-- THE AGGREGATION: the rows of the edges' source nodes, added into the rows of their destination nodes from zero. -/
def Agg (f : AggFacts) (h : FVec Ideal S50000x128 .f32) (e : IVec S2x800000 32) : FVec Ideal S50000x128 .f32 :=
  Host.scatterAdd (F := Ideal) (scatterDims f)
    (broadcastInDim S50000x128 ![] f.bcastZ (constant (F := Ideal) S_ .f32 0x00000000#32))
    (dstIdx f e)
    (Host.gather (gatherDims f) h (srcIdx f e))

/-- Every entry of the aggregation is zero plus a finite sum of entries of the features: finite when they are. -/
theorem Agg_isReal (f : AggFacts) (h : FVec Ideal S50000x128 .f32) (e : IVec S2x800000 32) (hh : ∀ i, IsReal (h i))
    (i : S50000x128.Idx) : IsReal (Agg f h e i) := by
  unfold Agg
  show IsReal (Ideal.hostScatterAdd _ _ _ _ i)
  unfold Ideal.hostScatterAdd
  refine IsReal.add ?_ (IsReal.sum _ _ fun j _ => hh _)
  show IsReal (Ideal.ofBits .f32 0x00000000#32)
  rw [Ideal.ofBits_zero_f32]; exact isReal_zero

/-! ## The network -/

/-- The argument arrays: node features, edge list, and the five layers' stacked parameters. -/
structure Args where
  x : FVec Ideal S50000x128 .f32
  e : IVec S2x800000 32
  W1 : FVec Ideal S5x128x128 .f32
  b1 : FVec Ideal S5x128 .f32
  W2 : FVec Ideal S5x128x128 .f32
  b2 : FVec Ideal S5x128 .f32
  gamma : FVec Ideal S5x128 .f32
  beta : FVec Ideal S5x128 .f32

/-- Every float argument is finite. -/
structure Args.Finite (a : Args) : Prop where
  x : ∀ i, IsReal (a.x i)
  W1 : ∀ i, IsReal (a.W1 i)
  b1 : ∀ i, IsReal (a.b1 i)
  W2 : ∀ i, IsReal (a.W2 i)
  b2 : ∀ i, IsReal (a.b2 i)
  gamma : ∀ i, IsReal (a.gamma i)
  beta : ∀ i, IsReal (a.beta i)

/-- Layer `L` applied to features `h`, two-pass variance. -/
def stepTwo (f : AggFacts) (a : Args) (L : Fin 5) (h : FVec Ideal S50000x128 .f32) : FVec Ideal S50000x128 .f32 :=
  unfeat (layerTwoPass (feat h) (feat (Agg f h a.e)) (wt a.W1 L) (vc a.b1 L) (wt a.W2 L) (vc a.b2 L) (vc a.gamma L) (vc a.beta L))

/-- Layer `L` applied to features `h`, one-pass variance. -/
def stepOne (f : AggFacts) (a : Args) (L : Fin 5) (h : FVec Ideal S50000x128 .f32) : FVec Ideal S50000x128 .f32 :=
  unfeat (layerOnePass (feat h) (feat (Agg f h a.e)) (wt a.W1 L) (vc a.b1 L) (wt a.W2 L) (vc a.b2 L) (vc a.gamma L) (vc a.beta L))

/-- The layer that takes depth `n` to depth `n + 1`. -/
def layerIdx (n : Nat) : Fin 5 := ⟨n % 5, Nat.mod_lt n (by decide)⟩

/-- The features after `n` layers, two-pass. -/
def outTwo (f : AggFacts) (a : Args) : Nat → FVec Ideal S50000x128 .f32
  | 0 => a.x
  | n + 1 => stepTwo f a (layerIdx n) (outTwo f a n)

/-- The features after `n` layers, one-pass. -/
def outOne (f : AggFacts) (a : Args) : Nat → FVec Ideal S50000x128 .f32
  | 0 => a.x
  | n + 1 => stepOne f a (layerIdx n) (outOne f a n)

/-- The five layers' outputs stacked along a leading axis. -/
def stackTwo (f : AggFacts) (a : Args) : FVec Ideal S5x50000x128 .f32 :=
  fun i => outTwo f a ((i 0).val + 1) (ValueIdx.ix2 (i 1 : Fin 50000) (i 2 : Fin 128))
def stackOne (f : AggFacts) (a : Args) : FVec Ideal S5x50000x128 .f32 :=
  fun i => outOne f a ((i 0).val + 1) (ValueIdx.ix2 (i 1 : Fin 50000) (i 2 : Fin 128))

/-- One layer keeps finite features finite. -/
theorem stepTwo_isReal (f : AggFacts) (a : Args) (ha : a.Finite) (L : Fin 5) (h : FVec Ideal S50000x128 .f32) (hh : ∀ i, IsReal (h i))
    (i : S50000x128.Idx) : IsReal (stepTwo f a L h i) :=
  layerTwoPass_isReal _ _ _ _ _ _ _ _ (fun r j => hh _) (fun r j => Agg_isReal f h a.e hh _) (fun l k => ha.W1 _) (fun k => ha.b1 _)
    (fun l k => ha.W2 _) (fun k => ha.b2 _) (fun j => ha.gamma _) (fun j => ha.beta _) (i 0) (i 1)

/-- On finite features the two forms of a layer agree. -/
theorem stepOne_eq_stepTwo (f : AggFacts) (a : Args) (ha : a.Finite) (L : Fin 5) (h : FVec Ideal S50000x128 .f32) (hh : ∀ i, IsReal (h i)) :
    stepOne f a L h = stepTwo f a L h := by
  unfold stepOne stepTwo
  rw [layerOnePass_eq_layerTwoPass]
  exact pre_isReal _ _ _ _ _ _ (fun r j => hh _) (fun r j => Agg_isReal f h a.e hh _) (fun l k => ha.W1 _) (fun k => ha.b1 _)
    (fun l k => ha.W2 _) (fun k => ha.b2 _)

theorem outTwo_isReal (f : AggFacts) (a : Args) (ha : a.Finite) : ∀ (n : Nat) (i : S50000x128.Idx), IsReal (outTwo f a n i)
  | 0, i => ha.x i
  | n + 1, i => stepTwo_isReal f a ha (layerIdx n) _ (outTwo_isReal f a ha n) i

/-- THE TWO NETWORKS AGREE at every depth when the arguments are finite. -/
theorem outOne_eq_outTwo (f : AggFacts) (a : Args) (ha : a.Finite) : ∀ n : Nat, outOne f a n = outTwo f a n
  | 0 => rfl
  | n + 1 => by
    show stepOne f a (layerIdx n) (outOne f a n) = stepTwo f a (layerIdx n) (outTwo f a n)
    rw [outOne_eq_outTwo f a ha n]
    exact stepOne_eq_stepTwo f a ha (layerIdx n) _ (outTwo_isReal f a ha n)

theorem stackOne_eq_stackTwo (f : AggFacts) (a : Args) (ha : a.Finite) : stackOne f a = stackTwo f a :=
  funext fun i => by unfold stackOne stackTwo; rw [outOne_eq_outTwo f a ha]

end Cert.Spec

end
-- ==== Proof.KernelIdeal.HostLayout.lean ====
/- What the weight-and-aggregation host stretches share, at the ideal instance: a rank-3 array cut along its leading
   axis read at an index, and the shape relations the neighbourhood aggregation's operations cite, collected from the
   program's own shape facts. -/
import proofs.«139862_j28269474742473_1_alg».proof.Proof.Gen.KernelIdeal
import proofs.«139862_j28269474742473_1_alg».proof.Proof.SpecNet
import Idealize.ShloMosaic.Lib.Pipeline.Value
import Idealize.ShloMosaic.Lib.ValueLayout

noncomputable section

namespace Cert.KernelIdeal.Reg

open Cert.KernelIdeal Cert.KernelIdeal.Gen
open Idealize.ShloMosaic Idealize.ShloMosaic.ValueIdx

/-- A rank-3 array cut along axis 0 from `o` reads, at `(j, a, e)`, the source at `(k, a, e)` with `k = o + j`. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- Layer `L`'s matrix cut out of a stack of five and given back its two axes: at `(l, k)` it is the stack at `(L, l, k)`. -/
theorem layerMat_apply (X : FVec Ideal S5x128x128 .f32) (o : Nat) (hs : S5x128x128.Slices ![o, 0, 0] S1x128x128)
    (h1 : S1x128x128.ShapeCasts S128x128) (L : Fin 5) (hL : L.val = o) (l k : Fin 128) :
    shapeCast S128x128 (extractStridedSlice S1x128x128 ![o, 0, 0] X hs) h1 (ix2 l k) = X (ix3 L l k) := by
  rw [shapeCast_1ab_ab_apply]
  exact slice3_axis0_apply o X hs (0 : Fin 1) l k L (by rw [hL]; rfl)

/-- Layer `L`'s row cut out of a stack of five, flattened and given back a leading unit axis: at `(0, k)` it is the
    stack at `(L, k)`. -/
theorem layerRow_apply (X : FVec Ideal S5x128 .f32) (o : Nat) (hs : S5x128.Slices ![o, 0] S1x128)
    (h1 : S1x128.ShapeCasts S128) (h2 : S128.ShapeCasts S1x128) (L : Fin 5) (hL : L.val = o) (k : Fin 128) :
    shapeCast S1x128 (shapeCast S128 (extractStridedSlice S1x128 ![o, 0] X hs) h1) h2 (ix2 (0 : Fin 1) k) = X (ix2 L k) := by
  rw [shapeCast_a_1a_apply, shapeCast_1a_a_apply]
  exact slice2_axis0_apply o X hs (0 : Fin 1) k L (by rw [hL]; rfl)

/-- The shape relations the aggregation cites, from the program's shape facts. -/
theorem aggFacts : Cert.Spec.AggFacts where
  slices0 := slices_S2x800000_S1x800000_0_0
  slices1 := slices_S2x800000_S1x800000_1_0
  casts := shapeCasts_S1x800000_S800000
  bcastI := bcast_S_S800000
  bcastCol := bcast_S800000_S800000x1_0
  bcastZ := bcast_S_S50000x128
  gatherWf := gather_S50000x128_S800000x1_S800000x128_1_0_n_n_0_1_1128_wf
  scatterWf := scatter_S50000x128_S800000x1_S800000x128_1_0_0_1_wf

end Cert.KernelIdeal.Reg

end
-- ==== Proof.KernelIdeal.Host0.lean ====
/- The host stretch before layer 0's MLP-statistics region, read at the ideal instance from any contents `W`: the
   neighbourhood aggregation of the layer's input features, and the layer's slices of the stacked parameters (two
   weight matrices, two biases, the scale and the shift), each at an index. -/
import proofs.«139862_j28269474742473_1_alg».proof.Proof.Gen.KernelIdeal.Launch
import proofs.«139862_j28269474742473_1_alg».proof.Proof.Gen.KernelIdeal.Regions
import proofs.«139862_j28269474742473_1_alg».proof.Proof.KernelIdeal.HostLayout
import Idealize.ShloMosaic.Lib.StableHlo.Run
import Idealize.ShloMosaic.Lib.ValueLayout

noncomputable section

namespace Cert.KernelIdeal.Reg

open Cert.KernelIdeal Cert.KernelIdeal.Gen
open Idealize.ShloMosaic Idealize.ShloMosaic.TcCoe Idealize.ShloMosaic.ValueIdx Idealize.ShloMosaic.StableHlo

variable (W : Valuation τ sig (Elt Ideal))

/-- The two edge rows the stretch cuts out of the edge list (later stretches read them, and nothing writes them again). -/
theorem host0_src : (StableHlo.after hostOps0 W (Proc.devRef .tc main_v1) : IVec S800000 32) = shapeCast S800000 (extractStridedSlice S1x800000 ![0, 0] (W (Proc.devRef .tc main_arg1) : IVec S2x800000 32) slices_S2x800000_S1x800000_0_0) shapeCasts_S1x800000_S800000 := by
  after_results <;> rfl
theorem host0_dst : (StableHlo.after hostOps0 W (Proc.devRef .tc main_v3) : IVec S800000 32) = shapeCast S800000 (extractStridedSlice S1x800000 ![1, 0] (W (Proc.devRef .tc main_arg1) : IVec S2x800000 32) slices_S2x800000_S1x800000_1_0) shapeCasts_S1x800000_S800000 := by
  after_results <;> rfl

set_option maxHeartbeats 1000000 in
/-- The aggregation operand is the neighbourhood aggregation of the features the stretch finds, along the edge list. -/
theorem host0_agg : (StableHlo.after hostOps0 W (Proc.devRef .tc main_v13) : FVec Ideal S50000x128 .f32) = Cert.Spec.Agg aggFacts (W (Proc.devRef .tc main_arg0) : FVec Ideal S50000x128 .f32) (W (Proc.devRef .tc main_arg1) : IVec S2x800000 32) := by
  after_results_simp <;> rfl

/-- Layer 0's W1 operand as the stretch's operations of the stacked argument, and at an index. -/
theorem host0_W1_eq : (StableHlo.after hostOps0 W (Proc.devRef .tc main_v15) : FVec Ideal S128x128 .f32)
    = shapeCast S128x128 (extractStridedSlice S1x128x128 ![0, 0, 0] (W (Proc.devRef .tc main_arg3) : FVec Ideal S5x128x128 .f32) slices_S5x128x128_S1x128x128_0_0_0) shapeCasts_S1x128x128_S128x128 := by
  after_results <;> rfl
theorem host0_W1 (l k : Fin 128) : (StableHlo.after hostOps0 W (Proc.devRef .tc main_v15) : FVec Ideal S128x128 .f32) (ix2 l k) = (W (Proc.devRef .tc main_arg3) : FVec Ideal S5x128x128 .f32) (ix3 (0 : Fin 5) l k) := by
  rw [host0_W1_eq W]; exact layerMat_apply _ 0 _ _ (0 : Fin 5) rfl l k

/-- Layer 0's b1 operand as the stretch's operations of the stacked argument, and at an index. -/
theorem host0_b1_eq : (StableHlo.after hostOps0 W (Proc.devRef .tc main_v18) : FVec Ideal S1x128 .f32)
    = shapeCast S1x128 (shapeCast S128 (extractStridedSlice S1x128 ![0, 0] (W (Proc.devRef .tc main_arg4) : FVec Ideal S5x128 .f32) slices_S5x128_S1x128_0_0) shapeCasts_S1x128_S128) shapeCasts_S128_S1x128 := by
  after_results <;> rfl
theorem host0_b1 (k : Fin 128) : (StableHlo.after hostOps0 W (Proc.devRef .tc main_v18) : FVec Ideal S1x128 .f32) (ix2 (0 : Fin 1) k) = (W (Proc.devRef .tc main_arg4) : FVec Ideal S5x128 .f32) (ix2 (0 : Fin 5) k) := by
  rw [host0_b1_eq W]; exact layerRow_apply _ 0 _ _ _ (0 : Fin 5) rfl k

/-- Layer 0's W2 operand as the stretch's operations of the stacked argument, and at an index. -/
theorem host0_W2_eq : (StableHlo.after hostOps0 W (Proc.devRef .tc main_v20) : FVec Ideal S128x128 .f32)
    = shapeCast S128x128 (extractStridedSlice S1x128x128 ![0, 0, 0] (W (Proc.devRef .tc main_arg5) : FVec Ideal S5x128x128 .f32) slices_S5x128x128_S1x128x128_0_0_0) shapeCasts_S1x128x128_S128x128 := by
  after_results <;> rfl
theorem host0_W2 (l k : Fin 128) : (StableHlo.after hostOps0 W (Proc.devRef .tc main_v20) : FVec Ideal S128x128 .f32) (ix2 l k) = (W (Proc.devRef .tc main_arg5) : FVec Ideal S5x128x128 .f32) (ix3 (0 : Fin 5) l k) := by
  rw [host0_W2_eq W]; exact layerMat_apply _ 0 _ _ (0 : Fin 5) rfl l k

/-- Layer 0's b2 operand as the stretch's operations of the stacked argument, and at an index. -/
theorem host0_b2_eq : (StableHlo.after hostOps0 W (Proc.devRef .tc main_v23) : FVec Ideal S1x128 .f32)
    = shapeCast S1x128 (shapeCast S128 (extractStridedSlice S1x128 ![0, 0] (W (Proc.devRef .tc main_arg6) : FVec Ideal S5x128 .f32) slices_S5x128_S1x128_0_0) shapeCasts_S1x128_S128) shapeCasts_S128_S1x128 := by
  after_results <;> rfl
theorem host0_b2 (k : Fin 128) : (StableHlo.after hostOps0 W (Proc.devRef .tc main_v23) : FVec Ideal S1x128 .f32) (ix2 (0 : Fin 1) k) = (W (Proc.devRef .tc main_arg6) : FVec Ideal S5x128 .f32) (ix2 (0 : Fin 5) k) := by
  rw [host0_b2_eq W]; exact layerRow_apply _ 0 _ _ _ (0 : Fin 5) rfl k

/-- Layer 0's gamma operand as the stretch's operations of the stacked argument, and at an index. -/
theorem host0_gamma_eq : (StableHlo.after hostOps0 W (Proc.devRef .tc main_v26) : FVec Ideal S1x128 .f32)
    = shapeCast S1x128 (shapeCast S128 (extractStridedSlice S1x128 ![0, 0] (W (Proc.devRef .tc main_arg7) : FVec Ideal S5x128 .f32) slices_S5x128_S1x128_0_0) shapeCasts_S1x128_S128) shapeCasts_S128_S1x128 := by
  after_results <;> rfl
theorem host0_gamma (k : Fin 128) : (StableHlo.after hostOps0 W (Proc.devRef .tc main_v26) : FVec Ideal S1x128 .f32) (ix2 (0 : Fin 1) k) = (W (Proc.devRef .tc main_arg7) : FVec Ideal S5x128 .f32) (ix2 (0 : Fin 5) k) := by
  rw [host0_gamma_eq W]; exact layerRow_apply _ 0 _ _ _ (0 : Fin 5) rfl k

/-- Layer 0's beta operand as the stretch's operations of the stacked argument, and at an index. -/
theorem host0_beta_eq : (StableHlo.after hostOps0 W (Proc.devRef .tc main_v29) : FVec Ideal S1x128 .f32)
    = shapeCast S1x128 (shapeCast S128 (extractStridedSlice S1x128 ![0, 0] (W (Proc.devRef .tc main_arg8) : FVec Ideal S5x128 .f32) slices_S5x128_S1x128_0_0) shapeCasts_S1x128_S128) shapeCasts_S128_S1x128 := by
  after_results <;> rfl
theorem host0_beta (k : Fin 128) : (StableHlo.after hostOps0 W (Proc.devRef .tc main_v29) : FVec Ideal S1x128 .f32) (ix2 (0 : Fin 1) k) = (W (Proc.devRef .tc main_arg8) : FVec Ideal S5x128 .f32) (ix2 (0 : Fin 5) k) := by
  rw [host0_beta_eq W]; exact layerRow_apply _ 0 _ _ _ (0 : Fin 5) rfl k

/-- The stretch writes neither the features it reads nor the edge list. -/
theorem host0_keeps_h : StableHlo.after hostOps0 W (Proc.devRef .tc main_arg0) = W (Proc.devRef .tc main_arg0) :=
  StableHlo.after_of_writes_sub hostOps0 W hostOps0_writes (by decide)
theorem host0_keeps_edges : StableHlo.after hostOps0 W (Proc.devRef .tc main_arg1) = W (Proc.devRef .tc main_arg1) :=
  StableHlo.after_of_writes_sub hostOps0 W hostOps0_writes (by decide)

end Cert.KernelIdeal.Reg

end
-- ==== Proof.KernelIdeal.Host1.lean ====
/- The host stretch between an MLP-statistics region and its batch-norm region, read at the ideal instance from any
   contents `W`: from the column sums and sums of squares it computes, lane by lane, the mean `sum / count` and the
   reciprocal standard deviation `rsqrt ((sumsq / count − mean · mean) + eps)`. -/
import proofs.«139862_j28269474742473_1_alg».proof.Proof.Gen.KernelIdeal.Launch
import proofs.«139862_j28269474742473_1_alg».proof.Proof.Gen.KernelIdeal.Regions
import proofs.«139862_j28269474742473_1_alg».proof.Proof.Spec
import Idealize.ShloMosaic.Lib.StableHlo.Run
import Idealize.ShloMosaic.Lib.IdealHost
import Idealize.ShloMosaic.Lib.ValueIdx

noncomputable section

namespace Cert.KernelIdeal.Reg

open Cert.KernelIdeal Cert.KernelIdeal.Gen
open Idealize.ShloMosaic Idealize.ShloMosaic.TcCoe Idealize.ShloMosaic.ValueIdx Idealize.ShloMosaic.StableHlo

variable (W : Valuation τ sig (Elt Ideal))

/-- The mean row as the stretch's operations of the sum row. -/
theorem host1_mean_eq : (StableHlo.after hostOps1 W (Proc.devRef .tc main_v32) : FVec Ideal S1x128 .f32) = Host.divf (W (Proc.devRef .tc main_v30_1) : FVec Ideal S1x128 .f32) (broadcastInDim S1x128 ![] bcast_S_S1x128 (constant (F := Ideal) S_ .f32 0x47435000#32)) := by
  after_results

/-- The mean row at lane `j`: the column sum divided by the node count. -/
theorem host1_mean (j : Fin 128) :
    (StableHlo.after hostOps1 W (Proc.devRef .tc main_v32) : FVec Ideal S1x128 .f32) (ix2 (0 : Fin 1) j) = Ideal.div ((W (Proc.devRef .tc main_v30_1) : FVec Ideal S1x128 .f32) (ix2 (0 : Fin 1) j)) Cert.Spec.count := by
  rw [host1_mean_eq W, hostDivf_apply, broadcastInDim_scalar_apply, constant_apply]; rfl

/-- The reciprocal-standard-deviation row as the stretch's operations of the two statistics rows. -/
theorem host1_istd_eq : (StableHlo.after hostOps1 W (Proc.devRef .tc main_v39) : FVec Ideal S1x128 .f32)
    = Host.rsqrt (addf (subf (Host.divf (W (Proc.devRef .tc main_v30_2) : FVec Ideal S1x128 .f32) (broadcastInDim S1x128 ![] bcast_S_S1x128 (constant (F := Ideal) S_ .f32 0x47435000#32)))
        (mulf (Host.divf (W (Proc.devRef .tc main_v30_1) : FVec Ideal S1x128 .f32) (broadcastInDim S1x128 ![] bcast_S_S1x128 (constant (F := Ideal) S_ .f32 0x47435000#32))) (Host.divf (W (Proc.devRef .tc main_v30_1) : FVec Ideal S1x128 .f32) (broadcastInDim S1x128 ![] bcast_S_S1x128 (constant (F := Ideal) S_ .f32 0x47435000#32))))) (broadcastInDim S1x128 ![] bcast_S_S1x128 (constant (F := Ideal) S_ .f32 0x3727C5AC#32))) := by
  after_results

/-- The reciprocal-standard-deviation row at lane `j`: `rsqrt ((sumsq / count − mean · mean) + eps)`. -/
theorem host1_istd (j : Fin 128) :
    (StableHlo.after hostOps1 W (Proc.devRef .tc main_v39) : FVec Ideal S1x128 .f32) (ix2 (0 : Fin 1) j)
      = Ideal.rsqrt ((Ideal.div ((W (Proc.devRef .tc main_v30_2) : FVec Ideal S1x128 .f32) (ix2 (0 : Fin 1) j)) Cert.Spec.count
          - Ideal.div ((W (Proc.devRef .tc main_v30_1) : FVec Ideal S1x128 .f32) (ix2 (0 : Fin 1) j)) Cert.Spec.count * Ideal.div ((W (Proc.devRef .tc main_v30_1) : FVec Ideal S1x128 .f32) (ix2 (0 : Fin 1) j)) Cert.Spec.count)
        + Cert.Spec.eps) := by
  rw [host1_istd_eq W]
  show Ideal.rsqrt (addf (subf (Host.divf (W (Proc.devRef .tc main_v30_2) : FVec Ideal S1x128 .f32) (broadcastInDim S1x128 ![] bcast_S_S1x128 (constant (F := Ideal) S_ .f32 0x47435000#32)))
        (mulf (Host.divf (W (Proc.devRef .tc main_v30_1) : FVec Ideal S1x128 .f32) (broadcastInDim S1x128 ![] bcast_S_S1x128 (constant (F := Ideal) S_ .f32 0x47435000#32))) (Host.divf (W (Proc.devRef .tc main_v30_1) : FVec Ideal S1x128 .f32) (broadcastInDim S1x128 ![] bcast_S_S1x128 (constant (F := Ideal) S_ .f32 0x47435000#32))))) (broadcastInDim S1x128 ![] bcast_S_S1x128 (constant (F := Ideal) S_ .f32 0x3727C5AC#32)) (ix2 (0 : Fin 1) j)) = _
  rw [addf_apply, subf_apply, mulf_apply, hostDivf_apply, hostDivf_apply, broadcastInDim_scalar_apply, broadcastInDim_scalar_apply, constant_apply, constant_apply]; rfl

/-- The stretch writes neither statistics row. -/
theorem host1_keeps_sum : StableHlo.after hostOps1 W (Proc.devRef .tc main_v30_1) = W (Proc.devRef .tc main_v30_1) :=
  StableHlo.after_of_writes_sub hostOps1 W hostOps1_writes (by decide)

end Cert.KernelIdeal.Reg

end
-- ==== Proof.KernelIdeal.LayerGlue.lean ====
/- What joins a layer's two kernel regions and the host stretch between them to the specification, over plain arrays:
   the perceptron on all rows is the specification's pre-normalisation function once its operands are the layer's
   slices of the parameters, and the normalisation applied to it — with the mean and the reciprocal standard deviation
   computed from the column sums and sums of squares — is the specification's one-pass layer. -/
import proofs.«139862_j28269474742473_1_alg».proof.Proof.KernelIdeal.MlpValue
import proofs.«139862_j28269474742473_1_alg».proof.Proof.KernelIdeal.BnApply
import proofs.«139862_j28269474742473_1_alg».proof.Proof.SpecNet

noncomputable section

namespace Cert.Spec

open Idealize.ShloMosaic

/-- The normalisation from given statistics is the one-pass normalisation when the statistics are the column sums'. -/
theorem affine_eq_bnOnePass (P : Feat) (S Q mu var istd g b : Vc) (hS : ∀ j, S j = colSum P j) (hQ : ∀ j, Q j = colSumSq P j)
    (hmu : ∀ j, mu j = Ideal.div (S j) count) (hvar : ∀ j, var j = Ideal.div (Q j) count - mu j * mu j)
    (histd : ∀ j, istd j = Ideal.rsqrt (var j + eps)) : affine P mu istd g b = bnOnePass P g b := by
  have e1 : mu = mean P := funext fun j => by rw [hmu, hS]; rfl
  have e2 : var = varOnePass P := funext fun j => by rw [hvar, hQ, e1]; rfl
  have e3 : istd = invStd (varOnePass P) := funext fun j => by rw [histd, e2]; rfl
  rw [e1, e3]; rfl

/-- A layer assembled from its parts is the specification's one-pass layer. -/
theorem stepOne_of_parts (f : AggFacts) (a : Args) (L : Fin 5) (h : FVec Ideal S50000x128 .f32) (P : Feat) (S Q mu var istd : Vc)
    (hP : P = pre (feat h) (feat (Agg f h a.e)) (wt a.W1 L) (vc a.b1 L) (wt a.W2 L) (vc a.b2 L))
    (hS : ∀ j, S j = colSum P j) (hQ : ∀ j, Q j = colSumSq P j)
    (hmu : ∀ j, mu j = Ideal.div (S j) count) (hvar : ∀ j, var j = Ideal.div (Q j) count - mu j * mu j)
    (histd : ∀ j, istd j = Ideal.rsqrt (var j + eps)) :
    unfeat (affine P mu istd (vc a.gamma L) (vc a.beta L)) = stepOne f a L h := by
  rw [affine_eq_bnOnePass P S Q mu var istd _ _ hS hQ hmu hvar histd, hP]; rfl

end Cert.Spec

namespace Cert.KernelIdeal.Reg

open Cert.KernelIdeal Cert.KernelIdeal.Gen
open Idealize.ShloMosaic Idealize.ShloMosaic.ValueIdx

/-- The perceptron on all rows is the specification's, once its operands are named. -/
theorem mlpRows_eq_pre (h agg : FVec Ideal S50000x128 .f32) (w1 : FVec Ideal S128x128 .f32) (c1 : FVec Ideal S1x128 .f32)
    (w2 : FVec Ideal S128x128 .f32) (c2 : FVec Ideal S1x128 .f32) (H A : FVec Ideal S50000x128 .f32)
    (W1 : Cert.Spec.Wt) (B1 : Cert.Spec.Vc) (W2 : Cert.Spec.Wt) (B2 : Cert.Spec.Vc) (hh : h = H) (ha : agg = A)
    (hw1 : ∀ l k : Fin 128, w1 (ix2 l k) = W1 l k) (hc1 : ∀ k : Fin 128, c1 (ix2 (0 : Fin 1) k) = B1 k)
    (hw2 : ∀ l k : Fin 128, w2 (ix2 l k) = W2 l k) (hc2 : ∀ k : Fin 128, c2 (ix2 (0 : Fin 1) k) = B2 k)
    (r : Fin 50000) (q : Fin 128) :
    mlpRows (n := 50000) h agg w1 c1 w2 c2 (ix2 r q) = Cert.Spec.pre (Cert.Spec.feat H) (Cert.Spec.feat A) W1 B1 W2 B2 r q := by
  subst hh ha
  rw [mlpRows_apply]
  simp only [hw1, hc1, hw2, hc2]
  rfl

/-- The normalisation of the pre-normalisation activations, from statistics computed as the host computes them, is the
    specification's one-pass layer. -/
theorem bnApply_eq_stepOne (f : Cert.Spec.AggFacts) (a : Cert.Spec.Args) (L : Fin 5) (H : FVec Ideal S50000x128 .f32)
    (P : FVec Ideal S50000x128 .f32) (mu istd g b S Q : FVec Ideal S1x128 .f32)
    (hP : ∀ (r : Fin 50000) (q : Fin 128), P (ix2 r q)
        = Cert.Spec.pre (Cert.Spec.feat H) (Cert.Spec.feat (Cert.Spec.Agg f H a.e)) (Cert.Spec.wt a.W1 L) (Cert.Spec.vc a.b1 L) (Cert.Spec.wt a.W2 L) (Cert.Spec.vc a.b2 L) r q)
    (hS : ∀ q : Fin 128, S (ix2 (0 : Fin 1) q) = ∑ r : Fin 50000, P (ix2 r q))
    (hQ : ∀ q : Fin 128, Q (ix2 (0 : Fin 1) q) = ∑ r : Fin 50000, P (ix2 r q) * P (ix2 r q))
    (hmu : ∀ q : Fin 128, mu (ix2 (0 : Fin 1) q) = Ideal.div (S (ix2 (0 : Fin 1) q)) Cert.Spec.count)
    (histd : ∀ q : Fin 128, istd (ix2 (0 : Fin 1) q)
        = Ideal.rsqrt ((Ideal.div (Q (ix2 (0 : Fin 1) q)) Cert.Spec.count
            - Ideal.div (S (ix2 (0 : Fin 1) q)) Cert.Spec.count * Ideal.div (S (ix2 (0 : Fin 1) q)) Cert.Spec.count) + Cert.Spec.eps))
    (hg : ∀ q : Fin 128, g (ix2 (0 : Fin 1) q) = a.gamma (ix2 L q)) (hb : ∀ q : Fin 128, b (ix2 (0 : Fin 1) q) = a.beta (ix2 L q)) :
    bnApply P mu istd g b = Cert.Spec.stepOne f a L H := by
  refine Eq.trans ?_ (Cert.Spec.stepOne_of_parts f a L H (Cert.Spec.feat P) (fun q => S (ix2 (0 : Fin 1) q)) (fun q => Q (ix2 (0 : Fin 1) q))
    (fun q => mu (ix2 (0 : Fin 1) q)) (fun q => Ideal.div (Q (ix2 (0 : Fin 1) q)) Cert.Spec.count - mu (ix2 (0 : Fin 1) q) * mu (ix2 (0 : Fin 1) q))
    (fun q => istd (ix2 (0 : Fin 1) q)) (funext fun r => funext fun q => hP r q) hS hQ hmu (fun _ => rfl) (fun q => by rw [histd q, hmu q]))
  funext i
  obtain ⟨r, q, rfl⟩ : ∃ (r : Fin 50000) (q : Fin 128), i = ix2 r q := ⟨i 0, i 1, eq_ix2 i⟩
  rw [bnApply_apply, hg, hb]
  rfl

end Cert.KernelIdeal.Reg

end
-- ==== Proof.KernelIdeal.Layer0.lean ====
/- Layer 0 of the kernel's program: its normalisation region ends with the one-pass layer of the
   specification applied to the features the layer was entered with. -/
import proofs.«139862_j28269474742473_1_alg».proof.Proof.KernelIdeal.Mlp0Value
import proofs.«139862_j28269474742473_1_alg».proof.Proof.KernelIdeal.Bn1Value
import proofs.«139862_j28269474742473_1_alg».proof.Proof.KernelIdeal.Host0
import proofs.«139862_j28269474742473_1_alg».proof.Proof.KernelIdeal.Host1
import proofs.«139862_j28269474742473_1_alg».proof.Proof.KernelIdeal.RunData
import proofs.«139862_j28269474742473_1_alg».proof.Proof.KernelIdeal.LayerGlue
import Idealize.ShloMosaic.Lib.StableHlo.Run
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.ShloMosaic.StableHlo
open Idealize.ShloMosaic.Pipeline (Dat)

variable (m : (ℓ : Loc nD τ sig) → Buf (Elt Ideal) ℓ)

set_option maxHeartbeats 1600000 in
/-- Layer 0: from the features `H` the layer is entered with and the argument arrays, the normalisation region leaves
    the one-pass layer of the specification. -/
theorem layer0 (c : Dev nD) (a : Cert.Spec.Args) (H : FVec Ideal S50000x128 .f32)
    (hh : (W0 m c (Proc.devRef .tc main_arg0) : FVec Ideal S50000x128 .f32) = H)
    (he : (W0 m c (Proc.devRef .tc main_arg1) : IVec S2x800000 32) = a.e)
    (h3 : (W0 m c (Proc.devRef .tc main_arg3) : FVec Ideal S5x128x128 .f32) = a.W1) (h4 : (W0 m c (Proc.devRef .tc main_arg4) : FVec Ideal S5x128 .f32) = a.b1)
    (h5 : (W0 m c (Proc.devRef .tc main_arg5) : FVec Ideal S5x128x128 .f32) = a.W2) (h6 : (W0 m c (Proc.devRef .tc main_arg6) : FVec Ideal S5x128 .f32) = a.b2)
    (h7 : (W0 m c (Proc.devRef .tc main_arg7) : FVec Ideal S5x128 .f32) = a.gamma) (h8 : (W0 m c (Proc.devRef .tc main_arg8) : FVec Ideal S5x128 .f32) = a.beta) :
    (W4 m c (Proc.devRef .tc main_v40) : FVec Ideal S50000x128 .f32) = Cert.Spec.stepOne aggFacts a (0 : Fin 5) H := by
  -- the first region's operands
  have e_h : (X0 m c main_arg0 : FVec Ideal S50000x128 .f32) = H :=
    (StableHlo.after_of_writes_sub hostOps0 (W0 m c) hostOps0_writes (by decide)).trans hh
  have e_agg : (X0 m c main_v13 : FVec Ideal S50000x128 .f32) = Cert.Spec.Agg aggFacts H a.e := by
    rw [← hh, ← he]; exact host0_agg (W0 m c)
  -- the rectified activations, as one function of the layer's operands
  have e_P : ∀ (r : Fin 50000) (q : Fin 128), pre0 (X0 m) c (ix2 r q)
      = Cert.Spec.pre (Cert.Spec.feat H) (Cert.Spec.feat (Cert.Spec.Agg aggFacts H a.e)) (Cert.Spec.wt a.W1 0) (Cert.Spec.vc a.b1 0) (Cert.Spec.wt a.W2 0) (Cert.Spec.vc a.b2 0) r q :=
    mlpRows_eq_pre _ _ _ _ _ _ H (Cert.Spec.Agg aggFacts H a.e) _ _ _ _ e_h e_agg
      (fun l k => (host0_W1 (W0 m c) l k).trans (congrFun h3 _)) (fun k => (host0_b1 (W0 m c) k).trans (congrFun h4 _))
      (fun l k => (host0_W2 (W0 m c) l k).trans (congrFun h5 _)) (fun k => (host0_b2 (W0 m c) k).trans (congrFun h6 _))
  -- what the statistics region leaves
  have e_pre : (W2 m c (Proc.devRef .tc main_v30_0) : FVec Ideal S50000x128 .f32) = pre0 (X0 m) c := (W2_arr m c 6).trans (final0_6 (X0 m) c)
  have e_sum : (W2 m c (Proc.devRef .tc main_v30_1) : FVec Ideal S1x128 .f32) = colSum0 (X0 m) c := (W2_arr m c 7).trans (final0_7 (X0 m) c)
  have e_sq : (W2 m c (Proc.devRef .tc main_v30_2) : FVec Ideal S1x128 .f32) = colSumSq0 (X0 m) c := (W2_arr m c 8).trans (final0_8 (X0 m) c)
  -- the normalisation region's operands
  have o_pre : (X1 m c main_v30_0 : FVec Ideal S50000x128 .f32) = pre0 (X0 m) c :=
    (StableHlo.after_of_writes_sub hostOps1 (W2 m c) hostOps1_writes (by decide)).trans e_pre
  have o_g : (X1 m c main_v26 : FVec Ideal S1x128 .f32) = (W1 m c (Proc.devRef .tc main_v26) : FVec Ideal S1x128 .f32) :=
    (StableHlo.after_of_writes_sub hostOps1 (W2 m c) hostOps1_writes (by decide)).trans (W2_of_ne m c main_v26 (by decide))
  have o_b : (X1 m c main_v29 : FVec Ideal S1x128 .f32) = (W1 m c (Proc.devRef .tc main_v29) : FVec Ideal S1x128 .f32) :=
    (StableHlo.after_of_writes_sub hostOps1 (W2 m c) hostOps1_writes (by decide)).trans (W2_of_ne m c main_v29 (by decide))
  -- the normalisation region's output
  refine ((W4_arr m c 5).trans (final1_5 (X1 m) c)).trans ?_
  refine bnApply_eq_stepOne aggFacts a (0 : Fin 5) H _ _ _ _ _ (W2 m c (Proc.devRef .tc main_v30_1)) (W2 m c (Proc.devRef .tc main_v30_2)) ?_ ?_ ?_ ?_ ?_ ?_ ?_
  · intro r q
    exact (congrFun o_pre (ix2 r q)).trans (e_P r q)
  · intro q
    exact (congrFun e_sum _).trans ((colSum0_apply (X0 m) c q).trans (Finset.sum_congr rfl fun r _ => (congrFun o_pre (ix2 r q)).symm))
  · intro q
    exact (congrFun e_sq _).trans ((colSumSq0_apply (X0 m) c q).trans (Finset.sum_congr rfl fun r _ => by rw [congrFun o_pre (ix2 r q)]))
  · intro q
    exact host1_mean (W2 m c) q
  · intro q
    exact host1_istd (W2 m c) q
  · intro q
    exact (congrFun o_g _).trans ((host0_gamma (W0 m c) q).trans (congrFun h7 _))
  · intro q
    exact (congrFun o_b _).trans ((host0_beta (W0 m c) q).trans (congrFun h8 _))

end Cert.KernelIdeal.Reg

end
-- ==== Proof.KernelIdeal.Mlp2Value.lean ====
import proofs.«139862_j28269474742473_1_alg».proof.Proof.KernelIdeal.Mlp2
import proofs.«139862_j28269474742473_1_alg».proof.Proof.KernelIdeal.MlpValue

/-! # The MLP region of layer 1 (custom_call 2): its three output arrays as functions of its six input arrays

Over the extended reals, with the arrays the region is entered at: output 6 ends holding the MLP of the rows of
the first two arrays with the four weight arrays (row block by row block: the ten blocks tile the 50000 rows);
output 7 the column sums of that array over all rows (the accumulator after the last point: zero plus the ten
blocks' column sums, in block order); output 8 the column sums of its squares. -/

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

-- the TensorCore's buffer contents when the region is entered, at the ideal instance
variable (V : (c : Dev nD) → (b : Ref sig .tc) → Buf (Elt Ideal) ((c : Thread nD τ).loc b))

/-! ## The payloads are the shared formulas -/

theorem h2_eq (x0 x1 : FVec Ideal S5000x128 .f32) (x2 : FVec Ideal S128x128 .f32) (x3 : FVec Ideal S1x128 .f32) (x4 : FVec Ideal S128x128 .f32) (x5 : FVec Ideal S1x128 .f32) :
    h2 (F := Ideal) x0 x1 x2 x3 x4 x5 = mlpRows x0 x1 x2 x3 x4 x5 :=
  (show h2 (F := Ideal) x0 x1 x2 x3 x4 x5 = mlpPayB x0 x1 x2 x3 x4 x5 from rfl).trans (mlpPayB_eq x0 x1 x2 x3 x4 x5)

theorem acc2_0_eq (x0 x1 : FVec Ideal S5000x128 .f32) (x2 : FVec Ideal S128x128 .f32) (x3 : FVec Ideal S1x128 .f32) (x4 : FVec Ideal S128x128 .f32) (x5 : FVec Ideal S1x128 .f32) (s : FVec Ideal S1x128 .f32) :
    acc2_0 (F := Ideal) x0 x1 x2 x3 x4 x5 s = accStep s (h2 (F := Ideal) x0 x1 x2 x3 x4 x5) := rfl

theorem acc2_1_eq (x0 x1 : FVec Ideal S5000x128 .f32) (x2 : FVec Ideal S128x128 .f32) (x3 : FVec Ideal S1x128 .f32) (x4 : FVec Ideal S128x128 .f32) (x5 : FVec Ideal S1x128 .f32) (s : FVec Ideal S1x128 .f32) :
    acc2_1 (F := Ideal) x0 x1 x2 x3 x4 x5 s = accStep s (mulf (h2 (F := Ideal) x0 x1 x2 x3 x4 x5) (h2 (F := Ideal) x0 x1 x2 x3 x4 x5)) := rfl

theorem zero2_0 : (k2_pay3 (F := Ideal)) = zeroRow := rfl
theorem zero2_1 : (k2_pay4 (F := Ideal)) = zeroRow := rfl

/-! ## The printed index maps, decided over the grid -/

/-- The two row windows and output 6 sit at block (point, 0); the four weight windows and the two statistics outputs
    at block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- Row `p` of point `t`'s block, as a row of the array. -/
def rowOf2 (t : Fin cfg2.N) (p : Fin 5000) : Fin 50000 :=
  ⟨t.val * 5000 + p.val, by have := lt_of_lt_of_eq t.isLt (show cfg2.N = 10 from N_2); have := p.isLt; omega⟩

/-! ## Each input block, read at an index, is its array there -/

theorem tileAt2_0 (c : Dev nD) (t : Fin cfg2.N) (p : Fin 5000) (l : Fin 128) :
    iblk2 V c 0 t (ix2 p l) = (V c (Pipeline.arrRef spec2 0)) (ix2 (rowOf2 t p) l) := by
  obtain ⟨e00, e01, e10, e11, e20, e21, e30, e31, e40, e41, e50, e51, e60, e61, e70, e71, e80, e81⟩ := idx_facts2 t
  refine (show iblk2 V c 0 t (ix2 p l) = (V c (Pipeline.arrRef spec2 0)) (((cfg2.win 0).blk t).view.emb (ix2 p l)) from rfl).trans (congrArg (V c (Pipeline.arrRef spec2 0)) ?_)
  funext ax; apply Fin.ext
  match ax with
  | ⟨0, _⟩ => show win2_0.index t (0 : Fin 2) * 5000 + 1 * p.val = t.val * 5000 + p.val; omega
  | ⟨1, _⟩ => show win2_0.index t (1 : Fin 2) * 128 + 1 * l.val = l.val; omega

theorem tileAt2_1 (c : Dev nD) (t : Fin cfg2.N) (p : Fin 5000) (l : Fin 128) :
    iblk2 V c 1 t (ix2 p l) = (V c (Pipeline.arrRef spec2 1)) (ix2 (rowOf2 t p) l) := by
  obtain ⟨e00, e01, e10, e11, e20, e21, e30, e31, e40, e41, e50, e51, e60, e61, e70, e71, e80, e81⟩ := idx_facts2 t
  refine (show iblk2 V c 1 t (ix2 p l) = (V c (Pipeline.arrRef spec2 1)) (((cfg2.win 1).blk t).view.emb (ix2 p l)) from rfl).trans (congrArg (V c (Pipeline.arrRef spec2 1)) ?_)
  funext ax; apply Fin.ext
  match ax with
  | ⟨0, _⟩ => show win2_1.index t (0 : Fin 2) * 5000 + 1 * p.val = t.val * 5000 + p.val; omega
  | ⟨1, _⟩ => show win2_1.index t (1 : Fin 2) * 128 + 1 * l.val = l.val; omega

theorem wholeAt2_2 (c : Dev nD) (t : Fin cfg2.N) (a : Fin 128) (b : Fin 128) :
    iblk2 V c 2 t (ix2 a b) = (V c (Pipeline.arrRef spec2 2)) (ix2 a b) := by
  obtain ⟨e00, e01, e10, e11, e20, e21, e30, e31, e40, e41, e50, e51, e60, e61, e70, e71, e80, e81⟩ := idx_facts2 t
  refine (show iblk2 V c 2 t (ix2 a b) = (V c (Pipeline.arrRef spec2 2)) (((cfg2.win 2).blk t).view.emb (ix2 a b)) from rfl).trans (congrArg (V c (Pipeline.arrRef spec2 2)) ?_)
  funext ax; apply Fin.ext
  match ax with
  | ⟨0, _⟩ => show win2_2.index t (0 : Fin 2) * 128 + 1 * a.val = a.val; omega
  | ⟨1, _⟩ => show win2_2.index t (1 : Fin 2) * 128 + 1 * b.val = b.val; omega

theorem wholeAt2_3 (c : Dev nD) (t : Fin cfg2.N) (a : Fin 1) (b : Fin 128) :
    iblk2 V c 3 t (ix2 a b) = (V c (Pipeline.arrRef spec2 3)) (ix2 a b) := by
  obtain ⟨e00, e01, e10, e11, e20, e21, e30, e31, e40, e41, e50, e51, e60, e61, e70, e71, e80, e81⟩ := idx_facts2 t
  refine (show iblk2 V c 3 t (ix2 a b) = (V c (Pipeline.arrRef spec2 3)) (((cfg2.win 3).blk t).view.emb (ix2 a b)) from rfl).trans (congrArg (V c (Pipeline.arrRef spec2 3)) ?_)
  funext ax; apply Fin.ext
  match ax with
  | ⟨0, _⟩ => show win2_3.index t (0 : Fin 2) * 1 + 1 * a.val = a.val; omega
  | ⟨1, _⟩ => show win2_3.index t (1 : Fin 2) * 128 + 1 * b.val = b.val; omega

theorem wholeAt2_4 (c : Dev nD) (t : Fin cfg2.N) (a : Fin 128) (b : Fin 128) :
    iblk2 V c 4 t (ix2 a b) = (V c (Pipeline.arrRef spec2 4)) (ix2 a b) := by
  obtain ⟨e00, e01, e10, e11, e20, e21, e30, e31, e40, e41, e50, e51, e60, e61, e70, e71, e80, e81⟩ := idx_facts2 t
  refine (show iblk2 V c 4 t (ix2 a b) = (V c (Pipeline.arrRef spec2 4)) (((cfg2.win 4).blk t).view.emb (ix2 a b)) from rfl).trans (congrArg (V c (Pipeline.arrRef spec2 4)) ?_)
  funext ax; apply Fin.ext
  match ax with
  | ⟨0, _⟩ => show win2_4.index t (0 : Fin 2) * 128 + 1 * a.val = a.val; omega
  | ⟨1, _⟩ => show win2_4.index t (1 : Fin 2) * 128 + 1 * b.val = b.val; omega

theorem wholeAt2_5 (c : Dev nD) (t : Fin cfg2.N) (a : Fin 1) (b : Fin 128) :
    iblk2 V c 5 t (ix2 a b) = (V c (Pipeline.arrRef spec2 5)) (ix2 a b) := by
  obtain ⟨e00, e01, e10, e11, e20, e21, e30, e31, e40, e41, e50, e51, e60, e61, e70, e71, e80, e81⟩ := idx_facts2 t
  refine (show iblk2 V c 5 t (ix2 a b) = (V c (Pipeline.arrRef spec2 5)) (((cfg2.win 5).blk t).view.emb (ix2 a b)) from rfl).trans (congrArg (V c (Pipeline.arrRef spec2 5)) ?_)
  funext ax; apply Fin.ext
  match ax with
  | ⟨0, _⟩ => show win2_5.index t (0 : Fin 2) * 1 + 1 * a.val = a.val; omega
  | ⟨1, _⟩ => show win2_5.index t (1 : Fin 2) * 128 + 1 * b.val = b.val; omega

/-- The MLP of the whole arrays the region is entered at. -/
abbrev pre2 (c : Dev nD) : FVec Ideal S50000x128 .f32 := mlpRows (n := 50000) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))

/-- The MLP's block at point `t`, at `(p, q)`: the MLP of the whole arrays at the block's row. -/
theorem blockAt2 (c : Dev nD) (t : Fin cfg2.N) (p : Fin 5000) (q : Fin 128) :
    h2 (F := Ideal) (iblk2 V c 0 t) (iblk2 V c 1 t) (iblk2 V c 2 t) (iblk2 V c 3 t) (iblk2 V c 4 t) (iblk2 V c 5 t) (ix2 p q) = pre2 V c (ix2 (rowOf2 t p) q) := by
  rw [h2_eq]
  show mlpRows (n := 5000) (iblk2 V c 0 t) (iblk2 V c 1 t) (iblk2 V c 2 t) (iblk2 V c 3 t) (iblk2 V c 4 t) (iblk2 V c 5 t) (ix2 p q) = mlpRows (n := 50000) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (ix2 (rowOf2 t p) q)
  rw [mlpRows_apply, mlpRows_apply]
  simp only [tileAt2_0 V c t, tileAt2_1 V c t, wholeAt2_2 V c t, wholeAt2_3 V c t, wholeAt2_4 V c t, wholeAt2_5 V c t]

/-! ## Output 6: from blocks to the array -/

/-- Output 6's block at point `t` sits at rows `5000 t …`. -/
theorem emb2_6 (t : Fin cfg2.N) (p : Fin 5000) (q : Fin 128) :
    ((cfg2.win 6).blk t).view.emb (ix2 p q) = ix2 (rowOf2 t p) q := by
  obtain ⟨e00, e01, e10, e11, e20, e21, e30, e31, e40, e41, e50, e51, e60, e61, e70, e71, e80, e81⟩ := idx_facts2 t
  funext ax; apply Fin.ext
  match ax with
  | ⟨0, _⟩ => show win2_6.index t (0 : Fin 2) * 5000 + 1 * p.val = t.val * 5000 + p.val; omega
  | ⟨1, _⟩ => show win2_6.index t (1 : Fin 2) * 128 + 1 * q.val = q.val; omega

set_option maxHeartbeats 400000 in
/-- What point `t` writes back is block `t` of the MLP of the whole arrays. -/
theorem flushed2_6_eq (c : Dev nD) (t : Fin cfg2.N) :
    (dat2 V c).flushed 6 t = ((cfg2.win 6).blk t).view.read (Elt Ideal) (pre2 V c) := by
  show (cfg2.win 6).cut (grid2.coords t) ((dat2 V c).after 6 t) = _
  rw [after2_6]
  funext j
  obtain ⟨p, q, rfl⟩ : ∃ (p : Fin 5000) (q : Fin 128), j = ix2 p q := ⟨j 0, j 1, eq_ix2 j⟩
  show h2 (F := Ideal) (iblk2 V c 0 t) (iblk2 V c 1 t) (iblk2 V c 2 t) (iblk2 V c 3 t) (iblk2 V c 4 t) (iblk2 V c 5 t) (ix2 p q) = pre2 V c (((cfg2.win 6).blk t).view.emb (ix2 p q))
  rw [emb2_6, blockAt2]

theorem mem_blk2_6 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole (Pipeline.arrRef spec2 6)).slice (win2_6.rect t)).set ↔ _
  rw [View.set_slice_whole, Rect.mem_set_unit]
  exact Iff.rfl

/-- The ten blocks cover the array: row `r` is in the block of point `r / 5000`. -/
theorem covered2_6 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨e00, e01, e10, e11, e20, e21, e30, e31, e40, e41, e50, e51, e60, e61, e70, e71, e80, e81⟩ := idx_facts2 t
  have q0 : win2_6.index t (0 : Fin 2) = (i 0).val / 5000 := e60
  refine ⟨t, flush2_6 t, ?_⟩
  rw [mem_blk2_6]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- OUTPUT 6 after the region: the MLP of the arrays the region was entered with. -/
theorem final2_6 (c : Dev nD) : (dat2 V c).arrAt 6 cfg2.N = pre2 V c :=
  (dat2 V c).arrAt_eq_of_cover 6 (pre2 V c) (fun t _ => flushed2_6_eq V c t) covered2_6

/-! ## The accumulators after each point -/

/-- A block's column sum is the sum of the array's column over the block's rows. -/
theorem blockSum2 (c : Dev nD) (t : Fin cfg2.N) (q : Fin 128) :
    ∑ p : Fin 5000, h2 (F := Ideal) (iblk2 V c 0 t) (iblk2 V c 1 t) (iblk2 V c 2 t) (iblk2 V c 3 t) (iblk2 V c 4 t) (iblk2 V c 5 t) (ix2 p q)
      = ∑ p : Fin 5000, atRow (fun r : Fin 50000 => pre2 V c (ix2 r q)) (t.val * 5000 + p.val) :=
  Finset.sum_congr rfl fun p _ => (blockAt2 V c t p q).trans (atRow_of_lt (fun r : Fin 50000 => pre2 V c (ix2 r q)) _ (rowOf2 t p).isLt).symm

/-- The same for the squares. -/
theorem blockSumSq2 (c : Dev nD) (t : Fin cfg2.N) (q : Fin 128) :
    ∑ p : Fin 5000, (mulf (h2 (F := Ideal) (iblk2 V c 0 t) (iblk2 V c 1 t) (iblk2 V c 2 t) (iblk2 V c 3 t) (iblk2 V c 4 t) (iblk2 V c 5 t)) (h2 (F := Ideal) (iblk2 V c 0 t) (iblk2 V c 1 t) (iblk2 V c 2 t) (iblk2 V c 3 t) (iblk2 V c 4 t) (iblk2 V c 5 t)) : FVec Ideal S5000x128 .f32) (ix2 p q)
      = ∑ p : Fin 5000, atRow (fun r : Fin 50000 => pre2 V c (ix2 r q) * pre2 V c (ix2 r q)) (t.val * 5000 + p.val) :=
  Finset.sum_congr rfl fun p _ => by
    rw [mulf_apply, blockAt2 V c t p q]
    exact (atRow_of_lt (fun r : Fin 50000 => pre2 V c (ix2 r q) * pre2 V c (ix2 r q)) _ (rowOf2 t p).isLt).symm

/-- The first accumulator after point `n`, at column `q`: the array's column summed over the rows of blocks `0 … n`. -/
theorem accAt2_fst (c : Dev nD) (q : Fin 128) : ∀ (n : ℕ) (hn : n < cfg2.N),
    (accAt2 V c n hn).1 (ix2 (0 : Fin 1) q) = ∑ i : Fin (n + 1), ∑ p : Fin 5000, atRow (fun r : Fin 50000 => pre2 V c (ix2 r q)) (i.val * 5000 + p.val)
  | 0, hn => by
    show acc2_0 (F := Ideal) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (k2_pay3 (F := Ideal)) (ix2 (0 : Fin 1) q) = _
    rw [acc2_0_eq, accStep_apply, zero2_0, zeroRow_apply, blockSum2 V c ⟨0, hn⟩ q]
    exact ((Fin.sum_univ_castSucc (fun i : Fin (0 + 1) => ∑ p : Fin 5000, atRow (fun r : Fin 50000 => pre2 V c (ix2 r q)) (i.val * 5000 + p.val))).trans
      (congrArg (· + _) Finset.sum_empty)).symm
  | n + 1, hn => by
    show acc2_0 (F := Ideal) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (accAt2 V c n (Nat.lt_of_succ_lt hn)).1 (ix2 (0 : Fin 1) q) = _
    rw [acc2_0_eq, accStep_apply, accAt2_fst c q n (Nat.lt_of_succ_lt hn), blockSum2 V c ⟨n + 1, hn⟩ q]
    exact (Fin.sum_univ_castSucc (fun i : Fin (n + 1 + 1) => ∑ p : Fin 5000, atRow (fun r : Fin 50000 => pre2 V c (ix2 r q)) (i.val * 5000 + p.val))).symm

/-- The second accumulator after point `n`, at column `q`: the squares of the array's column summed over those rows. -/
theorem accAt2_snd (c : Dev nD) (q : Fin 128) : ∀ (n : ℕ) (hn : n < cfg2.N),
    (accAt2 V c n hn).2 (ix2 (0 : Fin 1) q) = ∑ i : Fin (n + 1), ∑ p : Fin 5000, atRow (fun r : Fin 50000 => pre2 V c (ix2 r q) * pre2 V c (ix2 r q)) (i.val * 5000 + p.val)
  | 0, hn => by
    show acc2_1 (F := Ideal) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (k2_pay4 (F := Ideal)) (ix2 (0 : Fin 1) q) = _
    rw [acc2_1_eq, accStep_apply, zero2_1, zeroRow_apply, blockSumSq2 V c ⟨0, hn⟩ q]
    exact ((Fin.sum_univ_castSucc (fun i : Fin (0 + 1) => ∑ p : Fin 5000, atRow (fun r : Fin 50000 => pre2 V c (ix2 r q) * pre2 V c (ix2 r q)) (i.val * 5000 + p.val))).trans
      (congrArg (· + _) Finset.sum_empty)).symm
  | n + 1, hn => by
    show acc2_1 (F := Ideal) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (accAt2 V c n (Nat.lt_of_succ_lt hn)).2 (ix2 (0 : Fin 1) q) = _
    rw [acc2_1_eq, accStep_apply, accAt2_snd c q n (Nat.lt_of_succ_lt hn), blockSumSq2 V c ⟨n + 1, hn⟩ q]
    exact (Fin.sum_univ_castSucc (fun i : Fin (n + 1 + 1) => ∑ p : Fin 5000, atRow (fun r : Fin 50000 => pre2 V c (ix2 r q) * pre2 V c (ix2 r q)) (i.val * 5000 + p.val))).symm

/-- The column sums of the MLP of the whole arrays, as a `[1,128]` row. -/
def colSum2 (c : Dev nD) : FVec Ideal S1x128 .f32 := fun i => ∑ r : Fin 50000, pre2 V c (ix2 r (i 1))
/-- The column sums of its squares. -/
def colSumSq2 (c : Dev nD) : FVec Ideal S1x128 .f32 := fun i => ∑ r : Fin 50000, pre2 V c (ix2 r (i 1)) * pre2 V c (ix2 r (i 1))

theorem colSum2_apply (c : Dev nD) (q : Fin 128) : colSum2 V c (ix2 (0 : Fin 1) q) = ∑ r : Fin 50000, pre2 V c (ix2 r q) := rfl
theorem colSumSq2_apply (c : Dev nD) (q : Fin 128) : colSumSq2 V c (ix2 (0 : Fin 1) q) = ∑ r : Fin 50000, pre2 V c (ix2 r q) * pre2 V c (ix2 r q) := rfl

/-- After the last point the accumulators hold the sums over all rows. -/
theorem accLast2_fst (c : Dev nD) (hn : 9 < cfg2.N) (q : Fin 128) : (accAt2 V c 9 hn).1 (ix2 (0 : Fin 1) q) = colSum2 V c (ix2 (0 : Fin 1) q) :=
  (accAt2_fst V c q 9 hn).trans (sum_blocks_rows (fun r : Fin 50000 => pre2 V c (ix2 r q)))
theorem accLast2_snd (c : Dev nD) (hn : 9 < cfg2.N) (q : Fin 128) : (accAt2 V c 9 hn).2 (ix2 (0 : Fin 1) q) = colSumSq2 V c (ix2 (0 : Fin 1) q) :=
  (accAt2_snd V c q 9 hn).trans (sum_blocks_rows (fun r : Fin 50000 => pre2 V c (ix2 r q) * pre2 V c (ix2 r q)))

/-! ## Outputs 7 and 8: written once, at the last point -/

theorem emb2_7 (t : Fin cfg2.N) (q : Fin 128) :
    ((cfg2.win 7).blk t).view.emb (ix2 (0 : Fin 1) q) = ix2 (0 : Fin 1) q := by
  obtain ⟨e00, e01, e10, e11, e20, e21, e30, e31, e40, e41, e50, e51, e60, e61, e70, e71, e80, e81⟩ := idx_facts2 t
  funext ax; apply Fin.ext
  match ax with
  | ⟨0, _⟩ => show win2_7.index t (0 : Fin 2) * 1 + 1 * 0 = 0; omega
  | ⟨1, _⟩ => show win2_7.index t (1 : Fin 2) * 128 + 1 * q.val = q.val; omega

/-- A `[1,128]` row handed to window 7's write-back agrees with a `[1,128]` array read through the window's one block as
    soon as the two agree column by column. -/
theorem flushedRow2_7 (t : Fin cfg2.N) (X G : FVec Ideal S1x128 .f32) (h : ∀ q : Fin 128, X (ix2 (0 : Fin 1) q) = G (ix2 (0 : Fin 1) q)) :
    (cfg2.win 7).cut (grid2.coords t) X = ((cfg2.win 7).blk t).view.read (Elt Ideal) G := by
  funext j
  obtain ⟨u, q, rfl⟩ : ∃ (u : Fin 1) (q : Fin 128), j = ix2 u q := ⟨j 0, j 1, eq_ix2 j⟩
  obtain rfl : u = 0 := Subsingleton.elim _ _
  show X (ix2 (0 : Fin 1) q) = G (((cfg2.win 7).blk t).view.emb (ix2 (0 : Fin 1) q))
  rw [emb2_7 t q]; exact h q

theorem flushed2_7_eq (c : Dev nD) (t : Fin cfg2.N) (hf : (cfg2.win 7).flush t = true) :
    (dat2 V c).flushed 7 t = ((cfg2.win 7).blk t).view.read (Elt Ideal) (colSum2 V c) := by
  have h9 : t.val = 9 := by
    have h1 := (flush2_7 t).mp hf
    have h2 := lt_of_lt_of_eq t.isLt (show cfg2.N = 10 from N_2)
    omega
  show (cfg2.win 7).cut (grid2.coords t) ((dat2 V c).after 7 t) = _
  rw [after2_7]
  refine flushedRow2_7 t _ _ fun q => ?_
  obtain ⟨n, hn⟩ := t
  obtain rfl : n = 9 := h9
  exact accLast2_fst V c hn q

theorem covered2_7 (i : S1x128.Idx) :
    ∃ t : Fin cfg2.N, (cfg2.win 7).flush t = true ∧ i ∈ ((cfg2.win 7).blk t).view.set := by
  have hi0 : (i 0).val < 1 := (i 0).isLt
  have hi1 : (i 1).val < 128 := (i 1).isLt
  have hN : cfg2.N = 10 := N_2
  let t : Fin cfg2.N := ⟨9, by rw [hN]; omega⟩
  obtain ⟨e00, e01, e10, e11, e20, e21, e30, e31, e40, e41, e50, e51, e60, e61, e70, e71, e80, e81⟩ := idx_facts2 t
  refine ⟨t, (flush2_7 t).mpr rfl, ?_⟩
  show i ∈ ((View.whole (Pipeline.arrRef spec2 7)).slice (win2_7.rect t)).set
  rw [View.set_slice_whole, Rect.mem_set_unit]
  intro a
  match a with
  | ⟨0, _⟩ => show win2_7.index t (0 : Fin 2) * 1 ≤ (i 0).val ∧ (i 0).val < win2_7.index t (0 : Fin 2) * 1 + 1; omega
  | ⟨1, _⟩ => show win2_7.index t (1 : Fin 2) * 128 ≤ (i 1).val ∧ (i 1).val < win2_7.index t (1 : Fin 2) * 128 + 128; omega

/-- OUTPUT 7 after the region: the column sums of the MLP of the arrays the region was entered with. -/
theorem final2_7 (c : Dev nD) : (dat2 V c).arrAt 7 cfg2.N = colSum2 V c :=
  (dat2 V c).arrAt_eq_of_cover 7 (colSum2 V c) (fun t hf => flushed2_7_eq V c t hf) covered2_7

theorem emb2_8 (t : Fin cfg2.N) (q : Fin 128) :
    ((cfg2.win 8).blk t).view.emb (ix2 (0 : Fin 1) q) = ix2 (0 : Fin 1) q := by
  obtain ⟨e00, e01, e10, e11, e20, e21, e30, e31, e40, e41, e50, e51, e60, e61, e70, e71, e80, e81⟩ := idx_facts2 t
  funext ax; apply Fin.ext
  match ax with
  | ⟨0, _⟩ => show win2_8.index t (0 : Fin 2) * 1 + 1 * 0 = 0; omega
  | ⟨1, _⟩ => show win2_8.index t (1 : Fin 2) * 128 + 1 * q.val = q.val; omega

/-- A `[1,128]` row handed to window 8's write-back agrees with a `[1,128]` array read through the window's one block as
    soon as the two agree column by column. -/
theorem flushedRow2_8 (t : Fin cfg2.N) (X G : FVec Ideal S1x128 .f32) (h : ∀ q : Fin 128, X (ix2 (0 : Fin 1) q) = G (ix2 (0 : Fin 1) q)) :
    (cfg2.win 8).cut (grid2.coords t) X = ((cfg2.win 8).blk t).view.read (Elt Ideal) G := by
  funext j
  obtain ⟨u, q, rfl⟩ : ∃ (u : Fin 1) (q : Fin 128), j = ix2 u q := ⟨j 0, j 1, eq_ix2 j⟩
  obtain rfl : u = 0 := Subsingleton.elim _ _
  show X (ix2 (0 : Fin 1) q) = G (((cfg2.win 8).blk t).view.emb (ix2 (0 : Fin 1) q))
  rw [emb2_8 t q]; exact h q

theorem flushed2_8_eq (c : Dev nD) (t : Fin cfg2.N) (hf : (cfg2.win 8).flush t = true) :
    (dat2 V c).flushed 8 t = ((cfg2.win 8).blk t).view.read (Elt Ideal) (colSumSq2 V c) := by
  have h9 : t.val = 9 := by
    have h1 := (flush2_8 t).mp hf
    have h2 := lt_of_lt_of_eq t.isLt (show cfg2.N = 10 from N_2)
    omega
  show (cfg2.win 8).cut (grid2.coords t) ((dat2 V c).after 8 t) = _
  rw [after2_8]
  refine flushedRow2_8 t _ _ fun q => ?_
  obtain ⟨n, hn⟩ := t
  obtain rfl : n = 9 := h9
  exact accLast2_snd V c hn q

theorem covered2_8 (i : S1x128.Idx) :
    ∃ t : Fin cfg2.N, (cfg2.win 8).flush t = true ∧ i ∈ ((cfg2.win 8).blk t).view.set := by
  have hi0 : (i 0).val < 1 := (i 0).isLt
  have hi1 : (i 1).val < 128 := (i 1).isLt
  have hN : cfg2.N = 10 := N_2
  let t : Fin cfg2.N := ⟨9, by rw [hN]; omega⟩
  obtain ⟨e00, e01, e10, e11, e20, e21, e30, e31, e40, e41, e50, e51, e60, e61, e70, e71, e80, e81⟩ := idx_facts2 t
  refine ⟨t, (flush2_8 t).mpr rfl, ?_⟩
  show i ∈ ((View.whole (Pipeline.arrRef spec2 8)).slice (win2_8.rect t)).set
  rw [View.set_slice_whole, Rect.mem_set_unit]
  intro a
  match a with
  | ⟨0, _⟩ => show win2_8.index t (0 : Fin 2) * 1 ≤ (i 0).val ∧ (i 0).val < win2_8.index t (0 : Fin 2) * 1 + 1; omega
  | ⟨1, _⟩ => show win2_8.index t (1 : Fin 2) * 128 ≤ (i 1).val ∧ (i 1).val < win2_8.index t (1 : Fin 2) * 128 + 128; omega

/-- OUTPUT 8 after the region: the column sums of the squares of the MLP of the arrays the region was entered with. -/
theorem final2_8 (c : Dev nD) : (dat2 V c).arrAt 8 cfg2.N = colSumSq2 V c :=
  (dat2 V c).arrAt_eq_of_cover 8 (colSumSq2 V c) (fun t hf => flushed2_8_eq V c t hf) covered2_8

end Cert.KernelIdeal.Reg

end
-- ==== Proof.KernelIdeal.Bn3Value.lean ====
/- Region 3 of @main (the batch-norm apply kernel), read as a value at the ideal instance: after the region the
   output array is, index by index, `(h_pre − mean) · inv_std · gamma + beta` of the five arrays the region was
   entered with. The stored tile at an index; each input block read at an index as the array at the index the
   output's tile has there; each point's write-back as a block of that one whole-array function; the ten tiles cover
   the 50000 rows; hence the array. -/
import proofs.«139862_j28269474742473_1_alg».proof.Proof.KernelIdeal.Bn3
import proofs.«139862_j28269474742473_1_alg».proof.Proof.KernelIdeal.BnApply
import Idealize.ShloMosaic.Lib.Pipeline.Value
import Idealize.ShloMosaic.Lib.ValueIdx
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

-- the TensorCore's buffer contents when the region is entered, at the ideal instance
variable (V : (c : Dev nD) → (b : Ref sig .tc) → Buf (Elt Ideal) ((c : Thread nD τ).loc b))

/-- The stored tile at `(p, q)`: the tile of `h_pre` there, less the mean row, times the two scale rows, plus the
    shift row, each row read at lane `q`. -/
theorem bnPay3_apply (x0 : FVec Ideal S5000x128 .f32) (x1 x2 x3 x4 : FVec Ideal S1x128 .f32) (p : Fin 5000) (q : Fin 128) :
    k3_pay1 x0 x1 x2 x3 x4 (ix2 p q)
      = (x0 (ix2 p q) - x1 (ix2 (0 : Fin 1) q)) * x2 (ix2 (0 : Fin 1) q) * x3 (ix2 (0 : Fin 1) q) + x4 (ix2 (0 : Fin 1) q) := by
  unfold k3_pay1
  simp only [shapeCast_self]
  rw [addf_apply, mulf_apply, mulf_apply, subf_apply, bcastRow_apply, bcastRow_apply, bcastRow_apply, bcastRow_apply]

/-- The printed index maps, decided over the grid: the tile of `h_pre` moves with the output's tile; the four rows
    stay at block (0,0); the output's tile index is (row tile, 0). -/
theorem idx_facts3 : ∀ t : Fin cfg3.N, win3_0.index t (0 : Fin 2) = win3_5.index t (0 : Fin 2)
    ∧ win3_0.index t (1 : Fin 2) = win3_5.index t (1 : Fin 2)
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) ≤ 9 ∧ win3_5.index t (1 : Fin 2) = 0 :=
  (by decide +kernel : ∀ t : Fin grid3.N, _)

/-- Every row tile is some point's. -/
theorem idx_onto3 : ∀ (q0 : Fin 10), ∃ t : Fin cfg3.N, win3_5.index t = ![q0.val, 0] :=
  (by decide +kernel : ∀ (q0 : Fin 10), ∃ t : Fin grid3.N, win3_5.index t = ![q0.val, 0])

/-! ## Each input block, read at an index, is its array at the index the output's tile has there -/

/-- The tile of `h_pre` sits where the output's tile sits. -/
theorem embTile3 (t : Fin cfg3.N) (p : Fin 5000) (q : Fin 128) :
    ((cfg3.win 0).blk t).view.emb (ix2 p q) = (((cfg3.win 5).blk t).view.emb (ix2 p q)) := by
  obtain ⟨e0, e1, e2, e3, e4, e5, e6, e7, e8, e9, e10, e11⟩ := idx_facts3 t
  funext a; apply Fin.ext
  match a with
  | ⟨0, _⟩ => show win3_0.index t (0 : Fin 2) * 5000 + 1 * p.val = win3_5.index t (0 : Fin 2) * 5000 + 1 * p.val; omega
  | ⟨1, _⟩ => show win3_0.index t (1 : Fin 2) * 128 + 1 * q.val = win3_5.index t (1 : Fin 2) * 128 + 1 * q.val; omega

theorem tileAt3 (c : Dev nD) (t : Fin cfg3.N) (p : Fin 5000) (q : Fin 128) :
    iblk3 V c 0 t (ix2 p q) = V c (Pipeline.arrRef spec3 0) (((cfg3.win 5).blk t).view.emb (ix2 p q)) :=
  (show iblk3 V c 0 t (ix2 p q) = V c (Pipeline.arrRef spec3 0) (((cfg3.win 0).blk t).view.emb (ix2 p q)) from rfl).trans
    (congrArg (V c (Pipeline.arrRef spec3 0)) (embTile3 t p q))

/-- Row window 1's block is the whole row: lane `q` of the block is lane `q` of the array, the lane the output's tile has there. -/
theorem embRow3_1 (t : Fin cfg3.N) (p : Fin 5000) (q : Fin 128) :
    ((cfg3.win 1).blk t).view.emb (ix2 (0 : Fin 1) q) = ix2 (0 : Fin 1) ((((cfg3.win 5).blk t).view.emb (ix2 p q)) 1) := by
  obtain ⟨e0, e1, e2, e3, e4, e5, e6, e7, e8, e9, e10, e11⟩ := idx_facts3 t
  funext a; apply Fin.ext
  match a with
  | ⟨0, _⟩ => show win3_1.index t (0 : Fin 2) * 1 + 1 * 0 = 0; omega
  | ⟨1, _⟩ => show win3_1.index t (1 : Fin 2) * 128 + 1 * q.val = win3_5.index t (1 : Fin 2) * 128 + 1 * q.val; omega

theorem rowAt3_1 (c : Dev nD) (t : Fin cfg3.N) (p : Fin 5000) (q : Fin 128) :
    iblk3 V c 1 t (ix2 (0 : Fin 1) q) = V c (Pipeline.arrRef spec3 1) (ix2 (0 : Fin 1) ((((cfg3.win 5).blk t).view.emb (ix2 p q)) 1)) :=
  (show iblk3 V c 1 t (ix2 (0 : Fin 1) q) = V c (Pipeline.arrRef spec3 1) (((cfg3.win 1).blk t).view.emb (ix2 (0 : Fin 1) q)) from rfl).trans
    (congrArg (V c (Pipeline.arrRef spec3 1)) (embRow3_1 t p q))

/-- Row window 2's block is the whole row: lane `q` of the block is lane `q` of the array, the lane the output's tile has there. -/
theorem embRow3_2 (t : Fin cfg3.N) (p : Fin 5000) (q : Fin 128) :
    ((cfg3.win 2).blk t).view.emb (ix2 (0 : Fin 1) q) = ix2 (0 : Fin 1) ((((cfg3.win 5).blk t).view.emb (ix2 p q)) 1) := by
  obtain ⟨e0, e1, e2, e3, e4, e5, e6, e7, e8, e9, e10, e11⟩ := idx_facts3 t
  funext a; apply Fin.ext
  match a with
  | ⟨0, _⟩ => show win3_2.index t (0 : Fin 2) * 1 + 1 * 0 = 0; omega
  | ⟨1, _⟩ => show win3_2.index t (1 : Fin 2) * 128 + 1 * q.val = win3_5.index t (1 : Fin 2) * 128 + 1 * q.val; omega

theorem rowAt3_2 (c : Dev nD) (t : Fin cfg3.N) (p : Fin 5000) (q : Fin 128) :
    iblk3 V c 2 t (ix2 (0 : Fin 1) q) = V c (Pipeline.arrRef spec3 2) (ix2 (0 : Fin 1) ((((cfg3.win 5).blk t).view.emb (ix2 p q)) 1)) :=
  (show iblk3 V c 2 t (ix2 (0 : Fin 1) q) = V c (Pipeline.arrRef spec3 2) (((cfg3.win 2).blk t).view.emb (ix2 (0 : Fin 1) q)) from rfl).trans
    (congrArg (V c (Pipeline.arrRef spec3 2)) (embRow3_2 t p q))

/-- Row window 3's block is the whole row: lane `q` of the block is lane `q` of the array, the lane the output's tile has there. -/
theorem embRow3_3 (t : Fin cfg3.N) (p : Fin 5000) (q : Fin 128) :
    ((cfg3.win 3).blk t).view.emb (ix2 (0 : Fin 1) q) = ix2 (0 : Fin 1) ((((cfg3.win 5).blk t).view.emb (ix2 p q)) 1) := by
  obtain ⟨e0, e1, e2, e3, e4, e5, e6, e7, e8, e9, e10, e11⟩ := idx_facts3 t
  funext a; apply Fin.ext
  match a with
  | ⟨0, _⟩ => show win3_3.index t (0 : Fin 2) * 1 + 1 * 0 = 0; omega
  | ⟨1, _⟩ => show win3_3.index t (1 : Fin 2) * 128 + 1 * q.val = win3_5.index t (1 : Fin 2) * 128 + 1 * q.val; omega

theorem rowAt3_3 (c : Dev nD) (t : Fin cfg3.N) (p : Fin 5000) (q : Fin 128) :
    iblk3 V c 3 t (ix2 (0 : Fin 1) q) = V c (Pipeline.arrRef spec3 3) (ix2 (0 : Fin 1) ((((cfg3.win 5).blk t).view.emb (ix2 p q)) 1)) :=
  (show iblk3 V c 3 t (ix2 (0 : Fin 1) q) = V c (Pipeline.arrRef spec3 3) (((cfg3.win 3).blk t).view.emb (ix2 (0 : Fin 1) q)) from rfl).trans
    (congrArg (V c (Pipeline.arrRef spec3 3)) (embRow3_3 t p q))

/-- Row window 4's block is the whole row: lane `q` of the block is lane `q` of the array, the lane the output's tile has there. -/
theorem embRow3_4 (t : Fin cfg3.N) (p : Fin 5000) (q : Fin 128) :
    ((cfg3.win 4).blk t).view.emb (ix2 (0 : Fin 1) q) = ix2 (0 : Fin 1) ((((cfg3.win 5).blk t).view.emb (ix2 p q)) 1) := by
  obtain ⟨e0, e1, e2, e3, e4, e5, e6, e7, e8, e9, e10, e11⟩ := idx_facts3 t
  funext a; apply Fin.ext
  match a with
  | ⟨0, _⟩ => show win3_4.index t (0 : Fin 2) * 1 + 1 * 0 = 0; omega
  | ⟨1, _⟩ => show win3_4.index t (1 : Fin 2) * 128 + 1 * q.val = win3_5.index t (1 : Fin 2) * 128 + 1 * q.val; omega

theorem rowAt3_4 (c : Dev nD) (t : Fin cfg3.N) (p : Fin 5000) (q : Fin 128) :
    iblk3 V c 4 t (ix2 (0 : Fin 1) q) = V c (Pipeline.arrRef spec3 4) (ix2 (0 : Fin 1) ((((cfg3.win 5).blk t).view.emb (ix2 p q)) 1)) :=
  (show iblk3 V c 4 t (ix2 (0 : Fin 1) q) = V c (Pipeline.arrRef spec3 4) (((cfg3.win 4).blk t).view.emb (ix2 (0 : Fin 1) q)) from rfl).trans
    (congrArg (V c (Pipeline.arrRef spec3 4)) (embRow3_4 t p q))

/-! ## From blocks to the array -/

set_option maxHeartbeats 400000 in
/-- What point `t` writes back is block `t` of `bnApply` of the five arrays as the region finds them. -/
theorem flushed3_5_eq (c : Dev nD) (t : Fin cfg3.N) :
    (dat3 V c).flushed 5 t = ((cfg3.win 5).blk t).view.read (Elt Ideal) (bnApply (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero origin2]
  simp only [View.ld_unit_zero (S := S5000x128) origin2, View.ld_unit_zero (S := S1x128) origin2]
  funext j
  obtain ⟨p, q, rfl⟩ : ∃ (p : Fin 5000) (q : Fin 128), j = ix2 p q := ⟨j 0, j 1, eq_ix2 j⟩
  show k3_pay1 (iblk3 V c 0 t) (iblk3 V c 1 t) (iblk3 V c 2 t) (iblk3 V c 3 t) (iblk3 V c 4 t) (ix2 p q)
    = bnApply (V c (Pipeline.arrRef spec3 0)) (V c (Pipeline.arrRef spec3 1)) (V c (Pipeline.arrRef spec3 2)) (V c (Pipeline.arrRef spec3 3)) (V c (Pipeline.arrRef spec3 4)) (((cfg3.win 5).blk t).view.emb (ix2 p q))
  rw [bnPay3_apply, tileAt3 V c t p q, rowAt3_1 V c t p q, rowAt3_2 V c t p q, rowAt3_3 V c t p q, rowAt3_4 V c t p q]
  rfl

/-- An index of the array is in point `t`'s block iff each coordinate is in the block's range on its axis. -/
theorem mem_blk3_5 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v77).slice (win3_5.rect t)).set ↔ _
  rw [View.set_slice_whole, Rect.mem_set_unit]
  exact Iff.rfl

/-- The ten tiles cover the array: row `r` is in the block of the point whose tile index is `r / 5000`. -/
theorem covered3_5 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := idx_onto3 ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk3_5]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- THE ARRAY after the region: `bnApply` of the five arrays the region was entered with. -/
theorem final3_5 (c : Dev nD) : (dat3 V c).arrAt 5 cfg3.N = bnApply (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 (bnApply (V c (Pipeline.arrRef spec3 0)) (V c (Pipeline.arrRef spec3 1)) (V c (Pipeline.arrRef spec3 2)) (V c (Pipeline.arrRef spec3 3)) (V c (Pipeline.arrRef spec3 4))) (fun t _ => flushed3_5_eq V c t) (covered3_5)

end Cert.KernelIdeal.Reg

end
-- ==== Proof.KernelIdeal.Host2.lean ====
/- The host stretch before layer 1's MLP-statistics region, read at the ideal instance from any contents `W`: the
   neighbourhood aggregation of the layer's input features, and the layer's slices of the stacked parameters (two
   weight matrices, two biases, the scale and the shift), each at an index. -/
import proofs.«139862_j28269474742473_1_alg».proof.Proof.Gen.KernelIdeal.Launch
import proofs.«139862_j28269474742473_1_alg».proof.Proof.Gen.KernelIdeal.Regions
import proofs.«139862_j28269474742473_1_alg».proof.Proof.KernelIdeal.HostLayout
import Idealize.ShloMosaic.Lib.StableHlo.Run
import Idealize.ShloMosaic.Lib.ValueLayout

noncomputable section

namespace Cert.KernelIdeal.Reg

open Cert.KernelIdeal Cert.KernelIdeal.Gen
open Idealize.ShloMosaic Idealize.ShloMosaic.TcCoe Idealize.ShloMosaic.ValueIdx Idealize.ShloMosaic.StableHlo

variable (W : Valuation τ sig (Elt Ideal))

set_option maxHeartbeats 1000000 in
/-- The aggregation operand as the stretch's operations: it reads the two edge rows the first stretch cut out. -/
theorem host2_agg_eq : (StableHlo.after hostOps2 W (Proc.devRef .tc main_v50) : FVec Ideal S50000x128 .f32)
    = Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 (W (Proc.devRef .tc main_v3) : IVec S800000 32))
        (Host.gather gather_S50000x128_S800000x1_S800000x128_1_0_n_n_0_1_1128 (W (Proc.devRef .tc main_v40) : FVec Ideal S50000x128 .f32)
          (broadcastInDim S800000x1 ![0] bcast_S800000_S800000x1_0
            (select (cmpi .slt (W (Proc.devRef .tc main_v1) : IVec S800000 32) (broadcastInDim S800000 ![] bcast_S_S800000 (constantI S_ 32 0#32)))
              (addi (W (Proc.devRef .tc main_v1) : IVec S800000 32) (broadcastInDim S800000 ![] bcast_S_S800000 (constantI S_ 32 50000#32)))
              (W (Proc.devRef .tc main_v1) : IVec S800000 32)))) := by
  after_results_simp <;> rfl

/-- When the two edge rows hold what the first stretch cut out of the edge list, the aggregation operand is the
    neighbourhood aggregation of the features the stretch finds. -/
theorem host2_agg (hsrc : (W (Proc.devRef .tc main_v1) : IVec S800000 32) = shapeCast S800000 (extractStridedSlice S1x800000 ![0, 0] (W (Proc.devRef .tc main_arg1) : IVec S2x800000 32) slices_S2x800000_S1x800000_0_0) shapeCasts_S1x800000_S800000)
    (hdst : (W (Proc.devRef .tc main_v3) : IVec S800000 32) = shapeCast S800000 (extractStridedSlice S1x800000 ![1, 0] (W (Proc.devRef .tc main_arg1) : IVec S2x800000 32) slices_S2x800000_S1x800000_1_0) shapeCasts_S1x800000_S800000) :
    (StableHlo.after hostOps2 W (Proc.devRef .tc main_v50) : FVec Ideal S50000x128 .f32) = Cert.Spec.Agg aggFacts (W (Proc.devRef .tc main_v40) : FVec Ideal S50000x128 .f32) (W (Proc.devRef .tc main_arg1) : IVec S2x800000 32) := by
  rw [host2_agg_eq W, hsrc, hdst]; rfl

/-- Layer 1's W1 operand as the stretch's operations of the stacked argument, and at an index. -/
theorem host2_W1_eq : (StableHlo.after hostOps2 W (Proc.devRef .tc main_v52) : FVec Ideal S128x128 .f32)
    = shapeCast S128x128 (extractStridedSlice S1x128x128 ![1, 0, 0] (W (Proc.devRef .tc main_arg3) : FVec Ideal S5x128x128 .f32) slices_S5x128x128_S1x128x128_1_0_0) shapeCasts_S1x128x128_S128x128 := by
  after_results <;> rfl
theorem host2_W1 (l k : Fin 128) : (StableHlo.after hostOps2 W (Proc.devRef .tc main_v52) : FVec Ideal S128x128 .f32) (ix2 l k) = (W (Proc.devRef .tc main_arg3) : FVec Ideal S5x128x128 .f32) (ix3 (1 : Fin 5) l k) := by
  rw [host2_W1_eq W]; exact layerMat_apply _ 1 _ _ (1 : Fin 5) rfl l k

/-- Layer 1's b1 operand as the stretch's operations of the stacked argument, and at an index. -/
theorem host2_b1_eq : (StableHlo.after hostOps2 W (Proc.devRef .tc main_v55) : FVec Ideal S1x128 .f32)
    = shapeCast S1x128 (shapeCast S128 (extractStridedSlice S1x128 ![1, 0] (W (Proc.devRef .tc main_arg4) : FVec Ideal S5x128 .f32) slices_S5x128_S1x128_1_0) shapeCasts_S1x128_S128) shapeCasts_S128_S1x128 := by
  after_results <;> rfl
theorem host2_b1 (k : Fin 128) : (StableHlo.after hostOps2 W (Proc.devRef .tc main_v55) : FVec Ideal S1x128 .f32) (ix2 (0 : Fin 1) k) = (W (Proc.devRef .tc main_arg4) : FVec Ideal S5x128 .f32) (ix2 (1 : Fin 5) k) := by
  rw [host2_b1_eq W]; exact layerRow_apply _ 1 _ _ _ (1 : Fin 5) rfl k

/-- Layer 1's W2 operand as the stretch's operations of the stacked argument, and at an index. -/
theorem host2_W2_eq : (StableHlo.after hostOps2 W (Proc.devRef .tc main_v57) : FVec Ideal S128x128 .f32)
    = shapeCast S128x128 (extractStridedSlice S1x128x128 ![1, 0, 0] (W (Proc.devRef .tc main_arg5) : FVec Ideal S5x128x128 .f32) slices_S5x128x128_S1x128x128_1_0_0) shapeCasts_S1x128x128_S128x128 := by
  after_results <;> rfl
theorem host2_W2 (l k : Fin 128) : (StableHlo.after hostOps2 W (Proc.devRef .tc main_v57) : FVec Ideal S128x128 .f32) (ix2 l k) = (W (Proc.devRef .tc main_arg5) : FVec Ideal S5x128x128 .f32) (ix3 (1 : Fin 5) l k) := by
  rw [host2_W2_eq W]; exact layerMat_apply _ 1 _ _ (1 : Fin 5) rfl l k

/-- Layer 1's b2 operand as the stretch's operations of the stacked argument, and at an index. -/
theorem host2_b2_eq : (StableHlo.after hostOps2 W (Proc.devRef .tc main_v60) : FVec Ideal S1x128 .f32)
    = shapeCast S1x128 (shapeCast S128 (extractStridedSlice S1x128 ![1, 0] (W (Proc.devRef .tc main_arg6) : FVec Ideal S5x128 .f32) slices_S5x128_S1x128_1_0) shapeCasts_S1x128_S128) shapeCasts_S128_S1x128 := by
  after_results <;> rfl
theorem host2_b2 (k : Fin 128) : (StableHlo.after hostOps2 W (Proc.devRef .tc main_v60) : FVec Ideal S1x128 .f32) (ix2 (0 : Fin 1) k) = (W (Proc.devRef .tc main_arg6) : FVec Ideal S5x128 .f32) (ix2 (1 : Fin 5) k) := by
  rw [host2_b2_eq W]; exact layerRow_apply _ 1 _ _ _ (1 : Fin 5) rfl k

/-- Layer 1's gamma operand as the stretch's operations of the stacked argument, and at an index. -/
theorem host2_gamma_eq : (StableHlo.after hostOps2 W (Proc.devRef .tc main_v63) : FVec Ideal S1x128 .f32)
    = shapeCast S1x128 (shapeCast S128 (extractStridedSlice S1x128 ![1, 0] (W (Proc.devRef .tc main_arg7) : FVec Ideal S5x128 .f32) slices_S5x128_S1x128_1_0) shapeCasts_S1x128_S128) shapeCasts_S128_S1x128 := by
  after_results <;> rfl
theorem host2_gamma (k : Fin 128) : (StableHlo.after hostOps2 W (Proc.devRef .tc main_v63) : FVec Ideal S1x128 .f32) (ix2 (0 : Fin 1) k) = (W (Proc.devRef .tc main_arg7) : FVec Ideal S5x128 .f32) (ix2 (1 : Fin 5) k) := by
  rw [host2_gamma_eq W]; exact layerRow_apply _ 1 _ _ _ (1 : Fin 5) rfl k

/-- Layer 1's beta operand as the stretch's operations of the stacked argument, and at an index. -/
theorem host2_beta_eq : (StableHlo.after hostOps2 W (Proc.devRef .tc main_v66) : FVec Ideal S1x128 .f32)
    = shapeCast S1x128 (shapeCast S128 (extractStridedSlice S1x128 ![1, 0] (W (Proc.devRef .tc main_arg8) : FVec Ideal S5x128 .f32) slices_S5x128_S1x128_1_0) shapeCasts_S1x128_S128) shapeCasts_S128_S1x128 := by
  after_results <;> rfl
theorem host2_beta (k : Fin 128) : (StableHlo.after hostOps2 W (Proc.devRef .tc main_v66) : FVec Ideal S1x128 .f32) (ix2 (0 : Fin 1) k) = (W (Proc.devRef .tc main_arg8) : FVec Ideal S5x128 .f32) (ix2 (1 : Fin 5) k) := by
  rw [host2_beta_eq W]; exact layerRow_apply _ 1 _ _ _ (1 : Fin 5) rfl k

/-- The stretch writes neither the features it reads nor the edge list. -/
theorem host2_keeps_h : StableHlo.after hostOps2 W (Proc.devRef .tc main_v40) = W (Proc.devRef .tc main_v40) :=
  StableHlo.after_of_writes_sub hostOps2 W hostOps2_writes (by decide)
theorem host2_keeps_edges : StableHlo.after hostOps2 W (Proc.devRef .tc main_arg1) = W (Proc.devRef .tc main_arg1) :=
  StableHlo.after_of_writes_sub hostOps2 W hostOps2_writes (by decide)
theorem host2_keeps_src : StableHlo.after hostOps2 W (Proc.devRef .tc main_v1) = W (Proc.devRef .tc main_v1) :=
  StableHlo.after_of_writes_sub hostOps2 W hostOps2_writes (by decide)
theorem host2_keeps_dst : StableHlo.after hostOps2 W (Proc.devRef .tc main_v3) = W (Proc.devRef .tc main_v3) :=
  StableHlo.after_of_writes_sub hostOps2 W hostOps2_writes (by decide)

end Cert.KernelIdeal.Reg

end
-- ==== Proof.KernelIdeal.Host3.lean ====
/- The host stretch between an MLP-statistics region and its batch-norm region, read at the ideal instance from any
   contents `W`: from the column sums and sums of squares it computes, lane by lane, the mean `sum / count` and the
   reciprocal standard deviation `rsqrt ((sumsq / count − mean · mean) + eps)`. -/
import proofs.«139862_j28269474742473_1_alg».proof.Proof.Gen.KernelIdeal.Launch
import proofs.«139862_j28269474742473_1_alg».proof.Proof.Gen.KernelIdeal.Regions
import proofs.«139862_j28269474742473_1_alg».proof.Proof.Spec
import Idealize.ShloMosaic.Lib.StableHlo.Run
import Idealize.ShloMosaic.Lib.IdealHost
import Idealize.ShloMosaic.Lib.ValueIdx

noncomputable section

namespace Cert.KernelIdeal.Reg

open Cert.KernelIdeal Cert.KernelIdeal.Gen
open Idealize.ShloMosaic Idealize.ShloMosaic.TcCoe Idealize.ShloMosaic.ValueIdx Idealize.ShloMosaic.StableHlo

variable (W : Valuation τ sig (Elt Ideal))

/-- The mean row as the stretch's operations of the sum row. -/
theorem host3_mean_eq : (StableHlo.after hostOps3 W (Proc.devRef .tc main_v69) : FVec Ideal S1x128 .f32) = Host.divf (W (Proc.devRef .tc main_v67_1) : FVec Ideal S1x128 .f32) (broadcastInDim S1x128 ![] bcast_S_S1x128 (constant (F := Ideal) S_ .f32 0x47435000#32)) := by
  after_results

/-- The mean row at lane `j`: the column sum divided by the node count. -/
theorem host3_mean (j : Fin 128) :
    (StableHlo.after hostOps3 W (Proc.devRef .tc main_v69) : FVec Ideal S1x128 .f32) (ix2 (0 : Fin 1) j) = Ideal.div ((W (Proc.devRef .tc main_v67_1) : FVec Ideal S1x128 .f32) (ix2 (0 : Fin 1) j)) Cert.Spec.count := by
  rw [host3_mean_eq W, hostDivf_apply, broadcastInDim_scalar_apply, constant_apply]; rfl

/-- The reciprocal-standard-deviation row as the stretch's operations of the two statistics rows. -/
theorem host3_istd_eq : (StableHlo.after hostOps3 W (Proc.devRef .tc main_v76) : FVec Ideal S1x128 .f32)
    = Host.rsqrt (addf (subf (Host.divf (W (Proc.devRef .tc main_v67_2) : FVec Ideal S1x128 .f32) (broadcastInDim S1x128 ![] bcast_S_S1x128 (constant (F := Ideal) S_ .f32 0x47435000#32)))
        (mulf (Host.divf (W (Proc.devRef .tc main_v67_1) : FVec Ideal S1x128 .f32) (broadcastInDim S1x128 ![] bcast_S_S1x128 (constant (F := Ideal) S_ .f32 0x47435000#32))) (Host.divf (W (Proc.devRef .tc main_v67_1) : FVec Ideal S1x128 .f32) (broadcastInDim S1x128 ![] bcast_S_S1x128 (constant (F := Ideal) S_ .f32 0x47435000#32))))) (broadcastInDim S1x128 ![] bcast_S_S1x128 (constant (F := Ideal) S_ .f32 0x3727C5AC#32))) := by
  after_results

/-- The reciprocal-standard-deviation row at lane `j`: `rsqrt ((sumsq / count − mean · mean) + eps)`. -/
theorem host3_istd (j : Fin 128) :
    (StableHlo.after hostOps3 W (Proc.devRef .tc main_v76) : FVec Ideal S1x128 .f32) (ix2 (0 : Fin 1) j)
      = Ideal.rsqrt ((Ideal.div ((W (Proc.devRef .tc main_v67_2) : FVec Ideal S1x128 .f32) (ix2 (0 : Fin 1) j)) Cert.Spec.count
          - Ideal.div ((W (Proc.devRef .tc main_v67_1) : FVec Ideal S1x128 .f32) (ix2 (0 : Fin 1) j)) Cert.Spec.count * Ideal.div ((W (Proc.devRef .tc main_v67_1) : FVec Ideal S1x128 .f32) (ix2 (0 : Fin 1) j)) Cert.Spec.count)
        + Cert.Spec.eps) := by
  rw [host3_istd_eq W]
  show Ideal.rsqrt (addf (subf (Host.divf (W (Proc.devRef .tc main_v67_2) : FVec Ideal S1x128 .f32) (broadcastInDim S1x128 ![] bcast_S_S1x128 (constant (F := Ideal) S_ .f32 0x47435000#32)))
        (mulf (Host.divf (W (Proc.devRef .tc main_v67_1) : FVec Ideal S1x128 .f32) (broadcastInDim S1x128 ![] bcast_S_S1x128 (constant (F := Ideal) S_ .f32 0x47435000#32))) (Host.divf (W (Proc.devRef .tc main_v67_1) : FVec Ideal S1x128 .f32) (broadcastInDim S1x128 ![] bcast_S_S1x128 (constant (F := Ideal) S_ .f32 0x47435000#32))))) (broadcastInDim S1x128 ![] bcast_S_S1x128 (constant (F := Ideal) S_ .f32 0x3727C5AC#32)) (ix2 (0 : Fin 1) j)) = _
  rw [addf_apply, subf_apply, mulf_apply, hostDivf_apply, hostDivf_apply, broadcastInDim_scalar_apply, broadcastInDim_scalar_apply, constant_apply, constant_apply]; rfl

/-- The stretch writes neither statistics row. -/
theorem host3_keeps_sum : StableHlo.after hostOps3 W (Proc.devRef .tc main_v67_1) = W (Proc.devRef .tc main_v67_1) :=
  StableHlo.after_of_writes_sub hostOps3 W hostOps3_writes (by decide)

end Cert.KernelIdeal.Reg

end
-- ==== Proof.KernelIdeal.Layer1.lean ====
/- Layer 1 of the kernel's program: its normalisation region ends with the one-pass layer of the
   specification applied to the features the layer was entered with. -/
import proofs.«139862_j28269474742473_1_alg».proof.Proof.KernelIdeal.Mlp2Value
import proofs.«139862_j28269474742473_1_alg».proof.Proof.KernelIdeal.Bn3Value
import proofs.«139862_j28269474742473_1_alg».proof.Proof.KernelIdeal.Host2
import proofs.«139862_j28269474742473_1_alg».proof.Proof.KernelIdeal.Host3
import proofs.«139862_j28269474742473_1_alg».proof.Proof.KernelIdeal.RunData
import proofs.«139862_j28269474742473_1_alg».proof.Proof.KernelIdeal.LayerGlue
import Idealize.ShloMosaic.Lib.StableHlo.Run
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.ShloMosaic.StableHlo
open Idealize.ShloMosaic.Pipeline (Dat)

variable (m : (ℓ : Loc nD τ sig) → Buf (Elt Ideal) ℓ)

set_option maxHeartbeats 1600000 in
/-- Layer 1: from the features `H` the layer is entered with and the argument arrays, the normalisation region leaves
    the one-pass layer of the specification. -/
theorem layer1 (c : Dev nD) (a : Cert.Spec.Args) (H : FVec Ideal S50000x128 .f32)
    (hh : (W4 m c (Proc.devRef .tc main_v40) : FVec Ideal S50000x128 .f32) = H)
    (he : (W4 m c (Proc.devRef .tc main_arg1) : IVec S2x800000 32) = a.e)
    (h3 : (W4 m c (Proc.devRef .tc main_arg3) : FVec Ideal S5x128x128 .f32) = a.W1) (h4 : (W4 m c (Proc.devRef .tc main_arg4) : FVec Ideal S5x128 .f32) = a.b1)
    (h5 : (W4 m c (Proc.devRef .tc main_arg5) : FVec Ideal S5x128x128 .f32) = a.W2) (h6 : (W4 m c (Proc.devRef .tc main_arg6) : FVec Ideal S5x128 .f32) = a.b2)
    (h7 : (W4 m c (Proc.devRef .tc main_arg7) : FVec Ideal S5x128 .f32) = a.gamma) (h8 : (W4 m c (Proc.devRef .tc main_arg8) : FVec Ideal S5x128 .f32) = a.beta)
    (hsrc : (W4 m c (Proc.devRef .tc main_v1) : IVec S800000 32) = shapeCast S800000 (extractStridedSlice S1x800000 ![0, 0] (W4 m c (Proc.devRef .tc main_arg1) : IVec S2x800000 32) slices_S2x800000_S1x800000_0_0) shapeCasts_S1x800000_S800000)
    (hdst : (W4 m c (Proc.devRef .tc main_v3) : IVec S800000 32) = shapeCast S800000 (extractStridedSlice S1x800000 ![1, 0] (W4 m c (Proc.devRef .tc main_arg1) : IVec S2x800000 32) slices_S2x800000_S1x800000_1_0) shapeCasts_S1x800000_S800000) :
    (W8 m c (Proc.devRef .tc main_v77) : FVec Ideal S50000x128 .f32) = Cert.Spec.stepOne aggFacts a (1 : Fin 5) H := by
  -- the first region's operands
  have e_h : (X2 m c main_v40 : FVec Ideal S50000x128 .f32) = H :=
    (StableHlo.after_of_writes_sub hostOps2 (W4 m c) hostOps2_writes (by decide)).trans hh
  have e_agg : (X2 m c main_v50 : FVec Ideal S50000x128 .f32) = Cert.Spec.Agg aggFacts H a.e := by
    rw [← hh, ← he]; exact host2_agg (W4 m c) hsrc hdst
  -- the rectified activations, as one function of the layer's operands
  have e_P : ∀ (r : Fin 50000) (q : Fin 128), pre2 (X2 m) c (ix2 r q)
      = Cert.Spec.pre (Cert.Spec.feat H) (Cert.Spec.feat (Cert.Spec.Agg aggFacts H a.e)) (Cert.Spec.wt a.W1 1) (Cert.Spec.vc a.b1 1) (Cert.Spec.wt a.W2 1) (Cert.Spec.vc a.b2 1) r q :=
    mlpRows_eq_pre _ _ _ _ _ _ H (Cert.Spec.Agg aggFacts H a.e) _ _ _ _ e_h e_agg
      (fun l k => (host2_W1 (W4 m c) l k).trans (congrFun h3 _)) (fun k => (host2_b1 (W4 m c) k).trans (congrFun h4 _))
      (fun l k => (host2_W2 (W4 m c) l k).trans (congrFun h5 _)) (fun k => (host2_b2 (W4 m c) k).trans (congrFun h6 _))
  -- what the statistics region leaves
  have e_pre : (W6 m c (Proc.devRef .tc main_v67_0) : FVec Ideal S50000x128 .f32) = pre2 (X2 m) c := (W6_arr m c 6).trans (final2_6 (X2 m) c)
  have e_sum : (W6 m c (Proc.devRef .tc main_v67_1) : FVec Ideal S1x128 .f32) = colSum2 (X2 m) c := (W6_arr m c 7).trans (final2_7 (X2 m) c)
  have e_sq : (W6 m c (Proc.devRef .tc main_v67_2) : FVec Ideal S1x128 .f32) = colSumSq2 (X2 m) c := (W6_arr m c 8).trans (final2_8 (X2 m) c)
  -- the normalisation region's operands
  have o_pre : (X3 m c main_v67_0 : FVec Ideal S50000x128 .f32) = pre2 (X2 m) c :=
    (StableHlo.after_of_writes_sub hostOps3 (W6 m c) hostOps3_writes (by decide)).trans e_pre
  have o_g : (X3 m c main_v63 : FVec Ideal S1x128 .f32) = (W5 m c (Proc.devRef .tc main_v63) : FVec Ideal S1x128 .f32) :=
    (StableHlo.after_of_writes_sub hostOps3 (W6 m c) hostOps3_writes (by decide)).trans (W6_of_ne m c main_v63 (by decide))
  have o_b : (X3 m c main_v66 : FVec Ideal S1x128 .f32) = (W5 m c (Proc.devRef .tc main_v66) : FVec Ideal S1x128 .f32) :=
    (StableHlo.after_of_writes_sub hostOps3 (W6 m c) hostOps3_writes (by decide)).trans (W6_of_ne m c main_v66 (by decide))
  -- the normalisation region's output
  refine ((W8_arr m c 5).trans (final3_5 (X3 m) c)).trans ?_
  refine bnApply_eq_stepOne aggFacts a (1 : Fin 5) H _ _ _ _ _ (W6 m c (Proc.devRef .tc main_v67_1)) (W6 m c (Proc.devRef .tc main_v67_2)) ?_ ?_ ?_ ?_ ?_ ?_ ?_
  · intro r q
    exact (congrFun o_pre (ix2 r q)).trans (e_P r q)
  · intro q
    exact (congrFun e_sum _).trans ((colSum2_apply (X2 m) c q).trans (Finset.sum_congr rfl fun r _ => (congrFun o_pre (ix2 r q)).symm))
  · intro q
    exact (congrFun e_sq _).trans ((colSumSq2_apply (X2 m) c q).trans (Finset.sum_congr rfl fun r _ => by rw [congrFun o_pre (ix2 r q)]))
  · intro q
    exact host3_mean (W6 m c) q
  · intro q
    exact host3_istd (W6 m c) q
  · intro q
    exact (congrFun o_g _).trans ((host2_gamma (W4 m c) q).trans (congrFun h7 _))
  · intro q
    exact (congrFun o_b _).trans ((host2_beta (W4 m c) q).trans (congrFun h8 _))

end Cert.KernelIdeal.Reg

end
-- ==== Proof.KernelIdeal.Mlp4Value.lean ====
import proofs.«139862_j28269474742473_1_alg».proof.Proof.KernelIdeal.Mlp4
import proofs.«139862_j28269474742473_1_alg».proof.Proof.KernelIdeal.MlpValue

/-! # The MLP region of layer 2 (custom_call 4): its three output arrays as functions of its six input arrays

Over the extended reals, with the arrays the region is entered at: output 6 ends holding the MLP of the rows of
the first two arrays with the four weight arrays (row block by row block: the ten blocks tile the 50000 rows);
output 7 the column sums of that array over all rows (the accumulator after the last point: zero plus the ten
blocks' column sums, in block order); output 8 the column sums of its squares. -/

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

-- the TensorCore's buffer contents when the region is entered, at the ideal instance
variable (V : (c : Dev nD) → (b : Ref sig .tc) → Buf (Elt Ideal) ((c : Thread nD τ).loc b))

/-! ## The payloads are the shared formulas -/

theorem h4_eq (x0 x1 : FVec Ideal S5000x128 .f32) (x2 : FVec Ideal S128x128 .f32) (x3 : FVec Ideal S1x128 .f32) (x4 : FVec Ideal S128x128 .f32) (x5 : FVec Ideal S1x128 .f32) :
    h4 (F := Ideal) x0 x1 x2 x3 x4 x5 = mlpRows x0 x1 x2 x3 x4 x5 :=
  (show h4 (F := Ideal) x0 x1 x2 x3 x4 x5 = mlpPayB x0 x1 x2 x3 x4 x5 from rfl).trans (mlpPayB_eq x0 x1 x2 x3 x4 x5)

theorem acc4_0_eq (x0 x1 : FVec Ideal S5000x128 .f32) (x2 : FVec Ideal S128x128 .f32) (x3 : FVec Ideal S1x128 .f32) (x4 : FVec Ideal S128x128 .f32) (x5 : FVec Ideal S1x128 .f32) (s : FVec Ideal S1x128 .f32) :
    acc4_0 (F := Ideal) x0 x1 x2 x3 x4 x5 s = accStep s (h4 (F := Ideal) x0 x1 x2 x3 x4 x5) := rfl

theorem acc4_1_eq (x0 x1 : FVec Ideal S5000x128 .f32) (x2 : FVec Ideal S128x128 .f32) (x3 : FVec Ideal S1x128 .f32) (x4 : FVec Ideal S128x128 .f32) (x5 : FVec Ideal S1x128 .f32) (s : FVec Ideal S1x128 .f32) :
    acc4_1 (F := Ideal) x0 x1 x2 x3 x4 x5 s = accStep s (mulf (h4 (F := Ideal) x0 x1 x2 x3 x4 x5) (h4 (F := Ideal) x0 x1 x2 x3 x4 x5)) := rfl

theorem zero4_0 : (k4_pay3 (F := Ideal)) = zeroRow := rfl
theorem zero4_1 : (k4_pay4 (F := Ideal)) = zeroRow := rfl

/-! ## The printed index maps, decided over the grid -/

/-- The two row windows and output 6 sit at block (point, 0); the four weight windows and the two statistics outputs
    at block (0, 0). -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-- Row `p` of point `t`'s block, as a row of the array. -/
def rowOf4 (t : Fin cfg4.N) (p : Fin 5000) : Fin 50000 :=
  ⟨t.val * 5000 + p.val, by have := lt_of_lt_of_eq t.isLt (show cfg4.N = 10 from N_4); have := p.isLt; omega⟩

/-! ## Each input block, read at an index, is its array there -/

theorem tileAt4_0 (c : Dev nD) (t : Fin cfg4.N) (p : Fin 5000) (l : Fin 128) :
    iblk4 V c 0 t (ix2 p l) = (V c (Pipeline.arrRef spec4 0)) (ix2 (rowOf4 t p) l) := by
  obtain ⟨e00, e01, e10, e11, e20, e21, e30, e31, e40, e41, e50, e51, e60, e61, e70, e71, e80, e81⟩ := idx_facts4 t
  refine (show iblk4 V c 0 t (ix2 p l) = (V c (Pipeline.arrRef spec4 0)) (((cfg4.win 0).blk t).view.emb (ix2 p l)) from rfl).trans (congrArg (V c (Pipeline.arrRef spec4 0)) ?_)
  funext ax; apply Fin.ext
  match ax with
  | ⟨0, _⟩ => show win4_0.index t (0 : Fin 2) * 5000 + 1 * p.val = t.val * 5000 + p.val; omega
  | ⟨1, _⟩ => show win4_0.index t (1 : Fin 2) * 128 + 1 * l.val = l.val; omega

theorem tileAt4_1 (c : Dev nD) (t : Fin cfg4.N) (p : Fin 5000) (l : Fin 128) :
    iblk4 V c 1 t (ix2 p l) = (V c (Pipeline.arrRef spec4 1)) (ix2 (rowOf4 t p) l) := by
  obtain ⟨e00, e01, e10, e11, e20, e21, e30, e31, e40, e41, e50, e51, e60, e61, e70, e71, e80, e81⟩ := idx_facts4 t
  refine (show iblk4 V c 1 t (ix2 p l) = (V c (Pipeline.arrRef spec4 1)) (((cfg4.win 1).blk t).view.emb (ix2 p l)) from rfl).trans (congrArg (V c (Pipeline.arrRef spec4 1)) ?_)
  funext ax; apply Fin.ext
  match ax with
  | ⟨0, _⟩ => show win4_1.index t (0 : Fin 2) * 5000 + 1 * p.val = t.val * 5000 + p.val; omega
  | ⟨1, _⟩ => show win4_1.index t (1 : Fin 2) * 128 + 1 * l.val = l.val; omega

theorem wholeAt4_2 (c : Dev nD) (t : Fin cfg4.N) (a : Fin 128) (b : Fin 128) :
    iblk4 V c 2 t (ix2 a b) = (V c (Pipeline.arrRef spec4 2)) (ix2 a b) := by
  obtain ⟨e00, e01, e10, e11, e20, e21, e30, e31, e40, e41, e50, e51, e60, e61, e70, e71, e80, e81⟩ := idx_facts4 t
  refine (show iblk4 V c 2 t (ix2 a b) = (V c (Pipeline.arrRef spec4 2)) (((cfg4.win 2).blk t).view.emb (ix2 a b)) from rfl).trans (congrArg (V c (Pipeline.arrRef spec4 2)) ?_)
  funext ax; apply Fin.ext
  match ax with
  | ⟨0, _⟩ => show win4_2.index t (0 : Fin 2) * 128 + 1 * a.val = a.val; omega
  | ⟨1, _⟩ => show win4_2.index t (1 : Fin 2) * 128 + 1 * b.val = b.val; omega

theorem wholeAt4_3 (c : Dev nD) (t : Fin cfg4.N) (a : Fin 1) (b : Fin 128) :
    iblk4 V c 3 t (ix2 a b) = (V c (Pipeline.arrRef spec4 3)) (ix2 a b) := by
  obtain ⟨e00, e01, e10, e11, e20, e21, e30, e31, e40, e41, e50, e51, e60, e61, e70, e71, e80, e81⟩ := idx_facts4 t
  refine (show iblk4 V c 3 t (ix2 a b) = (V c (Pipeline.arrRef spec4 3)) (((cfg4.win 3).blk t).view.emb (ix2 a b)) from rfl).trans (congrArg (V c (Pipeline.arrRef spec4 3)) ?_)
  funext ax; apply Fin.ext
  match ax with
  | ⟨0, _⟩ => show win4_3.index t (0 : Fin 2) * 1 + 1 * a.val = a.val; omega
  | ⟨1, _⟩ => show win4_3.index t (1 : Fin 2) * 128 + 1 * b.val = b.val; omega

theorem wholeAt4_4 (c : Dev nD) (t : Fin cfg4.N) (a : Fin 128) (b : Fin 128) :
    iblk4 V c 4 t (ix2 a b) = (V c (Pipeline.arrRef spec4 4)) (ix2 a b) := by
  obtain ⟨e00, e01, e10, e11, e20, e21, e30, e31, e40, e41, e50, e51, e60, e61, e70, e71, e80, e81⟩ := idx_facts4 t
  refine (show iblk4 V c 4 t (ix2 a b) = (V c (Pipeline.arrRef spec4 4)) (((cfg4.win 4).blk t).view.emb (ix2 a b)) from rfl).trans (congrArg (V c (Pipeline.arrRef spec4 4)) ?_)
  funext ax; apply Fin.ext
  match ax with
  | ⟨0, _⟩ => show win4_4.index t (0 : Fin 2) * 128 + 1 * a.val = a.val; omega
  | ⟨1, _⟩ => show win4_4.index t (1 : Fin 2) * 128 + 1 * b.val = b.val; omega

theorem wholeAt4_5 (c : Dev nD) (t : Fin cfg4.N) (a : Fin 1) (b : Fin 128) :
    iblk4 V c 5 t (ix2 a b) = (V c (Pipeline.arrRef spec4 5)) (ix2 a b) := by
  obtain ⟨e00, e01, e10, e11, e20, e21, e30, e31, e40, e41, e50, e51, e60, e61, e70, e71, e80, e81⟩ := idx_facts4 t
  refine (show iblk4 V c 5 t (ix2 a b) = (V c (Pipeline.arrRef spec4 5)) (((cfg4.win 5).blk t).view.emb (ix2 a b)) from rfl).trans (congrArg (V c (Pipeline.arrRef spec4 5)) ?_)
  funext ax; apply Fin.ext
  match ax with
  | ⟨0, _⟩ => show win4_5.index t (0 : Fin 2) * 1 + 1 * a.val = a.val; omega
  | ⟨1, _⟩ => show win4_5.index t (1 : Fin 2) * 128 + 1 * b.val = b.val; omega

/-- The MLP of the whole arrays the region is entered at. -/
abbrev pre4 (c : Dev nD) : FVec Ideal S50000x128 .f32 := mlpRows (n := 50000) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))

/-- The MLP's block at point `t`, at `(p, q)`: the MLP of the whole arrays at the block's row. -/
theorem blockAt4 (c : Dev nD) (t : Fin cfg4.N) (p : Fin 5000) (q : Fin 128) :
    h4 (F := Ideal) (iblk4 V c 0 t) (iblk4 V c 1 t) (iblk4 V c 2 t) (iblk4 V c 3 t) (iblk4 V c 4 t) (iblk4 V c 5 t) (ix2 p q) = pre4 V c (ix2 (rowOf4 t p) q) := by
  rw [h4_eq]
  show mlpRows (n := 5000) (iblk4 V c 0 t) (iblk4 V c 1 t) (iblk4 V c 2 t) (iblk4 V c 3 t) (iblk4 V c 4 t) (iblk4 V c 5 t) (ix2 p q) = mlpRows (n := 50000) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (ix2 (rowOf4 t p) q)
  rw [mlpRows_apply, mlpRows_apply]
  simp only [tileAt4_0 V c t, tileAt4_1 V c t, wholeAt4_2 V c t, wholeAt4_3 V c t, wholeAt4_4 V c t, wholeAt4_5 V c t]

/-! ## Output 6: from blocks to the array -/

/-- Output 6's block at point `t` sits at rows `5000 t …`. -/
theorem emb4_6 (t : Fin cfg4.N) (p : Fin 5000) (q : Fin 128) :
    ((cfg4.win 6).blk t).view.emb (ix2 p q) = ix2 (rowOf4 t p) q := by
  obtain ⟨e00, e01, e10, e11, e20, e21, e30, e31, e40, e41, e50, e51, e60, e61, e70, e71, e80, e81⟩ := idx_facts4 t
  funext ax; apply Fin.ext
  match ax with
  | ⟨0, _⟩ => show win4_6.index t (0 : Fin 2) * 5000 + 1 * p.val = t.val * 5000 + p.val; omega
  | ⟨1, _⟩ => show win4_6.index t (1 : Fin 2) * 128 + 1 * q.val = q.val; omega

set_option maxHeartbeats 400000 in
/-- What point `t` writes back is block `t` of the MLP of the whole arrays. -/
theorem flushed4_6_eq (c : Dev nD) (t : Fin cfg4.N) :
    (dat4 V c).flushed 6 t = ((cfg4.win 6).blk t).view.read (Elt Ideal) (pre4 V c) := by
  show (cfg4.win 6).cut (grid4.coords t) ((dat4 V c).after 6 t) = _
  rw [after4_6]
  funext j
  obtain ⟨p, q, rfl⟩ : ∃ (p : Fin 5000) (q : Fin 128), j = ix2 p q := ⟨j 0, j 1, eq_ix2 j⟩
  show h4 (F := Ideal) (iblk4 V c 0 t) (iblk4 V c 1 t) (iblk4 V c 2 t) (iblk4 V c 3 t) (iblk4 V c 4 t) (iblk4 V c 5 t) (ix2 p q) = pre4 V c (((cfg4.win 6).blk t).view.emb (ix2 p q))
  rw [emb4_6, blockAt4]

theorem mem_blk4_6 (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole (Pipeline.arrRef spec4 6)).slice (win4_6.rect t)).set ↔ _
  rw [View.set_slice_whole, Rect.mem_set_unit]
  exact Iff.rfl

/-- The ten blocks cover the array: row `r` is in the block of point `r / 5000`. -/
theorem covered4_6 (i : S50000x128.Idx) :
    ∃ t : Fin cfg4.N, (cfg4.win 6).flush t = true ∧ i ∈ ((cfg4.win 6).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨e00, e01, e10, e11, e20, e21, e30, e31, e40, e41, e50, e51, e60, e61, e70, e71, e80, e81⟩ := idx_facts4 t
  have q0 : win4_6.index t (0 : Fin 2) = (i 0).val / 5000 := e60
  refine ⟨t, flush4_6 t, ?_⟩
  rw [mem_blk4_6]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 128 ≤ (i 1).val ∧ (i 1).val < win4_6.index t (1 : Fin 2) * 128 + 128; omega

/-- OUTPUT 6 after the region: the MLP of the arrays the region was entered with. -/
theorem final4_6 (c : Dev nD) : (dat4 V c).arrAt 6 cfg4.N = pre4 V c :=
  (dat4 V c).arrAt_eq_of_cover 6 (pre4 V c) (fun t _ => flushed4_6_eq V c t) covered4_6

/-! ## The accumulators after each point -/

/-- A block's column sum is the sum of the array's column over the block's rows. -/
theorem blockSum4 (c : Dev nD) (t : Fin cfg4.N) (q : Fin 128) :
    ∑ p : Fin 5000, h4 (F := Ideal) (iblk4 V c 0 t) (iblk4 V c 1 t) (iblk4 V c 2 t) (iblk4 V c 3 t) (iblk4 V c 4 t) (iblk4 V c 5 t) (ix2 p q)
      = ∑ p : Fin 5000, atRow (fun r : Fin 50000 => pre4 V c (ix2 r q)) (t.val * 5000 + p.val) :=
  Finset.sum_congr rfl fun p _ => (blockAt4 V c t p q).trans (atRow_of_lt (fun r : Fin 50000 => pre4 V c (ix2 r q)) _ (rowOf4 t p).isLt).symm

/-- The same for the squares. -/
theorem blockSumSq4 (c : Dev nD) (t : Fin cfg4.N) (q : Fin 128) :
    ∑ p : Fin 5000, (mulf (h4 (F := Ideal) (iblk4 V c 0 t) (iblk4 V c 1 t) (iblk4 V c 2 t) (iblk4 V c 3 t) (iblk4 V c 4 t) (iblk4 V c 5 t)) (h4 (F := Ideal) (iblk4 V c 0 t) (iblk4 V c 1 t) (iblk4 V c 2 t) (iblk4 V c 3 t) (iblk4 V c 4 t) (iblk4 V c 5 t)) : FVec Ideal S5000x128 .f32) (ix2 p q)
      = ∑ p : Fin 5000, atRow (fun r : Fin 50000 => pre4 V c (ix2 r q) * pre4 V c (ix2 r q)) (t.val * 5000 + p.val) :=
  Finset.sum_congr rfl fun p _ => by
    rw [mulf_apply, blockAt4 V c t p q]
    exact (atRow_of_lt (fun r : Fin 50000 => pre4 V c (ix2 r q) * pre4 V c (ix2 r q)) _ (rowOf4 t p).isLt).symm

/-- The first accumulator after point `n`, at column `q`: the array's column summed over the rows of blocks `0 … n`. -/
theorem accAt4_fst (c : Dev nD) (q : Fin 128) : ∀ (n : ℕ) (hn : n < cfg4.N),
    (accAt4 V c n hn).1 (ix2 (0 : Fin 1) q) = ∑ i : Fin (n + 1), ∑ p : Fin 5000, atRow (fun r : Fin 50000 => pre4 V c (ix2 r q)) (i.val * 5000 + p.val)
  | 0, hn => by
    show acc4_0 (F := Ideal) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (k4_pay3 (F := Ideal)) (ix2 (0 : Fin 1) q) = _
    rw [acc4_0_eq, accStep_apply, zero4_0, zeroRow_apply, blockSum4 V c ⟨0, hn⟩ q]
    exact ((Fin.sum_univ_castSucc (fun i : Fin (0 + 1) => ∑ p : Fin 5000, atRow (fun r : Fin 50000 => pre4 V c (ix2 r q)) (i.val * 5000 + p.val))).trans
      (congrArg (· + _) Finset.sum_empty)).symm
  | n + 1, hn => by
    show acc4_0 (F := Ideal) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (accAt4 V c n (Nat.lt_of_succ_lt hn)).1 (ix2 (0 : Fin 1) q) = _
    rw [acc4_0_eq, accStep_apply, accAt4_fst c q n (Nat.lt_of_succ_lt hn), blockSum4 V c ⟨n + 1, hn⟩ q]
    exact (Fin.sum_univ_castSucc (fun i : Fin (n + 1 + 1) => ∑ p : Fin 5000, atRow (fun r : Fin 50000 => pre4 V c (ix2 r q)) (i.val * 5000 + p.val))).symm

/-- The second accumulator after point `n`, at column `q`: the squares of the array's column summed over those rows. -/
theorem accAt4_snd (c : Dev nD) (q : Fin 128) : ∀ (n : ℕ) (hn : n < cfg4.N),
    (accAt4 V c n hn).2 (ix2 (0 : Fin 1) q) = ∑ i : Fin (n + 1), ∑ p : Fin 5000, atRow (fun r : Fin 50000 => pre4 V c (ix2 r q) * pre4 V c (ix2 r q)) (i.val * 5000 + p.val)
  | 0, hn => by
    show acc4_1 (F := Ideal) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (k4_pay4 (F := Ideal)) (ix2 (0 : Fin 1) q) = _
    rw [acc4_1_eq, accStep_apply, zero4_1, zeroRow_apply, blockSumSq4 V c ⟨0, hn⟩ q]
    exact ((Fin.sum_univ_castSucc (fun i : Fin (0 + 1) => ∑ p : Fin 5000, atRow (fun r : Fin 50000 => pre4 V c (ix2 r q) * pre4 V c (ix2 r q)) (i.val * 5000 + p.val))).trans
      (congrArg (· + _) Finset.sum_empty)).symm
  | n + 1, hn => by
    show acc4_1 (F := Ideal) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (accAt4 V c n (Nat.lt_of_succ_lt hn)).2 (ix2 (0 : Fin 1) q) = _
    rw [acc4_1_eq, accStep_apply, accAt4_snd c q n (Nat.lt_of_succ_lt hn), blockSumSq4 V c ⟨n + 1, hn⟩ q]
    exact (Fin.sum_univ_castSucc (fun i : Fin (n + 1 + 1) => ∑ p : Fin 5000, atRow (fun r : Fin 50000 => pre4 V c (ix2 r q) * pre4 V c (ix2 r q)) (i.val * 5000 + p.val))).symm

/-- The column sums of the MLP of the whole arrays, as a `[1,128]` row. -/
def colSum4 (c : Dev nD) : FVec Ideal S1x128 .f32 := fun i => ∑ r : Fin 50000, pre4 V c (ix2 r (i 1))
/-- The column sums of its squares. -/
def colSumSq4 (c : Dev nD) : FVec Ideal S1x128 .f32 := fun i => ∑ r : Fin 50000, pre4 V c (ix2 r (i 1)) * pre4 V c (ix2 r (i 1))

theorem colSum4_apply (c : Dev nD) (q : Fin 128) : colSum4 V c (ix2 (0 : Fin 1) q) = ∑ r : Fin 50000, pre4 V c (ix2 r q) := rfl
theorem colSumSq4_apply (c : Dev nD) (q : Fin 128) : colSumSq4 V c (ix2 (0 : Fin 1) q) = ∑ r : Fin 50000, pre4 V c (ix2 r q) * pre4 V c (ix2 r q) := rfl

/-- After the last point the accumulators hold the sums over all rows. -/
theorem accLast4_fst (c : Dev nD) (hn : 9 < cfg4.N) (q : Fin 128) : (accAt4 V c 9 hn).1 (ix2 (0 : Fin 1) q) = colSum4 V c (ix2 (0 : Fin 1) q) :=
  (accAt4_fst V c q 9 hn).trans (sum_blocks_rows (fun r : Fin 50000 => pre4 V c (ix2 r q)))
theorem accLast4_snd (c : Dev nD) (hn : 9 < cfg4.N) (q : Fin 128) : (accAt4 V c 9 hn).2 (ix2 (0 : Fin 1) q) = colSumSq4 V c (ix2 (0 : Fin 1) q) :=
  (accAt4_snd V c q 9 hn).trans (sum_blocks_rows (fun r : Fin 50000 => pre4 V c (ix2 r q) * pre4 V c (ix2 r q)))

/-! ## Outputs 7 and 8: written once, at the last point -/

theorem emb4_7 (t : Fin cfg4.N) (q : Fin 128) :
    ((cfg4.win 7).blk t).view.emb (ix2 (0 : Fin 1) q) = ix2 (0 : Fin 1) q := by
  obtain ⟨e00, e01, e10, e11, e20, e21, e30, e31, e40, e41, e50, e51, e60, e61, e70, e71, e80, e81⟩ := idx_facts4 t
  funext ax; apply Fin.ext
  match ax with
  | ⟨0, _⟩ => show win4_7.index t (0 : Fin 2) * 1 + 1 * 0 = 0; omega
  | ⟨1, _⟩ => show win4_7.index t (1 : Fin 2) * 128 + 1 * q.val = q.val; omega

/-- A `[1,128]` row handed to window 7's write-back agrees with a `[1,128]` array read through the window's one block as
    soon as the two agree column by column. -/
theorem flushedRow4_7 (t : Fin cfg4.N) (X G : FVec Ideal S1x128 .f32) (h : ∀ q : Fin 128, X (ix2 (0 : Fin 1) q) = G (ix2 (0 : Fin 1) q)) :
    (cfg4.win 7).cut (grid4.coords t) X = ((cfg4.win 7).blk t).view.read (Elt Ideal) G := by
  funext j
  obtain ⟨u, q, rfl⟩ : ∃ (u : Fin 1) (q : Fin 128), j = ix2 u q := ⟨j 0, j 1, eq_ix2 j⟩
  obtain rfl : u = 0 := Subsingleton.elim _ _
  show X (ix2 (0 : Fin 1) q) = G (((cfg4.win 7).blk t).view.emb (ix2 (0 : Fin 1) q))
  rw [emb4_7 t q]; exact h q

theorem flushed4_7_eq (c : Dev nD) (t : Fin cfg4.N) (hf : (cfg4.win 7).flush t = true) :
    (dat4 V c).flushed 7 t = ((cfg4.win 7).blk t).view.read (Elt Ideal) (colSum4 V c) := by
  have h9 : t.val = 9 := by
    have h1 := (flush4_7 t).mp hf
    have h2 := lt_of_lt_of_eq t.isLt (show cfg4.N = 10 from N_4)
    omega
  show (cfg4.win 7).cut (grid4.coords t) ((dat4 V c).after 7 t) = _
  rw [after4_7]
  refine flushedRow4_7 t _ _ fun q => ?_
  obtain ⟨n, hn⟩ := t
  obtain rfl : n = 9 := h9
  exact accLast4_fst V c hn q

theorem covered4_7 (i : S1x128.Idx) :
    ∃ t : Fin cfg4.N, (cfg4.win 7).flush t = true ∧ i ∈ ((cfg4.win 7).blk t).view.set := by
  have hi0 : (i 0).val < 1 := (i 0).isLt
  have hi1 : (i 1).val < 128 := (i 1).isLt
  have hN : cfg4.N = 10 := N_4
  let t : Fin cfg4.N := ⟨9, by rw [hN]; omega⟩
  obtain ⟨e00, e01, e10, e11, e20, e21, e30, e31, e40, e41, e50, e51, e60, e61, e70, e71, e80, e81⟩ := idx_facts4 t
  refine ⟨t, (flush4_7 t).mpr rfl, ?_⟩
  show i ∈ ((View.whole (Pipeline.arrRef spec4 7)).slice (win4_7.rect t)).set
  rw [View.set_slice_whole, Rect.mem_set_unit]
  intro a
  match a with
  | ⟨0, _⟩ => show win4_7.index t (0 : Fin 2) * 1 ≤ (i 0).val ∧ (i 0).val < win4_7.index t (0 : Fin 2) * 1 + 1; omega
  | ⟨1, _⟩ => show win4_7.index t (1 : Fin 2) * 128 ≤ (i 1).val ∧ (i 1).val < win4_7.index t (1 : Fin 2) * 128 + 128; omega

/-- OUTPUT 7 after the region: the column sums of the MLP of the arrays the region was entered with. -/
theorem final4_7 (c : Dev nD) : (dat4 V c).arrAt 7 cfg4.N = colSum4 V c :=
  (dat4 V c).arrAt_eq_of_cover 7 (colSum4 V c) (fun t hf => flushed4_7_eq V c t hf) covered4_7

theorem emb4_8 (t : Fin cfg4.N) (q : Fin 128) :
    ((cfg4.win 8).blk t).view.emb (ix2 (0 : Fin 1) q) = ix2 (0 : Fin 1) q := by
  obtain ⟨e00, e01, e10, e11, e20, e21, e30, e31, e40, e41, e50, e51, e60, e61, e70, e71, e80, e81⟩ := idx_facts4 t
  funext ax; apply Fin.ext
  match ax with
  | ⟨0, _⟩ => show win4_8.index t (0 : Fin 2) * 1 + 1 * 0 = 0; omega
  | ⟨1, _⟩ => show win4_8.index t (1 : Fin 2) * 128 + 1 * q.val = q.val; omega

/-- A `[1,128]` row handed to window 8's write-back agrees with a `[1,128]` array read through the window's one block as
    soon as the two agree column by column. -/
theorem flushedRow4_8 (t : Fin cfg4.N) (X G : FVec Ideal S1x128 .f32) (h : ∀ q : Fin 128, X (ix2 (0 : Fin 1) q) = G (ix2 (0 : Fin 1) q)) :
    (cfg4.win 8).cut (grid4.coords t) X = ((cfg4.win 8).blk t).view.read (Elt Ideal) G := by
  funext j
  obtain ⟨u, q, rfl⟩ : ∃ (u : Fin 1) (q : Fin 128), j = ix2 u q := ⟨j 0, j 1, eq_ix2 j⟩
  obtain rfl : u = 0 := Subsingleton.elim _ _
  show X (ix2 (0 : Fin 1) q) = G (((cfg4.win 8).blk t).view.emb (ix2 (0 : Fin 1) q))
  rw [emb4_8 t q]; exact h q

theorem flushed4_8_eq (c : Dev nD) (t : Fin cfg4.N) (hf : (cfg4.win 8).flush t = true) :
    (dat4 V c).flushed 8 t = ((cfg4.win 8).blk t).view.read (Elt Ideal) (colSumSq4 V c) := by
  have h9 : t.val = 9 := by
    have h1 := (flush4_8 t).mp hf
    have h2 := lt_of_lt_of_eq t.isLt (show cfg4.N = 10 from N_4)
    omega
  show (cfg4.win 8).cut (grid4.coords t) ((dat4 V c).after 8 t) = _
  rw [after4_8]
  refine flushedRow4_8 t _ _ fun q => ?_
  obtain ⟨n, hn⟩ := t
  obtain rfl : n = 9 := h9
  exact accLast4_snd V c hn q

theorem covered4_8 (i : S1x128.Idx) :
    ∃ t : Fin cfg4.N, (cfg4.win 8).flush t = true ∧ i ∈ ((cfg4.win 8).blk t).view.set := by
  have hi0 : (i 0).val < 1 := (i 0).isLt
  have hi1 : (i 1).val < 128 := (i 1).isLt
  have hN : cfg4.N = 10 := N_4
  let t : Fin cfg4.N := ⟨9, by rw [hN]; omega⟩
  obtain ⟨e00, e01, e10, e11, e20, e21, e30, e31, e40, e41, e50, e51, e60, e61, e70, e71, e80, e81⟩ := idx_facts4 t
  refine ⟨t, (flush4_8 t).mpr rfl, ?_⟩
  show i ∈ ((View.whole (Pipeline.arrRef spec4 8)).slice (win4_8.rect t)).set
  rw [View.set_slice_whole, Rect.mem_set_unit]
  intro a
  match a with
  | ⟨0, _⟩ => show win4_8.index t (0 : Fin 2) * 1 ≤ (i 0).val ∧ (i 0).val < win4_8.index t (0 : Fin 2) * 1 + 1; omega
  | ⟨1, _⟩ => show win4_8.index t (1 : Fin 2) * 128 ≤ (i 1).val ∧ (i 1).val < win4_8.index t (1 : Fin 2) * 128 + 128; omega

/-- OUTPUT 8 after the region: the column sums of the squares of the MLP of the arrays the region was entered with. -/
theorem final4_8 (c : Dev nD) : (dat4 V c).arrAt 8 cfg4.N = colSumSq4 V c :=
  (dat4 V c).arrAt_eq_of_cover 8 (colSumSq4 V c) (fun t hf => flushed4_8_eq V c t hf) covered4_8

end Cert.KernelIdeal.Reg

end
-- ==== Proof.KernelIdeal.Bn5Value.lean ====
/- Region 5 of @main (the batch-norm apply kernel), read as a value at the ideal instance: after the region the
   output array is, index by index, `(h_pre − mean) · inv_std · gamma + beta` of the five arrays the region was
   entered with. The stored tile at an index; each input block read at an index as the array at the index the
   output's tile has there; each point's write-back as a block of that one whole-array function; the ten tiles cover
   the 50000 rows; hence the array. -/
import proofs.«139862_j28269474742473_1_alg».proof.Proof.KernelIdeal.Bn5
import proofs.«139862_j28269474742473_1_alg».proof.Proof.KernelIdeal.BnApply
import Idealize.ShloMosaic.Lib.Pipeline.Value
import Idealize.ShloMosaic.Lib.ValueIdx
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

-- the TensorCore's buffer contents when the region is entered, at the ideal instance
variable (V : (c : Dev nD) → (b : Ref sig .tc) → Buf (Elt Ideal) ((c : Thread nD τ).loc b))

/-- The stored tile at `(p, q)`: the tile of `h_pre` there, less the mean row, times the two scale rows, plus the
    shift row, each row read at lane `q`. -/
theorem bnPay5_apply (x0 : FVec Ideal S5000x128 .f32) (x1 x2 x3 x4 : FVec Ideal S1x128 .f32) (p : Fin 5000) (q : Fin 128) :
    k5_pay1 x0 x1 x2 x3 x4 (ix2 p q)
      = (x0 (ix2 p q) - x1 (ix2 (0 : Fin 1) q)) * x2 (ix2 (0 : Fin 1) q) * x3 (ix2 (0 : Fin 1) q) + x4 (ix2 (0 : Fin 1) q) := by
  unfold k5_pay1
  simp only [shapeCast_self]
  rw [addf_apply, mulf_apply, mulf_apply, subf_apply, bcastRow_apply, bcastRow_apply, bcastRow_apply, bcastRow_apply]

/-- The printed index maps, decided over the grid: the tile of `h_pre` moves with the output's tile; the four rows
    stay at block (0,0); the output's tile index is (row tile, 0). -/
theorem idx_facts5 : ∀ t : Fin cfg5.N, win5_0.index t (0 : Fin 2) = win5_5.index t (0 : Fin 2)
    ∧ win5_0.index t (1 : Fin 2) = win5_5.index t (1 : Fin 2)
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) ≤ 9 ∧ win5_5.index t (1 : Fin 2) = 0 :=
  (by decide +kernel : ∀ t : Fin grid5.N, _)

/-- Every row tile is some point's. -/
theorem idx_onto5 : ∀ (q0 : Fin 10), ∃ t : Fin cfg5.N, win5_5.index t = ![q0.val, 0] :=
  (by decide +kernel : ∀ (q0 : Fin 10), ∃ t : Fin grid5.N, win5_5.index t = ![q0.val, 0])

/-! ## Each input block, read at an index, is its array at the index the output's tile has there -/

/-- The tile of `h_pre` sits where the output's tile sits. -/
theorem embTile5 (t : Fin cfg5.N) (p : Fin 5000) (q : Fin 128) :
    ((cfg5.win 0).blk t).view.emb (ix2 p q) = (((cfg5.win 5).blk t).view.emb (ix2 p q)) := by
  obtain ⟨e0, e1, e2, e3, e4, e5, e6, e7, e8, e9, e10, e11⟩ := idx_facts5 t
  funext a; apply Fin.ext
  match a with
  | ⟨0, _⟩ => show win5_0.index t (0 : Fin 2) * 5000 + 1 * p.val = win5_5.index t (0 : Fin 2) * 5000 + 1 * p.val; omega
  | ⟨1, _⟩ => show win5_0.index t (1 : Fin 2) * 128 + 1 * q.val = win5_5.index t (1 : Fin 2) * 128 + 1 * q.val; omega

theorem tileAt5 (c : Dev nD) (t : Fin cfg5.N) (p : Fin 5000) (q : Fin 128) :
    iblk5 V c 0 t (ix2 p q) = V c (Pipeline.arrRef spec5 0) (((cfg5.win 5).blk t).view.emb (ix2 p q)) :=
  (show iblk5 V c 0 t (ix2 p q) = V c (Pipeline.arrRef spec5 0) (((cfg5.win 0).blk t).view.emb (ix2 p q)) from rfl).trans
    (congrArg (V c (Pipeline.arrRef spec5 0)) (embTile5 t p q))

/-- Row window 1's block is the whole row: lane `q` of the block is lane `q` of the array, the lane the output's tile has there. -/
theorem embRow5_1 (t : Fin cfg5.N) (p : Fin 5000) (q : Fin 128) :
    ((cfg5.win 1).blk t).view.emb (ix2 (0 : Fin 1) q) = ix2 (0 : Fin 1) ((((cfg5.win 5).blk t).view.emb (ix2 p q)) 1) := by
  obtain ⟨e0, e1, e2, e3, e4, e5, e6, e7, e8, e9, e10, e11⟩ := idx_facts5 t
  funext a; apply Fin.ext
  match a with
  | ⟨0, _⟩ => show win5_1.index t (0 : Fin 2) * 1 + 1 * 0 = 0; omega
  | ⟨1, _⟩ => show win5_1.index t (1 : Fin 2) * 128 + 1 * q.val = win5_5.index t (1 : Fin 2) * 128 + 1 * q.val; omega

theorem rowAt5_1 (c : Dev nD) (t : Fin cfg5.N) (p : Fin 5000) (q : Fin 128) :
    iblk5 V c 1 t (ix2 (0 : Fin 1) q) = V c (Pipeline.arrRef spec5 1) (ix2 (0 : Fin 1) ((((cfg5.win 5).blk t).view.emb (ix2 p q)) 1)) :=
  (show iblk5 V c 1 t (ix2 (0 : Fin 1) q) = V c (Pipeline.arrRef spec5 1) (((cfg5.win 1).blk t).view.emb (ix2 (0 : Fin 1) q)) from rfl).trans
    (congrArg (V c (Pipeline.arrRef spec5 1)) (embRow5_1 t p q))

/-- Row window 2's block is the whole row: lane `q` of the block is lane `q` of the array, the lane the output's tile has there. -/
theorem embRow5_2 (t : Fin cfg5.N) (p : Fin 5000) (q : Fin 128) :
    ((cfg5.win 2).blk t).view.emb (ix2 (0 : Fin 1) q) = ix2 (0 : Fin 1) ((((cfg5.win 5).blk t).view.emb (ix2 p q)) 1) := by
  obtain ⟨e0, e1, e2, e3, e4, e5, e6, e7, e8, e9, e10, e11⟩ := idx_facts5 t
  funext a; apply Fin.ext
  match a with
  | ⟨0, _⟩ => show win5_2.index t (0 : Fin 2) * 1 + 1 * 0 = 0; omega
  | ⟨1, _⟩ => show win5_2.index t (1 : Fin 2) * 128 + 1 * q.val = win5_5.index t (1 : Fin 2) * 128 + 1 * q.val; omega

theorem rowAt5_2 (c : Dev nD) (t : Fin cfg5.N) (p : Fin 5000) (q : Fin 128) :
    iblk5 V c 2 t (ix2 (0 : Fin 1) q) = V c (Pipeline.arrRef spec5 2) (ix2 (0 : Fin 1) ((((cfg5.win 5).blk t).view.emb (ix2 p q)) 1)) :=
  (show iblk5 V c 2 t (ix2 (0 : Fin 1) q) = V c (Pipeline.arrRef spec5 2) (((cfg5.win 2).blk t).view.emb (ix2 (0 : Fin 1) q)) from rfl).trans
    (congrArg (V c (Pipeline.arrRef spec5 2)) (embRow5_2 t p q))

/-- Row window 3's block is the whole row: lane `q` of the block is lane `q` of the array, the lane the output's tile has there. -/
theorem embRow5_3 (t : Fin cfg5.N) (p : Fin 5000) (q : Fin 128) :
    ((cfg5.win 3).blk t).view.emb (ix2 (0 : Fin 1) q) = ix2 (0 : Fin 1) ((((cfg5.win 5).blk t).view.emb (ix2 p q)) 1) := by
  obtain ⟨e0, e1, e2, e3, e4, e5, e6, e7, e8, e9, e10, e11⟩ := idx_facts5 t
  funext a; apply Fin.ext
  match a with
  | ⟨0, _⟩ => show win5_3.index t (0 : Fin 2) * 1 + 1 * 0 = 0; omega
  | ⟨1, _⟩ => show win5_3.index t (1 : Fin 2) * 128 + 1 * q.val = win5_5.index t (1 : Fin 2) * 128 + 1 * q.val; omega

theorem rowAt5_3 (c : Dev nD) (t : Fin cfg5.N) (p : Fin 5000) (q : Fin 128) :
    iblk5 V c 3 t (ix2 (0 : Fin 1) q) = V c (Pipeline.arrRef spec5 3) (ix2 (0 : Fin 1) ((((cfg5.win 5).blk t).view.emb (ix2 p q)) 1)) :=
  (show iblk5 V c 3 t (ix2 (0 : Fin 1) q) = V c (Pipeline.arrRef spec5 3) (((cfg5.win 3).blk t).view.emb (ix2 (0 : Fin 1) q)) from rfl).trans
    (congrArg (V c (Pipeline.arrRef spec5 3)) (embRow5_3 t p q))

/-- Row window 4's block is the whole row: lane `q` of the block is lane `q` of the array, the lane the output's tile has there. -/
theorem embRow5_4 (t : Fin cfg5.N) (p : Fin 5000) (q : Fin 128) :
    ((cfg5.win 4).blk t).view.emb (ix2 (0 : Fin 1) q) = ix2 (0 : Fin 1) ((((cfg5.win 5).blk t).view.emb (ix2 p q)) 1) := by
  obtain ⟨e0, e1, e2, e3, e4, e5, e6, e7, e8, e9, e10, e11⟩ := idx_facts5 t
  funext a; apply Fin.ext
  match a with
  | ⟨0, _⟩ => show win5_4.index t (0 : Fin 2) * 1 + 1 * 0 = 0; omega
  | ⟨1, _⟩ => show win5_4.index t (1 : Fin 2) * 128 + 1 * q.val = win5_5.index t (1 : Fin 2) * 128 + 1 * q.val; omega

theorem rowAt5_4 (c : Dev nD) (t : Fin cfg5.N) (p : Fin 5000) (q : Fin 128) :
    iblk5 V c 4 t (ix2 (0 : Fin 1) q) = V c (Pipeline.arrRef spec5 4) (ix2 (0 : Fin 1) ((((cfg5.win 5).blk t).view.emb (ix2 p q)) 1)) :=
  (show iblk5 V c 4 t (ix2 (0 : Fin 1) q) = V c (Pipeline.arrRef spec5 4) (((cfg5.win 4).blk t).view.emb (ix2 (0 : Fin 1) q)) from rfl).trans
    (congrArg (V c (Pipeline.arrRef spec5 4)) (embRow5_4 t p q))

/-! ## From blocks to the array -/

set_option maxHeartbeats 400000 in
/-- What point `t` writes back is block `t` of `bnApply` of the five arrays as the region finds them. -/
theorem flushed5_5_eq (c : Dev nD) (t : Fin cfg5.N) :
    (dat5 V c).flushed 5 t = ((cfg5.win 5).blk t).view.read (Elt Ideal) (bnApply (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 V c).after 5 t) = _
  rw [after5_5]
  unfold out5_5
  rw [View.canon_unit_zero origin2]
  simp only [View.ld_unit_zero (S := S5000x128) origin2, View.ld_unit_zero (S := S1x128) origin2]
  funext j
  obtain ⟨p, q, rfl⟩ : ∃ (p : Fin 5000) (q : Fin 128), j = ix2 p q := ⟨j 0, j 1, eq_ix2 j⟩
  show k5_pay1 (iblk5 V c 0 t) (iblk5 V c 1 t) (iblk5 V c 2 t) (iblk5 V c 3 t) (iblk5 V c 4 t) (ix2 p q)
    = bnApply (V c (Pipeline.arrRef spec5 0)) (V c (Pipeline.arrRef spec5 1)) (V c (Pipeline.arrRef spec5 2)) (V c (Pipeline.arrRef spec5 3)) (V c (Pipeline.arrRef spec5 4)) (((cfg5.win 5).blk t).view.emb (ix2 p q))
  rw [bnPay5_apply, tileAt5 V c t p q, rowAt5_1 V c t p q, rowAt5_2 V c t p q, rowAt5_3 V c t p q, rowAt5_4 V c t p q]
  rfl

/-- An index of the array is in point `t`'s block iff each coordinate is in the block's range on its axis. -/
theorem mem_blk5_5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v114).slice (win5_5.rect t)).set ↔ _
  rw [View.set_slice_whole, Rect.mem_set_unit]
  exact Iff.rfl

/-- The ten tiles cover the array: row `r` is in the block of the point whose tile index is `r / 5000`. -/
theorem covered5_5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  obtain ⟨t, ht⟩ := idx_onto5 ⟨(i 0).val / 5000, by omega⟩
  have q0 : win5_5.index t (0 : Fin 2) = (i 0).val / 5000 := congrFun ht 0
  have q1 : win5_5.index t (1 : Fin 2) = 0 := congrFun ht 1
  refine ⟨t, flush5_5 t, ?_⟩
  rw [mem_blk5_5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- THE ARRAY after the region: `bnApply` of the five arrays the region was entered with. -/
theorem final5_5 (c : Dev nD) : (dat5 V c).arrAt 5 cfg5.N = bnApply (V c (Pipeline.arrRef spec5 0)) (V c (Pipeline.arrRef spec5 1)) (V c (Pipeline.arrRef spec5 2)) (V c (Pipeline.arrRef spec5 3)) (V c (Pipeline.arrRef spec5 4)) :=
  (dat5 V c).arrAt_eq_of_cover 5 (bnApply (V c (Pipeline.arrRef spec5 0)) (V c (Pipeline.arrRef spec5 1)) (V c (Pipeline.arrRef spec5 2)) (V c (Pipeline.arrRef spec5 3)) (V c (Pipeline.arrRef spec5 4))) (fun t _ => flushed5_5_eq V c t) (covered5_5)

end Cert.KernelIdeal.Reg

end
-- ==== Proof.KernelIdeal.Host4.lean ====
/- The host stretch before layer 2's MLP-statistics region, read at the ideal instance from any contents `W`: the
   neighbourhood aggregation of the layer's input features, and the layer's slices of the stacked parameters (two
   weight matrices, two biases, the scale and the shift), each at an index. -/
import proofs.«139862_j28269474742473_1_alg».proof.Proof.Gen.KernelIdeal.Launch
import proofs.«139862_j28269474742473_1_alg».proof.Proof.Gen.KernelIdeal.Regions
import proofs.«139862_j28269474742473_1_alg».proof.Proof.KernelIdeal.HostLayout
import Idealize.ShloMosaic.Lib.StableHlo.Run
import Idealize.ShloMosaic.Lib.ValueLayout

noncomputable section

namespace Cert.KernelIdeal.Reg

open Cert.KernelIdeal Cert.KernelIdeal.Gen
open Idealize.ShloMosaic Idealize.ShloMosaic.TcCoe Idealize.ShloMosaic.ValueIdx Idealize.ShloMosaic.StableHlo

variable (W : Valuation τ sig (Elt Ideal))

set_option maxHeartbeats 1000000 in
/-- The aggregation operand as the stretch's operations: it reads the two edge rows the first stretch cut out. -/
theorem host4_agg_eq : (StableHlo.after hostOps4 W (Proc.devRef .tc main_v87) : FVec Ideal S50000x128 .f32)
    = Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 (W (Proc.devRef .tc main_v3) : IVec S800000 32))
        (Host.gather gather_S50000x128_S800000x1_S800000x128_1_0_n_n_0_1_1128 (W (Proc.devRef .tc main_v77) : FVec Ideal S50000x128 .f32)
          (broadcastInDim S800000x1 ![0] bcast_S800000_S800000x1_0
            (select (cmpi .slt (W (Proc.devRef .tc main_v1) : IVec S800000 32) (broadcastInDim S800000 ![] bcast_S_S800000 (constantI S_ 32 0#32)))
              (addi (W (Proc.devRef .tc main_v1) : IVec S800000 32) (broadcastInDim S800000 ![] bcast_S_S800000 (constantI S_ 32 50000#32)))
              (W (Proc.devRef .tc main_v1) : IVec S800000 32)))) := by
  after_results_simp <;> rfl

/-- When the two edge rows hold what the first stretch cut out of the edge list, the aggregation operand is the
    neighbourhood aggregation of the features the stretch finds. -/
theorem host4_agg (hsrc : (W (Proc.devRef .tc main_v1) : IVec S800000 32) = shapeCast S800000 (extractStridedSlice S1x800000 ![0, 0] (W (Proc.devRef .tc main_arg1) : IVec S2x800000 32) slices_S2x800000_S1x800000_0_0) shapeCasts_S1x800000_S800000)
    (hdst : (W (Proc.devRef .tc main_v3) : IVec S800000 32) = shapeCast S800000 (extractStridedSlice S1x800000 ![1, 0] (W (Proc.devRef .tc main_arg1) : IVec S2x800000 32) slices_S2x800000_S1x800000_1_0) shapeCasts_S1x800000_S800000) :
    (StableHlo.after hostOps4 W (Proc.devRef .tc main_v87) : FVec Ideal S50000x128 .f32) = Cert.Spec.Agg aggFacts (W (Proc.devRef .tc main_v77) : FVec Ideal S50000x128 .f32) (W (Proc.devRef .tc main_arg1) : IVec S2x800000 32) := by
  rw [host4_agg_eq W, hsrc, hdst]; rfl

/-- Layer 2's W1 operand as the stretch's operations of the stacked argument, and at an index. -/
theorem host4_W1_eq : (StableHlo.after hostOps4 W (Proc.devRef .tc main_v89) : FVec Ideal S128x128 .f32)
    = shapeCast S128x128 (extractStridedSlice S1x128x128 ![2, 0, 0] (W (Proc.devRef .tc main_arg3) : FVec Ideal S5x128x128 .f32) slices_S5x128x128_S1x128x128_2_0_0) shapeCasts_S1x128x128_S128x128 := by
  after_results <;> rfl
theorem host4_W1 (l k : Fin 128) : (StableHlo.after hostOps4 W (Proc.devRef .tc main_v89) : FVec Ideal S128x128 .f32) (ix2 l k) = (W (Proc.devRef .tc main_arg3) : FVec Ideal S5x128x128 .f32) (ix3 (2 : Fin 5) l k) := by
  rw [host4_W1_eq W]; exact layerMat_apply _ 2 _ _ (2 : Fin 5) rfl l k

/-- Layer 2's b1 operand as the stretch's operations of the stacked argument, and at an index. -/
theorem host4_b1_eq : (StableHlo.after hostOps4 W (Proc.devRef .tc main_v92) : FVec Ideal S1x128 .f32)
    = shapeCast S1x128 (shapeCast S128 (extractStridedSlice S1x128 ![2, 0] (W (Proc.devRef .tc main_arg4) : FVec Ideal S5x128 .f32) slices_S5x128_S1x128_2_0) shapeCasts_S1x128_S128) shapeCasts_S128_S1x128 := by
  after_results <;> rfl
theorem host4_b1 (k : Fin 128) : (StableHlo.after hostOps4 W (Proc.devRef .tc main_v92) : FVec Ideal S1x128 .f32) (ix2 (0 : Fin 1) k) = (W (Proc.devRef .tc main_arg4) : FVec Ideal S5x128 .f32) (ix2 (2 : Fin 5) k) := by
  rw [host4_b1_eq W]; exact layerRow_apply _ 2 _ _ _ (2 : Fin 5) rfl k

/-- Layer 2's W2 operand as the stretch's operations of the stacked argument, and at an index. -/
theorem host4_W2_eq : (StableHlo.after hostOps4 W (Proc.devRef .tc main_v94) : FVec Ideal S128x128 .f32)
    = shapeCast S128x128 (extractStridedSlice S1x128x128 ![2, 0, 0] (W (Proc.devRef .tc main_arg5) : FVec Ideal S5x128x128 .f32) slices_S5x128x128_S1x128x128_2_0_0) shapeCasts_S1x128x128_S128x128 := by
  after_results <;> rfl
theorem host4_W2 (l k : Fin 128) : (StableHlo.after hostOps4 W (Proc.devRef .tc main_v94) : FVec Ideal S128x128 .f32) (ix2 l k) = (W (Proc.devRef .tc main_arg5) : FVec Ideal S5x128x128 .f32) (ix3 (2 : Fin 5) l k) := by
  rw [host4_W2_eq W]; exact layerMat_apply _ 2 _ _ (2 : Fin 5) rfl l k

/-- Layer 2's b2 operand as the stretch's operations of the stacked argument, and at an index. -/
theorem host4_b2_eq : (StableHlo.after hostOps4 W (Proc.devRef .tc main_v97) : FVec Ideal S1x128 .f32)
    = shapeCast S1x128 (shapeCast S128 (extractStridedSlice S1x128 ![2, 0] (W (Proc.devRef .tc main_arg6) : FVec Ideal S5x128 .f32) slices_S5x128_S1x128_2_0) shapeCasts_S1x128_S128) shapeCasts_S128_S1x128 := by
  after_results <;> rfl
theorem host4_b2 (k : Fin 128) : (StableHlo.after hostOps4 W (Proc.devRef .tc main_v97) : FVec Ideal S1x128 .f32) (ix2 (0 : Fin 1) k) = (W (Proc.devRef .tc main_arg6) : FVec Ideal S5x128 .f32) (ix2 (2 : Fin 5) k) := by
  rw [host4_b2_eq W]; exact layerRow_apply _ 2 _ _ _ (2 : Fin 5) rfl k

/-- Layer 2's gamma operand as the stretch's operations of the stacked argument, and at an index. -/
theorem host4_gamma_eq : (StableHlo.after hostOps4 W (Proc.devRef .tc main_v100) : FVec Ideal S1x128 .f32)
    = shapeCast S1x128 (shapeCast S128 (extractStridedSlice S1x128 ![2, 0] (W (Proc.devRef .tc main_arg7) : FVec Ideal S5x128 .f32) slices_S5x128_S1x128_2_0) shapeCasts_S1x128_S128) shapeCasts_S128_S1x128 := by
  after_results <;> rfl
theorem host4_gamma (k : Fin 128) : (StableHlo.after hostOps4 W (Proc.devRef .tc main_v100) : FVec Ideal S1x128 .f32) (ix2 (0 : Fin 1) k) = (W (Proc.devRef .tc main_arg7) : FVec Ideal S5x128 .f32) (ix2 (2 : Fin 5) k) := by
  rw [host4_gamma_eq W]; exact layerRow_apply _ 2 _ _ _ (2 : Fin 5) rfl k

/-- Layer 2's beta operand as the stretch's operations of the stacked argument, and at an index. -/
theorem host4_beta_eq : (StableHlo.after hostOps4 W (Proc.devRef .tc main_v103) : FVec Ideal S1x128 .f32)
    = shapeCast S1x128 (shapeCast S128 (extractStridedSlice S1x128 ![2, 0] (W (Proc.devRef .tc main_arg8) : FVec Ideal S5x128 .f32) slices_S5x128_S1x128_2_0) shapeCasts_S1x128_S128) shapeCasts_S128_S1x128 := by
  after_results <;> rfl
theorem host4_beta (k : Fin 128) : (StableHlo.after hostOps4 W (Proc.devRef .tc main_v103) : FVec Ideal S1x128 .f32) (ix2 (0 : Fin 1) k) = (W (Proc.devRef .tc main_arg8) : FVec Ideal S5x128 .f32) (ix2 (2 : Fin 5) k) := by
  rw [host4_beta_eq W]; exact layerRow_apply _ 2 _ _ _ (2 : Fin 5) rfl k

/-- The stretch writes neither the features it reads nor the edge list. -/
theorem host4_keeps_h : StableHlo.after hostOps4 W (Proc.devRef .tc main_v77) = W (Proc.devRef .tc main_v77) :=
  StableHlo.after_of_writes_sub hostOps4 W hostOps4_writes (by decide)
theorem host4_keeps_edges : StableHlo.after hostOps4 W (Proc.devRef .tc main_arg1) = W (Proc.devRef .tc main_arg1) :=
  StableHlo.after_of_writes_sub hostOps4 W hostOps4_writes (by decide)
theorem host4_keeps_src : StableHlo.after hostOps4 W (Proc.devRef .tc main_v1) = W (Proc.devRef .tc main_v1) :=
  StableHlo.after_of_writes_sub hostOps4 W hostOps4_writes (by decide)
theorem host4_keeps_dst : StableHlo.after hostOps4 W (Proc.devRef .tc main_v3) = W (Proc.devRef .tc main_v3) :=
  StableHlo.after_of_writes_sub hostOps4 W hostOps4_writes (by decide)

end Cert.KernelIdeal.Reg

end
-- ==== Proof.KernelIdeal.Host5.lean ====
/- The host stretch between an MLP-statistics region and its batch-norm region, read at the ideal instance from any
   contents `W`: from the column sums and sums of squares it computes, lane by lane, the mean `sum / count` and the
   reciprocal standard deviation `rsqrt ((sumsq / count − mean · mean) + eps)`. -/
import proofs.«139862_j28269474742473_1_alg».proof.Proof.Gen.KernelIdeal.Launch
import proofs.«139862_j28269474742473_1_alg».proof.Proof.Gen.KernelIdeal.Regions
import proofs.«139862_j28269474742473_1_alg».proof.Proof.Spec
import Idealize.ShloMosaic.Lib.StableHlo.Run
import Idealize.ShloMosaic.Lib.IdealHost
import Idealize.ShloMosaic.Lib.ValueIdx

noncomputable section

namespace Cert.KernelIdeal.Reg

open Cert.KernelIdeal Cert.KernelIdeal.Gen
open Idealize.ShloMosaic Idealize.ShloMosaic.TcCoe Idealize.ShloMosaic.ValueIdx Idealize.ShloMosaic.StableHlo

variable (W : Valuation τ sig (Elt Ideal))

/-- The mean row as the stretch's operations of the sum row. -/
theorem host5_mean_eq : (StableHlo.after hostOps5 W (Proc.devRef .tc main_v106) : FVec Ideal S1x128 .f32) = Host.divf (W (Proc.devRef .tc main_v104_1) : FVec Ideal S1x128 .f32) (broadcastInDim S1x128 ![] bcast_S_S1x128 (constant (F := Ideal) S_ .f32 0x47435000#32)) := by
  after_results

/-- The mean row at lane `j`: the column sum divided by the node count. -/
theorem host5_mean (j : Fin 128) :
    (StableHlo.after hostOps5 W (Proc.devRef .tc main_v106) : FVec Ideal S1x128 .f32) (ix2 (0 : Fin 1) j) = Ideal.div ((W (Proc.devRef .tc main_v104_1) : FVec Ideal S1x128 .f32) (ix2 (0 : Fin 1) j)) Cert.Spec.count := by
  rw [host5_mean_eq W, hostDivf_apply, broadcastInDim_scalar_apply, constant_apply]; rfl

/-- The reciprocal-standard-deviation row as the stretch's operations of the two statistics rows. -/
theorem host5_istd_eq : (StableHlo.after hostOps5 W (Proc.devRef .tc main_v113) : FVec Ideal S1x128 .f32)
    = Host.rsqrt (addf (subf (Host.divf (W (Proc.devRef .tc main_v104_2) : FVec Ideal S1x128 .f32) (broadcastInDim S1x128 ![] bcast_S_S1x128 (constant (F := Ideal) S_ .f32 0x47435000#32)))
        (mulf (Host.divf (W (Proc.devRef .tc main_v104_1) : FVec Ideal S1x128 .f32) (broadcastInDim S1x128 ![] bcast_S_S1x128 (constant (F := Ideal) S_ .f32 0x47435000#32))) (Host.divf (W (Proc.devRef .tc main_v104_1) : FVec Ideal S1x128 .f32) (broadcastInDim S1x128 ![] bcast_S_S1x128 (constant (F := Ideal) S_ .f32 0x47435000#32))))) (broadcastInDim S1x128 ![] bcast_S_S1x128 (constant (F := Ideal) S_ .f32 0x3727C5AC#32))) := by
  after_results

/-- The reciprocal-standard-deviation row at lane `j`: `rsqrt ((sumsq / count − mean · mean) + eps)`. -/
theorem host5_istd (j : Fin 128) :
    (StableHlo.after hostOps5 W (Proc.devRef .tc main_v113) : FVec Ideal S1x128 .f32) (ix2 (0 : Fin 1) j)
      = Ideal.rsqrt ((Ideal.div ((W (Proc.devRef .tc main_v104_2) : FVec Ideal S1x128 .f32) (ix2 (0 : Fin 1) j)) Cert.Spec.count
          - Ideal.div ((W (Proc.devRef .tc main_v104_1) : FVec Ideal S1x128 .f32) (ix2 (0 : Fin 1) j)) Cert.Spec.count * Ideal.div ((W (Proc.devRef .tc main_v104_1) : FVec Ideal S1x128 .f32) (ix2 (0 : Fin 1) j)) Cert.Spec.count)
        + Cert.Spec.eps) := by
  rw [host5_istd_eq W]
  show Ideal.rsqrt (addf (subf (Host.divf (W (Proc.devRef .tc main_v104_2) : FVec Ideal S1x128 .f32) (broadcastInDim S1x128 ![] bcast_S_S1x128 (constant (F := Ideal) S_ .f32 0x47435000#32)))
        (mulf (Host.divf (W (Proc.devRef .tc main_v104_1) : FVec Ideal S1x128 .f32) (broadcastInDim S1x128 ![] bcast_S_S1x128 (constant (F := Ideal) S_ .f32 0x47435000#32))) (Host.divf (W (Proc.devRef .tc main_v104_1) : FVec Ideal S1x128 .f32) (broadcastInDim S1x128 ![] bcast_S_S1x128 (constant (F := Ideal) S_ .f32 0x47435000#32))))) (broadcastInDim S1x128 ![] bcast_S_S1x128 (constant (F := Ideal) S_ .f32 0x3727C5AC#32)) (ix2 (0 : Fin 1) j)) = _
  rw [addf_apply, subf_apply, mulf_apply, hostDivf_apply, hostDivf_apply, broadcastInDim_scalar_apply, broadcastInDim_scalar_apply, constant_apply, constant_apply]; rfl

/-- The stretch writes neither statistics row. -/
theorem host5_keeps_sum : StableHlo.after hostOps5 W (Proc.devRef .tc main_v104_1) = W (Proc.devRef .tc main_v104_1) :=
  StableHlo.after_of_writes_sub hostOps5 W hostOps5_writes (by decide)

end Cert.KernelIdeal.Reg

end
-- ==== Proof.KernelIdeal.Layer2.lean ====
/- Layer 2 of the kernel's program: its normalisation region ends with the one-pass layer of the
   specification applied to the features the layer was entered with. -/
import proofs.«139862_j28269474742473_1_alg».proof.Proof.KernelIdeal.Mlp4Value
import proofs.«139862_j28269474742473_1_alg».proof.Proof.KernelIdeal.Bn5Value
import proofs.«139862_j28269474742473_1_alg».proof.Proof.KernelIdeal.Host4
import proofs.«139862_j28269474742473_1_alg».proof.Proof.KernelIdeal.Host5
import proofs.«139862_j28269474742473_1_alg».proof.Proof.KernelIdeal.RunData
import proofs.«139862_j28269474742473_1_alg».proof.Proof.KernelIdeal.LayerGlue
import Idealize.ShloMosaic.Lib.StableHlo.Run
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.ShloMosaic.StableHlo
open Idealize.ShloMosaic.Pipeline (Dat)

variable (m : (ℓ : Loc nD τ sig) → Buf (Elt Ideal) ℓ)

set_option maxHeartbeats 1600000 in
/-- Layer 2: from the features `H` the layer is entered with and the argument arrays, the normalisation region leaves
    the one-pass layer of the specification. -/
theorem layer2 (c : Dev nD) (a : Cert.Spec.Args) (H : FVec Ideal S50000x128 .f32)
    (hh : (W8 m c (Proc.devRef .tc main_v77) : FVec Ideal S50000x128 .f32) = H)
    (he : (W8 m c (Proc.devRef .tc main_arg1) : IVec S2x800000 32) = a.e)
    (h3 : (W8 m c (Proc.devRef .tc main_arg3) : FVec Ideal S5x128x128 .f32) = a.W1) (h4 : (W8 m c (Proc.devRef .tc main_arg4) : FVec Ideal S5x128 .f32) = a.b1)
    (h5 : (W8 m c (Proc.devRef .tc main_arg5) : FVec Ideal S5x128x128 .f32) = a.W2) (h6 : (W8 m c (Proc.devRef .tc main_arg6) : FVec Ideal S5x128 .f32) = a.b2)
    (h7 : (W8 m c (Proc.devRef .tc main_arg7) : FVec Ideal S5x128 .f32) = a.gamma) (h8 : (W8 m c (Proc.devRef .tc main_arg8) : FVec Ideal S5x128 .f32) = a.beta)
    (hsrc : (W8 m c (Proc.devRef .tc main_v1) : IVec S800000 32) = shapeCast S800000 (extractStridedSlice S1x800000 ![0, 0] (W8 m c (Proc.devRef .tc main_arg1) : IVec S2x800000 32) slices_S2x800000_S1x800000_0_0) shapeCasts_S1x800000_S800000)
    (hdst : (W8 m c (Proc.devRef .tc main_v3) : IVec S800000 32) = shapeCast S800000 (extractStridedSlice S1x800000 ![1, 0] (W8 m c (Proc.devRef .tc main_arg1) : IVec S2x800000 32) slices_S2x800000_S1x800000_1_0) shapeCasts_S1x800000_S800000) :
    (W12 m c (Proc.devRef .tc main_v114) : FVec Ideal S50000x128 .f32) = Cert.Spec.stepOne aggFacts a (2 : Fin 5) H := by
  -- the first region's operands
  have e_h : (X4 m c main_v77 : FVec Ideal S50000x128 .f32) = H :=
    (StableHlo.after_of_writes_sub hostOps4 (W8 m c) hostOps4_writes (by decide)).trans hh
  have e_agg : (X4 m c main_v87 : FVec Ideal S50000x128 .f32) = Cert.Spec.Agg aggFacts H a.e := by
    rw [← hh, ← he]; exact host4_agg (W8 m c) hsrc hdst
  -- the rectified activations, as one function of the layer's operands
  have e_P : ∀ (r : Fin 50000) (q : Fin 128), pre4 (X4 m) c (ix2 r q)
      = Cert.Spec.pre (Cert.Spec.feat H) (Cert.Spec.feat (Cert.Spec.Agg aggFacts H a.e)) (Cert.Spec.wt a.W1 2) (Cert.Spec.vc a.b1 2) (Cert.Spec.wt a.W2 2) (Cert.Spec.vc a.b2 2) r q :=
    mlpRows_eq_pre _ _ _ _ _ _ H (Cert.Spec.Agg aggFacts H a.e) _ _ _ _ e_h e_agg
      (fun l k => (host4_W1 (W8 m c) l k).trans (congrFun h3 _)) (fun k => (host4_b1 (W8 m c) k).trans (congrFun h4 _))
      (fun l k => (host4_W2 (W8 m c) l k).trans (congrFun h5 _)) (fun k => (host4_b2 (W8 m c) k).trans (congrFun h6 _))
  -- what the statistics region leaves
  have e_pre : (W10 m c (Proc.devRef .tc main_v104_0) : FVec Ideal S50000x128 .f32) = pre4 (X4 m) c := (W10_arr m c 6).trans (final4_6 (X4 m) c)
  have e_sum : (W10 m c (Proc.devRef .tc main_v104_1) : FVec Ideal S1x128 .f32) = colSum4 (X4 m) c := (W10_arr m c 7).trans (final4_7 (X4 m) c)
  have e_sq : (W10 m c (Proc.devRef .tc main_v104_2) : FVec Ideal S1x128 .f32) = colSumSq4 (X4 m) c := (W10_arr m c 8).trans (final4_8 (X4 m) c)
  -- the normalisation region's operands
  have o_pre : (X5 m c main_v104_0 : FVec Ideal S50000x128 .f32) = pre4 (X4 m) c :=
    (StableHlo.after_of_writes_sub hostOps5 (W10 m c) hostOps5_writes (by decide)).trans e_pre
  have o_g : (X5 m c main_v100 : FVec Ideal S1x128 .f32) = (W9 m c (Proc.devRef .tc main_v100) : FVec Ideal S1x128 .f32) :=
    (StableHlo.after_of_writes_sub hostOps5 (W10 m c) hostOps5_writes (by decide)).trans (W10_of_ne m c main_v100 (by decide))
  have o_b : (X5 m c main_v103 : FVec Ideal S1x128 .f32) = (W9 m c (Proc.devRef .tc main_v103) : FVec Ideal S1x128 .f32) :=
    (StableHlo.after_of_writes_sub hostOps5 (W10 m c) hostOps5_writes (by decide)).trans (W10_of_ne m c main_v103 (by decide))
  -- the normalisation region's output
  refine ((W12_arr m c 5).trans (final5_5 (X5 m) c)).trans ?_
  refine bnApply_eq_stepOne aggFacts a (2 : Fin 5) H _ _ _ _ _ (W10 m c (Proc.devRef .tc main_v104_1)) (W10 m c (Proc.devRef .tc main_v104_2)) ?_ ?_ ?_ ?_ ?_ ?_ ?_
  · intro r q
    exact (congrFun o_pre (ix2 r q)).trans (e_P r q)
  · intro q
    exact (congrFun e_sum _).trans ((colSum4_apply (X4 m) c q).trans (Finset.sum_congr rfl fun r _ => (congrFun o_pre (ix2 r q)).symm))
  · intro q
    exact (congrFun e_sq _).trans ((colSumSq4_apply (X4 m) c q).trans (Finset.sum_congr rfl fun r _ => by rw [congrFun o_pre (ix2 r q)]))
  · intro q
    exact host5_mean (W10 m c) q
  · intro q
    exact host5_istd (W10 m c) q
  · intro q
    exact (congrFun o_g _).trans ((host4_gamma (W8 m c) q).trans (congrFun h7 _))
  · intro q
    exact (congrFun o_b _).trans ((host4_beta (W8 m c) q).trans (congrFun h8 _))

end Cert.KernelIdeal.Reg

end
-- ==== Proof.KernelIdeal.Mlp6Value.lean ====
import proofs.«139862_j28269474742473_1_alg».proof.Proof.KernelIdeal.Mlp6
import proofs.«139862_j28269474742473_1_alg».proof.Proof.KernelIdeal.MlpValue

/-! # The MLP region of layer 3 (custom_call 6): its three output arrays as functions of its six input arrays

Over the extended reals, with the arrays the region is entered at: output 6 ends holding the MLP of the rows of
the first two arrays with the four weight arrays (row block by row block: the ten blocks tile the 50000 rows);
output 7 the column sums of that array over all rows (the accumulator after the last point: zero plus the ten
blocks' column sums, in block order); output 8 the column sums of its squares. -/

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

-- the TensorCore's buffer contents when the region is entered, at the ideal instance
variable (V : (c : Dev nD) → (b : Ref sig .tc) → Buf (Elt Ideal) ((c : Thread nD τ).loc b))

/-! ## The payloads are the shared formulas -/

theorem h6_eq (x0 x1 : FVec Ideal S5000x128 .f32) (x2 : FVec Ideal S128x128 .f32) (x3 : FVec Ideal S1x128 .f32) (x4 : FVec Ideal S128x128 .f32) (x5 : FVec Ideal S1x128 .f32) :
    h6 (F := Ideal) x0 x1 x2 x3 x4 x5 = mlpRows x0 x1 x2 x3 x4 x5 :=
  (show h6 (F := Ideal) x0 x1 x2 x3 x4 x5 = mlpPayB x0 x1 x2 x3 x4 x5 from rfl).trans (mlpPayB_eq x0 x1 x2 x3 x4 x5)

theorem acc6_0_eq (x0 x1 : FVec Ideal S5000x128 .f32) (x2 : FVec Ideal S128x128 .f32) (x3 : FVec Ideal S1x128 .f32) (x4 : FVec Ideal S128x128 .f32) (x5 : FVec Ideal S1x128 .f32) (s : FVec Ideal S1x128 .f32) :
    acc6_0 (F := Ideal) x0 x1 x2 x3 x4 x5 s = accStep s (h6 (F := Ideal) x0 x1 x2 x3 x4 x5) := rfl

theorem acc6_1_eq (x0 x1 : FVec Ideal S5000x128 .f32) (x2 : FVec Ideal S128x128 .f32) (x3 : FVec Ideal S1x128 .f32) (x4 : FVec Ideal S128x128 .f32) (x5 : FVec Ideal S1x128 .f32) (s : FVec Ideal S1x128 .f32) :
    acc6_1 (F := Ideal) x0 x1 x2 x3 x4 x5 s = accStep s (mulf (h6 (F := Ideal) x0 x1 x2 x3 x4 x5) (h6 (F := Ideal) x0 x1 x2 x3 x4 x5)) := rfl

theorem zero6_0 : (k6_pay3 (F := Ideal)) = zeroRow := rfl
theorem zero6_1 : (k6_pay4 (F := Ideal)) = zeroRow := rfl

/-! ## The printed index maps, decided over the grid -/

/-- The two row windows and output 6 sit at block (point, 0); the four weight windows and the two statistics outputs
    at block (0, 0). -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0 :=
  (by decide +kernel : ∀ t : Fin grid6.N, _)

/-- Row `p` of point `t`'s block, as a row of the array. -/
def rowOf6 (t : Fin cfg6.N) (p : Fin 5000) : Fin 50000 :=
  ⟨t.val * 5000 + p.val, by have := lt_of_lt_of_eq t.isLt (show cfg6.N = 10 from N_6); have := p.isLt; omega⟩

/-! ## Each input block, read at an index, is its array there -/

theorem tileAt6_0 (c : Dev nD) (t : Fin cfg6.N) (p : Fin 5000) (l : Fin 128) :
    iblk6 V c 0 t (ix2 p l) = (V c (Pipeline.arrRef spec6 0)) (ix2 (rowOf6 t p) l) := by
  obtain ⟨e00, e01, e10, e11, e20, e21, e30, e31, e40, e41, e50, e51, e60, e61, e70, e71, e80, e81⟩ := idx_facts6 t
  refine (show iblk6 V c 0 t (ix2 p l) = (V c (Pipeline.arrRef spec6 0)) (((cfg6.win 0).blk t).view.emb (ix2 p l)) from rfl).trans (congrArg (V c (Pipeline.arrRef spec6 0)) ?_)
  funext ax; apply Fin.ext
  match ax with
  | ⟨0, _⟩ => show win6_0.index t (0 : Fin 2) * 5000 + 1 * p.val = t.val * 5000 + p.val; omega
  | ⟨1, _⟩ => show win6_0.index t (1 : Fin 2) * 128 + 1 * l.val = l.val; omega

theorem tileAt6_1 (c : Dev nD) (t : Fin cfg6.N) (p : Fin 5000) (l : Fin 128) :
    iblk6 V c 1 t (ix2 p l) = (V c (Pipeline.arrRef spec6 1)) (ix2 (rowOf6 t p) l) := by
  obtain ⟨e00, e01, e10, e11, e20, e21, e30, e31, e40, e41, e50, e51, e60, e61, e70, e71, e80, e81⟩ := idx_facts6 t
  refine (show iblk6 V c 1 t (ix2 p l) = (V c (Pipeline.arrRef spec6 1)) (((cfg6.win 1).blk t).view.emb (ix2 p l)) from rfl).trans (congrArg (V c (Pipeline.arrRef spec6 1)) ?_)
  funext ax; apply Fin.ext
  match ax with
  | ⟨0, _⟩ => show win6_1.index t (0 : Fin 2) * 5000 + 1 * p.val = t.val * 5000 + p.val; omega
  | ⟨1, _⟩ => show win6_1.index t (1 : Fin 2) * 128 + 1 * l.val = l.val; omega

theorem wholeAt6_2 (c : Dev nD) (t : Fin cfg6.N) (a : Fin 128) (b : Fin 128) :
    iblk6 V c 2 t (ix2 a b) = (V c (Pipeline.arrRef spec6 2)) (ix2 a b) := by
  obtain ⟨e00, e01, e10, e11, e20, e21, e30, e31, e40, e41, e50, e51, e60, e61, e70, e71, e80, e81⟩ := idx_facts6 t
  refine (show iblk6 V c 2 t (ix2 a b) = (V c (Pipeline.arrRef spec6 2)) (((cfg6.win 2).blk t).view.emb (ix2 a b)) from rfl).trans (congrArg (V c (Pipeline.arrRef spec6 2)) ?_)
  funext ax; apply Fin.ext
  match ax with
  | ⟨0, _⟩ => show win6_2.index t (0 : Fin 2) * 128 + 1 * a.val = a.val; omega
  | ⟨1, _⟩ => show win6_2.index t (1 : Fin 2) * 128 + 1 * b.val = b.val; omega

theorem wholeAt6_3 (c : Dev nD) (t : Fin cfg6.N) (a : Fin 1) (b : Fin 128) :
    iblk6 V c 3 t (ix2 a b) = (V c (Pipeline.arrRef spec6 3)) (ix2 a b) := by
  obtain ⟨e00, e01, e10, e11, e20, e21, e30, e31, e40, e41, e50, e51, e60, e61, e70, e71, e80, e81⟩ := idx_facts6 t
  refine (show iblk6 V c 3 t (ix2 a b) = (V c (Pipeline.arrRef spec6 3)) (((cfg6.win 3).blk t).view.emb (ix2 a b)) from rfl).trans (congrArg (V c (Pipeline.arrRef spec6 3)) ?_)
  funext ax; apply Fin.ext
  match ax with
  | ⟨0, _⟩ => show win6_3.index t (0 : Fin 2) * 1 + 1 * a.val = a.val; omega
  | ⟨1, _⟩ => show win6_3.index t (1 : Fin 2) * 128 + 1 * b.val = b.val; omega

theorem wholeAt6_4 (c : Dev nD) (t : Fin cfg6.N) (a : Fin 128) (b : Fin 128) :
    iblk6 V c 4 t (ix2 a b) = (V c (Pipeline.arrRef spec6 4)) (ix2 a b) := by
  obtain ⟨e00, e01, e10, e11, e20, e21, e30, e31, e40, e41, e50, e51, e60, e61, e70, e71, e80, e81⟩ := idx_facts6 t
  refine (show iblk6 V c 4 t (ix2 a b) = (V c (Pipeline.arrRef spec6 4)) (((cfg6.win 4).blk t).view.emb (ix2 a b)) from rfl).trans (congrArg (V c (Pipeline.arrRef spec6 4)) ?_)
  funext ax; apply Fin.ext
  match ax with
  | ⟨0, _⟩ => show win6_4.index t (0 : Fin 2) * 128 + 1 * a.val = a.val; omega
  | ⟨1, _⟩ => show win6_4.index t (1 : Fin 2) * 128 + 1 * b.val = b.val; omega

theorem wholeAt6_5 (c : Dev nD) (t : Fin cfg6.N) (a : Fin 1) (b : Fin 128) :
    iblk6 V c 5 t (ix2 a b) = (V c (Pipeline.arrRef spec6 5)) (ix2 a b) := by
  obtain ⟨e00, e01, e10, e11, e20, e21, e30, e31, e40, e41, e50, e51, e60, e61, e70, e71, e80, e81⟩ := idx_facts6 t
  refine (show iblk6 V c 5 t (ix2 a b) = (V c (Pipeline.arrRef spec6 5)) (((cfg6.win 5).blk t).view.emb (ix2 a b)) from rfl).trans (congrArg (V c (Pipeline.arrRef spec6 5)) ?_)
  funext ax; apply Fin.ext
  match ax with
  | ⟨0, _⟩ => show win6_5.index t (0 : Fin 2) * 1 + 1 * a.val = a.val; omega
  | ⟨1, _⟩ => show win6_5.index t (1 : Fin 2) * 128 + 1 * b.val = b.val; omega

/-- The MLP of the whole arrays the region is entered at. -/
abbrev pre6 (c : Dev nD) : FVec Ideal S50000x128 .f32 := mlpRows (n := 50000) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))

/-- The MLP's block at point `t`, at `(p, q)`: the MLP of the whole arrays at the block's row. -/
theorem blockAt6 (c : Dev nD) (t : Fin cfg6.N) (p : Fin 5000) (q : Fin 128) :
    h6 (F := Ideal) (iblk6 V c 0 t) (iblk6 V c 1 t) (iblk6 V c 2 t) (iblk6 V c 3 t) (iblk6 V c 4 t) (iblk6 V c 5 t) (ix2 p q) = pre6 V c (ix2 (rowOf6 t p) q) := by
  rw [h6_eq]
  show mlpRows (n := 5000) (iblk6 V c 0 t) (iblk6 V c 1 t) (iblk6 V c 2 t) (iblk6 V c 3 t) (iblk6 V c 4 t) (iblk6 V c 5 t) (ix2 p q) = mlpRows (n := 50000) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (ix2 (rowOf6 t p) q)
  rw [mlpRows_apply, mlpRows_apply]
  simp only [tileAt6_0 V c t, tileAt6_1 V c t, wholeAt6_2 V c t, wholeAt6_3 V c t, wholeAt6_4 V c t, wholeAt6_5 V c t]

/-! ## Output 6: from blocks to the array -/

/-- Output 6's block at point `t` sits at rows `5000 t …`. -/
theorem emb6_6 (t : Fin cfg6.N) (p : Fin 5000) (q : Fin 128) :
    ((cfg6.win 6).blk t).view.emb (ix2 p q) = ix2 (rowOf6 t p) q := by
  obtain ⟨e00, e01, e10, e11, e20, e21, e30, e31, e40, e41, e50, e51, e60, e61, e70, e71, e80, e81⟩ := idx_facts6 t
  funext ax; apply Fin.ext
  match ax with
  | ⟨0, _⟩ => show win6_6.index t (0 : Fin 2) * 5000 + 1 * p.val = t.val * 5000 + p.val; omega
  | ⟨1, _⟩ => show win6_6.index t (1 : Fin 2) * 128 + 1 * q.val = q.val; omega

set_option maxHeartbeats 400000 in
/-- What point `t` writes back is block `t` of the MLP of the whole arrays. -/
theorem flushed6_6_eq (c : Dev nD) (t : Fin cfg6.N) :
    (dat6 V c).flushed 6 t = ((cfg6.win 6).blk t).view.read (Elt Ideal) (pre6 V c) := by
  show (cfg6.win 6).cut (grid6.coords t) ((dat6 V c).after 6 t) = _
  rw [after6_6]
  funext j
  obtain ⟨p, q, rfl⟩ : ∃ (p : Fin 5000) (q : Fin 128), j = ix2 p q := ⟨j 0, j 1, eq_ix2 j⟩
  show h6 (F := Ideal) (iblk6 V c 0 t) (iblk6 V c 1 t) (iblk6 V c 2 t) (iblk6 V c 3 t) (iblk6 V c 4 t) (iblk6 V c 5 t) (ix2 p q) = pre6 V c (((cfg6.win 6).blk t).view.emb (ix2 p q))
  rw [emb6_6, blockAt6]

theorem mem_blk6_6 (t : Fin cfg6.N) (i : S50000x128.Idx) :
    i ∈ ((cfg6.win 6).blk t).view.set ↔ ∀ a : Fin 2, win6_6.index t a * S5000x128.size a ≤ (i a).val ∧ (i a).val < win6_6.index t a * S5000x128.size a + S5000x128.size a := by
  show i ∈ ((View.whole (Pipeline.arrRef spec6 6)).slice (win6_6.rect t)).set ↔ _
  rw [View.set_slice_whole, Rect.mem_set_unit]
  exact Iff.rfl

/-- The ten blocks cover the array: row `r` is in the block of point `r / 5000`. -/
theorem covered6_6 (i : S50000x128.Idx) :
    ∃ t : Fin cfg6.N, (cfg6.win 6).flush t = true ∧ i ∈ ((cfg6.win 6).blk t).view.set := by
  have hi0 : (i 0).val < 50000 := (i 0).isLt
  have hi1 : (i 1).val < 128 := (i 1).isLt
  have hN : cfg6.N = 10 := N_6
  let t : Fin cfg6.N := ⟨(i 0).val / 5000, by rw [hN]; omega⟩
  obtain ⟨e00, e01, e10, e11, e20, e21, e30, e31, e40, e41, e50, e51, e60, e61, e70, e71, e80, e81⟩ := idx_facts6 t
  have q0 : win6_6.index t (0 : Fin 2) = (i 0).val / 5000 := e60
  refine ⟨t, flush6_6 t, ?_⟩
  rw [mem_blk6_6]
  intro a
  match a with
  | ⟨0, _⟩ => show win6_6.index t (0 : Fin 2) * 5000 ≤ (i 0).val ∧ (i 0).val < win6_6.index t (0 : Fin 2) * 5000 + 5000; omega
  | ⟨1, _⟩ => show win6_6.index t (1 : Fin 2) * 128 ≤ (i 1).val ∧ (i 1).val < win6_6.index t (1 : Fin 2) * 128 + 128; omega

/-- OUTPUT 6 after the region: the MLP of the arrays the region was entered with. -/
theorem final6_6 (c : Dev nD) : (dat6 V c).arrAt 6 cfg6.N = pre6 V c :=
  (dat6 V c).arrAt_eq_of_cover 6 (pre6 V c) (fun t _ => flushed6_6_eq V c t) covered6_6

/-! ## The accumulators after each point -/

/-- A block's column sum is the sum of the array's column over the block's rows. -/
theorem blockSum6 (c : Dev nD) (t : Fin cfg6.N) (q : Fin 128) :
    ∑ p : Fin 5000, h6 (F := Ideal) (iblk6 V c 0 t) (iblk6 V c 1 t) (iblk6 V c 2 t) (iblk6 V c 3 t) (iblk6 V c 4 t) (iblk6 V c 5 t) (ix2 p q)
      = ∑ p : Fin 5000, atRow (fun r : Fin 50000 => pre6 V c (ix2 r q)) (t.val * 5000 + p.val) :=
  Finset.sum_congr rfl fun p _ => (blockAt6 V c t p q).trans (atRow_of_lt (fun r : Fin 50000 => pre6 V c (ix2 r q)) _ (rowOf6 t p).isLt).symm

/-- The same for the squares. -/
theorem blockSumSq6 (c : Dev nD) (t : Fin cfg6.N) (q : Fin 128) :
    ∑ p : Fin 5000, (mulf (h6 (F := Ideal) (iblk6 V c 0 t) (iblk6 V c 1 t) (iblk6 V c 2 t) (iblk6 V c 3 t) (iblk6 V c 4 t) (iblk6 V c 5 t)) (h6 (F := Ideal) (iblk6 V c 0 t) (iblk6 V c 1 t) (iblk6 V c 2 t) (iblk6 V c 3 t) (iblk6 V c 4 t) (iblk6 V c 5 t)) : FVec Ideal S5000x128 .f32) (ix2 p q)
      = ∑ p : Fin 5000, atRow (fun r : Fin 50000 => pre6 V c (ix2 r q) * pre6 V c (ix2 r q)) (t.val * 5000 + p.val) :=
  Finset.sum_congr rfl fun p _ => by
    rw [mulf_apply, blockAt6 V c t p q]
    exact (atRow_of_lt (fun r : Fin 50000 => pre6 V c (ix2 r q) * pre6 V c (ix2 r q)) _ (rowOf6 t p).isLt).symm

/-- The first accumulator after point `n`, at column `q`: the array's column summed over the rows of blocks `0 … n`. -/
theorem accAt6_fst (c : Dev nD) (q : Fin 128) : ∀ (n : ℕ) (hn : n < cfg6.N),
    (accAt6 V c n hn).1 (ix2 (0 : Fin 1) q) = ∑ i : Fin (n + 1), ∑ p : Fin 5000, atRow (fun r : Fin 50000 => pre6 V c (ix2 r q)) (i.val * 5000 + p.val)
  | 0, hn => by
    show acc6_0 (F := Ideal) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (k6_pay3 (F := Ideal)) (ix2 (0 : Fin 1) q) = _
    rw [acc6_0_eq, accStep_apply, zero6_0, zeroRow_apply, blockSum6 V c ⟨0, hn⟩ q]
    exact ((Fin.sum_univ_castSucc (fun i : Fin (0 + 1) => ∑ p : Fin 5000, atRow (fun r : Fin 50000 => pre6 V c (ix2 r q)) (i.val * 5000 + p.val))).trans
      (congrArg (· + _) Finset.sum_empty)).symm
  | n + 1, hn => by
    show acc6_0 (F := Ideal) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (accAt6 V c n (Nat.lt_of_succ_lt hn)).1 (ix2 (0 : Fin 1) q) = _
    rw [acc6_0_eq, accStep_apply, accAt6_fst c q n (Nat.lt_of_succ_lt hn), blockSum6 V c ⟨n + 1, hn⟩ q]
    exact (Fin.sum_univ_castSucc (fun i : Fin (n + 1 + 1) => ∑ p : Fin 5000, atRow (fun r : Fin 50000 => pre6 V c (ix2 r q)) (i.val * 5000 + p.val))).symm

/-- The second accumulator after point `n`, at column `q`: the squares of the array's column summed over those rows. -/
theorem accAt6_snd (c : Dev nD) (q : Fin 128) : ∀ (n : ℕ) (hn : n < cfg6.N),
    (accAt6 V c n hn).2 (ix2 (0 : Fin 1) q) = ∑ i : Fin (n + 1), ∑ p : Fin 5000, atRow (fun r : Fin 50000 => pre6 V c (ix2 r q) * pre6 V c (ix2 r q)) (i.val * 5000 + p.val)
  | 0, hn => by
    show acc6_1 (F := Ideal) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (k6_pay4 (F := Ideal)) (ix2 (0 : Fin 1) q) = _
    rw [acc6_1_eq, accStep_apply, zero6_1, zeroRow_apply, blockSumSq6 V c ⟨0, hn⟩ q]
    exact ((Fin.sum_univ_castSucc (fun i : Fin (0 + 1) => ∑ p : Fin 5000, atRow (fun r : Fin 50000 => pre6 V c (ix2 r q) * pre6 V c (ix2 r q)) (i.val * 5000 + p.val))).trans
      (congrArg (· + _) Finset.sum_empty)).symm
  | n + 1, hn => by
    show acc6_1 (F := Ideal) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (accAt6 V c n (Nat.lt_of_succ_lt hn)).2 (ix2 (0 : Fin 1) q) = _
    rw [acc6_1_eq, accStep_apply, accAt6_snd c q n (Nat.lt_of_succ_lt hn), blockSumSq6 V c ⟨n + 1, hn⟩ q]
    exact (Fin.sum_univ_castSucc (fun i : Fin (n + 1 + 1) => ∑ p : Fin 5000, atRow (fun r : Fin 50000 => pre6 V c (ix2 r q) * pre6 V c (ix2 r q)) (i.val * 5000 + p.val))).symm

/-- The column sums of the MLP of the whole arrays, as a `[1,128]` row. -/
def colSum6 (c : Dev nD) : FVec Ideal S1x128 .f32 := fun i => ∑ r : Fin 50000, pre6 V c (ix2 r (i 1))
/-- The column sums of its squares. -/
def colSumSq6 (c : Dev nD) : FVec Ideal S1x128 .f32 := fun i => ∑ r : Fin 50000, pre6 V c (ix2 r (i 1)) * pre6 V c (ix2 r (i 1))

theorem colSum6_apply (c : Dev nD) (q : Fin 128) : colSum6 V c (ix2 (0 : Fin 1) q) = ∑ r : Fin 50000, pre6 V c (ix2 r q) := rfl
theorem colSumSq6_apply (c : Dev nD) (q : Fin 128) : colSumSq6 V c (ix2 (0 : Fin 1) q) = ∑ r : Fin 50000, pre6 V c (ix2 r q) * pre6 V c (ix2 r q) := rfl

/-- After the last point the accumulators hold the sums over all rows. -/
theorem accLast6_fst (c : Dev nD) (hn : 9 < cfg6.N) (q : Fin 128) : (accAt6 V c 9 hn).1 (ix2 (0 : Fin 1) q) = colSum6 V c (ix2 (0 : Fin 1) q) :=
  (accAt6_fst V c q 9 hn).trans (sum_blocks_rows (fun r : Fin 50000 => pre6 V c (ix2 r q)))
theorem accLast6_snd (c : Dev nD) (hn : 9 < cfg6.N) (q : Fin 128) : (accAt6 V c 9 hn).2 (ix2 (0 : Fin 1) q) = colSumSq6 V c (ix2 (0 : Fin 1) q) :=
  (accAt6_snd V c q 9 hn).trans (sum_blocks_rows (fun r : Fin 50000 => pre6 V c (ix2 r q) * pre6 V c (ix2 r q)))

/-! ## Outputs 7 and 8: written once, at the last point -/

theorem emb6_7 (t : Fin cfg6.N) (q : Fin 128) :
    ((cfg6.win 7).blk t).view.emb (ix2 (0 : Fin 1) q) = ix2 (0 : Fin 1) q := by
  obtain ⟨e00, e01, e10, e11, e20, e21, e30, e31, e40, e41, e50, e51, e60, e61, e70, e71, e80, e81⟩ := idx_facts6 t
  funext ax; apply Fin.ext
  match ax with
  | ⟨0, _⟩ => show win6_7.index t (0 : Fin 2) * 1 + 1 * 0 = 0; omega
  | ⟨1, _⟩ => show win6_7.index t (1 : Fin 2) * 128 + 1 * q.val = q.val; omega

/-- A `[1,128]` row handed to window 7's write-back agrees with a `[1,128]` array read through the window's one block as
    soon as the two agree column by column. -/
theorem flushedRow6_7 (t : Fin cfg6.N) (X G : FVec Ideal S1x128 .f32) (h : ∀ q : Fin 128, X (ix2 (0 : Fin 1) q) = G (ix2 (0 : Fin 1) q)) :
    (cfg6.win 7).cut (grid6.coords t) X = ((cfg6.win 7).blk t).view.read (Elt Ideal) G := by
  funext j
  obtain ⟨u, q, rfl⟩ : ∃ (u : Fin 1) (q : Fin 128), j = ix2 u q := ⟨j 0, j 1, eq_ix2 j⟩
  obtain rfl : u = 0 := Subsingleton.elim _ _
  show X (ix2 (0 : Fin 1) q) = G (((cfg6.win 7).blk t).view.emb (ix2 (0 : Fin 1) q))
  rw [emb6_7 t q]; exact h q

theorem flushed6_7_eq (c : Dev nD) (t : Fin cfg6.N) (hf : (cfg6.win 7).flush t = true) :
    (dat6 V c).flushed 7 t = ((cfg6.win 7).blk t).view.read (Elt Ideal) (colSum6 V c) := by
  have h9 : t.val = 9 := by
    have h1 := (flush6_7 t).mp hf
    have h2 := lt_of_lt_of_eq t.isLt (show cfg6.N = 10 from N_6)
    omega
  show (cfg6.win 7).cut (grid6.coords t) ((dat6 V c).after 7 t) = _
  rw [after6_7]
  refine flushedRow6_7 t _ _ fun q => ?_
  obtain ⟨n, hn⟩ := t
  obtain rfl : n = 9 := h9
  exact accLast6_fst V c hn q

theorem covered6_7 (i : S1x128.Idx) :
    ∃ t : Fin cfg6.N, (cfg6.win 7).flush t = true ∧ i ∈ ((cfg6.win 7).blk t).view.set := by
  have hi0 : (i 0).val < 1 := (i 0).isLt
  have hi1 : (i 1).val < 128 := (i 1).isLt
  have hN : cfg6.N = 10 := N_6
  let t : Fin cfg6.N := ⟨9, by rw [hN]; omega⟩
  obtain ⟨e00, e01, e10, e11, e20, e21, e30, e31, e40, e41, e50, e51, e60, e61, e70, e71, e80, e81⟩ := idx_facts6 t
  refine ⟨t, (flush6_7 t).mpr rfl, ?_⟩
  show i ∈ ((View.whole (Pipeline.arrRef spec6 7)).slice (win6_7.rect t)).set
  rw [View.set_slice_whole, Rect.mem_set_unit]
  intro a
  match a with
  | ⟨0, _⟩ => show win6_7.index t (0 : Fin 2) * 1 ≤ (i 0).val ∧ (i 0).val < win6_7.index t (0 : Fin 2) * 1 + 1; omega
  | ⟨1, _⟩ => show win6_7.index t (1 : Fin 2) * 128 ≤ (i 1).val ∧ (i 1).val < win6_7.index t (1 : Fin 2) * 128 + 128; omega

/-- OUTPUT 7 after the region: the column sums of the MLP of the arrays the region was entered with. -/
theorem final6_7 (c : Dev nD) : (dat6 V c).arrAt 7 cfg6.N = colSum6 V c :=
  (dat6 V c).arrAt_eq_of_cover 7 (colSum6 V c) (fun t hf => flushed6_7_eq V c t hf) covered6_7

theorem emb6_8 (t : Fin cfg6.N) (q : Fin 128) :
    ((cfg6.win 8).blk t).view.emb (ix2 (0 : Fin 1) q) = ix2 (0 : Fin 1) q := by
  obtain ⟨e00, e01, e10, e11, e20, e21, e30, e31, e40, e41, e50, e51, e60, e61, e70, e71, e80, e81⟩ := idx_facts6 t
  funext ax; apply Fin.ext
  match ax with
  | ⟨0, _⟩ => show win6_8.index t (0 : Fin 2) * 1 + 1 * 0 = 0; omega
  | ⟨1, _⟩ => show win6_8.index t (1 : Fin 2) * 128 + 1 * q.val = q.val; omega

/-- A `[1,128]` row handed to window 8's write-back agrees with a `[1,128]` array read through the window's one block as
    soon as the two agree column by column. -/
theorem flushedRow6_8 (t : Fin cfg6.N) (X G : FVec Ideal S1x128 .f32) (h : ∀ q : Fin 128, X (ix2 (0 : Fin 1) q) = G (ix2 (0 : Fin 1) q)) :
    (cfg6.win 8).cut (grid6.coords t) X = ((cfg6.win 8).blk t).view.read (Elt Ideal) G := by
  funext j
  obtain ⟨u, q, rfl⟩ : ∃ (u : Fin 1) (q : Fin 128), j = ix2 u q := ⟨j 0, j 1, eq_ix2 j⟩
  obtain rfl : u = 0 := Subsingleton.elim _ _
  show X (ix2 (0 : Fin 1) q) = G (((cfg6.win 8).blk t).view.emb (ix2 (0 : Fin 1) q))
  rw [emb6_8 t q]; exact h q

theorem flushed6_8_eq (c : Dev nD) (t : Fin cfg6.N) (hf : (cfg6.win 8).flush t = true) :
    (dat6 V c).flushed 8 t = ((cfg6.win 8).blk t).view.read (Elt Ideal) (colSumSq6 V c) := by
  have h9 : t.val = 9 := by
    have h1 := (flush6_8 t).mp hf
    have h2 := lt_of_lt_of_eq t.isLt (show cfg6.N = 10 from N_6)
    omega
  show (cfg6.win 8).cut (grid6.coords t) ((dat6 V c).after 8 t) = _
  rw [after6_8]
  refine flushedRow6_8 t _ _ fun q => ?_
  obtain ⟨n, hn⟩ := t
  obtain rfl : n = 9 := h9
  exact accLast6_snd V c hn q

theorem covered6_8 (i : S1x128.Idx) :
    ∃ t : Fin cfg6.N, (cfg6.win 8).flush t = true ∧ i ∈ ((cfg6.win 8).blk t).view.set := by
  have hi0 : (i 0).val < 1 := (i 0).isLt
  have hi1 : (i 1).val < 128 := (i 1).isLt
  have hN : cfg6.N = 10 := N_6
  let t : Fin cfg6.N := ⟨9, by rw [hN]; omega⟩
  obtain ⟨e00, e01, e10, e11, e20, e21, e30, e31, e40, e41, e50, e51, e60, e61, e70, e71, e80, e81⟩ := idx_facts6 t
  refine ⟨t, (flush6_8 t).mpr rfl, ?_⟩
  show i ∈ ((View.whole (Pipeline.arrRef spec6 8)).slice (win6_8.rect t)).set
  rw [View.set_slice_whole, Rect.mem_set_unit]
  intro a
  match a with
  | ⟨0, _⟩ => show win6_8.index t (0 : Fin 2) * 1 ≤ (i 0).val ∧ (i 0).val < win6_8.index t (0 : Fin 2) * 1 + 1; omega
  | ⟨1, _⟩ => show win6_8.index t (1 : Fin 2) * 128 ≤ (i 1).val ∧ (i 1).val < win6_8.index t (1 : Fin 2) * 128 + 128; omega

/-- OUTPUT 8 after the region: the column sums of the squares of the MLP of the arrays the region was entered with. -/
theorem final6_8 (c : Dev nD) : (dat6 V c).arrAt 8 cfg6.N = colSumSq6 V c :=
  (dat6 V c).arrAt_eq_of_cover 8 (colSumSq6 V c) (fun t hf => flushed6_8_eq V c t hf) covered6_8

end Cert.KernelIdeal.Reg

end
-- ==== Proof.KernelIdeal.Bn7Value.lean ====
/- Region 7 of @main (the batch-norm apply kernel), read as a value at the ideal instance: after the region the
   output array is, index by index, `(h_pre − mean) · inv_std · gamma + beta` of the five arrays the region was
   entered with. The stored tile at an index; each input block read at an index as the array at the index the
   output's tile has there; each point's write-back as a block of that one whole-array function; the ten tiles cover
   the 50000 rows; hence the array. -/
import proofs.«139862_j28269474742473_1_alg».proof.Proof.KernelIdeal.Bn7
import proofs.«139862_j28269474742473_1_alg».proof.Proof.KernelIdeal.BnApply
import Idealize.ShloMosaic.Lib.Pipeline.Value
import Idealize.ShloMosaic.Lib.ValueIdx
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

-- the TensorCore's buffer contents when the region is entered, at the ideal instance
variable (V : (c : Dev nD) → (b : Ref sig .tc) → Buf (Elt Ideal) ((c : Thread nD τ).loc b))

/-- The stored tile at `(p, q)`: the tile of `h_pre` there, less the mean row, times the two scale rows, plus the
    shift row, each row read at lane `q`. -/
theorem bnPay7_apply (x0 : FVec Ideal S5000x128 .f32) (x1 x2 x3 x4 : FVec Ideal S1x128 .f32) (p : Fin 5000) (q : Fin 128) :
    k7_pay1 x0 x1 x2 x3 x4 (ix2 p q)
      = (x0 (ix2 p q) - x1 (ix2 (0 : Fin 1) q)) * x2 (ix2 (0 : Fin 1) q) * x3 (ix2 (0 : Fin 1) q) + x4 (ix2 (0 : Fin 1) q) := by
  unfold k7_pay1
  simp only [shapeCast_self]
  rw [addf_apply, mulf_apply, mulf_apply, subf_apply, bcastRow_apply, bcastRow_apply, bcastRow_apply, bcastRow_apply]

/-- The printed index maps, decided over the grid: the tile of `h_pre` moves with the output's tile; the four rows
    stay at block (0,0); the output's tile index is (row tile, 0). -/
theorem idx_facts7 : ∀ t : Fin cfg7.N, win7_0.index t (0 : Fin 2) = win7_5.index t (0 : Fin 2)
    ∧ win7_0.index t (1 : Fin 2) = win7_5.index t (1 : Fin 2)
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) ≤ 9 ∧ win7_5.index t (1 : Fin 2) = 0 :=
  (by decide +kernel : ∀ t : Fin grid7.N, _)

/-- Every row tile is some point's. -/
theorem idx_onto7 : ∀ (q0 : Fin 10), ∃ t : Fin cfg7.N, win7_5.index t = ![q0.val, 0] :=
  (by decide +kernel : ∀ (q0 : Fin 10), ∃ t : Fin grid7.N, win7_5.index t = ![q0.val, 0])

/-! ## Each input block, read at an index, is its array at the index the output's tile has there -/

/-- The tile of `h_pre` sits where the output's tile sits. -/
theorem embTile7 (t : Fin cfg7.N) (p : Fin 5000) (q : Fin 128) :
    ((cfg7.win 0).blk t).view.emb (ix2 p q) = (((cfg7.win 5).blk t).view.emb (ix2 p q)) := by
  obtain ⟨e0, e1, e2, e3, e4, e5, e6, e7, e8, e9, e10, e11⟩ := idx_facts7 t
  funext a; apply Fin.ext
  match a with
  | ⟨0, _⟩ => show win7_0.index t (0 : Fin 2) * 5000 + 1 * p.val = win7_5.index t (0 : Fin 2) * 5000 + 1 * p.val; omega
  | ⟨1, _⟩ => show win7_0.index t (1 : Fin 2) * 128 + 1 * q.val = win7_5.index t (1 : Fin 2) * 128 + 1 * q.val; omega

theorem tileAt7 (c : Dev nD) (t : Fin cfg7.N) (p : Fin 5000) (q : Fin 128) :
    iblk7 V c 0 t (ix2 p q) = V c (Pipeline.arrRef spec7 0) (((cfg7.win 5).blk t).view.emb (ix2 p q)) :=
  (show iblk7 V c 0 t (ix2 p q) = V c (Pipeline.arrRef spec7 0) (((cfg7.win 0).blk t).view.emb (ix2 p q)) from rfl).trans
    (congrArg (V c (Pipeline.arrRef spec7 0)) (embTile7 t p q))

/-- Row window 1's block is the whole row: lane `q` of the block is lane `q` of the array, the lane the output's tile has there. -/
theorem embRow7_1 (t : Fin cfg7.N) (p : Fin 5000) (q : Fin 128) :
    ((cfg7.win 1).blk t).view.emb (ix2 (0 : Fin 1) q) = ix2 (0 : Fin 1) ((((cfg7.win 5).blk t).view.emb (ix2 p q)) 1) := by
  obtain ⟨e0, e1, e2, e3, e4, e5, e6, e7, e8, e9, e10, e11⟩ := idx_facts7 t
  funext a; apply Fin.ext
  match a with
  | ⟨0, _⟩ => show win7_1.index t (0 : Fin 2) * 1 + 1 * 0 = 0; omega
  | ⟨1, _⟩ => show win7_1.index t (1 : Fin 2) * 128 + 1 * q.val = win7_5.index t (1 : Fin 2) * 128 + 1 * q.val; omega

theorem rowAt7_1 (c : Dev nD) (t : Fin cfg7.N) (p : Fin 5000) (q : Fin 128) :
    iblk7 V c 1 t (ix2 (0 : Fin 1) q) = V c (Pipeline.arrRef spec7 1) (ix2 (0 : Fin 1) ((((cfg7.win 5).blk t).view.emb (ix2 p q)) 1)) :=
  (show iblk7 V c 1 t (ix2 (0 : Fin 1) q) = V c (Pipeline.arrRef spec7 1) (((cfg7.win 1).blk t).view.emb (ix2 (0 : Fin 1) q)) from rfl).trans
    (congrArg (V c (Pipeline.arrRef spec7 1)) (embRow7_1 t p q))

/-- Row window 2's block is the whole row: lane `q` of the block is lane `q` of the array, the lane the output's tile has there. -/
theorem embRow7_2 (t : Fin cfg7.N) (p : Fin 5000) (q : Fin 128) :
    ((cfg7.win 2).blk t).view.emb (ix2 (0 : Fin 1) q) = ix2 (0 : Fin 1) ((((cfg7.win 5).blk t).view.emb (ix2 p q)) 1) := by
  obtain ⟨e0, e1, e2, e3, e4, e5, e6, e7, e8, e9, e10, e11⟩ := idx_facts7 t
  funext a; apply Fin.ext
  match a with
  | ⟨0, _⟩ => show win7_2.index t (0 : Fin 2) * 1 + 1 * 0 = 0; omega
  | ⟨1, _⟩ => show win7_2.index t (1 : Fin 2) * 128 + 1 * q.val = win7_5.index t (1 : Fin 2) * 128 + 1 * q.val; omega

theorem rowAt7_2 (c : Dev nD) (t : Fin cfg7.N) (p : Fin 5000) (q : Fin 128) :
    iblk7 V c 2 t (ix2 (0 : Fin 1) q) = V c (Pipeline.arrRef spec7 2) (ix2 (0 : Fin 1) ((((cfg7.win 5).blk t).view.emb (ix2 p q)) 1)) :=
  (show iblk7 V c 2 t (ix2 (0 : Fin 1) q) = V c (Pipeline.arrRef spec7 2) (((cfg7.win 2).blk t).view.emb (ix2 (0 : Fin 1) q)) from rfl).trans
    (congrArg (V c (Pipeline.arrRef spec7 2)) (embRow7_2 t p q))

/-- Row window 3's block is the whole row: lane `q` of the block is lane `q` of the array, the lane the output's tile has there. -/
theorem embRow7_3 (t : Fin cfg7.N) (p : Fin 5000) (q : Fin 128) :
    ((cfg7.win 3).blk t).view.emb (ix2 (0 : Fin 1) q) = ix2 (0 : Fin 1) ((((cfg7.win 5).blk t).view.emb (ix2 p q)) 1) := by
  obtain ⟨e0, e1, e2, e3, e4, e5, e6, e7, e8, e9, e10, e11⟩ := idx_facts7 t
  funext a; apply Fin.ext
  match a with
  | ⟨0, _⟩ => show win7_3.index t (0 : Fin 2) * 1 + 1 * 0 = 0; omega
  | ⟨1, _⟩ => show win7_3.index t (1 : Fin 2) * 128 + 1 * q.val = win7_5.index t (1 : Fin 2) * 128 + 1 * q.val; omega

theorem rowAt7_3 (c : Dev nD) (t : Fin cfg7.N) (p : Fin 5000) (q : Fin 128) :
    iblk7 V c 3 t (ix2 (0 : Fin 1) q) = V c (Pipeline.arrRef spec7 3) (ix2 (0 : Fin 1) ((((cfg7.win 5).blk t).view.emb (ix2 p q)) 1)) :=
  (show iblk7 V c 3 t (ix2 (0 : Fin 1) q) = V c (Pipeline.arrRef spec7 3) (((cfg7.win 3).blk t).view.emb (ix2 (0 : Fin 1) q)) from rfl).trans
    (congrArg (V c (Pipeline.arrRef spec7 3)) (embRow7_3 t p q))

/-- Row window 4's block is the whole row: lane `q` of the block is lane `q` of the array, the lane the output's tile has there. -/
theorem embRow7_4 (t : Fin cfg7.N) (p : Fin 5000) (q : Fin 128) :
    ((cfg7.win 4).blk t).view.emb (ix2 (0 : Fin 1) q) = ix2 (0 : Fin 1) ((((cfg7.win 5).blk t).view.emb (ix2 p q)) 1) := by
  obtain ⟨e0, e1, e2, e3, e4, e5, e6, e7, e8, e9, e10, e11⟩ := idx_facts7 t
  funext a; apply Fin.ext
  match a with
  | ⟨0, _⟩ => show win7_4.index t (0 : Fin 2) * 1 + 1 * 0 = 0; omega
  | ⟨1, _⟩ => show win7_4.index t (1 : Fin 2) * 128 + 1 * q.val = win7_5.index t (1 : Fin 2) * 128 + 1 * q.val; omega

theorem rowAt7_4 (c : Dev nD) (t : Fin cfg7.N) (p : Fin 5000) (q : Fin 128) :
    iblk7 V c 4 t (ix2 (0 : Fin 1) q) = V c (Pipeline.arrRef spec7 4) (ix2 (0 : Fin 1) ((((cfg7.win 5).blk t).view.emb (ix2 p q)) 1)) :=
  (show iblk7 V c 4 t (ix2 (0 : Fin 1) q) = V c (Pipeline.arrRef spec7 4) (((cfg7.win 4).blk t).view.emb (ix2 (0 : Fin 1) q)) from rfl).trans
    (congrArg (V c (Pipeline.arrRef spec7 4)) (embRow7_4 t p q))

/-! ## From blocks to the array -/

set_option maxHeartbeats 400000 in
/-- What point `t` writes back is block `t` of `bnApply` of the five arrays as the region finds them. -/
theorem flushed7_5_eq (c : Dev nD) (t : Fin cfg7.N) :
    (dat7 V c).flushed 5 t = ((cfg7.win 5).blk t).view.read (Elt Ideal) (bnApply (V c (Pipeline.arrRef spec7 0)) (V c (Pipeline.arrRef spec7 1)) (V c (Pipeline.arrRef spec7 2)) (V c (Pipeline.arrRef spec7 3)) (V c (Pipeline.arrRef spec7 4))) := by
  show (cfg7.win 5).cut (grid7.coords t) ((dat7 V c).after 5 t) = _
  rw [after7_5]
  unfold out7_5
  rw [View.canon_unit_zero origin2]
  simp only [View.ld_unit_zero (S := S5000x128) origin2, View.ld_unit_zero (S := S1x128) origin2]
  funext j
  obtain ⟨p, q, rfl⟩ : ∃ (p : Fin 5000) (q : Fin 128), j = ix2 p q := ⟨j 0, j 1, eq_ix2 j⟩
  show k7_pay1 (iblk7 V c 0 t) (iblk7 V c 1 t) (iblk7 V c 2 t) (iblk7 V c 3 t) (iblk7 V c 4 t) (ix2 p q)
    = bnApply (V c (Pipeline.arrRef spec7 0)) (V c (Pipeline.arrRef spec7 1)) (V c (Pipeline.arrRef spec7 2)) (V c (Pipeline.arrRef spec7 3)) (V c (Pipeline.arrRef spec7 4)) (((cfg7.win 5).blk t).view.emb (ix2 p q))
  rw [bnPay7_apply, tileAt7 V c t p q, rowAt7_1 V c t p q, rowAt7_2 V c t p q, rowAt7_3 V c t p q, rowAt7_4 V c t p q]
  rfl

/-- An index of the array is in point `t`'s block iff each coordinate is in the block's range on its axis. -/
theorem mem_blk7_5 (t : Fin cfg7.N) (i : S50000x128.Idx) :
    i ∈ ((cfg7.win 5).blk t).view.set ↔ ∀ a : Fin 2, win7_5.index t a * S5000x128.size a ≤ (i a).val ∧ (i a).val < win7_5.index t a * S5000x128.size a + S5000x128.size a := by
  show i ∈ ((View.whole main_v151).slice (win7_5.rect t)).set ↔ _
  rw [View.set_slice_whole, Rect.mem_set_unit]
  exact Iff.rfl

/-- The ten tiles cover the array: row `r` is in the block of the point whose tile index is `r / 5000`. -/
theorem covered7_5 (i : S50000x128.Idx) :
    ∃ t : Fin cfg7.N, (cfg7.win 5).flush t = true ∧ i ∈ ((cfg7.win 5).blk t).view.set := by
  have hi0 : (i 0).val < 50000 := (i 0).isLt
  have hi1 : (i 1).val < 128 := (i 1).isLt
  obtain ⟨t, ht⟩ := idx_onto7 ⟨(i 0).val / 5000, by omega⟩
  have q0 : win7_5.index t (0 : Fin 2) = (i 0).val / 5000 := congrFun ht 0
  have q1 : win7_5.index t (1 : Fin 2) = 0 := congrFun ht 1
  refine ⟨t, flush7_5 t, ?_⟩
  rw [mem_blk7_5]
  intro a
  match a with
  | ⟨0, _⟩ => show win7_5.index t (0 : Fin 2) * 5000 ≤ (i 0).val ∧ (i 0).val < win7_5.index t (0 : Fin 2) * 5000 + 5000; omega
  | ⟨1, _⟩ => show win7_5.index t (1 : Fin 2) * 128 ≤ (i 1).val ∧ (i 1).val < win7_5.index t (1 : Fin 2) * 128 + 128; omega

/-- THE ARRAY after the region: `bnApply` of the five arrays the region was entered with. -/
theorem final7_5 (c : Dev nD) : (dat7 V c).arrAt 5 cfg7.N = bnApply (V c (Pipeline.arrRef spec7 0)) (V c (Pipeline.arrRef spec7 1)) (V c (Pipeline.arrRef spec7 2)) (V c (Pipeline.arrRef spec7 3)) (V c (Pipeline.arrRef spec7 4)) :=
  (dat7 V c).arrAt_eq_of_cover 5 (bnApply (V c (Pipeline.arrRef spec7 0)) (V c (Pipeline.arrRef spec7 1)) (V c (Pipeline.arrRef spec7 2)) (V c (Pipeline.arrRef spec7 3)) (V c (Pipeline.arrRef spec7 4))) (fun t _ => flushed7_5_eq V c t) (covered7_5)

end Cert.KernelIdeal.Reg

end
-- ==== Proof.KernelIdeal.Host6.lean ====
/- The host stretch before layer 3's MLP-statistics region, read at the ideal instance from any contents `W`: the
   neighbourhood aggregation of the layer's input features, and the layer's slices of the stacked parameters (two
   weight matrices, two biases, the scale and the shift), each at an index. -/
import proofs.«139862_j28269474742473_1_alg».proof.Proof.Gen.KernelIdeal.Launch
import proofs.«139862_j28269474742473_1_alg».proof.Proof.Gen.KernelIdeal.Regions
import proofs.«139862_j28269474742473_1_alg».proof.Proof.KernelIdeal.HostLayout
import Idealize.ShloMosaic.Lib.StableHlo.Run
import Idealize.ShloMosaic.Lib.ValueLayout

noncomputable section

namespace Cert.KernelIdeal.Reg

open Cert.KernelIdeal Cert.KernelIdeal.Gen
open Idealize.ShloMosaic Idealize.ShloMosaic.TcCoe Idealize.ShloMosaic.ValueIdx Idealize.ShloMosaic.StableHlo

variable (W : Valuation τ sig (Elt Ideal))

set_option maxHeartbeats 1000000 in
/-- The aggregation operand as the stretch's operations: it reads the two edge rows the first stretch cut out. -/
theorem host6_agg_eq : (StableHlo.after hostOps6 W (Proc.devRef .tc main_v124) : FVec Ideal S50000x128 .f32)
    = Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 (W (Proc.devRef .tc main_v3) : IVec S800000 32))
        (Host.gather gather_S50000x128_S800000x1_S800000x128_1_0_n_n_0_1_1128 (W (Proc.devRef .tc main_v114) : FVec Ideal S50000x128 .f32)
          (broadcastInDim S800000x1 ![0] bcast_S800000_S800000x1_0
            (select (cmpi .slt (W (Proc.devRef .tc main_v1) : IVec S800000 32) (broadcastInDim S800000 ![] bcast_S_S800000 (constantI S_ 32 0#32)))
              (addi (W (Proc.devRef .tc main_v1) : IVec S800000 32) (broadcastInDim S800000 ![] bcast_S_S800000 (constantI S_ 32 50000#32)))
              (W (Proc.devRef .tc main_v1) : IVec S800000 32)))) := by
  after_results_simp <;> rfl

/-- When the two edge rows hold what the first stretch cut out of the edge list, the aggregation operand is the
    neighbourhood aggregation of the features the stretch finds. -/
theorem host6_agg (hsrc : (W (Proc.devRef .tc main_v1) : IVec S800000 32) = shapeCast S800000 (extractStridedSlice S1x800000 ![0, 0] (W (Proc.devRef .tc main_arg1) : IVec S2x800000 32) slices_S2x800000_S1x800000_0_0) shapeCasts_S1x800000_S800000)
    (hdst : (W (Proc.devRef .tc main_v3) : IVec S800000 32) = shapeCast S800000 (extractStridedSlice S1x800000 ![1, 0] (W (Proc.devRef .tc main_arg1) : IVec S2x800000 32) slices_S2x800000_S1x800000_1_0) shapeCasts_S1x800000_S800000) :
    (StableHlo.after hostOps6 W (Proc.devRef .tc main_v124) : FVec Ideal S50000x128 .f32) = Cert.Spec.Agg aggFacts (W (Proc.devRef .tc main_v114) : FVec Ideal S50000x128 .f32) (W (Proc.devRef .tc main_arg1) : IVec S2x800000 32) := by
  rw [host6_agg_eq W, hsrc, hdst]; rfl

/-- Layer 3's W1 operand as the stretch's operations of the stacked argument, and at an index. -/
theorem host6_W1_eq : (StableHlo.after hostOps6 W (Proc.devRef .tc main_v126) : FVec Ideal S128x128 .f32)
    = shapeCast S128x128 (extractStridedSlice S1x128x128 ![3, 0, 0] (W (Proc.devRef .tc main_arg3) : FVec Ideal S5x128x128 .f32) slices_S5x128x128_S1x128x128_3_0_0) shapeCasts_S1x128x128_S128x128 := by
  after_results <;> rfl
theorem host6_W1 (l k : Fin 128) : (StableHlo.after hostOps6 W (Proc.devRef .tc main_v126) : FVec Ideal S128x128 .f32) (ix2 l k) = (W (Proc.devRef .tc main_arg3) : FVec Ideal S5x128x128 .f32) (ix3 (3 : Fin 5) l k) := by
  rw [host6_W1_eq W]; exact layerMat_apply _ 3 _ _ (3 : Fin 5) rfl l k

/-- Layer 3's b1 operand as the stretch's operations of the stacked argument, and at an index. -/
theorem host6_b1_eq : (StableHlo.after hostOps6 W (Proc.devRef .tc main_v129) : FVec Ideal S1x128 .f32)
    = shapeCast S1x128 (shapeCast S128 (extractStridedSlice S1x128 ![3, 0] (W (Proc.devRef .tc main_arg4) : FVec Ideal S5x128 .f32) slices_S5x128_S1x128_3_0) shapeCasts_S1x128_S128) shapeCasts_S128_S1x128 := by
  after_results <;> rfl
theorem host6_b1 (k : Fin 128) : (StableHlo.after hostOps6 W (Proc.devRef .tc main_v129) : FVec Ideal S1x128 .f32) (ix2 (0 : Fin 1) k) = (W (Proc.devRef .tc main_arg4) : FVec Ideal S5x128 .f32) (ix2 (3 : Fin 5) k) := by
  rw [host6_b1_eq W]; exact layerRow_apply _ 3 _ _ _ (3 : Fin 5) rfl k

/-- Layer 3's W2 operand as the stretch's operations of the stacked argument, and at an index. -/
theorem host6_W2_eq : (StableHlo.after hostOps6 W (Proc.devRef .tc main_v131) : FVec Ideal S128x128 .f32)
    = shapeCast S128x128 (extractStridedSlice S1x128x128 ![3, 0, 0] (W (Proc.devRef .tc main_arg5) : FVec Ideal S5x128x128 .f32) slices_S5x128x128_S1x128x128_3_0_0) shapeCasts_S1x128x128_S128x128 := by
  after_results <;> rfl
theorem host6_W2 (l k : Fin 128) : (StableHlo.after hostOps6 W (Proc.devRef .tc main_v131) : FVec Ideal S128x128 .f32) (ix2 l k) = (W (Proc.devRef .tc main_arg5) : FVec Ideal S5x128x128 .f32) (ix3 (3 : Fin 5) l k) := by
  rw [host6_W2_eq W]; exact layerMat_apply _ 3 _ _ (3 : Fin 5) rfl l k

/-- Layer 3's b2 operand as the stretch's operations of the stacked argument, and at an index. -/
theorem host6_b2_eq : (StableHlo.after hostOps6 W (Proc.devRef .tc main_v134) : FVec Ideal S1x128 .f32)
    = shapeCast S1x128 (shapeCast S128 (extractStridedSlice S1x128 ![3, 0] (W (Proc.devRef .tc main_arg6) : FVec Ideal S5x128 .f32) slices_S5x128_S1x128_3_0) shapeCasts_S1x128_S128) shapeCasts_S128_S1x128 := by
  after_results <;> rfl
theorem host6_b2 (k : Fin 128) : (StableHlo.after hostOps6 W (Proc.devRef .tc main_v134) : FVec Ideal S1x128 .f32) (ix2 (0 : Fin 1) k) = (W (Proc.devRef .tc main_arg6) : FVec Ideal S5x128 .f32) (ix2 (3 : Fin 5) k) := by
  rw [host6_b2_eq W]; exact layerRow_apply _ 3 _ _ _ (3 : Fin 5) rfl k

/-- Layer 3's gamma operand as the stretch's operations of the stacked argument, and at an index. -/
theorem host6_gamma_eq : (StableHlo.after hostOps6 W (Proc.devRef .tc main_v137) : FVec Ideal S1x128 .f32)
    = shapeCast S1x128 (shapeCast S128 (extractStridedSlice S1x128 ![3, 0] (W (Proc.devRef .tc main_arg7) : FVec Ideal S5x128 .f32) slices_S5x128_S1x128_3_0) shapeCasts_S1x128_S128) shapeCasts_S128_S1x128 := by
  after_results <;> rfl
theorem host6_gamma (k : Fin 128) : (StableHlo.after hostOps6 W (Proc.devRef .tc main_v137) : FVec Ideal S1x128 .f32) (ix2 (0 : Fin 1) k) = (W (Proc.devRef .tc main_arg7) : FVec Ideal S5x128 .f32) (ix2 (3 : Fin 5) k) := by
  rw [host6_gamma_eq W]; exact layerRow_apply _ 3 _ _ _ (3 : Fin 5) rfl k

/-- Layer 3's beta operand as the stretch's operations of the stacked argument, and at an index. -/
theorem host6_beta_eq : (StableHlo.after hostOps6 W (Proc.devRef .tc main_v140) : FVec Ideal S1x128 .f32)
    = shapeCast S1x128 (shapeCast S128 (extractStridedSlice S1x128 ![3, 0] (W (Proc.devRef .tc main_arg8) : FVec Ideal S5x128 .f32) slices_S5x128_S1x128_3_0) shapeCasts_S1x128_S128) shapeCasts_S128_S1x128 := by
  after_results <;> rfl
theorem host6_beta (k : Fin 128) : (StableHlo.after hostOps6 W (Proc.devRef .tc main_v140) : FVec Ideal S1x128 .f32) (ix2 (0 : Fin 1) k) = (W (Proc.devRef .tc main_arg8) : FVec Ideal S5x128 .f32) (ix2 (3 : Fin 5) k) := by
  rw [host6_beta_eq W]; exact layerRow_apply _ 3 _ _ _ (3 : Fin 5) rfl k

/-- The stretch writes neither the features it reads nor the edge list. -/
theorem host6_keeps_h : StableHlo.after hostOps6 W (Proc.devRef .tc main_v114) = W (Proc.devRef .tc main_v114) :=
  StableHlo.after_of_writes_sub hostOps6 W hostOps6_writes (by decide)
theorem host6_keeps_edges : StableHlo.after hostOps6 W (Proc.devRef .tc main_arg1) = W (Proc.devRef .tc main_arg1) :=
  StableHlo.after_of_writes_sub hostOps6 W hostOps6_writes (by decide)
theorem host6_keeps_src : StableHlo.after hostOps6 W (Proc.devRef .tc main_v1) = W (Proc.devRef .tc main_v1) :=
  StableHlo.after_of_writes_sub hostOps6 W hostOps6_writes (by decide)
theorem host6_keeps_dst : StableHlo.after hostOps6 W (Proc.devRef .tc main_v3) = W (Proc.devRef .tc main_v3) :=
  StableHlo.after_of_writes_sub hostOps6 W hostOps6_writes (by decide)

end Cert.KernelIdeal.Reg

end
-- ==== Proof.KernelIdeal.Host7.lean ====
/- The host stretch between an MLP-statistics region and its batch-norm region, read at the ideal instance from any
   contents `W`: from the column sums and sums of squares it computes, lane by lane, the mean `sum / count` and the
   reciprocal standard deviation `rsqrt ((sumsq / count − mean · mean) + eps)`. -/
import proofs.«139862_j28269474742473_1_alg».proof.Proof.Gen.KernelIdeal.Launch
import proofs.«139862_j28269474742473_1_alg».proof.Proof.Gen.KernelIdeal.Regions
import proofs.«139862_j28269474742473_1_alg».proof.Proof.Spec
import Idealize.ShloMosaic.Lib.StableHlo.Run
import Idealize.ShloMosaic.Lib.IdealHost
import Idealize.ShloMosaic.Lib.ValueIdx

noncomputable section

namespace Cert.KernelIdeal.Reg

open Cert.KernelIdeal Cert.KernelIdeal.Gen
open Idealize.ShloMosaic Idealize.ShloMosaic.TcCoe Idealize.ShloMosaic.ValueIdx Idealize.ShloMosaic.StableHlo

variable (W : Valuation τ sig (Elt Ideal))

/-- The mean row as the stretch's operations of the sum row. -/
theorem host7_mean_eq : (StableHlo.after hostOps7 W (Proc.devRef .tc main_v143) : FVec Ideal S1x128 .f32) = Host.divf (W (Proc.devRef .tc main_v141_1) : FVec Ideal S1x128 .f32) (broadcastInDim S1x128 ![] bcast_S_S1x128 (constant (F := Ideal) S_ .f32 0x47435000#32)) := by
  after_results

/-- The mean row at lane `j`: the column sum divided by the node count. -/
theorem host7_mean (j : Fin 128) :
    (StableHlo.after hostOps7 W (Proc.devRef .tc main_v143) : FVec Ideal S1x128 .f32) (ix2 (0 : Fin 1) j) = Ideal.div ((W (Proc.devRef .tc main_v141_1) : FVec Ideal S1x128 .f32) (ix2 (0 : Fin 1) j)) Cert.Spec.count := by
  rw [host7_mean_eq W, hostDivf_apply, broadcastInDim_scalar_apply, constant_apply]; rfl

/-- The reciprocal-standard-deviation row as the stretch's operations of the two statistics rows. -/
theorem host7_istd_eq : (StableHlo.after hostOps7 W (Proc.devRef .tc main_v150) : FVec Ideal S1x128 .f32)
    = Host.rsqrt (addf (subf (Host.divf (W (Proc.devRef .tc main_v141_2) : FVec Ideal S1x128 .f32) (broadcastInDim S1x128 ![] bcast_S_S1x128 (constant (F := Ideal) S_ .f32 0x47435000#32)))
        (mulf (Host.divf (W (Proc.devRef .tc main_v141_1) : FVec Ideal S1x128 .f32) (broadcastInDim S1x128 ![] bcast_S_S1x128 (constant (F := Ideal) S_ .f32 0x47435000#32))) (Host.divf (W (Proc.devRef .tc main_v141_1) : FVec Ideal S1x128 .f32) (broadcastInDim S1x128 ![] bcast_S_S1x128 (constant (F := Ideal) S_ .f32 0x47435000#32))))) (broadcastInDim S1x128 ![] bcast_S_S1x128 (constant (F := Ideal) S_ .f32 0x3727C5AC#32))) := by
  after_results

/-- The reciprocal-standard-deviation row at lane `j`: `rsqrt ((sumsq / count − mean · mean) + eps)`. -/
theorem host7_istd (j : Fin 128) :
    (StableHlo.after hostOps7 W (Proc.devRef .tc main_v150) : FVec Ideal S1x128 .f32) (ix2 (0 : Fin 1) j)
      = Ideal.rsqrt ((Ideal.div ((W (Proc.devRef .tc main_v141_2) : FVec Ideal S1x128 .f32) (ix2 (0 : Fin 1) j)) Cert.Spec.count
          - Ideal.div ((W (Proc.devRef .tc main_v141_1) : FVec Ideal S1x128 .f32) (ix2 (0 : Fin 1) j)) Cert.Spec.count * Ideal.div ((W (Proc.devRef .tc main_v141_1) : FVec Ideal S1x128 .f32) (ix2 (0 : Fin 1) j)) Cert.Spec.count)
        + Cert.Spec.eps) := by
  rw [host7_istd_eq W]
  show Ideal.rsqrt (addf (subf (Host.divf (W (Proc.devRef .tc main_v141_2) : FVec Ideal S1x128 .f32) (broadcastInDim S1x128 ![] bcast_S_S1x128 (constant (F := Ideal) S_ .f32 0x47435000#32)))
        (mulf (Host.divf (W (Proc.devRef .tc main_v141_1) : FVec Ideal S1x128 .f32) (broadcastInDim S1x128 ![] bcast_S_S1x128 (constant (F := Ideal) S_ .f32 0x47435000#32))) (Host.divf (W (Proc.devRef .tc main_v141_1) : FVec Ideal S1x128 .f32) (broadcastInDim S1x128 ![] bcast_S_S1x128 (constant (F := Ideal) S_ .f32 0x47435000#32))))) (broadcastInDim S1x128 ![] bcast_S_S1x128 (constant (F := Ideal) S_ .f32 0x3727C5AC#32)) (ix2 (0 : Fin 1) j)) = _
  rw [addf_apply, subf_apply, mulf_apply, hostDivf_apply, hostDivf_apply, broadcastInDim_scalar_apply, broadcastInDim_scalar_apply, constant_apply, constant_apply]; rfl

/-- The stretch writes neither statistics row. -/
theorem host7_keeps_sum : StableHlo.after hostOps7 W (Proc.devRef .tc main_v141_1) = W (Proc.devRef .tc main_v141_1) :=
  StableHlo.after_of_writes_sub hostOps7 W hostOps7_writes (by decide)

end Cert.KernelIdeal.Reg

end
-- ==== Proof.KernelIdeal.Layer3.lean ====
/- Layer 3 of the kernel's program: its normalisation region ends with the one-pass layer of the
   specification applied to the features the layer was entered with. -/
import proofs.«139862_j28269474742473_1_alg».proof.Proof.KernelIdeal.Mlp6Value
import proofs.«139862_j28269474742473_1_alg».proof.Proof.KernelIdeal.Bn7Value
import proofs.«139862_j28269474742473_1_alg».proof.Proof.KernelIdeal.Host6
import proofs.«139862_j28269474742473_1_alg».proof.Proof.KernelIdeal.Host7
import proofs.«139862_j28269474742473_1_alg».proof.Proof.KernelIdeal.RunData
import proofs.«139862_j28269474742473_1_alg».proof.Proof.KernelIdeal.LayerGlue
import Idealize.ShloMosaic.Lib.StableHlo.Run
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.ShloMosaic.StableHlo
open Idealize.ShloMosaic.Pipeline (Dat)

variable (m : (ℓ : Loc nD τ sig) → Buf (Elt Ideal) ℓ)

set_option maxHeartbeats 1600000 in
/-- Layer 3: from the features `H` the layer is entered with and the argument arrays, the normalisation region leaves
    the one-pass layer of the specification. -/
theorem layer3 (c : Dev nD) (a : Cert.Spec.Args) (H : FVec Ideal S50000x128 .f32)
    (hh : (W12 m c (Proc.devRef .tc main_v114) : FVec Ideal S50000x128 .f32) = H)
    (he : (W12 m c (Proc.devRef .tc main_arg1) : IVec S2x800000 32) = a.e)
    (h3 : (W12 m c (Proc.devRef .tc main_arg3) : FVec Ideal S5x128x128 .f32) = a.W1) (h4 : (W12 m c (Proc.devRef .tc main_arg4) : FVec Ideal S5x128 .f32) = a.b1)
    (h5 : (W12 m c (Proc.devRef .tc main_arg5) : FVec Ideal S5x128x128 .f32) = a.W2) (h6 : (W12 m c (Proc.devRef .tc main_arg6) : FVec Ideal S5x128 .f32) = a.b2)
    (h7 : (W12 m c (Proc.devRef .tc main_arg7) : FVec Ideal S5x128 .f32) = a.gamma) (h8 : (W12 m c (Proc.devRef .tc main_arg8) : FVec Ideal S5x128 .f32) = a.beta)
    (hsrc : (W12 m c (Proc.devRef .tc main_v1) : IVec S800000 32) = shapeCast S800000 (extractStridedSlice S1x800000 ![0, 0] (W12 m c (Proc.devRef .tc main_arg1) : IVec S2x800000 32) slices_S2x800000_S1x800000_0_0) shapeCasts_S1x800000_S800000)
    (hdst : (W12 m c (Proc.devRef .tc main_v3) : IVec S800000 32) = shapeCast S800000 (extractStridedSlice S1x800000 ![1, 0] (W12 m c (Proc.devRef .tc main_arg1) : IVec S2x800000 32) slices_S2x800000_S1x800000_1_0) shapeCasts_S1x800000_S800000) :
    (W16 m c (Proc.devRef .tc main_v151) : FVec Ideal S50000x128 .f32) = Cert.Spec.stepOne aggFacts a (3 : Fin 5) H := by
  -- the first region's operands
  have e_h : (X6 m c main_v114 : FVec Ideal S50000x128 .f32) = H :=
    (StableHlo.after_of_writes_sub hostOps6 (W12 m c) hostOps6_writes (by decide)).trans hh
  have e_agg : (X6 m c main_v124 : FVec Ideal S50000x128 .f32) = Cert.Spec.Agg aggFacts H a.e := by
    rw [← hh, ← he]; exact host6_agg (W12 m c) hsrc hdst
  -- the rectified activations, as one function of the layer's operands
  have e_P : ∀ (r : Fin 50000) (q : Fin 128), pre6 (X6 m) c (ix2 r q)
      = Cert.Spec.pre (Cert.Spec.feat H) (Cert.Spec.feat (Cert.Spec.Agg aggFacts H a.e)) (Cert.Spec.wt a.W1 3) (Cert.Spec.vc a.b1 3) (Cert.Spec.wt a.W2 3) (Cert.Spec.vc a.b2 3) r q :=
    mlpRows_eq_pre _ _ _ _ _ _ H (Cert.Spec.Agg aggFacts H a.e) _ _ _ _ e_h e_agg
      (fun l k => (host6_W1 (W12 m c) l k).trans (congrFun h3 _)) (fun k => (host6_b1 (W12 m c) k).trans (congrFun h4 _))
      (fun l k => (host6_W2 (W12 m c) l k).trans (congrFun h5 _)) (fun k => (host6_b2 (W12 m c) k).trans (congrFun h6 _))
  -- what the statistics region leaves
  have e_pre : (W14 m c (Proc.devRef .tc main_v141_0) : FVec Ideal S50000x128 .f32) = pre6 (X6 m) c := (W14_arr m c 6).trans (final6_6 (X6 m) c)
  have e_sum : (W14 m c (Proc.devRef .tc main_v141_1) : FVec Ideal S1x128 .f32) = colSum6 (X6 m) c := (W14_arr m c 7).trans (final6_7 (X6 m) c)
  have e_sq : (W14 m c (Proc.devRef .tc main_v141_2) : FVec Ideal S1x128 .f32) = colSumSq6 (X6 m) c := (W14_arr m c 8).trans (final6_8 (X6 m) c)
  -- the normalisation region's operands
  have o_pre : (X7 m c main_v141_0 : FVec Ideal S50000x128 .f32) = pre6 (X6 m) c :=
    (StableHlo.after_of_writes_sub hostOps7 (W14 m c) hostOps7_writes (by decide)).trans e_pre
  have o_g : (X7 m c main_v137 : FVec Ideal S1x128 .f32) = (W13 m c (Proc.devRef .tc main_v137) : FVec Ideal S1x128 .f32) :=
    (StableHlo.after_of_writes_sub hostOps7 (W14 m c) hostOps7_writes (by decide)).trans (W14_of_ne m c main_v137 (by decide))
  have o_b : (X7 m c main_v140 : FVec Ideal S1x128 .f32) = (W13 m c (Proc.devRef .tc main_v140) : FVec Ideal S1x128 .f32) :=
    (StableHlo.after_of_writes_sub hostOps7 (W14 m c) hostOps7_writes (by decide)).trans (W14_of_ne m c main_v140 (by decide))
  -- the normalisation region's output
  refine ((W16_arr m c 5).trans (final7_5 (X7 m) c)).trans ?_
  refine bnApply_eq_stepOne aggFacts a (3 : Fin 5) H _ _ _ _ _ (W14 m c (Proc.devRef .tc main_v141_1)) (W14 m c (Proc.devRef .tc main_v141_2)) ?_ ?_ ?_ ?_ ?_ ?_ ?_
  · intro r q
    exact (congrFun o_pre (ix2 r q)).trans (e_P r q)
  · intro q
    exact (congrFun e_sum _).trans ((colSum6_apply (X6 m) c q).trans (Finset.sum_congr rfl fun r _ => (congrFun o_pre (ix2 r q)).symm))
  · intro q
    exact (congrFun e_sq _).trans ((colSumSq6_apply (X6 m) c q).trans (Finset.sum_congr rfl fun r _ => by rw [congrFun o_pre (ix2 r q)]))
  · intro q
    exact host7_mean (W14 m c) q
  · intro q
    exact host7_istd (W14 m c) q
  · intro q
    exact (congrFun o_g _).trans ((host6_gamma (W12 m c) q).trans (congrFun h7 _))
  · intro q
    exact (congrFun o_b _).trans ((host6_beta (W12 m c) q).trans (congrFun h8 _))

end Cert.KernelIdeal.Reg

end
-- ==== Proof.KernelIdeal.Mlp8Value.lean ====
import proofs.«139862_j28269474742473_1_alg».proof.Proof.KernelIdeal.Mlp8
import proofs.«139862_j28269474742473_1_alg».proof.Proof.KernelIdeal.MlpValue

/-! # The MLP region of layer 4 (custom_call 8): its three output arrays as functions of its six input arrays

Over the extended reals, with the arrays the region is entered at: output 6 ends holding the MLP of the rows of
the first two arrays with the four weight arrays (row block by row block: the ten blocks tile the 50000 rows);
output 7 the column sums of that array over all rows (the accumulator after the last point: zero plus the ten
blocks' column sums, in block order); output 8 the column sums of its squares. -/

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

-- the TensorCore's buffer contents when the region is entered, at the ideal instance
variable (V : (c : Dev nD) → (b : Ref sig .tc) → Buf (Elt Ideal) ((c : Thread nD τ).loc b))

/-! ## The payloads are the shared formulas -/

theorem h8_eq (x0 x1 : FVec Ideal S5000x128 .f32) (x2 : FVec Ideal S128x128 .f32) (x3 : FVec Ideal S1x128 .f32) (x4 : FVec Ideal S128x128 .f32) (x5 : FVec Ideal S1x128 .f32) :
    h8 (F := Ideal) x0 x1 x2 x3 x4 x5 = mlpRows x0 x1 x2 x3 x4 x5 :=
  (show h8 (F := Ideal) x0 x1 x2 x3 x4 x5 = mlpPayB x0 x1 x2 x3 x4 x5 from rfl).trans (mlpPayB_eq x0 x1 x2 x3 x4 x5)

theorem acc8_0_eq (x0 x1 : FVec Ideal S5000x128 .f32) (x2 : FVec Ideal S128x128 .f32) (x3 : FVec Ideal S1x128 .f32) (x4 : FVec Ideal S128x128 .f32) (x5 : FVec Ideal S1x128 .f32) (s : FVec Ideal S1x128 .f32) :
    acc8_0 (F := Ideal) x0 x1 x2 x3 x4 x5 s = accStep s (h8 (F := Ideal) x0 x1 x2 x3 x4 x5) := rfl

theorem acc8_1_eq (x0 x1 : FVec Ideal S5000x128 .f32) (x2 : FVec Ideal S128x128 .f32) (x3 : FVec Ideal S1x128 .f32) (x4 : FVec Ideal S128x128 .f32) (x5 : FVec Ideal S1x128 .f32) (s : FVec Ideal S1x128 .f32) :
    acc8_1 (F := Ideal) x0 x1 x2 x3 x4 x5 s = accStep s (mulf (h8 (F := Ideal) x0 x1 x2 x3 x4 x5) (h8 (F := Ideal) x0 x1 x2 x3 x4 x5)) := rfl

theorem zero8_0 : (k8_pay3 (F := Ideal)) = zeroRow := rfl
theorem zero8_1 : (k8_pay4 (F := Ideal)) = zeroRow := rfl

/-! ## The printed index maps, decided over the grid -/

/-- The two row windows and output 6 sit at block (point, 0); the four weight windows and the two statistics outputs
    at block (0, 0). -/
theorem idx_facts8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0
    ∧ win8_7.index t (0 : Fin 2) = 0 ∧ win8_7.index t (1 : Fin 2) = 0
    ∧ win8_8.index t (0 : Fin 2) = 0 ∧ win8_8.index t (1 : Fin 2) = 0 :=
  (by decide +kernel : ∀ t : Fin grid8.N, _)

/-- Row `p` of point `t`'s block, as a row of the array. -/
def rowOf8 (t : Fin cfg8.N) (p : Fin 5000) : Fin 50000 :=
  ⟨t.val * 5000 + p.val, by have := lt_of_lt_of_eq t.isLt (show cfg8.N = 10 from N_8); have := p.isLt; omega⟩

/-! ## Each input block, read at an index, is its array there -/

theorem tileAt8_0 (c : Dev nD) (t : Fin cfg8.N) (p : Fin 5000) (l : Fin 128) :
    iblk8 V c 0 t (ix2 p l) = (V c (Pipeline.arrRef spec8 0)) (ix2 (rowOf8 t p) l) := by
  obtain ⟨e00, e01, e10, e11, e20, e21, e30, e31, e40, e41, e50, e51, e60, e61, e70, e71, e80, e81⟩ := idx_facts8 t
  refine (show iblk8 V c 0 t (ix2 p l) = (V c (Pipeline.arrRef spec8 0)) (((cfg8.win 0).blk t).view.emb (ix2 p l)) from rfl).trans (congrArg (V c (Pipeline.arrRef spec8 0)) ?_)
  funext ax; apply Fin.ext
  match ax with
  | ⟨0, _⟩ => show win8_0.index t (0 : Fin 2) * 5000 + 1 * p.val = t.val * 5000 + p.val; omega
  | ⟨1, _⟩ => show win8_0.index t (1 : Fin 2) * 128 + 1 * l.val = l.val; omega

theorem tileAt8_1 (c : Dev nD) (t : Fin cfg8.N) (p : Fin 5000) (l : Fin 128) :
    iblk8 V c 1 t (ix2 p l) = (V c (Pipeline.arrRef spec8 1)) (ix2 (rowOf8 t p) l) := by
  obtain ⟨e00, e01, e10, e11, e20, e21, e30, e31, e40, e41, e50, e51, e60, e61, e70, e71, e80, e81⟩ := idx_facts8 t
  refine (show iblk8 V c 1 t (ix2 p l) = (V c (Pipeline.arrRef spec8 1)) (((cfg8.win 1).blk t).view.emb (ix2 p l)) from rfl).trans (congrArg (V c (Pipeline.arrRef spec8 1)) ?_)
  funext ax; apply Fin.ext
  match ax with
  | ⟨0, _⟩ => show win8_1.index t (0 : Fin 2) * 5000 + 1 * p.val = t.val * 5000 + p.val; omega
  | ⟨1, _⟩ => show win8_1.index t (1 : Fin 2) * 128 + 1 * l.val = l.val; omega

theorem wholeAt8_2 (c : Dev nD) (t : Fin cfg8.N) (a : Fin 128) (b : Fin 128) :
    iblk8 V c 2 t (ix2 a b) = (V c (Pipeline.arrRef spec8 2)) (ix2 a b) := by
  obtain ⟨e00, e01, e10, e11, e20, e21, e30, e31, e40, e41, e50, e51, e60, e61, e70, e71, e80, e81⟩ := idx_facts8 t
  refine (show iblk8 V c 2 t (ix2 a b) = (V c (Pipeline.arrRef spec8 2)) (((cfg8.win 2).blk t).view.emb (ix2 a b)) from rfl).trans (congrArg (V c (Pipeline.arrRef spec8 2)) ?_)
  funext ax; apply Fin.ext
  match ax with
  | ⟨0, _⟩ => show win8_2.index t (0 : Fin 2) * 128 + 1 * a.val = a.val; omega
  | ⟨1, _⟩ => show win8_2.index t (1 : Fin 2) * 128 + 1 * b.val = b.val; omega

theorem wholeAt8_3 (c : Dev nD) (t : Fin cfg8.N) (a : Fin 1) (b : Fin 128) :
    iblk8 V c 3 t (ix2 a b) = (V c (Pipeline.arrRef spec8 3)) (ix2 a b) := by
  obtain ⟨e00, e01, e10, e11, e20, e21, e30, e31, e40, e41, e50, e51, e60, e61, e70, e71, e80, e81⟩ := idx_facts8 t
  refine (show iblk8 V c 3 t (ix2 a b) = (V c (Pipeline.arrRef spec8 3)) (((cfg8.win 3).blk t).view.emb (ix2 a b)) from rfl).trans (congrArg (V c (Pipeline.arrRef spec8 3)) ?_)
  funext ax; apply Fin.ext
  match ax with
  | ⟨0, _⟩ => show win8_3.index t (0 : Fin 2) * 1 + 1 * a.val = a.val; omega
  | ⟨1, _⟩ => show win8_3.index t (1 : Fin 2) * 128 + 1 * b.val = b.val; omega

theorem wholeAt8_4 (c : Dev nD) (t : Fin cfg8.N) (a : Fin 128) (b : Fin 128) :
    iblk8 V c 4 t (ix2 a b) = (V c (Pipeline.arrRef spec8 4)) (ix2 a b) := by
  obtain ⟨e00, e01, e10, e11, e20, e21, e30, e31, e40, e41, e50, e51, e60, e61, e70, e71, e80, e81⟩ := idx_facts8 t
  refine (show iblk8 V c 4 t (ix2 a b) = (V c (Pipeline.arrRef spec8 4)) (((cfg8.win 4).blk t).view.emb (ix2 a b)) from rfl).trans (congrArg (V c (Pipeline.arrRef spec8 4)) ?_)
  funext ax; apply Fin.ext
  match ax with
  | ⟨0, _⟩ => show win8_4.index t (0 : Fin 2) * 128 + 1 * a.val = a.val; omega
  | ⟨1, _⟩ => show win8_4.index t (1 : Fin 2) * 128 + 1 * b.val = b.val; omega

theorem wholeAt8_5 (c : Dev nD) (t : Fin cfg8.N) (a : Fin 1) (b : Fin 128) :
    iblk8 V c 5 t (ix2 a b) = (V c (Pipeline.arrRef spec8 5)) (ix2 a b) := by
  obtain ⟨e00, e01, e10, e11, e20, e21, e30, e31, e40, e41, e50, e51, e60, e61, e70, e71, e80, e81⟩ := idx_facts8 t
  refine (show iblk8 V c 5 t (ix2 a b) = (V c (Pipeline.arrRef spec8 5)) (((cfg8.win 5).blk t).view.emb (ix2 a b)) from rfl).trans (congrArg (V c (Pipeline.arrRef spec8 5)) ?_)
  funext ax; apply Fin.ext
  match ax with
  | ⟨0, _⟩ => show win8_5.index t (0 : Fin 2) * 1 + 1 * a.val = a.val; omega
  | ⟨1, _⟩ => show win8_5.index t (1 : Fin 2) * 128 + 1 * b.val = b.val; omega

/-- The MLP of the whole arrays the region is entered at. -/
abbrev pre8 (c : Dev nD) : FVec Ideal S50000x128 .f32 := mlpRows (n := 50000) (V c (Pipeline.arrRef spec8 0)) (V c (Pipeline.arrRef spec8 1)) (V c (Pipeline.arrRef spec8 2)) (V c (Pipeline.arrRef spec8 3)) (V c (Pipeline.arrRef spec8 4)) (V c (Pipeline.arrRef spec8 5))

/-- The MLP's block at point `t`, at `(p, q)`: the MLP of the whole arrays at the block's row. -/
theorem blockAt8 (c : Dev nD) (t : Fin cfg8.N) (p : Fin 5000) (q : Fin 128) :
    h8 (F := Ideal) (iblk8 V c 0 t) (iblk8 V c 1 t) (iblk8 V c 2 t) (iblk8 V c 3 t) (iblk8 V c 4 t) (iblk8 V c 5 t) (ix2 p q) = pre8 V c (ix2 (rowOf8 t p) q) := by
  rw [h8_eq]
  show mlpRows (n := 5000) (iblk8 V c 0 t) (iblk8 V c 1 t) (iblk8 V c 2 t) (iblk8 V c 3 t) (iblk8 V c 4 t) (iblk8 V c 5 t) (ix2 p q) = mlpRows (n := 50000) (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (ix2 (rowOf8 t p) q)
  rw [mlpRows_apply, mlpRows_apply]
  simp only [tileAt8_0 V c t, tileAt8_1 V c t, wholeAt8_2 V c t, wholeAt8_3 V c t, wholeAt8_4 V c t, wholeAt8_5 V c t]

/-! ## Output 6: from blocks to the array -/

/-- Output 6's block at point `t` sits at rows `5000 t …`. -/
theorem emb8_6 (t : Fin cfg8.N) (p : Fin 5000) (q : Fin 128) :
    ((cfg8.win 6).blk t).view.emb (ix2 p q) = ix2 (rowOf8 t p) q := by
  obtain ⟨e00, e01, e10, e11, e20, e21, e30, e31, e40, e41, e50, e51, e60, e61, e70, e71, e80, e81⟩ := idx_facts8 t
  funext ax; apply Fin.ext
  match ax with
  | ⟨0, _⟩ => show win8_6.index t (0 : Fin 2) * 5000 + 1 * p.val = t.val * 5000 + p.val; omega
  | ⟨1, _⟩ => show win8_6.index t (1 : Fin 2) * 128 + 1 * q.val = q.val; omega

set_option maxHeartbeats 400000 in
/-- What point `t` writes back is block `t` of the MLP of the whole arrays. -/
theorem flushed8_6_eq (c : Dev nD) (t : Fin cfg8.N) :
    (dat8 V c).flushed 6 t = ((cfg8.win 6).blk t).view.read (Elt Ideal) (pre8 V c) := by
  show (cfg8.win 6).cut (grid8.coords t) ((dat8 V c).after 6 t) = _
  rw [after8_6]
  funext j
  obtain ⟨p, q, rfl⟩ : ∃ (p : Fin 5000) (q : Fin 128), j = ix2 p q := ⟨j 0, j 1, eq_ix2 j⟩
  show h8 (F := Ideal) (iblk8 V c 0 t) (iblk8 V c 1 t) (iblk8 V c 2 t) (iblk8 V c 3 t) (iblk8 V c 4 t) (iblk8 V c 5 t) (ix2 p q) = pre8 V c (((cfg8.win 6).blk t).view.emb (ix2 p q))
  rw [emb8_6, blockAt8]

theorem mem_blk8_6 (t : Fin cfg8.N) (i : S50000x128.Idx) :
    i ∈ ((cfg8.win 6).blk t).view.set ↔ ∀ a : Fin 2, win8_6.index t a * S5000x128.size a ≤ (i a).val ∧ (i a).val < win8_6.index t a * S5000x128.size a + S5000x128.size a := by
  show i ∈ ((View.whole (Pipeline.arrRef spec8 6)).slice (win8_6.rect t)).set ↔ _
  rw [View.set_slice_whole, Rect.mem_set_unit]
  exact Iff.rfl

/-- The ten blocks cover the array: row `r` is in the block of point `r / 5000`. -/
theorem covered8_6 (i : S50000x128.Idx) :
    ∃ t : Fin cfg8.N, (cfg8.win 6).flush t = true ∧ i ∈ ((cfg8.win 6).blk t).view.set := by
  have hi0 : (i 0).val < 50000 := (i 0).isLt
  have hi1 : (i 1).val < 128 := (i 1).isLt
  have hN : cfg8.N = 10 := N_8
  let t : Fin cfg8.N := ⟨(i 0).val / 5000, by rw [hN]; omega⟩
  obtain ⟨e00, e01, e10, e11, e20, e21, e30, e31, e40, e41, e50, e51, e60, e61, e70, e71, e80, e81⟩ := idx_facts8 t
  have q0 : win8_6.index t (0 : Fin 2) = (i 0).val / 5000 := e60
  refine ⟨t, flush8_6 t, ?_⟩
  rw [mem_blk8_6]
  intro a
  match a with
  | ⟨0, _⟩ => show win8_6.index t (0 : Fin 2) * 5000 ≤ (i 0).val ∧ (i 0).val < win8_6.index t (0 : Fin 2) * 5000 + 5000; omega
  | ⟨1, _⟩ => show win8_6.index t (1 : Fin 2) * 128 ≤ (i 1).val ∧ (i 1).val < win8_6.index t (1 : Fin 2) * 128 + 128; omega

/-- OUTPUT 6 after the region: the MLP of the arrays the region was entered with. -/
theorem final8_6 (c : Dev nD) : (dat8 V c).arrAt 6 cfg8.N = pre8 V c :=
  (dat8 V c).arrAt_eq_of_cover 6 (pre8 V c) (fun t _ => flushed8_6_eq V c t) covered8_6

/-! ## The accumulators after each point -/

/-- A block's column sum is the sum of the array's column over the block's rows. -/
theorem blockSum8 (c : Dev nD) (t : Fin cfg8.N) (q : Fin 128) :
    ∑ p : Fin 5000, h8 (F := Ideal) (iblk8 V c 0 t) (iblk8 V c 1 t) (iblk8 V c 2 t) (iblk8 V c 3 t) (iblk8 V c 4 t) (iblk8 V c 5 t) (ix2 p q)
      = ∑ p : Fin 5000, atRow (fun r : Fin 50000 => pre8 V c (ix2 r q)) (t.val * 5000 + p.val) :=
  Finset.sum_congr rfl fun p _ => (blockAt8 V c t p q).trans (atRow_of_lt (fun r : Fin 50000 => pre8 V c (ix2 r q)) _ (rowOf8 t p).isLt).symm

/-- The same for the squares. -/
theorem blockSumSq8 (c : Dev nD) (t : Fin cfg8.N) (q : Fin 128) :
    ∑ p : Fin 5000, (mulf (h8 (F := Ideal) (iblk8 V c 0 t) (iblk8 V c 1 t) (iblk8 V c 2 t) (iblk8 V c 3 t) (iblk8 V c 4 t) (iblk8 V c 5 t)) (h8 (F := Ideal) (iblk8 V c 0 t) (iblk8 V c 1 t) (iblk8 V c 2 t) (iblk8 V c 3 t) (iblk8 V c 4 t) (iblk8 V c 5 t)) : FVec Ideal S5000x128 .f32) (ix2 p q)
      = ∑ p : Fin 5000, atRow (fun r : Fin 50000 => pre8 V c (ix2 r q) * pre8 V c (ix2 r q)) (t.val * 5000 + p.val) :=
  Finset.sum_congr rfl fun p _ => by
    rw [mulf_apply, blockAt8 V c t p q]
    exact (atRow_of_lt (fun r : Fin 50000 => pre8 V c (ix2 r q) * pre8 V c (ix2 r q)) _ (rowOf8 t p).isLt).symm

/-- The first accumulator after point `n`, at column `q`: the array's column summed over the rows of blocks `0 … n`. -/
theorem accAt8_fst (c : Dev nD) (q : Fin 128) : ∀ (n : ℕ) (hn : n < cfg8.N),
    (accAt8 V c n hn).1 (ix2 (0 : Fin 1) q) = ∑ i : Fin (n + 1), ∑ p : Fin 5000, atRow (fun r : Fin 50000 => pre8 V c (ix2 r q)) (i.val * 5000 + p.val)
  | 0, hn => by
    show acc8_0 (F := Ideal) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (k8_pay3 (F := Ideal)) (ix2 (0 : Fin 1) q) = _
    rw [acc8_0_eq, accStep_apply, zero8_0, zeroRow_apply, blockSum8 V c ⟨0, hn⟩ q]
    exact ((Fin.sum_univ_castSucc (fun i : Fin (0 + 1) => ∑ p : Fin 5000, atRow (fun r : Fin 50000 => pre8 V c (ix2 r q)) (i.val * 5000 + p.val))).trans
      (congrArg (· + _) Finset.sum_empty)).symm
  | n + 1, hn => by
    show acc8_0 (F := Ideal) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (accAt8 V c n (Nat.lt_of_succ_lt hn)).1 (ix2 (0 : Fin 1) q) = _
    rw [acc8_0_eq, accStep_apply, accAt8_fst c q n (Nat.lt_of_succ_lt hn), blockSum8 V c ⟨n + 1, hn⟩ q]
    exact (Fin.sum_univ_castSucc (fun i : Fin (n + 1 + 1) => ∑ p : Fin 5000, atRow (fun r : Fin 50000 => pre8 V c (ix2 r q)) (i.val * 5000 + p.val))).symm

/-- The second accumulator after point `n`, at column `q`: the squares of the array's column summed over those rows. -/
theorem accAt8_snd (c : Dev nD) (q : Fin 128) : ∀ (n : ℕ) (hn : n < cfg8.N),
    (accAt8 V c n hn).2 (ix2 (0 : Fin 1) q) = ∑ i : Fin (n + 1), ∑ p : Fin 5000, atRow (fun r : Fin 50000 => pre8 V c (ix2 r q) * pre8 V c (ix2 r q)) (i.val * 5000 + p.val)
  | 0, hn => by
    show acc8_1 (F := Ideal) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (k8_pay4 (F := Ideal)) (ix2 (0 : Fin 1) q) = _
    rw [acc8_1_eq, accStep_apply, zero8_1, zeroRow_apply, blockSumSq8 V c ⟨0, hn⟩ q]
    exact ((Fin.sum_univ_castSucc (fun i : Fin (0 + 1) => ∑ p : Fin 5000, atRow (fun r : Fin 50000 => pre8 V c (ix2 r q) * pre8 V c (ix2 r q)) (i.val * 5000 + p.val))).trans
      (congrArg (· + _) Finset.sum_empty)).symm
  | n + 1, hn => by
    show acc8_1 (F := Ideal) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (accAt8 V c n (Nat.lt_of_succ_lt hn)).2 (ix2 (0 : Fin 1) q) = _
    rw [acc8_1_eq, accStep_apply, accAt8_snd c q n (Nat.lt_of_succ_lt hn), blockSumSq8 V c ⟨n + 1, hn⟩ q]
    exact (Fin.sum_univ_castSucc (fun i : Fin (n + 1 + 1) => ∑ p : Fin 5000, atRow (fun r : Fin 50000 => pre8 V c (ix2 r q) * pre8 V c (ix2 r q)) (i.val * 5000 + p.val))).symm

/-- The column sums of the MLP of the whole arrays, as a `[1,128]` row. -/
def colSum8 (c : Dev nD) : FVec Ideal S1x128 .f32 := fun i => ∑ r : Fin 50000, pre8 V c (ix2 r (i 1))
/-- The column sums of its squares. -/
def colSumSq8 (c : Dev nD) : FVec Ideal S1x128 .f32 := fun i => ∑ r : Fin 50000, pre8 V c (ix2 r (i 1)) * pre8 V c (ix2 r (i 1))

theorem colSum8_apply (c : Dev nD) (q : Fin 128) : colSum8 V c (ix2 (0 : Fin 1) q) = ∑ r : Fin 50000, pre8 V c (ix2 r q) := rfl
theorem colSumSq8_apply (c : Dev nD) (q : Fin 128) : colSumSq8 V c (ix2 (0 : Fin 1) q) = ∑ r : Fin 50000, pre8 V c (ix2 r q) * pre8 V c (ix2 r q) := rfl

/-- After the last point the accumulators hold the sums over all rows. -/
theorem accLast8_fst (c : Dev nD) (hn : 9 < cfg8.N) (q : Fin 128) : (accAt8 V c 9 hn).1 (ix2 (0 : Fin 1) q) = colSum8 V c (ix2 (0 : Fin 1) q) :=
  (accAt8_fst V c q 9 hn).trans (sum_blocks_rows (fun r : Fin 50000 => pre8 V c (ix2 r q)))
theorem accLast8_snd (c : Dev nD) (hn : 9 < cfg8.N) (q : Fin 128) : (accAt8 V c 9 hn).2 (ix2 (0 : Fin 1) q) = colSumSq8 V c (ix2 (0 : Fin 1) q) :=
  (accAt8_snd V c q 9 hn).trans (sum_blocks_rows (fun r : Fin 50000 => pre8 V c (ix2 r q) * pre8 V c (ix2 r q)))

/-! ## Outputs 7 and 8: written once, at the last point -/

theorem emb8_7 (t : Fin cfg8.N) (q : Fin 128) :
    ((cfg8.win 7).blk t).view.emb (ix2 (0 : Fin 1) q) = ix2 (0 : Fin 1) q := by
  obtain ⟨e00, e01, e10, e11, e20, e21, e30, e31, e40, e41, e50, e51, e60, e61, e70, e71, e80, e81⟩ := idx_facts8 t
  funext ax; apply Fin.ext
  match ax with
  | ⟨0, _⟩ => show win8_7.index t (0 : Fin 2) * 1 + 1 * 0 = 0; omega
  | ⟨1, _⟩ => show win8_7.index t (1 : Fin 2) * 128 + 1 * q.val = q.val; omega

/-- A `[1,128]` row handed to window 7's write-back agrees with a `[1,128]` array read through the window's one block as
    soon as the two agree column by column. -/
theorem flushedRow8_7 (t : Fin cfg8.N) (X G : FVec Ideal S1x128 .f32) (h : ∀ q : Fin 128, X (ix2 (0 : Fin 1) q) = G (ix2 (0 : Fin 1) q)) :
    (cfg8.win 7).cut (grid8.coords t) X = ((cfg8.win 7).blk t).view.read (Elt Ideal) G := by
  funext j
  obtain ⟨u, q, rfl⟩ : ∃ (u : Fin 1) (q : Fin 128), j = ix2 u q := ⟨j 0, j 1, eq_ix2 j⟩
  obtain rfl : u = 0 := Subsingleton.elim _ _
  show X (ix2 (0 : Fin 1) q) = G (((cfg8.win 7).blk t).view.emb (ix2 (0 : Fin 1) q))
  rw [emb8_7 t q]; exact h q

theorem flushed8_7_eq (c : Dev nD) (t : Fin cfg8.N) (hf : (cfg8.win 7).flush t = true) :
    (dat8 V c).flushed 7 t = ((cfg8.win 7).blk t).view.read (Elt Ideal) (colSum8 V c) := by
  have h9 : t.val = 9 := by
    have h1 := (flush8_7 t).mp hf
    have h2 := lt_of_lt_of_eq t.isLt (show cfg8.N = 10 from N_8)
    omega
  show (cfg8.win 7).cut (grid8.coords t) ((dat8 V c).after 7 t) = _
  rw [after8_7]
  refine flushedRow8_7 t _ _ fun q => ?_
  obtain ⟨n, hn⟩ := t
  obtain rfl : n = 9 := h9
  exact accLast8_fst V c hn q

theorem covered8_7 (i : S1x128.Idx) :
    ∃ t : Fin cfg8.N, (cfg8.win 7).flush t = true ∧ i ∈ ((cfg8.win 7).blk t).view.set := by
  have hi0 : (i 0).val < 1 := (i 0).isLt
  have hi1 : (i 1).val < 128 := (i 1).isLt
  have hN : cfg8.N = 10 := N_8
  let t : Fin cfg8.N := ⟨9, by rw [hN]; omega⟩
  obtain ⟨e00, e01, e10, e11, e20, e21, e30, e31, e40, e41, e50, e51, e60, e61, e70, e71, e80, e81⟩ := idx_facts8 t
  refine ⟨t, (flush8_7 t).mpr rfl, ?_⟩
  show i ∈ ((View.whole (Pipeline.arrRef spec8 7)).slice (win8_7.rect t)).set
  rw [View.set_slice_whole, Rect.mem_set_unit]
  intro a
  match a with
  | ⟨0, _⟩ => show win8_7.index t (0 : Fin 2) * 1 ≤ (i 0).val ∧ (i 0).val < win8_7.index t (0 : Fin 2) * 1 + 1; omega
  | ⟨1, _⟩ => show win8_7.index t (1 : Fin 2) * 128 ≤ (i 1).val ∧ (i 1).val < win8_7.index t (1 : Fin 2) * 128 + 128; omega

/-- OUTPUT 7 after the region: the column sums of the MLP of the arrays the region was entered with. -/
theorem final8_7 (c : Dev nD) : (dat8 V c).arrAt 7 cfg8.N = colSum8 V c :=
  (dat8 V c).arrAt_eq_of_cover 7 (colSum8 V c) (fun t hf => flushed8_7_eq V c t hf) covered8_7

theorem emb8_8 (t : Fin cfg8.N) (q : Fin 128) :
    ((cfg8.win 8).blk t).view.emb (ix2 (0 : Fin 1) q) = ix2 (0 : Fin 1) q := by
  obtain ⟨e00, e01, e10, e11, e20, e21, e30, e31, e40, e41, e50, e51, e60, e61, e70, e71, e80, e81⟩ := idx_facts8 t
  funext ax; apply Fin.ext
  match ax with
  | ⟨0, _⟩ => show win8_8.index t (0 : Fin 2) * 1 + 1 * 0 = 0; omega
  | ⟨1, _⟩ => show win8_8.index t (1 : Fin 2) * 128 + 1 * q.val = q.val; omega

/-- A `[1,128]` row handed to window 8's write-back agrees with a `[1,128]` array read through the window's one block as
    soon as the two agree column by column. -/
theorem flushedRow8_8 (t : Fin cfg8.N) (X G : FVec Ideal S1x128 .f32) (h : ∀ q : Fin 128, X (ix2 (0 : Fin 1) q) = G (ix2 (0 : Fin 1) q)) :
    (cfg8.win 8).cut (grid8.coords t) X = ((cfg8.win 8).blk t).view.read (Elt Ideal) G := by
  funext j
  obtain ⟨u, q, rfl⟩ : ∃ (u : Fin 1) (q : Fin 128), j = ix2 u q := ⟨j 0, j 1, eq_ix2 j⟩
  obtain rfl : u = 0 := Subsingleton.elim _ _
  show X (ix2 (0 : Fin 1) q) = G (((cfg8.win 8).blk t).view.emb (ix2 (0 : Fin 1) q))
  rw [emb8_8 t q]; exact h q

theorem flushed8_8_eq (c : Dev nD) (t : Fin cfg8.N) (hf : (cfg8.win 8).flush t = true) :
    (dat8 V c).flushed 8 t = ((cfg8.win 8).blk t).view.read (Elt Ideal) (colSumSq8 V c) := by
  have h9 : t.val = 9 := by
    have h1 := (flush8_8 t).mp hf
    have h2 := lt_of_lt_of_eq t.isLt (show cfg8.N = 10 from N_8)
    omega
  show (cfg8.win 8).cut (grid8.coords t) ((dat8 V c).after 8 t) = _
  rw [after8_8]
  refine flushedRow8_8 t _ _ fun q => ?_
  obtain ⟨n, hn⟩ := t
  obtain rfl : n = 9 := h9
  exact accLast8_snd V c hn q

theorem covered8_8 (i : S1x128.Idx) :
    ∃ t : Fin cfg8.N, (cfg8.win 8).flush t = true ∧ i ∈ ((cfg8.win 8).blk t).view.set := by
  have hi0 : (i 0).val < 1 := (i 0).isLt
  have hi1 : (i 1).val < 128 := (i 1).isLt
  have hN : cfg8.N = 10 := N_8
  let t : Fin cfg8.N := ⟨9, by rw [hN]; omega⟩
  obtain ⟨e00, e01, e10, e11, e20, e21, e30, e31, e40, e41, e50, e51, e60, e61, e70, e71, e80, e81⟩ := idx_facts8 t
  refine ⟨t, (flush8_8 t).mpr rfl, ?_⟩
  show i ∈ ((View.whole (Pipeline.arrRef spec8 8)).slice (win8_8.rect t)).set
  rw [View.set_slice_whole, Rect.mem_set_unit]
  intro a
  match a with
  | ⟨0, _⟩ => show win8_8.index t (0 : Fin 2) * 1 ≤ (i 0).val ∧ (i 0).val < win8_8.index t (0 : Fin 2) * 1 + 1; omega
  | ⟨1, _⟩ => show win8_8.index t (1 : Fin 2) * 128 ≤ (i 1).val ∧ (i 1).val < win8_8.index t (1 : Fin 2) * 128 + 128; omega

/-- OUTPUT 8 after the region: the column sums of the squares of the MLP of the arrays the region was entered with. -/
theorem final8_8 (c : Dev nD) : (dat8 V c).arrAt 8 cfg8.N = colSumSq8 V c :=
  (dat8 V c).arrAt_eq_of_cover 8 (colSumSq8 V c) (fun t hf => flushed8_8_eq V c t hf) covered8_8

end Cert.KernelIdeal.Reg

end
-- ==== Proof.KernelIdeal.Bn9Value.lean ====
/- Region 9 of @main (the batch-norm apply kernel), read as a value at the ideal instance: after the region the
   output array is, index by index, `(h_pre − mean) · inv_std · gamma + beta` of the five arrays the region was
   entered with. The stored tile at an index; each input block read at an index as the array at the index the
   output's tile has there; each point's write-back as a block of that one whole-array function; the ten tiles cover
   the 50000 rows; hence the array. -/
import proofs.«139862_j28269474742473_1_alg».proof.Proof.KernelIdeal.Bn9
import proofs.«139862_j28269474742473_1_alg».proof.Proof.KernelIdeal.BnApply
import Idealize.ShloMosaic.Lib.Pipeline.Value
import Idealize.ShloMosaic.Lib.ValueIdx
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

-- the TensorCore's buffer contents when the region is entered, at the ideal instance
variable (V : (c : Dev nD) → (b : Ref sig .tc) → Buf (Elt Ideal) ((c : Thread nD τ).loc b))

/-- The stored tile at `(p, q)`: the tile of `h_pre` there, less the mean row, times the two scale rows, plus the
    shift row, each row read at lane `q`. -/
theorem bnPay9_apply (x0 : FVec Ideal S5000x128 .f32) (x1 x2 x3 x4 : FVec Ideal S1x128 .f32) (p : Fin 5000) (q : Fin 128) :
    k9_pay1 x0 x1 x2 x3 x4 (ix2 p q)
      = (x0 (ix2 p q) - x1 (ix2 (0 : Fin 1) q)) * x2 (ix2 (0 : Fin 1) q) * x3 (ix2 (0 : Fin 1) q) + x4 (ix2 (0 : Fin 1) q) := by
  unfold k9_pay1
  simp only [shapeCast_self]
  rw [addf_apply, mulf_apply, mulf_apply, subf_apply, bcastRow_apply, bcastRow_apply, bcastRow_apply, bcastRow_apply]

/-- The printed index maps, decided over the grid: the tile of `h_pre` moves with the output's tile; the four rows
    stay at block (0,0); the output's tile index is (row tile, 0). -/
theorem idx_facts9 : ∀ t : Fin cfg9.N, win9_0.index t (0 : Fin 2) = win9_5.index t (0 : Fin 2)
    ∧ win9_0.index t (1 : Fin 2) = win9_5.index t (1 : Fin 2)
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) ≤ 9 ∧ win9_5.index t (1 : Fin 2) = 0 :=
  (by decide +kernel : ∀ t : Fin grid9.N, _)

/-- Every row tile is some point's. -/
theorem idx_onto9 : ∀ (q0 : Fin 10), ∃ t : Fin cfg9.N, win9_5.index t = ![q0.val, 0] :=
  (by decide +kernel : ∀ (q0 : Fin 10), ∃ t : Fin grid9.N, win9_5.index t = ![q0.val, 0])

/-! ## Each input block, read at an index, is its array at the index the output's tile has there -/

/-- The tile of `h_pre` sits where the output's tile sits. -/
theorem embTile9 (t : Fin cfg9.N) (p : Fin 5000) (q : Fin 128) :
    ((cfg9.win 0).blk t).view.emb (ix2 p q) = (((cfg9.win 5).blk t).view.emb (ix2 p q)) := by
  obtain ⟨e0, e1, e2, e3, e4, e5, e6, e7, e8, e9, e10, e11⟩ := idx_facts9 t
  funext a; apply Fin.ext
  match a with
  | ⟨0, _⟩ => show win9_0.index t (0 : Fin 2) * 5000 + 1 * p.val = win9_5.index t (0 : Fin 2) * 5000 + 1 * p.val; omega
  | ⟨1, _⟩ => show win9_0.index t (1 : Fin 2) * 128 + 1 * q.val = win9_5.index t (1 : Fin 2) * 128 + 1 * q.val; omega

theorem tileAt9 (c : Dev nD) (t : Fin cfg9.N) (p : Fin 5000) (q : Fin 128) :
    iblk9 V c 0 t (ix2 p q) = V c (Pipeline.arrRef spec9 0) (((cfg9.win 5).blk t).view.emb (ix2 p q)) :=
  (show iblk9 V c 0 t (ix2 p q) = V c (Pipeline.arrRef spec9 0) (((cfg9.win 0).blk t).view.emb (ix2 p q)) from rfl).trans
    (congrArg (V c (Pipeline.arrRef spec9 0)) (embTile9 t p q))

/-- Row window 1's block is the whole row: lane `q` of the block is lane `q` of the array, the lane the output's tile has there. -/
theorem embRow9_1 (t : Fin cfg9.N) (p : Fin 5000) (q : Fin 128) :
    ((cfg9.win 1).blk t).view.emb (ix2 (0 : Fin 1) q) = ix2 (0 : Fin 1) ((((cfg9.win 5).blk t).view.emb (ix2 p q)) 1) := by
  obtain ⟨e0, e1, e2, e3, e4, e5, e6, e7, e8, e9, e10, e11⟩ := idx_facts9 t
  funext a; apply Fin.ext
  match a with
  | ⟨0, _⟩ => show win9_1.index t (0 : Fin 2) * 1 + 1 * 0 = 0; omega
  | ⟨1, _⟩ => show win9_1.index t (1 : Fin 2) * 128 + 1 * q.val = win9_5.index t (1 : Fin 2) * 128 + 1 * q.val; omega

theorem rowAt9_1 (c : Dev nD) (t : Fin cfg9.N) (p : Fin 5000) (q : Fin 128) :
    iblk9 V c 1 t (ix2 (0 : Fin 1) q) = V c (Pipeline.arrRef spec9 1) (ix2 (0 : Fin 1) ((((cfg9.win 5).blk t).view.emb (ix2 p q)) 1)) :=
  (show iblk9 V c 1 t (ix2 (0 : Fin 1) q) = V c (Pipeline.arrRef spec9 1) (((cfg9.win 1).blk t).view.emb (ix2 (0 : Fin 1) q)) from rfl).trans
    (congrArg (V c (Pipeline.arrRef spec9 1)) (embRow9_1 t p q))

/-- Row window 2's block is the whole row: lane `q` of the block is lane `q` of the array, the lane the output's tile has there. -/
theorem embRow9_2 (t : Fin cfg9.N) (p : Fin 5000) (q : Fin 128) :
    ((cfg9.win 2).blk t).view.emb (ix2 (0 : Fin 1) q) = ix2 (0 : Fin 1) ((((cfg9.win 5).blk t).view.emb (ix2 p q)) 1) := by
  obtain ⟨e0, e1, e2, e3, e4, e5, e6, e7, e8, e9, e10, e11⟩ := idx_facts9 t
  funext a; apply Fin.ext
  match a with
  | ⟨0, _⟩ => show win9_2.index t (0 : Fin 2) * 1 + 1 * 0 = 0; omega
  | ⟨1, _⟩ => show win9_2.index t (1 : Fin 2) * 128 + 1 * q.val = win9_5.index t (1 : Fin 2) * 128 + 1 * q.val; omega

theorem rowAt9_2 (c : Dev nD) (t : Fin cfg9.N) (p : Fin 5000) (q : Fin 128) :
    iblk9 V c 2 t (ix2 (0 : Fin 1) q) = V c (Pipeline.arrRef spec9 2) (ix2 (0 : Fin 1) ((((cfg9.win 5).blk t).view.emb (ix2 p q)) 1)) :=
  (show iblk9 V c 2 t (ix2 (0 : Fin 1) q) = V c (Pipeline.arrRef spec9 2) (((cfg9.win 2).blk t).view.emb (ix2 (0 : Fin 1) q)) from rfl).trans
    (congrArg (V c (Pipeline.arrRef spec9 2)) (embRow9_2 t p q))

/-- Row window 3's block is the whole row: lane `q` of the block is lane `q` of the array, the lane the output's tile has there. -/
theorem embRow9_3 (t : Fin cfg9.N) (p : Fin 5000) (q : Fin 128) :
    ((cfg9.win 3).blk t).view.emb (ix2 (0 : Fin 1) q) = ix2 (0 : Fin 1) ((((cfg9.win 5).blk t).view.emb (ix2 p q)) 1) := by
  obtain ⟨e0, e1, e2, e3, e4, e5, e6, e7, e8, e9, e10, e11⟩ := idx_facts9 t
  funext a; apply Fin.ext
  match a with
  | ⟨0, _⟩ => show win9_3.index t (0 : Fin 2) * 1 + 1 * 0 = 0; omega
  | ⟨1, _⟩ => show win9_3.index t (1 : Fin 2) * 128 + 1 * q.val = win9_5.index t (1 : Fin 2) * 128 + 1 * q.val; omega

theorem rowAt9_3 (c : Dev nD) (t : Fin cfg9.N) (p : Fin 5000) (q : Fin 128) :
    iblk9 V c 3 t (ix2 (0 : Fin 1) q) = V c (Pipeline.arrRef spec9 3) (ix2 (0 : Fin 1) ((((cfg9.win 5).blk t).view.emb (ix2 p q)) 1)) :=
  (show iblk9 V c 3 t (ix2 (0 : Fin 1) q) = V c (Pipeline.arrRef spec9 3) (((cfg9.win 3).blk t).view.emb (ix2 (0 : Fin 1) q)) from rfl).trans
    (congrArg (V c (Pipeline.arrRef spec9 3)) (embRow9_3 t p q))

/-- Row window 4's block is the whole row: lane `q` of the block is lane `q` of the array, the lane the output's tile has there. -/
theorem embRow9_4 (t : Fin cfg9.N) (p : Fin 5000) (q : Fin 128) :
    ((cfg9.win 4).blk t).view.emb (ix2 (0 : Fin 1) q) = ix2 (0 : Fin 1) ((((cfg9.win 5).blk t).view.emb (ix2 p q)) 1) := by
  obtain ⟨e0, e1, e2, e3, e4, e5, e6, e7, e8, e9, e10, e11⟩ := idx_facts9 t
  funext a; apply Fin.ext
  match a with
  | ⟨0, _⟩ => show win9_4.index t (0 : Fin 2) * 1 + 1 * 0 = 0; omega
  | ⟨1, _⟩ => show win9_4.index t (1 : Fin 2) * 128 + 1 * q.val = win9_5.index t (1 : Fin 2) * 128 + 1 * q.val; omega

theorem rowAt9_4 (c : Dev nD) (t : Fin cfg9.N) (p : Fin 5000) (q : Fin 128) :
    iblk9 V c 4 t (ix2 (0 : Fin 1) q) = V c (Pipeline.arrRef spec9 4) (ix2 (0 : Fin 1) ((((cfg9.win 5).blk t).view.emb (ix2 p q)) 1)) :=
  (show iblk9 V c 4 t (ix2 (0 : Fin 1) q) = V c (Pipeline.arrRef spec9 4) (((cfg9.win 4).blk t).view.emb (ix2 (0 : Fin 1) q)) from rfl).trans
    (congrArg (V c (Pipeline.arrRef spec9 4)) (embRow9_4 t p q))

/-! ## From blocks to the array -/

set_option maxHeartbeats 400000 in
/-- What point `t` writes back is block `t` of `bnApply` of the five arrays as the region finds them. -/
theorem flushed9_5_eq (c : Dev nD) (t : Fin cfg9.N) :
    (dat9 V c).flushed 5 t = ((cfg9.win 5).blk t).view.read (Elt Ideal) (bnApply (V c (Pipeline.arrRef spec9 0)) (V c (Pipeline.arrRef spec9 1)) (V c (Pipeline.arrRef spec9 2)) (V c (Pipeline.arrRef spec9 3)) (V c (Pipeline.arrRef spec9 4))) := by
  show (cfg9.win 5).cut (grid9.coords t) ((dat9 V c).after 5 t) = _
  rw [after9_5]
  unfold out9_5
  rw [View.canon_unit_zero origin2]
  simp only [View.ld_unit_zero (S := S5000x128) origin2, View.ld_unit_zero (S := S1x128) origin2]
  funext j
  obtain ⟨p, q, rfl⟩ : ∃ (p : Fin 5000) (q : Fin 128), j = ix2 p q := ⟨j 0, j 1, eq_ix2 j⟩
  show k9_pay1 (iblk9 V c 0 t) (iblk9 V c 1 t) (iblk9 V c 2 t) (iblk9 V c 3 t) (iblk9 V c 4 t) (ix2 p q)
    = bnApply (V c (Pipeline.arrRef spec9 0)) (V c (Pipeline.arrRef spec9 1)) (V c (Pipeline.arrRef spec9 2)) (V c (Pipeline.arrRef spec9 3)) (V c (Pipeline.arrRef spec9 4)) (((cfg9.win 5).blk t).view.emb (ix2 p q))
  rw [bnPay9_apply, tileAt9 V c t p q, rowAt9_1 V c t p q, rowAt9_2 V c t p q, rowAt9_3 V c t p q, rowAt9_4 V c t p q]
  rfl

/-- An index of the array is in point `t`'s block iff each coordinate is in the block's range on its axis. -/
theorem mem_blk9_5 (t : Fin cfg9.N) (i : S50000x128.Idx) :
    i ∈ ((cfg9.win 5).blk t).view.set ↔ ∀ a : Fin 2, win9_5.index t a * S5000x128.size a ≤ (i a).val ∧ (i a).val < win9_5.index t a * S5000x128.size a + S5000x128.size a := by
  show i ∈ ((View.whole main_v188).slice (win9_5.rect t)).set ↔ _
  rw [View.set_slice_whole, Rect.mem_set_unit]
  exact Iff.rfl

/-- The ten tiles cover the array: row `r` is in the block of the point whose tile index is `r / 5000`. -/
theorem covered9_5 (i : S50000x128.Idx) :
    ∃ t : Fin cfg9.N, (cfg9.win 5).flush t = true ∧ i ∈ ((cfg9.win 5).blk t).view.set := by
  have hi0 : (i 0).val < 50000 := (i 0).isLt
  have hi1 : (i 1).val < 128 := (i 1).isLt
  obtain ⟨t, ht⟩ := idx_onto9 ⟨(i 0).val / 5000, by omega⟩
  have q0 : win9_5.index t (0 : Fin 2) = (i 0).val / 5000 := congrFun ht 0
  have q1 : win9_5.index t (1 : Fin 2) = 0 := congrFun ht 1
  refine ⟨t, flush9_5 t, ?_⟩
  rw [mem_blk9_5]
  intro a
  match a with
  | ⟨0, _⟩ => show win9_5.index t (0 : Fin 2) * 5000 ≤ (i 0).val ∧ (i 0).val < win9_5.index t (0 : Fin 2) * 5000 + 5000; omega
  | ⟨1, _⟩ => show win9_5.index t (1 : Fin 2) * 128 ≤ (i 1).val ∧ (i 1).val < win9_5.index t (1 : Fin 2) * 128 + 128; omega

/-- THE ARRAY after the region: `bnApply` of the five arrays the region was entered with. -/
theorem final9_5 (c : Dev nD) : (dat9 V c).arrAt 5 cfg9.N = bnApply (V c (Pipeline.arrRef spec9 0)) (V c (Pipeline.arrRef spec9 1)) (V c (Pipeline.arrRef spec9 2)) (V c (Pipeline.arrRef spec9 3)) (V c (Pipeline.arrRef spec9 4)) :=
  (dat9 V c).arrAt_eq_of_cover 5 (bnApply (V c (Pipeline.arrRef spec9 0)) (V c (Pipeline.arrRef spec9 1)) (V c (Pipeline.arrRef spec9 2)) (V c (Pipeline.arrRef spec9 3)) (V c (Pipeline.arrRef spec9 4))) (fun t _ => flushed9_5_eq V c t) (covered9_5)

end Cert.KernelIdeal.Reg

end
-- ==== Proof.KernelIdeal.Host8.lean ====
/- The host stretch before layer 4's MLP-statistics region, read at the ideal instance from any contents `W`: the
   neighbourhood aggregation of the layer's input features, and the layer's slices of the stacked parameters (two
   weight matrices, two biases, the scale and the shift), each at an index. -/
import proofs.«139862_j28269474742473_1_alg».proof.Proof.Gen.KernelIdeal.Launch
import proofs.«139862_j28269474742473_1_alg».proof.Proof.Gen.KernelIdeal.Regions
import proofs.«139862_j28269474742473_1_alg».proof.Proof.KernelIdeal.HostLayout
import Idealize.ShloMosaic.Lib.StableHlo.Run
import Idealize.ShloMosaic.Lib.ValueLayout

noncomputable section

namespace Cert.KernelIdeal.Reg

open Cert.KernelIdeal Cert.KernelIdeal.Gen
open Idealize.ShloMosaic Idealize.ShloMosaic.TcCoe Idealize.ShloMosaic.ValueIdx Idealize.ShloMosaic.StableHlo

variable (W : Valuation τ sig (Elt Ideal))

set_option maxHeartbeats 1000000 in
/-- The aggregation operand as the stretch's operations: it reads the two edge rows the first stretch cut out. -/
theorem host8_agg_eq : (StableHlo.after hostOps8 W (Proc.devRef .tc main_v161) : FVec Ideal S50000x128 .f32)
    = Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 (W (Proc.devRef .tc main_v3) : IVec S800000 32))
        (Host.gather gather_S50000x128_S800000x1_S800000x128_1_0_n_n_0_1_1128 (W (Proc.devRef .tc main_v151) : FVec Ideal S50000x128 .f32)
          (broadcastInDim S800000x1 ![0] bcast_S800000_S800000x1_0
            (select (cmpi .slt (W (Proc.devRef .tc main_v1) : IVec S800000 32) (broadcastInDim S800000 ![] bcast_S_S800000 (constantI S_ 32 0#32)))
              (addi (W (Proc.devRef .tc main_v1) : IVec S800000 32) (broadcastInDim S800000 ![] bcast_S_S800000 (constantI S_ 32 50000#32)))
              (W (Proc.devRef .tc main_v1) : IVec S800000 32)))) := by
  after_results_simp <;> rfl

/-- When the two edge rows hold what the first stretch cut out of the edge list, the aggregation operand is the
    neighbourhood aggregation of the features the stretch finds. -/
theorem host8_agg (hsrc : (W (Proc.devRef .tc main_v1) : IVec S800000 32) = shapeCast S800000 (extractStridedSlice S1x800000 ![0, 0] (W (Proc.devRef .tc main_arg1) : IVec S2x800000 32) slices_S2x800000_S1x800000_0_0) shapeCasts_S1x800000_S800000)
    (hdst : (W (Proc.devRef .tc main_v3) : IVec S800000 32) = shapeCast S800000 (extractStridedSlice S1x800000 ![1, 0] (W (Proc.devRef .tc main_arg1) : IVec S2x800000 32) slices_S2x800000_S1x800000_1_0) shapeCasts_S1x800000_S800000) :
    (StableHlo.after hostOps8 W (Proc.devRef .tc main_v161) : FVec Ideal S50000x128 .f32) = Cert.Spec.Agg aggFacts (W (Proc.devRef .tc main_v151) : FVec Ideal S50000x128 .f32) (W (Proc.devRef .tc main_arg1) : IVec S2x800000 32) := by
  rw [host8_agg_eq W, hsrc, hdst]; rfl

/-- Layer 4's W1 operand as the stretch's operations of the stacked argument, and at an index. -/
theorem host8_W1_eq : (StableHlo.after hostOps8 W (Proc.devRef .tc main_v163) : FVec Ideal S128x128 .f32)
    = shapeCast S128x128 (extractStridedSlice S1x128x128 ![4, 0, 0] (W (Proc.devRef .tc main_arg3) : FVec Ideal S5x128x128 .f32) slices_S5x128x128_S1x128x128_4_0_0) shapeCasts_S1x128x128_S128x128 := by
  after_results <;> rfl
theorem host8_W1 (l k : Fin 128) : (StableHlo.after hostOps8 W (Proc.devRef .tc main_v163) : FVec Ideal S128x128 .f32) (ix2 l k) = (W (Proc.devRef .tc main_arg3) : FVec Ideal S5x128x128 .f32) (ix3 (4 : Fin 5) l k) := by
  rw [host8_W1_eq W]; exact layerMat_apply _ 4 _ _ (4 : Fin 5) rfl l k

/-- Layer 4's b1 operand as the stretch's operations of the stacked argument, and at an index. -/
theorem host8_b1_eq : (StableHlo.after hostOps8 W (Proc.devRef .tc main_v166) : FVec Ideal S1x128 .f32)
    = shapeCast S1x128 (shapeCast S128 (extractStridedSlice S1x128 ![4, 0] (W (Proc.devRef .tc main_arg4) : FVec Ideal S5x128 .f32) slices_S5x128_S1x128_4_0) shapeCasts_S1x128_S128) shapeCasts_S128_S1x128 := by
  after_results <;> rfl
theorem host8_b1 (k : Fin 128) : (StableHlo.after hostOps8 W (Proc.devRef .tc main_v166) : FVec Ideal S1x128 .f32) (ix2 (0 : Fin 1) k) = (W (Proc.devRef .tc main_arg4) : FVec Ideal S5x128 .f32) (ix2 (4 : Fin 5) k) := by
  rw [host8_b1_eq W]; exact layerRow_apply _ 4 _ _ _ (4 : Fin 5) rfl k

/-- Layer 4's W2 operand as the stretch's operations of the stacked argument, and at an index. -/
theorem host8_W2_eq : (StableHlo.after hostOps8 W (Proc.devRef .tc main_v168) : FVec Ideal S128x128 .f32)
    = shapeCast S128x128 (extractStridedSlice S1x128x128 ![4, 0, 0] (W (Proc.devRef .tc main_arg5) : FVec Ideal S5x128x128 .f32) slices_S5x128x128_S1x128x128_4_0_0) shapeCasts_S1x128x128_S128x128 := by
  after_results <;> rfl
theorem host8_W2 (l k : Fin 128) : (StableHlo.after hostOps8 W (Proc.devRef .tc main_v168) : FVec Ideal S128x128 .f32) (ix2 l k) = (W (Proc.devRef .tc main_arg5) : FVec Ideal S5x128x128 .f32) (ix3 (4 : Fin 5) l k) := by
  rw [host8_W2_eq W]; exact layerMat_apply _ 4 _ _ (4 : Fin 5) rfl l k

/-- Layer 4's b2 operand as the stretch's operations of the stacked argument, and at an index. -/
theorem host8_b2_eq : (StableHlo.after hostOps8 W (Proc.devRef .tc main_v171) : FVec Ideal S1x128 .f32)
    = shapeCast S1x128 (shapeCast S128 (extractStridedSlice S1x128 ![4, 0] (W (Proc.devRef .tc main_arg6) : FVec Ideal S5x128 .f32) slices_S5x128_S1x128_4_0) shapeCasts_S1x128_S128) shapeCasts_S128_S1x128 := by
  after_results <;> rfl
theorem host8_b2 (k : Fin 128) : (StableHlo.after hostOps8 W (Proc.devRef .tc main_v171) : FVec Ideal S1x128 .f32) (ix2 (0 : Fin 1) k) = (W (Proc.devRef .tc main_arg6) : FVec Ideal S5x128 .f32) (ix2 (4 : Fin 5) k) := by
  rw [host8_b2_eq W]; exact layerRow_apply _ 4 _ _ _ (4 : Fin 5) rfl k

/-- Layer 4's gamma operand as the stretch's operations of the stacked argument, and at an index. -/
theorem host8_gamma_eq : (StableHlo.after hostOps8 W (Proc.devRef .tc main_v174) : FVec Ideal S1x128 .f32)
    = shapeCast S1x128 (shapeCast S128 (extractStridedSlice S1x128 ![4, 0] (W (Proc.devRef .tc main_arg7) : FVec Ideal S5x128 .f32) slices_S5x128_S1x128_4_0) shapeCasts_S1x128_S128) shapeCasts_S128_S1x128 := by
  after_results <;> rfl
theorem host8_gamma (k : Fin 128) : (StableHlo.after hostOps8 W (Proc.devRef .tc main_v174) : FVec Ideal S1x128 .f32) (ix2 (0 : Fin 1) k) = (W (Proc.devRef .tc main_arg7) : FVec Ideal S5x128 .f32) (ix2 (4 : Fin 5) k) := by
  rw [host8_gamma_eq W]; exact layerRow_apply _ 4 _ _ _ (4 : Fin 5) rfl k

/-- Layer 4's beta operand as the stretch's operations of the stacked argument, and at an index. -/
theorem host8_beta_eq : (StableHlo.after hostOps8 W (Proc.devRef .tc main_v177) : FVec Ideal S1x128 .f32)
    = shapeCast S1x128 (shapeCast S128 (extractStridedSlice S1x128 ![4, 0] (W (Proc.devRef .tc main_arg8) : FVec Ideal S5x128 .f32) slices_S5x128_S1x128_4_0) shapeCasts_S1x128_S128) shapeCasts_S128_S1x128 := by
  after_results <;> rfl
theorem host8_beta (k : Fin 128) : (StableHlo.after hostOps8 W (Proc.devRef .tc main_v177) : FVec Ideal S1x128 .f32) (ix2 (0 : Fin 1) k) = (W (Proc.devRef .tc main_arg8) : FVec Ideal S5x128 .f32) (ix2 (4 : Fin 5) k) := by
  rw [host8_beta_eq W]; exact layerRow_apply _ 4 _ _ _ (4 : Fin 5) rfl k

/-- The stretch writes neither the features it reads nor the edge list. -/
theorem host8_keeps_h : StableHlo.after hostOps8 W (Proc.devRef .tc main_v151) = W (Proc.devRef .tc main_v151) :=
  StableHlo.after_of_writes_sub hostOps8 W hostOps8_writes (by decide)
theorem host8_keeps_edges : StableHlo.after hostOps8 W (Proc.devRef .tc main_arg1) = W (Proc.devRef .tc main_arg1) :=
  StableHlo.after_of_writes_sub hostOps8 W hostOps8_writes (by decide)
theorem host8_keeps_src : StableHlo.after hostOps8 W (Proc.devRef .tc main_v1) = W (Proc.devRef .tc main_v1) :=
  StableHlo.after_of_writes_sub hostOps8 W hostOps8_writes (by decide)
theorem host8_keeps_dst : StableHlo.after hostOps8 W (Proc.devRef .tc main_v3) = W (Proc.devRef .tc main_v3) :=
  StableHlo.after_of_writes_sub hostOps8 W hostOps8_writes (by decide)

end Cert.KernelIdeal.Reg

end
-- ==== Proof.KernelIdeal.Host9.lean ====
/- The host stretch between an MLP-statistics region and its batch-norm region, read at the ideal instance from any
   contents `W`: from the column sums and sums of squares it computes, lane by lane, the mean `sum / count` and the
   reciprocal standard deviation `rsqrt ((sumsq / count − mean · mean) + eps)`. -/
import proofs.«139862_j28269474742473_1_alg».proof.Proof.Gen.KernelIdeal.Launch
import proofs.«139862_j28269474742473_1_alg».proof.Proof.Gen.KernelIdeal.Regions
import proofs.«139862_j28269474742473_1_alg».proof.Proof.Spec
import Idealize.ShloMosaic.Lib.StableHlo.Run
import Idealize.ShloMosaic.Lib.IdealHost
import Idealize.ShloMosaic.Lib.ValueIdx

noncomputable section

namespace Cert.KernelIdeal.Reg

open Cert.KernelIdeal Cert.KernelIdeal.Gen
open Idealize.ShloMosaic Idealize.ShloMosaic.TcCoe Idealize.ShloMosaic.ValueIdx Idealize.ShloMosaic.StableHlo

variable (W : Valuation τ sig (Elt Ideal))

/-- The mean row as the stretch's operations of the sum row. -/
theorem host9_mean_eq : (StableHlo.after hostOps9 W (Proc.devRef .tc main_v180) : FVec Ideal S1x128 .f32) = Host.divf (W (Proc.devRef .tc main_v178_1) : FVec Ideal S1x128 .f32) (broadcastInDim S1x128 ![] bcast_S_S1x128 (constant (F := Ideal) S_ .f32 0x47435000#32)) := by
  after_results

/-- The mean row at lane `j`: the column sum divided by the node count. -/
theorem host9_mean (j : Fin 128) :
    (StableHlo.after hostOps9 W (Proc.devRef .tc main_v180) : FVec Ideal S1x128 .f32) (ix2 (0 : Fin 1) j) = Ideal.div ((W (Proc.devRef .tc main_v178_1) : FVec Ideal S1x128 .f32) (ix2 (0 : Fin 1) j)) Cert.Spec.count := by
  rw [host9_mean_eq W, hostDivf_apply, broadcastInDim_scalar_apply, constant_apply]; rfl

/-- The reciprocal-standard-deviation row as the stretch's operations of the two statistics rows. -/
theorem host9_istd_eq : (StableHlo.after hostOps9 W (Proc.devRef .tc main_v187) : FVec Ideal S1x128 .f32)
    = Host.rsqrt (addf (subf (Host.divf (W (Proc.devRef .tc main_v178_2) : FVec Ideal S1x128 .f32) (broadcastInDim S1x128 ![] bcast_S_S1x128 (constant (F := Ideal) S_ .f32 0x47435000#32)))
        (mulf (Host.divf (W (Proc.devRef .tc main_v178_1) : FVec Ideal S1x128 .f32) (broadcastInDim S1x128 ![] bcast_S_S1x128 (constant (F := Ideal) S_ .f32 0x47435000#32))) (Host.divf (W (Proc.devRef .tc main_v178_1) : FVec Ideal S1x128 .f32) (broadcastInDim S1x128 ![] bcast_S_S1x128 (constant (F := Ideal) S_ .f32 0x47435000#32))))) (broadcastInDim S1x128 ![] bcast_S_S1x128 (constant (F := Ideal) S_ .f32 0x3727C5AC#32))) := by
  after_results

/-- The reciprocal-standard-deviation row at lane `j`: `rsqrt ((sumsq / count − mean · mean) + eps)`. -/
theorem host9_istd (j : Fin 128) :
    (StableHlo.after hostOps9 W (Proc.devRef .tc main_v187) : FVec Ideal S1x128 .f32) (ix2 (0 : Fin 1) j)
      = Ideal.rsqrt ((Ideal.div ((W (Proc.devRef .tc main_v178_2) : FVec Ideal S1x128 .f32) (ix2 (0 : Fin 1) j)) Cert.Spec.count
          - Ideal.div ((W (Proc.devRef .tc main_v178_1) : FVec Ideal S1x128 .f32) (ix2 (0 : Fin 1) j)) Cert.Spec.count * Ideal.div ((W (Proc.devRef .tc main_v178_1) : FVec Ideal S1x128 .f32) (ix2 (0 : Fin 1) j)) Cert.Spec.count)
        + Cert.Spec.eps) := by
  rw [host9_istd_eq W]
  show Ideal.rsqrt (addf (subf (Host.divf (W (Proc.devRef .tc main_v178_2) : FVec Ideal S1x128 .f32) (broadcastInDim S1x128 ![] bcast_S_S1x128 (constant (F := Ideal) S_ .f32 0x47435000#32)))
        (mulf (Host.divf (W (Proc.devRef .tc main_v178_1) : FVec Ideal S1x128 .f32) (broadcastInDim S1x128 ![] bcast_S_S1x128 (constant (F := Ideal) S_ .f32 0x47435000#32))) (Host.divf (W (Proc.devRef .tc main_v178_1) : FVec Ideal S1x128 .f32) (broadcastInDim S1x128 ![] bcast_S_S1x128 (constant (F := Ideal) S_ .f32 0x47435000#32))))) (broadcastInDim S1x128 ![] bcast_S_S1x128 (constant (F := Ideal) S_ .f32 0x3727C5AC#32)) (ix2 (0 : Fin 1) j)) = _
  rw [addf_apply, subf_apply, mulf_apply, hostDivf_apply, hostDivf_apply, broadcastInDim_scalar_apply, broadcastInDim_scalar_apply, constant_apply, constant_apply]; rfl

/-- The stretch writes neither statistics row. -/
theorem host9_keeps_sum : StableHlo.after hostOps9 W (Proc.devRef .tc main_v178_1) = W (Proc.devRef .tc main_v178_1) :=
  StableHlo.after_of_writes_sub hostOps9 W hostOps9_writes (by decide)

end Cert.KernelIdeal.Reg

end
-- ==== Proof.KernelIdeal.Layer4.lean ====
/- Layer 4 of the kernel's program: its normalisation region ends with the one-pass layer of the
   specification applied to the features the layer was entered with. -/
import proofs.«139862_j28269474742473_1_alg».proof.Proof.KernelIdeal.Mlp8Value
import proofs.«139862_j28269474742473_1_alg».proof.Proof.KernelIdeal.Bn9Value
import proofs.«139862_j28269474742473_1_alg».proof.Proof.KernelIdeal.Host8
import proofs.«139862_j28269474742473_1_alg».proof.Proof.KernelIdeal.Host9
import proofs.«139862_j28269474742473_1_alg».proof.Proof.KernelIdeal.RunData
import proofs.«139862_j28269474742473_1_alg».proof.Proof.KernelIdeal.LayerGlue
import Idealize.ShloMosaic.Lib.StableHlo.Run
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.ShloMosaic.StableHlo
open Idealize.ShloMosaic.Pipeline (Dat)

variable (m : (ℓ : Loc nD τ sig) → Buf (Elt Ideal) ℓ)

set_option maxHeartbeats 1600000 in
/-- Layer 4: from the features `H` the layer is entered with and the argument arrays, the normalisation region leaves
    the one-pass layer of the specification. -/
theorem layer4 (c : Dev nD) (a : Cert.Spec.Args) (H : FVec Ideal S50000x128 .f32)
    (hh : (W16 m c (Proc.devRef .tc main_v151) : FVec Ideal S50000x128 .f32) = H)
    (he : (W16 m c (Proc.devRef .tc main_arg1) : IVec S2x800000 32) = a.e)
    (h3 : (W16 m c (Proc.devRef .tc main_arg3) : FVec Ideal S5x128x128 .f32) = a.W1) (h4 : (W16 m c (Proc.devRef .tc main_arg4) : FVec Ideal S5x128 .f32) = a.b1)
    (h5 : (W16 m c (Proc.devRef .tc main_arg5) : FVec Ideal S5x128x128 .f32) = a.W2) (h6 : (W16 m c (Proc.devRef .tc main_arg6) : FVec Ideal S5x128 .f32) = a.b2)
    (h7 : (W16 m c (Proc.devRef .tc main_arg7) : FVec Ideal S5x128 .f32) = a.gamma) (h8 : (W16 m c (Proc.devRef .tc main_arg8) : FVec Ideal S5x128 .f32) = a.beta)
    (hsrc : (W16 m c (Proc.devRef .tc main_v1) : IVec S800000 32) = shapeCast S800000 (extractStridedSlice S1x800000 ![0, 0] (W16 m c (Proc.devRef .tc main_arg1) : IVec S2x800000 32) slices_S2x800000_S1x800000_0_0) shapeCasts_S1x800000_S800000)
    (hdst : (W16 m c (Proc.devRef .tc main_v3) : IVec S800000 32) = shapeCast S800000 (extractStridedSlice S1x800000 ![1, 0] (W16 m c (Proc.devRef .tc main_arg1) : IVec S2x800000 32) slices_S2x800000_S1x800000_1_0) shapeCasts_S1x800000_S800000) :
    (W20 m c (Proc.devRef .tc main_v188) : FVec Ideal S50000x128 .f32) = Cert.Spec.stepOne aggFacts a (4 : Fin 5) H := by
  -- the first region's operands
  have e_h : (X8 m c main_v151 : FVec Ideal S50000x128 .f32) = H :=
    (StableHlo.after_of_writes_sub hostOps8 (W16 m c) hostOps8_writes (by decide)).trans hh
  have e_agg : (X8 m c main_v161 : FVec Ideal S50000x128 .f32) = Cert.Spec.Agg aggFacts H a.e := by
    rw [← hh, ← he]; exact host8_agg (W16 m c) hsrc hdst
  -- the rectified activations, as one function of the layer's operands
  have e_P : ∀ (r : Fin 50000) (q : Fin 128), pre8 (X8 m) c (ix2 r q)
      = Cert.Spec.pre (Cert.Spec.feat H) (Cert.Spec.feat (Cert.Spec.Agg aggFacts H a.e)) (Cert.Spec.wt a.W1 4) (Cert.Spec.vc a.b1 4) (Cert.Spec.wt a.W2 4) (Cert.Spec.vc a.b2 4) r q :=
    mlpRows_eq_pre _ _ _ _ _ _ H (Cert.Spec.Agg aggFacts H a.e) _ _ _ _ e_h e_agg
      (fun l k => (host8_W1 (W16 m c) l k).trans (congrFun h3 _)) (fun k => (host8_b1 (W16 m c) k).trans (congrFun h4 _))
      (fun l k => (host8_W2 (W16 m c) l k).trans (congrFun h5 _)) (fun k => (host8_b2 (W16 m c) k).trans (congrFun h6 _))
  -- what the statistics region leaves
  have e_pre : (W18 m c (Proc.devRef .tc main_v178_0) : FVec Ideal S50000x128 .f32) = pre8 (X8 m) c := (W18_arr m c 6).trans (final8_6 (X8 m) c)
  have e_sum : (W18 m c (Proc.devRef .tc main_v178_1) : FVec Ideal S1x128 .f32) = colSum8 (X8 m) c := (W18_arr m c 7).trans (final8_7 (X8 m) c)
  have e_sq : (W18 m c (Proc.devRef .tc main_v178_2) : FVec Ideal S1x128 .f32) = colSumSq8 (X8 m) c := (W18_arr m c 8).trans (final8_8 (X8 m) c)
  -- the normalisation region's operands
  have o_pre : (X9 m c main_v178_0 : FVec Ideal S50000x128 .f32) = pre8 (X8 m) c :=
    (StableHlo.after_of_writes_sub hostOps9 (W18 m c) hostOps9_writes (by decide)).trans e_pre
  have o_g : (X9 m c main_v174 : FVec Ideal S1x128 .f32) = (W17 m c (Proc.devRef .tc main_v174) : FVec Ideal S1x128 .f32) :=
    (StableHlo.after_of_writes_sub hostOps9 (W18 m c) hostOps9_writes (by decide)).trans (W18_of_ne m c main_v174 (by decide))
  have o_b : (X9 m c main_v177 : FVec Ideal S1x128 .f32) = (W17 m c (Proc.devRef .tc main_v177) : FVec Ideal S1x128 .f32) :=
    (StableHlo.after_of_writes_sub hostOps9 (W18 m c) hostOps9_writes (by decide)).trans (W18_of_ne m c main_v177 (by decide))
  -- the normalisation region's output
  refine ((W20_arr m c 5).trans (final9_5 (X9 m) c)).trans ?_
  refine bnApply_eq_stepOne aggFacts a (4 : Fin 5) H _ _ _ _ _ (W18 m c (Proc.devRef .tc main_v178_1)) (W18 m c (Proc.devRef .tc main_v178_2)) ?_ ?_ ?_ ?_ ?_ ?_ ?_
  · intro r q
    exact (congrFun o_pre (ix2 r q)).trans (e_P r q)
  · intro q
    exact (congrFun e_sum _).trans ((colSum8_apply (X8 m) c q).trans (Finset.sum_congr rfl fun r _ => (congrFun o_pre (ix2 r q)).symm))
  · intro q
    exact (congrFun e_sq _).trans ((colSumSq8_apply (X8 m) c q).trans (Finset.sum_congr rfl fun r _ => by rw [congrFun o_pre (ix2 r q)]))
  · intro q
    exact host9_mean (W18 m c) q
  · intro q
    exact host9_istd (W18 m c) q
  · intro q
    exact (congrFun o_g _).trans ((host8_gamma (W16 m c) q).trans (congrFun h7 _))
  · intro q
    exact (congrFun o_b _).trans ((host8_beta (W16 m c) q).trans (congrFun h8 _))

end Cert.KernelIdeal.Reg

end
-- ==== Proof.KernelIdeal.Layers.lean ====
/- The five layers of the kernel's program, gathered. -/
import proofs.«139862_j28269474742473_1_alg».proof.Proof.KernelIdeal.Layer0
import proofs.«139862_j28269474742473_1_alg».proof.Proof.KernelIdeal.Layer1
import proofs.«139862_j28269474742473_1_alg».proof.Proof.KernelIdeal.Layer2
import proofs.«139862_j28269474742473_1_alg».proof.Proof.KernelIdeal.Layer3
import proofs.«139862_j28269474742473_1_alg».proof.Proof.KernelIdeal.Layer4
-- ==== Proof.KernelIdeal.Host10.lean ====
/- The last host stretch, read at the ideal instance from any contents `W`: each layer's normalised output gets a
   leading unit axis and the five are stacked along it, so the result at `(L, r, l)` is layer `L`'s output at `(r, l)`. -/
import proofs.«139862_j28269474742473_1_alg».proof.Proof.Gen.KernelIdeal.Launch
import proofs.«139862_j28269474742473_1_alg».proof.Proof.Gen.KernelIdeal.Regions
import Idealize.ShloMosaic.Lib.StableHlo.Run
import Idealize.ShloMosaic.Lib.Pipeline.Value
import Idealize.ShloMosaic.Lib.ValueIdx

noncomputable section

namespace Cert.KernelIdeal.Reg

open Cert.KernelIdeal Cert.KernelIdeal.Gen
open Idealize.ShloMosaic Idealize.ShloMosaic.TcCoe Idealize.ShloMosaic.ValueIdx Idealize.ShloMosaic.StableHlo

variable (W : Valuation τ sig (Elt Ideal))

/-- A `[50000,128]` array given a leading unit axis reads, at `(0, r, l)`, the array at `(r, l)`. -/
theorem addLead_apply (x : FVec Ideal S50000x128 .f32) (hb : S50000x128.BroadcastsInDim S1x50000x128 ![1, 2]) (r : Fin 50000) (l : Fin 128) :
    broadcastInDim S1x50000x128 ![1, 2] hb x (ix3 (0 : Fin 1) r l) = x (ix2 r l) :=
  broadcastInDim_apply _ hb x _ _ (fun a => by match a with | ⟨0, _⟩ => rfl | ⟨1, _⟩ => rfl)

/-- The stack's operation over its five operands, each operand's contents at its own reference. -/
theorem nary5_result {x a b c e y : Ref sig .tc}
    (f : ((k : Fin 5) → ((![x, a, b, c, e] : Fin 5 → Ref sig .tc) k).ty.Contents (Elt Ideal)) → y.ty.Contents (Elt Ideal)) (hxs hy)
    (F : Valuation τ sig (Elt Ideal)) :
    (StableHlo.nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [StableHlo.nary_result]; congr 1; funext k; fin_cases k <;> rfl

/-- The stacked result as the stretch's operations of the five layer outputs. -/
theorem host10_eq : (StableHlo.after hostOps10 W (Proc.devRef .tc main_v194) : FVec Ideal S5x50000x128 .f32)
    = concatenate S5x50000x128 0
      [⟨S1x50000x128, broadcastInDim S1x50000x128 ![1, 2] bcast_S50000x128_S1x50000x128_1_2 (W (Proc.devRef .tc main_v40) : FVec Ideal S50000x128 .f32)⟩,
        ⟨S1x50000x128, broadcastInDim S1x50000x128 ![1, 2] bcast_S50000x128_S1x50000x128_1_2 (W (Proc.devRef .tc main_v77) : FVec Ideal S50000x128 .f32)⟩,
        ⟨S1x50000x128, broadcastInDim S1x50000x128 ![1, 2] bcast_S50000x128_S1x50000x128_1_2 (W (Proc.devRef .tc main_v114) : FVec Ideal S50000x128 .f32)⟩,
        ⟨S1x50000x128, broadcastInDim S1x50000x128 ![1, 2] bcast_S50000x128_S1x50000x128_1_2 (W (Proc.devRef .tc main_v151) : FVec Ideal S50000x128 .f32)⟩,
        ⟨S1x50000x128, broadcastInDim S1x50000x128 ![1, 2] bcast_S50000x128_S1x50000x128_1_2 (W (Proc.devRef .tc main_v188) : FVec Ideal S50000x128 .f32)⟩]
      concatenates_S1x50000x128_S1x50000x128_S1x50000x128_S1x50000x128_S1x50000x128_S5x50000x128_d0 := by
  simp only [after_cons, after_nil]
  rw [nary5_result]
  repeat (first | rw [unary_result] | (rw [unary_result_ne]; rotate_left; decide))
  rfl

/-- Layer 0's slab of the stacked result. -/
theorem host10_out0 (r : Fin 50000) (l : Fin 128) :
    (StableHlo.after hostOps10 W (Proc.devRef .tc main_v194) : FVec Ideal S5x50000x128 .f32) (ix3 (0 : Fin 5) r l)
      = (W (Proc.devRef .tc main_v40) : FVec Ideal S50000x128 .f32) (ix2 r l) := by
  rw [host10_eq W]
  refine Eq.trans (concatenate_apply_piece (0 : Fin 3) _ _ (ix3 (0 : Fin 5) r l) 0 ?_ S1x50000x128 (broadcastInDim S1x50000x128 ![1, 2] bcast_S50000x128_S1x50000x128_1_2 (W (Proc.devRef .tc main_v40) : FVec Ideal S50000x128 .f32)) ?_ rfl 0 ?_
    (ix3 (0 : Fin 1) r l) ?_ ?_) (addLead_apply _ _ r l)
  · exact (by decide : (0 : Nat) < 5)
  · rfl
  · rfl
  · intro b hb
    match b with
    | ⟨0, _⟩ => exact absurd rfl hb
    | ⟨1, _⟩ => rfl
    | ⟨2, _⟩ => rfl
  · rfl

/-- Layer 1's slab of the stacked result. -/
theorem host10_out1 (r : Fin 50000) (l : Fin 128) :
    (StableHlo.after hostOps10 W (Proc.devRef .tc main_v194) : FVec Ideal S5x50000x128 .f32) (ix3 (1 : Fin 5) r l)
      = (W (Proc.devRef .tc main_v77) : FVec Ideal S50000x128 .f32) (ix2 r l) := by
  rw [host10_eq W]
  refine Eq.trans (concatenate_apply_piece (0 : Fin 3) _ _ (ix3 (1 : Fin 5) r l) 1 ?_ S1x50000x128 (broadcastInDim S1x50000x128 ![1, 2] bcast_S50000x128_S1x50000x128_1_2 (W (Proc.devRef .tc main_v77) : FVec Ideal S50000x128 .f32)) ?_ rfl 1 ?_
    (ix3 (0 : Fin 1) r l) ?_ ?_) (addLead_apply _ _ r l)
  · exact (by decide : (1 : Nat) < 5)
  · rfl
  · rfl
  · intro b hb
    match b with
    | ⟨0, _⟩ => exact absurd rfl hb
    | ⟨1, _⟩ => rfl
    | ⟨2, _⟩ => rfl
  · rfl

/-- Layer 2's slab of the stacked result. -/
theorem host10_out2 (r : Fin 50000) (l : Fin 128) :
    (StableHlo.after hostOps10 W (Proc.devRef .tc main_v194) : FVec Ideal S5x50000x128 .f32) (ix3 (2 : Fin 5) r l)
      = (W (Proc.devRef .tc main_v114) : FVec Ideal S50000x128 .f32) (ix2 r l) := by
  rw [host10_eq W]
  refine Eq.trans (concatenate_apply_piece (0 : Fin 3) _ _ (ix3 (2 : Fin 5) r l) 2 ?_ S1x50000x128 (broadcastInDim S1x50000x128 ![1, 2] bcast_S50000x128_S1x50000x128_1_2 (W (Proc.devRef .tc main_v114) : FVec Ideal S50000x128 .f32)) ?_ rfl 2 ?_
    (ix3 (0 : Fin 1) r l) ?_ ?_) (addLead_apply _ _ r l)
  · exact (by decide : (2 : Nat) < 5)
  · rfl
  · rfl
  · intro b hb
    match b with
    | ⟨0, _⟩ => exact absurd rfl hb
    | ⟨1, _⟩ => rfl
    | ⟨2, _⟩ => rfl
  · rfl

/-- Layer 3's slab of the stacked result. -/
theorem host10_out3 (r : Fin 50000) (l : Fin 128) :
    (StableHlo.after hostOps10 W (Proc.devRef .tc main_v194) : FVec Ideal S5x50000x128 .f32) (ix3 (3 : Fin 5) r l)
      = (W (Proc.devRef .tc main_v151) : FVec Ideal S50000x128 .f32) (ix2 r l) := by
  rw [host10_eq W]
  refine Eq.trans (concatenate_apply_piece (0 : Fin 3) _ _ (ix3 (3 : Fin 5) r l) 3 ?_ S1x50000x128 (broadcastInDim S1x50000x128 ![1, 2] bcast_S50000x128_S1x50000x128_1_2 (W (Proc.devRef .tc main_v151) : FVec Ideal S50000x128 .f32)) ?_ rfl 3 ?_
    (ix3 (0 : Fin 1) r l) ?_ ?_) (addLead_apply _ _ r l)
  · exact (by decide : (3 : Nat) < 5)
  · rfl
  · rfl
  · intro b hb
    match b with
    | ⟨0, _⟩ => exact absurd rfl hb
    | ⟨1, _⟩ => rfl
    | ⟨2, _⟩ => rfl
  · rfl

/-- Layer 4's slab of the stacked result. -/
theorem host10_out4 (r : Fin 50000) (l : Fin 128) :
    (StableHlo.after hostOps10 W (Proc.devRef .tc main_v194) : FVec Ideal S5x50000x128 .f32) (ix3 (4 : Fin 5) r l)
      = (W (Proc.devRef .tc main_v188) : FVec Ideal S50000x128 .f32) (ix2 r l) := by
  rw [host10_eq W]
  refine Eq.trans (concatenate_apply_piece (0 : Fin 3) _ _ (ix3 (4 : Fin 5) r l) 4 ?_ S1x50000x128 (broadcastInDim S1x50000x128 ![1, 2] bcast_S50000x128_S1x50000x128_1_2 (W (Proc.devRef .tc main_v188) : FVec Ideal S50000x128 .f32)) ?_ rfl 4 ?_
    (ix3 (0 : Fin 1) r l) ?_ ?_) (addLead_apply _ _ r l)
  · exact (by decide : (4 : Nat) < 5)
  · rfl
  · rfl
  · intro b hb
    match b with
    | ⟨0, _⟩ => exact absurd rfl hb
    | ⟨1, _⟩ => rfl
    | ⟨2, _⟩ => rfl
  · rfl

/-- The stretch writes none of the five layer outputs. -/
theorem host10_keeps0 : StableHlo.after hostOps10 W (Proc.devRef .tc main_v40) = W (Proc.devRef .tc main_v40) :=
  StableHlo.after_of_writes_sub hostOps10 W hostOps10_writes (by decide)
theorem host10_keeps1 : StableHlo.after hostOps10 W (Proc.devRef .tc main_v77) = W (Proc.devRef .tc main_v77) :=
  StableHlo.after_of_writes_sub hostOps10 W hostOps10_writes (by decide)
theorem host10_keeps2 : StableHlo.after hostOps10 W (Proc.devRef .tc main_v114) = W (Proc.devRef .tc main_v114) :=
  StableHlo.after_of_writes_sub hostOps10 W hostOps10_writes (by decide)
theorem host10_keeps3 : StableHlo.after hostOps10 W (Proc.devRef .tc main_v151) = W (Proc.devRef .tc main_v151) :=
  StableHlo.after_of_writes_sub hostOps10 W hostOps10_writes (by decide)
theorem host10_keeps4 : StableHlo.after hostOps10 W (Proc.devRef .tc main_v188) = W (Proc.devRef .tc main_v188) :=
  StableHlo.after_of_writes_sub hostOps10 W hostOps10_writes (by decide)

end Cert.KernelIdeal.Reg

end
-- ==== Proof.SpecStack.lean ====
/-
  The five layers' outputs stacked along a new leading axis: a concatenation of five pieces, each one layer's output
  under a unit leading axis, read at `(L, r, j)` is piece `L` at `(0, r, j)`.
-/
import proofs.«139862_j28269474742473_1_alg».proof.Proof.SpecNet
import Idealize.ShloMosaic.Lib.ValueLayout

noncomputable section

namespace Cert.Spec

open Idealize.ShloMosaic Idealize.ShloMosaic.ValueIdx

abbrev S1x50000x128 : Shape := ⟨3, ![1, 50000, 128]⟩

/-- Piece `L` of five. -/
def pick5 {β : Type} (u0 u1 u2 u3 u4 : β) : Fin 5 → β := ![u0, u1, u2, u3, u4]

/-- A concatenation of five unit-thick pieces along the leading axis, read at `(L, r, j)`. -/
theorem stack5_apply (u0 u1 u2 u3 u4 : S1x50000x128.Idx → EReal)
    (h : Shape.Concatenates [S1x50000x128, S1x50000x128, S1x50000x128, S1x50000x128, S1x50000x128] S5x50000x128 0)
    (L : Fin 5) (r : Fin 50000) (j : Fin 128) :
    concatenate S5x50000x128 0 [⟨S1x50000x128, u0⟩, ⟨S1x50000x128, u1⟩, ⟨S1x50000x128, u2⟩, ⟨S1x50000x128, u3⟩, ⟨S1x50000x128, u4⟩] h
        (ix3 L r j)
      = pick5 u0 u1 u2 u3 u4 L (ix3 (0 : Fin 1) r j) := by
  have off : ∀ b : Fin S1x50000x128.rank, b.cast (rfl : S1x50000x128.rank = S5x50000x128.rank) ≠ (0 : Fin S5x50000x128.rank) →
      (ix3 (0 : Fin 1) r j b).val = (ix3 L r j (b.cast rfl)).val := fun b hb => by
    match b with
    | ⟨0, _⟩ => exact absurd rfl hb
    | ⟨1, _⟩ => rfl
    | ⟨2, _⟩ => rfl
  match L with
  | ⟨0, _⟩ => exact concatenate_apply_piece (t := S5x50000x128) 0 ([⟨S1x50000x128, u0⟩, ⟨S1x50000x128, u1⟩, ⟨S1x50000x128, u2⟩, ⟨S1x50000x128, u3⟩, ⟨S1x50000x128, u4⟩] : List ((s : Shape) × (s.Idx → EReal))) h _ 0 (by show _ < 5; omega) S1x50000x128 u0 rfl rfl 0 rfl (ix3 (0 : Fin 1) r j) off rfl
  | ⟨1, _⟩ => exact concatenate_apply_piece (t := S5x50000x128) 0 ([⟨S1x50000x128, u0⟩, ⟨S1x50000x128, u1⟩, ⟨S1x50000x128, u2⟩, ⟨S1x50000x128, u3⟩, ⟨S1x50000x128, u4⟩] : List ((s : Shape) × (s.Idx → EReal))) h _ 1 (by show _ < 5; omega) S1x50000x128 u1 rfl rfl 1 rfl (ix3 (0 : Fin 1) r j) off rfl
  | ⟨2, _⟩ => exact concatenate_apply_piece (t := S5x50000x128) 0 ([⟨S1x50000x128, u0⟩, ⟨S1x50000x128, u1⟩, ⟨S1x50000x128, u2⟩, ⟨S1x50000x128, u3⟩, ⟨S1x50000x128, u4⟩] : List ((s : Shape) × (s.Idx → EReal))) h _ 2 (by show _ < 5; omega) S1x50000x128 u2 rfl rfl 2 rfl (ix3 (0 : Fin 1) r j) off rfl
  | ⟨3, _⟩ => exact concatenate_apply_piece (t := S5x50000x128) 0 ([⟨S1x50000x128, u0⟩, ⟨S1x50000x128, u1⟩, ⟨S1x50000x128, u2⟩, ⟨S1x50000x128, u3⟩, ⟨S1x50000x128, u4⟩] : List ((s : Shape) × (s.Idx → EReal))) h _ 3 (by show _ < 5; omega) S1x50000x128 u3 rfl rfl 3 rfl (ix3 (0 : Fin 1) r j) off rfl
  | ⟨4, _⟩ => exact concatenate_apply_piece (t := S5x50000x128) 0 ([⟨S1x50000x128, u0⟩, ⟨S1x50000x128, u1⟩, ⟨S1x50000x128, u2⟩, ⟨S1x50000x128, u3⟩, ⟨S1x50000x128, u4⟩] : List ((s : Shape) × (s.Idx → EReal))) h _ 4 (by show _ < 5; omega) S1x50000x128 u4 rfl rfl 4 rfl (ix3 (0 : Fin 1) r j) off rfl

/-- The stacked two-pass outputs at `(L, r, j)`: layer `L + 1`'s output at `(r, j)`. -/
theorem stackTwo_apply (f : AggFacts) (a : Args) (L : Fin 5) (r : Fin 50000) (j : Fin 128) :
    stackTwo f a (ix3 L r j) = outTwo f a (L.val + 1) (ix2 r j) := rfl

theorem stackOne_apply (f : AggFacts) (a : Args) (L : Fin 5) (r : Fin 50000) (j : Fin 128) :
    stackOne f a (ix3 L r j) = outOne f a (L.val + 1) (ix2 r j) := rfl

end Cert.Spec

end
-- ==== Proof.KernelIdeal.Final.lean ====
/- Layer by layer, what the kernel's program leaves: each layer's normalisation region ends with the one-pass layer of the
   specification applied to the features the layer was entered with. -/
import proofs.«139862_j28269474742473_1_alg».proof.Proof.KernelIdeal.Layers
import proofs.«139862_j28269474742473_1_alg».proof.Proof.KernelIdeal.Host10
import proofs.«139862_j28269474742473_1_alg».proof.Proof.SpecStack
import Idealize.ShloMosaic.Lib.StableHlo.Run
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.ShloMosaic.StableHlo
open Idealize.ShloMosaic.Pipeline (Dat)

variable (m : (ℓ : Loc nD τ sig) → Buf (Elt Ideal) ℓ)

/-- The argument arrays as the launch memory of core `c` holds them. -/
def argsAt (c : Dev nD) : Cert.Spec.Args :=
  ⟨W0 m c (Proc.devRef .tc main_arg0), W0 m c (Proc.devRef .tc main_arg1), W0 m c (Proc.devRef .tc main_arg3), W0 m c (Proc.devRef .tc main_arg4), W0 m c (Proc.devRef .tc main_arg5), W0 m c (Proc.devRef .tc main_arg6), W0 m c (Proc.devRef .tc main_arg7), W0 m c (Proc.devRef .tc main_arg8)⟩

/-! ## What the stretches and regions between two layers leave alone -/
theorem keep4_arg1 (c : Dev nD) : W4 m c (Proc.devRef .tc main_arg1) = W0 m c (Proc.devRef .tc main_arg1) :=
  (W4_of_ne m c main_arg1 (by decide)).trans <|
    (StableHlo.after_of_writes_sub hostOps1 (W2 m c) hostOps1_writes (by decide)).trans <|
    (W2_of_ne m c main_arg1 (by decide)).trans <|
    (StableHlo.after_of_writes_sub hostOps0 (W0 m c) hostOps0_writes (by decide))
theorem keep4_arg3 (c : Dev nD) : W4 m c (Proc.devRef .tc main_arg3) = W0 m c (Proc.devRef .tc main_arg3) :=
  (W4_of_ne m c main_arg3 (by decide)).trans <|
    (StableHlo.after_of_writes_sub hostOps1 (W2 m c) hostOps1_writes (by decide)).trans <|
    (W2_of_ne m c main_arg3 (by decide)).trans <|
    (StableHlo.after_of_writes_sub hostOps0 (W0 m c) hostOps0_writes (by decide))
theorem keep4_arg4 (c : Dev nD) : W4 m c (Proc.devRef .tc main_arg4) = W0 m c (Proc.devRef .tc main_arg4) :=
  (W4_of_ne m c main_arg4 (by decide)).trans <|
    (StableHlo.after_of_writes_sub hostOps1 (W2 m c) hostOps1_writes (by decide)).trans <|
    (W2_of_ne m c main_arg4 (by decide)).trans <|
    (StableHlo.after_of_writes_sub hostOps0 (W0 m c) hostOps0_writes (by decide))
theorem keep4_arg5 (c : Dev nD) : W4 m c (Proc.devRef .tc main_arg5) = W0 m c (Proc.devRef .tc main_arg5) :=
  (W4_of_ne m c main_arg5 (by decide)).trans <|
    (StableHlo.after_of_writes_sub hostOps1 (W2 m c) hostOps1_writes (by decide)).trans <|
    (W2_of_ne m c main_arg5 (by decide)).trans <|
    (StableHlo.after_of_writes_sub hostOps0 (W0 m c) hostOps0_writes (by decide))
theorem keep4_arg6 (c : Dev nD) : W4 m c (Proc.devRef .tc main_arg6) = W0 m c (Proc.devRef .tc main_arg6) :=
  (W4_of_ne m c main_arg6 (by decide)).trans <|
    (StableHlo.after_of_writes_sub hostOps1 (W2 m c) hostOps1_writes (by decide)).trans <|
    (W2_of_ne m c main_arg6 (by decide)).trans <|
    (StableHlo.after_of_writes_sub hostOps0 (W0 m c) hostOps0_writes (by decide))
theorem keep4_arg7 (c : Dev nD) : W4 m c (Proc.devRef .tc main_arg7) = W0 m c (Proc.devRef .tc main_arg7) :=
  (W4_of_ne m c main_arg7 (by decide)).trans <|
    (StableHlo.after_of_writes_sub hostOps1 (W2 m c) hostOps1_writes (by decide)).trans <|
    (W2_of_ne m c main_arg7 (by decide)).trans <|
    (StableHlo.after_of_writes_sub hostOps0 (W0 m c) hostOps0_writes (by decide))
theorem keep4_arg8 (c : Dev nD) : W4 m c (Proc.devRef .tc main_arg8) = W0 m c (Proc.devRef .tc main_arg8) :=
  (W4_of_ne m c main_arg8 (by decide)).trans <|
    (StableHlo.after_of_writes_sub hostOps1 (W2 m c) hostOps1_writes (by decide)).trans <|
    (W2_of_ne m c main_arg8 (by decide)).trans <|
    (StableHlo.after_of_writes_sub hostOps0 (W0 m c) hostOps0_writes (by decide))
theorem keep4_main_v1 (c : Dev nD) : W4 m c (Proc.devRef .tc main_v1) = W1 m c (Proc.devRef .tc main_v1) :=
  (W4_of_ne m c main_v1 (by decide)).trans <|
    (StableHlo.after_of_writes_sub hostOps1 (W2 m c) hostOps1_writes (by decide)).trans <|
    (W2_of_ne m c main_v1 (by decide))
theorem keep4_main_v3 (c : Dev nD) : W4 m c (Proc.devRef .tc main_v3) = W1 m c (Proc.devRef .tc main_v3) :=
  (W4_of_ne m c main_v3 (by decide)).trans <|
    (StableHlo.after_of_writes_sub hostOps1 (W2 m c) hostOps1_writes (by decide)).trans <|
    (W2_of_ne m c main_v3 (by decide))
theorem keep8_arg1 (c : Dev nD) : W8 m c (Proc.devRef .tc main_arg1) = W0 m c (Proc.devRef .tc main_arg1) :=
  (W8_of_ne m c main_arg1 (by decide)).trans <|
    (StableHlo.after_of_writes_sub hostOps3 (W6 m c) hostOps3_writes (by decide)).trans <|
    (W6_of_ne m c main_arg1 (by decide)).trans <|
    (StableHlo.after_of_writes_sub hostOps2 (W4 m c) hostOps2_writes (by decide)).trans <|
    (W4_of_ne m c main_arg1 (by decide)).trans <|
    (StableHlo.after_of_writes_sub hostOps1 (W2 m c) hostOps1_writes (by decide)).trans <|
    (W2_of_ne m c main_arg1 (by decide)).trans <|
    (StableHlo.after_of_writes_sub hostOps0 (W0 m c) hostOps0_writes (by decide))
theorem keep8_arg3 (c : Dev nD) : W8 m c (Proc.devRef .tc main_arg3) = W0 m c (Proc.devRef .tc main_arg3) :=
  (W8_of_ne m c main_arg3 (by decide)).trans <|
    (StableHlo.after_of_writes_sub hostOps3 (W6 m c) hostOps3_writes (by decide)).trans <|
    (W6_of_ne m c main_arg3 (by decide)).trans <|
    (StableHlo.after_of_writes_sub hostOps2 (W4 m c) hostOps2_writes (by decide)).trans <|
    (W4_of_ne m c main_arg3 (by decide)).trans <|
    (StableHlo.after_of_writes_sub hostOps1 (W2 m c) hostOps1_writes (by decide)).trans <|
    (W2_of_ne m c main_arg3 (by decide)).trans <|
    (StableHlo.after_of_writes_sub hostOps0 (W0 m c) hostOps0_writes (by decide))
theorem keep8_arg4 (c : Dev nD) : W8 m c (Proc.devRef .tc main_arg4) = W0 m c (Proc.devRef .tc main_arg4) :=
  (W8_of_ne m c main_arg4 (by decide)).trans <|
    (StableHlo.after_of_writes_sub hostOps3 (W6 m c) hostOps3_writes (by decide)).trans <|
    (W6_of_ne m c main_arg4 (by decide)).trans <|
    (StableHlo.after_of_writes_sub hostOps2 (W4 m c) hostOps2_writes (by decide)).trans <|
    (W4_of_ne m c main_arg4 (by decide)).trans <|
    (StableHlo.after_of_writes_sub hostOps1 (W2 m c) hostOps1_writes (by decide)).trans <|
    (W2_of_ne m c main_arg4 (by decide)).trans <|
    (StableHlo.after_of_writes_sub hostOps0 (W0 m c) hostOps0_writes (by decide))
theorem keep8_arg5 (c : Dev nD) : W8 m c (Proc.devRef .tc main_arg5) = W0 m c (Proc.devRef .tc main_arg5) :=
  (W8_of_ne m c main_arg5 (by decide)).trans <|
    (StableHlo.after_of_writes_sub hostOps3 (W6 m c) hostOps3_writes (by decide)).trans <|
    (W6_of_ne m c main_arg5 (by decide)).trans <|
    (StableHlo.after_of_writes_sub hostOps2 (W4 m c) hostOps2_writes (by decide)).trans <|
    (W4_of_ne m c main_arg5 (by decide)).trans <|
    (StableHlo.after_of_writes_sub hostOps1 (W2 m c) hostOps1_writes (by decide)).trans <|
    (W2_of_ne m c main_arg5 (by decide)).trans <|
    (StableHlo.after_of_writes_sub hostOps0 (W0 m c) hostOps0_writes (by decide))
theorem keep8_arg6 (c : Dev nD) : W8 m c (Proc.devRef .tc main_arg6) = W0 m c (Proc.devRef .tc main_arg6) :=
  (W8_of_ne m c main_arg6 (by decide)).trans <|
    (StableHlo.after_of_writes_sub hostOps3 (W6 m c) hostOps3_writes (by decide)).trans <|
    (W6_of_ne m c main_arg6 (by decide)).trans <|
    (StableHlo.after_of_writes_sub hostOps2 (W4 m c) hostOps2_writes (by decide)).trans <|
    (W4_of_ne m c main_arg6 (by decide)).trans <|
    (StableHlo.after_of_writes_sub hostOps1 (W2 m c) hostOps1_writes (by decide)).trans <|
    (W2_of_ne m c main_arg6 (by decide)).trans <|
    (StableHlo.after_of_writes_sub hostOps0 (W0 m c) hostOps0_writes (by decide))
theorem keep8_arg7 (c : Dev nD) : W8 m c (Proc.devRef .tc main_arg7) = W0 m c (Proc.devRef .tc main_arg7) :=
  (W8_of_ne m c main_arg7 (by decide)).trans <|
    (StableHlo.after_of_writes_sub hostOps3 (W6 m c) hostOps3_writes (by decide)).trans <|
    (W6_of_ne m c main_arg7 (by decide)).trans <|
    (StableHlo.after_of_writes_sub hostOps2 (W4 m c) hostOps2_writes (by decide)).trans <|
    (W4_of_ne m c main_arg7 (by decide)).trans <|
    (StableHlo.after_of_writes_sub hostOps1 (W2 m c) hostOps1_writes (by decide)).trans <|
    (W2_of_ne m c main_arg7 (by decide)).trans <|
    (StableHlo.after_of_writes_sub hostOps0 (W0 m c) hostOps0_writes (by decide))
theorem keep8_arg8 (c : Dev nD) : W8 m c (Proc.devRef .tc main_arg8) = W0 m c (Proc.devRef .tc main_arg8) :=
  (W8_of_ne m c main_arg8 (by decide)).trans <|
    (StableHlo.after_of_writes_sub hostOps3 (W6 m c) hostOps3_writes (by decide)).trans <|
    (W6_of_ne m c main_arg8 (by decide)).trans <|
    (StableHlo.after_of_writes_sub hostOps2 (W4 m c) hostOps2_writes (by decide)).trans <|
    (W4_of_ne m c main_arg8 (by decide)).trans <|
    (StableHlo.after_of_writes_sub hostOps1 (W2 m c) hostOps1_writes (by decide)).trans <|
    (W2_of_ne m c main_arg8 (by decide)).trans <|
    (StableHlo.after_of_writes_sub hostOps0 (W0 m c) hostOps0_writes (by decide))
theorem keep8_main_v1 (c : Dev nD) : W8 m c (Proc.devRef .tc main_v1) = W1 m c (Proc.devRef .tc main_v1) :=
  (W8_of_ne m c main_v1 (by decide)).trans <|
    (StableHlo.after_of_writes_sub hostOps3 (W6 m c) hostOps3_writes (by decide)).trans <|
    (W6_of_ne m c main_v1 (by decide)).trans <|
    (StableHlo.after_of_writes_sub hostOps2 (W4 m c) hostOps2_writes (by decide)).trans <|
    (W4_of_ne m c main_v1 (by decide)).trans <|
    (StableHlo.after_of_writes_sub hostOps1 (W2 m c) hostOps1_writes (by decide)).trans <|
    (W2_of_ne m c main_v1 (by decide))
theorem keep8_main_v3 (c : Dev nD) : W8 m c (Proc.devRef .tc main_v3) = W1 m c (Proc.devRef .tc main_v3) :=
  (W8_of_ne m c main_v3 (by decide)).trans <|
    (StableHlo.after_of_writes_sub hostOps3 (W6 m c) hostOps3_writes (by decide)).trans <|
    (W6_of_ne m c main_v3 (by decide)).trans <|
    (StableHlo.after_of_writes_sub hostOps2 (W4 m c) hostOps2_writes (by decide)).trans <|
    (W4_of_ne m c main_v3 (by decide)).trans <|
    (StableHlo.after_of_writes_sub hostOps1 (W2 m c) hostOps1_writes (by decide)).trans <|
    (W2_of_ne m c main_v3 (by decide))
theorem keep12_arg1 (c : Dev nD) : W12 m c (Proc.devRef .tc main_arg1) = W0 m c (Proc.devRef .tc main_arg1) :=
  (W12_of_ne m c main_arg1 (by decide)).trans <|
    (StableHlo.after_of_writes_sub hostOps5 (W10 m c) hostOps5_writes (by decide)).trans <|
    (W10_of_ne m c main_arg1 (by decide)).trans <|
    (StableHlo.after_of_writes_sub hostOps4 (W8 m c) hostOps4_writes (by decide)).trans <|
    (W8_of_ne m c main_arg1 (by decide)).trans <|
    (StableHlo.after_of_writes_sub hostOps3 (W6 m c) hostOps3_writes (by decide)).trans <|
    (W6_of_ne m c main_arg1 (by decide)).trans <|
    (StableHlo.after_of_writes_sub hostOps2 (W4 m c) hostOps2_writes (by decide)).trans <|
    (W4_of_ne m c main_arg1 (by decide)).trans <|
    (StableHlo.after_of_writes_sub hostOps1 (W2 m c) hostOps1_writes (by decide)).trans <|
    (W2_of_ne m c main_arg1 (by decide)).trans <|
    (StableHlo.after_of_writes_sub hostOps0 (W0 m c) hostOps0_writes (by decide))
theorem keep12_arg3 (c : Dev nD) : W12 m c (Proc.devRef .tc main_arg3) = W0 m c (Proc.devRef .tc main_arg3) :=
  (W12_of_ne m c main_arg3 (by decide)).trans <|
    (StableHlo.after_of_writes_sub hostOps5 (W10 m c) hostOps5_writes (by decide)).trans <|
    (W10_of_ne m c main_arg3 (by decide)).trans <|
    (StableHlo.after_of_writes_sub hostOps4 (W8 m c) hostOps4_writes (by decide)).trans <|
    (W8_of_ne m c main_arg3 (by decide)).trans <|
    (StableHlo.after_of_writes_sub hostOps3 (W6 m c) hostOps3_writes (by decide)).trans <|
    (W6_of_ne m c main_arg3 (by decide)).trans <|
    (StableHlo.after_of_writes_sub hostOps2 (W4 m c) hostOps2_writes (by decide)).trans <|
    (W4_of_ne m c main_arg3 (by decide)).trans <|
    (StableHlo.after_of_writes_sub hostOps1 (W2 m c) hostOps1_writes (by decide)).trans <|
    (W2_of_ne m c main_arg3 (by decide)).trans <|
    (StableHlo.after_of_writes_sub hostOps0 (W0 m c) hostOps0_writes (by decide))
theorem keep12_arg4 (c : Dev nD) : W12 m c (Proc.devRef .tc main_arg4) = W0 m c (Proc.devRef .tc main_arg4) :=
  (W12_of_ne m c main_arg4 (by decide)).trans <|
    (StableHlo.after_of_writes_sub hostOps5 (W10 m c) hostOps5_writes (by decide)).trans <|
    (W10_of_ne m c main_arg4 (by decide)).trans <|
    (StableHlo.after_of_writes_sub hostOps4 (W8 m c) hostOps4_writes (by decide)).trans <|
    (W8_of_ne m c main_arg4 (by decide)).trans <|
    (StableHlo.after_of_writes_sub hostOps3 (W6 m c) hostOps3_writes (by decide)).trans <|
    (W6_of_ne m c main_arg4 (by decide)).trans <|
    (StableHlo.after_of_writes_sub hostOps2 (W4 m c) hostOps2_writes (by decide)).trans <|
    (W4_of_ne m c main_arg4 (by decide)).trans <|
    (StableHlo.after_of_writes_sub hostOps1 (W2 m c) hostOps1_writes (by decide)).trans <|
    (W2_of_ne m c main_arg4 (by decide)).trans <|
    (StableHlo.after_of_writes_sub hostOps0 (W0 m c) hostOps0_writes (by decide))
theorem keep12_arg5 (c : Dev nD) : W12 m c (Proc.devRef .tc main_arg5) = W0 m c (Proc.devRef .tc main_arg5) :=
  (W12_of_ne m c main_arg5 (by decide)).trans <|
    (StableHlo.after_of_writes_sub hostOps5 (W10 m c) hostOps5_writes (by decide)).trans <|
    (W10_of_ne m c main_arg5 (by decide)).trans <|
    (StableHlo.after_of_writes_sub hostOps4 (W8 m c) hostOps4_writes (by decide)).trans <|
    (W8_of_ne m c main_arg5 (by decide)).trans <|
    (StableHlo.after_of_writes_sub hostOps3 (W6 m c) hostOps3_writes (by decide)).trans <|
    (W6_of_ne m c main_arg5 (by decide)).trans <|
    (StableHlo.after_of_writes_sub hostOps2 (W4 m c) hostOps2_writes (by decide)).trans <|
    (W4_of_ne m c main_arg5 (by decide)).trans <|
    (StableHlo.after_of_writes_sub hostOps1 (W2 m c) hostOps1_writes (by decide)).trans <|
    (W2_of_ne m c main_arg5 (by decide)).trans <|
    (StableHlo.after_of_writes_sub hostOps0 (W0 m c) hostOps0_writes (by decide))
theorem keep12_arg6 (c : Dev nD) : W12 m c (Proc.devRef .tc main_arg6) = W0 m c (Proc.devRef .tc main_arg6) :=
  (W12_of_ne m c main_arg6 (by decide)).trans <|
    (StableHlo.after_of_writes_sub hostOps5 (W10 m c) hostOps5_writes (by decide)).trans <|
    (W10_of_ne m c main_arg6 (by decide)).trans <|
    (StableHlo.after_of_writes_sub hostOps4 (W8 m c) hostOps4_writes (by decide)).trans <|
    (W8_of_ne m c main_arg6 (by decide)).trans <|
    (StableHlo.after_of_writes_sub hostOps3 (W6 m c) hostOps3_writes (by decide)).trans <|
    (W6_of_ne m c main_arg6 (by decide)).trans <|
    (StableHlo.after_of_writes_sub hostOps2 (W4 m c) hostOps2_writes (by decide)).trans <|
    (W4_of_ne m c main_arg6 (by decide)).trans <|
    (StableHlo.after_of_writes_sub hostOps1 (W2 m c) hostOps1_writes (by decide)).trans <|
    (W2_of_ne m c main_arg6 (by decide)).trans <|
    (StableHlo.after_of_writes_sub hostOps0 (W0 m c) hostOps0_writes (by decide))
theorem keep12_arg7 (c : Dev nD) : W12 m c (Proc.devRef .tc main_arg7) = W0 m c (Proc.devRef .tc main_arg7) :=
  (W12_of_ne m c main_arg7 (by decide)).trans <|
    (StableHlo.after_of_writes_sub hostOps5 (W10 m c) hostOps5_writes (by decide)).trans <|
    (W10_of_ne m c main_arg7 (by decide)).trans <|
    (StableHlo.after_of_writes_sub hostOps4 (W8 m c) hostOps4_writes (by decide)).trans <|
    (W8_of_ne m c main_arg7 (by decide)).trans <|
    (StableHlo.after_of_writes_sub hostOps3 (W6 m c) hostOps3_writes (by decide)).trans <|
    (W6_of_ne m c main_arg7 (by decide)).trans <|
    (StableHlo.after_of_writes_sub hostOps2 (W4 m c) hostOps2_writes (by decide)).trans <|
    (W4_of_ne m c main_arg7 (by decide)).trans <|
    (StableHlo.after_of_writes_sub hostOps1 (W2 m c) hostOps1_writes (by decide)).trans <|
    (W2_of_ne m c main_arg7 (by decide)).trans <|
    (StableHlo.after_of_writes_sub hostOps0 (W0 m c) hostOps0_writes (by decide))
theorem keep12_arg8 (c : Dev nD) : W12 m c (Proc.devRef .tc main_arg8) = W0 m c (Proc.devRef .tc main_arg8) :=
  (W12_of_ne m c main_arg8 (by decide)).trans <|
    (StableHlo.after_of_writes_sub hostOps5 (W10 m c) hostOps5_writes (by decide)).trans <|
    (W10_of_ne m c main_arg8 (by decide)).trans <|
    (StableHlo.after_of_writes_sub hostOps4 (W8 m c) hostOps4_writes (by decide)).trans <|
    (W8_of_ne m c main_arg8 (by decide)).trans <|
    (StableHlo.after_of_writes_sub hostOps3 (W6 m c) hostOps3_writes (by decide)).trans <|
    (W6_of_ne m c main_arg8 (by decide)).trans <|
    (StableHlo.after_of_writes_sub hostOps2 (W4 m c) hostOps2_writes (by decide)).trans <|
    (W4_of_ne m c main_arg8 (by decide)).trans <|
    (StableHlo.after_of_writes_sub hostOps1 (W2 m c) hostOps1_writes (by decide)).trans <|
    (W2_of_ne m c main_arg8 (by decide)).trans <|
    (StableHlo.after_of_writes_sub hostOps0 (W0 m c) hostOps0_writes (by decide))
theorem keep12_main_v1 (c : Dev nD) : W12 m c (Proc.devRef .tc main_v1) = W1 m c (Proc.devRef .tc main_v1) :=
  (W12_of_ne m c main_v1 (by decide)).trans <|
    (StableHlo.after_of_writes_sub hostOps5 (W10 m c) hostOps5_writes (by decide)).trans <|
    (W10_of_ne m c main_v1 (by decide)).trans <|
    (StableHlo.after_of_writes_sub hostOps4 (W8 m c) hostOps4_writes (by decide)).trans <|
    (W8_of_ne m c main_v1 (by decide)).trans <|
    (StableHlo.after_of_writes_sub hostOps3 (W6 m c) hostOps3_writes (by decide)).trans <|
    (W6_of_ne m c main_v1 (by decide)).trans <|
    (StableHlo.after_of_writes_sub hostOps2 (W4 m c) hostOps2_writes (by decide)).trans <|
    (W4_of_ne m c main_v1 (by decide)).trans <|
    (StableHlo.after_of_writes_sub hostOps1 (W2 m c) hostOps1_writes (by decide)).trans <|
    (W2_of_ne m c main_v1 (by decide))
theorem keep12_main_v3 (c : Dev nD) : W12 m c (Proc.devRef .tc main_v3) = W1 m c (Proc.devRef .tc main_v3) :=
  (W12_of_ne m c main_v3 (by decide)).trans <|
    (StableHlo.after_of_writes_sub hostOps5 (W10 m c) hostOps5_writes (by decide)).trans <|
    (W10_of_ne m c main_v3 (by decide)).trans <|
    (StableHlo.after_of_writes_sub hostOps4 (W8 m c) hostOps4_writes (by decide)).trans <|
    (W8_of_ne m c main_v3 (by decide)).trans <|
    (StableHlo.after_of_writes_sub hostOps3 (W6 m c) hostOps3_writes (by decide)).trans <|
    (W6_of_ne m c main_v3 (by decide)).trans <|
    (StableHlo.after_of_writes_sub hostOps2 (W4 m c) hostOps2_writes (by decide)).trans <|
    (W4_of_ne m c main_v3 (by decide)).trans <|
    (StableHlo.after_of_writes_sub hostOps1 (W2 m c) hostOps1_writes (by decide)).trans <|
    (W2_of_ne m c main_v3 (by decide))
theorem keep16_arg1 (c : Dev nD) : W16 m c (Proc.devRef .tc main_arg1) = W0 m c (Proc.devRef .tc main_arg1) :=
  (W16_of_ne m c main_arg1 (by decide)).trans <|
    (StableHlo.after_of_writes_sub hostOps7 (W14 m c) hostOps7_writes (by decide)).trans <|
    (W14_of_ne m c main_arg1 (by decide)).trans <|
    (StableHlo.after_of_writes_sub hostOps6 (W12 m c) hostOps6_writes (by decide)).trans <|
    (W12_of_ne m c main_arg1 (by decide)).trans <|
    (StableHlo.after_of_writes_sub hostOps5 (W10 m c) hostOps5_writes (by decide)).trans <|
    (W10_of_ne m c main_arg1 (by decide)).trans <|
    (StableHlo.after_of_writes_sub hostOps4 (W8 m c) hostOps4_writes (by decide)).trans <|
    (W8_of_ne m c main_arg1 (by decide)).trans <|
    (StableHlo.after_of_writes_sub hostOps3 (W6 m c) hostOps3_writes (by decide)).trans <|
    (W6_of_ne m c main_arg1 (by decide)).trans <|
    (StableHlo.after_of_writes_sub hostOps2 (W4 m c) hostOps2_writes (by decide)).trans <|
    (W4_of_ne m c main_arg1 (by decide)).trans <|
    (StableHlo.after_of_writes_sub hostOps1 (W2 m c) hostOps1_writes (by decide)).trans <|
    (W2_of_ne m c main_arg1 (by decide)).trans <|
    (StableHlo.after_of_writes_sub hostOps0 (W0 m c) hostOps0_writes (by decide))
theorem keep16_arg3 (c : Dev nD) : W16 m c (Proc.devRef .tc main_arg3) = W0 m c (Proc.devRef .tc main_arg3) :=
  (W16_of_ne m c main_arg3 (by decide)).trans <|
    (StableHlo.after_of_writes_sub hostOps7 (W14 m c) hostOps7_writes (by decide)).trans <|
    (W14_of_ne m c main_arg3 (by decide)).trans <|
    (StableHlo.after_of_writes_sub hostOps6 (W12 m c) hostOps6_writes (by decide)).trans <|
    (W12_of_ne m c main_arg3 (by decide)).trans <|
    (StableHlo.after_of_writes_sub hostOps5 (W10 m c) hostOps5_writes (by decide)).trans <|
    (W10_of_ne m c main_arg3 (by decide)).trans <|
    (StableHlo.after_of_writes_sub hostOps4 (W8 m c) hostOps4_writes (by decide)).trans <|
    (W8_of_ne m c main_arg3 (by decide)).trans <|
    (StableHlo.after_of_writes_sub hostOps3 (W6 m c) hostOps3_writes (by decide)).trans <|
    (W6_of_ne m c main_arg3 (by decide)).trans <|
    (StableHlo.after_of_writes_sub hostOps2 (W4 m c) hostOps2_writes (by decide)).trans <|
    (W4_of_ne m c main_arg3 (by decide)).trans <|
    (StableHlo.after_of_writes_sub hostOps1 (W2 m c) hostOps1_writes (by decide)).trans <|
    (W2_of_ne m c main_arg3 (by decide)).trans <|
    (StableHlo.after_of_writes_sub hostOps0 (W0 m c) hostOps0_writes (by decide))
theorem keep16_arg4 (c : Dev nD) : W16 m c (Proc.devRef .tc main_arg4) = W0 m c (Proc.devRef .tc main_arg4) :=
  (W16_of_ne m c main_arg4 (by decide)).trans <|
    (StableHlo.after_of_writes_sub hostOps7 (W14 m c) hostOps7_writes (by decide)).trans <|
    (W14_of_ne m c main_arg4 (by decide)).trans <|
    (StableHlo.after_of_writes_sub hostOps6 (W12 m c) hostOps6_writes (by decide)).trans <|
    (W12_of_ne m c main_arg4 (by decide)).trans <|
    (StableHlo.after_of_writes_sub hostOps5 (W10 m c) hostOps5_writes (by decide)).trans <|
    (W10_of_ne m c main_arg4 (by decide)).trans <|
    (StableHlo.after_of_writes_sub hostOps4 (W8 m c) hostOps4_writes (by decide)).trans <|
    (W8_of_ne m c main_arg4 (by decide)).trans <|
    (StableHlo.after_of_writes_sub hostOps3 (W6 m c) hostOps3_writes (by decide)).trans <|
    (W6_of_ne m c main_arg4 (by decide)).trans <|
    (StableHlo.after_of_writes_sub hostOps2 (W4 m c) hostOps2_writes (by decide)).trans <|
    (W4_of_ne m c main_arg4 (by decide)).trans <|
    (StableHlo.after_of_writes_sub hostOps1 (W2 m c) hostOps1_writes (by decide)).trans <|
    (W2_of_ne m c main_arg4 (by decide)).trans <|
    (StableHlo.after_of_writes_sub hostOps0 (W0 m c) hostOps0_writes (by decide))
theorem keep16_arg5 (c : Dev nD) : W16 m c (Proc.devRef .tc main_arg5) = W0 m c (Proc.devRef .tc main_arg5) :=
  (W16_of_ne m c main_arg5 (by decide)).trans <|
    (StableHlo.after_of_writes_sub hostOps7 (W14 m c) hostOps7_writes (by decide)).trans <|
    (W14_of_ne m c main_arg5 (by decide)).trans <|
    (StableHlo.after_of_writes_sub hostOps6 (W12 m c) hostOps6_writes (by decide)).trans <|
    (W12_of_ne m c main_arg5 (by decide)).trans <|
    (StableHlo.after_of_writes_sub hostOps5 (W10 m c) hostOps5_writes (by decide)).trans <|
    (W10_of_ne m c main_arg5 (by decide)).trans <|
    (StableHlo.after_of_writes_sub hostOps4 (W8 m c) hostOps4_writes (by decide)).trans <|
    (W8_of_ne m c main_arg5 (by decide)).trans <|
    (StableHlo.after_of_writes_sub hostOps3 (W6 m c) hostOps3_writes (by decide)).trans <|
    (W6_of_ne m c main_arg5 (by decide)).trans <|
    (StableHlo.after_of_writes_sub hostOps2 (W4 m c) hostOps2_writes (by decide)).trans <|
    (W4_of_ne m c main_arg5 (by decide)).trans <|
    (StableHlo.after_of_writes_sub hostOps1 (W2 m c) hostOps1_writes (by decide)).trans <|
    (W2_of_ne m c main_arg5 (by decide)).trans <|
    (StableHlo.after_of_writes_sub hostOps0 (W0 m c) hostOps0_writes (by decide))
theorem keep16_arg6 (c : Dev nD) : W16 m c (Proc.devRef .tc main_arg6) = W0 m c (Proc.devRef .tc main_arg6) :=
  (W16_of_ne m c main_arg6 (by decide)).trans <|
    (StableHlo.after_of_writes_sub hostOps7 (W14 m c) hostOps7_writes (by decide)).trans <|
    (W14_of_ne m c main_arg6 (by decide)).trans <|
    (StableHlo.after_of_writes_sub hostOps6 (W12 m c) hostOps6_writes (by decide)).trans <|
    (W12_of_ne m c main_arg6 (by decide)).trans <|
    (StableHlo.after_of_writes_sub hostOps5 (W10 m c) hostOps5_writes (by decide)).trans <|
    (W10_of_ne m c main_arg6 (by decide)).trans <|
    (StableHlo.after_of_writes_sub hostOps4 (W8 m c) hostOps4_writes (by decide)).trans <|
    (W8_of_ne m c main_arg6 (by decide)).trans <|
    (StableHlo.after_of_writes_sub hostOps3 (W6 m c) hostOps3_writes (by decide)).trans <|
    (W6_of_ne m c main_arg6 (by decide)).trans <|
    (StableHlo.after_of_writes_sub hostOps2 (W4 m c) hostOps2_writes (by decide)).trans <|
    (W4_of_ne m c main_arg6 (by decide)).trans <|
    (StableHlo.after_of_writes_sub hostOps1 (W2 m c) hostOps1_writes (by decide)).trans <|
    (W2_of_ne m c main_arg6 (by decide)).trans <|
    (StableHlo.after_of_writes_sub hostOps0 (W0 m c) hostOps0_writes (by decide))
theorem keep16_arg7 (c : Dev nD) : W16 m c (Proc.devRef .tc main_arg7) = W0 m c (Proc.devRef .tc main_arg7) :=
  (W16_of_ne m c main_arg7 (by decide)).trans <|
    (StableHlo.after_of_writes_sub hostOps7 (W14 m c) hostOps7_writes (by decide)).trans <|
    (W14_of_ne m c main_arg7 (by decide)).trans <|
    (StableHlo.after_of_writes_sub hostOps6 (W12 m c) hostOps6_writes (by decide)).trans <|
    (W12_of_ne m c main_arg7 (by decide)).trans <|
    (StableHlo.after_of_writes_sub hostOps5 (W10 m c) hostOps5_writes (by decide)).trans <|
    (W10_of_ne m c main_arg7 (by decide)).trans <|
    (StableHlo.after_of_writes_sub hostOps4 (W8 m c) hostOps4_writes (by decide)).trans <|
    (W8_of_ne m c main_arg7 (by decide)).trans <|
    (StableHlo.after_of_writes_sub hostOps3 (W6 m c) hostOps3_writes (by decide)).trans <|
    (W6_of_ne m c main_arg7 (by decide)).trans <|
    (StableHlo.after_of_writes_sub hostOps2 (W4 m c) hostOps2_writes (by decide)).trans <|
    (W4_of_ne m c main_arg7 (by decide)).trans <|
    (StableHlo.after_of_writes_sub hostOps1 (W2 m c) hostOps1_writes (by decide)).trans <|
    (W2_of_ne m c main_arg7 (by decide)).trans <|
    (StableHlo.after_of_writes_sub hostOps0 (W0 m c) hostOps0_writes (by decide))
theorem keep16_arg8 (c : Dev nD) : W16 m c (Proc.devRef .tc main_arg8) = W0 m c (Proc.devRef .tc main_arg8) :=
  (W16_of_ne m c main_arg8 (by decide)).trans <|
    (StableHlo.after_of_writes_sub hostOps7 (W14 m c) hostOps7_writes (by decide)).trans <|
    (W14_of_ne m c main_arg8 (by decide)).trans <|
    (StableHlo.after_of_writes_sub hostOps6 (W12 m c) hostOps6_writes (by decide)).trans <|
    (W12_of_ne m c main_arg8 (by decide)).trans <|
    (StableHlo.after_of_writes_sub hostOps5 (W10 m c) hostOps5_writes (by decide)).trans <|
    (W10_of_ne m c main_arg8 (by decide)).trans <|
    (StableHlo.after_of_writes_sub hostOps4 (W8 m c) hostOps4_writes (by decide)).trans <|
    (W8_of_ne m c main_arg8 (by decide)).trans <|
    (StableHlo.after_of_writes_sub hostOps3 (W6 m c) hostOps3_writes (by decide)).trans <|
    (W6_of_ne m c main_arg8 (by decide)).trans <|
    (StableHlo.after_of_writes_sub hostOps2 (W4 m c) hostOps2_writes (by decide)).trans <|
    (W4_of_ne m c main_arg8 (by decide)).trans <|
    (StableHlo.after_of_writes_sub hostOps1 (W2 m c) hostOps1_writes (by decide)).trans <|
    (W2_of_ne m c main_arg8 (by decide)).trans <|
    (StableHlo.after_of_writes_sub hostOps0 (W0 m c) hostOps0_writes (by decide))
theorem keep16_main_v1 (c : Dev nD) : W16 m c (Proc.devRef .tc main_v1) = W1 m c (Proc.devRef .tc main_v1) :=
  (W16_of_ne m c main_v1 (by decide)).trans <|
    (StableHlo.after_of_writes_sub hostOps7 (W14 m c) hostOps7_writes (by decide)).trans <|
    (W14_of_ne m c main_v1 (by decide)).trans <|
    (StableHlo.after_of_writes_sub hostOps6 (W12 m c) hostOps6_writes (by decide)).trans <|
    (W12_of_ne m c main_v1 (by decide)).trans <|
    (StableHlo.after_of_writes_sub hostOps5 (W10 m c) hostOps5_writes (by decide)).trans <|
    (W10_of_ne m c main_v1 (by decide)).trans <|
    (StableHlo.after_of_writes_sub hostOps4 (W8 m c) hostOps4_writes (by decide)).trans <|
    (W8_of_ne m c main_v1 (by decide)).trans <|
    (StableHlo.after_of_writes_sub hostOps3 (W6 m c) hostOps3_writes (by decide)).trans <|
    (W6_of_ne m c main_v1 (by decide)).trans <|
    (StableHlo.after_of_writes_sub hostOps2 (W4 m c) hostOps2_writes (by decide)).trans <|
    (W4_of_ne m c main_v1 (by decide)).trans <|
    (StableHlo.after_of_writes_sub hostOps1 (W2 m c) hostOps1_writes (by decide)).trans <|
    (W2_of_ne m c main_v1 (by decide))
theorem keep16_main_v3 (c : Dev nD) : W16 m c (Proc.devRef .tc main_v3) = W1 m c (Proc.devRef .tc main_v3) :=
  (W16_of_ne m c main_v3 (by decide)).trans <|
    (StableHlo.after_of_writes_sub hostOps7 (W14 m c) hostOps7_writes (by decide)).trans <|
    (W14_of_ne m c main_v3 (by decide)).trans <|
    (StableHlo.after_of_writes_sub hostOps6 (W12 m c) hostOps6_writes (by decide)).trans <|
    (W12_of_ne m c main_v3 (by decide)).trans <|
    (StableHlo.after_of_writes_sub hostOps5 (W10 m c) hostOps5_writes (by decide)).trans <|
    (W10_of_ne m c main_v3 (by decide)).trans <|
    (StableHlo.after_of_writes_sub hostOps4 (W8 m c) hostOps4_writes (by decide)).trans <|
    (W8_of_ne m c main_v3 (by decide)).trans <|
    (StableHlo.after_of_writes_sub hostOps3 (W6 m c) hostOps3_writes (by decide)).trans <|
    (W6_of_ne m c main_v3 (by decide)).trans <|
    (StableHlo.after_of_writes_sub hostOps2 (W4 m c) hostOps2_writes (by decide)).trans <|
    (W4_of_ne m c main_v3 (by decide)).trans <|
    (StableHlo.after_of_writes_sub hostOps1 (W2 m c) hostOps1_writes (by decide)).trans <|
    (W2_of_ne m c main_v3 (by decide))
theorem keep20_out0 (c : Dev nD) : W20 m c (Proc.devRef .tc main_v40) = W4 m c (Proc.devRef .tc main_v40) :=
  (W20_of_ne m c main_v40 (by decide)).trans <|
    (StableHlo.after_of_writes_sub hostOps9 (W18 m c) hostOps9_writes (by decide)).trans <|
    (W18_of_ne m c main_v40 (by decide)).trans <|
    (StableHlo.after_of_writes_sub hostOps8 (W16 m c) hostOps8_writes (by decide)).trans <|
    (W16_of_ne m c main_v40 (by decide)).trans <|
    (StableHlo.after_of_writes_sub hostOps7 (W14 m c) hostOps7_writes (by decide)).trans <|
    (W14_of_ne m c main_v40 (by decide)).trans <|
    (StableHlo.after_of_writes_sub hostOps6 (W12 m c) hostOps6_writes (by decide)).trans <|
    (W12_of_ne m c main_v40 (by decide)).trans <|
    (StableHlo.after_of_writes_sub hostOps5 (W10 m c) hostOps5_writes (by decide)).trans <|
    (W10_of_ne m c main_v40 (by decide)).trans <|
    (StableHlo.after_of_writes_sub hostOps4 (W8 m c) hostOps4_writes (by decide)).trans <|
    (W8_of_ne m c main_v40 (by decide)).trans <|
    (StableHlo.after_of_writes_sub hostOps3 (W6 m c) hostOps3_writes (by decide)).trans <|
    ((W6_arr m c 0).trans (((dat2 (X2 m) c).arrAt_in 0 rfl _).trans (A_eq2 (X2 m) c 0))).trans <|
    (StableHlo.after_of_writes_sub hostOps2 (W4 m c) hostOps2_writes (by decide))
theorem keep20_out1 (c : Dev nD) : W20 m c (Proc.devRef .tc main_v77) = W8 m c (Proc.devRef .tc main_v77) :=
  (W20_of_ne m c main_v77 (by decide)).trans <|
    (StableHlo.after_of_writes_sub hostOps9 (W18 m c) hostOps9_writes (by decide)).trans <|
    (W18_of_ne m c main_v77 (by decide)).trans <|
    (StableHlo.after_of_writes_sub hostOps8 (W16 m c) hostOps8_writes (by decide)).trans <|
    (W16_of_ne m c main_v77 (by decide)).trans <|
    (StableHlo.after_of_writes_sub hostOps7 (W14 m c) hostOps7_writes (by decide)).trans <|
    (W14_of_ne m c main_v77 (by decide)).trans <|
    (StableHlo.after_of_writes_sub hostOps6 (W12 m c) hostOps6_writes (by decide)).trans <|
    (W12_of_ne m c main_v77 (by decide)).trans <|
    (StableHlo.after_of_writes_sub hostOps5 (W10 m c) hostOps5_writes (by decide)).trans <|
    ((W10_arr m c 0).trans (((dat4 (X4 m) c).arrAt_in 0 rfl _).trans (A_eq4 (X4 m) c 0))).trans <|
    (StableHlo.after_of_writes_sub hostOps4 (W8 m c) hostOps4_writes (by decide))
theorem keep20_out2 (c : Dev nD) : W20 m c (Proc.devRef .tc main_v114) = W12 m c (Proc.devRef .tc main_v114) :=
  (W20_of_ne m c main_v114 (by decide)).trans <|
    (StableHlo.after_of_writes_sub hostOps9 (W18 m c) hostOps9_writes (by decide)).trans <|
    (W18_of_ne m c main_v114 (by decide)).trans <|
    (StableHlo.after_of_writes_sub hostOps8 (W16 m c) hostOps8_writes (by decide)).trans <|
    (W16_of_ne m c main_v114 (by decide)).trans <|
    (StableHlo.after_of_writes_sub hostOps7 (W14 m c) hostOps7_writes (by decide)).trans <|
    ((W14_arr m c 0).trans (((dat6 (X6 m) c).arrAt_in 0 rfl _).trans (A_eq6 (X6 m) c 0))).trans <|
    (StableHlo.after_of_writes_sub hostOps6 (W12 m c) hostOps6_writes (by decide))
theorem keep20_out3 (c : Dev nD) : W20 m c (Proc.devRef .tc main_v151) = W16 m c (Proc.devRef .tc main_v151) :=
  (W20_of_ne m c main_v151 (by decide)).trans <|
    (StableHlo.after_of_writes_sub hostOps9 (W18 m c) hostOps9_writes (by decide)).trans <|
    ((W18_arr m c 0).trans (((dat8 (X8 m) c).arrAt_in 0 rfl _).trans (A_eq8 (X8 m) c 0))).trans <|
    (StableHlo.after_of_writes_sub hostOps8 (W16 m c) hostOps8_writes (by decide))

/-! ## The layers in turn -/

/-- After layer 0: the specification's one-pass network of depth 1. -/
theorem out1 (c : Dev nD) : (W4 m c (Proc.devRef .tc main_v40) : FVec Ideal S50000x128 .f32) = Cert.Spec.outOne aggFacts (argsAt m c) 1 :=
  (layer0 m c (argsAt m c) (Cert.Spec.outOne aggFacts (argsAt m c) 0) rfl rfl rfl rfl rfl rfl rfl rfl).trans rfl

/-- After layer 1: the specification's one-pass network of depth 2. -/
theorem out2 (c : Dev nD) : (W8 m c (Proc.devRef .tc main_v77) : FVec Ideal S50000x128 .f32) = Cert.Spec.outOne aggFacts (argsAt m c) 2 :=
  (layer1 m c (argsAt m c) (Cert.Spec.outOne aggFacts (argsAt m c) 1) (out1 m c) (keep4_arg1 m c) (keep4_arg3 m c) (keep4_arg4 m c) (keep4_arg5 m c) (keep4_arg6 m c) (keep4_arg7 m c) (keep4_arg8 m c)
    ((keep4_main_v1 m c).trans ((host0_src (W0 m c)).trans (by rw [keep4_arg1 m c])))
    ((keep4_main_v3 m c).trans ((host0_dst (W0 m c)).trans (by rw [keep4_arg1 m c])))).trans rfl

/-- After layer 2: the specification's one-pass network of depth 3. -/
theorem out3 (c : Dev nD) : (W12 m c (Proc.devRef .tc main_v114) : FVec Ideal S50000x128 .f32) = Cert.Spec.outOne aggFacts (argsAt m c) 3 :=
  (layer2 m c (argsAt m c) (Cert.Spec.outOne aggFacts (argsAt m c) 2) (out2 m c) (keep8_arg1 m c) (keep8_arg3 m c) (keep8_arg4 m c) (keep8_arg5 m c) (keep8_arg6 m c) (keep8_arg7 m c) (keep8_arg8 m c)
    ((keep8_main_v1 m c).trans ((host0_src (W0 m c)).trans (by rw [keep8_arg1 m c])))
    ((keep8_main_v3 m c).trans ((host0_dst (W0 m c)).trans (by rw [keep8_arg1 m c])))).trans rfl

/-- After layer 3: the specification's one-pass network of depth 4. -/
theorem out4 (c : Dev nD) : (W16 m c (Proc.devRef .tc main_v151) : FVec Ideal S50000x128 .f32) = Cert.Spec.outOne aggFacts (argsAt m c) 4 :=
  (layer3 m c (argsAt m c) (Cert.Spec.outOne aggFacts (argsAt m c) 3) (out3 m c) (keep12_arg1 m c) (keep12_arg3 m c) (keep12_arg4 m c) (keep12_arg5 m c) (keep12_arg6 m c) (keep12_arg7 m c) (keep12_arg8 m c)
    ((keep12_main_v1 m c).trans ((host0_src (W0 m c)).trans (by rw [keep12_arg1 m c])))
    ((keep12_main_v3 m c).trans ((host0_dst (W0 m c)).trans (by rw [keep12_arg1 m c])))).trans rfl

/-- After layer 4: the specification's one-pass network of depth 5. -/
theorem out5 (c : Dev nD) : (W20 m c (Proc.devRef .tc main_v188) : FVec Ideal S50000x128 .f32) = Cert.Spec.outOne aggFacts (argsAt m c) 5 :=
  (layer4 m c (argsAt m c) (Cert.Spec.outOne aggFacts (argsAt m c) 4) (out4 m c) (keep16_arg1 m c) (keep16_arg3 m c) (keep16_arg4 m c) (keep16_arg5 m c) (keep16_arg6 m c) (keep16_arg7 m c) (keep16_arg8 m c)
    ((keep16_main_v1 m c).trans ((host0_src (W0 m c)).trans (by rw [keep16_arg1 m c])))
    ((keep16_main_v3 m c).trans ((host0_dst (W0 m c)).trans (by rw [keep16_arg1 m c])))).trans rfl

/-! ## The two results -/

/-- The first result: the network of depth five. -/
theorem final_out (c : Dev nD) : (W21 m c (Proc.devRef .tc main_v188) : FVec Ideal S50000x128 .f32) = Cert.Spec.outOne aggFacts (argsAt m c) 5 :=
  (host10_keeps4 (W20 m c)).trans (out5 m c)

/-- The second result: the five layers' outputs stacked. -/
theorem final_stack (c : Dev nD) : (W21 m c (Proc.devRef .tc main_v194) : FVec Ideal S5x50000x128 .f32) = Cert.Spec.stackOne aggFacts (argsAt m c) := by
  funext i
  obtain ⟨L, r, j, rfl⟩ : ∃ (L : Fin 5) (r : Fin 50000) (j : Fin 128), i = ix3 L r j := ⟨i 0, i 1, i 2, eq_ix3 i⟩
  rw [Cert.Spec.stackOne_apply]
  match L with
  | ⟨0, _⟩ => exact (host10_out0 (W20 m c) r j).trans (by rw [keep20_out0 m c, out1 m c])
  | ⟨1, _⟩ => exact (host10_out1 (W20 m c) r j).trans (by rw [keep20_out1 m c, out2 m c])
  | ⟨2, _⟩ => exact (host10_out2 (W20 m c) r j).trans (by rw [keep20_out2 m c, out3 m c])
  | ⟨3, _⟩ => exact (host10_out3 (W20 m c) r j).trans (by rw [keep20_out3 m c, out4 m c])
  | ⟨4, _⟩ => exact (host10_out4 (W20 m c) r j).trans (by rw [out5 m c])

end Cert.KernelIdeal.Reg

end
-- ==== Proof.RefRun.lean ====
/-
  The reference program's run, with each host operation's result named: the generated statement this module imports,
  and (below, in later modules) its reading as the specification's layer function.
-/
import proofs.«139862_j28269474742473_1_alg».proof.Proof.Gen.ReferenceIdeal.Run
-- ==== Proof.RefOps.lean ====
/-
  The reference program's host operations read at an index, at the ideal values: the matrix product as a sum over the
  contracted feature, the column reduction as a sum over the nodes, a per-feature vector broadcast over the nodes, a
  splat of a scalar constant, and one layer's weight matrix or vector cut out of the stacked parameters.
-/
import proofs.«139862_j28269474742473_1_alg».proof.Proof.Gen.ReferenceIdeal
import proofs.«139862_j28269474742473_1_alg».proof.Proof.SpecNet
import Idealize.ShloMosaic.Lib.ValueLayout

noncomputable section

namespace Cert.ReferenceIdeal.RefValue

open Cert.ReferenceIdeal Cert.ReferenceIdeal.Gen Idealize.ShloMosaic Idealize.ShloMosaic.ValueIdx

/-- The dimension numbers of the two matrix products: rows by contraction times contraction by columns. -/
abbrev D : DotDims S50000x128 S128x128 S50000x128 := dot_S50000x128_S128x128_S50000x128_1_0_0_1_n_n

/-! ## The matrix product -/

theorem lhs_row (i : S50000x128.Idx) (q : D.contr.Idx) : (D.lhsIdx i q 0).val = (i 0).val := by
  unfold DotDims.lhsIdx
  rw [dif_neg (show ¬(0 : Fin S50000x128.rank) ∈ D.lhsBatch by decide), dif_pos (show (0 : Fin S50000x128.rank) ∈ D.lhsNonContracting by decide)]
  rfl

theorem lhs_contr (i : S50000x128.Idx) (q : D.contr.Idx) : (D.lhsIdx i q 1).val = (q ⟨0, by decide⟩).val :=
  D.lhsIdx_val_of_single rfl i q

theorem rhs_contr (i : S50000x128.Idx) (q : D.contr.Idx) : (D.rhsIdx i q 0).val = (q ⟨0, by decide⟩).val :=
  D.rhsIdx_val_of_single rfl i q

theorem rhs_col (i : S50000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The host's matrix product at node `r` and feature `j`: the sum over the contracted feature of the products. -/
theorem dot_apply (l : FVec Ideal S50000x128 .f32) (w : FVec Ideal S128x128 .f32) (r : Fin 50000) (j : Fin 128) :
    Host.dotGeneral D none l w (ix2 r j) = ∑ k : Fin 128, l (ix2 r k) * w (ix2 k j) := by
  simp only [Host.dotGeneral]
  rw [Ideal.dotGeneral_apply, ← Equiv.sum_comp (contrEquiv1 D 128 rfl rfl).symm]
  refine Finset.sum_congr rfl fun k _ => ?_
  have hk := contrEquiv1_symm_val D 128 rfl rfl k
  have el : D.lhsIdx (ix2 r j) ((contrEquiv1 D 128 rfl rfl).symm k) = ix2 r k := funext fun a => Fin.ext (by
    match a with
    | ⟨0, _⟩ => exact lhs_row _ _
    | ⟨1, _⟩ => exact (lhs_contr _ _).trans hk)
  have er : D.rhsIdx (ix2 r j) ((contrEquiv1 D 128 rfl rfl).symm k) = ix2 k j := funext fun a => Fin.ext (by
    match a with
    | ⟨0, _⟩ => exact (rhs_contr _ _).trans hk
    | ⟨1, _⟩ => exact rhs_col _ _)
  rw [el, er]

/-! ## The column reduction -/

/-- The host's sum over the nodes from the zero word, at feature `j`: the sum over the nodes. -/
theorem colsum_apply (x : FVec Ideal S50000x128 .f32) (j : Fin 128) :
    Host.reduceAdd x (constant (F := Ideal) S_ .f32 0x00000000#32) reducesTo_S50000x128_S128_d0 h_S_ (ix1 j)
      = ∑ r : Fin 50000, x (ix2 r j) := by
  simp only [Host.reduceAdd, Ideal.hostReduceAdd_def]
  rw [Ideal.hostReduceAdd_single reducesTo_S50000x128_S128_d0 (by decide)]
  refine (congrArg (· + _) (show constant (F := Ideal) S_ .f32 0x00000000#32 _ = 0 from Ideal.ofBits_zero_f32)).trans ?_
  rw [zero_add]
  refine Finset.sum_congr rfl fun k _ => ?_
  exact congrArg x (funext fun a => Fin.ext (by match a with | ⟨0, _⟩ => rfl | ⟨1, _⟩ => rfl))

/-! ## Broadcasts -/

/-- A per-feature vector broadcast over the nodes (through a unit leading axis) reads its feature's value. -/
theorem bcast_row_apply (v : FVec Ideal S128 .f32) (r : Fin 50000) (k : Fin 128) :
    broadcastInDim S50000x128 ![0, 1] bcast_S1x128_S50000x128_0_1 (broadcastInDim S1x128 ![1] bcast_S128_S1x128_1 v) (ix2 r k)
      = v (ix1 k) := by
  refine (broadcastInDim_apply _ _ _ (ix2 r k) (ix2 (0 : Fin 1) k) fun a => ?_).trans ?_
  · match a with
    | ⟨0, _⟩ => rfl
    | ⟨1, _⟩ => rfl
  · exact broadcastInDim_apply _ _ _ (ix2 (0 : Fin 1) k) (ix1 k) fun a => by match a with | ⟨0, _⟩ => rfl

/-- A scalar constant splat over the nodes and features reads the constant's value. -/
theorem splat_apply (w : BitVec 32) (i : S50000x128.Idx) :
    broadcastInDim S50000x128 ![] bcast_S_S50000x128 (constant (F := Ideal) S_ .f32 w) i = Ideal.ofBits .f32 w := rfl

/-- A scalar constant splat over the features reads the constant's value. -/
theorem splat_vec_apply (w : BitVec 32) (i : S128.Idx) :
    broadcastInDim S128 ![] bcast_S_S128 (constant (F := Ideal) S_ .f32 w) i = Ideal.ofBits .f32 w := rfl

/-! ## One layer's parameters -/

/-- Layer `o`'s weight matrix, cut from the stack and squeezed, at `(l, k)`. -/
theorem sliceW_apply (o : Nat) (ho : o < 5) (W : FVec Ideal S5x128x128 .f32) (hs : S5x128x128.Slices ![o, 0, 0] S1x128x128)
    (l k : Fin 128) :
    shapeCast S128x128 (extractStridedSlice S1x128x128 ![o, 0, 0] W hs) shapeCasts_S1x128x128_S128x128 (ix2 l k)
      = W (ix3 (⟨o, ho⟩ : Fin 5) l k) := by
  refine (shapeCast_1ab_ab_apply _ _ l k).trans ?_
  exact extractStridedSlice_apply _ _ _ _ _ fun a => by
    match a with
    | ⟨0, _⟩ => rfl
    | ⟨1, _⟩ => exact (Nat.zero_add _).symm
    | ⟨2, _⟩ => exact (Nat.zero_add _).symm

/-- Layer `o`'s per-feature vector, cut from the stack and squeezed, at `k`. -/
theorem sliceV_apply (o : Nat) (ho : o < 5) (b : FVec Ideal S5x128 .f32) (hs : S5x128.Slices ![o, 0] S1x128) (k : Fin 128) :
    shapeCast S128 (extractStridedSlice S1x128 ![o, 0] b hs) shapeCasts_S1x128_S128 (ix1 k) = b (ix2 (⟨o, ho⟩ : Fin 5) k) := by
  refine (shapeCast_1a_a_apply _ _ k).trans ?_
  exact extractStridedSlice_apply _ _ _ _ _ fun a => by
    match a with
    | ⟨0, _⟩ => rfl
    | ⟨1, _⟩ => exact (Nat.zero_add _).symm

end Cert.ReferenceIdeal.RefValue

end
-- ==== Proof.RefLayer.lean ====
/-
  One layer of the reference program as a function of its operands, read index by index: it is the specification's
  two-pass layer. The perceptron's two matrix products are sums over the contracted feature, each bias a per-feature
  vector broadcast over the nodes, each rectifier a maximum with the zero splat; the column mean is the column sum
  divided by the node count; the variance is the column sum of the squared centred entries divided by the node count; the
  output is centred, scaled by the reciprocal square root of variance plus the constant, scaled and shifted per feature.
-/
import proofs.«139862_j28269474742473_1_alg».proof.Proof.RefOps

noncomputable section

namespace Cert.ReferenceIdeal.RefValue

open Cert.ReferenceIdeal Cert.ReferenceIdeal.Gen Idealize.ShloMosaic Idealize.ShloMosaic.ValueIdx

/-- The zero splat the rectifiers compare with. -/
abbrev zeroSplat : FVec Ideal S50000x128 .f32 :=
  broadcastInDim S50000x128 ![] bcast_S_S50000x128 (constant (F := Ideal) S_ .f32 0x00000000#32)
/-- A per-feature vector broadcast over the nodes. -/
abbrev rowB (v : FVec Ideal S128 .f32) : FVec Ideal S50000x128 .f32 :=
  broadcastInDim S50000x128 ![0, 1] bcast_S1x128_S50000x128_0_1 (broadcastInDim S1x128 ![1] bcast_S128_S1x128_1 v)
/-- The node count, per feature. -/
abbrev countVec : FVec Ideal S128 .f32 := broadcastInDim S128 ![] bcast_S_S128 (constant (F := Ideal) S_ .f32 0x47435000#32)
/-- The constant added to the variance, per feature. -/
abbrev epsVec : FVec Ideal S128 .f32 := broadcastInDim S128 ![] bcast_S_S128 (constant (F := Ideal) S_ .f32 0x3727C5AC#32)
/-- The column sums from the zero word. -/
abbrev colSums (x : FVec Ideal S50000x128 .f32) : FVec Ideal S128 .f32 :=
  Host.reduceAdd x (constant (F := Ideal) S_ .f32 0x00000000#32) reducesTo_S50000x128_S128_d0 h_S_
/-- Layer `o`'s weight matrix. -/
abbrev sliceW (o : Nat) (W : FVec Ideal S5x128x128 .f32) (hs : S5x128x128.Slices ![o, 0, 0] S1x128x128) : FVec Ideal S128x128 .f32 :=
  shapeCast S128x128 (extractStridedSlice S1x128x128 ![o, 0, 0] W hs) shapeCasts_S1x128x128_S128x128
/-- Layer `o`'s per-feature vector. -/
abbrev sliceV (o : Nat) (b : FVec Ideal S5x128 .f32) (hs : S5x128.Slices ![o, 0] S1x128) : FVec Ideal S128 .f32 :=
  shapeCast S128 (extractStridedSlice S1x128 ![o, 0] b hs) shapeCasts_S1x128_S128

/-- The perceptron with its two rectifiers, as the program composes it. -/
def refPre (h agg : FVec Ideal S50000x128 .f32) (w1 : FVec Ideal S128x128 .f32) (c1 : FVec Ideal S128 .f32)
    (w2 : FVec Ideal S128x128 .f32) (c2 : FVec Ideal S128 .f32) : FVec Ideal S50000x128 .f32 :=
  maximumf (addf (Host.dotGeneral D none (maximumf (addf (Host.dotGeneral D none (addf h agg) w1) (rowB c1)) zeroSplat) w2) (rowB c2)) zeroSplat

/-- The column means, as the program composes them. -/
def refMean (P : FVec Ideal S50000x128 .f32) : FVec Ideal S128 .f32 := Host.divf (colSums P) countVec

/-- The centred entries. -/
def refCentred (P : FVec Ideal S50000x128 .f32) : FVec Ideal S50000x128 .f32 := subf P (rowB (refMean P))

/-- The normalisation, as the program composes it. -/
def refBn (P : FVec Ideal S50000x128 .f32) (g b : FVec Ideal S128 .f32) : FVec Ideal S50000x128 .f32 :=
  addf (mulf (mulf (subf P (rowB (refMean P)))
      (rowB (Host.rsqrt (addf (Host.divf (colSums (mulf (refCentred P) (refCentred P))) countVec) epsVec)))) (rowB g)) (rowB b)

theorem zeroSplat_apply (i : S50000x128.Idx) : zeroSplat i = 0 := Ideal.ofBits_zero_f32

theorem rowB_apply (v : FVec Ideal S128 .f32) (r : Fin 50000) (k : Fin 128) : rowB v (ix2 r k) = v (ix1 k) :=
  bcast_row_apply v r k

theorem colSums_apply (x : FVec Ideal S50000x128 .f32) (j : Fin 128) : colSums x (ix1 j) = ∑ r : Fin 50000, x (ix2 r j) :=
  colsum_apply x j

theorem refPre_apply (h agg : FVec Ideal S50000x128 .f32) (w1 : FVec Ideal S128x128 .f32) (c1 : FVec Ideal S128 .f32)
    (w2 : FVec Ideal S128x128 .f32) (c2 : FVec Ideal S128 .f32) (r : Fin 50000) (j : Fin 128) :
    refPre h agg w1 c1 w2 c2 (ix2 r j)
      = max ((∑ k : Fin 128, max ((∑ l : Fin 128, (h (ix2 r l) + agg (ix2 r l)) * w1 (ix2 l k)) + c1 (ix1 k)) 0 * w2 (ix2 k j)) + c2 (ix1 j)) 0 := by
  unfold refPre
  show max ((Host.dotGeneral D none (maximumf (addf (Host.dotGeneral D none (addf h agg) w1) (rowB c1)) zeroSplat) w2 (ix2 r j))
      + rowB c2 (ix2 r j)) (zeroSplat (ix2 r j)) = _
  rw [dot_apply, rowB_apply, zeroSplat_apply]
  refine congrArg (fun s => max (s + c2 (ix1 j)) 0) (Finset.sum_congr rfl fun k _ => ?_)
  show max ((Host.dotGeneral D none (addf h agg) w1 (ix2 r k)) + rowB c1 (ix2 r k)) (zeroSplat (ix2 r k)) * w2 (ix2 k j) = _
  rw [dot_apply, rowB_apply, zeroSplat_apply]
  rfl

theorem refMean_apply (P : FVec Ideal S50000x128 .f32) (j : Fin 128) :
    refMean P (ix1 j) = Ideal.div (∑ r : Fin 50000, P (ix2 r j)) Cert.Spec.count := by
  unfold refMean
  show Ideal.div (colSums P (ix1 j)) (Ideal.ofBits .f32 0x47435000#32) = _
  rw [colSums_apply]
  rfl

theorem refCentred_apply (P : FVec Ideal S50000x128 .f32) (r : Fin 50000) (j : Fin 128) :
    refCentred P (ix2 r j) = P (ix2 r j) - Ideal.div (∑ r : Fin 50000, P (ix2 r j)) Cert.Spec.count := by
  unfold refCentred
  show P (ix2 r j) - rowB (refMean P) (ix2 r j) = _
  rw [rowB_apply, refMean_apply]

/-- The normalisation read at an index is the specification's two-pass normalisation. -/
theorem refBn_apply (P : FVec Ideal S50000x128 .f32) (g b : FVec Ideal S128 .f32) (r : Fin 50000) (j : Fin 128) :
    refBn P g b (ix2 r j) = Cert.Spec.bnTwoPass (Cert.Spec.feat P) (fun k => g (ix1 k)) (fun k => b (ix1 k)) r j := by
  unfold refBn
  show (P (ix2 r j) - rowB (refMean P) (ix2 r j))
        * rowB (Host.rsqrt (addf (Host.divf (colSums (mulf (refCentred P) (refCentred P))) countVec) epsVec)) (ix2 r j)
        * rowB g (ix2 r j) + rowB b (ix2 r j) = _
  rw [rowB_apply, rowB_apply, rowB_apply, rowB_apply, refMean_apply]
  show (P (ix2 r j) - _) * Ideal.rsqrt (Ideal.div (colSums (mulf (refCentred P) (refCentred P)) (ix1 j)) (Ideal.ofBits .f32 0x47435000#32)
        + Ideal.ofBits .f32 0x3727C5AC#32) * g (ix1 j) + b (ix1 j) = _
  rw [colSums_apply]
  have e : ∀ r' : Fin 50000, mulf (refCentred P) (refCentred P) (ix2 r' j)
      = (P (ix2 r' j) - Ideal.div (∑ r : Fin 50000, P (ix2 r j)) Cert.Spec.count)
        * (P (ix2 r' j) - Ideal.div (∑ r : Fin 50000, P (ix2 r j)) Cert.Spec.count) := fun r' => by
    show refCentred P (ix2 r' j) * refCentred P (ix2 r' j) = _
    rw [refCentred_apply]
  rw [Finset.sum_congr rfl fun r' _ => e r']
  rfl

/-- THE LAYER of the reference program at layer index `o`, over the argument arrays and the incoming features. -/
def refStep (o : Nat) (hW : S5x128x128.Slices ![o, 0, 0] S1x128x128) (hV : S5x128.Slices ![o, 0] S1x128)
    (f : Cert.Spec.AggFacts) (a : Cert.Spec.Args) (h : FVec Ideal S50000x128 .f32) : FVec Ideal S50000x128 .f32 :=
  refBn (refPre h (Cert.Spec.Agg f h a.e) (sliceW o a.W1 hW) (sliceV o a.b1 hV) (sliceW o a.W2 hW) (sliceV o a.b2 hV))
    (sliceV o a.gamma hV) (sliceV o a.beta hV)

/-- The reference's layer is the specification's two-pass layer. -/
theorem refStep_eq (o : Nat) (ho : o < 5) (hW : S5x128x128.Slices ![o, 0, 0] S1x128x128) (hV : S5x128.Slices ![o, 0] S1x128)
    (f : Cert.Spec.AggFacts) (a : Cert.Spec.Args) (h : FVec Ideal S50000x128 .f32) :
    refStep o hW hV f a h = Cert.Spec.stepTwo f a (⟨o, ho⟩ : Fin 5) h := by
  funext i
  obtain ⟨r, j, rfl⟩ : ∃ (r : Fin 50000) (j : Fin 128), i = ix2 r j := ⟨i 0, i 1, eq_ix2 i⟩
  unfold refStep
  rw [refBn_apply]
  have hP : Cert.Spec.feat (refPre h (Cert.Spec.Agg f h a.e) (sliceW o a.W1 hW) (sliceV o a.b1 hV) (sliceW o a.W2 hW) (sliceV o a.b2 hV))
      = Cert.Spec.pre (Cert.Spec.feat h) (Cert.Spec.feat (Cert.Spec.Agg f h a.e)) (Cert.Spec.wt a.W1 ⟨o, ho⟩) (Cert.Spec.vc a.b1 ⟨o, ho⟩)
          (Cert.Spec.wt a.W2 ⟨o, ho⟩) (Cert.Spec.vc a.b2 ⟨o, ho⟩) := by
    funext r j
    show refPre _ _ _ _ _ _ (ix2 r j) = _
    rw [refPre_apply]
    simp only [sliceW_apply o ho, sliceV_apply o ho]
    rfl
  have hg : (fun k => sliceV o a.gamma hV (ix1 k)) = Cert.Spec.vc a.gamma ⟨o, ho⟩ := funext fun k => sliceV_apply o ho _ _ k
  have hb : (fun k => sliceV o a.beta hV (ix1 k)) = Cert.Spec.vc a.beta ⟨o, ho⟩ := funext fun k => sliceV_apply o ho _ _ k
  rw [hP, hg, hb]
  rfl

end Cert.ReferenceIdeal.RefValue

end
-- ==== Proof.RefValue.lean ====
/-
  The reference program's two results as the specification's network of the argument arrays: the last layer's output
  is the two-pass network at depth five, and the stacked result holds the two-pass network's five depths. Each layer of
  the run is the reference's layer function of the previous layer's result, hence (layer by layer) the specification's
  two-pass layer; the stacked result is a concatenation of the five results under a unit leading axis. The program's run
  with its results so named, and its frame, follow from the generated run.
-/
import proofs.«139862_j28269474742473_1_alg».proof.Proof.RefRun
import proofs.«139862_j28269474742473_1_alg».proof.Proof.RefLayer
import proofs.«139862_j28269474742473_1_alg».proof.Proof.SpecStack

noncomputable section

namespace Cert.ReferenceIdeal.RefValue

open Cert.ReferenceIdeal Cert.ReferenceIdeal.Gen Cert.ReferenceIdeal.Value Idealize.ShloMosaic Idealize.ShloMosaic.TcCoe Idealize.SL.Sem
  Idealize.ShloMosaic.StableHlo Idealize.ShloMosaic.ValueIdx

/-- The aggregation's shape facts, from the program's. -/
theorem aggFacts : Cert.Spec.AggFacts :=
  ⟨slices_S2x800000_S1x800000_0_0, slices_S2x800000_S1x800000_1_0, shapeCasts_S1x800000_S800000, bcast_S_S800000,
    bcast_S800000_S800000x1_0, bcast_S_S50000x128, gather_S50000x128_S800000x1_S800000x128_1_0_n_n_0_1_1128_wf,
    scatter_S50000x128_S800000x1_S800000x128_1_0_0_1_wf⟩

/-- The argument arrays a valuation holds. -/
def argsOf (V0 : Valuation τ sig (Elt Ideal)) : Cert.Spec.Args where
  x := V0 (Proc.devRef .tc main_arg0)
  e := V0 (Proc.devRef .tc main_arg1)
  W1 := V0 (Proc.devRef .tc main_arg3)
  b1 := V0 (Proc.devRef .tc main_arg4)
  W2 := V0 (Proc.devRef .tc main_arg5)
  b2 := V0 (Proc.devRef .tc main_arg6)
  gamma := V0 (Proc.devRef .tc main_arg7)
  beta := V0 (Proc.devRef .tc main_arg8)

/-! ## Each layer of the run is the reference's layer function of the previous result -/

set_option maxRecDepth 8192 in
theorem res_main_v63_step (V0 : Valuation τ sig (Elt Ideal)) :
    res_main_v63 (F := Ideal) V0
      = refStep 0 slices_S5x128x128_S1x128x128_0_0_0 slices_S5x128_S1x128_0_0 aggFacts (argsOf V0) (argsOf V0).x := by
  unfold res_main_v63 res_main_v44 res_main_v41 res_main_v38 res_main_v3 res_main_v1
  rfl

set_option maxRecDepth 8192 in
theorem res_main_v123_step (V0 : Valuation τ sig (Elt Ideal)) :
    res_main_v123 (F := Ideal) V0
      = refStep 1 slices_S5x128x128_S1x128x128_1_0_0 slices_S5x128_S1x128_1_0 aggFacts (argsOf V0) (res_main_v63 (F := Ideal) V0) := by
  unfold res_main_v123 res_main_v104 res_main_v101 res_main_v98 res_main_v3 res_main_v1
  rfl

set_option maxRecDepth 8192 in
theorem res_main_v183_step (V0 : Valuation τ sig (Elt Ideal)) :
    res_main_v183 (F := Ideal) V0
      = refStep 2 slices_S5x128x128_S1x128x128_2_0_0 slices_S5x128_S1x128_2_0 aggFacts (argsOf V0) (res_main_v123 (F := Ideal) V0) := by
  unfold res_main_v183 res_main_v164 res_main_v161 res_main_v158 res_main_v3 res_main_v1
  rfl

set_option maxRecDepth 8192 in
theorem res_main_v243_step (V0 : Valuation τ sig (Elt Ideal)) :
    res_main_v243 (F := Ideal) V0
      = refStep 3 slices_S5x128x128_S1x128x128_3_0_0 slices_S5x128_S1x128_3_0 aggFacts (argsOf V0) (res_main_v183 (F := Ideal) V0) := by
  unfold res_main_v243 res_main_v224 res_main_v221 res_main_v218 res_main_v3 res_main_v1
  rfl

/-! ## The results are the two-pass network -/

theorem res_main_v63_eq (V0 : Valuation τ sig (Elt Ideal)) :
    res_main_v63 (F := Ideal) V0 = Cert.Spec.outTwo aggFacts (argsOf V0) 1 :=
  (res_main_v63_step V0).trans (refStep_eq 0 (by decide) _ _ _ _ _)

theorem res_main_v123_eq (V0 : Valuation τ sig (Elt Ideal)) :
    res_main_v123 (F := Ideal) V0 = Cert.Spec.outTwo aggFacts (argsOf V0) 2 := by
  rw [res_main_v123_step, res_main_v63_eq]; exact refStep_eq 1 (by decide) _ _ _ _ _

theorem res_main_v183_eq (V0 : Valuation τ sig (Elt Ideal)) :
    res_main_v183 (F := Ideal) V0 = Cert.Spec.outTwo aggFacts (argsOf V0) 3 := by
  rw [res_main_v183_step, res_main_v123_eq]; exact refStep_eq 2 (by decide) _ _ _ _ _

theorem res_main_v243_eq (V0 : Valuation τ sig (Elt Ideal)) :
    res_main_v243 (F := Ideal) V0 = Cert.Spec.outTwo aggFacts (argsOf V0) 4 := by
  rw [res_main_v243_step, res_main_v183_eq]; exact refStep_eq 3 (by decide) _ _ _ _ _

set_option maxRecDepth 8192 in
/-- The first result: the network at depth five. -/
theorem out_eq (V0 : Valuation τ sig (Elt Ideal)) :
    val7 (F := Ideal) V0 (Proc.devRef .tc main_v303) = Cert.Spec.outTwo aggFacts (argsOf V0) 5 := by
  refine (val7_main_v303 V0).trans ?_
  refine Eq.trans (b := refStep 4 slices_S5x128x128_S1x128x128_4_0_0 slices_S5x128_S1x128_4_0 aggFacts (argsOf V0) (res_main_v243 (F := Ideal) V0)) ?_ ?_
  · unfold res_main_v284 res_main_v281 res_main_v278 res_main_v3 res_main_v1
    rfl
  · rw [res_main_v243_eq]; exact refStep_eq 4 (by decide) _ _ _ _ _

/-- A result under a unit leading axis, read at `(0, r, j)`. -/
theorem unit_axis_apply (x : FVec Ideal S50000x128 .f32) (r : Fin 50000) (j : Fin 128) :
    broadcastInDim S1x50000x128 ![1, 2] bcast_S50000x128_S1x50000x128_1_2 x (ix3 (0 : Fin 1) r j) = x (ix2 r j) :=
  broadcastInDim_apply _ _ _ (ix3 (0 : Fin 1) r j) (ix2 r j) fun a => by match a with | ⟨0, _⟩ => rfl | ⟨1, _⟩ => rfl

set_option maxRecDepth 8192 in
/-- The second result: the network's five depths, stacked. -/
theorem stack_eq (V0 : Valuation τ sig (Elt Ideal)) :
    val7 (F := Ideal) V0 (Proc.devRef .tc main_v309) = Cert.Spec.stackTwo aggFacts (argsOf V0) := by
  refine (val7_main_v309 V0).trans ?_
  funext i
  obtain ⟨L, r, j, rfl⟩ : ∃ (L : Fin 5) (r : Fin 50000) (j : Fin 128), i = ix3 L r j := ⟨i 0, i 1, i 2, eq_ix3 i⟩
  refine (Cert.Spec.stack5_apply _ _ _ _ _ _ L r j).trans ?_
  have h5 := (val7_main_v303 V0).symm.trans (out_eq V0)
  match L with
  | ⟨0, _⟩ => exact (unit_axis_apply _ r j).trans (congrFun (res_main_v63_eq V0) (ix2 r j))
  | ⟨1, _⟩ => exact (unit_axis_apply _ r j).trans (congrFun (res_main_v123_eq V0) (ix2 r j))
  | ⟨2, _⟩ => exact (unit_axis_apply _ r j).trans (congrFun (res_main_v183_eq V0) (ix2 r j))
  | ⟨3, _⟩ => exact (unit_axis_apply _ r j).trans (congrFun (res_main_v243_eq V0) (ix2 r j))
  | ⟨4, _⟩ => exact (unit_axis_apply _ r j).trans (congrFun h5 (ix2 r j))

/-! ## The run, and the frame -/

set_option maxRecDepth 8192 in
/-- The reference program's run with its two results as the specification's terms of the argument arrays. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v303) = Cert.Spec.outTwo aggFacts (argsOf (launchContents m c)) 5
      ∧ r.2.mem ((c.tc : Thread nD τ).loc main_v309) = Cert.Spec.stackTwo aggFacts (argsOf (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (defs (F := Ideal)) _ _).mono (fun _ h c =>
      ⟨(h c).1.trans ((val7_main_v303 (launchContents m c)).symm.trans (out_eq (launchContents m c))),
       (h c).2.1.trans ((val7_main_v309 (launchContents m c)).symm.trans (stack_eq (launchContents m c))),
       (h c).2.2⟩)
    (Cert.ReferenceIdeal.Value.run (F := Ideal) m ρ)

end Cert.ReferenceIdeal.RefValue

end
-- ==== Proof.Finite.lean ====
/-
  Finiteness of the float arguments from the precondition. The precondition is a conjunction, array by array, of
  "every entry's absolute value is below the word of plus infinity", each conjunct a reduction by `and` over the whole
  array; it is stated to be true. An extended real whose absolute value is below plus infinity is neither infinity, so
  it is the reading of a real number.
-/
import proofs.«139862_j28269474742473_1_alg».proof.Pre_finite_inputs
import proofs.«139862_j28269474742473_1_alg».proof.Proof.SpecNet
import Idealize.ShloMosaic.Lib.ReduceAll

noncomputable section

namespace Cert.Spec

open Idealize.ShloMosaic FiniteReals

/-- The rank-zero shape has one index. -/
instance subsingleton_scalar_idx : Subsingleton S_.Idx := ⟨fun _ _ => funext fun d => d.elim0⟩

/-- The word the precondition compares with is plus infinity. -/
theorem inf_word : Ideal.ofBits .f32 0x7F800000#32 = ⊤ := by simp [Ideal.ofBits, Ideal.ieee]

/-- An extended real whose absolute value is below plus infinity is finite. -/
theorem isReal_of_abs_lt_top (x : EReal) (h : Ideal.cmp .olt (max x (-x)) ⊤ = 1#1) : IsReal x := by
  induction x using EReal.rec with
  | bot => simp [Ideal.cmp] at h
  | top => simp [Ideal.cmp] at h
  | coe r => exact isReal_coe r

/-- One conjunct of the precondition: "all entries of `x` are below plus infinity in absolute value" gives every entry finite. -/
theorem isReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
          (constantI S_ 1 1#1) hr hu ValueIdx.ix0 = 1#1) (i : s.Idx) : IsReal (x i) := by
  have h := Host.reduce_andi_all _ _ hr hu ValueIdx.ix0 e i
  have h' : Ideal.cmp .olt (max (x i) (-(x i))) ⊤ = 1#1 := by rw [← inf_word]; exact h
  exact isReal_of_abs_lt_top _ h'

variable [Cert.Pre_finite_inputs.Facts]

/-- THE PRECONDITION GIVES FINITE ARGUMENTS: if `finite_inputs` of the nine argument arrays is true, every float
    argument is finite entrywise. -/
theorem finite_of_pre (x : FVec Ideal S50000x128 .f32) (e : IVec S2x800000 32) (batch : IVec Cert.Pre_finite_inputs.S50000 32)
    (W1 : FVec Ideal S5x128x128 .f32) (b1 : FVec Ideal S5x128 .f32) (W2 : FVec Ideal S5x128x128 .f32) (b2 gamma beta : FVec Ideal S5x128 .f32)
    (h : Cert.Pre_finite_inputs.fn (F := Ideal) x e batch W1 b1 W2 b2 gamma beta = fun _ => 1#1) :
    Args.Finite ⟨x, e, W1, b1, W2, b2, gamma, beta⟩ := by
  have h0 := congrFun h ValueIdx.ix0
  dsimp only [Cert.Pre_finite_inputs.fn, Cert.Pre_finite_inputs.fn_part1] at h0
  obtain ⟨h6, hbeta⟩ := IntOp.andi_eq_one.1 h0
  obtain ⟨h5, hgamma⟩ := IntOp.andi_eq_one.1 h6
  obtain ⟨h4, hb2⟩ := IntOp.andi_eq_one.1 h5
  obtain ⟨h3, hW2⟩ := IntOp.andi_eq_one.1 h4
  obtain ⟨h2, hb1⟩ := IntOp.andi_eq_one.1 h3
  obtain ⟨hx, hW1⟩ := IntOp.andi_eq_one.1 h2
  exact ⟨isReal_of_all x _ _ _ hx, isReal_of_all W1 _ _ _ hW1, isReal_of_all b1 _ _ _ hb1, isReal_of_all W2 _ _ _ hW2,
    isReal_of_all b2 _ _ _ hb2, isReal_of_all gamma _ _ _ hgamma, isReal_of_all beta _ _ _ hbeta⟩

end Cert.Spec

end
-- ==== Proof.lean ====
/- The certificate of a five-layer graph network (neighbourhood aggregation, a two-layer perceptron, a rectifier and batch
   normalisation per layer) against its reference, over the extended reals.
   Per layer the kernel's program runs two kernel regions between host stretches: the first computes the rectified
   activations tile by tile and accumulates, across the grid, each column's sum and sum of squares; the host then forms the
   mean, the one-pass variance `sumsq / n − mean²` and its reciprocal root; the second applies the affine normalisation tile by
   tile. The reference computes the two-pass variance `mean ((h − mean)²)`. Under finite inputs every intermediate value is
   a real number, and over the reals the two variances are one number; every other step is the same operation on both
   sides, so the results agree entry by entry.
   The frames: the whole run of each kernel program is one chain of segments (Proof/<Program>/Run.lean), whose post names the
   contents of every buffer at the return; the argument arrays are read back through the chain unchanged. -/
import proofs.«139862_j28269474742473_1_alg».proof.Defs
import proofs.«139862_j28269474742473_1_alg».proof.Proof.Gen.Kernel
import proofs.«139862_j28269474742473_1_alg».proof.Proof.Gen.KernelIdeal
import proofs.«139862_j28269474742473_1_alg».proof.Proof.Gen.ReferenceIdeal
import proofs.«139862_j28269474742473_1_alg».proof.Proof.Gen.Pre_finite_inputs
import proofs.«139862_j28269474742473_1_alg».proof.Proof.Kernel.Run
import proofs.«139862_j28269474742473_1_alg».proof.Proof.Kernel.RunArgs
import proofs.«139862_j28269474742473_1_alg».proof.Proof.KernelIdeal.Run
import proofs.«139862_j28269474742473_1_alg».proof.Proof.KernelIdeal.RunArgs
import proofs.«139862_j28269474742473_1_alg».proof.Proof.KernelIdeal.Final
import proofs.«139862_j28269474742473_1_alg».proof.Proof.RefValue
import proofs.«139862_j28269474742473_1_alg».proof.Proof.Finite
import Idealize.ShloMosaic.Adequacy
import Idealize.ShloMosaic.Init

set_option maxRecDepth 16384

noncomputable section

namespace Cert.Proof

open Idealize.ShloMosaic Idealize.SL.Sem

/-- The word-level kernel program runs to the end and leaves its arguments as launched. -/
theorem frame_k : Cert.frame_Kernel := fun m ρ _ =>
  (θ_run Cert.Kernel.defs _ _).mono (fun r h c =>
    ⟨(h c _ (Cert.Kernel.Reg.mem_uc Cert.Kernel.main_arg0 (by decide))).trans (Cert.Kernel.Reg.W21_main_arg0 m c),
     (h c _ (Cert.Kernel.Reg.mem_uc Cert.Kernel.main_arg1 (by decide))).trans (Cert.Kernel.Reg.W21_main_arg1 m c),
     (h c _ (Cert.Kernel.Reg.mem_uc Cert.Kernel.main_arg2 (by decide))).trans (Cert.Kernel.Reg.W21_main_arg2 m c),
     (h c _ (Cert.Kernel.Reg.mem_uc Cert.Kernel.main_arg3 (by decide))).trans (Cert.Kernel.Reg.W21_main_arg3 m c),
     (h c _ (Cert.Kernel.Reg.mem_uc Cert.Kernel.main_arg4 (by decide))).trans (Cert.Kernel.Reg.W21_main_arg4 m c),
     (h c _ (Cert.Kernel.Reg.mem_uc Cert.Kernel.main_arg5 (by decide))).trans (Cert.Kernel.Reg.W21_main_arg5 m c),
     (h c _ (Cert.Kernel.Reg.mem_uc Cert.Kernel.main_arg6 (by decide))).trans (Cert.Kernel.Reg.W21_main_arg6 m c),
     (h c _ (Cert.Kernel.Reg.mem_uc Cert.Kernel.main_arg7 (by decide))).trans (Cert.Kernel.Reg.W21_main_arg7 m c),
     (h c _ (Cert.Kernel.Reg.mem_uc Cert.Kernel.main_arg8 (by decide))).trans (Cert.Kernel.Reg.W21_main_arg8 m c)⟩)
    (Cert.Kernel.Reg.run_all (F := Bits) m ρ)

/-- The idealized kernel program runs to the end and leaves its arguments as launched. -/
theorem frame_ki : Cert.frame_KernelIdeal := fun m ρ _ =>
  (θ_run Cert.KernelIdeal.defs _ _).mono (fun r h c =>
    ⟨(h c _ (Cert.KernelIdeal.Reg.mem_uc Cert.KernelIdeal.main_arg0 (by decide))).trans (Cert.KernelIdeal.Reg.W21_main_arg0 m c),
     (h c _ (Cert.KernelIdeal.Reg.mem_uc Cert.KernelIdeal.main_arg1 (by decide))).trans (Cert.KernelIdeal.Reg.W21_main_arg1 m c),
     (h c _ (Cert.KernelIdeal.Reg.mem_uc Cert.KernelIdeal.main_arg2 (by decide))).trans (Cert.KernelIdeal.Reg.W21_main_arg2 m c),
     (h c _ (Cert.KernelIdeal.Reg.mem_uc Cert.KernelIdeal.main_arg3 (by decide))).trans (Cert.KernelIdeal.Reg.W21_main_arg3 m c),
     (h c _ (Cert.KernelIdeal.Reg.mem_uc Cert.KernelIdeal.main_arg4 (by decide))).trans (Cert.KernelIdeal.Reg.W21_main_arg4 m c),
     (h c _ (Cert.KernelIdeal.Reg.mem_uc Cert.KernelIdeal.main_arg5 (by decide))).trans (Cert.KernelIdeal.Reg.W21_main_arg5 m c),
     (h c _ (Cert.KernelIdeal.Reg.mem_uc Cert.KernelIdeal.main_arg6 (by decide))).trans (Cert.KernelIdeal.Reg.W21_main_arg6 m c),
     (h c _ (Cert.KernelIdeal.Reg.mem_uc Cert.KernelIdeal.main_arg7 (by decide))).trans (Cert.KernelIdeal.Reg.W21_main_arg7 m c),
     (h c _ (Cert.KernelIdeal.Reg.mem_uc Cert.KernelIdeal.main_arg8 (by decide))).trans (Cert.KernelIdeal.Reg.W21_main_arg8 m c)⟩)
    (Cert.KernelIdeal.Reg.run_all (F := Ideal) m ρ)

/-- The idealized reference runs to the end and leaves its arguments as launched. -/
theorem frame_r : Cert.frame_ReferenceIdeal := fun m ρ _ =>
  (θ_run Cert.ReferenceIdeal.defs _ _).mono (fun _ h c => (h c).2.2) (Cert.ReferenceIdeal.RefValue.run_spec m ρ)

/-- The ideal pass rewrote nothing. -/
theorem preserves : Cert.preserves_Kernel_KernelIdeal := trivial

/-- Both idealized programs end with the specification's network: the kernel's with the one-pass variance, the reference's
    with the two-pass one, equal where the inputs are finite. -/
theorem algebraic : Cert.algebraic_KernelIdeal_ReferenceIdeal := by
  intro m ρ m' ρ' hpre hagree
  have hfin : ∀ c, (Cert.KernelIdeal.Reg.argsAt m c).Finite := fun c => Cert.Spec.finite_of_pre _ _ _ _ _ _ _ _ _ (hpre c)
  have hargs : ∀ c, Cert.ReferenceIdeal.RefValue.argsOf (StableHlo.launchContents m' c) = Cert.KernelIdeal.Reg.argsAt m c := fun c => by
    unfold Cert.ReferenceIdeal.RefValue.argsOf Cert.KernelIdeal.Reg.argsAt
    congr 1
    · exact (hagree c).1
    · exact (hagree c).2.1
    · exact (hagree c).2.2.2.1
    · exact (hagree c).2.2.2.2.1
    · exact (hagree c).2.2.2.2.2.1
    · exact (hagree c).2.2.2.2.2.2.1
    · exact (hagree c).2.2.2.2.2.2.2.1
    · exact (hagree c).2.2.2.2.2.2.2.2
  refine ⟨fun c => Cert.Spec.outTwo Cert.KernelIdeal.Reg.aggFacts (Cert.KernelIdeal.Reg.argsAt m c) 5,
    fun c => Cert.Spec.stackTwo Cert.KernelIdeal.Reg.aggFacts (Cert.KernelIdeal.Reg.argsAt m c), ?_, ?_⟩
  · refine (θ_run Cert.KernelIdeal.defs _ _).mono (fun r h c => ?_) (Cert.KernelIdeal.Reg.run_all (F := Ideal) m ρ)
    refine ⟨?_, ?_, (h c _ (Cert.KernelIdeal.Reg.mem_uc Cert.KernelIdeal.main_arg0 (by decide))).trans (Cert.KernelIdeal.Reg.W21_main_arg0 m c),
      (h c _ (Cert.KernelIdeal.Reg.mem_uc Cert.KernelIdeal.main_arg1 (by decide))).trans (Cert.KernelIdeal.Reg.W21_main_arg1 m c),
      (h c _ (Cert.KernelIdeal.Reg.mem_uc Cert.KernelIdeal.main_arg2 (by decide))).trans (Cert.KernelIdeal.Reg.W21_main_arg2 m c),
      (h c _ (Cert.KernelIdeal.Reg.mem_uc Cert.KernelIdeal.main_arg3 (by decide))).trans (Cert.KernelIdeal.Reg.W21_main_arg3 m c),
      (h c _ (Cert.KernelIdeal.Reg.mem_uc Cert.KernelIdeal.main_arg4 (by decide))).trans (Cert.KernelIdeal.Reg.W21_main_arg4 m c),
      (h c _ (Cert.KernelIdeal.Reg.mem_uc Cert.KernelIdeal.main_arg5 (by decide))).trans (Cert.KernelIdeal.Reg.W21_main_arg5 m c),
      (h c _ (Cert.KernelIdeal.Reg.mem_uc Cert.KernelIdeal.main_arg6 (by decide))).trans (Cert.KernelIdeal.Reg.W21_main_arg6 m c),
      (h c _ (Cert.KernelIdeal.Reg.mem_uc Cert.KernelIdeal.main_arg7 (by decide))).trans (Cert.KernelIdeal.Reg.W21_main_arg7 m c),
      (h c _ (Cert.KernelIdeal.Reg.mem_uc Cert.KernelIdeal.main_arg8 (by decide))).trans (Cert.KernelIdeal.Reg.W21_main_arg8 m c)⟩
    · exact (h c _ (Cert.KernelIdeal.Reg.mem_uc Cert.KernelIdeal.main_v188 (by decide))).trans
        ((Cert.KernelIdeal.Reg.final_out m c).trans (Cert.Spec.outOne_eq_outTwo _ _ (hfin c) 5))
    · exact (h c _ (Cert.KernelIdeal.Reg.mem_uc Cert.KernelIdeal.main_v194 (by decide))).trans
        ((Cert.KernelIdeal.Reg.final_stack m c).trans (Cert.Spec.stackOne_eq_stackTwo _ _ (hfin c)))
  · refine (θ_run Cert.ReferenceIdeal.defs _ _).mono (fun r h c => ?_) (Cert.ReferenceIdeal.RefValue.run_spec m' ρ')
    refine ⟨?_, ?_, (h c).2.2⟩
    · rw [(h c).1, hargs c]
    · rw [(h c).2.1, hargs c]

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
